-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v330)) (v1 : (c : Dev Cert.KernelIdeal.nD) → Buf (Elt Ideal) ((c.tc : Thread Cert.KernelIdeal.nD Cert.KernelIdeal.τ).loc Cert.KernelIdeal.main_v340)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v330) = v0 c
          ∧ r.2.mem ((c.tc : Thread Cert.KernelIdeal.nD Cert.KernelIdeal.τ).loc Cert.KernelIdeal.main_v340) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v102) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v295) = v0 c
          ∧ r.2.mem ((c.tc : Thread Cert.ReferenceIdeal.nD Cert.ReferenceIdeal.τ).loc Cert.ReferenceIdeal.main_v309) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_v79) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x2000 : Shape := ⟨2, ![20000, 2000]⟩
abbrev S2x200000 : Shape := ⟨2, ![2, 200000]⟩
abbrev S200000x6 : Shape := ⟨2, ![200000, 6]⟩
abbrev S512x2000 : Shape := ⟨2, ![512, 2000]⟩
abbrev S512 : Shape := ⟨1, ![512]⟩
abbrev S512x1024 : Shape := ⟨2, ![512, 1024]⟩
abbrev S3x512x16 : Shape := ⟨3, ![3, 512, 16]⟩
abbrev S3x16x16 : Shape := ⟨3, ![3, 16, 16]⟩
abbrev S256x64 : Shape := ⟨2, ![256, 64]⟩
abbrev S256 : Shape := ⟨1, ![256]⟩
abbrev S2x256 : Shape := ⟨2, ![2, 256]⟩
abbrev S2 : Shape := ⟨1, ![2]⟩
abbrev S256x512 : Shape := ⟨2, ![256, 512]⟩
abbrev S20x256 : Shape := ⟨2, ![20, 256]⟩
abbrev S20 : Shape := ⟨1, ![20]⟩
abbrev S128x3 : Shape := ⟨2, ![128, 3]⟩
abbrev S128 : Shape := ⟨1, ![128]⟩
abbrev S128x128 : Shape := ⟨2, ![128, 128]⟩
abbrev S_ : Shape := ⟨0, ![]⟩

class Facts : Prop where
  bcast_S_S20000x2000 : S_.BroadcastsInDim S20000x2000 (![] : Fin 0 → Fin S20000x2000.rank)
  reducesTo_S20000x2000_S_d0_1 : S20000x2000.ReducesTo [0, 1] S_
  h_S_ : 0 < S_.numel
  bcast_S_S200000x6 : S_.BroadcastsInDim S200000x6 (![] : Fin 0 → Fin S200000x6.rank)
  reducesTo_S200000x6_S_d0_1 : S200000x6.ReducesTo [0, 1] S_
  bcast_S_S512x2000 : S_.BroadcastsInDim S512x2000 (![] : Fin 0 → Fin S512x2000.rank)
  reducesTo_S512x2000_S_d0_1 : S512x2000.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S3x512x16 : S_.BroadcastsInDim S3x512x16 (![] : Fin 0 → Fin S3x512x16.rank)
  reducesTo_S3x512x16_S_d0_1_2 : S3x512x16.ReducesTo [0, 1, 2] S_
  bcast_S_S3x16x16 : S_.BroadcastsInDim S3x16x16 (![] : Fin 0 → Fin S3x16x16.rank)
  reducesTo_S3x16x16_S_d0_1_2 : S3x16x16.ReducesTo [0, 1, 2] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_
  bcast_S_S256x512 : S_.BroadcastsInDim S256x512 (![] : Fin 0 → Fin S256x512.rank)
  reducesTo_S256x512_S_d0_1 : S256x512.ReducesTo [0, 1] S_
  bcast_S_S20x256 : S_.BroadcastsInDim S20x256 (![] : Fin 0 → Fin S20x256.rank)
  reducesTo_S20x256_S_d0_1 : S20x256.ReducesTo [0, 1] S_
  bcast_S_S20 : S_.BroadcastsInDim S20 (![] : Fin 0 → Fin S20.rank)
  reducesTo_S20_S_d0 : S20.ReducesTo [0] S_
  bcast_S_S128x3 : S_.BroadcastsInDim S128x3 (![] : Fin 0 → Fin S128x3.rank)
  reducesTo_S128x3_S_d0_1 : S128x3.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part6 {F : FTy → Type} [FloatOps F] (main_arg22 : FVec F S128 .f32) (main_arg23 : FVec F S128x128 .f32) (main_arg24 : FVec F S128 .f32) (main_v98 : IVec S_ 1) (main_v101 : IVec S128x3 1) (main_c_39 : IVec S_ 1) : IVec S_ 1 :=
  let main_v102 : IVec S_ 1 := (fun x v => Host.reduce IntOp.andi x v reducesTo_S128x3_S_d0_1 h_S_) main_v101 main_c_39
  let main_v103 : IVec S_ 1 := andi main_v98 main_v102
  let main_v104 : FVec F S128 .f32 := Host.absf main_arg22
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x128 .f32 := Host.absf main_arg23
  let main_cst_42 : FVec F S_ .f32 := constant S_ .f32 0x7F800000#32
  let main_v110 : FVec F S128x128 .f32 := broadcastInDim S128x128 ![] bcast_S_S128x128 main_cst_42
  let main_v111 : IVec S128x128 1 := cmpf .olt main_v109 main_v110
  let main_c_43 : IVec S_ 1 := constantI S_ 1 1#1
  let main_v112 : IVec S_ 1 := (fun x v => Host.reduce IntOp.andi x v reducesTo_S128x128_S_d0_1 h_S_) main_v111 main_c_43
  let main_v113 : IVec S_ 1 := andi main_v108 main_v112
  let main_v114 : FVec F S128 .f32 := Host.absf main_arg24
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  main_v118

def fn_part5 {F : FTy → Type} [FloatOps F] (main_arg19 : FVec F S20x256 .f32) (main_arg20 : FVec F S20 .f32) (main_arg21 : FVec F S128x3 .f32) (main_arg22 : FVec F S128 .f32) (main_arg23 : FVec F S128x128 .f32) (main_arg24 : FVec F S128 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S20x256 .f32 := Host.absf main_arg19
  let main_cst_34 : FVec F S_ .f32 := constant S_ .f32 0x7F800000#32
  let main_v90 : FVec F S20x256 .f32 := broadcastInDim S20x256 ![] bcast_S_S20x256 main_cst_34
  let main_v91 : IVec S20x256 1 := cmpf .olt main_v89 main_v90
  let main_c_35 : IVec S_ 1 := constantI S_ 1 1#1
  let main_v92 : IVec S_ 1 := (fun x v => Host.reduce IntOp.andi x v reducesTo_S20x256_S_d0_1 h_S_) main_v91 main_c_35
  let main_v93 : IVec S_ 1 := andi main_v88 main_v92
  let main_v94 : FVec F S20 .f32 := Host.absf main_arg20
  let main_cst_36 : FVec F S_ .f32 := constant S_ .f32 0x7F800000#32
  let main_v95 : FVec F S20 .f32 := broadcastInDim S20 ![] bcast_S_S20 main_cst_36
  let main_v96 : IVec S20 1 := cmpf .olt main_v94 main_v95
  let main_c_37 : IVec S_ 1 := constantI S_ 1 1#1
  let main_v97 : IVec S_ 1 := (fun x v => Host.reduce IntOp.andi x v reducesTo_S20_S_d0 h_S_) main_v96 main_c_37
  let main_v98 : IVec S_ 1 := andi main_v93 main_v97
  let main_v99 : FVec F S128x3 .f32 := Host.absf main_arg21
  let main_cst_38 : FVec F S_ .f32 := constant S_ .f32 0x7F800000#32
  let main_v100 : FVec F S128x3 .f32 := broadcastInDim S128x3 ![] bcast_S_S128x3 main_cst_38
  let main_v101 : IVec S128x3 1 := cmpf .olt main_v99 main_v100
  let main_c_39 : IVec S_ 1 := constantI S_ 1 1#1
  fn_part6 (F := F) main_arg22 main_arg23 main_arg24 main_v98 main_v101 main_c_39

def fn_part4 {F : FTy → Type} [FloatOps F] (main_arg15 : FVec F S2x256 .f32) (main_arg16 : FVec F S2 .f32) (main_arg17 : FVec F S256x512 .f32) (main_arg18 : FVec F S256 .f32) (main_arg19 : FVec F S20x256 .f32) (main_arg20 : FVec F S20 .f32) (main_arg21 : FVec F S128x3 .f32) (main_arg22 : FVec F S128 .f32) (main_arg23 : FVec F S128x128 .f32) (main_arg24 : FVec F S128 .f32) (main_v63 : IVec S_ 1) (main_v67 : IVec S_ 1) : IVec S_ 1 :=
  let main_v68 : IVec S_ 1 := andi main_v63 main_v67
  let main_v69 : FVec F S2x256 .f32 := Host.absf main_arg15
  let main_cst_26 : FVec F S_ .f32 := constant S_ .f32 0x7F800000#32
  let main_v70 : FVec F S2x256 .f32 := broadcastInDim S2x256 ![] bcast_S_S2x256 main_cst_26
  let main_v71 : IVec S2x256 1 := cmpf .olt main_v69 main_v70
  let main_c_27 : IVec S_ 1 := constantI S_ 1 1#1
  let main_v72 : IVec S_ 1 := (fun x v => Host.reduce IntOp.andi x v reducesTo_S2x256_S_d0_1 h_S_) main_v71 main_c_27
  let main_v73 : IVec S_ 1 := andi main_v68 main_v72
  let main_v74 : FVec F S2 .f32 := Host.absf main_arg16
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  let main_v79 : FVec F S256x512 .f32 := Host.absf main_arg17
  let main_cst_30 : FVec F S_ .f32 := constant S_ .f32 0x7F800000#32
  let main_v80 : FVec F S256x512 .f32 := broadcastInDim S256x512 ![] bcast_S_S256x512 main_cst_30
  let main_v81 : IVec S256x512 1 := cmpf .olt main_v79 main_v80
  let main_c_31 : IVec S_ 1 := constantI S_ 1 1#1
  let main_v82 : IVec S_ 1 := (fun x v => Host.reduce IntOp.andi x v reducesTo_S256x512_S_d0_1 h_S_) main_v81 main_c_31
  let main_v83 : IVec S_ 1 := andi main_v78 main_v82
  let main_v84 : FVec F S256 .f32 := Host.absf main_arg18
  let main_cst_32 : FVec F S_ .f32 := constant S_ .f32 0x7F800000#32
  fn_part5 (F := F) main_arg19 main_arg20 main_arg21 main_arg22 main_arg23 main_arg24 main_v83 main_v84 main_cst_32

def fn_part3 {F : FTy → Type} [FloatOps F] (main_arg12 : FVec F S3x16x16 .f32) (main_arg13 : FVec F S256x64 .f32) (main_arg14 : FVec F S256 .f32) (main_arg15 : FVec F S2x256 .f32) (main_arg16 : FVec F S2 .f32) (main_arg17 : FVec F S256x512 .f32) (main_arg18 : FVec F S256 .f32) (main_arg19 : FVec F S20x256 .f32) (main_arg20 : FVec F S20 .f32) (main_arg21 : FVec F S128x3 .f32) (main_arg22 : FVec F S128 .f32) (main_arg23 : FVec F S128x128 .f32) (main_arg24 : FVec F S128 .f32) (main_v48 : IVec S_ 1) (main_v49 : FVec F S3x16x16 .f32) (main_v50 : FVec F S3x16x16 .f32) : IVec S_ 1 :=
  let main_v51 : IVec S3x16x16 1 := cmpf .olt main_v49 main_v50
  let main_c_19 : IVec S_ 1 := constantI S_ 1 1#1
  let main_v52 : IVec S_ 1 := (fun x v => Host.reduce IntOp.andi x v reducesTo_S3x16x16_S_d0_1_2 h_S_) main_v51 main_c_19
  let main_v53 : IVec S_ 1 := andi main_v48 main_v52
  let main_v54 : FVec F S3x16x16 .f32 := Host.absf main_arg12
  let main_cst_20 : FVec F S_ .f32 := constant S_ .f32 0x7F800000#32
  let main_v55 : FVec F S3x16x16 .f32 := broadcastInDim S3x16x16 ![] bcast_S_S3x16x16 main_cst_20
  let main_v56 : IVec S3x16x16 1 := cmpf .olt main_v54 main_v55
  let main_c_21 : IVec S_ 1 := constantI S_ 1 1#1
  let main_v57 : IVec S_ 1 := (fun x v => Host.reduce IntOp.andi x v reducesTo_S3x16x16_S_d0_1_2 h_S_) main_v56 main_c_21
  let main_v58 : IVec S_ 1 := andi main_v53 main_v57
  let main_v59 : FVec F S256x64 .f32 := Host.absf main_arg13
  let main_cst_22 : FVec F S_ .f32 := constant S_ .f32 0x7F800000#32
  let main_v60 : FVec F S256x64 .f32 := broadcastInDim S256x64 ![] bcast_S_S256x64 main_cst_22
  let main_v61 : IVec S256x64 1 := cmpf .olt main_v59 main_v60
  let main_c_23 : IVec S_ 1 := constantI S_ 1 1#1
  let main_v62 : IVec S_ 1 := (fun x v => Host.reduce IntOp.andi x v reducesTo_S256x64_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_arg17 main_arg18 main_arg19 main_arg20 main_arg21 main_arg22 main_arg23 main_arg24 main_v63 main_v67

def fn_part2 {F : FTy → Type} [FloatOps F] (main_arg8 : FVec F S512 .f32) (main_arg9 : FVec F S3x512x16 .f32) (main_arg10 : FVec F S3x16x16 .f32) (main_arg11 : FVec F S3x16x16 .f32) (main_arg12 : FVec F S3x16x16 .f32) (main_arg13 : FVec F S256x64 .f32) (main_arg14 : FVec F S256 .f32) (main_arg15 : FVec F S2x256 .f32) (main_arg16 : FVec F S2 .f32) (main_arg17 : FVec F S256x512 .f32) (main_arg18 : FVec F S256 .f32) (main_arg19 : FVec F S20x256 .f32) (main_arg20 : FVec F S20 .f32) (main_arg21 : FVec F S128x3 .f32) (main_arg22 : FVec F S128 .f32) (main_arg23 : FVec F S128x128 .f32) (main_arg24 : FVec F S128 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S3x512x16 .f32 := Host.absf main_arg9
  let main_cst_14 : FVec F S_ .f32 := constant S_ .f32 0x7F800000#32
  let main_v40 : FVec F S3x512x16 .f32 := broadcastInDim S3x512x16 ![] bcast_S_S3x512x16 main_cst_14
  let main_v41 : IVec S3x512x16 1 := cmpf .olt main_v39 main_v40
  let main_c_15 : IVec S_ 1 := constantI S_ 1 1#1
  let main_v42 : IVec S_ 1 := (fun x v => Host.reduce IntOp.andi x v reducesTo_S3x512x16_S_d0_1_2 h_S_) main_v41 main_c_15
  let main_v43 : IVec S_ 1 := andi main_v38 main_v42
  let main_v44 : FVec F S3x16x16 .f32 := Host.absf main_arg10
  let main_cst_16 : FVec F S_ .f32 := constant S_ .f32 0x7F800000#32
  let main_v45 : FVec F S3x16x16 .f32 := broadcastInDim S3x16x16 ![] bcast_S_S3x16x16 main_cst_16
  let main_v46 : IVec S3x16x16 1 := cmpf .olt main_v44 main_v45
  let main_c_17 : IVec S_ 1 := constantI S_ 1 1#1
  let main_v47 : IVec S_ 1 := (fun x v => Host.reduce IntOp.andi x v reducesTo_S3x16x16_S_d0_1_2 h_S_) main_v46 main_c_17
  let main_v48 : IVec S_ 1 := andi main_v43 main_v47
  let main_v49 : FVec F S3x16x16 .f32 := Host.absf main_arg11
  let main_cst_18 : FVec F S_ .f32 := constant S_ .f32 0x7F800000#32
  let main_v50 : FVec F S3x16x16 .f32 := broadcastInDim S3x16x16 ![] bcast_S_S3x16x16 main_cst_18
  fn_part3 (F := F) main_arg12 main_arg13 main_arg14 main_arg15 main_arg16 main_arg17 main_arg18 main_arg19 main_arg20 main_arg21 main_arg22 main_arg23 main_arg24 main_v48 main_v49 main_v50

def fn_part1 {F : FTy → Type} [FloatOps F] (main_arg5 : FVec F S512x2000 .f32) (main_arg6 : FVec F S512 .f32) (main_arg7 : FVec F S512x1024 .f32) (main_arg8 : FVec F S512 .f32) (main_arg9 : FVec F S3x512x16 .f32) (main_arg10 : FVec F S3x16x16 .f32) (main_arg11 : FVec F S3x16x16 .f32) (main_arg12 : FVec F S3x16x16 .f32) (main_arg13 : FVec F S256x64 .f32) (main_arg14 : FVec F S256 .f32) (main_arg15 : FVec F S2x256 .f32) (main_arg16 : FVec F S2 .f32) (main_arg17 : FVec F S256x512 .f32) (main_arg18 : FVec F S256 .f32) (main_arg19 : FVec F S20x256 .f32) (main_arg20 : FVec F S20 .f32) (main_arg21 : FVec F S128x3 .f32) (main_arg22 : FVec F S128 .f32) (main_arg23 : FVec F S128x128 .f32) (main_arg24 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x2000 .f32 := Host.absf main_arg5
  let main_cst_6 : FVec F S_ .f32 := constant S_ .f32 0x7F800000#32
  let main_v20 : FVec F S512x2000 .f32 := broadcastInDim S512x2000 ![] bcast_S_S512x2000 main_cst_6
  let main_v21 : IVec S512x2000 1 := cmpf .olt main_v19 main_v20
  let main_c_7 : IVec S_ 1 := constantI S_ 1 1#1
  let main_v22 : IVec S_ 1 := (fun x v => Host.reduce IntOp.andi x v reducesTo_S512x2000_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1024 .f32 := Host.absf main_arg7
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S20000x2000 .f32) (main_arg1 : IVec S2x200000 32) (main_arg2 : FVec F S200000x6 .f32) (main_arg3 : FVec F S512x2000 .f32) (main_arg4 : FVec F S512 .f32) (main_arg5 : FVec F S512x2000 .f32) (main_arg6 : FVec F S512 .f32) (main_arg7 : FVec F S512x1024 .f32) (main_arg8 : FVec F S512 .f32) (main_arg9 : FVec F S3x512x16 .f32) (main_arg10 : FVec F S3x16x16 .f32) (main_arg11 : FVec F S3x16x16 .f32) (main_arg12 : FVec F S3x16x16 .f32) (main_arg13 : FVec F S256x64 .f32) (main_arg14 : FVec F S256 .f32) (main_arg15 : FVec F S2x256 .f32) (main_arg16 : FVec F S2 .f32) (main_arg17 : FVec F S256x512 .f32) (main_arg18 : FVec F S256 .f32) (main_arg19 : FVec F S20x256 .f32) (main_arg20 : FVec F S20 .f32) (main_arg21 : FVec F S128x3 .f32) (main_arg22 : FVec F S128 .f32) (main_arg23 : FVec F S128x128 .f32) (main_arg24 : FVec F S128 .f32) : IVec S_ 1 :=
  let main_v0 : FVec F S20000x2000 .f32 := Host.absf main_arg0
  let main_cst : FVec F S_ .f32 := constant S_ .f32 0x7F800000#32
  let main_v1 : FVec F S20000x2000 .f32 := broadcastInDim S20000x2000 ![] bcast_S_S20000x2000 main_cst
  let main_v2 : IVec S20000x2000 1 := cmpf .olt main_v0 main_v1
  let main_c : IVec S_ 1 := constantI S_ 1 1#1
  let main_v3 : IVec S_ 1 := (fun x v => Host.reduce IntOp.andi x v reducesTo_S20000x2000_S_d0_1 h_S_) main_v2 main_c
  let main_v4 : FVec F S200000x6 .f32 := Host.absf main_arg2
  let main_cst_0 : FVec F S_ .f32 := constant S_ .f32 0x7F800000#32
  let main_v5 : FVec F S200000x6 .f32 := broadcastInDim S200000x6 ![] bcast_S_S200000x6 main_cst_0
  let main_v6 : IVec S200000x6 1 := cmpf .olt main_v4 main_v5
  let main_c_1 : IVec S_ 1 := constantI S_ 1 1#1
  let main_v7 : IVec S_ 1 := (fun x v => Host.reduce IntOp.andi x v reducesTo_S200000x6_S_d0_1 h_S_) main_v6 main_c_1
  let main_v8 : IVec S_ 1 := andi main_v3 main_v7
  let main_v9 : FVec F S512x2000 .f32 := Host.absf main_arg3
  let main_cst_2 : FVec F S_ .f32 := constant S_ .f32 0x7F800000#32
  let main_v10 : FVec F S512x2000 .f32 := broadcastInDim S512x2000 ![] bcast_S_S512x2000 main_cst_2
  let main_v11 : IVec S512x2000 1 := cmpf .olt main_v9 main_v10
  let main_c_3 : IVec S_ 1 := constantI S_ 1 1#1
  let main_v12 : IVec S_ 1 := (fun x v => Host.reduce IntOp.andi x v reducesTo_S512x2000_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S20000x2000 : Shape := ⟨2, ![20000, 2000]⟩
abbrev S2x200000 : Shape := ⟨2, ![2, 200000]⟩
abbrev S200000x6 : Shape := ⟨2, ![200000, 6]⟩
abbrev S512x2000 : Shape := ⟨2, ![512, 2000]⟩
abbrev S512 : Shape := ⟨1, ![512]⟩
abbrev S512x1024 : Shape := ⟨2, ![512, 1024]⟩
abbrev S3x512x16 : Shape := ⟨3, ![3, 512, 16]⟩
abbrev S3x16x16 : Shape := ⟨3, ![3, 16, 16]⟩
abbrev S256x64 : Shape := ⟨2, ![256, 64]⟩
abbrev S256 : Shape := ⟨1, ![256]⟩
abbrev S2x256 : Shape := ⟨2, ![2, 256]⟩
abbrev S2 : Shape := ⟨1, ![2]⟩
abbrev S256x512 : Shape := ⟨2, ![256, 512]⟩
abbrev S20x256 : Shape := ⟨2, ![20, 256]⟩
abbrev S20 : Shape := ⟨1, ![20]⟩
abbrev S128x3 : Shape := ⟨2, ![128, 3]⟩
abbrev S128 : Shape := ⟨1, ![128]⟩
abbrev S128x128 : Shape := ⟨2, ![128, 128]⟩
abbrev S1x200000 : Shape := ⟨2, ![1, 200000]⟩
abbrev S200000 : Shape := ⟨1, ![200000]⟩
abbrev S1024x2000 : Shape := ⟨2, ![1024, 2000]⟩
abbrev S1024 : Shape := ⟨1, ![1024]⟩
abbrev S2000x1024 : Shape := ⟨2, ![2000, 1024]⟩
abbrev S1x1024 : Shape := ⟨2, ![1, 1024]⟩
abbrev S20000x1024 : Shape := ⟨2, ![20000, 1024]⟩
abbrev S400x2000 : Shape := ⟨2, ![400, 2000]⟩
abbrev S400x1024 : Shape := ⟨2, ![400, 1024]⟩
abbrev S20000x512 : Shape := ⟨2, ![20000, 512]⟩
abbrev S200000x3 : Shape := ⟨2, ![200000, 3]⟩
abbrev S3x128 : Shape := ⟨2, ![3, 128]⟩
abbrev S200000x128 : Shape := ⟨2, ![200000, 128]⟩
abbrev S1x128 : Shape := ⟨2, ![1, 128]⟩
abbrev S_ : Shape := ⟨0, ![]⟩
abbrev S2000x128 : Shape := ⟨2, ![2000, 128]⟩
abbrev S200000x1 : Shape := ⟨2, ![200000, 1]⟩
abbrev S200000x512 : Shape := ⟨2, ![200000, 512]⟩
abbrev S20000 : Shape := ⟨1, ![20000]⟩
abbrev S1024x512 : Shape := ⟨2, ![1024, 512]⟩
abbrev S1x512 : Shape := ⟨2, ![1, 512]⟩
abbrev S400x512 : Shape := ⟨2, ![400, 512]⟩
abbrev S1x512x16 : Shape := ⟨3, ![1, 512, 16]⟩
abbrev S512x16 : Shape := ⟨2, ![512, 16]⟩
abbrev S512x48 : Shape := ⟨2, ![512, 48]⟩
abbrev S20000x48 : Shape := ⟨2, ![20000, 48]⟩
abbrev S20000x16 : Shape := ⟨2, ![20000, 16]⟩
abbrev S200000x16 : Shape := ⟨2, ![200000, 16]⟩
abbrev S1x16x16 : Shape := ⟨3, ![1, 16, 16]⟩
abbrev S16x16 : Shape := ⟨2, ![16, 16]⟩
abbrev S20000x32 : Shape := ⟨2, ![20000, 32]⟩
abbrev S20000x64 : Shape := ⟨2, ![20000, 64]⟩
abbrev S64x256 : Shape := ⟨2, ![64, 256]⟩
abbrev S1x256 : Shape := ⟨2, ![1, 256]⟩
abbrev S20000x256 : Shape := ⟨2, ![20000, 256]⟩
abbrev S400x64 : Shape := ⟨2, ![400, 64]⟩
abbrev S400x256 : Shape := ⟨2, ![400, 256]⟩
abbrev S256x2 : Shape := ⟨2, ![256, 2]⟩
abbrev S20000x2 : Shape := ⟨2, ![20000, 2]⟩
abbrev S1x2 : Shape := ⟨2, ![1, 2]⟩
abbrev S512x256 : Shape := ⟨2, ![512, 256]⟩
abbrev S256x20 : Shape := ⟨2, ![256, 20]⟩
abbrev S20000x20 : Shape := ⟨2, ![20000, 20]⟩
abbrev S1x20 : Shape := ⟨2, ![1, 20]⟩

abbrev nBuf : Space → Nat
  | .hbm => 431
  | .vmem => 36
  | .smem => 0
  | _ => 0

abbrev hbmTy0_0 (i : Nat) : BufTy := match i % 128 with
  | 0 => ⟨S20000x2000, .f32⟩
  | 1 => ⟨S2x200000, .i32⟩
  | 2 => ⟨S200000x6, .f32⟩
  | 3 => ⟨S512x2000, .f32⟩
  | 4 => ⟨S512, .f32⟩
  | 5 => ⟨S512x2000, .f32⟩
  | 6 => ⟨S512, .f32⟩
  | 7 => ⟨S512x1024, .f32⟩
  | 8 => ⟨S512, .f32⟩
  | 9 => ⟨S3x512x16, .f32⟩
  | 10 => ⟨S3x16x16, .f32⟩
  | 11 => ⟨S3x16x16, .f32⟩
  | 12 => ⟨S3x16x16, .f32⟩
  | 13 => ⟨S256x64, .f32⟩
  | 14 => ⟨S256, .f32⟩
  | 15 => ⟨S2x256, .f32⟩
  | 16 => ⟨S2, .f32⟩
  | 17 => ⟨S256x512, .f32⟩
  | 18 => ⟨S256, .f32⟩
  | 19 => ⟨S20x256, .f32⟩
  | 20 => ⟨S20, .f32⟩
  | 21 => ⟨S128x3, .f32⟩
  | 22 => ⟨S128, .f32⟩
  | 23 => ⟨S128x128, .f32⟩
  | 24 => ⟨S128, .f32⟩
  | 25 => ⟨S1x200000, .i32⟩
  | 26 => ⟨S200000, .i32⟩
  | 27 => ⟨S1x200000, .i32⟩
  | 28 => ⟨S200000, .i32⟩
  | 29 => ⟨S20000x2000, .bf16⟩
  | 30 => ⟨S1024x2000, .f32⟩
  | 31 => ⟨S1024, .f32⟩
  | 32 => ⟨S1024x2000, .bf16⟩
  | 33 => ⟨S2000x1024, .bf16⟩
  | 34 => ⟨S1x1024, .f32⟩
  | 35 => ⟨S20000x1024, .f32⟩
  | 36 => ⟨S20000x512, .f32⟩
  | 37 => ⟨S20000x512, .f32⟩
  | 38 => ⟨S200000x3, .f32⟩
  | 39 => ⟨S3x128, .f32⟩
  | 40 => ⟨S200000x128, .f32⟩
  | 41 => ⟨S1x128, .f32⟩
  | 42 => ⟨S200000x128, .f32⟩
  | 43 => ⟨S200000x128, .f32⟩
  | 44 => ⟨S_, .f32⟩
  | 45 => ⟨S200000x128, .f32⟩
  | 46 => ⟨S200000x128, .f32⟩
  | 47 => ⟨S_, .f32⟩
  | 48 => ⟨S200000x128, .f32⟩
  | 49 => ⟨S200000x128, .f32⟩
  | 50 => ⟨S200000x128, .bf16⟩
  | 51 => ⟨S200000x3, .f32⟩
  | 52 => ⟨S3x128, .f32⟩
  | 53 => ⟨S200000x128, .f32⟩
  | 54 => ⟨S1x128, .f32⟩
  | 55 => ⟨S200000x128, .f32⟩
  | 56 => ⟨S200000x128, .f32⟩
  | 57 => ⟨S_, .f32⟩
  | 58 => ⟨S200000x128, .f32⟩
  | 59 => ⟨S200000x128, .f32⟩
  | 60 => ⟨S_, .f32⟩
  | 61 => ⟨S200000x128, .f32⟩
  | 62 => ⟨S200000x128, .f32⟩
  | 63 => ⟨S200000x128, .bf16⟩
  | 64 => ⟨S128x128, .bf16⟩
  | 65 => ⟨S128x128, .bf16⟩
  | 66 => ⟨S1x128, .f32⟩
  | 67 => ⟨S200000x128, .f32⟩
  | 68 => ⟨S1x128, .f32⟩
  | 69 => ⟨S200000x128, .f32⟩
  | 70 => ⟨S20000x512, .bf16⟩
  | 71 => ⟨S_, .i32⟩
  | 72 => ⟨S200000, .i32⟩
  | 73 => ⟨S200000, .i1⟩
  | 74 => ⟨S_, .i32⟩
  | 75 => ⟨S200000, .i32⟩
  | 76 => ⟨S200000, .i32⟩
  | 77 => ⟨S200000, .i32⟩
  | 78 => ⟨S200000x1, .i32⟩
  | 79 => ⟨S200000x512, .bf16⟩
  | 80 => ⟨S200000x512, .f32⟩
  | 81 => ⟨S_, .i32⟩
  | 82 => ⟨S200000, .i32⟩
  | 83 => ⟨S200000, .i1⟩
  | 84 => ⟨S_, .i32⟩
  | 85 => ⟨S200000, .i32⟩
  | 86 => ⟨S200000, .i32⟩
  | 87 => ⟨S200000, .i32⟩
  | 88 => ⟨S200000x1, .i32⟩
  | 89 => ⟨S200000x512, .bf16⟩
  | 90 => ⟨S200000x512, .f32⟩
  | 91 => ⟨S200000x512, .f32⟩
  | 92 => ⟨S_, .f32⟩
  | 93 => ⟨S200000, .f32⟩
  | 94 => ⟨S20000x512, .f32⟩
  | 95 => ⟨S_, .f32⟩
  | 96 => ⟨S20000, .f32⟩
  | 97 => ⟨S_, .i32⟩
  | 98 => ⟨S200000, .i32⟩
  | 99 => ⟨S200000, .i1⟩
  | 100 => ⟨S_, .i32⟩
  | 101 => ⟨S200000, .i32⟩
  | 102 => ⟨S200000, .i32⟩
  | 103 => ⟨S200000, .i32⟩
  | 104 => ⟨S200000x1, .i32⟩
  | 105 => ⟨S200000, .f32⟩
  | 106 => ⟨S_, .i32⟩
  | 107 => ⟨S200000, .i32⟩
  | 108 => ⟨S200000, .i1⟩
  | 109 => ⟨S_, .i32⟩
  | 110 => ⟨S200000, .i32⟩
  | 111 => ⟨S200000, .i32⟩
  | 112 => ⟨S200000, .i32⟩
  | 113 => ⟨S200000x1, .i32⟩
  | 114 => ⟨S200000, .f32⟩
  | 115 => ⟨S200000x128, .f32⟩
  | 116 => ⟨S_, .f32⟩
  | 117 => ⟨S200000, .f32⟩
  | 118 => ⟨S200000, .f32⟩
  | 119 => ⟨S200000x128, .f32⟩
  | 120 => ⟨S_, .f32⟩
  | 121 => ⟨S200000, .f32⟩
  | 122 => ⟨S200000x128, .f32⟩
  | 123 => ⟨S_, .f32⟩
  | 124 => ⟨S200000, .f32⟩
  | 125 => ⟨S200000, .f32⟩
  | 126 => ⟨S200000, .f32⟩
  | 127 => ⟨S_, .f32⟩
  | _ => ⟨S20000x2000, .f32⟩

abbrev hbmTy0_1 (i : Nat) : BufTy := match i % 128 with
  | 0 => ⟨S200000, .f32⟩
  | 1 => ⟨S200000, .f32⟩
  | 2 => ⟨S200000, .f32⟩
  | 3 => ⟨S200000, .f32⟩
  | 4 => ⟨S_, .f32⟩
  | 5 => ⟨S200000, .f32⟩
  | 6 => ⟨S200000, .f32⟩
  | 7 => ⟨S200000, .f32⟩
  | 8 => ⟨S200000, .f32⟩
  | 9 => ⟨S_, .f32⟩
  | 10 => ⟨S200000, .f32⟩
  | 11 => ⟨S200000, .f32⟩
  | 12 => ⟨S_, .f32⟩
  | 13 => ⟨S200000, .f32⟩
  | 14 => ⟨S200000, .f32⟩
  | 15 => ⟨S20000x1024, .f32⟩
  | 16 => ⟨S20000x1024, .bf16⟩
  | 17 => ⟨S512x1024, .bf16⟩
  | 18 => ⟨S1024x512, .bf16⟩
  | 19 => ⟨S1x512, .f32⟩
  | 20 => ⟨S20000x512, .f32⟩
  | 21 => ⟨S_, .f32⟩
  | 22 => ⟨S20000, .f32⟩
  | 23 => ⟨S200000x1, .i32⟩
  | 24 => ⟨S20000, .f32⟩
  | 25 => ⟨S_, .f32⟩
  | 26 => ⟨S20000, .f32⟩
  | 27 => ⟨S20000, .i1⟩
  | 28 => ⟨S20000, .f32⟩
  | 29 => ⟨S_, .f32⟩
  | 30 => ⟨S_, .f32⟩
  | 31 => ⟨S20000, .f32⟩
  | 32 => ⟨S20000, .f32⟩
  | 33 => ⟨S_, .i32⟩
  | 34 => ⟨S200000, .i32⟩
  | 35 => ⟨S200000, .i1⟩
  | 36 => ⟨S_, .i32⟩
  | 37 => ⟨S200000, .i32⟩
  | 38 => ⟨S200000, .i32⟩
  | 39 => ⟨S200000, .i32⟩
  | 40 => ⟨S200000x1, .i32⟩
  | 41 => ⟨S200000, .f32⟩
  | 42 => ⟨S200000, .f32⟩
  | 43 => ⟨S_, .i32⟩
  | 44 => ⟨S200000, .i32⟩
  | 45 => ⟨S200000, .i1⟩
  | 46 => ⟨S_, .i32⟩
  | 47 => ⟨S200000, .i32⟩
  | 48 => ⟨S200000, .i32⟩
  | 49 => ⟨S200000, .i32⟩
  | 50 => ⟨S200000x1, .i32⟩
  | 51 => ⟨S200000, .f32⟩
  | 52 => ⟨S200000, .f32⟩
  | 53 => ⟨S1x512x16, .f32⟩
  | 54 => ⟨S512x16, .f32⟩
  | 55 => ⟨S1x512x16, .f32⟩
  | 56 => ⟨S512x16, .f32⟩
  | 57 => ⟨S1x512x16, .f32⟩
  | 58 => ⟨S512x16, .f32⟩
  | 59 => ⟨S512x48, .f32⟩
  | 60 => ⟨S20000x48, .f32⟩
  | 61 => ⟨S20000x16, .f32⟩
  | 62 => ⟨S20000x16, .f32⟩
  | 63 => ⟨S20000x16, .f32⟩
  | 64 => ⟨S20000x16, .f32⟩
  | 65 => ⟨S200000x1, .f32⟩
  | 66 => ⟨S_, .i32⟩
  | 67 => ⟨S200000, .i32⟩
  | 68 => ⟨S200000, .i1⟩
  | 69 => ⟨S_, .i32⟩
  | 70 => ⟨S200000, .i32⟩
  | 71 => ⟨S200000, .i32⟩
  | 72 => ⟨S200000, .i32⟩
  | 73 => ⟨S200000x1, .i32⟩
  | 74 => ⟨S200000x16, .f32⟩
  | 75 => ⟨S200000x16, .f32⟩
  | 76 => ⟨S200000x16, .f32⟩
  | 77 => ⟨S_, .f32⟩
  | 78 => ⟨S20000x16, .f32⟩
  | 79 => ⟨S200000x1, .i32⟩
  | 80 => ⟨S20000x16, .f32⟩
  | 81 => ⟨S20000x16, .f32⟩
  | 82 => ⟨S20000x16, .f32⟩
  | 83 => ⟨S200000x1, .f32⟩
  | 84 => ⟨S_, .i32⟩
  | 85 => ⟨S200000, .i32⟩
  | 86 => ⟨S200000, .i1⟩
  | 87 => ⟨S_, .i32⟩
  | 88 => ⟨S200000, .i32⟩
  | 89 => ⟨S200000, .i32⟩
  | 90 => ⟨S200000, .i32⟩
  | 91 => ⟨S200000x1, .i32⟩
  | 92 => ⟨S200000x16, .f32⟩
  | 93 => ⟨S200000x16, .f32⟩
  | 94 => ⟨S200000x16, .f32⟩
  | 95 => ⟨S_, .f32⟩
  | 96 => ⟨S20000x16, .f32⟩
  | 97 => ⟨S200000x1, .i32⟩
  | 98 => ⟨S20000x16, .f32⟩
  | 99 => ⟨S20000x16, .f32⟩
  | 100 => ⟨S200000x1, .f32⟩
  | 101 => ⟨S_, .i32⟩
  | 102 => ⟨S200000, .i32⟩
  | 103 => ⟨S200000, .i1⟩
  | 104 => ⟨S_, .i32⟩
  | 105 => ⟨S200000, .i32⟩
  | 106 => ⟨S200000, .i32⟩
  | 107 => ⟨S200000, .i32⟩
  | 108 => ⟨S200000x1, .i32⟩
  | 109 => ⟨S200000x16, .f32⟩
  | 110 => ⟨S200000x16, .f32⟩
  | 111 => ⟨S200000x16, .f32⟩
  | 112 => ⟨S_, .f32⟩
  | 113 => ⟨S20000x16, .f32⟩
  | 114 => ⟨S200000x1, .i32⟩
  | 115 => ⟨S20000x16, .f32⟩
  | 116 => ⟨S20000x16, .f32⟩
  | 117 => ⟨S_, .f32⟩
  | 118 => ⟨S20000x16, .f32⟩
  | 119 => ⟨S20000x16, .f32⟩
  | 120 => ⟨S20000x16, .f32⟩
  | 121 => ⟨S_, .f32⟩
  | 122 => ⟨S20000x16, .f32⟩
  | 123 => ⟨S20000x16, .f32⟩
  | 124 => ⟨S200000x1, .f32⟩
  | 125 => ⟨S_, .i32⟩
  | 126 => ⟨S200000, .i32⟩
  | 127 => ⟨S200000, .i1⟩
  | _ => ⟨S20000x2000, .f32⟩

abbrev hbmTy0_2 (i : Nat) : BufTy := match i % 128 with
  | 0 => ⟨S_, .i32⟩
  | 1 => ⟨S200000, .i32⟩
  | 2 => ⟨S200000, .i32⟩
  | 3 => ⟨S200000, .i32⟩
  | 4 => ⟨S200000x1, .i32⟩
  | 5 => ⟨S200000x16, .f32⟩
  | 6 => ⟨S200000x16, .f32⟩
  | 7 => ⟨S200000x16, .f32⟩
  | 8 => ⟨S_, .f32⟩
  | 9 => ⟨S20000x16, .f32⟩
  | 10 => ⟨S200000x1, .i32⟩
  | 11 => ⟨S20000x16, .f32⟩
  | 12 => ⟨S20000x16, .f32⟩
  | 13 => ⟨S1x16x16, .f32⟩
  | 14 => ⟨S16x16, .f32⟩
  | 15 => ⟨S20000x16, .f32⟩
  | 16 => ⟨S1x16x16, .f32⟩
  | 17 => ⟨S16x16, .f32⟩
  | 18 => ⟨S20000x16, .f32⟩
  | 19 => ⟨S20000x16, .f32⟩
  | 20 => ⟨S200000x1, .f32⟩
  | 21 => ⟨S_, .i32⟩
  | 22 => ⟨S200000, .i32⟩
  | 23 => ⟨S200000, .i1⟩
  | 24 => ⟨S_, .i32⟩
  | 25 => ⟨S200000, .i32⟩
  | 26 => ⟨S200000, .i32⟩
  | 27 => ⟨S200000, .i32⟩
  | 28 => ⟨S200000x1, .i32⟩
  | 29 => ⟨S200000x16, .f32⟩
  | 30 => ⟨S200000x16, .f32⟩
  | 31 => ⟨S200000x16, .f32⟩
  | 32 => ⟨S_, .f32⟩
  | 33 => ⟨S20000x16, .f32⟩
  | 34 => ⟨S200000x1, .i32⟩
  | 35 => ⟨S20000x16, .f32⟩
  | 36 => ⟨S20000x16, .f32⟩
  | 37 => ⟨S_, .f32⟩
  | 38 => ⟨S20000x16, .f32⟩
  | 39 => ⟨S20000x16, .f32⟩
  | 40 => ⟨S20000x16, .f32⟩
  | 41 => ⟨S1x16x16, .f32⟩
  | 42 => ⟨S16x16, .f32⟩
  | 43 => ⟨S20000x16, .f32⟩
  | 44 => ⟨S20000x16, .f32⟩
  | 45 => ⟨S_, .f32⟩
  | 46 => ⟨S20000x16, .f32⟩
  | 47 => ⟨S20000x16, .f32⟩
  | 48 => ⟨S20000x32, .f32⟩
  | 49 => ⟨S200000x1, .f32⟩
  | 50 => ⟨S_, .i32⟩
  | 51 => ⟨S200000, .i32⟩
  | 52 => ⟨S200000, .i1⟩
  | 53 => ⟨S_, .i32⟩
  | 54 => ⟨S200000, .i32⟩
  | 55 => ⟨S200000, .i32⟩
  | 56 => ⟨S200000, .i32⟩
  | 57 => ⟨S200000x1, .i32⟩
  | 58 => ⟨S200000x16, .f32⟩
  | 59 => ⟨S200000x16, .f32⟩
  | 60 => ⟨S200000x16, .f32⟩
  | 61 => ⟨S_, .f32⟩
  | 62 => ⟨S20000x16, .f32⟩
  | 63 => ⟨S200000x1, .i32⟩
  | 64 => ⟨S20000x16, .f32⟩
  | 65 => ⟨S20000x16, .f32⟩
  | 66 => ⟨S1x16x16, .f32⟩
  | 67 => ⟨S16x16, .f32⟩
  | 68 => ⟨S20000x16, .f32⟩
  | 69 => ⟨S1x16x16, .f32⟩
  | 70 => ⟨S16x16, .f32⟩
  | 71 => ⟨S20000x16, .f32⟩
  | 72 => ⟨S20000x16, .f32⟩
  | 73 => ⟨S200000x1, .f32⟩
  | 74 => ⟨S_, .i32⟩
  | 75 => ⟨S200000, .i32⟩
  | 76 => ⟨S200000, .i1⟩
  | 77 => ⟨S_, .i32⟩
  | 78 => ⟨S200000, .i32⟩
  | 79 => ⟨S200000, .i32⟩
  | 80 => ⟨S200000, .i32⟩
  | 81 => ⟨S200000x1, .i32⟩
  | 82 => ⟨S200000x16, .f32⟩
  | 83 => ⟨S200000x16, .f32⟩
  | 84 => ⟨S200000x16, .f32⟩
  | 85 => ⟨S_, .f32⟩
  | 86 => ⟨S20000x16, .f32⟩
  | 87 => ⟨S200000x1, .i32⟩
  | 88 => ⟨S20000x16, .f32⟩
  | 89 => ⟨S20000x16, .f32⟩
  | 90 => ⟨S_, .f32⟩
  | 91 => ⟨S20000x16, .f32⟩
  | 92 => ⟨S20000x16, .f32⟩
  | 93 => ⟨S20000x16, .f32⟩
  | 94 => ⟨S1x16x16, .f32⟩
  | 95 => ⟨S16x16, .f32⟩
  | 96 => ⟨S20000x16, .f32⟩
  | 97 => ⟨S20000x16, .f32⟩
  | 98 => ⟨S_, .f32⟩
  | 99 => ⟨S20000x16, .f32⟩
  | 100 => ⟨S20000x16, .f32⟩
  | 101 => ⟨S20000x48, .f32⟩
  | 102 => ⟨S200000x1, .f32⟩
  | 103 => ⟨S_, .i32⟩
  | 104 => ⟨S200000, .i32⟩
  | 105 => ⟨S200000, .i1⟩
  | 106 => ⟨S_, .i32⟩
  | 107 => ⟨S200000, .i32⟩
  | 108 => ⟨S200000, .i32⟩
  | 109 => ⟨S200000, .i32⟩
  | 110 => ⟨S200000x1, .i32⟩
  | 111 => ⟨S200000x16, .f32⟩
  | 112 => ⟨S200000x16, .f32⟩
  | 113 => ⟨S200000x16, .f32⟩
  | 114 => ⟨S_, .f32⟩
  | 115 => ⟨S20000x16, .f32⟩
  | 116 => ⟨S200000x1, .i32⟩
  | 117 => ⟨S20000x16, .f32⟩
  | 118 => ⟨S20000x16, .f32⟩
  | 119 => ⟨S1x16x16, .f32⟩
  | 120 => ⟨S16x16, .f32⟩
  | 121 => ⟨S20000x16, .f32⟩
  | 122 => ⟨S1x16x16, .f32⟩
  | 123 => ⟨S16x16, .f32⟩
  | 124 => ⟨S20000x16, .f32⟩
  | 125 => ⟨S20000x16, .f32⟩
  | 126 => ⟨S200000x1, .f32⟩
  | 127 => ⟨S_, .i32⟩
  | _ => ⟨S20000x2000, .f32⟩

abbrev hbmTy0_3 (i : Nat) : BufTy := match i % 128 with
  | 0 => ⟨S200000, .i32⟩
  | 1 => ⟨S200000, .i1⟩
  | 2 => ⟨S_, .i32⟩
  | 3 => ⟨S200000, .i32⟩
  | 4 => ⟨S200000, .i32⟩
  | 5 => ⟨S200000, .i32⟩
  | 6 => ⟨S200000x1, .i32⟩
  | 7 => ⟨S200000x16, .f32⟩
  | 8 => ⟨S200000x16, .f32⟩
  | 9 => ⟨S200000x16, .f32⟩
  | 10 => ⟨S_, .f32⟩
  | 11 => ⟨S20000x16, .f32⟩
  | 12 => ⟨S200000x1, .i32⟩
  | 13 => ⟨S20000x16, .f32⟩
  | 14 => ⟨S20000x16, .f32⟩
  | 15 => ⟨S_, .f32⟩
  | 16 => ⟨S20000x16, .f32⟩
  | 17 => ⟨S20000x16, .f32⟩
  | 18 => ⟨S20000x16, .f32⟩
  | 19 => ⟨S1x16x16, .f32⟩
  | 20 => ⟨S16x16, .f32⟩
  | 21 => ⟨S20000x16, .f32⟩
  | 22 => ⟨S20000x16, .f32⟩
  | 23 => ⟨S_, .f32⟩
  | 24 => ⟨S20000x16, .f32⟩
  | 25 => ⟨S20000x16, .f32⟩
  | 26 => ⟨S20000x64, .f32⟩
  | 27 => ⟨S20000x64, .bf16⟩
  | 28 => ⟨S256x64, .bf16⟩
  | 29 => ⟨S64x256, .bf16⟩
  | 30 => ⟨S1x256, .f32⟩
  | 31 => ⟨S20000x256, .f32⟩
  | 32 => ⟨S256x2, .f32⟩
  | 33 => ⟨S20000x2, .f32⟩
  | 34 => ⟨S1x2, .f32⟩
  | 35 => ⟨S20000x2, .f32⟩
  | 36 => ⟨S20000x2, .f32⟩
  | 37 => ⟨S20000x512, .bf16⟩
  | 38 => ⟨S256x512, .bf16⟩
  | 39 => ⟨S512x256, .bf16⟩
  | 40 => ⟨S1x256, .f32⟩
  | 41 => ⟨S20000x256, .f32⟩
  | 42 => ⟨S256x20, .f32⟩
  | 43 => ⟨S20000x20, .f32⟩
  | 44 => ⟨S1x20, .f32⟩
  | 45 => ⟨S20000x20, .f32⟩
  | 46 => ⟨S20000x20, .f32⟩
  | _ => ⟨S20000x2000, .f32⟩

abbrev hbmTy (i : Nat) : BufTy := match i / 128 with
  | 0 => hbmTy0_0 i
  | 1 => hbmTy0_1 i
  | 2 => hbmTy0_2 i
  | 3 => hbmTy0_3 i
  | _ => ⟨S20000x2000, .f32⟩

abbrev bufTy : (tb : Table) → Fin (tcTables nBuf tb) → BufTy
  | .hbm, ⟨i, _⟩ => hbmTy i
  | .local _ .vmem, ⟨0, _⟩ => ⟨S400x2000, .bf16⟩
  | .local _ .vmem, ⟨1, _⟩ => ⟨S400x2000, .bf16⟩
  | .local _ .vmem, ⟨2, _⟩ => ⟨S2000x1024, .bf16⟩
  | .local _ .vmem, ⟨3, _⟩ => ⟨S1x1024, .f32⟩
  | .local _ .vmem, ⟨4, _⟩ => ⟨S400x1024, .f32⟩
  | .local _ .vmem, ⟨5, _⟩ => ⟨S400x1024, .f32⟩
  | .local _ .vmem, ⟨6, _⟩ => ⟨S2000x128, .bf16⟩
  | .local _ .vmem, ⟨7, _⟩ => ⟨S2000x128, .bf16⟩
  | .local _ .vmem, ⟨8, _⟩ => ⟨S128x128, .bf16⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .bf16⟩
  | .local _ .vmem, ⟨13, _⟩ => ⟨S2000x128, .bf16⟩
  | .local _ .vmem, ⟨14, _⟩ => ⟨S128x128, .bf16⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S400x1024, .bf16⟩
  | .local _ .vmem, ⟨19, _⟩ => ⟨S400x1024, .bf16⟩
  | .local _ .vmem, ⟨20, _⟩ => ⟨S1024x512, .bf16⟩
  | .local _ .vmem, ⟨21, _⟩ => ⟨S1x512, .f32⟩
  | .local _ .vmem, ⟨22, _⟩ => ⟨S400x512, .f32⟩
  | .local _ .vmem, ⟨23, _⟩ => ⟨S400x512, .f32⟩
  | .local _ .vmem, ⟨24, _⟩ => ⟨S400x64, .bf16⟩
  | .local _ .vmem, ⟨25, _⟩ => ⟨S400x64, .bf16⟩
  | .local _ .vmem, ⟨26, _⟩ => ⟨S64x256, .bf16⟩
  | .local _ .vmem, ⟨27, _⟩ => ⟨S1x256, .f32⟩
  | .local _ .vmem, ⟨28, _⟩ => ⟨S400x256, .f32⟩
  | .local _ .vmem, ⟨29, _⟩ => ⟨S400x256, .f32⟩
  | .local _ .vmem, ⟨30, _⟩ => ⟨S400x512, .bf16⟩
  | .local _ .vmem, ⟨31, _⟩ => ⟨S400x512, .bf16⟩
  | .local _ .vmem, ⟨32, _⟩ => ⟨S512x256, .bf16⟩
  | .local _ .vmem, ⟨33, _⟩ => ⟨S1x256, .f32⟩
  | .local _ .vmem, ⟨34, _⟩ => ⟨S400x256, .f32⟩
  | .local _ .vmem, ⟨35, _⟩ => ⟨S400x256, .f32⟩
  | _, _ => ⟨S20000x2000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst : Ref sig .tc := ⟨.hbm, 44, rfl⟩
abbrev main_v19 : Ref sig .tc := ⟨.hbm, 45, rfl⟩
abbrev main_v20 : Ref sig .tc := ⟨.hbm, 46, rfl⟩
abbrev main_cst_0 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_1 : Ref sig .tc := ⟨.hbm, 57, rfl⟩
abbrev main_v30 : Ref sig .tc := ⟨.hbm, 58, rfl⟩
abbrev main_v31 : Ref sig .tc := ⟨.hbm, 59, rfl⟩
abbrev main_cst_2 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c : Ref sig .tc := ⟨.hbm, 71, rfl⟩
abbrev main_v42 : Ref sig .tc := ⟨.hbm, 72, rfl⟩
abbrev main_v43 : Ref sig .tc := ⟨.hbm, 73, rfl⟩
abbrev main_c_3 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_c_4 : Ref sig .tc := ⟨.hbm, 81, rfl⟩
abbrev main_v50 : Ref sig .tc := ⟨.hbm, 82, rfl⟩
abbrev main_v51 : Ref sig .tc := ⟨.hbm, 83, rfl⟩
abbrev main_c_5 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_6 : Ref sig .tc := ⟨.hbm, 92, rfl⟩
abbrev main_v59 : Ref sig .tc := ⟨.hbm, 93, rfl⟩
abbrev main_v60 : Ref sig .tc := ⟨.hbm, 94, rfl⟩
abbrev main_cst_7 : Ref sig .tc := ⟨.hbm, 95, rfl⟩
abbrev main_v61 : Ref sig .tc := ⟨.hbm, 96, rfl⟩
abbrev main_c_8 : Ref sig .tc := ⟨.hbm, 97, rfl⟩
abbrev main_v62 : Ref sig .tc := ⟨.hbm, 98, rfl⟩
abbrev main_v63 : Ref sig .tc := ⟨.hbm, 99, rfl⟩
abbrev main_c_9 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_c_10 : Ref sig .tc := ⟨.hbm, 106, rfl⟩
abbrev main_v69 : Ref sig .tc := ⟨.hbm, 107, rfl⟩
abbrev main_v70 : Ref sig .tc := ⟨.hbm, 108, rfl⟩
abbrev main_c_11 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_12 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_13 : Ref sig .tc := ⟨.hbm, 120, rfl⟩
abbrev main_v80 : Ref sig .tc := ⟨.hbm, 121, rfl⟩
abbrev main_v81 : Ref sig .tc := ⟨.hbm, 122, rfl⟩
abbrev main_cst_14 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_15 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_16 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_17 : Ref sig .tc := ⟨.hbm, 137, rfl⟩
abbrev main_v93 : Ref sig .tc := ⟨.hbm, 138, rfl⟩
abbrev main_v94 : Ref sig .tc := ⟨.hbm, 139, rfl⟩
abbrev main_cst_18 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_19 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_cst_20 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_cst_21 : Ref sig .tc := ⟨.hbm, 157, rfl⟩
abbrev main_call0_v0 : Ref sig .tc := ⟨.hbm, 158, rfl⟩
abbrev main_call0_v1 : Ref sig .tc := ⟨.hbm, 159, rfl⟩
abbrev main_v109 : Ref sig .tc := ⟨.hbm, 160, rfl⟩
abbrev main_c_22 : Ref sig .tc := ⟨.hbm, 161, rfl⟩
abbrev main_v110 : Ref sig .tc := ⟨.hbm, 162, rfl⟩
abbrev main_v111 : Ref sig .tc := ⟨.hbm, 163, rfl⟩
abbrev main_c_23 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_c_24 : Ref sig .tc := ⟨.hbm, 171, rfl⟩
abbrev main_v118 : Ref sig .tc := ⟨.hbm, 172, rfl⟩
abbrev main_v119 : Ref sig .tc := ⟨.hbm, 173, rfl⟩
abbrev main_c_25 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_c_26 : Ref sig .tc := ⟨.hbm, 194, rfl⟩
abbrev main_v139 : Ref sig .tc := ⟨.hbm, 195, rfl⟩
abbrev main_v140 : Ref sig .tc := ⟨.hbm, 196, rfl⟩
abbrev main_c_27 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_cst_28 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_c_29 : Ref sig .tc := ⟨.hbm, 212, rfl⟩
abbrev main_v154 : Ref sig .tc := ⟨.hbm, 213, rfl⟩
abbrev main_v155 : Ref sig .tc := ⟨.hbm, 214, rfl⟩
abbrev main_c_30 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_cst_31 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_c_32 : Ref sig .tc := ⟨.hbm, 229, rfl⟩
abbrev main_v168 : Ref sig .tc := ⟨.hbm, 230, rfl⟩
abbrev main_v169 : Ref sig .tc := ⟨.hbm, 231, rfl⟩
abbrev main_c_33 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_cst_34 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_cst_35 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_cst_36 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_c_37 : Ref sig .tc := ⟨.hbm, 253, rfl⟩
abbrev main_v187 : Ref sig .tc := ⟨.hbm, 254, rfl⟩
abbrev main_v188 : Ref sig .tc := ⟨.hbm, 255, rfl⟩
abbrev main_c_38 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_cst_39 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_c_40 : Ref sig .tc := ⟨.hbm, 277, rfl⟩
abbrev main_v208 : Ref sig .tc := ⟨.hbm, 278, rfl⟩
abbrev main_v209 : Ref sig .tc := ⟨.hbm, 279, rfl⟩
abbrev main_c_41 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_cst_42 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_v220 : Ref sig .tc := ⟨.hbm, 292, rfl⟩
abbrev main_cst_43 : Ref sig .tc := ⟨.hbm, 293, rfl⟩
abbrev main_v221 : Ref sig .tc := ⟨.hbm, 294, rfl⟩
abbrev main_v222 : Ref sig .tc := ⟨.hbm, 295, rfl⟩
abbrev main_v223 : Ref sig .tc := ⟨.hbm, 296, rfl⟩
abbrev main_v224 : Ref sig .tc := ⟨.hbm, 297, rfl⟩
abbrev main_v225 : Ref sig .tc := ⟨.hbm, 298, rfl⟩
abbrev main_v226 : Ref sig .tc := ⟨.hbm, 299, rfl⟩
abbrev main_v227 : Ref sig .tc := ⟨.hbm, 300, rfl⟩
abbrev main_cst_44 : Ref sig .tc := ⟨.hbm, 301, rfl⟩
abbrev main_v228 : Ref sig .tc := ⟨.hbm, 302, rfl⟩
abbrev main_v229 : Ref sig .tc := ⟨.hbm, 303, rfl⟩
abbrev main_v230 : Ref sig .tc := ⟨.hbm, 304, rfl⟩
abbrev main_v231 : Ref sig .tc := ⟨.hbm, 305, rfl⟩
abbrev main_c_45 : Ref sig .tc := ⟨.hbm, 306, rfl⟩
abbrev main_v232 : Ref sig .tc := ⟨.hbm, 307, rfl⟩
abbrev main_v233 : Ref sig .tc := ⟨.hbm, 308, rfl⟩
abbrev main_c_46 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_v237 : Ref sig .tc := ⟨.hbm, 313, rfl⟩
abbrev main_v238 : Ref sig .tc := ⟨.hbm, 314, rfl⟩
abbrev main_v239 : Ref sig .tc := ⟨.hbm, 315, rfl⟩
abbrev main_v240 : Ref sig .tc := ⟨.hbm, 316, rfl⟩
abbrev main_cst_47 : Ref sig .tc := ⟨.hbm, 317, rfl⟩
abbrev main_v241 : Ref sig .tc := ⟨.hbm, 318, rfl⟩
abbrev main_v242 : Ref sig .tc := ⟨.hbm, 319, rfl⟩
abbrev main_v243 : Ref sig .tc := ⟨.hbm, 320, rfl⟩
abbrev main_v244 : Ref sig .tc := ⟨.hbm, 321, rfl⟩
abbrev main_v245 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_v249 : Ref sig .tc := ⟨.hbm, 326, rfl⟩
abbrev main_v250 : Ref sig .tc := ⟨.hbm, 327, rfl⟩
abbrev main_v251 : Ref sig .tc := ⟨.hbm, 328, rfl⟩
abbrev main_v252 : Ref sig .tc := ⟨.hbm, 329, rfl⟩
abbrev main_c_48 : Ref sig .tc := ⟨.hbm, 330, rfl⟩
abbrev main_v253 : Ref sig .tc := ⟨.hbm, 331, rfl⟩
abbrev main_v254 : Ref sig .tc := ⟨.hbm, 332, rfl⟩
abbrev main_c_49 : Ref sig .tc := ⟨.hbm, 333, rfl⟩
abbrev main_v255 : Ref sig .tc := ⟨.hbm, 334, rfl⟩
abbrev main_v256 : Ref sig .tc := ⟨.hbm, 335, rfl⟩
abbrev main_v257 : Ref sig .tc := ⟨.hbm, 336, rfl⟩
abbrev main_v258 : Ref sig .tc := ⟨.hbm, 337, rfl⟩
abbrev main_v259 : Ref sig .tc := ⟨.hbm, 338, rfl⟩
abbrev main_v260 : Ref sig .tc := ⟨.hbm, 339, rfl⟩
abbrev main_v261 : Ref sig .tc := ⟨.hbm, 340, rfl⟩
abbrev main_cst_50 : Ref sig .tc := ⟨.hbm, 341, rfl⟩
abbrev main_v262 : Ref sig .tc := ⟨.hbm, 342, rfl⟩
abbrev main_v263 : Ref sig .tc := ⟨.hbm, 343, rfl⟩
abbrev main_v264 : Ref sig .tc := ⟨.hbm, 344, rfl⟩
abbrev main_v265 : Ref sig .tc := ⟨.hbm, 345, rfl⟩
abbrev main_cst_51 : Ref sig .tc := ⟨.hbm, 346, rfl⟩
abbrev main_v266 : Ref sig .tc := ⟨.hbm, 347, rfl⟩
abbrev main_v267 : Ref sig .tc := ⟨.hbm, 348, rfl⟩
abbrev main_v268 : Ref sig .tc := ⟨.hbm, 349, rfl⟩
abbrev main_v269 : Ref sig .tc := ⟨.hbm, 350, rfl⟩
abbrev main_v270 : Ref sig .tc := ⟨.hbm, 351, rfl⟩
abbrev main_v271 : Ref sig .tc := ⟨.hbm, 352, rfl⟩
abbrev main_v272 : Ref sig .tc := ⟨.hbm, 353, rfl⟩
abbrev main_cst_52 : Ref sig .tc := ⟨.hbm, 354, rfl⟩
abbrev main_v273 : Ref sig .tc := ⟨.hbm, 355, rfl⟩
abbrev main_v274 : Ref sig .tc := ⟨.hbm, 356, rfl⟩
abbrev main_v275 : Ref sig .tc := ⟨.hbm, 357, rfl⟩
abbrev main_v276 : Ref sig .tc := ⟨.hbm, 358, rfl⟩
abbrev main_c_53 : Ref sig .tc := ⟨.hbm, 359, rfl⟩
abbrev main_v277 : Ref sig .tc := ⟨.hbm, 360, rfl⟩
abbrev main_v278 : Ref sig .tc := ⟨.hbm, 361, rfl⟩
abbrev main_c_54 : Ref sig .tc := ⟨.hbm, 362, rfl⟩
abbrev main_v279 : Ref sig .tc := ⟨.hbm, 363, rfl⟩
abbrev main_v280 : Ref sig .tc := ⟨.hbm, 364, rfl⟩
abbrev main_v281 : Ref sig .tc := ⟨.hbm, 365, rfl⟩
abbrev main_v282 : Ref sig .tc := ⟨.hbm, 366, rfl⟩
abbrev main_v283 : Ref sig .tc := ⟨.hbm, 367, rfl⟩
abbrev main_v284 : Ref sig .tc := ⟨.hbm, 368, rfl⟩
abbrev main_v285 : Ref sig .tc := ⟨.hbm, 369, rfl⟩
abbrev main_cst_55 : Ref sig .tc := ⟨.hbm, 370, rfl⟩
abbrev main_v286 : Ref sig .tc := ⟨.hbm, 371, rfl⟩
abbrev main_v287 : Ref sig .tc := ⟨.hbm, 372, rfl⟩
abbrev main_v288 : Ref sig .tc := ⟨.hbm, 373, rfl⟩
abbrev main_v289 : Ref sig .tc := ⟨.hbm, 374, rfl⟩
abbrev main_v290 : Ref sig .tc := ⟨.hbm, 375, rfl⟩
abbrev main_v291 : Ref sig .tc := ⟨.hbm, 376, rfl⟩
abbrev main_v292 : Ref sig .tc := ⟨.hbm, 377, rfl⟩
abbrev main_v293 : Ref sig .tc := ⟨.hbm, 378, rfl⟩
abbrev main_v294 : Ref sig .tc := ⟨.hbm, 379, rfl⟩
abbrev main_v295 : Ref sig .tc := ⟨.hbm, 380, rfl⟩
abbrev main_v296 : Ref sig .tc := ⟨.hbm, 381, rfl⟩
abbrev main_v297 : Ref sig .tc := ⟨.hbm, 382, rfl⟩
abbrev main_c_56 : Ref sig .tc := ⟨.hbm, 383, rfl⟩
abbrev main_v298 : Ref sig .tc := ⟨.hbm, 384, rfl⟩
abbrev main_v299 : Ref sig .tc := ⟨.hbm, 385, rfl⟩
abbrev main_c_57 : Ref sig .tc := ⟨.hbm, 386, rfl⟩
abbrev main_v300 : Ref sig .tc := ⟨.hbm, 387, rfl⟩
abbrev main_v301 : Ref sig .tc := ⟨.hbm, 388, rfl⟩
abbrev main_v302 : Ref sig .tc := ⟨.hbm, 389, rfl⟩
abbrev main_v303 : Ref sig .tc := ⟨.hbm, 390, rfl⟩
abbrev main_v304 : Ref sig .tc := ⟨.hbm, 391, rfl⟩
abbrev main_v305 : Ref sig .tc := ⟨.hbm, 392, rfl⟩
abbrev main_v306 : Ref sig .tc := ⟨.hbm, 393, rfl⟩
abbrev main_cst_58 : Ref sig .tc := ⟨.hbm, 394, rfl⟩
abbrev main_v307 : Ref sig .tc := ⟨.hbm, 395, rfl⟩
abbrev main_v308 : Ref sig .tc := ⟨.hbm, 396, rfl⟩
abbrev main_v309 : Ref sig .tc := ⟨.hbm, 397, rfl⟩
abbrev main_v310 : Ref sig .tc := ⟨.hbm, 398, rfl⟩
abbrev main_cst_59 : Ref sig .tc := ⟨.hbm, 399, rfl⟩
abbrev main_v311 : Ref sig .tc := ⟨.hbm, 400, rfl⟩
abbrev main_v312 : Ref sig .tc := ⟨.hbm, 401, rfl⟩
abbrev main_v313 : Ref sig .tc := ⟨.hbm, 402, rfl⟩
abbrev main_v314 : Ref sig .tc := ⟨.hbm, 403, rfl⟩
abbrev main_v315 : Ref sig .tc := ⟨.hbm, 404, rfl⟩
abbrev main_v316 : Ref sig .tc := ⟨.hbm, 405, rfl⟩
abbrev main_v317 : Ref sig .tc := ⟨.hbm, 406, rfl⟩
abbrev main_cst_60 : Ref sig .tc := ⟨.hbm, 407, rfl⟩
abbrev main_v318 : Ref sig .tc := ⟨.hbm, 408, rfl⟩
abbrev main_v319 : Ref sig .tc := ⟨.hbm, 409, rfl⟩
abbrev main_v320 : Ref sig .tc := ⟨.hbm, 410, rfl⟩
abbrev main_v321 : Ref sig .tc := ⟨.hbm, 411, rfl⟩
abbrev main_v322 : Ref sig .tc := ⟨.hbm, 412, rfl⟩
abbrev main_v323 : Ref sig .tc := ⟨.hbm, 413, rfl⟩
abbrev main_v324 : Ref sig .tc := ⟨.hbm, 414, rfl⟩
abbrev main_v325 : Ref sig .tc := ⟨.hbm, 415, rfl⟩
abbrev main_v326 : Ref sig .tc := ⟨.hbm, 416, rfl⟩
abbrev main_v327 : Ref sig .tc := ⟨.hbm, 417, rfl⟩
abbrev main_v328 : Ref sig .tc := ⟨.hbm, 418, rfl⟩
abbrev main_v329 : Ref sig .tc := ⟨.hbm, 419, rfl⟩
abbrev main_v330 : Ref sig .tc := ⟨.hbm, 420, rfl⟩
abbrev main_v331 : Ref sig .tc := ⟨.hbm, 421, rfl⟩
abbrev main_v332 : Ref sig .tc := ⟨.hbm, 422, rfl⟩
abbrev main_v333 : Ref sig .tc := ⟨.hbm, 423, rfl⟩
abbrev main_v334 : Ref sig .tc := ⟨.hbm, 424, rfl⟩
abbrev main_v335 : Ref sig .tc := ⟨.hbm, 425, rfl⟩
abbrev main_v336 : Ref sig .tc := ⟨.hbm, 426, rfl⟩
abbrev main_v337 : Ref sig .tc := ⟨.hbm, 427, rfl⟩
abbrev main_v338 : Ref sig .tc := ⟨.hbm, 428, rfl⟩
abbrev main_v339 : Ref sig .tc := ⟨.hbm, 429, rfl⟩
abbrev main_v340 : Ref sig .tc := ⟨.hbm, 430, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x2000 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2000x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S400x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S512x256 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S400x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bitsLt_bf16_f32 : FTy.bits .bf16 < FTy.bits .f32
  concatenates_S512x2000_S512x2000_S1024x2000_d0 : Shape.Concatenates [S512x2000, S512x2000] S1024x2000 0
  concatenates_S512_S512_S1024_d0 : Shape.Concatenates [S512, S512] S1024 0
  transposes_S1024x2000_S2000x1024_1_0 : S1024x2000.Transposes [1, 0] S2000x1024
  shapeCasts_S1024_S1x1024 : S1024.ShapeCasts S1x1024
  inb_S400x2000_S400x2000_0_0 : ∀ a, (![0, 0] : Fin 2 → Nat) a + S400x2000.size a ≤ S400x2000.size a
  h_S400x2000 : 0 < S400x2000.numel
  shapeCasts_S400x2000_S400x2000 : S400x2000.ShapeCasts S400x2000
  inb_S2000x1024_S2000x1024_0_0 : ∀ a, (![0, 0] : Fin 2 → Nat) a + S2000x1024.size a ≤ S2000x1024.size a
  h_S2000x1024 : 0 < S2000x1024.numel
  shapeCasts_S2000x1024_S2000x1024 : S2000x1024.ShapeCasts S2000x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S400x1024 : S1x1024.Broadcasts S400x1024
  inb_S400x1024_S400x1024_0_0 : ∀ a, (![0, 0] : Fin 2 → Nat) a + S400x1024.size a ≤ S400x1024.size a
  h_S400x1024 : 0 < S400x1024.numel
  slices_S20000x1024_S20000x512_0_0 : S20000x1024.Slices ![0, 0] S20000x512
  slices_S20000x1024_S20000x512_0_512 : S20000x1024.Slices ![0, 512] S20000x512
  slices_S200000x6_S200000x3_0_0 : S200000x6.Slices ![0, 0] S200000x3
  transposes_S128x3_S3x128_1_0 : S128x3.Transposes [1, 0] S3x128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  slices_S200000x6_S200000x3_0_3 : S200000x6.Slices ![0, 3] S200000x3
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S200000 : S_.BroadcastsInDim S200000 (![] : Fin 0 → Fin S200000.rank)
  bcast_S200000_S200000x1_0 : S200000.BroadcastsInDim S200000x1 (![0] : Fin 1 → Fin S200000x1.rank)
  reducesTo_S200000x512_S200000_d1 : S200000x512.ReducesTo [1] S200000
  h_S_ : 0 < S_.numel
  reducesTo_S20000x512_S20000_d1 : S20000x512.ReducesTo [1] S20000
  reducesTo_S200000x128_S200000_d1 : S200000x128.ReducesTo [1] S200000
  concatenates_S20000x512_S20000x512_S20000x1024_d1 : Shape.Concatenates [S20000x512, S20000x512] S20000x1024 1
  transposes_S512x1024_S1024x512_1_0 : S512x1024.Transposes [1, 0] S1024x512
  shapeCasts_S512_S1x512 : S512.ShapeCasts S1x512
  shapeCasts_S400x1024_S400x1024 : S400x1024.ShapeCasts S400x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S400x512 : S1x512.Broadcasts S400x512
  inb_S400x512_S400x512_0_0 : ∀ a, (![0, 0] : Fin 2 → Nat) a + S400x512.size a ≤ S400x512.size a
  h_S400x512 : 0 < S400x512.numel
  bcast_S_S20000 : S_.BroadcastsInDim S20000 (![] : Fin 0 → Fin S20000.rank)
  slices_S3x512x16_S1x512x16_0_0_0 : S3x512x16.Slices ![0, 0, 0] S1x512x16
  shapeCasts_S1x512x16_S512x16 : S1x512x16.ShapeCasts S512x16
  slices_S3x512x16_S1x512x16_1_0_0 : S3x512x16.Slices ![1, 0, 0] S1x512x16
  slices_S3x512x16_S1x512x16_2_0_0 : S3x512x16.Slices ![2, 0, 0] S1x512x16
  concatenates_S512x16_S512x16_S512x16_S512x48_d1 : Shape.Concatenates [S512x16, S512x16, S512x16] S512x48 1
  slices_S20000x48_S20000x16_0_0 : S20000x48.Slices ![0, 0] S20000x16
  slices_S20000x48_S20000x16_0_16 : S20000x48.Slices ![0, 16] S20000x16
  slices_S20000x48_S20000x16_0_32 : S20000x48.Slices ![0, 32] S20000x16
  bcast_S200000x1_S200000x16_0_1 : S200000x1.BroadcastsInDim S200000x16 (![0, 1] : Fin 2 → Fin S200000x16.rank)
  bcast_S_S20000x16 : S_.BroadcastsInDim S20000x16 (![] : Fin 0 → Fin S20000x16.rank)
  slices_S3x16x16_S1x16x16_0_0_0 : S3x16x16.Slices ![0, 0, 0] S1x16x16
  shapeCasts_S1x16x16_S16x16 : S1x16x16.ShapeCasts S16x16
  slices_S3x16x16_S1x16x16_1_0_0 : S3x16x16.Slices ![1, 0, 0] S1x16x16
  slices_S3x16x16_S1x16x16_2_0_0 : S3x16x16.Slices ![2, 0, 0] S1x16x16
  concatenates_S20000x16_S20000x16_S20000x32_d1 : Shape.Concatenates [S20000x16, S20000x16] S20000x32 1
  concatenates_S20000x32_S20000x16_S20000x48_d1 : Shape.Concatenates [S20000x32, S20000x16] S20000x48 1
  concatenates_S20000x48_S20000x16_S20000x64_d1 : Shape.Concatenates [S20000x48, S20000x16] S20000x64 1
  transposes_S256x64_S64x256_1_0 : S256x64.Transposes [1, 0] S64x256
  shapeCasts_S256_S1x256 : S256.ShapeCasts S1x256
  inb_S400x64_S400x64_0_0 : ∀ a, (![0, 0] : Fin 2 → Nat) a + S400x64.size a ≤ S400x64.size a
  h_S400x64 : 0 < S400x64.numel
  shapeCasts_S400x64_S400x64 : S400x64.ShapeCasts S400x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  inb_S400x256_S400x256_0_0 : ∀ a, (![0, 0] : Fin 2 → Nat) a + S400x256.size a ≤ S400x256.size a
  h_S400x256 : 0 < S400x256.numel
  transposes_S2x256_S256x2_1_0 : S2x256.Transposes [1, 0] S256x2
  bcast_S2_S1x2_1 : S2.BroadcastsInDim S1x2 (![1] : Fin 1 → Fin S1x2.rank)
  bcast_S1x2_S20000x2_0_1 : S1x2.BroadcastsInDim S20000x2 (![0, 1] : Fin 2 → Fin S20000x2.rank)
  transposes_S256x512_S512x256_1_0 : S256x512.Transposes [1, 0] S512x256
  shapeCasts_S400x512_S400x512 : S400x512.ShapeCasts S400x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S20x256_S256x20_1_0 : S20x256.Transposes [1, 0] S256x20
  bcast_S20_S1x20_1 : S20.BroadcastsInDim S1x20 (![1] : Fin 1 → Fin S1x20.rank)
  bcast_S1x20_S20000x20_0_1 : S1x20.BroadcastsInDim S20000x20 (![0, 1] : Fin 2 → Fin S20000x20.rank)
  dot_S400x2000_S2000x1024_S400x1024_1_0_0_1_n_n_wf : DotDims.WF S400x2000 S2000x1024 S400x1024 [1] [0] [0] [1] [] []
  dot_S200000x3_S3x128_S200000x128_1_0_0_1_n_n_wf : DotDims.WF S200000x3 S3x128 S200000x128 [1] [0] [0] [1] [] []
  dot_S2000x128_S128x128_S2000x128_1_0_0_1_n_n_wf : DotDims.WF S2000x128 S128x128 S2000x128 [1] [0] [0] [1] [] []
  gather_S20000x512_S200000x1_S200000x512_1_0_n_n_0_1_1512_wf : GatherDims.WF S20000x512 S200000x1 S200000x512 [1] [0] [] [0] [] 1 ![1, 512]
  gather_S20000_S200000x1_S200000_n_0_n_n_0_1_1_wf : GatherDims.WF S20000 S200000x1 S200000 [] [0] [] [0] [] 1 ![1]
  dot_S400x1024_S1024x512_S400x512_1_0_0_1_n_n_wf : DotDims.WF S400x1024 S1024x512 S400x512 [1] [0] [0] [1] [] []
  scatter_S20000_S200000x1_S200000_n_0_0_1_wf : ScatterDims.WF S20000 S200000x1 S200000 [] [0] [0] 1
  dot_S20000x512_S512x48_S20000x48_1_0_0_1_n_n_wf : DotDims.WF S20000x512 S512x48 S20000x48 [1] [0] [0] [1] [] []
  gather_S20000x16_S200000x1_S200000x16_1_0_n_n_0_1_116_wf : GatherDims.WF S20000x16 S200000x1 S200000x16 [1] [0] [] [0] [] 1 ![1, 16]
  scatter_S20000x16_S200000x1_S200000x16_1_0_0_1_wf : ScatterDims.WF S20000x16 S200000x1 S200000x16 [1] [0] [0] 1
  dot_S20000x16_S16x16_S20000x16_1_0_0_1_n_n_wf : DotDims.WF S20000x16 S16x16 S20000x16 [1] [0] [0] [1] [] []
  dot_S400x64_S64x256_S400x256_1_0_0_1_n_n_wf : DotDims.WF S400x64 S64x256 S400x256 [1] [0] [0] [1] [] []
  dot_S20000x256_S256x2_S20000x2_1_0_0_1_n_n_wf : DotDims.WF S20000x256 S256x2 S20000x2 [1] [0] [0] [1] [] []
  dot_S400x512_S512x256_S400x256_1_0_0_1_n_n_wf : DotDims.WF S400x512 S512x256 S400x256 [1] [0] [0] [1] [] []
  dot_S20000x256_S256x20_S20000x20_1_0_0_1_n_n_wf : DotDims.WF S20000x256 S256x20 S20000x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x2000.size a ≤ S20000x2000.size a
  hwx0_0 : ∀ i : grid0.Coords, EltTy.bits .bf16 = 32 ∨ (Rect.block (s := S20000x2000) S400x2000.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x1024.size a ≤ S2000x1024.size a
  hwx0_1 : ∀ i : grid0.Coords, EltTy.bits .bf16 = 32 ∨ (Rect.block (s := S2000x1024) S2000x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x1024.size a ≤ S20000x1024.size a
  hwx0_3 : ∀ i : grid0.Coords, EltTy.bits .f32 = 32 ∨ (Rect.block (s := S20000x1024) S400x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S200000x128.size a
  hwx1_0 : ∀ i : grid1.Coords, EltTy.bits .bf16 = 32 ∨ (Rect.block (s := S200000x128) S2000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S200000x128.size a
  hwx1_3 : ∀ i : grid1.Coords, EltTy.bits .f32 = 32 ∨ (Rect.block (s := S200000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S200000x128.size a
  hwx2_0 : ∀ i : grid2.Coords, EltTy.bits .bf16 = 32 ∨ (Rect.block (s := S200000x128) S2000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S200000x128.size a
  hwx2_3 : ∀ i : grid2.Coords, EltTy.bits .f32 = 32 ∨ (Rect.block (s := S200000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x1024.size a ≤ S20000x1024.size a
  hwx3_0 : ∀ i : grid3.Coords, EltTy.bits .bf16 = 32 ∨ (Rect.block (s := S20000x1024) S400x1024.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x512.size a ≤ S1024x512.size a
  hwx3_1 : ∀ i : grid3.Coords, EltTy.bits .bf16 = 32 ∨ (Rect.block (s := S1024x512) S1024x512.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x512.size a ≤ S20000x512.size a
  hwx3_3 : ∀ i : grid3.Coords, EltTy.bits .f32 = 32 ∨ (Rect.block (s := S20000x512) S400x512.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x64.size a ≤ S20000x64.size a
  hwx4_0 : ∀ i : grid4.Coords, EltTy.bits .bf16 = 32 ∨ (Rect.block (s := S20000x64) S400x64.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x256.size a ≤ S64x256.size a
  hwx4_1 : ∀ i : grid4.Coords, EltTy.bits .bf16 = 32 ∨ (Rect.block (s := S64x256) S64x256.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S400x256.size a ≤ S20000x256.size a
  hwx4_3 : ∀ i : grid4.Coords, EltTy.bits .f32 = 32 ∨ (Rect.block (s := S20000x256) S400x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x512.size a ≤ S20000x512.size a
  hwx5_0 : ∀ i : grid5.Coords, EltTy.bits .bf16 = 32 ∨ (Rect.block (s := S20000x512) S400x512.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S512x256.size a ≤ S512x256.size a
  hwx5_1 : ∀ i : grid5.Coords, EltTy.bits .bf16 = 32 ∨ (Rect.block (s := S512x256) S512x256.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S400x256.size a ≤ S20000x256.size a
  hwx5_3 : ∀ i : grid5.Coords, EltTy.bits .f32 = 32 ∨ (Rect.block (s := S20000x256) S400x256.size (cc5_transform_3 i) (hinb5_3 i)).WholeWords (EltTy.packing .f32)

variable [Facts₀]

def dot_S400x2000_S2000x1024_S400x1024_1_0_0_1_n_n : DotDims S400x2000 S2000x1024 S400x1024 where
  lhsContracting := [1]
  rhsContracting := [0]
  lhsNonContracting := [0]
  rhsNonContracting := [1]
  lhsBatch := []
  rhsBatch := []
  wf := dot_S400x2000_S2000x1024_S400x1024_1_0_0_1_n_n_wf
def dot_S200000x3_S3x128_S200000x128_1_0_0_1_n_n : DotDims S200000x3 S3x128 S200000x128 where
  lhsContracting := [1]
  rhsContracting := [0]
  lhsNonContracting := [0]
  rhsNonContracting := [1]
  lhsBatch := []
  rhsBatch := []
  wf := dot_S200000x3_S3x128_S200000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S20000x512_S200000x1_S200000x512_1_0_n_n_0_1_1512 : GatherDims S20000x512 S200000x1 S200000x512 where
  offsetDims := [1]
  collapsedSliceDims := [0]
  operandBatchingDims := []
  startIndicesBatchingDims := []
  startIndexMap := [0]
  indexVectorDim := 1
  sliceSizes := ![1, 512]
  wf := gather_S20000x512_S200000x1_S200000x512_1_0_n_n_0_1_1512_wf
def gather_S20000_S200000x1_S200000_n_0_n_n_0_1_1 : GatherDims S20000 S200000x1 S200000 where
  offsetDims := []
  collapsedSliceDims := [0]
  operandBatchingDims := []
  startIndicesBatchingDims := []
  startIndexMap := [0]
  indexVectorDim := 1
  sliceSizes := ![1]
  wf := gather_S20000_S200000x1_S200000_n_0_n_n_0_1_1_wf
def dot_S400x1024_S1024x512_S400x512_1_0_0_1_n_n : DotDims S400x1024 S1024x512 S400x512 where
  lhsContracting := [1]
  rhsContracting := [0]
  lhsNonContracting := [0]
  rhsNonContracting := [1]
  lhsBatch := []
  rhsBatch := []
  wf := dot_S400x1024_S1024x512_S400x512_1_0_0_1_n_n_wf
def scatter_S20000_S200000x1_S200000_n_0_0_1 : ScatterDims S20000 S200000x1 S200000 where
  updateWindowDims := []
  insertedWindowDims := [0]
  scatterDimsToOperandDims := [0]
  indexVectorDim := 1
  wf := scatter_S20000_S200000x1_S200000_n_0_0_1_wf
def dot_S20000x512_S512x48_S20000x48_1_0_0_1_n_n : DotDims S20000x512 S512x48 S20000x48 where
  lhsContracting := [1]
  rhsContracting := [0]
  lhsNonContracting := [0]
  rhsNonContracting := [1]
  lhsBatch := []
  rhsBatch := []
  wf := dot_S20000x512_S512x48_S20000x48_1_0_0_1_n_n_wf
def gather_S20000x16_S200000x1_S200000x16_1_0_n_n_0_1_116 : GatherDims S20000x16 S200000x1 S200000x16 where
  offsetDims := [1]
  collapsedSliceDims := [0]
  operandBatchingDims := []
  startIndicesBatchingDims := []
  startIndexMap := [0]
  indexVectorDim := 1
  sliceSizes := ![1, 16]
  wf := gather_S20000x16_S200000x1_S200000x16_1_0_n_n_0_1_116_wf
def scatter_S20000x16_S200000x1_S200000x16_1_0_0_1 : ScatterDims S20000x16 S200000x1 S200000x16 where
  updateWindowDims := [1]
  insertedWindowDims := [0]
  scatterDimsToOperandDims := [0]
  indexVectorDim := 1
  wf := scatter_S20000x16_S200000x1_S200000x16_1_0_0_1_wf
def dot_S20000x16_S16x16_S20000x16_1_0_0_1_n_n : DotDims S20000x16 S16x16 S20000x16 where
  lhsContracting := [1]
  rhsContracting := [0]
  lhsNonContracting := [0]
  rhsNonContracting := [1]
  lhsBatch := []
  rhsBatch := []
  wf := dot_S20000x16_S16x16_S20000x16_1_0_0_1_n_n_wf
def dot_S400x64_S64x256_S400x256_1_0_0_1_n_n : DotDims S400x64 S64x256 S400x256 where
  lhsContracting := [1]
  rhsContracting := [0]
  lhsNonContracting := [0]
  rhsNonContracting := [1]
  lhsBatch := []
  rhsBatch := []
  wf := dot_S400x64_S64x256_S400x256_1_0_0_1_n_n_wf
def dot_S20000x256_S256x2_S20000x2_1_0_0_1_n_n : DotDims S20000x256 S256x2 S20000x2 where
  lhsContracting := [1]
  rhsContracting := [0]
  lhsNonContracting := [0]
  rhsNonContracting := [1]
  lhsBatch := []
  rhsBatch := []
  wf := dot_S20000x256_S256x2_S20000x2_1_0_0_1_n_n_wf
def dot_S400x512_S512x256_S400x256_1_0_0_1_n_n : DotDims S400x512 S512x256 S400x256 where
  lhsContracting := [1]
  rhsContracting := [0]
  lhsNonContracting := [0]
  rhsNonContracting := [1]
  lhsBatch := []
  rhsBatch := []
  wf := dot_S400x512_S512x256_S400x256_1_0_0_1_n_n_wf
def dot_S20000x256_S256x20_S20000x20_1_0_0_1_n_n : DotDims S20000x256 S256x20 S20000x20 where
  lhsContracting := [1]
  rhsContracting := [0]
  lhsNonContracting := [0]
  rhsNonContracting := [1]
  lhsBatch := []
  rhsBatch := []
  wf := dot_S20000x256_S256x20_S20000x20_1_0_0_1_n_n_wf

abbrev win0_0 : Pipeline.Window sig grid0 :=
  Pipeline.Window.ofSpec (Memref.whole main_v4) S400x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2000x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S400x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v34) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v98) S400x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v100) S1024x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v101) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v102) S400x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v321) S400x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v323) S64x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v324) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v325) S400x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v331) S400x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v333) S512x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v334) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v335) S400x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S20000x2000 : Shape := ⟨2, ![20000, 2000]⟩
abbrev S2x200000 : Shape := ⟨2, ![2, 200000]⟩
abbrev S200000x6 : Shape := ⟨2, ![200000, 6]⟩
abbrev S512x2000 : Shape := ⟨2, ![512, 2000]⟩
abbrev S512 : Shape := ⟨1, ![512]⟩
abbrev S512x1024 : Shape := ⟨2, ![512, 1024]⟩
abbrev S3x512x16 : Shape := ⟨3, ![3, 512, 16]⟩
abbrev S3x16x16 : Shape := ⟨3, ![3, 16, 16]⟩
abbrev S256x64 : Shape := ⟨2, ![256, 64]⟩
abbrev S256 : Shape := ⟨1, ![256]⟩
abbrev S2x256 : Shape := ⟨2, ![2, 256]⟩
abbrev S2 : Shape := ⟨1, ![2]⟩
abbrev S256x512 : Shape := ⟨2, ![256, 512]⟩
abbrev S20x256 : Shape := ⟨2, ![20, 256]⟩
abbrev S20 : Shape := ⟨1, ![20]⟩
abbrev S128x3 : Shape := ⟨2, ![128, 3]⟩
abbrev S128 : Shape := ⟨1, ![128]⟩
abbrev S128x128 : Shape := ⟨2, ![128, 128]⟩
abbrev S1x200000 : Shape := ⟨2, ![1, 200000]⟩
abbrev S200000 : Shape := ⟨1, ![200000]⟩
abbrev S2000x512 : Shape := ⟨2, ![2000, 512]⟩
abbrev S20000x512 : Shape := ⟨2, ![20000, 512]⟩
abbrev S1x512 : Shape := ⟨2, ![1, 512]⟩
abbrev S200000x3 : Shape := ⟨2, ![200000, 3]⟩
abbrev S3x128 : Shape := ⟨2, ![3, 128]⟩
abbrev S200000x128 : Shape := ⟨2, ![200000, 128]⟩
abbrev S1x128 : Shape := ⟨2, ![1, 128]⟩
abbrev S_ : Shape := ⟨0, ![]⟩
abbrev S200000x1 : Shape := ⟨2, ![200000, 1]⟩
abbrev S200000x512 : Shape := ⟨2, ![200000, 512]⟩
abbrev S200000x640 : Shape := ⟨2, ![200000, 640]⟩
abbrev S20000x1024 : Shape := ⟨2, ![20000, 1024]⟩
abbrev S1024x512 : Shape := ⟨2, ![1024, 512]⟩
abbrev S20000 : Shape := ⟨1, ![20000]⟩
abbrev S1x512x16 : Shape := ⟨3, ![1, 512, 16]⟩
abbrev S512x16 : Shape := ⟨2, ![512, 16]⟩
abbrev S20000x16 : Shape := ⟨2, ![20000, 16]⟩
abbrev S200000x16 : Shape := ⟨2, ![200000, 16]⟩
abbrev S1x16x16 : Shape := ⟨3, ![1, 16, 16]⟩
abbrev S16x16 : Shape := ⟨2, ![16, 16]⟩
abbrev S20000x32 : Shape := ⟨2, ![20000, 32]⟩
abbrev S20000x48 : Shape := ⟨2, ![20000, 48]⟩
abbrev S20000x64 : Shape := ⟨2, ![20000, 64]⟩
abbrev S64x256 : Shape := ⟨2, ![64, 256]⟩
abbrev S20000x256 : Shape := ⟨2, ![20000, 256]⟩
abbrev S1x256 : Shape := ⟨2, ![1, 256]⟩
abbrev S256x2 : Shape := ⟨2, ![256, 2]⟩
abbrev S20000x2 : Shape := ⟨2, ![20000, 2]⟩
abbrev S1x2 : Shape := ⟨2, ![1, 2]⟩
abbrev S512x256 : Shape := ⟨2, ![512, 256]⟩
abbrev S256x20 : Shape := ⟨2, ![256, 20]⟩
abbrev S20000x20 : Shape := ⟨2, ![20000, 20]⟩
abbrev S1x20 : Shape := ⟨2, ![1, 20]⟩

abbrev nBuf : Space → Nat
  | .hbm => 399
  | .vmem => 0
  | .smem => 0
  | _ => 0

abbrev hbmTy0_0 (i : Nat) : BufTy := match i % 128 with
  | 0 => ⟨S20000x2000, .f32⟩
  | 1 => ⟨S2x200000, .i32⟩
  | 2 => ⟨S200000x6, .f32⟩
  | 3 => ⟨S512x2000, .f32⟩
  | 4 => ⟨S512, .f32⟩
  | 5 => ⟨S512x2000, .f32⟩
  | 6 => ⟨S512, .f32⟩
  | 7 => ⟨S512x1024, .f32⟩
  | 8 => ⟨S512, .f32⟩
  | 9 => ⟨S3x512x16, .f32⟩
  | 10 => ⟨S3x16x16, .f32⟩
  | 11 => ⟨S3x16x16, .f32⟩
  | 12 => ⟨S3x16x16, .f32⟩
  | 13 => ⟨S256x64, .f32⟩
  | 14 => ⟨S256, .f32⟩
  | 15 => ⟨S2x256, .f32⟩
  | 16 => ⟨S2, .f32⟩
  | 17 => ⟨S256x512, .f32⟩
  | 18 => ⟨S256, .f32⟩
  | 19 => ⟨S20x256, .f32⟩
  | 20 => ⟨S20, .f32⟩
  | 21 => ⟨S128x3, .f32⟩
  | 22 => ⟨S128, .f32⟩
  | 23 => ⟨S128x128, .f32⟩
  | 24 => ⟨S128, .f32⟩
  | 25 => ⟨S1x200000, .i32⟩
  | 26 => ⟨S200000, .i32⟩
  | 27 => ⟨S1x200000, .i32⟩
  | 28 => ⟨S200000, .i32⟩
  | 29 => ⟨S2000x512, .f32⟩
  | 30 => ⟨S20000x512, .f32⟩
  | 31 => ⟨S1x512, .f32⟩
  | 32 => ⟨S20000x512, .f32⟩
  | 33 => ⟨S20000x512, .f32⟩
  | 34 => ⟨S2000x512, .f32⟩
  | 35 => ⟨S20000x512, .f32⟩
  | 36 => ⟨S1x512, .f32⟩
  | 37 => ⟨S20000x512, .f32⟩
  | 38 => ⟨S20000x512, .f32⟩
  | 39 => ⟨S200000x3, .f32⟩
  | 40 => ⟨S3x128, .f32⟩
  | 41 => ⟨S200000x128, .f32⟩
  | 42 => ⟨S1x128, .f32⟩
  | 43 => ⟨S200000x128, .f32⟩
  | 44 => ⟨S200000x128, .f32⟩
  | 45 => ⟨S_, .f32⟩
  | 46 => ⟨S200000x128, .f32⟩
  | 47 => ⟨S200000x128, .f32⟩
  | 48 => ⟨S_, .f32⟩
  | 49 => ⟨S200000x128, .f32⟩
  | 50 => ⟨S200000x128, .f32⟩
  | 51 => ⟨S128x128, .f32⟩
  | 52 => ⟨S200000x128, .f32⟩
  | 53 => ⟨S1x128, .f32⟩
  | 54 => ⟨S200000x128, .f32⟩
  | 55 => ⟨S200000x128, .f32⟩
  | 56 => ⟨S_, .i32⟩
  | 57 => ⟨S200000, .i32⟩
  | 58 => ⟨S200000, .i1⟩
  | 59 => ⟨S_, .i32⟩
  | 60 => ⟨S200000, .i32⟩
  | 61 => ⟨S200000, .i32⟩
  | 62 => ⟨S200000, .i32⟩
  | 63 => ⟨S200000x1, .i32⟩
  | 64 => ⟨S200000x512, .f32⟩
  | 65 => ⟨S200000x640, .f32⟩
  | 66 => ⟨S200000x3, .f32⟩
  | 67 => ⟨S3x128, .f32⟩
  | 68 => ⟨S200000x128, .f32⟩
  | 69 => ⟨S1x128, .f32⟩
  | 70 => ⟨S200000x128, .f32⟩
  | 71 => ⟨S200000x128, .f32⟩
  | 72 => ⟨S_, .f32⟩
  | 73 => ⟨S200000x128, .f32⟩
  | 74 => ⟨S200000x128, .f32⟩
  | 75 => ⟨S_, .f32⟩
  | 76 => ⟨S200000x128, .f32⟩
  | 77 => ⟨S200000x128, .f32⟩
  | 78 => ⟨S128x128, .f32⟩
  | 79 => ⟨S200000x128, .f32⟩
  | 80 => ⟨S1x128, .f32⟩
  | 81 => ⟨S200000x128, .f32⟩
  | 82 => ⟨S200000x128, .f32⟩
  | 83 => ⟨S_, .i32⟩
  | 84 => ⟨S200000, .i32⟩
  | 85 => ⟨S200000, .i1⟩
  | 86 => ⟨S_, .i32⟩
  | 87 => ⟨S200000, .i32⟩
  | 88 => ⟨S200000, .i32⟩
  | 89 => ⟨S200000, .i32⟩
  | 90 => ⟨S200000x1, .i32⟩
  | 91 => ⟨S200000x512, .f32⟩
  | 92 => ⟨S200000x640, .f32⟩
  | 93 => ⟨S200000x640, .f32⟩
  | 94 => ⟨S_, .f32⟩
  | 95 => ⟨S200000, .f32⟩
  | 96 => ⟨S200000, .f32⟩
  | 97 => ⟨S_, .f32⟩
  | 98 => ⟨S200000, .f32⟩
  | 99 => ⟨S200000, .f32⟩
  | 100 => ⟨S200000x640, .f32⟩
  | 101 => ⟨S_, .f32⟩
  | 102 => ⟨S200000, .f32⟩
  | 103 => ⟨S200000, .f32⟩
  | 104 => ⟨S_, .f32⟩
  | 105 => ⟨S200000, .f32⟩
  | 106 => ⟨S200000, .f32⟩
  | 107 => ⟨S200000x640, .f32⟩
  | 108 => ⟨S_, .f32⟩
  | 109 => ⟨S200000, .f32⟩
  | 110 => ⟨S200000, .f32⟩
  | 111 => ⟨S200000, .f32⟩
  | 112 => ⟨S_, .f32⟩
  | 113 => ⟨S200000, .f32⟩
  | 114 => ⟨S200000, .f32⟩
  | 115 => ⟨S_, .f32⟩
  | 116 => ⟨S200000, .f32⟩
  | 117 => ⟨S200000, .f32⟩
  | 118 => ⟨S20000x1024, .f32⟩
  | 119 => ⟨S1024x512, .f32⟩
  | 120 => ⟨S20000x512, .f32⟩
  | 121 => ⟨S1x512, .f32⟩
  | 122 => ⟨S20000x512, .f32⟩
  | 123 => ⟨S20000x512, .f32⟩
  | 124 => ⟨S_, .f32⟩
  | 125 => ⟨S20000, .f32⟩
  | 126 => ⟨S200000x1, .i32⟩
  | 127 => ⟨S20000, .f32⟩
  | _ => ⟨S20000x2000, .f32⟩

abbrev hbmTy0_1 (i : Nat) : BufTy := match i % 128 with
  | 0 => ⟨S_, .f32⟩
  | 1 => ⟨S20000, .f32⟩
  | 2 => ⟨S20000, .i1⟩
  | 3 => ⟨S20000, .f32⟩
  | 4 => ⟨S_, .f32⟩
  | 5 => ⟨S_, .f32⟩
  | 6 => ⟨S20000, .f32⟩
  | 7 => ⟨S20000, .f32⟩
  | 8 => ⟨S_, .i32⟩
  | 9 => ⟨S200000, .i32⟩
  | 10 => ⟨S200000, .i1⟩
  | 11 => ⟨S_, .i32⟩
  | 12 => ⟨S200000, .i32⟩
  | 13 => ⟨S200000, .i32⟩
  | 14 => ⟨S200000, .i32⟩
  | 15 => ⟨S200000x1, .i32⟩
  | 16 => ⟨S200000, .f32⟩
  | 17 => ⟨S200000, .f32⟩
  | 18 => ⟨S_, .i32⟩
  | 19 => ⟨S200000, .i32⟩
  | 20 => ⟨S200000, .i1⟩
  | 21 => ⟨S_, .i32⟩
  | 22 => ⟨S200000, .i32⟩
  | 23 => ⟨S200000, .i32⟩
  | 24 => ⟨S200000, .i32⟩
  | 25 => ⟨S200000x1, .i32⟩
  | 26 => ⟨S200000, .f32⟩
  | 27 => ⟨S200000, .f32⟩
  | 28 => ⟨S200000x1, .f32⟩
  | 29 => ⟨S_, .i32⟩
  | 30 => ⟨S200000, .i32⟩
  | 31 => ⟨S200000, .i1⟩
  | 32 => ⟨S_, .i32⟩
  | 33 => ⟨S200000, .i32⟩
  | 34 => ⟨S200000, .i32⟩
  | 35 => ⟨S200000, .i32⟩
  | 36 => ⟨S200000x1, .i32⟩
  | 37 => ⟨S200000x512, .f32⟩
  | 38 => ⟨S200000x512, .f32⟩
  | 39 => ⟨S200000x512, .f32⟩
  | 40 => ⟨S_, .f32⟩
  | 41 => ⟨S20000x512, .f32⟩
  | 42 => ⟨S200000x1, .i32⟩
  | 43 => ⟨S20000x512, .f32⟩
  | 44 => ⟨S20000x512, .f32⟩
  | 45 => ⟨S1x512x16, .f32⟩
  | 46 => ⟨S512x16, .f32⟩
  | 47 => ⟨S20000x16, .f32⟩
  | 48 => ⟨S1x512x16, .f32⟩
  | 49 => ⟨S512x16, .f32⟩
  | 50 => ⟨S20000x16, .f32⟩
  | 51 => ⟨S20000x16, .f32⟩
  | 52 => ⟨S200000x1, .f32⟩
  | 53 => ⟨S_, .i32⟩
  | 54 => ⟨S200000, .i32⟩
  | 55 => ⟨S200000, .i1⟩
  | 56 => ⟨S_, .i32⟩
  | 57 => ⟨S200000, .i32⟩
  | 58 => ⟨S200000, .i32⟩
  | 59 => ⟨S200000, .i32⟩
  | 60 => ⟨S200000x1, .i32⟩
  | 61 => ⟨S200000x512, .f32⟩
  | 62 => ⟨S200000x512, .f32⟩
  | 63 => ⟨S200000x512, .f32⟩
  | 64 => ⟨S_, .f32⟩
  | 65 => ⟨S20000x512, .f32⟩
  | 66 => ⟨S200000x1, .i32⟩
  | 67 => ⟨S20000x512, .f32⟩
  | 68 => ⟨S20000x512, .f32⟩
  | 69 => ⟨S_, .f32⟩
  | 70 => ⟨S20000x512, .f32⟩
  | 71 => ⟨S20000x512, .f32⟩
  | 72 => ⟨S20000x512, .f32⟩
  | 73 => ⟨S1x512x16, .f32⟩
  | 74 => ⟨S512x16, .f32⟩
  | 75 => ⟨S20000x16, .f32⟩
  | 76 => ⟨S20000x16, .f32⟩
  | 77 => ⟨S_, .f32⟩
  | 78 => ⟨S20000x16, .f32⟩
  | 79 => ⟨S20000x16, .f32⟩
  | 80 => ⟨S200000x1, .f32⟩
  | 81 => ⟨S_, .i32⟩
  | 82 => ⟨S200000, .i32⟩
  | 83 => ⟨S200000, .i1⟩
  | 84 => ⟨S_, .i32⟩
  | 85 => ⟨S200000, .i32⟩
  | 86 => ⟨S200000, .i32⟩
  | 87 => ⟨S200000, .i32⟩
  | 88 => ⟨S200000x1, .i32⟩
  | 89 => ⟨S200000x16, .f32⟩
  | 90 => ⟨S200000x16, .f32⟩
  | 91 => ⟨S200000x16, .f32⟩
  | 92 => ⟨S_, .f32⟩
  | 93 => ⟨S20000x16, .f32⟩
  | 94 => ⟨S200000x1, .i32⟩
  | 95 => ⟨S20000x16, .f32⟩
  | 96 => ⟨S20000x16, .f32⟩
  | 97 => ⟨S1x16x16, .f32⟩
  | 98 => ⟨S16x16, .f32⟩
  | 99 => ⟨S20000x16, .f32⟩
  | 100 => ⟨S1x16x16, .f32⟩
  | 101 => ⟨S16x16, .f32⟩
  | 102 => ⟨S20000x16, .f32⟩
  | 103 => ⟨S20000x16, .f32⟩
  | 104 => ⟨S200000x1, .f32⟩
  | 105 => ⟨S_, .i32⟩
  | 106 => ⟨S200000, .i32⟩
  | 107 => ⟨S200000, .i1⟩
  | 108 => ⟨S_, .i32⟩
  | 109 => ⟨S200000, .i32⟩
  | 110 => ⟨S200000, .i32⟩
  | 111 => ⟨S200000, .i32⟩
  | 112 => ⟨S200000x1, .i32⟩
  | 113 => ⟨S200000x16, .f32⟩
  | 114 => ⟨S200000x16, .f32⟩
  | 115 => ⟨S200000x16, .f32⟩
  | 116 => ⟨S_, .f32⟩
  | 117 => ⟨S20000x16, .f32⟩
  | 118 => ⟨S200000x1, .i32⟩
  | 119 => ⟨S20000x16, .f32⟩
  | 120 => ⟨S20000x16, .f32⟩
  | 121 => ⟨S_, .f32⟩
  | 122 => ⟨S20000x16, .f32⟩
  | 123 => ⟨S20000x16, .f32⟩
  | 124 => ⟨S20000x16, .f32⟩
  | 125 => ⟨S1x16x16, .f32⟩
  | 126 => ⟨S16x16, .f32⟩
  | 127 => ⟨S20000x16, .f32⟩
  | _ => ⟨S20000x2000, .f32⟩

abbrev hbmTy0_2 (i : Nat) : BufTy := match i % 128 with
  | 0 => ⟨S20000x16, .f32⟩
  | 1 => ⟨S_, .f32⟩
  | 2 => ⟨S20000x16, .f32⟩
  | 3 => ⟨S20000x16, .f32⟩
  | 4 => ⟨S20000x32, .f32⟩
  | 5 => ⟨S200000x1, .f32⟩
  | 6 => ⟨S_, .i32⟩
  | 7 => ⟨S200000, .i32⟩
  | 8 => ⟨S200000, .i1⟩
  | 9 => ⟨S_, .i32⟩
  | 10 => ⟨S200000, .i32⟩
  | 11 => ⟨S200000, .i32⟩
  | 12 => ⟨S200000, .i32⟩
  | 13 => ⟨S200000x1, .i32⟩
  | 14 => ⟨S200000x16, .f32⟩
  | 15 => ⟨S200000x16, .f32⟩
  | 16 => ⟨S200000x16, .f32⟩
  | 17 => ⟨S_, .f32⟩
  | 18 => ⟨S20000x16, .f32⟩
  | 19 => ⟨S200000x1, .i32⟩
  | 20 => ⟨S20000x16, .f32⟩
  | 21 => ⟨S20000x16, .f32⟩
  | 22 => ⟨S1x16x16, .f32⟩
  | 23 => ⟨S16x16, .f32⟩
  | 24 => ⟨S20000x16, .f32⟩
  | 25 => ⟨S1x16x16, .f32⟩
  | 26 => ⟨S16x16, .f32⟩
  | 27 => ⟨S20000x16, .f32⟩
  | 28 => ⟨S20000x16, .f32⟩
  | 29 => ⟨S200000x1, .f32⟩
  | 30 => ⟨S_, .i32⟩
  | 31 => ⟨S200000, .i32⟩
  | 32 => ⟨S200000, .i1⟩
  | 33 => ⟨S_, .i32⟩
  | 34 => ⟨S200000, .i32⟩
  | 35 => ⟨S200000, .i32⟩
  | 36 => ⟨S200000, .i32⟩
  | 37 => ⟨S200000x1, .i32⟩
  | 38 => ⟨S200000x16, .f32⟩
  | 39 => ⟨S200000x16, .f32⟩
  | 40 => ⟨S200000x16, .f32⟩
  | 41 => ⟨S_, .f32⟩
  | 42 => ⟨S20000x16, .f32⟩
  | 43 => ⟨S200000x1, .i32⟩
  | 44 => ⟨S20000x16, .f32⟩
  | 45 => ⟨S20000x16, .f32⟩
  | 46 => ⟨S_, .f32⟩
  | 47 => ⟨S20000x16, .f32⟩
  | 48 => ⟨S20000x16, .f32⟩
  | 49 => ⟨S20000x16, .f32⟩
  | 50 => ⟨S1x16x16, .f32⟩
  | 51 => ⟨S16x16, .f32⟩
  | 52 => ⟨S20000x16, .f32⟩
  | 53 => ⟨S20000x16, .f32⟩
  | 54 => ⟨S_, .f32⟩
  | 55 => ⟨S20000x16, .f32⟩
  | 56 => ⟨S20000x16, .f32⟩
  | 57 => ⟨S20000x48, .f32⟩
  | 58 => ⟨S200000x1, .f32⟩
  | 59 => ⟨S_, .i32⟩
  | 60 => ⟨S200000, .i32⟩
  | 61 => ⟨S200000, .i1⟩
  | 62 => ⟨S_, .i32⟩
  | 63 => ⟨S200000, .i32⟩
  | 64 => ⟨S200000, .i32⟩
  | 65 => ⟨S200000, .i32⟩
  | 66 => ⟨S200000x1, .i32⟩
  | 67 => ⟨S200000x16, .f32⟩
  | 68 => ⟨S200000x16, .f32⟩
  | 69 => ⟨S200000x16, .f32⟩
  | 70 => ⟨S_, .f32⟩
  | 71 => ⟨S20000x16, .f32⟩
  | 72 => ⟨S200000x1, .i32⟩
  | 73 => ⟨S20000x16, .f32⟩
  | 74 => ⟨S20000x16, .f32⟩
  | 75 => ⟨S1x16x16, .f32⟩
  | 76 => ⟨S16x16, .f32⟩
  | 77 => ⟨S20000x16, .f32⟩
  | 78 => ⟨S1x16x16, .f32⟩
  | 79 => ⟨S16x16, .f32⟩
  | 80 => ⟨S20000x16, .f32⟩
  | 81 => ⟨S20000x16, .f32⟩
  | 82 => ⟨S200000x1, .f32⟩
  | 83 => ⟨S_, .i32⟩
  | 84 => ⟨S200000, .i32⟩
  | 85 => ⟨S200000, .i1⟩
  | 86 => ⟨S_, .i32⟩
  | 87 => ⟨S200000, .i32⟩
  | 88 => ⟨S200000, .i32⟩
  | 89 => ⟨S200000, .i32⟩
  | 90 => ⟨S200000x1, .i32⟩
  | 91 => ⟨S200000x16, .f32⟩
  | 92 => ⟨S200000x16, .f32⟩
  | 93 => ⟨S200000x16, .f32⟩
  | 94 => ⟨S_, .f32⟩
  | 95 => ⟨S20000x16, .f32⟩
  | 96 => ⟨S200000x1, .i32⟩
  | 97 => ⟨S20000x16, .f32⟩
  | 98 => ⟨S20000x16, .f32⟩
  | 99 => ⟨S_, .f32⟩
  | 100 => ⟨S20000x16, .f32⟩
  | 101 => ⟨S20000x16, .f32⟩
  | 102 => ⟨S20000x16, .f32⟩
  | 103 => ⟨S1x16x16, .f32⟩
  | 104 => ⟨S16x16, .f32⟩
  | 105 => ⟨S20000x16, .f32⟩
  | 106 => ⟨S20000x16, .f32⟩
  | 107 => ⟨S_, .f32⟩
  | 108 => ⟨S20000x16, .f32⟩
  | 109 => ⟨S20000x16, .f32⟩
  | 110 => ⟨S20000x64, .f32⟩
  | 111 => ⟨S64x256, .f32⟩
  | 112 => ⟨S20000x256, .f32⟩
  | 113 => ⟨S1x256, .f32⟩
  | 114 => ⟨S20000x256, .f32⟩
  | 115 => ⟨S20000x256, .f32⟩
  | 116 => ⟨S_, .f32⟩
  | 117 => ⟨S20000x256, .f32⟩
  | 118 => ⟨S20000x256, .f32⟩
  | 119 => ⟨S_, .f32⟩
  | 120 => ⟨S20000x256, .f32⟩
  | 121 => ⟨S20000x256, .f32⟩
  | 122 => ⟨S256x2, .f32⟩
  | 123 => ⟨S20000x2, .f32⟩
  | 124 => ⟨S1x2, .f32⟩
  | 125 => ⟨S20000x2, .f32⟩
  | 126 => ⟨S20000x2, .f32⟩
  | 127 => ⟨S512x256, .f32⟩
  | _ => ⟨S20000x2000, .f32⟩

abbrev hbmTy0_3 (i : Nat) : BufTy := match i % 128 with
  | 0 => ⟨S20000x256, .f32⟩
  | 1 => ⟨S1x256, .f32⟩
  | 2 => ⟨S20000x256, .f32⟩
  | 3 => ⟨S20000x256, .f32⟩
  | 4 => ⟨S_, .f32⟩
  | 5 => ⟨S20000x256, .f32⟩
  | 6 => ⟨S20000x256, .f32⟩
  | 7 => ⟨S_, .f32⟩
  | 8 => ⟨S20000x256, .f32⟩
  | 9 => ⟨S20000x256, .f32⟩
  | 10 => ⟨S256x20, .f32⟩
  | 11 => ⟨S20000x20, .f32⟩
  | 12 => ⟨S1x20, .f32⟩
  | 13 => ⟨S20000x20, .f32⟩
  | 14 => ⟨S20000x20, .f32⟩
  | _ => ⟨S20000x2000, .f32⟩

abbrev hbmTy (i : Nat) : BufTy := match i / 128 with
  | 0 => hbmTy0_0 i
  | 1 => hbmTy0_1 i
  | 2 => hbmTy0_2 i
  | 3 => hbmTy0_3 i
  | _ => ⟨S20000x2000, .f32⟩

abbrev bufTy : (tb : Table) → Fin (tcTables nBuf tb) → BufTy
  | .hbm, ⟨i, _⟩ => hbmTy i
  | _, _ => ⟨S20000x2000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst : Ref sig .tc := ⟨.hbm, 45, rfl⟩
abbrev main_v20 : Ref sig .tc := ⟨.hbm, 46, rfl⟩
abbrev main_v21 : Ref sig .tc := ⟨.hbm, 47, rfl⟩
abbrev main_cst_0 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c : Ref sig .tc := ⟨.hbm, 56, rfl⟩
abbrev main_v29 : Ref sig .tc := ⟨.hbm, 57, rfl⟩
abbrev main_v30 : Ref sig .tc := ⟨.hbm, 58, rfl⟩
abbrev main_c_1 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_2 : Ref sig .tc := ⟨.hbm, 72, rfl⟩
abbrev main_v43 : Ref sig .tc := ⟨.hbm, 73, rfl⟩
abbrev main_v44 : Ref sig .tc := ⟨.hbm, 74, rfl⟩
abbrev main_cst_3 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_4 : Ref sig .tc := ⟨.hbm, 83, rfl⟩
abbrev main_v52 : Ref sig .tc := ⟨.hbm, 84, rfl⟩
abbrev main_v53 : Ref sig .tc := ⟨.hbm, 85, rfl⟩
abbrev main_c_5 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_call0_v0 : Ref sig .tc := ⟨.hbm, 93, rfl⟩
abbrev main_call0_cst : Ref sig .tc := ⟨.hbm, 94, rfl⟩
abbrev main_call0_v1 : Ref sig .tc := ⟨.hbm, 95, rfl⟩
abbrev main_v60 : Ref sig .tc := ⟨.hbm, 96, rfl⟩
abbrev main_cst_6 : Ref sig .tc := ⟨.hbm, 97, rfl⟩
abbrev main_v61 : Ref sig .tc := ⟨.hbm, 98, rfl⟩
abbrev main_v62 : Ref sig .tc := ⟨.hbm, 99, rfl⟩
abbrev main_call1_v0 : Ref sig .tc := ⟨.hbm, 100, rfl⟩
abbrev main_call1_cst : Ref sig .tc := ⟨.hbm, 101, rfl⟩
abbrev main_call1_v1 : Ref sig .tc := ⟨.hbm, 102, rfl⟩
abbrev main_v63 : Ref sig .tc := ⟨.hbm, 103, rfl⟩
abbrev main_cst_7 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_8 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_9 : Ref sig .tc := ⟨.hbm, 112, rfl⟩
abbrev main_v70 : Ref sig .tc := ⟨.hbm, 113, rfl⟩
abbrev main_v71 : Ref sig .tc := ⟨.hbm, 114, rfl⟩
abbrev main_cst_10 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_11 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_12 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_cst_13 : Ref sig .tc := ⟨.hbm, 132, rfl⟩
abbrev main_call2_v0 : Ref sig .tc := ⟨.hbm, 133, rfl⟩
abbrev main_call2_v1 : Ref sig .tc := ⟨.hbm, 134, rfl⟩
abbrev main_v86 : Ref sig .tc := ⟨.hbm, 135, rfl⟩
abbrev main_c_14 : Ref sig .tc := ⟨.hbm, 136, rfl⟩
abbrev main_v87 : Ref sig .tc := ⟨.hbm, 137, rfl⟩
abbrev main_v88 : Ref sig .tc := ⟨.hbm, 138, rfl⟩
abbrev main_c_15 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_c_16 : Ref sig .tc := ⟨.hbm, 146, rfl⟩
abbrev main_v95 : Ref sig .tc := ⟨.hbm, 147, rfl⟩
abbrev main_v96 : Ref sig .tc := ⟨.hbm, 148, rfl⟩
abbrev main_c_17 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_c_18 : Ref sig .tc := ⟨.hbm, 157, rfl⟩
abbrev main_v104 : Ref sig .tc := ⟨.hbm, 158, rfl⟩
abbrev main_v105 : Ref sig .tc := ⟨.hbm, 159, rfl⟩
abbrev main_c_19 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_cst_20 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_c_21 : Ref sig .tc := ⟨.hbm, 181, rfl⟩
abbrev main_v125 : Ref sig .tc := ⟨.hbm, 182, rfl⟩
abbrev main_v126 : Ref sig .tc := ⟨.hbm, 183, rfl⟩
abbrev main_c_22 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_cst_23 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_cst_24 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_cst_25 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_c_26 : Ref sig .tc := ⟨.hbm, 209, rfl⟩
abbrev main_v148 : Ref sig .tc := ⟨.hbm, 210, rfl⟩
abbrev main_v149 : Ref sig .tc := ⟨.hbm, 211, rfl⟩
abbrev main_c_27 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_cst_28 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_c_29 : Ref sig .tc := ⟨.hbm, 233, rfl⟩
abbrev main_v169 : Ref sig .tc := ⟨.hbm, 234, rfl⟩
abbrev main_v170 : Ref sig .tc := ⟨.hbm, 235, rfl⟩
abbrev main_c_30 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_cst_31 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_cst_32 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_cst_33 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_c_34 : Ref sig .tc := ⟨.hbm, 262, rfl⟩
abbrev main_v193 : Ref sig .tc := ⟨.hbm, 263, rfl⟩
abbrev main_v194 : Ref sig .tc := ⟨.hbm, 264, rfl⟩
abbrev main_c_35 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_v200 : Ref sig .tc := ⟨.hbm, 271, rfl⟩
abbrev main_v201 : Ref sig .tc := ⟨.hbm, 272, rfl⟩
abbrev main_cst_36 : Ref sig .tc := ⟨.hbm, 273, rfl⟩
abbrev main_v202 : Ref sig .tc := ⟨.hbm, 274, rfl⟩
abbrev main_v203 : Ref sig .tc := ⟨.hbm, 275, rfl⟩
abbrev main_v204 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_c_37 : Ref sig .tc := ⟨.hbm, 286, rfl⟩
abbrev main_v214 : Ref sig .tc := ⟨.hbm, 287, rfl⟩
abbrev main_v215 : Ref sig .tc := ⟨.hbm, 288, rfl⟩
abbrev main_c_38 : Ref sig .tc := ⟨.hbm, 289, rfl⟩
abbrev main_v216 : Ref sig .tc := ⟨.hbm, 290, rfl⟩
abbrev main_v217 : Ref sig .tc := ⟨.hbm, 291, rfl⟩
abbrev main_v218 : Ref sig .tc := ⟨.hbm, 292, rfl⟩
abbrev main_v219 : Ref sig .tc := ⟨.hbm, 293, rfl⟩
abbrev main_v220 : Ref sig .tc := ⟨.hbm, 294, rfl⟩
abbrev main_v221 : Ref sig .tc := ⟨.hbm, 295, rfl⟩
abbrev main_v222 : Ref sig .tc := ⟨.hbm, 296, rfl⟩
abbrev main_cst_39 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_cst_40 : Ref sig .tc := ⟨.hbm, 302, rfl⟩
abbrev main_v227 : Ref sig .tc := ⟨.hbm, 303, rfl⟩
abbrev main_v228 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_v233 : Ref sig .tc := ⟨.hbm, 309, rfl⟩
abbrev main_cst_41 : Ref sig .tc := ⟨.hbm, 310, rfl⟩
abbrev main_v234 : Ref sig .tc := ⟨.hbm, 311, rfl⟩
abbrev main_v235 : Ref sig .tc := ⟨.hbm, 312, rfl⟩
abbrev main_v236 : Ref sig .tc := ⟨.hbm, 313, rfl⟩
abbrev main_v237 : Ref sig .tc := ⟨.hbm, 314, rfl⟩
abbrev main_c_42 : Ref sig .tc := ⟨.hbm, 315, rfl⟩
abbrev main_v238 : Ref sig .tc := ⟨.hbm, 316, rfl⟩
abbrev main_v239 : Ref sig .tc := ⟨.hbm, 317, rfl⟩
abbrev main_c_43 : Ref sig .tc := ⟨.hbm, 318, rfl⟩
abbrev main_v240 : Ref sig .tc := ⟨.hbm, 319, rfl⟩
abbrev main_v241 : Ref sig .tc := ⟨.hbm, 320, rfl⟩
abbrev main_v242 : Ref sig .tc := ⟨.hbm, 321, rfl⟩
abbrev main_v243 : Ref sig .tc := ⟨.hbm, 322, rfl⟩
abbrev main_v244 : Ref sig .tc := ⟨.hbm, 323, rfl⟩
abbrev main_v245 : Ref sig .tc := ⟨.hbm, 324, rfl⟩
abbrev main_v246 : Ref sig .tc := ⟨.hbm, 325, rfl⟩
abbrev main_cst_44 : Ref sig .tc := ⟨.hbm, 326, rfl⟩
abbrev main_v247 : Ref sig .tc := ⟨.hbm, 327, rfl⟩
abbrev main_v248 : Ref sig .tc := ⟨.hbm, 328, rfl⟩
abbrev main_v249 : Ref sig .tc := ⟨.hbm, 329, rfl⟩
abbrev main_v250 : Ref sig .tc := ⟨.hbm, 330, rfl⟩
abbrev main_v251 : Ref sig .tc := ⟨.hbm, 331, rfl⟩
abbrev main_v252 : Ref sig .tc := ⟨.hbm, 332, rfl⟩
abbrev main_v253 : Ref sig .tc := ⟨.hbm, 333, rfl⟩
abbrev main_v254 : Ref sig .tc := ⟨.hbm, 334, rfl⟩
abbrev main_v255 : Ref sig .tc := ⟨.hbm, 335, rfl⟩
abbrev main_v256 : Ref sig .tc := ⟨.hbm, 336, rfl⟩
abbrev main_v257 : Ref sig .tc := ⟨.hbm, 337, rfl⟩
abbrev main_v258 : Ref sig .tc := ⟨.hbm, 338, rfl⟩
abbrev main_c_45 : Ref sig .tc := ⟨.hbm, 339, rfl⟩
abbrev main_v259 : Ref sig .tc := ⟨.hbm, 340, rfl⟩
abbrev main_v260 : Ref sig .tc := ⟨.hbm, 341, rfl⟩
abbrev main_c_46 : Ref sig .tc := ⟨.hbm, 342, rfl⟩
abbrev main_v261 : Ref sig .tc := ⟨.hbm, 343, rfl⟩
abbrev main_v262 : Ref sig .tc := ⟨.hbm, 344, rfl⟩
abbrev main_v263 : Ref sig .tc := ⟨.hbm, 345, rfl⟩
abbrev main_v264 : Ref sig .tc := ⟨.hbm, 346, rfl⟩
abbrev main_v265 : Ref sig .tc := ⟨.hbm, 347, rfl⟩
abbrev main_v266 : Ref sig .tc := ⟨.hbm, 348, rfl⟩
abbrev main_v267 : Ref sig .tc := ⟨.hbm, 349, rfl⟩
abbrev main_cst_47 : Ref sig .tc := ⟨.hbm, 350, rfl⟩
abbrev main_v268 : Ref sig .tc := ⟨.hbm, 351, rfl⟩
abbrev main_v269 : Ref sig .tc := ⟨.hbm, 352, rfl⟩
abbrev main_v270 : Ref sig .tc := ⟨.hbm, 353, rfl⟩
abbrev main_v271 : Ref sig .tc := ⟨.hbm, 354, rfl⟩
abbrev main_cst_48 : Ref sig .tc := ⟨.hbm, 355, rfl⟩
abbrev main_v272 : Ref sig .tc := ⟨.hbm, 356, rfl⟩
abbrev main_v273 : Ref sig .tc := ⟨.hbm, 357, rfl⟩
abbrev main_v274 : Ref sig .tc := ⟨.hbm, 358, rfl⟩
abbrev main_v275 : Ref sig .tc := ⟨.hbm, 359, rfl⟩
abbrev main_v276 : Ref sig .tc := ⟨.hbm, 360, rfl⟩
abbrev main_v277 : Ref sig .tc := ⟨.hbm, 361, rfl⟩
abbrev main_v278 : Ref sig .tc := ⟨.hbm, 362, rfl⟩
abbrev main_cst_49 : Ref sig .tc := ⟨.hbm, 363, rfl⟩
abbrev main_v279 : Ref sig .tc := ⟨.hbm, 364, rfl⟩
abbrev main_v280 : Ref sig .tc := ⟨.hbm, 365, rfl⟩
abbrev main_v281 : Ref sig .tc := ⟨.hbm, 366, rfl⟩
abbrev main_v282 : Ref sig .tc := ⟨.hbm, 367, rfl⟩
abbrev main_v283 : Ref sig .tc := ⟨.hbm, 368, rfl⟩
abbrev main_v284 : Ref sig .tc := ⟨.hbm, 369, rfl⟩
abbrev main_v285 : Ref sig .tc := ⟨.hbm, 370, rfl⟩
abbrev main_v286 : Ref sig .tc := ⟨.hbm, 371, rfl⟩
abbrev main_cst_50 : Ref sig .tc := ⟨.hbm, 372, rfl⟩
abbrev main_v287 : Ref sig .tc := ⟨.hbm, 373, rfl⟩
abbrev main_v288 : Ref sig .tc := ⟨.hbm, 374, rfl⟩
abbrev main_cst_51 : Ref sig .tc := ⟨.hbm, 375, rfl⟩
abbrev main_v289 : Ref sig .tc := ⟨.hbm, 376, rfl⟩
abbrev main_v290 : Ref sig .tc := ⟨.hbm, 377, rfl⟩
abbrev main_v291 : Ref sig .tc := ⟨.hbm, 378, rfl⟩
abbrev main_v292 : Ref sig .tc := ⟨.hbm, 379, rfl⟩
abbrev main_v293 : Ref sig .tc := ⟨.hbm, 380, rfl⟩
abbrev main_v294 : Ref sig .tc := ⟨.hbm, 381, rfl⟩
abbrev main_v295 : Ref sig .tc := ⟨.hbm, 382, rfl⟩
abbrev main_v296 : Ref sig .tc := ⟨.hbm, 383, rfl⟩
abbrev main_v297 : Ref sig .tc := ⟨.hbm, 384, rfl⟩
abbrev main_v298 : Ref sig .tc := ⟨.hbm, 385, rfl⟩
abbrev main_v299 : Ref sig .tc := ⟨.hbm, 386, rfl⟩
abbrev main_v300 : Ref sig .tc := ⟨.hbm, 387, rfl⟩
abbrev main_cst_52 : Ref sig .tc := ⟨.hbm, 388, rfl⟩
abbrev main_v301 : Ref sig .tc := ⟨.hbm, 389, rfl⟩
abbrev main_v302 : Ref sig .tc := ⟨.hbm, 390, rfl⟩
abbrev main_cst_53 : Ref sig .tc := ⟨.hbm, 391, rfl⟩
abbrev main_v303 : Ref sig .tc := ⟨.hbm, 392, rfl⟩
abbrev main_v304 : Ref sig .tc := ⟨.hbm, 393, rfl⟩
abbrev main_v305 : Ref sig .tc := ⟨.hbm, 394, rfl⟩
abbrev main_v306 : Ref sig .tc := ⟨.hbm, 395, rfl⟩
abbrev main_v307 : Ref sig .tc := ⟨.hbm, 396, rfl⟩
abbrev main_v308 : Ref sig .tc := ⟨.hbm, 397, rfl⟩
abbrev main_v309 : Ref sig .tc := ⟨.hbm, 398, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  transposes_S512x2000_S2000x512_1_0 : S512x2000.Transposes [1, 0] S2000x512
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  slices_S200000x6_S200000x3_0_0 : S200000x6.Slices ![0, 0] S200000x3
  transposes_S128x3_S3x128_1_0 : S128x3.Transposes [1, 0] S3x128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  transposes_S128x128_S128x128_1_0 : S128x128.Transposes [1, 0] S128x128
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x512_S200000x640_d1 : Shape.Concatenates [S200000x128, S200000x512] S200000x640 1
  slices_S200000x6_S200000x3_0_3 : S200000x6.Slices ![0, 3] S200000x3
  reducesTo_S200000x640_S200000_d1 : S200000x640.ReducesTo [1] S200000
  h_S_ : 0 < S_.numel
  concatenates_S20000x512_S20000x512_S20000x1024_d1 : Shape.Concatenates [S20000x512, S20000x512] S20000x1024 1
  transposes_S512x1024_S1024x512_1_0 : S512x1024.Transposes [1, 0] S1024x512
  bcast_S_S20000 : S_.BroadcastsInDim S20000 (![] : Fin 0 → Fin S20000.rank)
  bcast_S200000x1_S200000x512_0_1 : S200000x1.BroadcastsInDim S200000x512 (![0, 1] : Fin 2 → Fin S200000x512.rank)
  bcast_S_S20000x512 : S_.BroadcastsInDim S20000x512 (![] : Fin 0 → Fin S20000x512.rank)
  slices_S3x512x16_S1x512x16_0_0_0 : S3x512x16.Slices ![0, 0, 0] S1x512x16
  shapeCasts_S1x512x16_S512x16 : S1x512x16.ShapeCasts S512x16
  slices_S3x512x16_S1x512x16_1_0_0 : S3x512x16.Slices ![1, 0, 0] S1x512x16
  slices_S3x512x16_S1x512x16_2_0_0 : S3x512x16.Slices ![2, 0, 0] S1x512x16
  bcast_S_S20000x16 : S_.BroadcastsInDim S20000x16 (![] : Fin 0 → Fin S20000x16.rank)
  bcast_S200000x1_S200000x16_0_1 : S200000x1.BroadcastsInDim S200000x16 (![0, 1] : Fin 2 → Fin S200000x16.rank)
  slices_S3x16x16_S1x16x16_0_0_0 : S3x16x16.Slices ![0, 0, 0] S1x16x16
  shapeCasts_S1x16x16_S16x16 : S1x16x16.ShapeCasts S16x16
  slices_S3x16x16_S1x16x16_1_0_0 : S3x16x16.Slices ![1, 0, 0] S1x16x16
  slices_S3x16x16_S1x16x16_2_0_0 : S3x16x16.Slices ![2, 0, 0] S1x16x16
  concatenates_S20000x16_S20000x16_S20000x32_d1 : Shape.Concatenates [S20000x16, S20000x16] S20000x32 1
  concatenates_S20000x32_S20000x16_S20000x48_d1 : Shape.Concatenates [S20000x32, S20000x16] S20000x48 1
  concatenates_S20000x48_S20000x16_S20000x64_d1 : Shape.Concatenates [S20000x48, S20000x16] S20000x64 1
  transposes_S256x64_S64x256_1_0 : S256x64.Transposes [1, 0] S64x256
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S20000x256 : S_.BroadcastsInDim S20000x256 (![] : Fin 0 → Fin S20000x256.rank)
  transposes_S2x256_S256x2_1_0 : S2x256.Transposes [1, 0] S256x2
  bcast_S2_S1x2_1 : S2.BroadcastsInDim S1x2 (![1] : Fin 1 → Fin S1x2.rank)
  bcast_S1x2_S20000x2_0_1 : S1x2.BroadcastsInDim S20000x2 (![0, 1] : Fin 2 → Fin S20000x2.rank)
  transposes_S256x512_S512x256_1_0 : S256x512.Transposes [1, 0] S512x256
  transposes_S20x256_S256x20_1_0 : S20x256.Transposes [1, 0] S256x20
  bcast_S20_S1x20_1 : S20.BroadcastsInDim S1x20 (![1] : Fin 1 → Fin S1x20.rank)
  bcast_S1x20_S20000x20_0_1 : S1x20.BroadcastsInDim S20000x20 (![0, 1] : Fin 2 → Fin S20000x20.rank)
  dot_S20000x2000_S2000x512_S20000x512_1_0_0_1_n_n_wf : DotDims.WF S20000x2000 S2000x512 S20000x512 [1] [0] [0] [1] [] []
  dot_S200000x3_S3x128_S200000x128_1_0_0_1_n_n_wf : DotDims.WF S200000x3 S3x128 S200000x128 [1] [0] [0] [1] [] []
  dot_S200000x128_S128x128_S200000x128_1_0_0_1_n_n_wf : DotDims.WF S200000x128 S128x128 S200000x128 [1] [0] [0] [1] [] []
  gather_S20000x512_S200000x1_S200000x512_1_0_n_n_0_1_1512_wf : GatherDims.WF S20000x512 S200000x1 S200000x512 [1] [0] [] [0] [] 1 ![1, 512]
  dot_S20000x1024_S1024x512_S20000x512_1_0_0_1_n_n_wf : DotDims.WF S20000x1024 S1024x512 S20000x512 [1] [0] [0] [1] [] []
  scatter_S20000_S200000x1_S200000_n_0_0_1_wf : ScatterDims.WF S20000 S200000x1 S200000 [] [0] [0] 1
  gather_S20000_S200000x1_S200000_n_0_n_n_0_1_1_wf : GatherDims.WF S20000 S200000x1 S200000 [] [0] [] [0] [] 1 ![1]
  scatter_S20000x512_S200000x1_S200000x512_1_0_0_1_wf : ScatterDims.WF S20000x512 S200000x1 S200000x512 [1] [0] [0] 1
  dot_S20000x512_S512x16_S20000x16_1_0_0_1_n_n_wf : DotDims.WF S20000x512 S512x16 S20000x16 [1] [0] [0] [1] [] []
  gather_S20000x16_S200000x1_S200000x16_1_0_n_n_0_1_116_wf : GatherDims.WF S20000x16 S200000x1 S200000x16 [1] [0] [] [0] [] 1 ![1, 16]
  scatter_S20000x16_S200000x1_S200000x16_1_0_0_1_wf : ScatterDims.WF S20000x16 S200000x1 S200000x16 [1] [0] [0] 1
  dot_S20000x16_S16x16_S20000x16_1_0_0_1_n_n_wf : DotDims.WF S20000x16 S16x16 S20000x16 [1] [0] [0] [1] [] []
  dot_S20000x64_S64x256_S20000x256_1_0_0_1_n_n_wf : DotDims.WF S20000x64 S64x256 S20000x256 [1] [0] [0] [1] [] []
  dot_S20000x256_S256x2_S20000x2_1_0_0_1_n_n_wf : DotDims.WF S20000x256 S256x2 S20000x2 [1] [0] [0] [1] [] []
  dot_S20000x512_S512x256_S20000x256_1_0_0_1_n_n_wf : DotDims.WF S20000x512 S512x256 S20000x256 [1] [0] [0] [1] [] []
  dot_S20000x256_S256x20_S20000x20_1_0_0_1_n_n_wf : DotDims.WF S20000x256 S256x20 S20000x20 [1] [0] [0] [1] [] []

variable [Facts₀]

def dot_S20000x2000_S2000x512_S20000x512_1_0_0_1_n_n : DotDims S20000x2000 S2000x512 S20000x512 where
  lhsContracting := [1]
  rhsContracting := [0]
  lhsNonContracting := [0]
  rhsNonContracting := [1]
  lhsBatch := []
  rhsBatch := []
  wf := dot_S20000x2000_S2000x512_S20000x512_1_0_0_1_n_n_wf
def dot_S200000x3_S3x128_S200000x128_1_0_0_1_n_n : DotDims S200000x3 S3x128 S200000x128 where
  lhsContracting := [1]
  rhsContracting := [0]
  lhsNonContracting := [0]
  rhsNonContracting := [1]
  lhsBatch := []
  rhsBatch := []
  wf := dot_S200000x3_S3x128_S200000x128_1_0_0_1_n_n_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S20000x512_S200000x1_S200000x512_1_0_n_n_0_1_1512 : GatherDims S20000x512 S200000x1 S200000x512 where
  offsetDims := [1]
  collapsedSliceDims := [0]
  operandBatchingDims := []
  startIndicesBatchingDims := []
  startIndexMap := [0]
  indexVectorDim := 1
  sliceSizes := ![1, 512]
  wf := gather_S20000x512_S200000x1_S200000x512_1_0_n_n_0_1_1512_wf
def dot_S20000x1024_S1024x512_S20000x512_1_0_0_1_n_n : DotDims S20000x1024 S1024x512 S20000x512 where
  lhsContracting := [1]
  rhsContracting := [0]
  lhsNonContracting := [0]
  rhsNonContracting := [1]
  lhsBatch := []
  rhsBatch := []
  wf := dot_S20000x1024_S1024x512_S20000x512_1_0_0_1_n_n_wf
def scatter_S20000_S200000x1_S200000_n_0_0_1 : ScatterDims S20000 S200000x1 S200000 where
  updateWindowDims := []
  insertedWindowDims := [0]
  scatterDimsToOperandDims := [0]
  indexVectorDim := 1
  wf := scatter_S20000_S200000x1_S200000_n_0_0_1_wf
def gather_S20000_S200000x1_S200000_n_0_n_n_0_1_1 : GatherDims S20000 S200000x1 S200000 where
  offsetDims := []
  collapsedSliceDims := [0]
  operandBatchingDims := []
  startIndicesBatchingDims := []
  startIndexMap := [0]
  indexVectorDim := 1
  sliceSizes := ![1]
  wf := gather_S20000_S200000x1_S200000_n_0_n_n_0_1_1_wf
def scatter_S20000x512_S200000x1_S200000x512_1_0_0_1 : ScatterDims S20000x512 S200000x1 S200000x512 where
  updateWindowDims := [1]
  insertedWindowDims := [0]
  scatterDimsToOperandDims := [0]
  indexVectorDim := 1
  wf := scatter_S20000x512_S200000x1_S200000x512_1_0_0_1_wf
def dot_S20000x512_S512x16_S20000x16_1_0_0_1_n_n : DotDims S20000x512 S512x16 S20000x16 where
  lhsContracting := [1]
  rhsContracting := [0]
  lhsNonContracting := [0]
  rhsNonContracting := [1]
  lhsBatch := []
  rhsBatch := []
  wf := dot_S20000x512_S512x16_S20000x16_1_0_0_1_n_n_wf
def gather_S20000x16_S200000x1_S200000x16_1_0_n_n_0_1_116 : GatherDims S20000x16 S200000x1 S200000x16 where
  offsetDims := [1]
  collapsedSliceDims := [0]
  operandBatchingDims := []
  startIndicesBatchingDims := []
  startIndexMap := [0]
  indexVectorDim := 1
  sliceSizes := ![1, 16]
  wf := gather_S20000x16_S200000x1_S200000x16_1_0_n_n_0_1_116_wf
def scatter_S20000x16_S200000x1_S200000x16_1_0_0_1 : ScatterDims S20000x16 S200000x1 S200000x16 where
  updateWindowDims := [1]
  insertedWindowDims := [0]
  scatterDimsToOperandDims := [0]
  indexVectorDim := 1
  wf := scatter_S20000x16_S200000x1_S200000x16_1_0_0_1_wf
def dot_S20000x16_S16x16_S20000x16_1_0_0_1_n_n : DotDims S20000x16 S16x16 S20000x16 where
  lhsContracting := [1]
  rhsContracting := [0]
  lhsNonContracting := [0]
  rhsNonContracting := [1]
  lhsBatch := []
  rhsBatch := []
  wf := dot_S20000x16_S16x16_S20000x16_1_0_0_1_n_n_wf
def dot_S20000x64_S64x256_S20000x256_1_0_0_1_n_n : DotDims S20000x64 S64x256 S20000x256 where
  lhsContracting := [1]
  rhsContracting := [0]
  lhsNonContracting := [0]
  rhsNonContracting := [1]
  lhsBatch := []
  rhsBatch := []
  wf := dot_S20000x64_S64x256_S20000x256_1_0_0_1_n_n_wf
def dot_S20000x256_S256x2_S20000x2_1_0_0_1_n_n : DotDims S20000x256 S256x2 S20000x2 where
  lhsContracting := [1]
  rhsContracting := [0]
  lhsNonContracting := [0]
  rhsNonContracting := [1]
  lhsBatch := []
  rhsBatch := []
  wf := dot_S20000x256_S256x2_S20000x2_1_0_0_1_n_n_wf
def dot_S20000x512_S512x256_S20000x256_1_0_0_1_n_n : DotDims S20000x512 S512x256 S20000x256 where
  lhsContracting := [1]
  rhsContracting := [0]
  lhsNonContracting := [0]
  rhsNonContracting := [1]
  lhsBatch := []
  rhsBatch := []
  wf := dot_S20000x512_S512x256_S20000x256_1_0_0_1_n_n_wf
def dot_S20000x256_S256x20_S20000x20_1_0_0_1_n_n : DotDims S20000x256 S256x20 S20000x20 where
  lhsContracting := [1]
  rhsContracting := [0]
  lhsNonContracting := [0]
  rhsNonContracting := [1]
  lhsBatch := []
  rhsBatch := []
  wf := dot_S20000x256_S256x20_S20000x20_1_0_0_1_n_n_wf

class Facts : Prop extends Facts₀ where

variable [Facts]
-- ==== Proof.K.Reg0.lean ====
/- Dense layer 0 of the network, one row block per grid point: the body reads a row block `A` of the
   activations, the whole weight matrix `B` and the bias row `b`, and overwrites its output block with
   `A·B + b`. Everything is stated at arbitrary contents `V` of the core's buffers when the layer is
   entered: each window's block at a grid point as a read of `V`; that an input's staging buffer holds its block at
   every grid point whether or not it was fetched there (the weight matrix and the bias are fetched once and their
   block index never moves); the output staging buffer after the body, as the single store's piece over the payload
   of the three loaded blocks; the body's triple (the output buffer, held at arbitrary contents, is read and then
   wholly overwritten, the value read being unused); the proof data of the layer's pipeline and its body obligation
   at every grid point. -/
import proofs.«115122_j13357348290767_2_alg».proof.Proof.Gen.Kernel.Launch
import proofs.«115122_j13357348290767_2_alg».proof.Proof.Gen.Kernel.Skeleton
import proofs.«115122_j13357348290767_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the layer is entered
variable (V : (c : Dev nD) → (b : Ref sig .tc) → Buf (Elt F) ((c : Thread nD τ).loc b))

/-! ## The windows' blocks -/

/-- Window `w`'s block at grid point `t`, read off its array as the layer finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every grid point, fetched there or not, for any proof
    data whose array is `V`'s (`hA`) and whose body leaves the block in place (`hafter`): where the window is not
    fetched its block index has not moved, so the block of the point before is the block of this point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every grid point, fetched there or not, for any proof
    data whose array is `V`'s (`hA`) and whose body leaves the block in place (`hafter`): where the window is not
    fetched its block index has not moved, so the block of the point before is the block of this point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every grid point, fetched there or not, for any proof
    data whose array is `V`'s (`hA`) and whose body leaves the block in place (`hafter`): where the window is not
    fetched its block index has not moved, so the block of the point before is the block of this point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is its whole block -/

abbrev r0_0 : Rect S400x2000 := Rect.unit (s := S400x2000) ![0, 0] S400x2000.size inb_S400x2000_S400x2000_0_0
abbrev r0_1 : Rect S2000x1024 := Rect.unit (s := S2000x1024) ![0, 0] S2000x1024.size inb_S2000x1024_S2000x1024_0_0
abbrev r0_2 : Rect S1x1024 := Rect.unit (s := S1x1024) ![0, 0] S1x1024.size inb_S1x1024_S1x1024_0_0
abbrev r0_3 : Rect S400x1024 := Rect.unit (s := S400x1024) ![0, 0] S400x1024.size inb_S400x1024_S400x1024_0_0

/-! ## What the body leaves in the output window's buffer -/

/-- The output staging buffer after the body, from the three input blocks: its one store as a piece over the
    payload of the loaded blocks. -/
def out0_3 (x0 : Vec F S400x2000 .bf16) (x1 : Vec F S2000x1024 .bf16) (x2 : Vec F S1x1024 .f32) : Vec F S400x1024 .f32 :=
  View.canon [⟨r0_3, k0_pay1 (View.ld x0 r0_0) (View.ld x1 r0_1) (View.ld x2 r0_2)⟩]

/-- The one store is the whole buffer, so it covers it. -/
theorem cover0_3 (p0 : Vec F S400x1024 .f32) (y : S400x1024.Idx) :
    ∃ pc ∈ ([⟨r0_3, p0⟩] : List (View.Piece (Elt F) S400x1024 .f32)), y ∈ pc.1.set :=
  View.cover_of_tiled [⟨r0_3, p0⟩] S400x1024.size (by rfl) y

/-! ## The body's triple -/

set_option maxHeartbeats 1000000 in
/-- The body on whole staging memrefs, the three inputs' at contents `x0 x1 x2` and the output's at anything, runs to
    the continuation holding the inputs' as they were and the output's at `out0_3 x0 x1 x2`: the body's read of the
    output buffer is of whatever it holds, and the store then overwrites all of it. -/
theorem sound_kernel0 (c : Dev nD) (E : Set ℕ) (i : grid0.Coords) (arg1 : Memref sig .tc .vmem S400x2000 .bf16) (harg1 : arg1.IsWhole) (arg2 : Memref sig .tc .vmem S2000x1024 .bf16) (harg2 : arg2.IsWhole) (arg3 : Memref sig .tc .vmem S1x1024 .f32) (harg3 : arg3.IsWhole) (arg4 : Memref sig .tc .vmem S400x1024 .f32) (harg4 : arg4.IsWhole)
    (x0 : Vec F S400x2000 .bf16) (x1 : Vec F S2000x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of layer 0's pipeline on core `c`: the arrays as the layer finds them (`V`); after the body at
    grid point `t` each input's buffer at its block and the output's at `out0_3` of the input blocks; the invariant
    leaves the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the layer-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every grid point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic grid point -/

/-- What the body is called with at grid point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any grid point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every grid point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.K.Reg1.lean ====
/- Dense layer 1 of the network, one row block per grid point: the body reads a row block `A` of the
   activations, the whole weight matrix `B` and the bias row `b`, and overwrites its output block with
   `A·B + b`. Everything is stated at arbitrary contents `V` of the core's buffers when the layer is
   entered: each window's block at a grid point as a read of `V`; that an input's staging buffer holds its block at
   every grid point whether or not it was fetched there (the weight matrix and the bias are fetched once and their
   block index never moves); the output staging buffer after the body, as the single store's piece over the payload
   of the three loaded blocks; the body's triple (the output buffer, held at arbitrary contents, is read and then
   wholly overwritten, the value read being unused); the proof data of the layer's pipeline and its body obligation
   at every grid point. -/
import proofs.«115122_j13357348290767_2_alg».proof.Proof.Gen.Kernel.Launch
import proofs.«115122_j13357348290767_2_alg».proof.Proof.Gen.Kernel.Skeleton
import proofs.«115122_j13357348290767_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the layer is entered
variable (V : (c : Dev nD) → (b : Ref sig .tc) → Buf (Elt F) ((c : Thread nD τ).loc b))

/-! ## The windows' blocks -/

/-- Window `w`'s block at grid point `t`, read off its array as the layer finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every grid point, fetched there or not, for any proof
    data whose array is `V`'s (`hA`) and whose body leaves the block in place (`hafter`): where the window is not
    fetched its block index has not moved, so the block of the point before is the block of this point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every grid point, fetched there or not, for any proof
    data whose array is `V`'s (`hA`) and whose body leaves the block in place (`hafter`): where the window is not
    fetched its block index has not moved, so the block of the point before is the block of this point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every grid point, fetched there or not, for any proof
    data whose array is `V`'s (`hA`) and whose body leaves the block in place (`hafter`): where the window is not
    fetched its block index has not moved, so the block of the point before is the block of this point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is its whole block -/

abbrev r1_0 : Rect S2000x128 := Rect.unit (s := S2000x128) ![0, 0] S2000x128.size inb_S2000x128_S2000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0
abbrev r1_3 : Rect S2000x128 := Rect.unit (s := S2000x128) ![0, 0] S2000x128.size inb_S2000x128_S2000x128_0_0

/-! ## What the body leaves in the output window's buffer -/

/-- The output staging buffer after the body, from the three input blocks: its one store as a piece over the
    payload of the loaded blocks. -/
def out1_3 (x0 : Vec F S2000x128 .bf16) (x1 : Vec F S128x128 .bf16) (x2 : Vec F S1x128 .f32) : Vec F S2000x128 .f32 :=
  View.canon [⟨r1_3, k1_pay1 (View.ld x0 r1_0) (View.ld x1 r1_1) (View.ld x2 r1_2)⟩]

/-- The one store is the whole buffer, so it covers it. -/
theorem cover1_3 (p0 : Vec F S2000x128 .f32) (y : S2000x128.Idx) :
    ∃ pc ∈ ([⟨r1_3, p0⟩] : List (View.Piece (Elt F) S2000x128 .f32)), y ∈ pc.1.set :=
  View.cover_of_tiled [⟨r1_3, p0⟩] S2000x128.size (by rfl) y

/-! ## The body's triple -/

set_option maxHeartbeats 1000000 in
/-- The body on whole staging memrefs, the three inputs' at contents `x0 x1 x2` and the output's at anything, runs to
    the continuation holding the inputs' as they were and the output's at `out1_3 x0 x1 x2`: the body's read of the
    output buffer is of whatever it holds, and the store then overwrites all of it. -/
theorem sound_kernel1 (c : Dev nD) (E : Set ℕ) (i : grid1.Coords) (arg1 : Memref sig .tc .vmem S2000x128 .bf16) (harg1 : arg1.IsWhole) (arg2 : Memref sig .tc .vmem S128x128 .bf16) (harg2 : arg2.IsWhole) (arg3 : Memref sig .tc .vmem S1x128 .f32) (harg3 : arg3.IsWhole) (arg4 : Memref sig .tc .vmem S2000x128 .f32) (harg4 : arg4.IsWhole)
    (x0 : Vec F S2000x128 .bf16) (x1 : Vec F S128x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of layer 1's pipeline on core `c`: the arrays as the layer finds them (`V`); after the body at
    grid point `t` each input's buffer at its block and the output's at `out1_3` of the input blocks; the invariant
    leaves the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the layer-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every grid point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic grid point -/

/-- What the body is called with at grid point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any grid point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every grid point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.K.Reg2.lean ====
/- Dense layer 2 of the network, one row block per grid point: the body reads a row block `A` of the
   activations, the whole weight matrix `B` and the bias row `b`, and overwrites its output block with
   `A·B + b`. Everything is stated at arbitrary contents `V` of the core's buffers when the layer is
   entered: each window's block at a grid point as a read of `V`; that an input's staging buffer holds its block at
   every grid point whether or not it was fetched there (the weight matrix and the bias are fetched once and their
   block index never moves); the output staging buffer after the body, as the single store's piece over the payload
   of the three loaded blocks; the body's triple (the output buffer, held at arbitrary contents, is read and then
   wholly overwritten, the value read being unused); the proof data of the layer's pipeline and its body obligation
   at every grid point. -/
import proofs.«115122_j13357348290767_2_alg».proof.Proof.Gen.Kernel.Launch
import proofs.«115122_j13357348290767_2_alg».proof.Proof.Gen.Kernel.Skeleton
import proofs.«115122_j13357348290767_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the layer is entered
variable (V : (c : Dev nD) → (b : Ref sig .tc) → Buf (Elt F) ((c : Thread nD τ).loc b))

/-! ## The windows' blocks -/

/-- Window `w`'s block at grid point `t`, read off its array as the layer finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every grid point, fetched there or not, for any proof
    data whose array is `V`'s (`hA`) and whose body leaves the block in place (`hafter`): where the window is not
    fetched its block index has not moved, so the block of the point before is the block of this point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every grid point, fetched there or not, for any proof
    data whose array is `V`'s (`hA`) and whose body leaves the block in place (`hafter`): where the window is not
    fetched its block index has not moved, so the block of the point before is the block of this point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every grid point, fetched there or not, for any proof
    data whose array is `V`'s (`hA`) and whose body leaves the block in place (`hafter`): where the window is not
    fetched its block index has not moved, so the block of the point before is the block of this point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is its whole block -/

abbrev r2_0 : Rect S2000x128 := Rect.unit (s := S2000x128) ![0, 0] S2000x128.size inb_S2000x128_S2000x128_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0
abbrev r2_3 : Rect S2000x128 := Rect.unit (s := S2000x128) ![0, 0] S2000x128.size inb_S2000x128_S2000x128_0_0

/-! ## What the body leaves in the output window's buffer -/

/-- The output staging buffer after the body, from the three input blocks: its one store as a piece over the
    payload of the loaded blocks. -/
def out2_3 (x0 : Vec F S2000x128 .bf16) (x1 : Vec F S128x128 .bf16) (x2 : Vec F S1x128 .f32) : Vec F S2000x128 .f32 :=
  View.canon [⟨r2_3, k2_pay1 (View.ld x0 r2_0) (View.ld x1 r2_1) (View.ld x2 r2_2)⟩]

/-- The one store is the whole buffer, so it covers it. -/
theorem cover2_3 (p0 : Vec F S2000x128 .f32) (y : S2000x128.Idx) :
    ∃ pc ∈ ([⟨r2_3, p0⟩] : List (View.Piece (Elt F) S2000x128 .f32)), y ∈ pc.1.set :=
  View.cover_of_tiled [⟨r2_3, p0⟩] S2000x128.size (by rfl) y

/-! ## The body's triple -/

set_option maxHeartbeats 1000000 in
/-- The body on whole staging memrefs, the three inputs' at contents `x0 x1 x2` and the output's at anything, runs to
    the continuation holding the inputs' as they were and the output's at `out2_3 x0 x1 x2`: the body's read of the
    output buffer is of whatever it holds, and the store then overwrites all of it. -/
theorem sound_kernel2 (c : Dev nD) (E : Set ℕ) (i : grid2.Coords) (arg1 : Memref sig .tc .vmem S2000x128 .bf16) (harg1 : arg1.IsWhole) (arg2 : Memref sig .tc .vmem S128x128 .bf16) (harg2 : arg2.IsWhole) (arg3 : Memref sig .tc .vmem S1x128 .f32) (harg3 : arg3.IsWhole) (arg4 : Memref sig .tc .vmem S2000x128 .f32) (harg4 : arg4.IsWhole)
    (x0 : Vec F S2000x128 .bf16) (x1 : Vec F S128x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of layer 2's pipeline on core `c`: the arrays as the layer finds them (`V`); after the body at
    grid point `t` each input's buffer at its block and the output's at `out2_3` of the input blocks; the invariant
    leaves the scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the layer-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every grid point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic grid point -/

/-- What the body is called with at grid point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any grid point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every grid point. -/
theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.K.Reg3.lean ====
/- Dense layer 3 of the network, one row block per grid point: the body reads a row block `A` of the
   activations, the whole weight matrix `B` and the bias row `b`, and overwrites its output block with
   `A·B + b`. Everything is stated at arbitrary contents `V` of the core's buffers when the layer is
   entered: each window's block at a grid point as a read of `V`; that an input's staging buffer holds its block at
   every grid point whether or not it was fetched there (the weight matrix and the bias are fetched once and their
   block index never moves); the output staging buffer after the body, as the single store's piece over the payload
   of the three loaded blocks; the body's triple (the output buffer, held at arbitrary contents, is read and then
   wholly overwritten, the value read being unused); the proof data of the layer's pipeline and its body obligation
   at every grid point. -/
import proofs.«115122_j13357348290767_2_alg».proof.Proof.Gen.Kernel.Launch
import proofs.«115122_j13357348290767_2_alg».proof.Proof.Gen.Kernel.Skeleton
import proofs.«115122_j13357348290767_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the layer is entered
variable (V : (c : Dev nD) → (b : Ref sig .tc) → Buf (Elt F) ((c : Thread nD τ).loc b))

/-! ## The windows' blocks -/

/-- Window `w`'s block at grid point `t`, read off its array as the layer finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every grid point, fetched there or not, for any proof
    data whose array is `V`'s (`hA`) and whose body leaves the block in place (`hafter`): where the window is not
    fetched its block index has not moved, so the block of the point before is the block of this point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every grid point, fetched there or not, for any proof
    data whose array is `V`'s (`hA`) and whose body leaves the block in place (`hafter`): where the window is not
    fetched its block index has not moved, so the block of the point before is the block of this point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every grid point, fetched there or not, for any proof
    data whose array is `V`'s (`hA`) and whose body leaves the block in place (`hafter`): where the window is not
    fetched its block index has not moved, so the block of the point before is the block of this point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is its whole block -/

abbrev r3_0 : Rect S400x1024 := Rect.unit (s := S400x1024) ![0, 0] S400x1024.size inb_S400x1024_S400x1024_0_0
abbrev r3_1 : Rect S1024x512 := Rect.unit (s := S1024x512) ![0, 0] S1024x512.size inb_S1024x512_S1024x512_0_0
abbrev r3_2 : Rect S1x512 := Rect.unit (s := S1x512) ![0, 0] S1x512.size inb_S1x512_S1x512_0_0
abbrev r3_3 : Rect S400x512 := Rect.unit (s := S400x512) ![0, 0] S400x512.size inb_S400x512_S400x512_0_0

/-! ## What the body leaves in the output window's buffer -/

/-- The output staging buffer after the body, from the three input blocks: its one store as a piece over the
    payload of the loaded blocks. -/
def out3_3 (x0 : Vec F S400x1024 .bf16) (x1 : Vec F S1024x512 .bf16) (x2 : Vec F S1x512 .f32) : Vec F S400x512 .f32 :=
  View.canon [⟨r3_3, k3_pay1 (View.ld x0 r3_0) (View.ld x1 r3_1) (View.ld x2 r3_2)⟩]

/-- The one store is the whole buffer, so it covers it. -/
theorem cover3_3 (p0 : Vec F S400x512 .f32) (y : S400x512.Idx) :
    ∃ pc ∈ ([⟨r3_3, p0⟩] : List (View.Piece (Elt F) S400x512 .f32)), y ∈ pc.1.set :=
  View.cover_of_tiled [⟨r3_3, p0⟩] S400x512.size (by rfl) y

/-! ## The body's triple -/

set_option maxHeartbeats 1000000 in
/-- The body on whole staging memrefs, the three inputs' at contents `x0 x1 x2` and the output's at anything, runs to
    the continuation holding the inputs' as they were and the output's at `out3_3 x0 x1 x2`: the body's read of the
    output buffer is of whatever it holds, and the store then overwrites all of it. -/
theorem sound_kernel3 (c : Dev nD) (E : Set ℕ) (i : grid3.Coords) (arg1 : Memref sig .tc .vmem S400x1024 .bf16) (harg1 : arg1.IsWhole) (arg2 : Memref sig .tc .vmem S1024x512 .bf16) (harg2 : arg2.IsWhole) (arg3 : Memref sig .tc .vmem S1x512 .f32) (harg3 : arg3.IsWhole) (arg4 : Memref sig .tc .vmem S400x512 .f32) (harg4 : arg4.IsWhole)
    (x0 : Vec F S400x1024 .bf16) (x1 : Vec F S1024x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__linear_kernel i arg1 harg1 arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of layer 3's pipeline on core `c`: the arrays as the layer finds them (`V`); after the body at
    grid point `t` each input's buffer at its block and the output's at `out3_3` of the input blocks; the invariant
    leaves the scoped rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the layer-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every grid point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic grid point -/

/-- What the body is called with at grid point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any grid point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every grid point. -/
theorem body_obligation3 (c : Dev nD) : BodyObligation (dat3 (F := F) V c) (defs₀ (F := F)) Variants.none () Set.univ := fun t => by
  rw [bigSep_W3, bigSep_W3]
  exact sound_body3 V c t

end Cert.Kernel.Frame

end
-- ==== Proof.K.Reg4.lean ====
/- Dense layer 4 of the network, one row block per grid point: the body reads a row block `A` of the
   activations, the whole weight matrix `B` and the bias row `b`, and overwrites its output block with
   `max(A·B + b, 0)` scaled by a constant. Everything is stated at arbitrary contents `V` of the core's buffers when the layer is
   entered: each window's block at a grid point as a read of `V`; that an input's staging buffer holds its block at
   every grid point whether or not it was fetched there (the weight matrix and the bias are fetched once and their
   block index never moves); the output staging buffer after the body, as the single store's piece over the payload
   of the three loaded blocks; the body's triple (the output buffer, held at arbitrary contents, is read and then
   wholly overwritten, the value read being unused); the proof data of the layer's pipeline and its body obligation
   at every grid point. -/
import proofs.«115122_j13357348290767_2_alg».proof.Proof.Gen.Kernel.Launch
import proofs.«115122_j13357348290767_2_alg».proof.Proof.Gen.Kernel.Skeleton
import proofs.«115122_j13357348290767_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the layer is entered
variable (V : (c : Dev nD) → (b : Ref sig .tc) → Buf (Elt F) ((c : Thread nD τ).loc b))

/-! ## The windows' blocks -/

/-- Window `w`'s block at grid point `t`, read off its array as the layer finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every grid point, fetched there or not, for any proof
    data whose array is `V`'s (`hA`) and whose body leaves the block in place (`hafter`): where the window is not
    fetched its block index has not moved, so the block of the point before is the block of this point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every grid point, fetched there or not, for any proof
    data whose array is `V`'s (`hA`) and whose body leaves the block in place (`hafter`): where the window is not
    fetched its block index has not moved, so the block of the point before is the block of this point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every grid point, fetched there or not, for any proof
    data whose array is `V`'s (`hA`) and whose body leaves the block in place (`hafter`): where the window is not
    fetched its block index has not moved, so the block of the point before is the block of this point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is its whole block -/

abbrev r4_0 : Rect S400x64 := Rect.unit (s := S400x64) ![0, 0] S400x64.size inb_S400x64_S400x64_0_0
abbrev r4_1 : Rect S64x256 := Rect.unit (s := S64x256) ![0, 0] S64x256.size inb_S64x256_S64x256_0_0
abbrev r4_2 : Rect S1x256 := Rect.unit (s := S1x256) ![0, 0] S1x256.size inb_S1x256_S1x256_0_0
abbrev r4_3 : Rect S400x256 := Rect.unit (s := S400x256) ![0, 0] S400x256.size inb_S400x256_S400x256_0_0

/-! ## What the body leaves in the output window's buffer -/

/-- The output staging buffer after the body, from the three input blocks: its one store as a piece over the
    payload of the loaded blocks. -/
def out4_3 (x0 : Vec F S400x64 .bf16) (x1 : Vec F S64x256 .bf16) (x2 : Vec F S1x256 .f32) : Vec F S400x256 .f32 :=
  View.canon [⟨r4_3, k4_pay1 (View.ld x0 r4_0) (View.ld x1 r4_1) (View.ld x2 r4_2)⟩]

/-- The one store is the whole buffer, so it covers it. -/
theorem cover4_3 (p0 : Vec F S400x256 .f32) (y : S400x256.Idx) :
    ∃ pc ∈ ([⟨r4_3, p0⟩] : List (View.Piece (Elt F) S400x256 .f32)), y ∈ pc.1.set :=
  View.cover_of_tiled [⟨r4_3, p0⟩] S400x256.size (by rfl) y

/-! ## The body's triple -/

set_option maxHeartbeats 1000000 in
/-- The body on whole staging memrefs, the three inputs' at contents `x0 x1 x2` and the output's at anything, runs to
    the continuation holding the inputs' as they were and the output's at `out4_3 x0 x1 x2`: the body's read of the
    output buffer is of whatever it holds, and the store then overwrites all of it. -/
theorem sound_kernel4 (c : Dev nD) (E : Set ℕ) (i : grid4.Coords) (arg1 : Memref sig .tc .vmem S400x64 .bf16) (harg1 : arg1.IsWhole) (arg2 : Memref sig .tc .vmem S64x256 .bf16) (harg2 : arg2.IsWhole) (arg3 : Memref sig .tc .vmem S1x256 .f32) (harg3 : arg3.IsWhole) (arg4 : Memref sig .tc .vmem S400x256 .f32) (harg4 : arg4.IsWhole)
    (x0 : Vec F S400x64 .bf16) (x1 : Vec F S64x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of layer 4's pipeline on core `c`: the arrays as the layer finds them (`V`); after the body at
    grid point `t` each input's buffer at its block and the output's at `out4_3` of the input blocks; the invariant
    leaves the scoped rest and the generator register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the layer-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

/-- Each input's current staging buffer holds its block at every grid point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic grid point -/

/-- What the body is called with at grid point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any grid point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every grid point. -/
theorem body_obligation4 (c : Dev nD) : BodyObligation (dat4 (F := F) V c) (defs₀ (F := F)) Variants.none () Set.univ := fun t => by
  rw [bigSep_W4, bigSep_W4]
  exact sound_body4 V c t

end Cert.Kernel.Frame

end
-- ==== Proof.K.Reg5.lean ====
/- Dense layer 5 of the network, one row block per grid point: the body reads a row block `A` of the
   activations, the whole weight matrix `B` and the bias row `b`, and overwrites its output block with
   `max(A·B + b, 0)` scaled by a constant. Everything is stated at arbitrary contents `V` of the core's buffers when the layer is
   entered: each window's block at a grid point as a read of `V`; that an input's staging buffer holds its block at
   every grid point whether or not it was fetched there (the weight matrix and the bias are fetched once and their
   block index never moves); the output staging buffer after the body, as the single store's piece over the payload
   of the three loaded blocks; the body's triple (the output buffer, held at arbitrary contents, is read and then
   wholly overwritten, the value read being unused); the proof data of the layer's pipeline and its body obligation
   at every grid point. -/
import proofs.«115122_j13357348290767_2_alg».proof.Proof.Gen.Kernel.Launch
import proofs.«115122_j13357348290767_2_alg».proof.Proof.Gen.Kernel.Skeleton
import proofs.«115122_j13357348290767_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the layer is entered
variable (V : (c : Dev nD) → (b : Ref sig .tc) → Buf (Elt F) ((c : Thread nD τ).loc b))

/-! ## The windows' blocks -/

/-- Window `w`'s block at grid point `t`, read off its array as the layer finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every grid point, fetched there or not, for any proof
    data whose array is `V`'s (`hA`) and whose body leaves the block in place (`hafter`): where the window is not
    fetched its block index has not moved, so the block of the point before is the block of this point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every grid point, fetched there or not, for any proof
    data whose array is `V`'s (`hA`) and whose body leaves the block in place (`hafter`): where the window is not
    fetched its block index has not moved, so the block of the point before is the block of this point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every grid point, fetched there or not, for any proof
    data whose array is `V`'s (`hA`) and whose body leaves the block in place (`hafter`): where the window is not
    fetched its block index has not moved, so the block of the point before is the block of this point. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each is its whole block -/

abbrev r5_0 : Rect S400x512 := Rect.unit (s := S400x512) ![0, 0] S400x512.size inb_S400x512_S400x512_0_0
abbrev r5_1 : Rect S512x256 := Rect.unit (s := S512x256) ![0, 0] S512x256.size inb_S512x256_S512x256_0_0
abbrev r5_2 : Rect S1x256 := Rect.unit (s := S1x256) ![0, 0] S1x256.size inb_S1x256_S1x256_0_0
abbrev r5_3 : Rect S400x256 := Rect.unit (s := S400x256) ![0, 0] S400x256.size inb_S400x256_S400x256_0_0

/-! ## What the body leaves in the output window's buffer -/

/-- The output staging buffer after the body, from the three input blocks: its one store as a piece over the
    payload of the loaded blocks. -/
def out5_3 (x0 : Vec F S400x512 .bf16) (x1 : Vec F S512x256 .bf16) (x2 : Vec F S1x256 .f32) : Vec F S400x256 .f32 :=
  View.canon [⟨r5_3, k5_pay1 (View.ld x0 r5_0) (View.ld x1 r5_1) (View.ld x2 r5_2)⟩]

/-- The one store is the whole buffer, so it covers it. -/
theorem cover5_3 (p0 : Vec F S400x256 .f32) (y : S400x256.Idx) :
    ∃ pc ∈ ([⟨r5_3, p0⟩] : List (View.Piece (Elt F) S400x256 .f32)), y ∈ pc.1.set :=
  View.cover_of_tiled [⟨r5_3, p0⟩] S400x256.size (by rfl) y

/-! ## The body's triple -/

set_option maxHeartbeats 1000000 in
/-- The body on whole staging memrefs, the three inputs' at contents `x0 x1 x2` and the output's at anything, runs to
    the continuation holding the inputs' as they were and the output's at `out5_3 x0 x1 x2`: the body's read of the
    output buffer is of whatever it holds, and the store then overwrites all of it. -/
theorem sound_kernel5 (c : Dev nD) (E : Set ℕ) (i : grid5.Coords) (arg1 : Memref sig .tc .vmem S400x512 .bf16) (harg1 : arg1.IsWhole) (arg2 : Memref sig .tc .vmem S512x256 .bf16) (harg2 : arg2.IsWhole) (arg3 : Memref sig .tc .vmem S1x256 .f32) (harg3 : arg3.IsWhole) (arg4 : Memref sig .tc .vmem S400x256 .f32) (harg4 : arg4.IsWhole)
    (x0 : Vec F S400x512 .bf16) (x1 : Vec F S512x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__linear_kernel i arg1 harg1 arg2 harg2 arg3 harg3 arg4 harg4) K := by
  simp only [cc5__linear_kernel_eq_skeleton]; unfold cc5__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of layer 5's pipeline on core `c`: the arrays as the layer finds them (`V`); after the body at
    grid point `t` each input's buffer at its block and the output's at `out5_3` of the input blocks; the invariant
    leaves the scoped rest and the generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the layer-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every grid point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic grid point -/

/-- What the body is called with at grid point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any grid point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every grid point. -/
theorem body_obligation5 (c : Dev nD) : BodyObligation (dat5 (F := F) V c) (defs₀ (F := F)) Variants.none () Set.univ := fun t => by
  rw [bigSep_W5, bigSep_W5]
  exact sound_body5 V c t

end Cert.Kernel.Frame

end
-- ==== Proof.K.W.lean ====
/- The buffer contents of a TensorCore at every boundary between two consecutive segments of the main
   function, as a fold from the launch memory: a stretch of host operations leaves `StableHlo.after` of the contents it
   was entered from; a dense-layer region leaves its four window arrays at what the pipeline's write-backs make of them
   (the three input arrays as entered, the output array with every block written back) and every other buffer as
   entered. `W0` is the launch memory and `W15` the contents at the return. Each pipeline's proof data are taken at
   its region's entry contents. -/
import proofs.«115122_j13357348290767_2_alg».proof.Proof.K.Reg0
import proofs.«115122_j13357348290767_2_alg».proof.Proof.K.Reg1
import proofs.«115122_j13357348290767_2_alg».proof.Proof.K.Reg2
import proofs.«115122_j13357348290767_2_alg».proof.Proof.K.Reg3
import proofs.«115122_j13357348290767_2_alg».proof.Proof.K.Reg4
import proofs.«115122_j13357348290767_2_alg».proof.Proof.K.Reg5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After `hostOps1`. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After `hostOps2`. -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After `hostOps3`. -/
abbrev W7 : Dev nD → Valuation τ sig (Elt F) := fun c => StableHlo.after hostOps3 (W6 m ρ c)
/-- The same read at the TensorCore's references. -/
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- After `hostOps4`. -/
abbrev W9 : Dev nD → Valuation τ sig (Elt F) := fun c => StableHlo.after hostOps4 (W8 m ρ c)
/-- The same read at the TensorCore's references. -/
abbrev V9 : (c : Dev nD) → (b : Ref sig .tc) → Buf (Elt F) ((c : Thread nD τ).loc b) := fun c b => W9 m ρ c b
/-- After `hostOps4_1`. -/
abbrev W10 : Dev nD → Valuation τ sig (Elt F) := fun c => StableHlo.after hostOps4_1 (W9 m ρ c)
/-- The same read at the TensorCore's references. -/
abbrev V10 : (c : Dev nD) → (b : Ref sig .tc) → Buf (Elt F) ((c : Thread nD τ).loc b) := fun c b => W10 m ρ c b
/-- After `hostOps4_2`. -/
abbrev W11 : Dev nD → Valuation τ sig (Elt F) := fun c => StableHlo.after hostOps4_2 (W10 m ρ c)
/-- The same read at the TensorCore's references. -/
abbrev V11 : (c : Dev nD) → (b : Ref sig .tc) → Buf (Elt F) ((c : Thread nD τ).loc b) := fun c b => W11 m ρ c b
/-- At region 4's exit: its arrays at what the pipeline leaves, every other buffer as entered. -/
def W12 (c : Dev nD) : Valuation τ sig (Elt F) :=
  Pipeline.withArrays spec4 c (W11 m ρ c) fun w => (dat4 (V11 m ρ) c).arrAt w cfg4.N
theorem W12_arr (c : Dev nD) (w : Fin cfg4.W) :
    W12 m ρ c (Proc.devRef .tc (Pipeline.arrRef spec4 w)) = (dat4 (V11 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
/-- The same read at the TensorCore's references (region 4's exit contents). -/
abbrev V12 : (c : Dev nD) → (b : Ref sig .tc) → Buf (Elt F) ((c : Thread nD τ).loc b) := fun c b => W12 m ρ c b
/-- At region 4's exit each of its arrays holds what the pipeline leaves, and every other buffer what it held at entry. -/
theorem hF4 (c : Dev nD) (w : Fin cfg4.W) : (dat4 (V11 m ρ) c).arrAt w cfg4.N = V12 m ρ c (Pipeline.arrRef spec4 w) :=
  (W12_arr m ρ c w).symm
theorem hrest4 (c : Dev nD) : ∀ b, b ∉ Finset.univ.image (Pipeline.arrRef spec4) → V12 m ρ c b = V11 m ρ c b :=
  fun b hb => W12_of_ne m ρ c b fun w e => hb (Finset.mem_image.mpr ⟨w, Finset.mem_univ _, e⟩)
/-- After `hostOps5`. -/
abbrev W13 : Dev nD → Valuation τ sig (Elt F) := fun c => StableHlo.after hostOps5 (W12 m ρ c)
/-- The same read at the TensorCore's references. -/
abbrev V13 : (c : Dev nD) → (b : Ref sig .tc) → Buf (Elt F) ((c : Thread nD τ).loc b) := fun c b => W13 m ρ c b
/-- At region 5's exit: its arrays at what the pipeline leaves, every other buffer as entered. -/
def W14 (c : Dev nD) : Valuation τ sig (Elt F) :=
  Pipeline.withArrays spec5 c (W13 m ρ c) fun w => (dat5 (V13 m ρ) c).arrAt w cfg5.N
theorem W14_arr (c : Dev nD) (w : Fin cfg5.W) :
    W14 m ρ c (Proc.devRef .tc (Pipeline.arrRef spec5 w)) = (dat5 (V13 m ρ) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m ρ c (Proc.devRef .tc b) = W13 m ρ c (Proc.devRef .tc b) := by
  unfold W14; exact Pipeline.withArrays_of_ne spec5 c _ _ b hb
/-- The same read at the TensorCore's references (region 5's exit contents). -/
abbrev V14 : (c : Dev nD) → (b : Ref sig .tc) → Buf (Elt F) ((c : Thread nD τ).loc b) := fun c b => W14 m ρ c b
/-- At region 5's exit each of its arrays holds what the pipeline leaves, and every other buffer what it held at entry. -/
theorem hF5 (c : Dev nD) (w : Fin cfg5.W) : (dat5 (V13 m ρ) c).arrAt w cfg5.N = V14 m ρ c (Pipeline.arrRef spec5 w) :=
  (W14_arr m ρ c w).symm
theorem hrest5 (c : Dev nD) : ∀ b, b ∉ Finset.univ.image (Pipeline.arrRef spec5) → V14 m ρ c b = V13 m ρ c b :=
  fun b hb => W14_of_ne m ρ c b fun w e => hb (Finset.mem_image.mpr ⟨w, Finset.mem_univ _, e⟩)
/-- After `hostOps6`. -/
abbrev W15 : Dev nD → Valuation τ sig (Elt F) := fun c => StableHlo.after hostOps6 (W14 m ρ c)
/-- The same read at the TensorCore's references. -/
abbrev V15 : (c : Dev nD) → (b : Ref sig .tc) → Buf (Elt F) ((c : Thread nD τ).loc b) := fun c b => W15 m ρ c b

/-! ## The proof data family -/

/-- The prefetched tables' admissible contents: no pipeline has a table. -/
abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V11 m ρ) c
  | ⟨5, _⟩ => fun c => dat5 (V13 m ρ) c

end Cert.Kernel.Frame

end
-- ==== Proof.K.Host.lean ====
/- The stretches of host operations between the dense-layer regions, as segments of the run: none of their
   operations allocates a buffer, so a stretch entered with every unscoped buffer held at contents `W` leaves them held
   at `StableHlo.after` of `W`; beside the buffers a core carries its generator register at some state and the fact that
   it owes no other core anything. -/
import proofs.«115122_j13357348290767_2_alg».proof.Proof.Gen.Kernel.Launch
import proofs.«115122_j13357348290767_2_alg».proof.Proof.Gen.Kernel.Skeleton
import proofs.«115122_j13357348290767_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor
/-- No operation of `hostOps3` allocates a buffer. -/
theorem hostOps3_fresh : (hostOps3 : List (HloOp τ sig (Elt F))).Forall fun op => op.fresh = ∅ := by
  simp only [List.Forall]; repeat' constructor
/-- No operation of `hostOps4` allocates a buffer. -/
theorem hostOps4_fresh : (hostOps4 : List (HloOp τ sig (Elt F))).Forall fun op => op.fresh = ∅ := by
  simp only [List.Forall]; repeat' constructor
/-- No operation of `hostOps4_1` allocates a buffer. -/
theorem hostOps4_1_fresh : (hostOps4_1 : List (HloOp τ sig (Elt F))).Forall fun op => op.fresh = ∅ := by
  simp only [List.Forall]; repeat' constructor
/-- No operation of `hostOps4_2` allocates a buffer. -/
theorem hostOps4_2_fresh : (hostOps4_2 : List (HloOp τ sig (Elt F))).Forall fun op => op.fresh = ∅ := by
  simp only [List.Forall]; repeat' constructor
/-- No operation of `hostOps5` allocates a buffer. -/
theorem hostOps5_fresh : (hostOps5 : List (HloOp τ sig (Elt F))).Forall fun op => op.fresh = ∅ := by
  simp only [List.Forall]; repeat' constructor
/-- No operation of `hostOps6` allocates a buffer. -/
theorem hostOps6_fresh : (hostOps6 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Frame

end
-- ==== Proof.K.RegSeg0.lean ====
/- Dense-layer region 0 as a segment of the run. It is entered with every unscoped buffer held at the
   contents `W1` and left with them held at `W2`: at entry the four window arrays are split out of the unscoped
   buffers, at exit they are put back at what the pipeline's write-backs made of them; the generator register passes
   through the pipeline's invariant unchanged, nothing is owed, and the kernel has no semaphore of its own. -/
import proofs.«115122_j13357348290767_2_alg».proof.Proof.K.W
import proofs.«115122_j13357348290767_2_alg».proof.Proof.K.Host
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 0 over the thread state: from every unscoped buffer at `W1` to every unscoped buffer at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frame

end
-- ==== Proof.K.RegSeg1.lean ====
/- Dense-layer region 1 as a segment of the run. It is entered with every unscoped buffer held at the
   contents `W3` and left with them held at `W4`: at entry the four window arrays are split out of the unscoped
   buffers, at exit they are put back at what the pipeline's write-backs made of them; the generator register passes
   through the pipeline's invariant unchanged, nothing is owed, and the kernel has no semaphore of its own. -/
import proofs.«115122_j13357348290767_2_alg».proof.Proof.K.W
import proofs.«115122_j13357348290767_2_alg».proof.Proof.K.Host
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 1 over the thread state: from every unscoped buffer at `W3` to every unscoped buffer at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frame

end
-- ==== Proof.K.RegSeg2.lean ====
/- Dense-layer region 2 as a segment of the run. It is entered with every unscoped buffer held at the
   contents `W5` and left with them held at `W6`: at entry the four window arrays are split out of the unscoped
   buffers, at exit they are put back at what the pipeline's write-backs made of them; the generator register passes
   through the pipeline's invariant unchanged, nothing is owed, and the kernel has no semaphore of its own. -/
import proofs.«115122_j13357348290767_2_alg».proof.Proof.K.W
import proofs.«115122_j13357348290767_2_alg».proof.Proof.K.Host
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 2 over the thread state: from every unscoped buffer at `W5` to every unscoped buffer at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frame

end
-- ==== Proof.K.RegSeg3.lean ====
/- Dense-layer region 3 as a segment of the run. It is entered with every unscoped buffer held at the
   contents `W7` and left with them held at `W8`: at entry the four window arrays are split out of the unscoped
   buffers, at exit they are put back at what the pipeline's write-backs made of them; the generator register passes
   through the pipeline's invariant unchanged, nothing is owed, and the kernel has no semaphore of its own. -/
import proofs.«115122_j13357348290767_2_alg».proof.Proof.K.W
import proofs.«115122_j13357348290767_2_alg».proof.Proof.K.Host
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 3 over the thread state: from every unscoped buffer at `W7` to every unscoped buffer at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frame

end
-- ==== Proof.K.RegSeg4.lean ====
/- Dense-layer region 4 as a segment of the run. It is entered with every unscoped buffer held at the
   contents `W11` and left with them held at `W12`: at entry the four window arrays are split out of the unscoped
   buffers, at exit they are put back at what the pipeline's write-backs made of them; the generator register passes
   through the pipeline's invariant unchanged, nothing is owed, and the kernel has no semaphore of its own. -/
import proofs.«115122_j13357348290767_2_alg».proof.Proof.K.W
import proofs.«115122_j13357348290767_2_alg».proof.Proof.K.Host
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3000000 in
set_option backward.isDefEq.respectTransparency.types false in
/-- Region 4 over the thread state: from every unscoped buffer at `W11` to every unscoped buffer at `W12`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V11 m ρ) c).loose
  hwaits := Pipeline.hwaits_of_owed_zero _ _ _ _ L lv 4 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec4 c (V11 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V11 m ρ c) (V12 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frame

end
-- ==== Proof.K.RegSeg5.lean ====
/- Dense-layer region 5 as a segment of the run. It is entered with every unscoped buffer held at the
   contents `W13` and left with them held at `W14`: at entry the four window arrays are split out of the unscoped
   buffers, at exit they are put back at what the pipeline's write-backs made of them; the generator register passes
   through the pipeline's invariant unchanged, nothing is owed, and the kernel has no semaphore of its own. -/
import proofs.«115122_j13357348290767_2_alg».proof.Proof.K.W
import proofs.«115122_j13357348290767_2_alg».proof.Proof.K.Host
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 5 over the thread state: from every unscoped buffer at `W13` to every unscoped buffer at `W14`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V13 m ρ) c).loose
  hwaits := Pipeline.hwaits_of_owed_zero _ _ _ _ L lv 5 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec5 c (V13 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V13 m ρ c) (V14 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frame

end
-- ==== Proof.K.Run.lean ====
/- The run of the main function: its fifteen segments in order — nine stretches of host operations and the
   six dense-layer regions — each entered from the thread state the one before it left. From any launch memory with
   every semaphore counter at zero, every weakly fair execution on the TensorCores terminates without a fault, and in
   every final state each unscoped buffer holds the contents `W15` that the fold of the segments computes. -/
import proofs.«115122_j13357348290767_2_alg».proof.Proof.K.W
import proofs.«115122_j13357348290767_2_alg».proof.Proof.K.Host
import proofs.«115122_j13357348290767_2_alg».proof.Proof.K.RegSeg0
import proofs.«115122_j13357348290767_2_alg».proof.Proof.K.RegSeg1
import proofs.«115122_j13357348290767_2_alg».proof.Proof.K.RegSeg2
import proofs.«115122_j13357348290767_2_alg».proof.Proof.K.RegSeg3
import proofs.«115122_j13357348290767_2_alg».proof.Proof.K.RegSeg4
import proofs.«115122_j13357348290767_2_alg».proof.Proof.K.RegSeg5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last thread state without the `owes`: every unscoped buffer at the last boundary's contents, the generator
    register at some state. -/
abbrev Tₙ (c : Dev nD) : sProp 𝕄 := iprop(StableHlo.held (c : Thread nD τ) (Pipeline.ucRefs τ sig) (W15 m ρ c) ∗ ∃ r, prngReg c r)

/-- The main function's 15 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .host (hseg hostOps4_1 hostOps4_1_sub hostOps4_1_fresh (W9 m ρ)),
    .host (hseg hostOps4_2 hostOps4_2_sub hostOps4_2_fresh (W10 m ρ)),
    .region (reg4 m ρ),
    .host (hseg hostOps5 hostOps5_sub hostOps5_fresh (W12 m ρ)),
    .region (reg5 m ρ),
    .host (hseg hostOps6 hostOps6_sub hostOps6_fresh (W14 m ρ)) ]

/-- The main function is the run of the segments. -/
theorem main_run (c : Dev nD) : main (F := F) c = Pipeline.Seg.run (segs m ρ) := (main_chain c).trans (by chain_rfl)

set_option backward.isDefEq.respectTransparency.types false in
/-- Every weakly fair execution of the main function from the launch memory `m` terminates, and every final state has
    each unscoped TensorCore buffer at the contents `W15`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W15 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h => h)

end Cert.Kernel.Frame

end
-- ==== Proof.K.Chunks.lean ====
/- The 254 host operations between the fourth and the fifth pallas_call, cut into six consecutive chunks:
   kc0 finishes the symmetric normalisation of the edge weights (operations 0–19, ending at the per-edge
   coefficient), kc1 is the first Chebyshev layer (20–90), kc2, kc3, kc4 the three later layers with their
   concatenations (91–143, 144–196, 197–249), kc5 the casts and transposes that prepare the next dense layer
   (250–253). The stretch is the concatenation of the chunks; each chunk writes exactly the references of its list,
   so a reference outside the list holds after the chunk what it held before. -/
import proofs.«115122_j13357348290767_2_alg».proof.Proof.Gen.Kernel.Launch
import Idealize.ShloMosaic.Lib.StableHlo.Run

noncomputable section

namespace Cert.Kernel.Frame

open Cert.Kernel Cert.Kernel.Gen Idealize.ShloMosaic Idealize.ShloMosaic.TcCoe Idealize.SL.Sem

variable {F : FTy → Type} [FloatOps F]

/-- The contents after two lines of operations run one after the other: the second line's from the first's. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- Operations 0 to 19 of the stretch (20 operations). -/
abbrev kc0 : List (HloOp τ sig (Elt F)) :=
  [ StableHlo.nullary main_c_22 (constantI S_ 32 0#32),
    StableHlo.unary main_c_22 main_v110 (broadcastInDim S200000 ![] bcast_S_S200000 : (⟨S_, .i32⟩ : BufTy).Contents (Elt F) → (⟨S200000, .i32⟩ : BufTy).Contents (Elt F)),
    StableHlo.binary main_v1 main_v110 main_v111 (cmpi .slt : (⟨S200000, .i32⟩ : BufTy).Contents (Elt F) → (⟨S200000, .i32⟩ : BufTy).Contents (Elt F) → (⟨S200000, .i1⟩ : BufTy).Contents (Elt F)),
    StableHlo.nullary main_c_23 (constantI S_ 32 20000#32),
    StableHlo.unary main_c_23 main_v112 (broadcastInDim S200000 ![] bcast_S_S200000 : (⟨S_, .i32⟩ : BufTy).Contents (Elt F) → (⟨S200000, .i32⟩ : BufTy).Contents (Elt F)),
    StableHlo.binary main_v1 main_v112 main_v113 (addi : (⟨S200000, .i32⟩ : BufTy).Contents (Elt F) → (⟨S200000, .i32⟩ : BufTy).Contents (Elt F) → (⟨S200000, .i32⟩ : BufTy).Contents (Elt F)),
    StableHlo.ternary main_v111 main_v113 main_v1 main_v114 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v114 main_v115 (broadcastInDim S200000x1 ![0] bcast_S200000_S200000x1_0 : (⟨S200000, .i32⟩ : BufTy).Contents (Elt F) → (⟨S200000x1, .i32⟩ : BufTy).Contents (Elt F)),
    StableHlo.binary main_v109 main_v115 main_v116 ((fun x i => Host.gather gather_S20000_S200000x1_S200000_n_0_n_n_0_1_1 x i) : (⟨S20000, .f32⟩ : BufTy).Contents (Elt F) → (⟨S200000x1, .i32⟩ : BufTy).Contents (Elt F) → (⟨S200000, .f32⟩ : BufTy).Contents (Elt F)),
    StableHlo.binary main_v116 main_v96 main_v117 (mulf : (⟨S200000, .f32⟩ : BufTy).Contents (Elt F) → (⟨S200000, .f32⟩ : BufTy).Contents (Elt F) → (⟨S200000, .f32⟩ : BufTy).Contents (Elt F)),
    StableHlo.nullary main_c_24 (constantI S_ 32 0#32),
    StableHlo.unary main_c_24 main_v118 (broadcastInDim S200000 ![] bcast_S_S200000 : (⟨S_, .i32⟩ : BufTy).Contents (Elt F) → (⟨S200000, .i32⟩ : BufTy).Contents (Elt F)),
    StableHlo.binary main_v3 main_v118 main_v119 (cmpi .slt : (⟨S200000, .i32⟩ : BufTy).Contents (Elt F) → (⟨S200000, .i32⟩ : BufTy).Contents (Elt F) → (⟨S200000, .i1⟩ : BufTy).Contents (Elt F)),
    StableHlo.nullary main_c_25 (constantI S_ 32 20000#32),
    StableHlo.unary main_c_25 main_v120 (broadcastInDim S200000 ![] bcast_S_S200000 : (⟨S_, .i32⟩ : BufTy).Contents (Elt F) → (⟨S200000, .i32⟩ : BufTy).Contents (Elt F)),
    StableHlo.binary main_v3 main_v120 main_v121 (addi : (⟨S200000, .i32⟩ : BufTy).Contents (Elt F) → (⟨S200000, .i32⟩ : BufTy).Contents (Elt F) → (⟨S200000, .i32⟩ : BufTy).Contents (Elt F)),
    StableHlo.ternary main_v119 main_v121 main_v3 main_v122 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v122 main_v123 (broadcastInDim S200000x1 ![0] bcast_S200000_S200000x1_0 : (⟨S200000, .i32⟩ : BufTy).Contents (Elt F) → (⟨S200000x1, .i32⟩ : BufTy).Contents (Elt F)),
    StableHlo.binary main_v109 main_v123 main_v124 ((fun x i => Host.gather gather_S20000_S200000x1_S200000_n_0_n_n_0_1_1 x i) : (⟨S20000, .f32⟩ : BufTy).Contents (Elt F) → (⟨S200000x1, .i32⟩ : BufTy).Contents (Elt F) → (⟨S200000, .f32⟩ : BufTy).Contents (Elt F)),
    StableHlo.binary main_v117 main_v124 main_v125 (mulf : (⟨S200000, .f32⟩ : BufTy).Contents (Elt F) → (⟨S200000, .f32⟩ : BufTy).Contents (Elt F) → (⟨S200000, .f32⟩ : BufTy).Contents (Elt F)) ]
/-- The references chunk 0's operations write, in order. -/
abbrev Lk0 : List (Ref sig .tc) := [main_c_22, main_v110, main_v111, main_c_23, main_v112, main_v113, main_v114, main_v115, main_v116, main_v117, main_c_24, main_v118, main_v119, main_c_25, main_v120, main_v121, main_v122, main_v123, main_v124, main_v125]
set_option maxRecDepth 8192 in
theorem kc0_writes : (kc0 : List (HloOp τ sig (Elt F))).Forall fun op => op.writes ⊆ (Lk0.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference chunk 0 does not write keeps its contents through it. -/
theorem kc0_keeps {r : Ref sig .tc} (hr : r ∉ Lk0) (V : Valuation τ sig (Elt F)) :
    StableHlo.after (kc0 : List (HloOp τ sig (Elt F))) V (Proc.devRef .tc r) = V (Proc.devRef .tc r) :=
  StableHlo.after_of_writes_sub kc0 V kc0_writes hr

/-- Operations 20 to 90 of the stretch (71 operations). -/
abbrev kc1 : List (HloOp τ sig (Elt F)) :=
  [ StableHlo.unary main_arg9 main_v126 ((extractStridedSlice S1x512x16 ![0, 0, 0] · slices_S3x512x16_S1x512x16_0_0_0) : (⟨S3x512x16, .f32⟩ : BufTy).Contents (Elt F) → (⟨S1x512x16, .f32⟩ : BufTy).Contents (Elt F)),
    StableHlo.reshape main_v126 main_v127 rfl shapeCasts_S1x512x16_S512x16,
    StableHlo.unary main_arg9 main_v128 ((extractStridedSlice S1x512x16 ![1, 0, 0] · slices_S3x512x16_S1x512x16_1_0_0) : (⟨S3x512x16, .f32⟩ : BufTy).Contents (Elt F) → (⟨S1x512x16, .f32⟩ : BufTy).Contents (Elt F)),
    StableHlo.reshape main_v128 main_v129 rfl shapeCasts_S1x512x16_S512x16,
    StableHlo.unary main_arg9 main_v130 ((extractStridedSlice S1x512x16 ![2, 0, 0] · slices_S3x512x16_S1x512x16_2_0_0) : (⟨S3x512x16, .f32⟩ : BufTy).Contents (Elt F) → (⟨S1x512x16, .f32⟩ : BufTy).Contents (Elt F)),
    StableHlo.reshape main_v130 main_v131 rfl shapeCasts_S1x512x16_S512x16,
    StableHlo.nary ![main_v127, main_v129, main_v131] main_v132 (fun u => concatenate S512x48 1 [⟨S512x16, u 0⟩, ⟨S512x16, u 1⟩, ⟨S512x16, u 2⟩] concatenates_S512x16_S512x16_S512x16_S512x48_d1),
    StableHlo.binary main_v11 main_v132 main_v133 ((fun l r => Host.dotGeneral dot_S20000x512_S512x48_S20000x48_1_0_0_1_n_n none l r) : (⟨S20000x512, .f32⟩ : BufTy).Contents (Elt F) → (⟨S512x48, .f32⟩ : BufTy).Contents (Elt F) → (⟨S20000x48, .f32⟩ : BufTy).Contents (Elt F)),
    StableHlo.unary main_v133 main_v134 ((extractStridedSlice S20000x16 ![0, 0] · slices_S20000x48_S20000x16_0_0) : (⟨S20000x48, .f32⟩ : BufTy).Contents (Elt F) → (⟨S20000x16, .f32⟩ : BufTy).Contents (Elt F)),
    StableHlo.unary main_v133 main_v135 ((extractStridedSlice S20000x16 ![0, 16] · slices_S20000x48_S20000x16_0_16) : (⟨S20000x48, .f32⟩ : BufTy).Contents (Elt F) → (⟨S20000x16, .f32⟩ : BufTy).Contents (Elt F)),
    StableHlo.unary main_v133 main_v136 ((extractStridedSlice S20000x16 ![0, 32] · slices_S20000x48_S20000x16_0_32) : (⟨S20000x48, .f32⟩ : BufTy).Contents (Elt F) → (⟨S20000x16, .f32⟩ : BufTy).Contents (Elt F)),
    StableHlo.binary main_v134 main_v136 main_v137 (subf : (⟨S20000x16, .f32⟩ : BufTy).Contents (Elt F) → (⟨S20000x16, .f32⟩ : BufTy).Contents (Elt F) → (⟨S20000x16, .f32⟩ : BufTy).Contents (Elt F)),
    StableHlo.unary main_v125 main_v138 (broadcastInDim S200000x1 ![0] bcast_S200000_S200000x1_0 : (⟨S200000, .f32⟩ : BufTy).Contents (Elt F) → (⟨S200000x1, .f32⟩ : BufTy).Contents (Elt F)),
    StableHlo.nullary main_c_26 (constantI S_ 32 0#32),
    StableHlo.unary main_c_26 main_v139 (broadcastInDim S200000 ![] bcast_S_S200000 : (⟨S_, .i32⟩ : BufTy).Contents (Elt F) → (⟨S200000, .i32⟩ : BufTy).Contents (Elt F)),
    StableHlo.binary main_v1 main_v139 main_v140 (cmpi .slt : (⟨S200000, .i32⟩ : BufTy).Contents (Elt F) → (⟨S200000, .i32⟩ : BufTy).Contents (Elt F) → (⟨S200000, .i1⟩ : BufTy).Contents (Elt F)),
    StableHlo.nullary main_c_27 (constantI S_ 32 20000#32),
    StableHlo.unary main_c_27 main_v141 (broadcastInDim S200000 ![] bcast_S_S200000 : (⟨S_, .i32⟩ : BufTy).Contents (Elt F) → (⟨S200000, .i32⟩ : BufTy).Contents (Elt F)),
    StableHlo.binary main_v1 main_v141 main_v142 (addi : (⟨S200000, .i32⟩ : BufTy).Contents (Elt F) → (⟨S200000, .i32⟩ : BufTy).Contents (Elt F) → (⟨S200000, .i32⟩ : BufTy).Contents (Elt F)),
    StableHlo.ternary main_v140 main_v142 main_v1 main_v143 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v143 main_v144 (broadcastInDim S200000x1 ![0] bcast_S200000_S200000x1_0 : (⟨S200000, .i32⟩ : BufTy).Contents (Elt F) → (⟨S200000x1, .i32⟩ : BufTy).Contents (Elt F)),
    StableHlo.binary main_v135 main_v144 main_v145 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    StableHlo.unary main_v138 main_v146 (broadcastInDim S200000x16 ![0, 1] bcast_S200000x1_S200000x16_0_1 : (⟨S200000x1, .f32⟩ : BufTy).Contents (Elt F) → (⟨S200000x16, .f32⟩ : BufTy).Contents (Elt F)),
    StableHlo.binary main_v146 main_v145 main_v147 (mulf : (⟨S200000x16, .f32⟩ : BufTy).Contents (Elt F) → (⟨S200000x16, .f32⟩ : BufTy).Contents (Elt F) → (⟨S200000x16, .f32⟩ : BufTy).Contents (Elt F)),
    StableHlo.nullary main_cst_28 (constant S_ .f32 0x00000000#32),
    StableHlo.unary main_cst_28 main_v148 (broadcastInDim S20000x16 ![] bcast_S_S20000x16 : (⟨S_, .f32⟩ : BufTy).Contents (Elt F) → (⟨S20000x16, .f32⟩ : BufTy).Contents (Elt F)),
    StableHlo.unary main_v3 main_v149 (broadcastInDim S200000x1 ![0] bcast_S200000_S200000x1_0 : (⟨S200000, .i32⟩ : BufTy).Contents (Elt F) → (⟨S200000x1, .i32⟩ : BufTy).Contents (Elt F)),
    StableHlo.ternary main_v148 main_v149 main_v147 main_v150 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    StableHlo.unary main_v150 main_v151 (Host.negf : (⟨S20000x16, .f32⟩ : BufTy).Contents (Elt F) → (⟨S20000x16, .f32⟩ : BufTy).Contents (Elt F)),
    StableHlo.binary main_v137 main_v151 main_v152 (addf : (⟨S20000x16, .f32⟩ : BufTy).Contents (Elt F) → (⟨S20000x16, .f32⟩ : BufTy).Contents (Elt F) → (⟨S20000x16, .f32⟩ : BufTy).Contents (Elt F)),
    StableHlo.unary main_v125 main_v153 (broadcastInDim S200000x1 ![0] bcast_S200000_S200000x1_0 : (⟨S200000, .f32⟩ : BufTy).Contents (Elt F) → (⟨S200000x1, .f32⟩ : BufTy).Contents (Elt F)),
    StableHlo.nullary main_c_29 (constantI S_ 32 0#32),
    StableHlo.unary main_c_29 main_v154 (broadcastInDim S200000 ![] bcast_S_S200000 : (⟨S_, .i32⟩ : BufTy).Contents (Elt F) → (⟨S200000, .i32⟩ : BufTy).Contents (Elt F)),
    StableHlo.binary main_v1 main_v154 main_v155 (cmpi .slt : (⟨S200000, .i32⟩ : BufTy).Contents (Elt F) → (⟨S200000, .i32⟩ : BufTy).Contents (Elt F) → (⟨S200000, .i1⟩ : BufTy).Contents (Elt F)),
    StableHlo.nullary main_c_30 (constantI S_ 32 20000#32),
    StableHlo.unary main_c_30 main_v156 (broadcastInDim S200000 ![] bcast_S_S200000 : (⟨S_, .i32⟩ : BufTy).Contents (Elt F) → (⟨S200000, .i32⟩ : BufTy).Contents (Elt F)),
    StableHlo.binary main_v1 main_v156 main_v157 (addi : (⟨S200000, .i32⟩ : BufTy).Contents (Elt F) → (⟨S200000, .i32⟩ : BufTy).Contents (Elt F) → (⟨S200000, .i32⟩ : BufTy).Contents (Elt F)),
    StableHlo.ternary main_v155 main_v157 main_v1 main_v158 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v158 main_v159 (broadcastInDim S200000x1 ![0] bcast_S200000_S200000x1_0 : (⟨S200000, .i32⟩ : BufTy).Contents (Elt F) → (⟨S200000x1, .i32⟩ : BufTy).Contents (Elt F)),
    StableHlo.binary main_v136 main_v159 main_v160 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    StableHlo.unary main_v153 main_v161 (broadcastInDim S200000x16 ![0, 1] bcast_S200000x1_S200000x16_0_1 : (⟨S200000x1, .f32⟩ : BufTy).Contents (Elt F) → (⟨S200000x16, .f32⟩ : BufTy).Contents (Elt F)),
    StableHlo.binary main_v161 main_v160 main_v162 (mulf : (⟨S200000x16, .f32⟩ : BufTy).Contents (Elt F) → (⟨S200000x16, .f32⟩ : BufTy).Contents (Elt F) → (⟨S200000x16, .f32⟩ : BufTy).Contents (Elt F)),
    StableHlo.nullary main_cst_31 (constant S_ .f32 0x00000000#32),
    StableHlo.unary main_cst_31 main_v163 (broadcastInDim S20000x16 ![] bcast_S_S20000x16 : (⟨S_, .f32⟩ : BufTy).Contents (Elt F) → (⟨S20000x16, .f32⟩ : BufTy).Contents (Elt F)),
    StableHlo.unary main_v3 main_v164 (broadcastInDim S200000x1 ![0] bcast_S200000_S200000x1_0 : (⟨S200000, .i32⟩ : BufTy).Contents (Elt F) → (⟨S200000x1, .i32⟩ : BufTy).Contents (Elt F)),
    StableHlo.ternary main_v163 main_v164 main_v162 main_v165 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    StableHlo.unary main_v165 main_v166 (Host.negf : (⟨S20000x16, .f32⟩ : BufTy).Contents (Elt F) → (⟨S20000x16, .f32⟩ : BufTy).Contents (Elt F)),
    StableHlo.unary main_v125 main_v167 (broadcastInDim S200000x1 ![0] bcast_S200000_S200000x1_0 : (⟨S200000, .f32⟩ : BufTy).Contents (Elt F) → (⟨S200000x1, .f32⟩ : BufTy).Contents (Elt F)),
    StableHlo.nullary main_c_32 (constantI S_ 32 0#32),
    StableHlo.unary main_c_32 main_v168 (broadcastInDim S200000 ![] bcast_S_S200000 : (⟨S_, .i32⟩ : BufTy).Contents (Elt F) → (⟨S200000, .i32⟩ : BufTy).Contents (Elt F)),
    StableHlo.binary main_v1 main_v168 main_v169 (cmpi .slt : (⟨S200000, .i32⟩ : BufTy).Contents (Elt F) → (⟨S200000, .i32⟩ : BufTy).Contents (Elt F) → (⟨S200000, .i1⟩ : BufTy).Contents (Elt F)),
    StableHlo.nullary main_c_33 (constantI S_ 32 20000#32),
    StableHlo.unary main_c_33 main_v170 (broadcastInDim S200000 ![] bcast_S_S200000 : (⟨S_, .i32⟩ : BufTy).Contents (Elt F) → (⟨S200000, .i32⟩ : BufTy).Contents (Elt F)),
    StableHlo.binary main_v1 main_v170 main_v171 (addi : (⟨S200000, .i32⟩ : BufTy).Contents (Elt F) → (⟨S200000, .i32⟩ : BufTy).Contents (Elt F) → (⟨S200000, .i32⟩ : BufTy).Contents (Elt F)),
    StableHlo.ternary main_v169 main_v171 main_v1 main_v172 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v172 main_v173 (broadcastInDim S200000x1 ![0] bcast_S200000_S200000x1_0 : (⟨S200000, .i32⟩ : BufTy).Contents (Elt F) → (⟨S200000x1, .i32⟩ : BufTy).Contents (Elt F)),
    StableHlo.binary main_v166 main_v173 main_v174 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    StableHlo.unary main_v167 main_v175 (broadcastInDim S200000x16 ![0, 1] bcast_S200000x1_S200000x16_0_1 : (⟨S200000x1, .f32⟩ : BufTy).Contents (Elt F) → (⟨S200000x16, .f32⟩ : BufTy).Contents (Elt F)),
    StableHlo.binary main_v175 main_v174 main_v176 (mulf : (⟨S200000x16, .f32⟩ : BufTy).Contents (Elt F) → (⟨S200000x16, .f32⟩ : BufTy).Contents (Elt F) → (⟨S200000x16, .f32⟩ : BufTy).Contents (Elt F)),
    StableHlo.nullary main_cst_34 (constant S_ .f32 0x00000000#32),
    StableHlo.unary main_cst_34 main_v177 (broadcastInDim S20000x16 ![] bcast_S_S20000x16 : (⟨S_, .f32⟩ : BufTy).Contents (Elt F) → (⟨S20000x16, .f32⟩ : BufTy).Contents (Elt F)),
    StableHlo.unary main_v3 main_v178 (broadcastInDim S200000x1 ![0] bcast_S200000_S200000x1_0 : (⟨S200000, .i32⟩ : BufTy).Contents (Elt F) → (⟨S200000x1, .i32⟩ : BufTy).Contents (Elt F)),
    StableHlo.ternary main_v177 main_v178 main_v176 main_v179 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    StableHlo.unary main_v179 main_v180 (Host.negf : (⟨S20000x16, .f32⟩ : BufTy).Contents (Elt F) → (⟨S20000x16, .f32⟩ : BufTy).Contents (Elt F)),
    StableHlo.nullary main_cst_35 (constant S_ .f32 0x40000000#32),
    StableHlo.unary main_cst_35 main_v181 (broadcastInDim S20000x16 ![] bcast_S_S20000x16 : (⟨S_, .f32⟩ : BufTy).Contents (Elt F) → (⟨S20000x16, .f32⟩ : BufTy).Contents (Elt F)),
    StableHlo.binary main_v181 main_v180 main_v182 (mulf : (⟨S20000x16, .f32⟩ : BufTy).Contents (Elt F) → (⟨S20000x16, .f32⟩ : BufTy).Contents (Elt F) → (⟨S20000x16, .f32⟩ : BufTy).Contents (Elt F)),
    StableHlo.binary main_v152 main_v182 main_v183 (addf : (⟨S20000x16, .f32⟩ : BufTy).Contents (Elt F) → (⟨S20000x16, .f32⟩ : BufTy).Contents (Elt F) → (⟨S20000x16, .f32⟩ : BufTy).Contents (Elt F)),
    StableHlo.nullary main_cst_36 (constant S_ .f32 0x00000000#32),
    StableHlo.unary main_cst_36 main_v184 (broadcastInDim S20000x16 ![] bcast_S_S20000x16 : (⟨S_, .f32⟩ : BufTy).Contents (Elt F) → (⟨S20000x16, .f32⟩ : BufTy).Contents (Elt F)),
    StableHlo.binary main_v183 main_v184 main_v185 (maximumf : (⟨S20000x16, .f32⟩ : BufTy).Contents (Elt F) → (⟨S20000x16, .f32⟩ : BufTy).Contents (Elt F) → (⟨S20000x16, .f32⟩ : BufTy).Contents (Elt F)) ]
/-- The references chunk 1's operations write, in order. -/
abbrev Lk1 : List (Ref sig .tc) := [main_v126, main_v127, main_v128, main_v129, main_v130, main_v131, main_v132, main_v133, main_v134, main_v135, main_v136, main_v137, main_v138, main_c_26, main_v139, main_v140, main_c_27, main_v141, main_v142, main_v143, main_v144, main_v145, main_v146, main_v147, main_cst_28, main_v148, main_v149, main_v150, main_v151, main_v152, main_v153, main_c_29, main_v154, main_v155, main_c_30, main_v156, main_v157, main_v158, main_v159, main_v160, main_v161, main_v162, main_cst_31, main_v163, main_v164, main_v165, main_v166, main_v167, main_c_32, main_v168, main_v169, main_c_33, main_v170, main_v171, main_v172, main_v173, main_v174, main_v175, main_v176, main_cst_34, main_v177, main_v178, main_v179, main_v180, main_cst_35, main_v181, main_v182, main_v183, main_cst_36, main_v184, main_v185]
set_option maxRecDepth 8192 in
theorem kc1_writes : (kc1 : List (HloOp τ sig (Elt F))).Forall fun op => op.writes ⊆ (Lk1.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference chunk 1 does not write keeps its contents through it. -/
theorem kc1_keeps {r : Ref sig .tc} (hr : r ∉ Lk1) (V : Valuation τ sig (Elt F)) :
    StableHlo.after (kc1 : List (HloOp τ sig (Elt F))) V (Proc.devRef .tc r) = V (Proc.devRef .tc r) :=
  StableHlo.after_of_writes_sub kc1 V kc1_writes hr

/-- Operations 91 to 143 of the stretch (53 operations). -/
abbrev kc2 : List (HloOp τ sig (Elt F)) :=
  [ StableHlo.unary main_v125 main_v186 (broadcastInDim S200000x1 ![0] bcast_S200000_S200000x1_0 : (⟨S200000, .f32⟩ : BufTy).Contents (Elt F) → (⟨S200000x1, .f32⟩ : BufTy).Contents (Elt F)),
    StableHlo.nullary main_c_37 (constantI S_ 32 0#32),
    StableHlo.unary main_c_37 main_v187 (broadcastInDim S200000 ![] bcast_S_S200000 : (⟨S_, .i32⟩ : BufTy).Contents (Elt F) → (⟨S200000, .i32⟩ : BufTy).Contents (Elt F)),
    StableHlo.binary main_v1 main_v187 main_v188 (cmpi .slt : (⟨S200000, .i32⟩ : BufTy).Contents (Elt F) → (⟨S200000, .i32⟩ : BufTy).Contents (Elt F) → (⟨S200000, .i1⟩ : BufTy).Contents (Elt F)),
    StableHlo.nullary main_c_38 (constantI S_ 32 20000#32),
    StableHlo.unary main_c_38 main_v189 (broadcastInDim S200000 ![] bcast_S_S200000 : (⟨S_, .i32⟩ : BufTy).Contents (Elt F) → (⟨S200000, .i32⟩ : BufTy).Contents (Elt F)),
    StableHlo.binary main_v1 main_v189 main_v190 (addi : (⟨S200000, .i32⟩ : BufTy).Contents (Elt F) → (⟨S200000, .i32⟩ : BufTy).Contents (Elt F) → (⟨S200000, .i32⟩ : BufTy).Contents (Elt F)),
    StableHlo.ternary main_v188 main_v190 main_v1 main_v191 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v191 main_v192 (broadcastInDim S200000x1 ![0] bcast_S200000_S200000x1_0 : (⟨S200000, .i32⟩ : BufTy).Contents (Elt F) → (⟨S200000x1, .i32⟩ : BufTy).Contents (Elt F)),
    StableHlo.binary main_v185 main_v192 main_v193 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    StableHlo.unary main_v186 main_v194 (broadcastInDim S200000x16 ![0, 1] bcast_S200000x1_S200000x16_0_1 : (⟨S200000x1, .f32⟩ : BufTy).Contents (Elt F) → (⟨S200000x16, .f32⟩ : BufTy).Contents (Elt F)),
    StableHlo.binary main_v194 main_v193 main_v195 (mulf : (⟨S200000x16, .f32⟩ : BufTy).Contents (Elt F) → (⟨S200000x16, .f32⟩ : BufTy).Contents (Elt F) → (⟨S200000x16, .f32⟩ : BufTy).Contents (Elt F)),
    StableHlo.nullary main_cst_39 (constant S_ .f32 0x00000000#32),
    StableHlo.unary main_cst_39 main_v196 (broadcastInDim S20000x16 ![] bcast_S_S20000x16 : (⟨S_, .f32⟩ : BufTy).Contents (Elt F) → (⟨S20000x16, .f32⟩ : BufTy).Contents (Elt F)),
    StableHlo.unary main_v3 main_v197 (broadcastInDim S200000x1 ![0] bcast_S200000_S200000x1_0 : (⟨S200000, .i32⟩ : BufTy).Contents (Elt F) → (⟨S200000x1, .i32⟩ : BufTy).Contents (Elt F)),
    StableHlo.ternary main_v196 main_v197 main_v195 main_v198 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    StableHlo.unary main_v198 main_v199 (Host.negf : (⟨S20000x16, .f32⟩ : BufTy).Contents (Elt F) → (⟨S20000x16, .f32⟩ : BufTy).Contents (Elt F)),
    StableHlo.unary main_arg10 main_v200 ((extractStridedSlice S1x16x16 ![0, 0, 0] · slices_S3x16x16_S1x16x16_0_0_0) : (⟨S3x16x16, .f32⟩ : BufTy).Contents (Elt F) → (⟨S1x16x16, .f32⟩ : BufTy).Contents (Elt F)),
    StableHlo.reshape main_v200 main_v201 rfl shapeCasts_S1x16x16_S16x16,
    StableHlo.binary main_v185 main_v201 main_v202 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    StableHlo.unary main_arg10 main_v203 ((extractStridedSlice S1x16x16 ![1, 0, 0] · slices_S3x16x16_S1x16x16_1_0_0) : (⟨S3x16x16, .f32⟩ : BufTy).Contents (Elt F) → (⟨S1x16x16, .f32⟩ : BufTy).Contents (Elt F)),
    StableHlo.reshape main_v203 main_v204 rfl shapeCasts_S1x16x16_S16x16,
    StableHlo.binary main_v199 main_v204 main_v205 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    StableHlo.binary main_v202 main_v205 main_v206 (addf : (⟨S20000x16, .f32⟩ : BufTy).Contents (Elt F) → (⟨S20000x16, .f32⟩ : BufTy).Contents (Elt F) → (⟨S20000x16, .f32⟩ : BufTy).Contents (Elt F)),
    StableHlo.unary main_v125 main_v207 (broadcastInDim S200000x1 ![0] bcast_S200000_S200000x1_0 : (⟨S200000, .f32⟩ : BufTy).Contents (Elt F) → (⟨S200000x1, .f32⟩ : BufTy).Contents (Elt F)),
    StableHlo.nullary main_c_40 (constantI S_ 32 0#32),
    StableHlo.unary main_c_40 main_v208 (broadcastInDim S200000 ![] bcast_S_S200000 : (⟨S_, .i32⟩ : BufTy).Contents (Elt F) → (⟨S200000, .i32⟩ : BufTy).Contents (Elt F)),
    StableHlo.binary main_v1 main_v208 main_v209 (cmpi .slt : (⟨S200000, .i32⟩ : BufTy).Contents (Elt F) → (⟨S200000, .i32⟩ : BufTy).Contents (Elt F) → (⟨S200000, .i1⟩ : BufTy).Contents (Elt F)),
    StableHlo.nullary main_c_41 (constantI S_ 32 20000#32),
    StableHlo.unary main_c_41 main_v210 (broadcastInDim S200000 ![] bcast_S_S200000 : (⟨S_, .i32⟩ : BufTy).Contents (Elt F) → (⟨S200000, .i32⟩ : BufTy).Contents (Elt F)),
    StableHlo.binary main_v1 main_v210 main_v211 (addi : (⟨S200000, .i32⟩ : BufTy).Contents (Elt F) → (⟨S200000, .i32⟩ : BufTy).Contents (Elt F) → (⟨S200000, .i32⟩ : BufTy).Contents (Elt F)),
    StableHlo.ternary main_v209 main_v211 main_v1 main_v212 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v212 main_v213 (broadcastInDim S200000x1 ![0] bcast_S200000_S200000x1_0 : (⟨S200000, .i32⟩ : BufTy).Contents (Elt F) → (⟨S200000x1, .i32⟩ : BufTy).Contents (Elt F)),
    StableHlo.binary main_v199 main_v213 main_v214 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    StableHlo.unary main_v207 main_v215 (broadcastInDim S200000x16 ![0, 1] bcast_S200000x1_S200000x16_0_1 : (⟨S200000x1, .f32⟩ : BufTy).Contents (Elt F) → (⟨S200000x16, .f32⟩ : BufTy).Contents (Elt F)),
    StableHlo.binary main_v215 main_v214 main_v216 (mulf : (⟨S200000x16, .f32⟩ : BufTy).Contents (Elt F) → (⟨S200000x16, .f32⟩ : BufTy).Contents (Elt F) → (⟨S200000x16, .f32⟩ : BufTy).Contents (Elt F)),
    StableHlo.nullary main_cst_42 (constant S_ .f32 0x00000000#32),
    StableHlo.unary main_cst_42 main_v217 (broadcastInDim S20000x16 ![] bcast_S_S20000x16 : (⟨S_, .f32⟩ : BufTy).Contents (Elt F) → (⟨S20000x16, .f32⟩ : BufTy).Contents (Elt F)),
    StableHlo.unary main_v3 main_v218 (broadcastInDim S200000x1 ![0] bcast_S200000_S200000x1_0 : (⟨S200000, .i32⟩ : BufTy).Contents (Elt F) → (⟨S200000x1, .i32⟩ : BufTy).Contents (Elt F)),
    StableHlo.ternary main_v217 main_v218 main_v216 main_v219 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    StableHlo.unary main_v219 main_v220 (Host.negf : (⟨S20000x16, .f32⟩ : BufTy).Contents (Elt F) → (⟨S20000x16, .f32⟩ : BufTy).Contents (Elt F)),
    StableHlo.nullary main_cst_43 (constant S_ .f32 0x40000000#32),
    StableHlo.unary main_cst_43 main_v221 (broadcastInDim S20000x16 ![] bcast_S_S20000x16 : (⟨S_, .f32⟩ : BufTy).Contents (Elt F) → (⟨S20000x16, .f32⟩ : BufTy).Contents (Elt F)),
    StableHlo.binary main_v221 main_v220 main_v222 (mulf : (⟨S20000x16, .f32⟩ : BufTy).Contents (Elt F) → (⟨S20000x16, .f32⟩ : BufTy).Contents (Elt F) → (⟨S20000x16, .f32⟩ : BufTy).Contents (Elt F)),
    StableHlo.binary main_v222 main_v185 main_v223 (subf : (⟨S20000x16, .f32⟩ : BufTy).Contents (Elt F) → (⟨S20000x16, .f32⟩ : BufTy).Contents (Elt F) → (⟨S20000x16, .f32⟩ : BufTy).Contents (Elt F)),
    StableHlo.unary main_arg10 main_v224 ((extractStridedSlice S1x16x16 ![2, 0, 0] · slices_S3x16x16_S1x16x16_2_0_0) : (⟨S3x16x16, .f32⟩ : BufTy).Contents (Elt F) → (⟨S1x16x16, .f32⟩ : BufTy).Contents (Elt F)),
    StableHlo.reshape main_v224 main_v225 rfl shapeCasts_S1x16x16_S16x16,
    StableHlo.binary main_v223 main_v225 main_v226 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    StableHlo.binary main_v206 main_v226 main_v227 (addf : (⟨S20000x16, .f32⟩ : BufTy).Contents (Elt F) → (⟨S20000x16, .f32⟩ : BufTy).Contents (Elt F) → (⟨S20000x16, .f32⟩ : BufTy).Contents (Elt F)),
    StableHlo.nullary main_cst_44 (constant S_ .f32 0x00000000#32),
    StableHlo.unary main_cst_44 main_v228 (broadcastInDim S20000x16 ![] bcast_S_S20000x16 : (⟨S_, .f32⟩ : BufTy).Contents (Elt F) → (⟨S20000x16, .f32⟩ : BufTy).Contents (Elt F)),
    StableHlo.binary main_v227 main_v228 main_v229 (maximumf : (⟨S20000x16, .f32⟩ : BufTy).Contents (Elt F) → (⟨S20000x16, .f32⟩ : BufTy).Contents (Elt F) → (⟨S20000x16, .f32⟩ : BufTy).Contents (Elt F)),
    StableHlo.binary main_v185 main_v229 main_v230 ((fun a b => concatenate S20000x32 1 [⟨S20000x16, a⟩, ⟨S20000x16, b⟩] concatenates_S20000x16_S20000x16_S20000x32_d1) : (⟨S20000x16, .f32⟩ : BufTy).Contents (Elt F) → (⟨S20000x16, .f32⟩ : BufTy).Contents (Elt F) → (⟨S20000x32, .f32⟩ : BufTy).Contents (Elt F)) ]
/-- The references chunk 2's operations write, in order. -/
abbrev Lk2 : List (Ref sig .tc) := [main_v186, main_c_37, main_v187, main_v188, main_c_38, main_v189, main_v190, main_v191, main_v192, main_v193, main_v194, main_v195, main_cst_39, main_v196, main_v197, main_v198, main_v199, main_v200, main_v201, main_v202, main_v203, main_v204, main_v205, main_v206, main_v207, main_c_40, main_v208, main_v209, main_c_41, main_v210, main_v211, main_v212, main_v213, main_v214, main_v215, main_v216, main_cst_42, main_v217, main_v218, main_v219, main_v220, main_cst_43, main_v221, main_v222, main_v223, main_v224, main_v225, main_v226, main_v227, main_cst_44, main_v228, main_v229, main_v230]
set_option maxRecDepth 8192 in
theorem kc2_writes : (kc2 : List (HloOp τ sig (Elt F))).Forall fun op => op.writes ⊆ (Lk2.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference chunk 2 does not write keeps its contents through it. -/
theorem kc2_keeps {r : Ref sig .tc} (hr : r ∉ Lk2) (V : Valuation τ sig (Elt F)) :
    StableHlo.after (kc2 : List (HloOp τ sig (Elt F))) V (Proc.devRef .tc r) = V (Proc.devRef .tc r) :=
  StableHlo.after_of_writes_sub kc2 V kc2_writes hr

/-- Operations 144 to 196 of the stretch (53 operations). -/
abbrev kc3 : List (HloOp τ sig (Elt F)) :=
  [ StableHlo.unary main_v125 main_v231 (broadcastInDim S200000x1 ![0] bcast_S200000_S200000x1_0 : (⟨S200000, .f32⟩ : BufTy).Contents (Elt F) → (⟨S200000x1, .f32⟩ : BufTy).Contents (Elt F)),
    StableHlo.nullary main_c_45 (constantI S_ 32 0#32),
    StableHlo.unary main_c_45 main_v232 (broadcastInDim S200000 ![] bcast_S_S200000 : (⟨S_, .i32⟩ : BufTy).Contents (Elt F) → (⟨S200000, .i32⟩ : BufTy).Contents (Elt F)),
    StableHlo.binary main_v1 main_v232 main_v233 (cmpi .slt : (⟨S200000, .i32⟩ : BufTy).Contents (Elt F) → (⟨S200000, .i32⟩ : BufTy).Contents (Elt F) → (⟨S200000, .i1⟩ : BufTy).Contents (Elt F)),
    StableHlo.nullary main_c_46 (constantI S_ 32 20000#32),
    StableHlo.unary main_c_46 main_v234 (broadcastInDim S200000 ![] bcast_S_S200000 : (⟨S_, .i32⟩ : BufTy).Contents (Elt F) → (⟨S200000, .i32⟩ : BufTy).Contents (Elt F)),
    StableHlo.binary main_v1 main_v234 main_v235 (addi : (⟨S200000, .i32⟩ : BufTy).Contents (Elt F) → (⟨S200000, .i32⟩ : BufTy).Contents (Elt F) → (⟨S200000, .i32⟩ : BufTy).Contents (Elt F)),
    StableHlo.ternary main_v233 main_v235 main_v1 main_v236 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v236 main_v237 (broadcastInDim S200000x1 ![0] bcast_S200000_S200000x1_0 : (⟨S200000, .i32⟩ : BufTy).Contents (Elt F) → (⟨S200000x1, .i32⟩ : BufTy).Contents (Elt F)),
    StableHlo.binary main_v229 main_v237 main_v238 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    StableHlo.unary main_v231 main_v239 (broadcastInDim S200000x16 ![0, 1] bcast_S200000x1_S200000x16_0_1 : (⟨S200000x1, .f32⟩ : BufTy).Contents (Elt F) → (⟨S200000x16, .f32⟩ : BufTy).Contents (Elt F)),
    StableHlo.binary main_v239 main_v238 main_v240 (mulf : (⟨S200000x16, .f32⟩ : BufTy).Contents (Elt F) → (⟨S200000x16, .f32⟩ : BufTy).Contents (Elt F) → (⟨S200000x16, .f32⟩ : BufTy).Contents (Elt F)),
    StableHlo.nullary main_cst_47 (constant S_ .f32 0x00000000#32),
    StableHlo.unary main_cst_47 main_v241 (broadcastInDim S20000x16 ![] bcast_S_S20000x16 : (⟨S_, .f32⟩ : BufTy).Contents (Elt F) → (⟨S20000x16, .f32⟩ : BufTy).Contents (Elt F)),
    StableHlo.unary main_v3 main_v242 (broadcastInDim S200000x1 ![0] bcast_S200000_S200000x1_0 : (⟨S200000, .i32⟩ : BufTy).Contents (Elt F) → (⟨S200000x1, .i32⟩ : BufTy).Contents (Elt F)),
    StableHlo.ternary main_v241 main_v242 main_v240 main_v243 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    StableHlo.unary main_v243 main_v244 (Host.negf : (⟨S20000x16, .f32⟩ : BufTy).Contents (Elt F) → (⟨S20000x16, .f32⟩ : BufTy).Contents (Elt F)),
    StableHlo.unary main_arg11 main_v245 ((extractStridedSlice S1x16x16 ![0, 0, 0] · slices_S3x16x16_S1x16x16_0_0_0) : (⟨S3x16x16, .f32⟩ : BufTy).Contents (Elt F) → (⟨S1x16x16, .f32⟩ : BufTy).Contents (Elt F)),
    StableHlo.reshape main_v245 main_v246 rfl shapeCasts_S1x16x16_S16x16,
    StableHlo.binary main_v229 main_v246 main_v247 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    StableHlo.unary main_arg11 main_v248 ((extractStridedSlice S1x16x16 ![1, 0, 0] · slices_S3x16x16_S1x16x16_1_0_0) : (⟨S3x16x16, .f32⟩ : BufTy).Contents (Elt F) → (⟨S1x16x16, .f32⟩ : BufTy).Contents (Elt F)),
    StableHlo.reshape main_v248 main_v249 rfl shapeCasts_S1x16x16_S16x16,
    StableHlo.binary main_v244 main_v249 main_v250 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    StableHlo.binary main_v247 main_v250 main_v251 (addf : (⟨S20000x16, .f32⟩ : BufTy).Contents (Elt F) → (⟨S20000x16, .f32⟩ : BufTy).Contents (Elt F) → (⟨S20000x16, .f32⟩ : BufTy).Contents (Elt F)),
    StableHlo.unary main_v125 main_v252 (broadcastInDim S200000x1 ![0] bcast_S200000_S200000x1_0 : (⟨S200000, .f32⟩ : BufTy).Contents (Elt F) → (⟨S200000x1, .f32⟩ : BufTy).Contents (Elt F)),
    StableHlo.nullary main_c_48 (constantI S_ 32 0#32),
    StableHlo.unary main_c_48 main_v253 (broadcastInDim S200000 ![] bcast_S_S200000 : (⟨S_, .i32⟩ : BufTy).Contents (Elt F) → (⟨S200000, .i32⟩ : BufTy).Contents (Elt F)),
    StableHlo.binary main_v1 main_v253 main_v254 (cmpi .slt : (⟨S200000, .i32⟩ : BufTy).Contents (Elt F) → (⟨S200000, .i32⟩ : BufTy).Contents (Elt F) → (⟨S200000, .i1⟩ : BufTy).Contents (Elt F)),
    StableHlo.nullary main_c_49 (constantI S_ 32 20000#32),
    StableHlo.unary main_c_49 main_v255 (broadcastInDim S200000 ![] bcast_S_S200000 : (⟨S_, .i32⟩ : BufTy).Contents (Elt F) → (⟨S200000, .i32⟩ : BufTy).Contents (Elt F)),
    StableHlo.binary main_v1 main_v255 main_v256 (addi : (⟨S200000, .i32⟩ : BufTy).Contents (Elt F) → (⟨S200000, .i32⟩ : BufTy).Contents (Elt F) → (⟨S200000, .i32⟩ : BufTy).Contents (Elt F)),
    StableHlo.ternary main_v254 main_v256 main_v1 main_v257 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v257 main_v258 (broadcastInDim S200000x1 ![0] bcast_S200000_S200000x1_0 : (⟨S200000, .i32⟩ : BufTy).Contents (Elt F) → (⟨S200000x1, .i32⟩ : BufTy).Contents (Elt F)),
    StableHlo.binary main_v244 main_v258 main_v259 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    StableHlo.unary main_v252 main_v260 (broadcastInDim S200000x16 ![0, 1] bcast_S200000x1_S200000x16_0_1 : (⟨S200000x1, .f32⟩ : BufTy).Contents (Elt F) → (⟨S200000x16, .f32⟩ : BufTy).Contents (Elt F)),
    StableHlo.binary main_v260 main_v259 main_v261 (mulf : (⟨S200000x16, .f32⟩ : BufTy).Contents (Elt F) → (⟨S200000x16, .f32⟩ : BufTy).Contents (Elt F) → (⟨S200000x16, .f32⟩ : BufTy).Contents (Elt F)),
    StableHlo.nullary main_cst_50 (constant S_ .f32 0x00000000#32),
    StableHlo.unary main_cst_50 main_v262 (broadcastInDim S20000x16 ![] bcast_S_S20000x16 : (⟨S_, .f32⟩ : BufTy).Contents (Elt F) → (⟨S20000x16, .f32⟩ : BufTy).Contents (Elt F)),
    StableHlo.unary main_v3 main_v263 (broadcastInDim S200000x1 ![0] bcast_S200000_S200000x1_0 : (⟨S200000, .i32⟩ : BufTy).Contents (Elt F) → (⟨S200000x1, .i32⟩ : BufTy).Contents (Elt F)),
    StableHlo.ternary main_v262 main_v263 main_v261 main_v264 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    StableHlo.unary main_v264 main_v265 (Host.negf : (⟨S20000x16, .f32⟩ : BufTy).Contents (Elt F) → (⟨S20000x16, .f32⟩ : BufTy).Contents (Elt F)),
    StableHlo.nullary main_cst_51 (constant S_ .f32 0x40000000#32),
    StableHlo.unary main_cst_51 main_v266 (broadcastInDim S20000x16 ![] bcast_S_S20000x16 : (⟨S_, .f32⟩ : BufTy).Contents (Elt F) → (⟨S20000x16, .f32⟩ : BufTy).Contents (Elt F)),
    StableHlo.binary main_v266 main_v265 main_v267 (mulf : (⟨S20000x16, .f32⟩ : BufTy).Contents (Elt F) → (⟨S20000x16, .f32⟩ : BufTy).Contents (Elt F) → (⟨S20000x16, .f32⟩ : BufTy).Contents (Elt F)),
    StableHlo.binary main_v267 main_v229 main_v268 (subf : (⟨S20000x16, .f32⟩ : BufTy).Contents (Elt F) → (⟨S20000x16, .f32⟩ : BufTy).Contents (Elt F) → (⟨S20000x16, .f32⟩ : BufTy).Contents (Elt F)),
    StableHlo.unary main_arg11 main_v269 ((extractStridedSlice S1x16x16 ![2, 0, 0] · slices_S3x16x16_S1x16x16_2_0_0) : (⟨S3x16x16, .f32⟩ : BufTy).Contents (Elt F) → (⟨S1x16x16, .f32⟩ : BufTy).Contents (Elt F)),
    StableHlo.reshape main_v269 main_v270 rfl shapeCasts_S1x16x16_S16x16,
    StableHlo.binary main_v268 main_v270 main_v271 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    StableHlo.binary main_v251 main_v271 main_v272 (addf : (⟨S20000x16, .f32⟩ : BufTy).Contents (Elt F) → (⟨S20000x16, .f32⟩ : BufTy).Contents (Elt F) → (⟨S20000x16, .f32⟩ : BufTy).Contents (Elt F)),
    StableHlo.nullary main_cst_52 (constant S_ .f32 0x00000000#32),
    StableHlo.unary main_cst_52 main_v273 (broadcastInDim S20000x16 ![] bcast_S_S20000x16 : (⟨S_, .f32⟩ : BufTy).Contents (Elt F) → (⟨S20000x16, .f32⟩ : BufTy).Contents (Elt F)),
    StableHlo.binary main_v272 main_v273 main_v274 (maximumf : (⟨S20000x16, .f32⟩ : BufTy).Contents (Elt F) → (⟨S20000x16, .f32⟩ : BufTy).Contents (Elt F) → (⟨S20000x16, .f32⟩ : BufTy).Contents (Elt F)),
    StableHlo.binary main_v230 main_v274 main_v275 ((fun a b => concatenate S20000x48 1 [⟨S20000x32, a⟩, ⟨S20000x16, b⟩] concatenates_S20000x32_S20000x16_S20000x48_d1) : (⟨S20000x32, .f32⟩ : BufTy).Contents (Elt F) → (⟨S20000x16, .f32⟩ : BufTy).Contents (Elt F) → (⟨S20000x48, .f32⟩ : BufTy).Contents (Elt F)) ]
/-- The references chunk 3's operations write, in order. -/
abbrev Lk3 : List (Ref sig .tc) := [main_v231, main_c_45, main_v232, main_v233, main_c_46, main_v234, main_v235, main_v236, main_v237, main_v238, main_v239, main_v240, main_cst_47, main_v241, main_v242, main_v243, main_v244, main_v245, main_v246, main_v247, main_v248, main_v249, main_v250, main_v251, main_v252, main_c_48, main_v253, main_v254, main_c_49, main_v255, main_v256, main_v257, main_v258, main_v259, main_v260, main_v261, main_cst_50, main_v262, main_v263, main_v264, main_v265, main_cst_51, main_v266, main_v267, main_v268, main_v269, main_v270, main_v271, main_v272, main_cst_52, main_v273, main_v274, main_v275]
set_option maxRecDepth 8192 in
theorem kc3_writes : (kc3 : List (HloOp τ sig (Elt F))).Forall fun op => op.writes ⊆ (Lk3.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference chunk 3 does not write keeps its contents through it. -/
theorem kc3_keeps {r : Ref sig .tc} (hr : r ∉ Lk3) (V : Valuation τ sig (Elt F)) :
    StableHlo.after (kc3 : List (HloOp τ sig (Elt F))) V (Proc.devRef .tc r) = V (Proc.devRef .tc r) :=
  StableHlo.after_of_writes_sub kc3 V kc3_writes hr

/-- Operations 197 to 249 of the stretch (53 operations). -/
abbrev kc4 : List (HloOp τ sig (Elt F)) :=
  [ StableHlo.unary main_v125 main_v276 (broadcastInDim S200000x1 ![0] bcast_S200000_S200000x1_0 : (⟨S200000, .f32⟩ : BufTy).Contents (Elt F) → (⟨S200000x1, .f32⟩ : BufTy).Contents (Elt F)),
    StableHlo.nullary main_c_53 (constantI S_ 32 0#32),
    StableHlo.unary main_c_53 main_v277 (broadcastInDim S200000 ![] bcast_S_S200000 : (⟨S_, .i32⟩ : BufTy).Contents (Elt F) → (⟨S200000, .i32⟩ : BufTy).Contents (Elt F)),
    StableHlo.binary main_v1 main_v277 main_v278 (cmpi .slt : (⟨S200000, .i32⟩ : BufTy).Contents (Elt F) → (⟨S200000, .i32⟩ : BufTy).Contents (Elt F) → (⟨S200000, .i1⟩ : BufTy).Contents (Elt F)),
    StableHlo.nullary main_c_54 (constantI S_ 32 20000#32),
    StableHlo.unary main_c_54 main_v279 (broadcastInDim S200000 ![] bcast_S_S200000 : (⟨S_, .i32⟩ : BufTy).Contents (Elt F) → (⟨S200000, .i32⟩ : BufTy).Contents (Elt F)),
    StableHlo.binary main_v1 main_v279 main_v280 (addi : (⟨S200000, .i32⟩ : BufTy).Contents (Elt F) → (⟨S200000, .i32⟩ : BufTy).Contents (Elt F) → (⟨S200000, .i32⟩ : BufTy).Contents (Elt F)),
    StableHlo.ternary main_v278 main_v280 main_v1 main_v281 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v281 main_v282 (broadcastInDim S200000x1 ![0] bcast_S200000_S200000x1_0 : (⟨S200000, .i32⟩ : BufTy).Contents (Elt F) → (⟨S200000x1, .i32⟩ : BufTy).Contents (Elt F)),
    StableHlo.binary main_v274 main_v282 main_v283 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    StableHlo.unary main_v276 main_v284 (broadcastInDim S200000x16 ![0, 1] bcast_S200000x1_S200000x16_0_1 : (⟨S200000x1, .f32⟩ : BufTy).Contents (Elt F) → (⟨S200000x16, .f32⟩ : BufTy).Contents (Elt F)),
    StableHlo.binary main_v284 main_v283 main_v285 (mulf : (⟨S200000x16, .f32⟩ : BufTy).Contents (Elt F) → (⟨S200000x16, .f32⟩ : BufTy).Contents (Elt F) → (⟨S200000x16, .f32⟩ : BufTy).Contents (Elt F)),
    StableHlo.nullary main_cst_55 (constant S_ .f32 0x00000000#32),
    StableHlo.unary main_cst_55 main_v286 (broadcastInDim S20000x16 ![] bcast_S_S20000x16 : (⟨S_, .f32⟩ : BufTy).Contents (Elt F) → (⟨S20000x16, .f32⟩ : BufTy).Contents (Elt F)),
    StableHlo.unary main_v3 main_v287 (broadcastInDim S200000x1 ![0] bcast_S200000_S200000x1_0 : (⟨S200000, .i32⟩ : BufTy).Contents (Elt F) → (⟨S200000x1, .i32⟩ : BufTy).Contents (Elt F)),
    StableHlo.ternary main_v286 main_v287 main_v285 main_v288 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    StableHlo.unary main_v288 main_v289 (Host.negf : (⟨S20000x16, .f32⟩ : BufTy).Contents (Elt F) → (⟨S20000x16, .f32⟩ : BufTy).Contents (Elt F)),
    StableHlo.unary main_arg12 main_v290 ((extractStridedSlice S1x16x16 ![0, 0, 0] · slices_S3x16x16_S1x16x16_0_0_0) : (⟨S3x16x16, .f32⟩ : BufTy).Contents (Elt F) → (⟨S1x16x16, .f32⟩ : BufTy).Contents (Elt F)),
    StableHlo.reshape main_v290 main_v291 rfl shapeCasts_S1x16x16_S16x16,
    StableHlo.binary main_v274 main_v291 main_v292 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    StableHlo.unary main_arg12 main_v293 ((extractStridedSlice S1x16x16 ![1, 0, 0] · slices_S3x16x16_S1x16x16_1_0_0) : (⟨S3x16x16, .f32⟩ : BufTy).Contents (Elt F) → (⟨S1x16x16, .f32⟩ : BufTy).Contents (Elt F)),
    StableHlo.reshape main_v293 main_v294 rfl shapeCasts_S1x16x16_S16x16,
    StableHlo.binary main_v289 main_v294 main_v295 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    StableHlo.binary main_v292 main_v295 main_v296 (addf : (⟨S20000x16, .f32⟩ : BufTy).Contents (Elt F) → (⟨S20000x16, .f32⟩ : BufTy).Contents (Elt F) → (⟨S20000x16, .f32⟩ : BufTy).Contents (Elt F)),
    StableHlo.unary main_v125 main_v297 (broadcastInDim S200000x1 ![0] bcast_S200000_S200000x1_0 : (⟨S200000, .f32⟩ : BufTy).Contents (Elt F) → (⟨S200000x1, .f32⟩ : BufTy).Contents (Elt F)),
    StableHlo.nullary main_c_56 (constantI S_ 32 0#32),
    StableHlo.unary main_c_56 main_v298 (broadcastInDim S200000 ![] bcast_S_S200000 : (⟨S_, .i32⟩ : BufTy).Contents (Elt F) → (⟨S200000, .i32⟩ : BufTy).Contents (Elt F)),
    StableHlo.binary main_v1 main_v298 main_v299 (cmpi .slt : (⟨S200000, .i32⟩ : BufTy).Contents (Elt F) → (⟨S200000, .i32⟩ : BufTy).Contents (Elt F) → (⟨S200000, .i1⟩ : BufTy).Contents (Elt F)),
    StableHlo.nullary main_c_57 (constantI S_ 32 20000#32),
    StableHlo.unary main_c_57 main_v300 (broadcastInDim S200000 ![] bcast_S_S200000 : (⟨S_, .i32⟩ : BufTy).Contents (Elt F) → (⟨S200000, .i32⟩ : BufTy).Contents (Elt F)),
    StableHlo.binary main_v1 main_v300 main_v301 (addi : (⟨S200000, .i32⟩ : BufTy).Contents (Elt F) → (⟨S200000, .i32⟩ : BufTy).Contents (Elt F) → (⟨S200000, .i32⟩ : BufTy).Contents (Elt F)),
    StableHlo.ternary main_v299 main_v301 main_v1 main_v302 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v302 main_v303 (broadcastInDim S200000x1 ![0] bcast_S200000_S200000x1_0 : (⟨S200000, .i32⟩ : BufTy).Contents (Elt F) → (⟨S200000x1, .i32⟩ : BufTy).Contents (Elt F)),
    StableHlo.binary main_v289 main_v303 main_v304 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    StableHlo.unary main_v297 main_v305 (broadcastInDim S200000x16 ![0, 1] bcast_S200000x1_S200000x16_0_1 : (⟨S200000x1, .f32⟩ : BufTy).Contents (Elt F) → (⟨S200000x16, .f32⟩ : BufTy).Contents (Elt F)),
    StableHlo.binary main_v305 main_v304 main_v306 (mulf : (⟨S200000x16, .f32⟩ : BufTy).Contents (Elt F) → (⟨S200000x16, .f32⟩ : BufTy).Contents (Elt F) → (⟨S200000x16, .f32⟩ : BufTy).Contents (Elt F)),
    StableHlo.nullary main_cst_58 (constant S_ .f32 0x00000000#32),
    StableHlo.unary main_cst_58 main_v307 (broadcastInDim S20000x16 ![] bcast_S_S20000x16 : (⟨S_, .f32⟩ : BufTy).Contents (Elt F) → (⟨S20000x16, .f32⟩ : BufTy).Contents (Elt F)),
    StableHlo.unary main_v3 main_v308 (broadcastInDim S200000x1 ![0] bcast_S200000_S200000x1_0 : (⟨S200000, .i32⟩ : BufTy).Contents (Elt F) → (⟨S200000x1, .i32⟩ : BufTy).Contents (Elt F)),
    StableHlo.ternary main_v307 main_v308 main_v306 main_v309 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    StableHlo.unary main_v309 main_v310 (Host.negf : (⟨S20000x16, .f32⟩ : BufTy).Contents (Elt F) → (⟨S20000x16, .f32⟩ : BufTy).Contents (Elt F)),
    StableHlo.nullary main_cst_59 (constant S_ .f32 0x40000000#32),
    StableHlo.unary main_cst_59 main_v311 (broadcastInDim S20000x16 ![] bcast_S_S20000x16 : (⟨S_, .f32⟩ : BufTy).Contents (Elt F) → (⟨S20000x16, .f32⟩ : BufTy).Contents (Elt F)),
    StableHlo.binary main_v311 main_v310 main_v312 (mulf : (⟨S20000x16, .f32⟩ : BufTy).Contents (Elt F) → (⟨S20000x16, .f32⟩ : BufTy).Contents (Elt F) → (⟨S20000x16, .f32⟩ : BufTy).Contents (Elt F)),
    StableHlo.binary main_v312 main_v274 main_v313 (subf : (⟨S20000x16, .f32⟩ : BufTy).Contents (Elt F) → (⟨S20000x16, .f32⟩ : BufTy).Contents (Elt F) → (⟨S20000x16, .f32⟩ : BufTy).Contents (Elt F)),
    StableHlo.unary main_arg12 main_v314 ((extractStridedSlice S1x16x16 ![2, 0, 0] · slices_S3x16x16_S1x16x16_2_0_0) : (⟨S3x16x16, .f32⟩ : BufTy).Contents (Elt F) → (⟨S1x16x16, .f32⟩ : BufTy).Contents (Elt F)),
    StableHlo.reshape main_v314 main_v315 rfl shapeCasts_S1x16x16_S16x16,
    StableHlo.binary main_v313 main_v315 main_v316 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    StableHlo.binary main_v296 main_v316 main_v317 (addf : (⟨S20000x16, .f32⟩ : BufTy).Contents (Elt F) → (⟨S20000x16, .f32⟩ : BufTy).Contents (Elt F) → (⟨S20000x16, .f32⟩ : BufTy).Contents (Elt F)),
    StableHlo.nullary main_cst_60 (constant S_ .f32 0x00000000#32),
    StableHlo.unary main_cst_60 main_v318 (broadcastInDim S20000x16 ![] bcast_S_S20000x16 : (⟨S_, .f32⟩ : BufTy).Contents (Elt F) → (⟨S20000x16, .f32⟩ : BufTy).Contents (Elt F)),
    StableHlo.binary main_v317 main_v318 main_v319 (maximumf : (⟨S20000x16, .f32⟩ : BufTy).Contents (Elt F) → (⟨S20000x16, .f32⟩ : BufTy).Contents (Elt F) → (⟨S20000x16, .f32⟩ : BufTy).Contents (Elt F)),
    StableHlo.binary main_v275 main_v319 main_v320 ((fun a b => concatenate S20000x64 1 [⟨S20000x48, a⟩, ⟨S20000x16, b⟩] concatenates_S20000x48_S20000x16_S20000x64_d1) : (⟨S20000x48, .f32⟩ : BufTy).Contents (Elt F) → (⟨S20000x16, .f32⟩ : BufTy).Contents (Elt F) → (⟨S20000x64, .f32⟩ : BufTy).Contents (Elt F)) ]
/-- The references chunk 4's operations write, in order. -/
abbrev Lk4 : List (Ref sig .tc) := [main_v276, main_c_53, main_v277, main_v278, main_c_54, main_v279, main_v280, main_v281, main_v282, main_v283, main_v284, main_v285, main_cst_55, main_v286, main_v287, main_v288, main_v289, main_v290, main_v291, main_v292, main_v293, main_v294, main_v295, main_v296, main_v297, main_c_56, main_v298, main_v299, main_c_57, main_v300, main_v301, main_v302, main_v303, main_v304, main_v305, main_v306, main_cst_58, main_v307, main_v308, main_v309, main_v310, main_cst_59, main_v311, main_v312, main_v313, main_v314, main_v315, main_v316, main_v317, main_cst_60, main_v318, main_v319, main_v320]
set_option maxRecDepth 8192 in
theorem kc4_writes : (kc4 : List (HloOp τ sig (Elt F))).Forall fun op => op.writes ⊆ (Lk4.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference chunk 4 does not write keeps its contents through it. -/
theorem kc4_keeps {r : Ref sig .tc} (hr : r ∉ Lk4) (V : Valuation τ sig (Elt F)) :
    StableHlo.after (kc4 : List (HloOp τ sig (Elt F))) V (Proc.devRef .tc r) = V (Proc.devRef .tc r) :=
  StableHlo.after_of_writes_sub kc4 V kc4_writes hr

/-- Operations 250 to 253 of the stretch (4 operations). -/
abbrev kc5 : List (HloOp τ sig (Elt F)) :=
  [ StableHlo.unary main_v320 main_v321 ((truncf .bf16 · bitsLt_bf16_f32) : (⟨S20000x64, .f32⟩ : BufTy).Contents (Elt F) → (⟨S20000x64, .bf16⟩ : BufTy).Contents (Elt F)),
    StableHlo.unary main_arg13 main_v322 ((truncf .bf16 · bitsLt_bf16_f32) : (⟨S256x64, .f32⟩ : BufTy).Contents (Elt F) → (⟨S256x64, .bf16⟩ : BufTy).Contents (Elt F)),
    StableHlo.unary main_v322 main_v323 ((transpose S64x256 [1, 0] · transposes_S256x64_S64x256_1_0) : (⟨S256x64, .bf16⟩ : BufTy).Contents (Elt F) → (⟨S64x256, .bf16⟩ : BufTy).Contents (Elt F)),
    StableHlo.reshape main_arg14 main_v324 rfl shapeCasts_S256_S1x256 ]
/-- The references chunk 5's operations write, in order. -/
abbrev Lk5 : List (Ref sig .tc) := [main_v321, main_v322, main_v323, main_v324]
set_option maxRecDepth 8192 in
theorem kc5_writes : (kc5 : List (HloOp τ sig (Elt F))).Forall fun op => op.writes ⊆ (Lk5.map (Proc.devRef (τ := τ) .tc)).toFinset := by
  simp only [List.Forall]
  refine ⟨?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference chunk 5 does not write keeps its contents through it. -/
theorem kc5_keeps {r : Ref sig .tc} (hr : r ∉ Lk5) (V : Valuation τ sig (Elt F)) :
    StableHlo.after (kc5 : List (HloOp τ sig (Elt F))) V (Proc.devRef .tc r) = V (Proc.devRef .tc r) :=
  StableHlo.after_of_writes_sub kc5 V kc5_writes hr

set_option maxRecDepth 65536 in
set_option maxHeartbeats 4000000 in
/-- The stretch is its six chunks one after the other. -/
theorem hostOps4_2_split : (hostOps4_2 : List (HloOp τ sig (Elt F))) = kc0 ++ kc1 ++ kc2 ++ kc3 ++ kc4 ++ kc5 := rfl

/-- The contents after the stretch: the chunks' results folded in order. -/
theorem after_hostOps4_2 (V : Valuation τ sig (Elt F)) :
    StableHlo.after hostOps4_2 V = StableHlo.after kc5 (StableHlo.after kc4 (StableHlo.after kc3 (StableHlo.after kc2 (StableHlo.after kc1 (StableHlo.after kc0 V))))) := by
  rw [hostOps4_2_split, after_append, after_append, after_append, after_append, after_append]

end Cert.Kernel.Frame

end
-- ==== Proof.K.Writes.lean ====
/- What each of the fifteen segments of the main function may change. A stretch of host operations writes
   exactly the result references of its operations (the list `Lw` of the boundary it starts from); a dense-layer region
   changes only its output array. A reference outside a stretch's list holds after the stretch what it held before. -/
import proofs.«115122_j13357348290767_2_alg».proof.Proof.Gen.Kernel.Launch
import proofs.«115122_j13357348290767_2_alg».proof.Proof.K.Chunks
import Idealize.ShloMosaic.Lib.StableHlo.Run

noncomputable section

namespace Cert.Kernel.Frame

open Cert.Kernel Cert.Kernel.Gen Idealize.ShloMosaic Idealize.ShloMosaic.TcCoe Idealize.SL.Sem

variable {F : FTy → Type} [FloatOps F]

/-- The references `hostOps0`'s 10 operations write. -/
abbrev Lw0 : List (Ref sig .tc) := [main_v0, main_v1, main_v2, main_v3, main_v4, main_v5, main_v6, main_v7, main_v8, main_v9]
set_option maxRecDepth 8192 in
theorem hostOps0_writes : (hostOps0 : List (HloOp τ sig (Elt F))).Forall fun op => op.writes ⊆ (Lw0.map (Proc.devRef (τ := τ) .tc)).toFinset := by
  simp only [List.Forall]
  refine ⟨?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference `hostOps0` does not write keeps its contents through it. -/
theorem hostOps0_keeps {r : Ref sig .tc} (hr : r ∉ Lw0) (V : Valuation τ sig (Elt F)) :
    StableHlo.after (hostOps0 : List (HloOp τ sig (Elt F))) V (Proc.devRef .tc r) = V (Proc.devRef .tc r) :=
  StableHlo.after_of_writes_sub hostOps0 V hostOps0_writes hr

/-- Region 0 changes only its output array. -/
abbrev Lw1 : List (Ref sig .tc) := [main_v10]

/-- The references `hostOps1`'s 31 operations write. -/
abbrev Lw2 : List (Ref sig .tc) := [main_v11, main_v12, main_v13, main_v14, main_v15, main_v16, main_v17, main_v18, main_cst, main_v19, main_v20, main_cst_0, main_v21, main_v22, main_v23, main_v24, main_v25, main_v26, main_v27, main_v28, main_v29, main_cst_1, main_v30, main_v31, main_cst_2, main_v32, main_v33, main_v34, main_v35, main_v36, main_v37]
set_option maxRecDepth 8192 in
theorem hostOps1_writes : (hostOps1 : List (HloOp τ sig (Elt F))).Forall fun op => op.writes ⊆ (Lw2.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference `hostOps1` does not write keeps its contents through it. -/
theorem hostOps1_keeps {r : Ref sig .tc} (hr : r ∉ Lw2) (V : Valuation τ sig (Elt F)) :
    StableHlo.after (hostOps1 : List (HloOp τ sig (Elt F))) V (Proc.devRef .tc r) = V (Proc.devRef .tc r) :=
  StableHlo.after_of_writes_sub hostOps1 V hostOps1_writes hr

/-- Region 1 changes only its output array. -/
abbrev Lw3 : List (Ref sig .tc) := [main_v38]

/-- The references `hostOps2`'s 1 operation write. -/
abbrev Lw4 : List (Ref sig .tc) := [main_v39]
set_option maxRecDepth 8192 in
theorem hostOps2_writes : (hostOps2 : List (HloOp τ sig (Elt F))).Forall fun op => op.writes ⊆ (Lw4.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)
/-- A reference `hostOps2` does not write keeps its contents through it. -/
theorem hostOps2_keeps {r : Ref sig .tc} (hr : r ∉ Lw4) (V : Valuation τ sig (Elt F)) :
    StableHlo.after (hostOps2 : List (HloOp τ sig (Elt F))) V (Proc.devRef .tc r) = V (Proc.devRef .tc r) :=
  StableHlo.after_of_writes_sub hostOps2 V hostOps2_writes hr

/-- Region 2 changes only its output array. -/
abbrev Lw5 : List (Ref sig .tc) := [main_v40]

/-- The references `hostOps3`'s 78 operations write. -/
abbrev Lw6 : List (Ref sig .tc) := [main_v41, main_c, main_v42, main_v43, main_c_3, main_v44, main_v45, main_v46, main_v47, main_v48, main_v49, main_c_4, main_v50, main_v51, main_c_5, main_v52, main_v53, main_v54, main_v55, main_v56, main_v57, main_v58, main_cst_6, main_v59, main_v60, main_cst_7, main_v61, main_c_8, main_v62, main_v63, main_c_9, main_v64, main_v65, main_v66, main_v67, main_v68, main_c_10, main_v69, main_v70, main_c_11, main_v71, main_v72, main_v73, main_v74, main_v75, main_v76, main_cst_12, main_v77, main_v78, main_v79, main_cst_13, main_v80, main_v81, main_cst_14, main_v82, main_v83, main_v84, main_cst_15, main_v85, main_v86, main_v87, main_v88, main_cst_16, main_v89, main_v90, main_v91, main_v92, main_cst_17, main_v93, main_v94, main_cst_18, main_v95, main_v96, main_v97, main_v98, main_v99, main_v100, main_v101]
set_option maxRecDepth 8192 in
theorem hostOps3_writes : (hostOps3 : List (HloOp τ sig (Elt F))).Forall fun op => op.writes ⊆ (Lw6.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference `hostOps3` does not write keeps its contents through it. -/
theorem hostOps3_keeps {r : Ref sig .tc} (hr : r ∉ Lw6) (V : Valuation τ sig (Elt F)) :
    StableHlo.after (hostOps3 : List (HloOp τ sig (Elt F))) V (Proc.devRef .tc r) = V (Proc.devRef .tc r) :=
  StableHlo.after_of_writes_sub hostOps3 V hostOps3_writes hr

/-- Region 3 changes only its output array. -/
abbrev Lw7 : List (Ref sig .tc) := [main_v102]

/-- The references `hostOps4`'s 9 operations write. -/
abbrev Lw8 : List (Ref sig .tc) := [main_cst_19, main_v103, main_v104, main_v105, main_cst_20, main_v106, main_v107, main_v108, main_cst_21]
set_option maxRecDepth 8192 in
theorem hostOps4_writes : (hostOps4 : List (HloOp τ sig (Elt F))).Forall fun op => op.writes ⊆ (Lw8.map (Proc.devRef (τ := τ) .tc)).toFinset := by
  simp only [List.Forall]
  refine ⟨?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference `hostOps4` does not write keeps its contents through it. -/
theorem hostOps4_keeps {r : Ref sig .tc} (hr : r ∉ Lw8) (V : Valuation τ sig (Elt F)) :
    StableHlo.after (hostOps4 : List (HloOp τ sig (Elt F))) V (Proc.devRef .tc r) = V (Proc.devRef .tc r) :=
  StableHlo.after_of_writes_sub hostOps4 V hostOps4_writes hr

/-- The references `hostOps4_1`'s 3 operations write. -/
abbrev Lw9 : List (Ref sig .tc) := [main_call0_v0, main_call0_v1, main_v109]
set_option maxRecDepth 8192 in
theorem hostOps4_1_writes : (hostOps4_1 : List (HloOp τ sig (Elt F))).Forall fun op => op.writes ⊆ (Lw9.map (Proc.devRef (τ := τ) .tc)).toFinset := by
  simp only [List.Forall]
  refine ⟨?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference `hostOps4_1` does not write keeps its contents through it. -/
theorem hostOps4_1_keeps {r : Ref sig .tc} (hr : r ∉ Lw9) (V : Valuation τ sig (Elt F)) :
    StableHlo.after (hostOps4_1 : List (HloOp τ sig (Elt F))) V (Proc.devRef .tc r) = V (Proc.devRef .tc r) :=
  StableHlo.after_of_writes_sub hostOps4_1 V hostOps4_1_writes hr

/-- The references the 254-operation stretch writes: its six chunks' lists in order. -/
abbrev Lw10 : List (Ref sig .tc) := Lk0 ++ Lk1 ++ Lk2 ++ Lk3 ++ Lk4 ++ Lk5
/-- A reference the stretch does not write keeps its contents through it. -/
theorem hostOps4_2_keeps {r : Ref sig .tc} (hr : r ∉ Lw10) (V : Valuation τ sig (Elt F)) :
    StableHlo.after (hostOps4_2 : List (HloOp τ sig (Elt F))) V (Proc.devRef .tc r) = V (Proc.devRef .tc r) := by
  have h := hr
  simp only [List.mem_append, not_or] at h
  obtain ⟨⟨⟨⟨⟨h0, h1⟩, h2⟩, h3⟩, h4⟩, h5⟩ := h
  rw [after_hostOps4_2, kc5_keeps h5, kc4_keeps h4, kc3_keeps h3, kc2_keeps h2, kc1_keeps h1, kc0_keeps h0]

/-- Region 4 changes only its output array. -/
abbrev Lw11 : List (Ref sig .tc) := [main_v325]

/-- The references `hostOps5`'s 9 operations write. -/
abbrev Lw12 : List (Ref sig .tc) := [main_v326, main_v327, main_v328, main_v329, main_v330, main_v331, main_v332, main_v333, main_v334]
set_option maxRecDepth 8192 in
theorem hostOps5_writes : (hostOps5 : List (HloOp τ sig (Elt F))).Forall fun op => op.writes ⊆ (Lw12.map (Proc.devRef (τ := τ) .tc)).toFinset := by
  simp only [List.Forall]
  refine ⟨?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference `hostOps5` does not write keeps its contents through it. -/
theorem hostOps5_keeps {r : Ref sig .tc} (hr : r ∉ Lw12) (V : Valuation τ sig (Elt F)) :
    StableHlo.after (hostOps5 : List (HloOp τ sig (Elt F))) V (Proc.devRef .tc r) = V (Proc.devRef .tc r) :=
  StableHlo.after_of_writes_sub hostOps5 V hostOps5_writes hr

/-- Region 5 changes only its output array. -/
abbrev Lw13 : List (Ref sig .tc) := [main_v335]

/-- The references `hostOps6`'s 5 operations write. -/
abbrev Lw14 : List (Ref sig .tc) := [main_v336, main_v337, main_v338, main_v339, main_v340]
set_option maxRecDepth 8192 in
theorem hostOps6_writes : (hostOps6 : List (HloOp τ sig (Elt F))).Forall fun op => op.writes ⊆ (Lw14.map (Proc.devRef (τ := τ) .tc)).toFinset := by
  simp only [List.Forall]
  refine ⟨?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference `hostOps6` does not write keeps its contents through it. -/
theorem hostOps6_keeps {r : Ref sig .tc} (hr : r ∉ Lw14) (V : Valuation τ sig (Elt F)) :
    StableHlo.after (hostOps6 : List (HloOp τ sig (Elt F))) V (Proc.devRef .tc r) = V (Proc.devRef .tc r) :=
  StableHlo.after_of_writes_sub hostOps6 V hostOps6_writes hr

end Cert.Kernel.Frame

end
-- ==== Proof.K.Keep.lean ====
/- Which buffers each segment of the main function leaves alone, stated on the boundary contents: a reference a
   stretch of host operations does not write, and any reference other than a region's output array, holds at the next
   boundary what it held at the one before (a region's three input arrays are read, never written back; every buffer
   that is no window array bypasses the region). And each region's output array at the region's exit is what the
   pipeline's write-backs leave. -/
import proofs.«115122_j13357348290767_2_alg».proof.Proof.K.W
import proofs.«115122_j13357348290767_2_alg».proof.Proof.K.Writes

noncomputable section

namespace Cert.Kernel.Frame

open Cert.Kernel Cert.Kernel.Gen Idealize.ShloMosaic Idealize.ShloMosaic.TcCoe Idealize.SL.Sem

variable {F : FTy → Type} [FloatOps F]

open Idealize.ShloMosaic.Pipeline (Dat)

variable (m : (ℓ : Loc nD τ sig) → Buf (Elt F) ℓ) (ρ : Dev nD → PrngReg)

/-- Through `hostOps0`. -/
theorem W1_keep (c : Dev nD) {r : Ref sig .tc} (hr : r ∉ Lw0) :
    W1 m ρ c (Proc.devRef .tc r) = W0 m ρ c (Proc.devRef .tc r) :=
  hostOps0_keeps hr (W0 m ρ c)

/-- Region 0's output array at its exit. -/
theorem W2_out (c : Dev nD) : W2 m ρ c (Proc.devRef .tc main_v10) = (dat0 (V1 m ρ) c).arrAt 3 cfg0.N :=
  W2_arr m ρ c 3
/-- Through region 0: every reference but the output array. -/
theorem W2_keep (c : Dev nD) {r : Ref sig .tc} (hr : r ∉ Lw1) :
    W2 m ρ c (Proc.devRef .tc r) = W1 m ρ c (Proc.devRef .tc r) := by
  by_cases h : ∃ w, Pipeline.arrRef spec0 w = r
  · obtain ⟨w, rfl⟩ := h
    rw [W2_arr]
    match w with
    | ⟨0, _⟩ => exact ((dat0 (V1 m ρ) c).arrAt_in 0 rfl _).trans (A_eq0 (V1 m ρ) c 0)
    | ⟨1, _⟩ => exact ((dat0 (V1 m ρ) c).arrAt_in 1 rfl _).trans (A_eq0 (V1 m ρ) c 1)
    | ⟨2, _⟩ => exact ((dat0 (V1 m ρ) c).arrAt_in 2 rfl _).trans (A_eq0 (V1 m ρ) c 2)
    | ⟨3, _⟩ => exact absurd (List.mem_singleton.mpr rfl) hr
  · exact W2_of_ne m ρ c r fun w e => h ⟨w, e⟩

/-- Through `hostOps1`. -/
theorem W3_keep (c : Dev nD) {r : Ref sig .tc} (hr : r ∉ Lw2) :
    W3 m ρ c (Proc.devRef .tc r) = W2 m ρ c (Proc.devRef .tc r) :=
  hostOps1_keeps hr (W2 m ρ c)

/-- Region 1's output array at its exit. -/
theorem W4_out (c : Dev nD) : W4 m ρ c (Proc.devRef .tc main_v38) = (dat1 (V3 m ρ) c).arrAt 3 cfg1.N :=
  W4_arr m ρ c 3
/-- Through region 1: every reference but the output array. -/
theorem W4_keep (c : Dev nD) {r : Ref sig .tc} (hr : r ∉ Lw3) :
    W4 m ρ c (Proc.devRef .tc r) = W3 m ρ c (Proc.devRef .tc r) := by
  by_cases h : ∃ w, Pipeline.arrRef spec1 w = r
  · obtain ⟨w, rfl⟩ := h
    rw [W4_arr]
    match w with
    | ⟨0, _⟩ => exact ((dat1 (V3 m ρ) c).arrAt_in 0 rfl _).trans (A_eq1 (V3 m ρ) c 0)
    | ⟨1, _⟩ => exact ((dat1 (V3 m ρ) c).arrAt_in 1 rfl _).trans (A_eq1 (V3 m ρ) c 1)
    | ⟨2, _⟩ => exact ((dat1 (V3 m ρ) c).arrAt_in 2 rfl _).trans (A_eq1 (V3 m ρ) c 2)
    | ⟨3, _⟩ => exact absurd (List.mem_singleton.mpr rfl) hr
  · exact W4_of_ne m ρ c r fun w e => h ⟨w, e⟩

/-- Through `hostOps2`. -/
theorem W5_keep (c : Dev nD) {r : Ref sig .tc} (hr : r ∉ Lw4) :
    W5 m ρ c (Proc.devRef .tc r) = W4 m ρ c (Proc.devRef .tc r) :=
  hostOps2_keeps hr (W4 m ρ c)

/-- Region 2's output array at its exit. -/
theorem W6_out (c : Dev nD) : W6 m ρ c (Proc.devRef .tc main_v40) = (dat2 (V5 m ρ) c).arrAt 3 cfg2.N :=
  W6_arr m ρ c 3
/-- Through region 2: every reference but the output array. -/
theorem W6_keep (c : Dev nD) {r : Ref sig .tc} (hr : r ∉ Lw5) :
    W6 m ρ c (Proc.devRef .tc r) = W5 m ρ c (Proc.devRef .tc r) := by
  by_cases h : ∃ w, Pipeline.arrRef spec2 w = r
  · obtain ⟨w, rfl⟩ := h
    rw [W6_arr]
    match w with
    | ⟨0, _⟩ => exact ((dat2 (V5 m ρ) c).arrAt_in 0 rfl _).trans (A_eq2 (V5 m ρ) c 0)
    | ⟨1, _⟩ => exact ((dat2 (V5 m ρ) c).arrAt_in 1 rfl _).trans (A_eq2 (V5 m ρ) c 1)
    | ⟨2, _⟩ => exact ((dat2 (V5 m ρ) c).arrAt_in 2 rfl _).trans (A_eq2 (V5 m ρ) c 2)
    | ⟨3, _⟩ => exact absurd (List.mem_singleton.mpr rfl) hr
  · exact W6_of_ne m ρ c r fun w e => h ⟨w, e⟩

/-- Through `hostOps3`. -/
theorem W7_keep (c : Dev nD) {r : Ref sig .tc} (hr : r ∉ Lw6) :
    W7 m ρ c (Proc.devRef .tc r) = W6 m ρ c (Proc.devRef .tc r) :=
  hostOps3_keeps hr (W6 m ρ c)

/-- Region 3's output array at its exit. -/
theorem W8_out (c : Dev nD) : W8 m ρ c (Proc.devRef .tc main_v102) = (dat3 (V7 m ρ) c).arrAt 3 cfg3.N :=
  W8_arr m ρ c 3
/-- Through region 3: every reference but the output array. -/
theorem W8_keep (c : Dev nD) {r : Ref sig .tc} (hr : r ∉ Lw7) :
    W8 m ρ c (Proc.devRef .tc r) = W7 m ρ c (Proc.devRef .tc r) := by
  by_cases h : ∃ w, Pipeline.arrRef spec3 w = r
  · obtain ⟨w, rfl⟩ := h
    rw [W8_arr]
    match w with
    | ⟨0, _⟩ => exact ((dat3 (V7 m ρ) c).arrAt_in 0 rfl _).trans (A_eq3 (V7 m ρ) c 0)
    | ⟨1, _⟩ => exact ((dat3 (V7 m ρ) c).arrAt_in 1 rfl _).trans (A_eq3 (V7 m ρ) c 1)
    | ⟨2, _⟩ => exact ((dat3 (V7 m ρ) c).arrAt_in 2 rfl _).trans (A_eq3 (V7 m ρ) c 2)
    | ⟨3, _⟩ => exact absurd (List.mem_singleton.mpr rfl) hr
  · exact W8_of_ne m ρ c r fun w e => h ⟨w, e⟩

/-- Through `hostOps4`. -/
theorem W9_keep (c : Dev nD) {r : Ref sig .tc} (hr : r ∉ Lw8) :
    W9 m ρ c (Proc.devRef .tc r) = W8 m ρ c (Proc.devRef .tc r) :=
  hostOps4_keeps hr (W8 m ρ c)

/-- Through `hostOps4_1`. -/
theorem W10_keep (c : Dev nD) {r : Ref sig .tc} (hr : r ∉ Lw9) :
    W10 m ρ c (Proc.devRef .tc r) = W9 m ρ c (Proc.devRef .tc r) :=
  hostOps4_1_keeps hr (W9 m ρ c)

/-- Through `hostOps4_2`. -/
theorem W11_keep (c : Dev nD) {r : Ref sig .tc} (hr : r ∉ Lw10) :
    W11 m ρ c (Proc.devRef .tc r) = W10 m ρ c (Proc.devRef .tc r) :=
  hostOps4_2_keeps hr (W10 m ρ c)

/-- Region 4's output array at its exit. -/
theorem W12_out (c : Dev nD) : W12 m ρ c (Proc.devRef .tc main_v325) = (dat4 (V11 m ρ) c).arrAt 3 cfg4.N :=
  W12_arr m ρ c 3
/-- Through region 4: every reference but the output array. -/
theorem W12_keep (c : Dev nD) {r : Ref sig .tc} (hr : r ∉ Lw11) :
    W12 m ρ c (Proc.devRef .tc r) = W11 m ρ c (Proc.devRef .tc r) := by
  by_cases h : ∃ w, Pipeline.arrRef spec4 w = r
  · obtain ⟨w, rfl⟩ := h
    rw [W12_arr]
    match w with
    | ⟨0, _⟩ => exact ((dat4 (V11 m ρ) c).arrAt_in 0 rfl _).trans (A_eq4 (V11 m ρ) c 0)
    | ⟨1, _⟩ => exact ((dat4 (V11 m ρ) c).arrAt_in 1 rfl _).trans (A_eq4 (V11 m ρ) c 1)
    | ⟨2, _⟩ => exact ((dat4 (V11 m ρ) c).arrAt_in 2 rfl _).trans (A_eq4 (V11 m ρ) c 2)
    | ⟨3, _⟩ => exact absurd (List.mem_singleton.mpr rfl) hr
  · exact W12_of_ne m ρ c r fun w e => h ⟨w, e⟩

/-- Through `hostOps5`. -/
theorem W13_keep (c : Dev nD) {r : Ref sig .tc} (hr : r ∉ Lw12) :
    W13 m ρ c (Proc.devRef .tc r) = W12 m ρ c (Proc.devRef .tc r) :=
  hostOps5_keeps hr (W12 m ρ c)

/-- Region 5's output array at its exit. -/
theorem W14_out (c : Dev nD) : W14 m ρ c (Proc.devRef .tc main_v335) = (dat5 (V13 m ρ) c).arrAt 3 cfg5.N :=
  W14_arr m ρ c 3
/-- Through region 5: every reference but the output array. -/
theorem W14_keep (c : Dev nD) {r : Ref sig .tc} (hr : r ∉ Lw13) :
    W14 m ρ c (Proc.devRef .tc r) = W13 m ρ c (Proc.devRef .tc r) := by
  by_cases h : ∃ w, Pipeline.arrRef spec5 w = r
  · obtain ⟨w, rfl⟩ := h
    rw [W14_arr]
    match w with
    | ⟨0, _⟩ => exact ((dat5 (V13 m ρ) c).arrAt_in 0 rfl _).trans (A_eq5 (V13 m ρ) c 0)
    | ⟨1, _⟩ => exact ((dat5 (V13 m ρ) c).arrAt_in 1 rfl _).trans (A_eq5 (V13 m ρ) c 1)
    | ⟨2, _⟩ => exact ((dat5 (V13 m ρ) c).arrAt_in 2 rfl _).trans (A_eq5 (V13 m ρ) c 2)
    | ⟨3, _⟩ => exact absurd (List.mem_singleton.mpr rfl) hr
  · exact W14_of_ne m ρ c r fun w e => h ⟨w, e⟩

/-- Through `hostOps6`. -/
theorem W15_keep (c : Dev nD) {r : Ref sig .tc} (hr : r ∉ Lw14) :
    W15 m ρ c (Proc.devRef .tc r) = W14 m ρ c (Proc.devRef .tc r) :=
  hostOps6_keeps hr (W14 m ρ c)

end Cert.Kernel.Frame

end
-- ==== Proof.K.Args.lean ====
/- The main function returns its 25 argument arrays as launched: no host operation writes an argument and no
   dense-layer region has an argument as its output array, so at each of the fifteen boundaries an argument's buffer
   holds what it held at the one before, back to the launch memory. With the run of the segments this is the frame
   claim: every weakly fair execution terminates and every final state has each argument array at its launch contents. -/
import proofs.«115122_j13357348290767_2_alg».proof.Proof.K.Run
import proofs.«115122_j13357348290767_2_alg».proof.Proof.K.Keep
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W15_main_arg0 (c : Dev nD) : W15 m ρ c (Proc.devRef .tc main_arg0) = m ((c : Thread nD τ).loc main_arg0) :=
  (W15_keep m ρ c (r := main_arg0) (by decide)).trans <|
  (W14_keep m ρ c (r := main_arg0) (by decide)).trans <|
  (W13_keep m ρ c (r := main_arg0) (by decide)).trans <|
  (W12_keep m ρ c (r := main_arg0) (by decide)).trans <|
  (W11_keep m ρ c (r := main_arg0) (by decide)).trans <|
  (W10_keep m ρ c (r := main_arg0) (by decide)).trans <|
  (W9_keep m ρ c (r := main_arg0) (by decide)).trans <|
  (W8_keep m ρ c (r := main_arg0) (by decide)).trans <|
  (W7_keep m ρ c (r := main_arg0) (by decide)).trans <|
  (W6_keep m ρ c (r := main_arg0) (by decide)).trans <|
  (W5_keep m ρ c (r := main_arg0) (by decide)).trans <|
  (W4_keep m ρ c (r := main_arg0) (by decide)).trans <|
  (W3_keep m ρ c (r := main_arg0) (by decide)).trans <|
  (W2_keep m ρ c (r := main_arg0) (by decide)).trans <|
  (W1_keep m ρ c (r := main_arg0) (by decide)).trans rfl

theorem W15_main_arg1 (c : Dev nD) : W15 m ρ c (Proc.devRef .tc main_arg1) = m ((c : Thread nD τ).loc main_arg1) :=
  (W15_keep m ρ c (r := main_arg1) (by decide)).trans <|
  (W14_keep m ρ c (r := main_arg1) (by decide)).trans <|
  (W13_keep m ρ c (r := main_arg1) (by decide)).trans <|
  (W12_keep m ρ c (r := main_arg1) (by decide)).trans <|
  (W11_keep m ρ c (r := main_arg1) (by decide)).trans <|
  (W10_keep m ρ c (r := main_arg1) (by decide)).trans <|
  (W9_keep m ρ c (r := main_arg1) (by decide)).trans <|
  (W8_keep m ρ c (r := main_arg1) (by decide)).trans <|
  (W7_keep m ρ c (r := main_arg1) (by decide)).trans <|
  (W6_keep m ρ c (r := main_arg1) (by decide)).trans <|
  (W5_keep m ρ c (r := main_arg1) (by decide)).trans <|
  (W4_keep m ρ c (r := main_arg1) (by decide)).trans <|
  (W3_keep m ρ c (r := main_arg1) (by decide)).trans <|
  (W2_keep m ρ c (r := main_arg1) (by decide)).trans <|
  (W1_keep m ρ c (r := main_arg1) (by decide)).trans rfl

theorem W15_main_arg2 (c : Dev nD) : W15 m ρ c (Proc.devRef .tc main_arg2) = m ((c : Thread nD τ).loc main_arg2) :=
  (W15_keep m ρ c (r := main_arg2) (by decide)).trans <|
  (W14_keep m ρ c (r := main_arg2) (by decide)).trans <|
  (W13_keep m ρ c (r := main_arg2) (by decide)).trans <|
  (W12_keep m ρ c (r := main_arg2) (by decide)).trans <|
  (W11_keep m ρ c (r := main_arg2) (by decide)).trans <|
  (W10_keep m ρ c (r := main_arg2) (by decide)).trans <|
  (W9_keep m ρ c (r := main_arg2) (by decide)).trans <|
  (W8_keep m ρ c (r := main_arg2) (by decide)).trans <|
  (W7_keep m ρ c (r := main_arg2) (by decide)).trans <|
  (W6_keep m ρ c (r := main_arg2) (by decide)).trans <|
  (W5_keep m ρ c (r := main_arg2) (by decide)).trans <|
  (W4_keep m ρ c (r := main_arg2) (by decide)).trans <|
  (W3_keep m ρ c (r := main_arg2) (by decide)).trans <|
  (W2_keep m ρ c (r := main_arg2) (by decide)).trans <|
  (W1_keep m ρ c (r := main_arg2) (by decide)).trans rfl

theorem W15_main_arg3 (c : Dev nD) : W15 m ρ c (Proc.devRef .tc main_arg3) = m ((c : Thread nD τ).loc main_arg3) :=
  (W15_keep m ρ c (r := main_arg3) (by decide)).trans <|
  (W14_keep m ρ c (r := main_arg3) (by decide)).trans <|
  (W13_keep m ρ c (r := main_arg3) (by decide)).trans <|
  (W12_keep m ρ c (r := main_arg3) (by decide)).trans <|
  (W11_keep m ρ c (r := main_arg3) (by decide)).trans <|
  (W10_keep m ρ c (r := main_arg3) (by decide)).trans <|
  (W9_keep m ρ c (r := main_arg3) (by decide)).trans <|
  (W8_keep m ρ c (r := main_arg3) (by decide)).trans <|
  (W7_keep m ρ c (r := main_arg3) (by decide)).trans <|
  (W6_keep m ρ c (r := main_arg3) (by decide)).trans <|
  (W5_keep m ρ c (r := main_arg3) (by decide)).trans <|
  (W4_keep m ρ c (r := main_arg3) (by decide)).trans <|
  (W3_keep m ρ c (r := main_arg3) (by decide)).trans <|
  (W2_keep m ρ c (r := main_arg3) (by decide)).trans <|
  (W1_keep m ρ c (r := main_arg3) (by decide)).trans rfl

theorem W15_main_arg4 (c : Dev nD) : W15 m ρ c (Proc.devRef .tc main_arg4) = m ((c : Thread nD τ).loc main_arg4) :=
  (W15_keep m ρ c (r := main_arg4) (by decide)).trans <|
  (W14_keep m ρ c (r := main_arg4) (by decide)).trans <|
  (W13_keep m ρ c (r := main_arg4) (by decide)).trans <|
  (W12_keep m ρ c (r := main_arg4) (by decide)).trans <|
  (W11_keep m ρ c (r := main_arg4) (by decide)).trans <|
  (W10_keep m ρ c (r := main_arg4) (by decide)).trans <|
  (W9_keep m ρ c (r := main_arg4) (by decide)).trans <|
  (W8_keep m ρ c (r := main_arg4) (by decide)).trans <|
  (W7_keep m ρ c (r := main_arg4) (by decide)).trans <|
  (W6_keep m ρ c (r := main_arg4) (by decide)).trans <|
  (W5_keep m ρ c (r := main_arg4) (by decide)).trans <|
  (W4_keep m ρ c (r := main_arg4) (by decide)).trans <|
  (W3_keep m ρ c (r := main_arg4) (by decide)).trans <|
  (W2_keep m ρ c (r := main_arg4) (by decide)).trans <|
  (W1_keep m ρ c (r := main_arg4) (by decide)).trans rfl

theorem W15_main_arg5 (c : Dev nD) : W15 m ρ c (Proc.devRef .tc main_arg5) = m ((c : Thread nD τ).loc main_arg5) :=
  (W15_keep m ρ c (r := main_arg5) (by decide)).trans <|
  (W14_keep m ρ c (r := main_arg5) (by decide)).trans <|
  (W13_keep m ρ c (r := main_arg5) (by decide)).trans <|
  (W12_keep m ρ c (r := main_arg5) (by decide)).trans <|
  (W11_keep m ρ c (r := main_arg5) (by decide)).trans <|
  (W10_keep m ρ c (r := main_arg5) (by decide)).trans <|
  (W9_keep m ρ c (r := main_arg5) (by decide)).trans <|
  (W8_keep m ρ c (r := main_arg5) (by decide)).trans <|
  (W7_keep m ρ c (r := main_arg5) (by decide)).trans <|
  (W6_keep m ρ c (r := main_arg5) (by decide)).trans <|
  (W5_keep m ρ c (r := main_arg5) (by decide)).trans <|
  (W4_keep m ρ c (r := main_arg5) (by decide)).trans <|
  (W3_keep m ρ c (r := main_arg5) (by decide)).trans <|
  (W2_keep m ρ c (r := main_arg5) (by decide)).trans <|
  (W1_keep m ρ c (r := main_arg5) (by decide)).trans rfl

theorem W15_main_arg6 (c : Dev nD) : W15 m ρ c (Proc.devRef .tc main_arg6) = m ((c : Thread nD τ).loc main_arg6) :=
  (W15_keep m ρ c (r := main_arg6) (by decide)).trans <|
  (W14_keep m ρ c (r := main_arg6) (by decide)).trans <|
  (W13_keep m ρ c (r := main_arg6) (by decide)).trans <|
  (W12_keep m ρ c (r := main_arg6) (by decide)).trans <|
  (W11_keep m ρ c (r := main_arg6) (by decide)).trans <|
  (W10_keep m ρ c (r := main_arg6) (by decide)).trans <|
  (W9_keep m ρ c (r := main_arg6) (by decide)).trans <|
  (W8_keep m ρ c (r := main_arg6) (by decide)).trans <|
  (W7_keep m ρ c (r := main_arg6) (by decide)).trans <|
  (W6_keep m ρ c (r := main_arg6) (by decide)).trans <|
  (W5_keep m ρ c (r := main_arg6) (by decide)).trans <|
  (W4_keep m ρ c (r := main_arg6) (by decide)).trans <|
  (W3_keep m ρ c (r := main_arg6) (by decide)).trans <|
  (W2_keep m ρ c (r := main_arg6) (by decide)).trans <|
  (W1_keep m ρ c (r := main_arg6) (by decide)).trans rfl

theorem W15_main_arg7 (c : Dev nD) : W15 m ρ c (Proc.devRef .tc main_arg7) = m ((c : Thread nD τ).loc main_arg7) :=
  (W15_keep m ρ c (r := main_arg7) (by decide)).trans <|
  (W14_keep m ρ c (r := main_arg7) (by decide)).trans <|
  (W13_keep m ρ c (r := main_arg7) (by decide)).trans <|
  (W12_keep m ρ c (r := main_arg7) (by decide)).trans <|
  (W11_keep m ρ c (r := main_arg7) (by decide)).trans <|
  (W10_keep m ρ c (r := main_arg7) (by decide)).trans <|
  (W9_keep m ρ c (r := main_arg7) (by decide)).trans <|
  (W8_keep m ρ c (r := main_arg7) (by decide)).trans <|
  (W7_keep m ρ c (r := main_arg7) (by decide)).trans <|
  (W6_keep m ρ c (r := main_arg7) (by decide)).trans <|
  (W5_keep m ρ c (r := main_arg7) (by decide)).trans <|
  (W4_keep m ρ c (r := main_arg7) (by decide)).trans <|
  (W3_keep m ρ c (r := main_arg7) (by decide)).trans <|
  (W2_keep m ρ c (r := main_arg7) (by decide)).trans <|
  (W1_keep m ρ c (r := main_arg7) (by decide)).trans rfl

theorem W15_main_arg8 (c : Dev nD) : W15 m ρ c (Proc.devRef .tc main_arg8) = m ((c : Thread nD τ).loc main_arg8) :=
  (W15_keep m ρ c (r := main_arg8) (by decide)).trans <|
  (W14_keep m ρ c (r := main_arg8) (by decide)).trans <|
  (W13_keep m ρ c (r := main_arg8) (by decide)).trans <|
  (W12_keep m ρ c (r := main_arg8) (by decide)).trans <|
  (W11_keep m ρ c (r := main_arg8) (by decide)).trans <|
  (W10_keep m ρ c (r := main_arg8) (by decide)).trans <|
  (W9_keep m ρ c (r := main_arg8) (by decide)).trans <|
  (W8_keep m ρ c (r := main_arg8) (by decide)).trans <|
  (W7_keep m ρ c (r := main_arg8) (by decide)).trans <|
  (W6_keep m ρ c (r := main_arg8) (by decide)).trans <|
  (W5_keep m ρ c (r := main_arg8) (by decide)).trans <|
  (W4_keep m ρ c (r := main_arg8) (by decide)).trans <|
  (W3_keep m ρ c (r := main_arg8) (by decide)).trans <|
  (W2_keep m ρ c (r := main_arg8) (by decide)).trans <|
  (W1_keep m ρ c (r := main_arg8) (by decide)).trans rfl

theorem W15_main_arg9 (c : Dev nD) : W15 m ρ c (Proc.devRef .tc main_arg9) = m ((c : Thread nD τ).loc main_arg9) :=
  (W15_keep m ρ c (r := main_arg9) (by decide)).trans <|
  (W14_keep m ρ c (r := main_arg9) (by decide)).trans <|
  (W13_keep m ρ c (r := main_arg9) (by decide)).trans <|
  (W12_keep m ρ c (r := main_arg9) (by decide)).trans <|
  (W11_keep m ρ c (r := main_arg9) (by decide)).trans <|
  (W10_keep m ρ c (r := main_arg9) (by decide)).trans <|
  (W9_keep m ρ c (r := main_arg9) (by decide)).trans <|
  (W8_keep m ρ c (r := main_arg9) (by decide)).trans <|
  (W7_keep m ρ c (r := main_arg9) (by decide)).trans <|
  (W6_keep m ρ c (r := main_arg9) (by decide)).trans <|
  (W5_keep m ρ c (r := main_arg9) (by decide)).trans <|
  (W4_keep m ρ c (r := main_arg9) (by decide)).trans <|
  (W3_keep m ρ c (r := main_arg9) (by decide)).trans <|
  (W2_keep m ρ c (r := main_arg9) (by decide)).trans <|
  (W1_keep m ρ c (r := main_arg9) (by decide)).trans rfl

theorem W15_main_arg10 (c : Dev nD) : W15 m ρ c (Proc.devRef .tc main_arg10) = m ((c : Thread nD τ).loc main_arg10) :=
  (W15_keep m ρ c (r := main_arg10) (by decide)).trans <|
  (W14_keep m ρ c (r := main_arg10) (by decide)).trans <|
  (W13_keep m ρ c (r := main_arg10) (by decide)).trans <|
  (W12_keep m ρ c (r := main_arg10) (by decide)).trans <|
  (W11_keep m ρ c (r := main_arg10) (by decide)).trans <|
  (W10_keep m ρ c (r := main_arg10) (by decide)).trans <|
  (W9_keep m ρ c (r := main_arg10) (by decide)).trans <|
  (W8_keep m ρ c (r := main_arg10) (by decide)).trans <|
  (W7_keep m ρ c (r := main_arg10) (by decide)).trans <|
  (W6_keep m ρ c (r := main_arg10) (by decide)).trans <|
  (W5_keep m ρ c (r := main_arg10) (by decide)).trans <|
  (W4_keep m ρ c (r := main_arg10) (by decide)).trans <|
  (W3_keep m ρ c (r := main_arg10) (by decide)).trans <|
  (W2_keep m ρ c (r := main_arg10) (by decide)).trans <|
  (W1_keep m ρ c (r := main_arg10) (by decide)).trans rfl

theorem W15_main_arg11 (c : Dev nD) : W15 m ρ c (Proc.devRef .tc main_arg11) = m ((c : Thread nD τ).loc main_arg11) :=
  (W15_keep m ρ c (r := main_arg11) (by decide)).trans <|
  (W14_keep m ρ c (r := main_arg11) (by decide)).trans <|
  (W13_keep m ρ c (r := main_arg11) (by decide)).trans <|
  (W12_keep m ρ c (r := main_arg11) (by decide)).trans <|
  (W11_keep m ρ c (r := main_arg11) (by decide)).trans <|
  (W10_keep m ρ c (r := main_arg11) (by decide)).trans <|
  (W9_keep m ρ c (r := main_arg11) (by decide)).trans <|
  (W8_keep m ρ c (r := main_arg11) (by decide)).trans <|
  (W7_keep m ρ c (r := main_arg11) (by decide)).trans <|
  (W6_keep m ρ c (r := main_arg11) (by decide)).trans <|
  (W5_keep m ρ c (r := main_arg11) (by decide)).trans <|
  (W4_keep m ρ c (r := main_arg11) (by decide)).trans <|
  (W3_keep m ρ c (r := main_arg11) (by decide)).trans <|
  (W2_keep m ρ c (r := main_arg11) (by decide)).trans <|
  (W1_keep m ρ c (r := main_arg11) (by decide)).trans rfl

theorem W15_main_arg12 (c : Dev nD) : W15 m ρ c (Proc.devRef .tc main_arg12) = m ((c : Thread nD τ).loc main_arg12) :=
  (W15_keep m ρ c (r := main_arg12) (by decide)).trans <|
  (W14_keep m ρ c (r := main_arg12) (by decide)).trans <|
  (W13_keep m ρ c (r := main_arg12) (by decide)).trans <|
  (W12_keep m ρ c (r := main_arg12) (by decide)).trans <|
  (W11_keep m ρ c (r := main_arg12) (by decide)).trans <|
  (W10_keep m ρ c (r := main_arg12) (by decide)).trans <|
  (W9_keep m ρ c (r := main_arg12) (by decide)).trans <|
  (W8_keep m ρ c (r := main_arg12) (by decide)).trans <|
  (W7_keep m ρ c (r := main_arg12) (by decide)).trans <|
  (W6_keep m ρ c (r := main_arg12) (by decide)).trans <|
  (W5_keep m ρ c (r := main_arg12) (by decide)).trans <|
  (W4_keep m ρ c (r := main_arg12) (by decide)).trans <|
  (W3_keep m ρ c (r := main_arg12) (by decide)).trans <|
  (W2_keep m ρ c (r := main_arg12) (by decide)).trans <|
  (W1_keep m ρ c (r := main_arg12) (by decide)).trans rfl

theorem W15_main_arg13 (c : Dev nD) : W15 m ρ c (Proc.devRef .tc main_arg13) = m ((c : Thread nD τ).loc main_arg13) :=
  (W15_keep m ρ c (r := main_arg13) (by decide)).trans <|
  (W14_keep m ρ c (r := main_arg13) (by decide)).trans <|
  (W13_keep m ρ c (r := main_arg13) (by decide)).trans <|
  (W12_keep m ρ c (r := main_arg13) (by decide)).trans <|
  (W11_keep m ρ c (r := main_arg13) (by decide)).trans <|
  (W10_keep m ρ c (r := main_arg13) (by decide)).trans <|
  (W9_keep m ρ c (r := main_arg13) (by decide)).trans <|
  (W8_keep m ρ c (r := main_arg13) (by decide)).trans <|
  (W7_keep m ρ c (r := main_arg13) (by decide)).trans <|
  (W6_keep m ρ c (r := main_arg13) (by decide)).trans <|
  (W5_keep m ρ c (r := main_arg13) (by decide)).trans <|
  (W4_keep m ρ c (r := main_arg13) (by decide)).trans <|
  (W3_keep m ρ c (r := main_arg13) (by decide)).trans <|
  (W2_keep m ρ c (r := main_arg13) (by decide)).trans <|
  (W1_keep m ρ c (r := main_arg13) (by decide)).trans rfl

theorem W15_main_arg14 (c : Dev nD) : W15 m ρ c (Proc.devRef .tc main_arg14) = m ((c : Thread nD τ).loc main_arg14) :=
  (W15_keep m ρ c (r := main_arg14) (by decide)).trans <|
  (W14_keep m ρ c (r := main_arg14) (by decide)).trans <|
  (W13_keep m ρ c (r := main_arg14) (by decide)).trans <|
  (W12_keep m ρ c (r := main_arg14) (by decide)).trans <|
  (W11_keep m ρ c (r := main_arg14) (by decide)).trans <|
  (W10_keep m ρ c (r := main_arg14) (by decide)).trans <|
  (W9_keep m ρ c (r := main_arg14) (by decide)).trans <|
  (W8_keep m ρ c (r := main_arg14) (by decide)).trans <|
  (W7_keep m ρ c (r := main_arg14) (by decide)).trans <|
  (W6_keep m ρ c (r := main_arg14) (by decide)).trans <|
  (W5_keep m ρ c (r := main_arg14) (by decide)).trans <|
  (W4_keep m ρ c (r := main_arg14) (by decide)).trans <|
  (W3_keep m ρ c (r := main_arg14) (by decide)).trans <|
  (W2_keep m ρ c (r := main_arg14) (by decide)).trans <|
  (W1_keep m ρ c (r := main_arg14) (by decide)).trans rfl

theorem W15_main_arg15 (c : Dev nD) : W15 m ρ c (Proc.devRef .tc main_arg15) = m ((c : Thread nD τ).loc main_arg15) :=
  (W15_keep m ρ c (r := main_arg15) (by decide)).trans <|
  (W14_keep m ρ c (r := main_arg15) (by decide)).trans <|
  (W13_keep m ρ c (r := main_arg15) (by decide)).trans <|
  (W12_keep m ρ c (r := main_arg15) (by decide)).trans <|
  (W11_keep m ρ c (r := main_arg15) (by decide)).trans <|
  (W10_keep m ρ c (r := main_arg15) (by decide)).trans <|
  (W9_keep m ρ c (r := main_arg15) (by decide)).trans <|
  (W8_keep m ρ c (r := main_arg15) (by decide)).trans <|
  (W7_keep m ρ c (r := main_arg15) (by decide)).trans <|
  (W6_keep m ρ c (r := main_arg15) (by decide)).trans <|
  (W5_keep m ρ c (r := main_arg15) (by decide)).trans <|
  (W4_keep m ρ c (r := main_arg15) (by decide)).trans <|
  (W3_keep m ρ c (r := main_arg15) (by decide)).trans <|
  (W2_keep m ρ c (r := main_arg15) (by decide)).trans <|
  (W1_keep m ρ c (r := main_arg15) (by decide)).trans rfl

theorem W15_main_arg16 (c : Dev nD) : W15 m ρ c (Proc.devRef .tc main_arg16) = m ((c : Thread nD τ).loc main_arg16) :=
  (W15_keep m ρ c (r := main_arg16) (by decide)).trans <|
  (W14_keep m ρ c (r := main_arg16) (by decide)).trans <|
  (W13_keep m ρ c (r := main_arg16) (by decide)).trans <|
  (W12_keep m ρ c (r := main_arg16) (by decide)).trans <|
  (W11_keep m ρ c (r := main_arg16) (by decide)).trans <|
  (W10_keep m ρ c (r := main_arg16) (by decide)).trans <|
  (W9_keep m ρ c (r := main_arg16) (by decide)).trans <|
  (W8_keep m ρ c (r := main_arg16) (by decide)).trans <|
  (W7_keep m ρ c (r := main_arg16) (by decide)).trans <|
  (W6_keep m ρ c (r := main_arg16) (by decide)).trans <|
  (W5_keep m ρ c (r := main_arg16) (by decide)).trans <|
  (W4_keep m ρ c (r := main_arg16) (by decide)).trans <|
  (W3_keep m ρ c (r := main_arg16) (by decide)).trans <|
  (W2_keep m ρ c (r := main_arg16) (by decide)).trans <|
  (W1_keep m ρ c (r := main_arg16) (by decide)).trans rfl

theorem W15_main_arg17 (c : Dev nD) : W15 m ρ c (Proc.devRef .tc main_arg17) = m ((c : Thread nD τ).loc main_arg17) :=
  (W15_keep m ρ c (r := main_arg17) (by decide)).trans <|
  (W14_keep m ρ c (r := main_arg17) (by decide)).trans <|
  (W13_keep m ρ c (r := main_arg17) (by decide)).trans <|
  (W12_keep m ρ c (r := main_arg17) (by decide)).trans <|
  (W11_keep m ρ c (r := main_arg17) (by decide)).trans <|
  (W10_keep m ρ c (r := main_arg17) (by decide)).trans <|
  (W9_keep m ρ c (r := main_arg17) (by decide)).trans <|
  (W8_keep m ρ c (r := main_arg17) (by decide)).trans <|
  (W7_keep m ρ c (r := main_arg17) (by decide)).trans <|
  (W6_keep m ρ c (r := main_arg17) (by decide)).trans <|
  (W5_keep m ρ c (r := main_arg17) (by decide)).trans <|
  (W4_keep m ρ c (r := main_arg17) (by decide)).trans <|
  (W3_keep m ρ c (r := main_arg17) (by decide)).trans <|
  (W2_keep m ρ c (r := main_arg17) (by decide)).trans <|
  (W1_keep m ρ c (r := main_arg17) (by decide)).trans rfl

theorem W15_main_arg18 (c : Dev nD) : W15 m ρ c (Proc.devRef .tc main_arg18) = m ((c : Thread nD τ).loc main_arg18) :=
  (W15_keep m ρ c (r := main_arg18) (by decide)).trans <|
  (W14_keep m ρ c (r := main_arg18) (by decide)).trans <|
  (W13_keep m ρ c (r := main_arg18) (by decide)).trans <|
  (W12_keep m ρ c (r := main_arg18) (by decide)).trans <|
  (W11_keep m ρ c (r := main_arg18) (by decide)).trans <|
  (W10_keep m ρ c (r := main_arg18) (by decide)).trans <|
  (W9_keep m ρ c (r := main_arg18) (by decide)).trans <|
  (W8_keep m ρ c (r := main_arg18) (by decide)).trans <|
  (W7_keep m ρ c (r := main_arg18) (by decide)).trans <|
  (W6_keep m ρ c (r := main_arg18) (by decide)).trans <|
  (W5_keep m ρ c (r := main_arg18) (by decide)).trans <|
  (W4_keep m ρ c (r := main_arg18) (by decide)).trans <|
  (W3_keep m ρ c (r := main_arg18) (by decide)).trans <|
  (W2_keep m ρ c (r := main_arg18) (by decide)).trans <|
  (W1_keep m ρ c (r := main_arg18) (by decide)).trans rfl

theorem W15_main_arg19 (c : Dev nD) : W15 m ρ c (Proc.devRef .tc main_arg19) = m ((c : Thread nD τ).loc main_arg19) :=
  (W15_keep m ρ c (r := main_arg19) (by decide)).trans <|
  (W14_keep m ρ c (r := main_arg19) (by decide)).trans <|
  (W13_keep m ρ c (r := main_arg19) (by decide)).trans <|
  (W12_keep m ρ c (r := main_arg19) (by decide)).trans <|
  (W11_keep m ρ c (r := main_arg19) (by decide)).trans <|
  (W10_keep m ρ c (r := main_arg19) (by decide)).trans <|
  (W9_keep m ρ c (r := main_arg19) (by decide)).trans <|
  (W8_keep m ρ c (r := main_arg19) (by decide)).trans <|
  (W7_keep m ρ c (r := main_arg19) (by decide)).trans <|
  (W6_keep m ρ c (r := main_arg19) (by decide)).trans <|
  (W5_keep m ρ c (r := main_arg19) (by decide)).trans <|
  (W4_keep m ρ c (r := main_arg19) (by decide)).trans <|
  (W3_keep m ρ c (r := main_arg19) (by decide)).trans <|
  (W2_keep m ρ c (r := main_arg19) (by decide)).trans <|
  (W1_keep m ρ c (r := main_arg19) (by decide)).trans rfl

theorem W15_main_arg20 (c : Dev nD) : W15 m ρ c (Proc.devRef .tc main_arg20) = m ((c : Thread nD τ).loc main_arg20) :=
  (W15_keep m ρ c (r := main_arg20) (by decide)).trans <|
  (W14_keep m ρ c (r := main_arg20) (by decide)).trans <|
  (W13_keep m ρ c (r := main_arg20) (by decide)).trans <|
  (W12_keep m ρ c (r := main_arg20) (by decide)).trans <|
  (W11_keep m ρ c (r := main_arg20) (by decide)).trans <|
  (W10_keep m ρ c (r := main_arg20) (by decide)).trans <|
  (W9_keep m ρ c (r := main_arg20) (by decide)).trans <|
  (W8_keep m ρ c (r := main_arg20) (by decide)).trans <|
  (W7_keep m ρ c (r := main_arg20) (by decide)).trans <|
  (W6_keep m ρ c (r := main_arg20) (by decide)).trans <|
  (W5_keep m ρ c (r := main_arg20) (by decide)).trans <|
  (W4_keep m ρ c (r := main_arg20) (by decide)).trans <|
  (W3_keep m ρ c (r := main_arg20) (by decide)).trans <|
  (W2_keep m ρ c (r := main_arg20) (by decide)).trans <|
  (W1_keep m ρ c (r := main_arg20) (by decide)).trans rfl

theorem W15_main_arg21 (c : Dev nD) : W15 m ρ c (Proc.devRef .tc main_arg21) = m ((c : Thread nD τ).loc main_arg21) :=
  (W15_keep m ρ c (r := main_arg21) (by decide)).trans <|
  (W14_keep m ρ c (r := main_arg21) (by decide)).trans <|
  (W13_keep m ρ c (r := main_arg21) (by decide)).trans <|
  (W12_keep m ρ c (r := main_arg21) (by decide)).trans <|
  (W11_keep m ρ c (r := main_arg21) (by decide)).trans <|
  (W10_keep m ρ c (r := main_arg21) (by decide)).trans <|
  (W9_keep m ρ c (r := main_arg21) (by decide)).trans <|
  (W8_keep m ρ c (r := main_arg21) (by decide)).trans <|
  (W7_keep m ρ c (r := main_arg21) (by decide)).trans <|
  (W6_keep m ρ c (r := main_arg21) (by decide)).trans <|
  (W5_keep m ρ c (r := main_arg21) (by decide)).trans <|
  (W4_keep m ρ c (r := main_arg21) (by decide)).trans <|
  (W3_keep m ρ c (r := main_arg21) (by decide)).trans <|
  (W2_keep m ρ c (r := main_arg21) (by decide)).trans <|
  (W1_keep m ρ c (r := main_arg21) (by decide)).trans rfl

theorem W15_main_arg22 (c : Dev nD) : W15 m ρ c (Proc.devRef .tc main_arg22) = m ((c : Thread nD τ).loc main_arg22) :=
  (W15_keep m ρ c (r := main_arg22) (by decide)).trans <|
  (W14_keep m ρ c (r := main_arg22) (by decide)).trans <|
  (W13_keep m ρ c (r := main_arg22) (by decide)).trans <|
  (W12_keep m ρ c (r := main_arg22) (by decide)).trans <|
  (W11_keep m ρ c (r := main_arg22) (by decide)).trans <|
  (W10_keep m ρ c (r := main_arg22) (by decide)).trans <|
  (W9_keep m ρ c (r := main_arg22) (by decide)).trans <|
  (W8_keep m ρ c (r := main_arg22) (by decide)).trans <|
  (W7_keep m ρ c (r := main_arg22) (by decide)).trans <|
  (W6_keep m ρ c (r := main_arg22) (by decide)).trans <|
  (W5_keep m ρ c (r := main_arg22) (by decide)).trans <|
  (W4_keep m ρ c (r := main_arg22) (by decide)).trans <|
  (W3_keep m ρ c (r := main_arg22) (by decide)).trans <|
  (W2_keep m ρ c (r := main_arg22) (by decide)).trans <|
  (W1_keep m ρ c (r := main_arg22) (by decide)).trans rfl

theorem W15_main_arg23 (c : Dev nD) : W15 m ρ c (Proc.devRef .tc main_arg23) = m ((c : Thread nD τ).loc main_arg23) :=
  (W15_keep m ρ c (r := main_arg23) (by decide)).trans <|
  (W14_keep m ρ c (r := main_arg23) (by decide)).trans <|
  (W13_keep m ρ c (r := main_arg23) (by decide)).trans <|
  (W12_keep m ρ c (r := main_arg23) (by decide)).trans <|
  (W11_keep m ρ c (r := main_arg23) (by decide)).trans <|
  (W10_keep m ρ c (r := main_arg23) (by decide)).trans <|
  (W9_keep m ρ c (r := main_arg23) (by decide)).trans <|
  (W8_keep m ρ c (r := main_arg23) (by decide)).trans <|
  (W7_keep m ρ c (r := main_arg23) (by decide)).trans <|
  (W6_keep m ρ c (r := main_arg23) (by decide)).trans <|
  (W5_keep m ρ c (r := main_arg23) (by decide)).trans <|
  (W4_keep m ρ c (r := main_arg23) (by decide)).trans <|
  (W3_keep m ρ c (r := main_arg23) (by decide)).trans <|
  (W2_keep m ρ c (r := main_arg23) (by decide)).trans <|
  (W1_keep m ρ c (r := main_arg23) (by decide)).trans rfl

theorem W15_main_arg24 (c : Dev nD) : W15 m ρ c (Proc.devRef .tc main_arg24) = m ((c : Thread nD τ).loc main_arg24) :=
  (W15_keep m ρ c (r := main_arg24) (by decide)).trans <|
  (W14_keep m ρ c (r := main_arg24) (by decide)).trans <|
  (W13_keep m ρ c (r := main_arg24) (by decide)).trans <|
  (W12_keep m ρ c (r := main_arg24) (by decide)).trans <|
  (W11_keep m ρ c (r := main_arg24) (by decide)).trans <|
  (W10_keep m ρ c (r := main_arg24) (by decide)).trans <|
  (W9_keep m ρ c (r := main_arg24) (by decide)).trans <|
  (W8_keep m ρ c (r := main_arg24) (by decide)).trans <|
  (W7_keep m ρ c (r := main_arg24) (by decide)).trans <|
  (W6_keep m ρ c (r := main_arg24) (by decide)).trans <|
  (W5_keep m ρ c (r := main_arg24) (by decide)).trans <|
  (W4_keep m ρ c (r := main_arg24) (by decide)).trans <|
  (W3_keep m ρ c (r := main_arg24) (by decide)).trans <|
  (W2_keep m ρ c (r := main_arg24) (by decide)).trans <|
  (W1_keep m ρ c (r := main_arg24) (by decide)).trans rfl

/-- The frame claim at any float interpretation: from any memory with zero counters, every weakly fair execution of the
    main function on the TensorCores terminates, nothing faulting, and every final state has the argument arrays as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c =>
    ⟨(h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c),
     (h c _ (mem_uc main_arg5 (by decide))).trans (W15_main_arg5 m ρ c),
     (h c _ (mem_uc main_arg6 (by decide))).trans (W15_main_arg6 m ρ c),
     (h c _ (mem_uc main_arg7 (by decide))).trans (W15_main_arg7 m ρ c),
     (h c _ (mem_uc main_arg8 (by decide))).trans (W15_main_arg8 m ρ c),
     (h c _ (mem_uc main_arg9 (by decide))).trans (W15_main_arg9 m ρ c),
     (h c _ (mem_uc main_arg10 (by decide))).trans (W15_main_arg10 m ρ c),
     (h c _ (mem_uc main_arg11 (by decide))).trans (W15_main_arg11 m ρ c),
     (h c _ (mem_uc main_arg12 (by decide))).trans (W15_main_arg12 m ρ c),
     (h c _ (mem_uc main_arg13 (by decide))).trans (W15_main_arg13 m ρ c),
     (h c _ (mem_uc main_arg14 (by decide))).trans (W15_main_arg14 m ρ c),
     (h c _ (mem_uc main_arg15 (by decide))).trans (W15_main_arg15 m ρ c),
     (h c _ (mem_uc main_arg16 (by decide))).trans (W15_main_arg16 m ρ c),
     (h c _ (mem_uc main_arg17 (by decide))).trans (W15_main_arg17 m ρ c),
     (h c _ (mem_uc main_arg18 (by decide))).trans (W15_main_arg18 m ρ c),
     (h c _ (mem_uc main_arg19 (by decide))).trans (W15_main_arg19 m ρ c),
     (h c _ (mem_uc main_arg20 (by decide))).trans (W15_main_arg20 m ρ c),
     (h c _ (mem_uc main_arg21 (by decide))).trans (W15_main_arg21 m ρ c),
     (h c _ (mem_uc main_arg22 (by decide))).trans (W15_main_arg22 m ρ c),
     (h c _ (mem_uc main_arg23 (by decide))).trans (W15_main_arg23 m ρ c),
     (h c _ (mem_uc main_arg24 (by decide))).trans (W15_main_arg24 m ρ c)⟩) (run_all m ρ)

end Cert.Kernel.Frame

end
-- ==== Proof.KI.Reg0.lean ====
/- Dense layer 0 of the network, one row block per grid point: the body reads a row block `A` of the
   activations, the whole weight matrix `B` and the bias row `b`, and overwrites its output block with
   `A·B + b`. Everything is stated at arbitrary contents `V` of the core's buffers when the layer is
   entered: each window's block at a grid point as a read of `V`; that an input's staging buffer holds its block at
   every grid point whether or not it was fetched there (the weight matrix and the bias are fetched once and their
   block index never moves); the output staging buffer after the body, as the single store's piece over the payload
   of the three loaded blocks; the body's triple (the output buffer, held at arbitrary contents, is read and then
   wholly overwritten, the value read being unused); the proof data of the layer's pipeline and its body obligation
   at every grid point. -/
import proofs.«115122_j13357348290767_2_alg».proof.Proof.Gen.KernelIdeal.Launch
import proofs.«115122_j13357348290767_2_alg».proof.Proof.Gen.KernelIdeal.Skeleton
import proofs.«115122_j13357348290767_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the layer is entered
variable (V : (c : Dev nD) → (b : Ref sig .tc) → Buf (Elt F) ((c : Thread nD τ).loc b))

/-! ## The windows' blocks -/

/-- Window `w`'s block at grid point `t`, read off its array as the layer finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every grid point, fetched there or not, for any proof
    data whose array is `V`'s (`hA`) and whose body leaves the block in place (`hafter`): where the window is not
    fetched its block index has not moved, so the block of the point before is the block of this point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every grid point, fetched there or not, for any proof
    data whose array is `V`'s (`hA`) and whose body leaves the block in place (`hafter`): where the window is not
    fetched its block index has not moved, so the block of the point before is the block of this point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every grid point, fetched there or not, for any proof
    data whose array is `V`'s (`hA`) and whose body leaves the block in place (`hafter`): where the window is not
    fetched its block index has not moved, so the block of the point before is the block of this point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is its whole block -/

abbrev r0_0 : Rect S400x2000 := Rect.unit (s := S400x2000) ![0, 0] S400x2000.size inb_S400x2000_S400x2000_0_0
abbrev r0_1 : Rect S2000x1024 := Rect.unit (s := S2000x1024) ![0, 0] S2000x1024.size inb_S2000x1024_S2000x1024_0_0
abbrev r0_2 : Rect S1x1024 := Rect.unit (s := S1x1024) ![0, 0] S1x1024.size inb_S1x1024_S1x1024_0_0
abbrev r0_3 : Rect S400x1024 := Rect.unit (s := S400x1024) ![0, 0] S400x1024.size inb_S400x1024_S400x1024_0_0

/-! ## What the body leaves in the output window's buffer -/

/-- The output staging buffer after the body, from the three input blocks: its one store as a piece over the
    payload of the loaded blocks. -/
def out0_3 (x0 : Vec F S400x2000 .bf16) (x1 : Vec F S2000x1024 .bf16) (x2 : Vec F S1x1024 .f32) : Vec F S400x1024 .f32 :=
  View.canon [⟨r0_3, k0_pay1 (View.ld x0 r0_0) (View.ld x1 r0_1) (View.ld x2 r0_2)⟩]

/-- The one store is the whole buffer, so it covers it. -/
theorem cover0_3 (p0 : Vec F S400x1024 .f32) (y : S400x1024.Idx) :
    ∃ pc ∈ ([⟨r0_3, p0⟩] : List (View.Piece (Elt F) S400x1024 .f32)), y ∈ pc.1.set :=
  View.cover_of_tiled [⟨r0_3, p0⟩] S400x1024.size (by rfl) y

/-! ## The body's triple -/

set_option maxHeartbeats 1000000 in
/-- The body on whole staging memrefs, the three inputs' at contents `x0 x1 x2` and the output's at anything, runs to
    the continuation holding the inputs' as they were and the output's at `out0_3 x0 x1 x2`: the body's read of the
    output buffer is of whatever it holds, and the store then overwrites all of it. -/
theorem sound_kernel0 (c : Dev nD) (E : Set ℕ) (i : grid0.Coords) (arg1 : Memref sig .tc .vmem S400x2000 .bf16) (harg1 : arg1.IsWhole) (arg2 : Memref sig .tc .vmem S2000x1024 .bf16) (harg2 : arg2.IsWhole) (arg3 : Memref sig .tc .vmem S1x1024 .f32) (harg3 : arg3.IsWhole) (arg4 : Memref sig .tc .vmem S400x1024 .f32) (harg4 : arg4.IsWhole)
    (x0 : Vec F S400x2000 .bf16) (x1 : Vec F S2000x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of layer 0's pipeline on core `c`: the arrays as the layer finds them (`V`); after the body at
    grid point `t` each input's buffer at its block and the output's at `out0_3` of the input blocks; the invariant
    leaves the scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the layer-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every grid point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic grid point -/

/-- What the body is called with at grid point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any grid point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KI.Reg1.lean ====
/- Dense layer 1 of the network, one row block per grid point: the body reads a row block `A` of the
   activations, the whole weight matrix `B` and the bias row `b`, and overwrites its output block with
   `A·B + b`. Everything is stated at arbitrary contents `V` of the core's buffers when the layer is
   entered: each window's block at a grid point as a read of `V`; that an input's staging buffer holds its block at
   every grid point whether or not it was fetched there (the weight matrix and the bias are fetched once and their
   block index never moves); the output staging buffer after the body, as the single store's piece over the payload
   of the three loaded blocks; the body's triple (the output buffer, held at arbitrary contents, is read and then
   wholly overwritten, the value read being unused); the proof data of the layer's pipeline and its body obligation
   at every grid point. -/
import proofs.«115122_j13357348290767_2_alg».proof.Proof.Gen.KernelIdeal.Launch
import proofs.«115122_j13357348290767_2_alg».proof.Proof.Gen.KernelIdeal.Skeleton
import proofs.«115122_j13357348290767_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the layer is entered
variable (V : (c : Dev nD) → (b : Ref sig .tc) → Buf (Elt F) ((c : Thread nD τ).loc b))

/-! ## The windows' blocks -/

/-- Window `w`'s block at grid point `t`, read off its array as the layer finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every grid point, fetched there or not, for any proof
    data whose array is `V`'s (`hA`) and whose body leaves the block in place (`hafter`): where the window is not
    fetched its block index has not moved, so the block of the point before is the block of this point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every grid point, fetched there or not, for any proof
    data whose array is `V`'s (`hA`) and whose body leaves the block in place (`hafter`): where the window is not
    fetched its block index has not moved, so the block of the point before is the block of this point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every grid point, fetched there or not, for any proof
    data whose array is `V`'s (`hA`) and whose body leaves the block in place (`hafter`): where the window is not
    fetched its block index has not moved, so the block of the point before is the block of this point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is its whole block -/

abbrev r1_0 : Rect S2000x128 := Rect.unit (s := S2000x128) ![0, 0] S2000x128.size inb_S2000x128_S2000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0
abbrev r1_3 : Rect S2000x128 := Rect.unit (s := S2000x128) ![0, 0] S2000x128.size inb_S2000x128_S2000x128_0_0

/-! ## What the body leaves in the output window's buffer -/

/-- The output staging buffer after the body, from the three input blocks: its one store as a piece over the
    payload of the loaded blocks. -/
def out1_3 (x0 : Vec F S2000x128 .bf16) (x1 : Vec F S128x128 .bf16) (x2 : Vec F S1x128 .f32) : Vec F S2000x128 .f32 :=
  View.canon [⟨r1_3, k1_pay1 (View.ld x0 r1_0) (View.ld x1 r1_1) (View.ld x2 r1_2)⟩]

/-- The one store is the whole buffer, so it covers it. -/
theorem cover1_3 (p0 : Vec F S2000x128 .f32) (y : S2000x128.Idx) :
    ∃ pc ∈ ([⟨r1_3, p0⟩] : List (View.Piece (Elt F) S2000x128 .f32)), y ∈ pc.1.set :=
  View.cover_of_tiled [⟨r1_3, p0⟩] S2000x128.size (by rfl) y

/-! ## The body's triple -/

set_option maxHeartbeats 1000000 in
/-- The body on whole staging memrefs, the three inputs' at contents `x0 x1 x2` and the output's at anything, runs to
    the continuation holding the inputs' as they were and the output's at `out1_3 x0 x1 x2`: the body's read of the
    output buffer is of whatever it holds, and the store then overwrites all of it. -/
theorem sound_kernel1 (c : Dev nD) (E : Set ℕ) (i : grid1.Coords) (arg1 : Memref sig .tc .vmem S2000x128 .bf16) (harg1 : arg1.IsWhole) (arg2 : Memref sig .tc .vmem S128x128 .bf16) (harg2 : arg2.IsWhole) (arg3 : Memref sig .tc .vmem S1x128 .f32) (harg3 : arg3.IsWhole) (arg4 : Memref sig .tc .vmem S2000x128 .f32) (harg4 : arg4.IsWhole)
    (x0 : Vec F S2000x128 .bf16) (x1 : Vec F S128x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of layer 1's pipeline on core `c`: the arrays as the layer finds them (`V`); after the body at
    grid point `t` each input's buffer at its block and the output's at `out1_3` of the input blocks; the invariant
    leaves the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the layer-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every grid point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic grid point -/

/-- What the body is called with at grid point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any grid point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KI.Reg2.lean ====
/- Dense layer 2 of the network, one row block per grid point: the body reads a row block `A` of the
   activations, the whole weight matrix `B` and the bias row `b`, and overwrites its output block with
   `A·B + b`. Everything is stated at arbitrary contents `V` of the core's buffers when the layer is
   entered: each window's block at a grid point as a read of `V`; that an input's staging buffer holds its block at
   every grid point whether or not it was fetched there (the weight matrix and the bias are fetched once and their
   block index never moves); the output staging buffer after the body, as the single store's piece over the payload
   of the three loaded blocks; the body's triple (the output buffer, held at arbitrary contents, is read and then
   wholly overwritten, the value read being unused); the proof data of the layer's pipeline and its body obligation
   at every grid point. -/
import proofs.«115122_j13357348290767_2_alg».proof.Proof.Gen.KernelIdeal.Launch
import proofs.«115122_j13357348290767_2_alg».proof.Proof.Gen.KernelIdeal.Skeleton
import proofs.«115122_j13357348290767_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the layer is entered
variable (V : (c : Dev nD) → (b : Ref sig .tc) → Buf (Elt F) ((c : Thread nD τ).loc b))

/-! ## The windows' blocks -/

/-- Window `w`'s block at grid point `t`, read off its array as the layer finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every grid point, fetched there or not, for any proof
    data whose array is `V`'s (`hA`) and whose body leaves the block in place (`hafter`): where the window is not
    fetched its block index has not moved, so the block of the point before is the block of this point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every grid point, fetched there or not, for any proof
    data whose array is `V`'s (`hA`) and whose body leaves the block in place (`hafter`): where the window is not
    fetched its block index has not moved, so the block of the point before is the block of this point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every grid point, fetched there or not, for any proof
    data whose array is `V`'s (`hA`) and whose body leaves the block in place (`hafter`): where the window is not
    fetched its block index has not moved, so the block of the point before is the block of this point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is its whole block -/

abbrev r2_0 : Rect S2000x128 := Rect.unit (s := S2000x128) ![0, 0] S2000x128.size inb_S2000x128_S2000x128_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0
abbrev r2_3 : Rect S2000x128 := Rect.unit (s := S2000x128) ![0, 0] S2000x128.size inb_S2000x128_S2000x128_0_0

/-! ## What the body leaves in the output window's buffer -/

/-- The output staging buffer after the body, from the three input blocks: its one store as a piece over the
    payload of the loaded blocks. -/
def out2_3 (x0 : Vec F S2000x128 .bf16) (x1 : Vec F S128x128 .bf16) (x2 : Vec F S1x128 .f32) : Vec F S2000x128 .f32 :=
  View.canon [⟨r2_3, k2_pay1 (View.ld x0 r2_0) (View.ld x1 r2_1) (View.ld x2 r2_2)⟩]

/-- The one store is the whole buffer, so it covers it. -/
theorem cover2_3 (p0 : Vec F S2000x128 .f32) (y : S2000x128.Idx) :
    ∃ pc ∈ ([⟨r2_3, p0⟩] : List (View.Piece (Elt F) S2000x128 .f32)), y ∈ pc.1.set :=
  View.cover_of_tiled [⟨r2_3, p0⟩] S2000x128.size (by rfl) y

/-! ## The body's triple -/

set_option maxHeartbeats 1000000 in
/-- The body on whole staging memrefs, the three inputs' at contents `x0 x1 x2` and the output's at anything, runs to
    the continuation holding the inputs' as they were and the output's at `out2_3 x0 x1 x2`: the body's read of the
    output buffer is of whatever it holds, and the store then overwrites all of it. -/
theorem sound_kernel2 (c : Dev nD) (E : Set ℕ) (i : grid2.Coords) (arg1 : Memref sig .tc .vmem S2000x128 .bf16) (harg1 : arg1.IsWhole) (arg2 : Memref sig .tc .vmem S128x128 .bf16) (harg2 : arg2.IsWhole) (arg3 : Memref sig .tc .vmem S1x128 .f32) (harg3 : arg3.IsWhole) (arg4 : Memref sig .tc .vmem S2000x128 .f32) (harg4 : arg4.IsWhole)
    (x0 : Vec F S2000x128 .bf16) (x1 : Vec F S128x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of layer 2's pipeline on core `c`: the arrays as the layer finds them (`V`); after the body at
    grid point `t` each input's buffer at its block and the output's at `out2_3` of the input blocks; the invariant
    leaves the scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the layer-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every grid point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic grid point -/

/-- What the body is called with at grid point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any grid point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.KI.Reg3.lean ====
/- Dense layer 3 of the network, one row block per grid point: the body reads a row block `A` of the
   activations, the whole weight matrix `B` and the bias row `b`, and overwrites its output block with
   `A·B + b`. Everything is stated at arbitrary contents `V` of the core's buffers when the layer is
   entered: each window's block at a grid point as a read of `V`; that an input's staging buffer holds its block at
   every grid point whether or not it was fetched there (the weight matrix and the bias are fetched once and their
   block index never moves); the output staging buffer after the body, as the single store's piece over the payload
   of the three loaded blocks; the body's triple (the output buffer, held at arbitrary contents, is read and then
   wholly overwritten, the value read being unused); the proof data of the layer's pipeline and its body obligation
   at every grid point. -/
import proofs.«115122_j13357348290767_2_alg».proof.Proof.Gen.KernelIdeal.Launch
import proofs.«115122_j13357348290767_2_alg».proof.Proof.Gen.KernelIdeal.Skeleton
import proofs.«115122_j13357348290767_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the layer is entered
variable (V : (c : Dev nD) → (b : Ref sig .tc) → Buf (Elt F) ((c : Thread nD τ).loc b))

/-! ## The windows' blocks -/

/-- Window `w`'s block at grid point `t`, read off its array as the layer finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every grid point, fetched there or not, for any proof
    data whose array is `V`'s (`hA`) and whose body leaves the block in place (`hafter`): where the window is not
    fetched its block index has not moved, so the block of the point before is the block of this point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every grid point, fetched there or not, for any proof
    data whose array is `V`'s (`hA`) and whose body leaves the block in place (`hafter`): where the window is not
    fetched its block index has not moved, so the block of the point before is the block of this point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every grid point, fetched there or not, for any proof
    data whose array is `V`'s (`hA`) and whose body leaves the block in place (`hafter`): where the window is not
    fetched its block index has not moved, so the block of the point before is the block of this point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is its whole block -/

abbrev r3_0 : Rect S400x1024 := Rect.unit (s := S400x1024) ![0, 0] S400x1024.size inb_S400x1024_S400x1024_0_0
abbrev r3_1 : Rect S1024x512 := Rect.unit (s := S1024x512) ![0, 0] S1024x512.size inb_S1024x512_S1024x512_0_0
abbrev r3_2 : Rect S1x512 := Rect.unit (s := S1x512) ![0, 0] S1x512.size inb_S1x512_S1x512_0_0
abbrev r3_3 : Rect S400x512 := Rect.unit (s := S400x512) ![0, 0] S400x512.size inb_S400x512_S400x512_0_0

/-! ## What the body leaves in the output window's buffer -/

/-- The output staging buffer after the body, from the three input blocks: its one store as a piece over the
    payload of the loaded blocks. -/
def out3_3 (x0 : Vec F S400x1024 .bf16) (x1 : Vec F S1024x512 .bf16) (x2 : Vec F S1x512 .f32) : Vec F S400x512 .f32 :=
  View.canon [⟨r3_3, k3_pay1 (View.ld x0 r3_0) (View.ld x1 r3_1) (View.ld x2 r3_2)⟩]

/-- The one store is the whole buffer, so it covers it. -/
theorem cover3_3 (p0 : Vec F S400x512 .f32) (y : S400x512.Idx) :
    ∃ pc ∈ ([⟨r3_3, p0⟩] : List (View.Piece (Elt F) S400x512 .f32)), y ∈ pc.1.set :=
  View.cover_of_tiled [⟨r3_3, p0⟩] S400x512.size (by rfl) y

/-! ## The body's triple -/

set_option maxHeartbeats 1000000 in
/-- The body on whole staging memrefs, the three inputs' at contents `x0 x1 x2` and the output's at anything, runs to
    the continuation holding the inputs' as they were and the output's at `out3_3 x0 x1 x2`: the body's read of the
    output buffer is of whatever it holds, and the store then overwrites all of it. -/
theorem sound_kernel3 (c : Dev nD) (E : Set ℕ) (i : grid3.Coords) (arg1 : Memref sig .tc .vmem S400x1024 .bf16) (harg1 : arg1.IsWhole) (arg2 : Memref sig .tc .vmem S1024x512 .bf16) (harg2 : arg2.IsWhole) (arg3 : Memref sig .tc .vmem S1x512 .f32) (harg3 : arg3.IsWhole) (arg4 : Memref sig .tc .vmem S400x512 .f32) (harg4 : arg4.IsWhole)
    (x0 : Vec F S400x1024 .bf16) (x1 : Vec F S1024x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__linear_kernel i arg1 harg1 arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of layer 3's pipeline on core `c`: the arrays as the layer finds them (`V`); after the body at
    grid point `t` each input's buffer at its block and the output's at `out3_3` of the input blocks; the invariant
    leaves the scoped rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the layer-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every grid point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic grid point -/

/-- What the body is called with at grid point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any grid point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every grid point. -/
theorem body_obligation3 (c : Dev nD) : BodyObligation (dat3 (F := F) V c) (defs₀ (F := F)) Variants.none () Set.univ := fun t => by
  rw [bigSep_W3, bigSep_W3]
  exact sound_body3 V c t

end Cert.KernelIdeal.Frame

end
-- ==== Proof.KI.Reg4.lean ====
/- Dense layer 4 of the network, one row block per grid point: the body reads a row block `A` of the
   activations, the whole weight matrix `B` and the bias row `b`, and overwrites its output block with
   `max(A·B + b, 0)` scaled by a constant. Everything is stated at arbitrary contents `V` of the core's buffers when the layer is
   entered: each window's block at a grid point as a read of `V`; that an input's staging buffer holds its block at
   every grid point whether or not it was fetched there (the weight matrix and the bias are fetched once and their
   block index never moves); the output staging buffer after the body, as the single store's piece over the payload
   of the three loaded blocks; the body's triple (the output buffer, held at arbitrary contents, is read and then
   wholly overwritten, the value read being unused); the proof data of the layer's pipeline and its body obligation
   at every grid point. -/
import proofs.«115122_j13357348290767_2_alg».proof.Proof.Gen.KernelIdeal.Launch
import proofs.«115122_j13357348290767_2_alg».proof.Proof.Gen.KernelIdeal.Skeleton
import proofs.«115122_j13357348290767_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the layer is entered
variable (V : (c : Dev nD) → (b : Ref sig .tc) → Buf (Elt F) ((c : Thread nD τ).loc b))

/-! ## The windows' blocks -/

/-- Window `w`'s block at grid point `t`, read off its array as the layer finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every grid point, fetched there or not, for any proof
    data whose array is `V`'s (`hA`) and whose body leaves the block in place (`hafter`): where the window is not
    fetched its block index has not moved, so the block of the point before is the block of this point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every grid point, fetched there or not, for any proof
    data whose array is `V`'s (`hA`) and whose body leaves the block in place (`hafter`): where the window is not
    fetched its block index has not moved, so the block of the point before is the block of this point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every grid point, fetched there or not, for any proof
    data whose array is `V`'s (`hA`) and whose body leaves the block in place (`hafter`): where the window is not
    fetched its block index has not moved, so the block of the point before is the block of this point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is its whole block -/

abbrev r4_0 : Rect S400x64 := Rect.unit (s := S400x64) ![0, 0] S400x64.size inb_S400x64_S400x64_0_0
abbrev r4_1 : Rect S64x256 := Rect.unit (s := S64x256) ![0, 0] S64x256.size inb_S64x256_S64x256_0_0
abbrev r4_2 : Rect S1x256 := Rect.unit (s := S1x256) ![0, 0] S1x256.size inb_S1x256_S1x256_0_0
abbrev r4_3 : Rect S400x256 := Rect.unit (s := S400x256) ![0, 0] S400x256.size inb_S400x256_S400x256_0_0

/-! ## What the body leaves in the output window's buffer -/

/-- The output staging buffer after the body, from the three input blocks: its one store as a piece over the
    payload of the loaded blocks. -/
def out4_3 (x0 : Vec F S400x64 .bf16) (x1 : Vec F S64x256 .bf16) (x2 : Vec F S1x256 .f32) : Vec F S400x256 .f32 :=
  View.canon [⟨r4_3, k4_pay1 (View.ld x0 r4_0) (View.ld x1 r4_1) (View.ld x2 r4_2)⟩]

/-- The one store is the whole buffer, so it covers it. -/
theorem cover4_3 (p0 : Vec F S400x256 .f32) (y : S400x256.Idx) :
    ∃ pc ∈ ([⟨r4_3, p0⟩] : List (View.Piece (Elt F) S400x256 .f32)), y ∈ pc.1.set :=
  View.cover_of_tiled [⟨r4_3, p0⟩] S400x256.size (by rfl) y

/-! ## The body's triple -/

set_option maxHeartbeats 1000000 in
/-- The body on whole staging memrefs, the three inputs' at contents `x0 x1 x2` and the output's at anything, runs to
    the continuation holding the inputs' as they were and the output's at `out4_3 x0 x1 x2`: the body's read of the
    output buffer is of whatever it holds, and the store then overwrites all of it. -/
theorem sound_kernel4 (c : Dev nD) (E : Set ℕ) (i : grid4.Coords) (arg1 : Memref sig .tc .vmem S400x64 .bf16) (harg1 : arg1.IsWhole) (arg2 : Memref sig .tc .vmem S64x256 .bf16) (harg2 : arg2.IsWhole) (arg3 : Memref sig .tc .vmem S1x256 .f32) (harg3 : arg3.IsWhole) (arg4 : Memref sig .tc .vmem S400x256 .f32) (harg4 : arg4.IsWhole)
    (x0 : Vec F S400x64 .bf16) (x1 : Vec F S64x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of layer 4's pipeline on core `c`: the arrays as the layer finds them (`V`); after the body at
    grid point `t` each input's buffer at its block and the output's at `out4_3` of the input blocks; the invariant
    leaves the scoped rest and the generator register untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the layer-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

/-- Each input's current staging buffer holds its block at every grid point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic grid point -/

/-- What the body is called with at grid point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any grid point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every grid point. -/
theorem body_obligation4 (c : Dev nD) : BodyObligation (dat4 (F := F) V c) (defs₀ (F := F)) Variants.none () Set.univ := fun t => by
  rw [bigSep_W4, bigSep_W4]
  exact sound_body4 V c t

end Cert.KernelIdeal.Frame

end
-- ==== Proof.KI.Reg5.lean ====
/- Dense layer 5 of the network, one row block per grid point: the body reads a row block `A` of the
   activations, the whole weight matrix `B` and the bias row `b`, and overwrites its output block with
   `max(A·B + b, 0)` scaled by a constant. Everything is stated at arbitrary contents `V` of the core's buffers when the layer is
   entered: each window's block at a grid point as a read of `V`; that an input's staging buffer holds its block at
   every grid point whether or not it was fetched there (the weight matrix and the bias are fetched once and their
   block index never moves); the output staging buffer after the body, as the single store's piece over the payload
   of the three loaded blocks; the body's triple (the output buffer, held at arbitrary contents, is read and then
   wholly overwritten, the value read being unused); the proof data of the layer's pipeline and its body obligation
   at every grid point. -/
import proofs.«115122_j13357348290767_2_alg».proof.Proof.Gen.KernelIdeal.Launch
import proofs.«115122_j13357348290767_2_alg».proof.Proof.Gen.KernelIdeal.Skeleton
import proofs.«115122_j13357348290767_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the layer is entered
variable (V : (c : Dev nD) → (b : Ref sig .tc) → Buf (Elt F) ((c : Thread nD τ).loc b))

/-! ## The windows' blocks -/

/-- Window `w`'s block at grid point `t`, read off its array as the layer finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every grid point, fetched there or not, for any proof
    data whose array is `V`'s (`hA`) and whose body leaves the block in place (`hafter`): where the window is not
    fetched its block index has not moved, so the block of the point before is the block of this point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every grid point, fetched there or not, for any proof
    data whose array is `V`'s (`hA`) and whose body leaves the block in place (`hafter`): where the window is not
    fetched its block index has not moved, so the block of the point before is the block of this point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every grid point, fetched there or not, for any proof
    data whose array is `V`'s (`hA`) and whose body leaves the block in place (`hafter`): where the window is not
    fetched its block index has not moved, so the block of the point before is the block of this point. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each is its whole block -/

abbrev r5_0 : Rect S400x512 := Rect.unit (s := S400x512) ![0, 0] S400x512.size inb_S400x512_S400x512_0_0
abbrev r5_1 : Rect S512x256 := Rect.unit (s := S512x256) ![0, 0] S512x256.size inb_S512x256_S512x256_0_0
abbrev r5_2 : Rect S1x256 := Rect.unit (s := S1x256) ![0, 0] S1x256.size inb_S1x256_S1x256_0_0
abbrev r5_3 : Rect S400x256 := Rect.unit (s := S400x256) ![0, 0] S400x256.size inb_S400x256_S400x256_0_0

/-! ## What the body leaves in the output window's buffer -/

/-- The output staging buffer after the body, from the three input blocks: its one store as a piece over the
    payload of the loaded blocks. -/
def out5_3 (x0 : Vec F S400x512 .bf16) (x1 : Vec F S512x256 .bf16) (x2 : Vec F S1x256 .f32) : Vec F S400x256 .f32 :=
  View.canon [⟨r5_3, k5_pay1 (View.ld x0 r5_0) (View.ld x1 r5_1) (View.ld x2 r5_2)⟩]

/-- The one store is the whole buffer, so it covers it. -/
theorem cover5_3 (p0 : Vec F S400x256 .f32) (y : S400x256.Idx) :
    ∃ pc ∈ ([⟨r5_3, p0⟩] : List (View.Piece (Elt F) S400x256 .f32)), y ∈ pc.1.set :=
  View.cover_of_tiled [⟨r5_3, p0⟩] S400x256.size (by rfl) y

/-! ## The body's triple -/

set_option maxHeartbeats 1000000 in
/-- The body on whole staging memrefs, the three inputs' at contents `x0 x1 x2` and the output's at anything, runs to
    the continuation holding the inputs' as they were and the output's at `out5_3 x0 x1 x2`: the body's read of the
    output buffer is of whatever it holds, and the store then overwrites all of it. -/
theorem sound_kernel5 (c : Dev nD) (E : Set ℕ) (i : grid5.Coords) (arg1 : Memref sig .tc .vmem S400x512 .bf16) (harg1 : arg1.IsWhole) (arg2 : Memref sig .tc .vmem S512x256 .bf16) (harg2 : arg2.IsWhole) (arg3 : Memref sig .tc .vmem S1x256 .f32) (harg3 : arg3.IsWhole) (arg4 : Memref sig .tc .vmem S400x256 .f32) (harg4 : arg4.IsWhole)
    (x0 : Vec F S400x512 .bf16) (x1 : Vec F S512x256 .bf16) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__linear_kernel i arg1 harg1 arg2 harg2 arg3 harg3 arg4 harg4) K := by
  simp only [cc5__linear_kernel_eq_skeleton]; unfold cc5__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of layer 5's pipeline on core `c`: the arrays as the layer finds them (`V`); after the body at
    grid point `t` each input's buffer at its block and the output's at `out5_3` of the input blocks; the invariant
    leaves the scoped rest and the generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the layer-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every grid point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic grid point -/

/-- What the body is called with at grid point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any grid point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every grid point. -/
theorem body_obligation5 (c : Dev nD) : BodyObligation (dat5 (F := F) V c) (defs₀ (F := F)) Variants.none () Set.univ := fun t => by
  rw [bigSep_W5, bigSep_W5]
  exact sound_body5 V c t

end Cert.KernelIdeal.Frame

end
-- ==== Proof.KI.W.lean ====
/- The buffer contents of a TensorCore at every boundary between two consecutive segments of the main
   function, as a fold from the launch memory: a stretch of host operations leaves `StableHlo.after` of the contents it
   was entered from; a dense-layer region leaves its four window arrays at what the pipeline's write-backs make of them
   (the three input arrays as entered, the output array with every block written back) and every other buffer as
   entered. `W0` is the launch memory and `W15` the contents at the return. Each pipeline's proof data are taken at
   its region's entry contents. -/
import proofs.«115122_j13357348290767_2_alg».proof.Proof.KI.Reg0
import proofs.«115122_j13357348290767_2_alg».proof.Proof.KI.Reg1
import proofs.«115122_j13357348290767_2_alg».proof.Proof.KI.Reg2
import proofs.«115122_j13357348290767_2_alg».proof.Proof.KI.Reg3
import proofs.«115122_j13357348290767_2_alg».proof.Proof.KI.Reg4
import proofs.«115122_j13357348290767_2_alg».proof.Proof.KI.Reg5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After `hostOps1`. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After `hostOps2`. -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After `hostOps3`. -/
abbrev W7 : Dev nD → Valuation τ sig (Elt F) := fun c => StableHlo.after hostOps3 (W6 m ρ c)
/-- The same read at the TensorCore's references. -/
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- After `hostOps4`. -/
abbrev W9 : Dev nD → Valuation τ sig (Elt F) := fun c => StableHlo.after hostOps4 (W8 m ρ c)
/-- The same read at the TensorCore's references. -/
abbrev V9 : (c : Dev nD) → (b : Ref sig .tc) → Buf (Elt F) ((c : Thread nD τ).loc b) := fun c b => W9 m ρ c b
/-- After `hostOps4_1`. -/
abbrev W10 : Dev nD → Valuation τ sig (Elt F) := fun c => StableHlo.after hostOps4_1 (W9 m ρ c)
/-- The same read at the TensorCore's references. -/
abbrev V10 : (c : Dev nD) → (b : Ref sig .tc) → Buf (Elt F) ((c : Thread nD τ).loc b) := fun c b => W10 m ρ c b
/-- After `hostOps4_2`. -/
abbrev W11 : Dev nD → Valuation τ sig (Elt F) := fun c => StableHlo.after hostOps4_2 (W10 m ρ c)
/-- The same read at the TensorCore's references. -/
abbrev V11 : (c : Dev nD) → (b : Ref sig .tc) → Buf (Elt F) ((c : Thread nD τ).loc b) := fun c b => W11 m ρ c b
/-- At region 4's exit: its arrays at what the pipeline leaves, every other buffer as entered. -/
def W12 (c : Dev nD) : Valuation τ sig (Elt F) :=
  Pipeline.withArrays spec4 c (W11 m ρ c) fun w => (dat4 (V11 m ρ) c).arrAt w cfg4.N
theorem W12_arr (c : Dev nD) (w : Fin cfg4.W) :
    W12 m ρ c (Proc.devRef .tc (Pipeline.arrRef spec4 w)) = (dat4 (V11 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
/-- The same read at the TensorCore's references (region 4's exit contents). -/
abbrev V12 : (c : Dev nD) → (b : Ref sig .tc) → Buf (Elt F) ((c : Thread nD τ).loc b) := fun c b => W12 m ρ c b
/-- At region 4's exit each of its arrays holds what the pipeline leaves, and every other buffer what it held at entry. -/
theorem hF4 (c : Dev nD) (w : Fin cfg4.W) : (dat4 (V11 m ρ) c).arrAt w cfg4.N = V12 m ρ c (Pipeline.arrRef spec4 w) :=
  (W12_arr m ρ c w).symm
theorem hrest4 (c : Dev nD) : ∀ b, b ∉ Finset.univ.image (Pipeline.arrRef spec4) → V12 m ρ c b = V11 m ρ c b :=
  fun b hb => W12_of_ne m ρ c b fun w e => hb (Finset.mem_image.mpr ⟨w, Finset.mem_univ _, e⟩)
/-- After `hostOps5`. -/
abbrev W13 : Dev nD → Valuation τ sig (Elt F) := fun c => StableHlo.after hostOps5 (W12 m ρ c)
/-- The same read at the TensorCore's references. -/
abbrev V13 : (c : Dev nD) → (b : Ref sig .tc) → Buf (Elt F) ((c : Thread nD τ).loc b) := fun c b => W13 m ρ c b
/-- At region 5's exit: its arrays at what the pipeline leaves, every other buffer as entered. -/
def W14 (c : Dev nD) : Valuation τ sig (Elt F) :=
  Pipeline.withArrays spec5 c (W13 m ρ c) fun w => (dat5 (V13 m ρ) c).arrAt w cfg5.N
theorem W14_arr (c : Dev nD) (w : Fin cfg5.W) :
    W14 m ρ c (Proc.devRef .tc (Pipeline.arrRef spec5 w)) = (dat5 (V13 m ρ) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m ρ c (Proc.devRef .tc b) = W13 m ρ c (Proc.devRef .tc b) := by
  unfold W14; exact Pipeline.withArrays_of_ne spec5 c _ _ b hb
/-- The same read at the TensorCore's references (region 5's exit contents). -/
abbrev V14 : (c : Dev nD) → (b : Ref sig .tc) → Buf (Elt F) ((c : Thread nD τ).loc b) := fun c b => W14 m ρ c b
/-- At region 5's exit each of its arrays holds what the pipeline leaves, and every other buffer what it held at entry. -/
theorem hF5 (c : Dev nD) (w : Fin cfg5.W) : (dat5 (V13 m ρ) c).arrAt w cfg5.N = V14 m ρ c (Pipeline.arrRef spec5 w) :=
  (W14_arr m ρ c w).symm
theorem hrest5 (c : Dev nD) : ∀ b, b ∉ Finset.univ.image (Pipeline.arrRef spec5) → V14 m ρ c b = V13 m ρ c b :=
  fun b hb => W14_of_ne m ρ c b fun w e => hb (Finset.mem_image.mpr ⟨w, Finset.mem_univ _, e⟩)
/-- After `hostOps6`. -/
abbrev W15 : Dev nD → Valuation τ sig (Elt F) := fun c => StableHlo.after hostOps6 (W14 m ρ c)
/-- The same read at the TensorCore's references. -/
abbrev V15 : (c : Dev nD) → (b : Ref sig .tc) → Buf (Elt F) ((c : Thread nD τ).loc b) := fun c b => W15 m ρ c b

/-! ## The proof data family -/

/-- The prefetched tables' admissible contents: no pipeline has a table. -/
abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V11 m ρ) c
  | ⟨5, _⟩ => fun c => dat5 (V13 m ρ) c

end Cert.KernelIdeal.Frame

end
-- ==== Proof.KI.Host.lean ====
/- The stretches of host operations between the dense-layer regions, as segments of the run: none of their
   operations allocates a buffer, so a stretch entered with every unscoped buffer held at contents `W` leaves them held
   at `StableHlo.after` of `W`; beside the buffers a core carries its generator register at some state and the fact that
   it owes no other core anything. -/
import proofs.«115122_j13357348290767_2_alg».proof.Proof.Gen.KernelIdeal.Launch
import proofs.«115122_j13357348290767_2_alg».proof.Proof.Gen.KernelIdeal.Skeleton
import proofs.«115122_j13357348290767_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor
/-- No operation of `hostOps3` allocates a buffer. -/
theorem hostOps3_fresh : (hostOps3 : List (HloOp τ sig (Elt F))).Forall fun op => op.fresh = ∅ := by
  simp only [List.Forall]; repeat' constructor
/-- No operation of `hostOps4` allocates a buffer. -/
theorem hostOps4_fresh : (hostOps4 : List (HloOp τ sig (Elt F))).Forall fun op => op.fresh = ∅ := by
  simp only [List.Forall]; repeat' constructor
/-- No operation of `hostOps4_1` allocates a buffer. -/
theorem hostOps4_1_fresh : (hostOps4_1 : List (HloOp τ sig (Elt F))).Forall fun op => op.fresh = ∅ := by
  simp only [List.Forall]; repeat' constructor
/-- No operation of `hostOps4_2` allocates a buffer. -/
theorem hostOps4_2_fresh : (hostOps4_2 : List (HloOp τ sig (Elt F))).Forall fun op => op.fresh = ∅ := by
  simp only [List.Forall]; repeat' constructor
/-- No operation of `hostOps5` allocates a buffer. -/
theorem hostOps5_fresh : (hostOps5 : List (HloOp τ sig (Elt F))).Forall fun op => op.fresh = ∅ := by
  simp only [List.Forall]; repeat' constructor
/-- No operation of `hostOps6` allocates a buffer. -/
theorem hostOps6_fresh : (hostOps6 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Frame

end
-- ==== Proof.KI.RegSeg0.lean ====
/- Dense-layer region 0 as a segment of the run. It is entered with every unscoped buffer held at the
   contents `W1` and left with them held at `W2`: at entry the four window arrays are split out of the unscoped
   buffers, at exit they are put back at what the pipeline's write-backs made of them; the generator register passes
   through the pipeline's invariant unchanged, nothing is owed, and the kernel has no semaphore of its own. -/
import proofs.«115122_j13357348290767_2_alg».proof.Proof.KI.W
import proofs.«115122_j13357348290767_2_alg».proof.Proof.KI.Host
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 0 over the thread state: from every unscoped buffer at `W1` to every unscoped buffer at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frame

end
-- ==== Proof.KI.RegSeg1.lean ====
/- Dense-layer region 1 as a segment of the run. It is entered with every unscoped buffer held at the
   contents `W3` and left with them held at `W4`: at entry the four window arrays are split out of the unscoped
   buffers, at exit they are put back at what the pipeline's write-backs made of them; the generator register passes
   through the pipeline's invariant unchanged, nothing is owed, and the kernel has no semaphore of its own. -/
import proofs.«115122_j13357348290767_2_alg».proof.Proof.KI.W
import proofs.«115122_j13357348290767_2_alg».proof.Proof.KI.Host
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 1 over the thread state: from every unscoped buffer at `W3` to every unscoped buffer at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frame

end
-- ==== Proof.KI.RegSeg2.lean ====
/- Dense-layer region 2 as a segment of the run. It is entered with every unscoped buffer held at the
   contents `W5` and left with them held at `W6`: at entry the four window arrays are split out of the unscoped
   buffers, at exit they are put back at what the pipeline's write-backs made of them; the generator register passes
   through the pipeline's invariant unchanged, nothing is owed, and the kernel has no semaphore of its own. -/
import proofs.«115122_j13357348290767_2_alg».proof.Proof.KI.W
import proofs.«115122_j13357348290767_2_alg».proof.Proof.KI.Host
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 2 over the thread state: from every unscoped buffer at `W5` to every unscoped buffer at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frame

end
-- ==== Proof.KI.RegSeg3.lean ====
/- Dense-layer region 3 as a segment of the run. It is entered with every unscoped buffer held at the
   contents `W7` and left with them held at `W8`: at entry the four window arrays are split out of the unscoped
   buffers, at exit they are put back at what the pipeline's write-backs made of them; the generator register passes
   through the pipeline's invariant unchanged, nothing is owed, and the kernel has no semaphore of its own. -/
import proofs.«115122_j13357348290767_2_alg».proof.Proof.KI.W
import proofs.«115122_j13357348290767_2_alg».proof.Proof.KI.Host
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 3 over the thread state: from every unscoped buffer at `W7` to every unscoped buffer at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frame

end
-- ==== Proof.KI.RegSeg4.lean ====
/- Dense-layer region 4 as a segment of the run. It is entered with every unscoped buffer held at the
   contents `W11` and left with them held at `W12`: at entry the four window arrays are split out of the unscoped
   buffers, at exit they are put back at what the pipeline's write-backs made of them; the generator register passes
   through the pipeline's invariant unchanged, nothing is owed, and the kernel has no semaphore of its own. -/
import proofs.«115122_j13357348290767_2_alg».proof.Proof.KI.W
import proofs.«115122_j13357348290767_2_alg».proof.Proof.KI.Host
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3000000 in
set_option backward.isDefEq.respectTransparency.types false in
/-- Region 4 over the thread state: from every unscoped buffer at `W11` to every unscoped buffer at `W12`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V11 m ρ) c).loose
  hwaits := Pipeline.hwaits_of_owed_zero _ _ _ _ L lv 4 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec4 c (V11 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V11 m ρ c) (V12 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frame

end
-- ==== Proof.KI.RegSeg5.lean ====
/- Dense-layer region 5 as a segment of the run. It is entered with every unscoped buffer held at the
   contents `W13` and left with them held at `W14`: at entry the four window arrays are split out of the unscoped
   buffers, at exit they are put back at what the pipeline's write-backs made of them; the generator register passes
   through the pipeline's invariant unchanged, nothing is owed, and the kernel has no semaphore of its own. -/
import proofs.«115122_j13357348290767_2_alg».proof.Proof.KI.W
import proofs.«115122_j13357348290767_2_alg».proof.Proof.KI.Host
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Region 5 over the thread state: from every unscoped buffer at `W13` to every unscoped buffer at `W14`. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V13 m ρ) c).loose
  hwaits := Pipeline.hwaits_of_owed_zero _ _ _ _ L lv 5 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec5 c (V13 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V13 m ρ c) (V14 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frame

end
-- ==== Proof.KI.Run.lean ====
/- The run of the main function: its fifteen segments in order — nine stretches of host operations and the
   six dense-layer regions — each entered from the thread state the one before it left. From any launch memory with
   every semaphore counter at zero, every weakly fair execution on the TensorCores terminates without a fault, and in
   every final state each unscoped buffer holds the contents `W15` that the fold of the segments computes. -/
import proofs.«115122_j13357348290767_2_alg».proof.Proof.KI.W
import proofs.«115122_j13357348290767_2_alg».proof.Proof.KI.Host
import proofs.«115122_j13357348290767_2_alg».proof.Proof.KI.RegSeg0
import proofs.«115122_j13357348290767_2_alg».proof.Proof.KI.RegSeg1
import proofs.«115122_j13357348290767_2_alg».proof.Proof.KI.RegSeg2
import proofs.«115122_j13357348290767_2_alg».proof.Proof.KI.RegSeg3
import proofs.«115122_j13357348290767_2_alg».proof.Proof.KI.RegSeg4
import proofs.«115122_j13357348290767_2_alg».proof.Proof.KI.RegSeg5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last thread state without the `owes`: every unscoped buffer at the last boundary's contents, the generator
    register at some state. -/
abbrev Tₙ (c : Dev nD) : sProp 𝕄 := iprop(StableHlo.held (c : Thread nD τ) (Pipeline.ucRefs τ sig) (W15 m ρ c) ∗ ∃ r, prngReg c r)

/-- The main function's 15 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .host (hseg hostOps4_1 hostOps4_1_sub hostOps4_1_fresh (W9 m ρ)),
    .host (hseg hostOps4_2 hostOps4_2_sub hostOps4_2_fresh (W10 m ρ)),
    .region (reg4 m ρ),
    .host (hseg hostOps5 hostOps5_sub hostOps5_fresh (W12 m ρ)),
    .region (reg5 m ρ),
    .host (hseg hostOps6 hostOps6_sub hostOps6_fresh (W14 m ρ)) ]

/-- The main function is the run of the segments. -/
theorem main_run (c : Dev nD) : main (F := F) c = Pipeline.Seg.run (segs m ρ) := (main_chain c).trans (by chain_rfl)

set_option backward.isDefEq.respectTransparency.types false in
/-- Every weakly fair execution of the main function from the launch memory `m` terminates, and every final state has
    each unscoped TensorCore buffer at the contents `W15`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W15 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h => h)

end Cert.KernelIdeal.Frame

end
-- ==== Proof.KI.Chunks.lean ====
/- The 254 host operations between the fourth and the fifth pallas_call, cut into six consecutive chunks:
   kc0 finishes the symmetric normalisation of the edge weights (operations 0–19, ending at the per-edge
   coefficient), kc1 is the first Chebyshev layer (20–90), kc2, kc3, kc4 the three later layers with their
   concatenations (91–143, 144–196, 197–249), kc5 the casts and transposes that prepare the next dense layer
   (250–253). The stretch is the concatenation of the chunks; each chunk writes exactly the references of its list,
   so a reference outside the list holds after the chunk what it held before. -/
import proofs.«115122_j13357348290767_2_alg».proof.Proof.Gen.KernelIdeal.Launch
import Idealize.ShloMosaic.Lib.StableHlo.Run

noncomputable section

namespace Cert.KernelIdeal.Frame

open Cert.KernelIdeal Cert.KernelIdeal.Gen Idealize.ShloMosaic Idealize.ShloMosaic.TcCoe Idealize.SL.Sem

variable {F : FTy → Type} [FloatOps F]

/-- The contents after two lines of operations run one after the other: the second line's from the first's. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- Operations 0 to 19 of the stretch (20 operations). -/
abbrev kc0 : List (HloOp τ sig (Elt F)) :=
  [ StableHlo.nullary main_c_22 (constantI S_ 32 0#32),
    StableHlo.unary main_c_22 main_v110 (broadcastInDim S200000 ![] bcast_S_S200000 : (⟨S_, .i32⟩ : BufTy).Contents (Elt F) → (⟨S200000, .i32⟩ : BufTy).Contents (Elt F)),
    StableHlo.binary main_v1 main_v110 main_v111 (cmpi .slt : (⟨S200000, .i32⟩ : BufTy).Contents (Elt F) → (⟨S200000, .i32⟩ : BufTy).Contents (Elt F) → (⟨S200000, .i1⟩ : BufTy).Contents (Elt F)),
    StableHlo.nullary main_c_23 (constantI S_ 32 20000#32),
    StableHlo.unary main_c_23 main_v112 (broadcastInDim S200000 ![] bcast_S_S200000 : (⟨S_, .i32⟩ : BufTy).Contents (Elt F) → (⟨S200000, .i32⟩ : BufTy).Contents (Elt F)),
    StableHlo.binary main_v1 main_v112 main_v113 (addi : (⟨S200000, .i32⟩ : BufTy).Contents (Elt F) → (⟨S200000, .i32⟩ : BufTy).Contents (Elt F) → (⟨S200000, .i32⟩ : BufTy).Contents (Elt F)),
    StableHlo.ternary main_v111 main_v113 main_v1 main_v114 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v114 main_v115 (broadcastInDim S200000x1 ![0] bcast_S200000_S200000x1_0 : (⟨S200000, .i32⟩ : BufTy).Contents (Elt F) → (⟨S200000x1, .i32⟩ : BufTy).Contents (Elt F)),
    StableHlo.binary main_v109 main_v115 main_v116 ((fun x i => Host.gather gather_S20000_S200000x1_S200000_n_0_n_n_0_1_1 x i) : (⟨S20000, .f32⟩ : BufTy).Contents (Elt F) → (⟨S200000x1, .i32⟩ : BufTy).Contents (Elt F) → (⟨S200000, .f32⟩ : BufTy).Contents (Elt F)),
    StableHlo.binary main_v116 main_v96 main_v117 (mulf : (⟨S200000, .f32⟩ : BufTy).Contents (Elt F) → (⟨S200000, .f32⟩ : BufTy).Contents (Elt F) → (⟨S200000, .f32⟩ : BufTy).Contents (Elt F)),
    StableHlo.nullary main_c_24 (constantI S_ 32 0#32),
    StableHlo.unary main_c_24 main_v118 (broadcastInDim S200000 ![] bcast_S_S200000 : (⟨S_, .i32⟩ : BufTy).Contents (Elt F) → (⟨S200000, .i32⟩ : BufTy).Contents (Elt F)),
    StableHlo.binary main_v3 main_v118 main_v119 (cmpi .slt : (⟨S200000, .i32⟩ : BufTy).Contents (Elt F) → (⟨S200000, .i32⟩ : BufTy).Contents (Elt F) → (⟨S200000, .i1⟩ : BufTy).Contents (Elt F)),
    StableHlo.nullary main_c_25 (constantI S_ 32 20000#32),
    StableHlo.unary main_c_25 main_v120 (broadcastInDim S200000 ![] bcast_S_S200000 : (⟨S_, .i32⟩ : BufTy).Contents (Elt F) → (⟨S200000, .i32⟩ : BufTy).Contents (Elt F)),
    StableHlo.binary main_v3 main_v120 main_v121 (addi : (⟨S200000, .i32⟩ : BufTy).Contents (Elt F) → (⟨S200000, .i32⟩ : BufTy).Contents (Elt F) → (⟨S200000, .i32⟩ : BufTy).Contents (Elt F)),
    StableHlo.ternary main_v119 main_v121 main_v3 main_v122 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v122 main_v123 (broadcastInDim S200000x1 ![0] bcast_S200000_S200000x1_0 : (⟨S200000, .i32⟩ : BufTy).Contents (Elt F) → (⟨S200000x1, .i32⟩ : BufTy).Contents (Elt F)),
    StableHlo.binary main_v109 main_v123 main_v124 ((fun x i => Host.gather gather_S20000_S200000x1_S200000_n_0_n_n_0_1_1 x i) : (⟨S20000, .f32⟩ : BufTy).Contents (Elt F) → (⟨S200000x1, .i32⟩ : BufTy).Contents (Elt F) → (⟨S200000, .f32⟩ : BufTy).Contents (Elt F)),
    StableHlo.binary main_v117 main_v124 main_v125 (mulf : (⟨S200000, .f32⟩ : BufTy).Contents (Elt F) → (⟨S200000, .f32⟩ : BufTy).Contents (Elt F) → (⟨S200000, .f32⟩ : BufTy).Contents (Elt F)) ]
/-- The references chunk 0's operations write, in order. -/
abbrev Lk0 : List (Ref sig .tc) := [main_c_22, main_v110, main_v111, main_c_23, main_v112, main_v113, main_v114, main_v115, main_v116, main_v117, main_c_24, main_v118, main_v119, main_c_25, main_v120, main_v121, main_v122, main_v123, main_v124, main_v125]
set_option maxRecDepth 8192 in
theorem kc0_writes : (kc0 : List (HloOp τ sig (Elt F))).Forall fun op => op.writes ⊆ (Lk0.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference chunk 0 does not write keeps its contents through it. -/
theorem kc0_keeps {r : Ref sig .tc} (hr : r ∉ Lk0) (V : Valuation τ sig (Elt F)) :
    StableHlo.after (kc0 : List (HloOp τ sig (Elt F))) V (Proc.devRef .tc r) = V (Proc.devRef .tc r) :=
  StableHlo.after_of_writes_sub kc0 V kc0_writes hr

/-- Operations 20 to 90 of the stretch (71 operations). -/
abbrev kc1 : List (HloOp τ sig (Elt F)) :=
  [ StableHlo.unary main_arg9 main_v126 ((extractStridedSlice S1x512x16 ![0, 0, 0] · slices_S3x512x16_S1x512x16_0_0_0) : (⟨S3x512x16, .f32⟩ : BufTy).Contents (Elt F) → (⟨S1x512x16, .f32⟩ : BufTy).Contents (Elt F)),
    StableHlo.reshape main_v126 main_v127 rfl shapeCasts_S1x512x16_S512x16,
    StableHlo.unary main_arg9 main_v128 ((extractStridedSlice S1x512x16 ![1, 0, 0] · slices_S3x512x16_S1x512x16_1_0_0) : (⟨S3x512x16, .f32⟩ : BufTy).Contents (Elt F) → (⟨S1x512x16, .f32⟩ : BufTy).Contents (Elt F)),
    StableHlo.reshape main_v128 main_v129 rfl shapeCasts_S1x512x16_S512x16,
    StableHlo.unary main_arg9 main_v130 ((extractStridedSlice S1x512x16 ![2, 0, 0] · slices_S3x512x16_S1x512x16_2_0_0) : (⟨S3x512x16, .f32⟩ : BufTy).Contents (Elt F) → (⟨S1x512x16, .f32⟩ : BufTy).Contents (Elt F)),
    StableHlo.reshape main_v130 main_v131 rfl shapeCasts_S1x512x16_S512x16,
    StableHlo.nary ![main_v127, main_v129, main_v131] main_v132 (fun u => concatenate S512x48 1 [⟨S512x16, u 0⟩, ⟨S512x16, u 1⟩, ⟨S512x16, u 2⟩] concatenates_S512x16_S512x16_S512x16_S512x48_d1),
    StableHlo.binary main_v11 main_v132 main_v133 ((fun l r => Host.dotGeneral dot_S20000x512_S512x48_S20000x48_1_0_0_1_n_n none l r) : (⟨S20000x512, .f32⟩ : BufTy).Contents (Elt F) → (⟨S512x48, .f32⟩ : BufTy).Contents (Elt F) → (⟨S20000x48, .f32⟩ : BufTy).Contents (Elt F)),
    StableHlo.unary main_v133 main_v134 ((extractStridedSlice S20000x16 ![0, 0] · slices_S20000x48_S20000x16_0_0) : (⟨S20000x48, .f32⟩ : BufTy).Contents (Elt F) → (⟨S20000x16, .f32⟩ : BufTy).Contents (Elt F)),
    StableHlo.unary main_v133 main_v135 ((extractStridedSlice S20000x16 ![0, 16] · slices_S20000x48_S20000x16_0_16) : (⟨S20000x48, .f32⟩ : BufTy).Contents (Elt F) → (⟨S20000x16, .f32⟩ : BufTy).Contents (Elt F)),
    StableHlo.unary main_v133 main_v136 ((extractStridedSlice S20000x16 ![0, 32] · slices_S20000x48_S20000x16_0_32) : (⟨S20000x48, .f32⟩ : BufTy).Contents (Elt F) → (⟨S20000x16, .f32⟩ : BufTy).Contents (Elt F)),
    StableHlo.binary main_v134 main_v136 main_v137 (subf : (⟨S20000x16, .f32⟩ : BufTy).Contents (Elt F) → (⟨S20000x16, .f32⟩ : BufTy).Contents (Elt F) → (⟨S20000x16, .f32⟩ : BufTy).Contents (Elt F)),
    StableHlo.unary main_v125 main_v138 (broadcastInDim S200000x1 ![0] bcast_S200000_S200000x1_0 : (⟨S200000, .f32⟩ : BufTy).Contents (Elt F) → (⟨S200000x1, .f32⟩ : BufTy).Contents (Elt F)),
    StableHlo.nullary main_c_26 (constantI S_ 32 0#32),
    StableHlo.unary main_c_26 main_v139 (broadcastInDim S200000 ![] bcast_S_S200000 : (⟨S_, .i32⟩ : BufTy).Contents (Elt F) → (⟨S200000, .i32⟩ : BufTy).Contents (Elt F)),
    StableHlo.binary main_v1 main_v139 main_v140 (cmpi .slt : (⟨S200000, .i32⟩ : BufTy).Contents (Elt F) → (⟨S200000, .i32⟩ : BufTy).Contents (Elt F) → (⟨S200000, .i1⟩ : BufTy).Contents (Elt F)),
    StableHlo.nullary main_c_27 (constantI S_ 32 20000#32),
    StableHlo.unary main_c_27 main_v141 (broadcastInDim S200000 ![] bcast_S_S200000 : (⟨S_, .i32⟩ : BufTy).Contents (Elt F) → (⟨S200000, .i32⟩ : BufTy).Contents (Elt F)),
    StableHlo.binary main_v1 main_v141 main_v142 (addi : (⟨S200000, .i32⟩ : BufTy).Contents (Elt F) → (⟨S200000, .i32⟩ : BufTy).Contents (Elt F) → (⟨S200000, .i32⟩ : BufTy).Contents (Elt F)),
    StableHlo.ternary main_v140 main_v142 main_v1 main_v143 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v143 main_v144 (broadcastInDim S200000x1 ![0] bcast_S200000_S200000x1_0 : (⟨S200000, .i32⟩ : BufTy).Contents (Elt F) → (⟨S200000x1, .i32⟩ : BufTy).Contents (Elt F)),
    StableHlo.binary main_v135 main_v144 main_v145 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    StableHlo.unary main_v138 main_v146 (broadcastInDim S200000x16 ![0, 1] bcast_S200000x1_S200000x16_0_1 : (⟨S200000x1, .f32⟩ : BufTy).Contents (Elt F) → (⟨S200000x16, .f32⟩ : BufTy).Contents (Elt F)),
    StableHlo.binary main_v146 main_v145 main_v147 (mulf : (⟨S200000x16, .f32⟩ : BufTy).Contents (Elt F) → (⟨S200000x16, .f32⟩ : BufTy).Contents (Elt F) → (⟨S200000x16, .f32⟩ : BufTy).Contents (Elt F)),
    StableHlo.nullary main_cst_28 (constant S_ .f32 0x00000000#32),
    StableHlo.unary main_cst_28 main_v148 (broadcastInDim S20000x16 ![] bcast_S_S20000x16 : (⟨S_, .f32⟩ : BufTy).Contents (Elt F) → (⟨S20000x16, .f32⟩ : BufTy).Contents (Elt F)),
    StableHlo.unary main_v3 main_v149 (broadcastInDim S200000x1 ![0] bcast_S200000_S200000x1_0 : (⟨S200000, .i32⟩ : BufTy).Contents (Elt F) → (⟨S200000x1, .i32⟩ : BufTy).Contents (Elt F)),
    StableHlo.ternary main_v148 main_v149 main_v147 main_v150 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    StableHlo.unary main_v150 main_v151 (Host.negf : (⟨S20000x16, .f32⟩ : BufTy).Contents (Elt F) → (⟨S20000x16, .f32⟩ : BufTy).Contents (Elt F)),
    StableHlo.binary main_v137 main_v151 main_v152 (addf : (⟨S20000x16, .f32⟩ : BufTy).Contents (Elt F) → (⟨S20000x16, .f32⟩ : BufTy).Contents (Elt F) → (⟨S20000x16, .f32⟩ : BufTy).Contents (Elt F)),
    StableHlo.unary main_v125 main_v153 (broadcastInDim S200000x1 ![0] bcast_S200000_S200000x1_0 : (⟨S200000, .f32⟩ : BufTy).Contents (Elt F) → (⟨S200000x1, .f32⟩ : BufTy).Contents (Elt F)),
    StableHlo.nullary main_c_29 (constantI S_ 32 0#32),
    StableHlo.unary main_c_29 main_v154 (broadcastInDim S200000 ![] bcast_S_S200000 : (⟨S_, .i32⟩ : BufTy).Contents (Elt F) → (⟨S200000, .i32⟩ : BufTy).Contents (Elt F)),
    StableHlo.binary main_v1 main_v154 main_v155 (cmpi .slt : (⟨S200000, .i32⟩ : BufTy).Contents (Elt F) → (⟨S200000, .i32⟩ : BufTy).Contents (Elt F) → (⟨S200000, .i1⟩ : BufTy).Contents (Elt F)),
    StableHlo.nullary main_c_30 (constantI S_ 32 20000#32),
    StableHlo.unary main_c_30 main_v156 (broadcastInDim S200000 ![] bcast_S_S200000 : (⟨S_, .i32⟩ : BufTy).Contents (Elt F) → (⟨S200000, .i32⟩ : BufTy).Contents (Elt F)),
    StableHlo.binary main_v1 main_v156 main_v157 (addi : (⟨S200000, .i32⟩ : BufTy).Contents (Elt F) → (⟨S200000, .i32⟩ : BufTy).Contents (Elt F) → (⟨S200000, .i32⟩ : BufTy).Contents (Elt F)),
    StableHlo.ternary main_v155 main_v157 main_v1 main_v158 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v158 main_v159 (broadcastInDim S200000x1 ![0] bcast_S200000_S200000x1_0 : (⟨S200000, .i32⟩ : BufTy).Contents (Elt F) → (⟨S200000x1, .i32⟩ : BufTy).Contents (Elt F)),
    StableHlo.binary main_v136 main_v159 main_v160 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    StableHlo.unary main_v153 main_v161 (broadcastInDim S200000x16 ![0, 1] bcast_S200000x1_S200000x16_0_1 : (⟨S200000x1, .f32⟩ : BufTy).Contents (Elt F) → (⟨S200000x16, .f32⟩ : BufTy).Contents (Elt F)),
    StableHlo.binary main_v161 main_v160 main_v162 (mulf : (⟨S200000x16, .f32⟩ : BufTy).Contents (Elt F) → (⟨S200000x16, .f32⟩ : BufTy).Contents (Elt F) → (⟨S200000x16, .f32⟩ : BufTy).Contents (Elt F)),
    StableHlo.nullary main_cst_31 (constant S_ .f32 0x00000000#32),
    StableHlo.unary main_cst_31 main_v163 (broadcastInDim S20000x16 ![] bcast_S_S20000x16 : (⟨S_, .f32⟩ : BufTy).Contents (Elt F) → (⟨S20000x16, .f32⟩ : BufTy).Contents (Elt F)),
    StableHlo.unary main_v3 main_v164 (broadcastInDim S200000x1 ![0] bcast_S200000_S200000x1_0 : (⟨S200000, .i32⟩ : BufTy).Contents (Elt F) → (⟨S200000x1, .i32⟩ : BufTy).Contents (Elt F)),
    StableHlo.ternary main_v163 main_v164 main_v162 main_v165 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    StableHlo.unary main_v165 main_v166 (Host.negf : (⟨S20000x16, .f32⟩ : BufTy).Contents (Elt F) → (⟨S20000x16, .f32⟩ : BufTy).Contents (Elt F)),
    StableHlo.unary main_v125 main_v167 (broadcastInDim S200000x1 ![0] bcast_S200000_S200000x1_0 : (⟨S200000, .f32⟩ : BufTy).Contents (Elt F) → (⟨S200000x1, .f32⟩ : BufTy).Contents (Elt F)),
    StableHlo.nullary main_c_32 (constantI S_ 32 0#32),
    StableHlo.unary main_c_32 main_v168 (broadcastInDim S200000 ![] bcast_S_S200000 : (⟨S_, .i32⟩ : BufTy).Contents (Elt F) → (⟨S200000, .i32⟩ : BufTy).Contents (Elt F)),
    StableHlo.binary main_v1 main_v168 main_v169 (cmpi .slt : (⟨S200000, .i32⟩ : BufTy).Contents (Elt F) → (⟨S200000, .i32⟩ : BufTy).Contents (Elt F) → (⟨S200000, .i1⟩ : BufTy).Contents (Elt F)),
    StableHlo.nullary main_c_33 (constantI S_ 32 20000#32),
    StableHlo.unary main_c_33 main_v170 (broadcastInDim S200000 ![] bcast_S_S200000 : (⟨S_, .i32⟩ : BufTy).Contents (Elt F) → (⟨S200000, .i32⟩ : BufTy).Contents (Elt F)),
    StableHlo.binary main_v1 main_v170 main_v171 (addi : (⟨S200000, .i32⟩ : BufTy).Contents (Elt F) → (⟨S200000, .i32⟩ : BufTy).Contents (Elt F) → (⟨S200000, .i32⟩ : BufTy).Contents (Elt F)),
    StableHlo.ternary main_v169 main_v171 main_v1 main_v172 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v172 main_v173 (broadcastInDim S200000x1 ![0] bcast_S200000_S200000x1_0 : (⟨S200000, .i32⟩ : BufTy).Contents (Elt F) → (⟨S200000x1, .i32⟩ : BufTy).Contents (Elt F)),
    StableHlo.binary main_v166 main_v173 main_v174 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    StableHlo.unary main_v167 main_v175 (broadcastInDim S200000x16 ![0, 1] bcast_S200000x1_S200000x16_0_1 : (⟨S200000x1, .f32⟩ : BufTy).Contents (Elt F) → (⟨S200000x16, .f32⟩ : BufTy).Contents (Elt F)),
    StableHlo.binary main_v175 main_v174 main_v176 (mulf : (⟨S200000x16, .f32⟩ : BufTy).Contents (Elt F) → (⟨S200000x16, .f32⟩ : BufTy).Contents (Elt F) → (⟨S200000x16, .f32⟩ : BufTy).Contents (Elt F)),
    StableHlo.nullary main_cst_34 (constant S_ .f32 0x00000000#32),
    StableHlo.unary main_cst_34 main_v177 (broadcastInDim S20000x16 ![] bcast_S_S20000x16 : (⟨S_, .f32⟩ : BufTy).Contents (Elt F) → (⟨S20000x16, .f32⟩ : BufTy).Contents (Elt F)),
    StableHlo.unary main_v3 main_v178 (broadcastInDim S200000x1 ![0] bcast_S200000_S200000x1_0 : (⟨S200000, .i32⟩ : BufTy).Contents (Elt F) → (⟨S200000x1, .i32⟩ : BufTy).Contents (Elt F)),
    StableHlo.ternary main_v177 main_v178 main_v176 main_v179 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    StableHlo.unary main_v179 main_v180 (Host.negf : (⟨S20000x16, .f32⟩ : BufTy).Contents (Elt F) → (⟨S20000x16, .f32⟩ : BufTy).Contents (Elt F)),
    StableHlo.nullary main_cst_35 (constant S_ .f32 0x40000000#32),
    StableHlo.unary main_cst_35 main_v181 (broadcastInDim S20000x16 ![] bcast_S_S20000x16 : (⟨S_, .f32⟩ : BufTy).Contents (Elt F) → (⟨S20000x16, .f32⟩ : BufTy).Contents (Elt F)),
    StableHlo.binary main_v181 main_v180 main_v182 (mulf : (⟨S20000x16, .f32⟩ : BufTy).Contents (Elt F) → (⟨S20000x16, .f32⟩ : BufTy).Contents (Elt F) → (⟨S20000x16, .f32⟩ : BufTy).Contents (Elt F)),
    StableHlo.binary main_v152 main_v182 main_v183 (addf : (⟨S20000x16, .f32⟩ : BufTy).Contents (Elt F) → (⟨S20000x16, .f32⟩ : BufTy).Contents (Elt F) → (⟨S20000x16, .f32⟩ : BufTy).Contents (Elt F)),
    StableHlo.nullary main_cst_36 (constant S_ .f32 0x00000000#32),
    StableHlo.unary main_cst_36 main_v184 (broadcastInDim S20000x16 ![] bcast_S_S20000x16 : (⟨S_, .f32⟩ : BufTy).Contents (Elt F) → (⟨S20000x16, .f32⟩ : BufTy).Contents (Elt F)),
    StableHlo.binary main_v183 main_v184 main_v185 (maximumf : (⟨S20000x16, .f32⟩ : BufTy).Contents (Elt F) → (⟨S20000x16, .f32⟩ : BufTy).Contents (Elt F) → (⟨S20000x16, .f32⟩ : BufTy).Contents (Elt F)) ]
/-- The references chunk 1's operations write, in order. -/
abbrev Lk1 : List (Ref sig .tc) := [main_v126, main_v127, main_v128, main_v129, main_v130, main_v131, main_v132, main_v133, main_v134, main_v135, main_v136, main_v137, main_v138, main_c_26, main_v139, main_v140, main_c_27, main_v141, main_v142, main_v143, main_v144, main_v145, main_v146, main_v147, main_cst_28, main_v148, main_v149, main_v150, main_v151, main_v152, main_v153, main_c_29, main_v154, main_v155, main_c_30, main_v156, main_v157, main_v158, main_v159, main_v160, main_v161, main_v162, main_cst_31, main_v163, main_v164, main_v165, main_v166, main_v167, main_c_32, main_v168, main_v169, main_c_33, main_v170, main_v171, main_v172, main_v173, main_v174, main_v175, main_v176, main_cst_34, main_v177, main_v178, main_v179, main_v180, main_cst_35, main_v181, main_v182, main_v183, main_cst_36, main_v184, main_v185]
set_option maxRecDepth 8192 in
theorem kc1_writes : (kc1 : List (HloOp τ sig (Elt F))).Forall fun op => op.writes ⊆ (Lk1.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference chunk 1 does not write keeps its contents through it. -/
theorem kc1_keeps {r : Ref sig .tc} (hr : r ∉ Lk1) (V : Valuation τ sig (Elt F)) :
    StableHlo.after (kc1 : List (HloOp τ sig (Elt F))) V (Proc.devRef .tc r) = V (Proc.devRef .tc r) :=
  StableHlo.after_of_writes_sub kc1 V kc1_writes hr

/-- Operations 91 to 143 of the stretch (53 operations). -/
abbrev kc2 : List (HloOp τ sig (Elt F)) :=
  [ StableHlo.unary main_v125 main_v186 (broadcastInDim S200000x1 ![0] bcast_S200000_S200000x1_0 : (⟨S200000, .f32⟩ : BufTy).Contents (Elt F) → (⟨S200000x1, .f32⟩ : BufTy).Contents (Elt F)),
    StableHlo.nullary main_c_37 (constantI S_ 32 0#32),
    StableHlo.unary main_c_37 main_v187 (broadcastInDim S200000 ![] bcast_S_S200000 : (⟨S_, .i32⟩ : BufTy).Contents (Elt F) → (⟨S200000, .i32⟩ : BufTy).Contents (Elt F)),
    StableHlo.binary main_v1 main_v187 main_v188 (cmpi .slt : (⟨S200000, .i32⟩ : BufTy).Contents (Elt F) → (⟨S200000, .i32⟩ : BufTy).Contents (Elt F) → (⟨S200000, .i1⟩ : BufTy).Contents (Elt F)),
    StableHlo.nullary main_c_38 (constantI S_ 32 20000#32),
    StableHlo.unary main_c_38 main_v189 (broadcastInDim S200000 ![] bcast_S_S200000 : (⟨S_, .i32⟩ : BufTy).Contents (Elt F) → (⟨S200000, .i32⟩ : BufTy).Contents (Elt F)),
    StableHlo.binary main_v1 main_v189 main_v190 (addi : (⟨S200000, .i32⟩ : BufTy).Contents (Elt F) → (⟨S200000, .i32⟩ : BufTy).Contents (Elt F) → (⟨S200000, .i32⟩ : BufTy).Contents (Elt F)),
    StableHlo.ternary main_v188 main_v190 main_v1 main_v191 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v191 main_v192 (broadcastInDim S200000x1 ![0] bcast_S200000_S200000x1_0 : (⟨S200000, .i32⟩ : BufTy).Contents (Elt F) → (⟨S200000x1, .i32⟩ : BufTy).Contents (Elt F)),
    StableHlo.binary main_v185 main_v192 main_v193 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    StableHlo.unary main_v186 main_v194 (broadcastInDim S200000x16 ![0, 1] bcast_S200000x1_S200000x16_0_1 : (⟨S200000x1, .f32⟩ : BufTy).Contents (Elt F) → (⟨S200000x16, .f32⟩ : BufTy).Contents (Elt F)),
    StableHlo.binary main_v194 main_v193 main_v195 (mulf : (⟨S200000x16, .f32⟩ : BufTy).Contents (Elt F) → (⟨S200000x16, .f32⟩ : BufTy).Contents (Elt F) → (⟨S200000x16, .f32⟩ : BufTy).Contents (Elt F)),
    StableHlo.nullary main_cst_39 (constant S_ .f32 0x00000000#32),
    StableHlo.unary main_cst_39 main_v196 (broadcastInDim S20000x16 ![] bcast_S_S20000x16 : (⟨S_, .f32⟩ : BufTy).Contents (Elt F) → (⟨S20000x16, .f32⟩ : BufTy).Contents (Elt F)),
    StableHlo.unary main_v3 main_v197 (broadcastInDim S200000x1 ![0] bcast_S200000_S200000x1_0 : (⟨S200000, .i32⟩ : BufTy).Contents (Elt F) → (⟨S200000x1, .i32⟩ : BufTy).Contents (Elt F)),
    StableHlo.ternary main_v196 main_v197 main_v195 main_v198 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    StableHlo.unary main_v198 main_v199 (Host.negf : (⟨S20000x16, .f32⟩ : BufTy).Contents (Elt F) → (⟨S20000x16, .f32⟩ : BufTy).Contents (Elt F)),
    StableHlo.unary main_arg10 main_v200 ((extractStridedSlice S1x16x16 ![0, 0, 0] · slices_S3x16x16_S1x16x16_0_0_0) : (⟨S3x16x16, .f32⟩ : BufTy).Contents (Elt F) → (⟨S1x16x16, .f32⟩ : BufTy).Contents (Elt F)),
    StableHlo.reshape main_v200 main_v201 rfl shapeCasts_S1x16x16_S16x16,
    StableHlo.binary main_v185 main_v201 main_v202 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    StableHlo.unary main_arg10 main_v203 ((extractStridedSlice S1x16x16 ![1, 0, 0] · slices_S3x16x16_S1x16x16_1_0_0) : (⟨S3x16x16, .f32⟩ : BufTy).Contents (Elt F) → (⟨S1x16x16, .f32⟩ : BufTy).Contents (Elt F)),
    StableHlo.reshape main_v203 main_v204 rfl shapeCasts_S1x16x16_S16x16,
    StableHlo.binary main_v199 main_v204 main_v205 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    StableHlo.binary main_v202 main_v205 main_v206 (addf : (⟨S20000x16, .f32⟩ : BufTy).Contents (Elt F) → (⟨S20000x16, .f32⟩ : BufTy).Contents (Elt F) → (⟨S20000x16, .f32⟩ : BufTy).Contents (Elt F)),
    StableHlo.unary main_v125 main_v207 (broadcastInDim S200000x1 ![0] bcast_S200000_S200000x1_0 : (⟨S200000, .f32⟩ : BufTy).Contents (Elt F) → (⟨S200000x1, .f32⟩ : BufTy).Contents (Elt F)),
    StableHlo.nullary main_c_40 (constantI S_ 32 0#32),
    StableHlo.unary main_c_40 main_v208 (broadcastInDim S200000 ![] bcast_S_S200000 : (⟨S_, .i32⟩ : BufTy).Contents (Elt F) → (⟨S200000, .i32⟩ : BufTy).Contents (Elt F)),
    StableHlo.binary main_v1 main_v208 main_v209 (cmpi .slt : (⟨S200000, .i32⟩ : BufTy).Contents (Elt F) → (⟨S200000, .i32⟩ : BufTy).Contents (Elt F) → (⟨S200000, .i1⟩ : BufTy).Contents (Elt F)),
    StableHlo.nullary main_c_41 (constantI S_ 32 20000#32),
    StableHlo.unary main_c_41 main_v210 (broadcastInDim S200000 ![] bcast_S_S200000 : (⟨S_, .i32⟩ : BufTy).Contents (Elt F) → (⟨S200000, .i32⟩ : BufTy).Contents (Elt F)),
    StableHlo.binary main_v1 main_v210 main_v211 (addi : (⟨S200000, .i32⟩ : BufTy).Contents (Elt F) → (⟨S200000, .i32⟩ : BufTy).Contents (Elt F) → (⟨S200000, .i32⟩ : BufTy).Contents (Elt F)),
    StableHlo.ternary main_v209 main_v211 main_v1 main_v212 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v212 main_v213 (broadcastInDim S200000x1 ![0] bcast_S200000_S200000x1_0 : (⟨S200000, .i32⟩ : BufTy).Contents (Elt F) → (⟨S200000x1, .i32⟩ : BufTy).Contents (Elt F)),
    StableHlo.binary main_v199 main_v213 main_v214 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    StableHlo.unary main_v207 main_v215 (broadcastInDim S200000x16 ![0, 1] bcast_S200000x1_S200000x16_0_1 : (⟨S200000x1, .f32⟩ : BufTy).Contents (Elt F) → (⟨S200000x16, .f32⟩ : BufTy).Contents (Elt F)),
    StableHlo.binary main_v215 main_v214 main_v216 (mulf : (⟨S200000x16, .f32⟩ : BufTy).Contents (Elt F) → (⟨S200000x16, .f32⟩ : BufTy).Contents (Elt F) → (⟨S200000x16, .f32⟩ : BufTy).Contents (Elt F)),
    StableHlo.nullary main_cst_42 (constant S_ .f32 0x00000000#32),
    StableHlo.unary main_cst_42 main_v217 (broadcastInDim S20000x16 ![] bcast_S_S20000x16 : (⟨S_, .f32⟩ : BufTy).Contents (Elt F) → (⟨S20000x16, .f32⟩ : BufTy).Contents (Elt F)),
    StableHlo.unary main_v3 main_v218 (broadcastInDim S200000x1 ![0] bcast_S200000_S200000x1_0 : (⟨S200000, .i32⟩ : BufTy).Contents (Elt F) → (⟨S200000x1, .i32⟩ : BufTy).Contents (Elt F)),
    StableHlo.ternary main_v217 main_v218 main_v216 main_v219 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    StableHlo.unary main_v219 main_v220 (Host.negf : (⟨S20000x16, .f32⟩ : BufTy).Contents (Elt F) → (⟨S20000x16, .f32⟩ : BufTy).Contents (Elt F)),
    StableHlo.nullary main_cst_43 (constant S_ .f32 0x40000000#32),
    StableHlo.unary main_cst_43 main_v221 (broadcastInDim S20000x16 ![] bcast_S_S20000x16 : (⟨S_, .f32⟩ : BufTy).Contents (Elt F) → (⟨S20000x16, .f32⟩ : BufTy).Contents (Elt F)),
    StableHlo.binary main_v221 main_v220 main_v222 (mulf : (⟨S20000x16, .f32⟩ : BufTy).Contents (Elt F) → (⟨S20000x16, .f32⟩ : BufTy).Contents (Elt F) → (⟨S20000x16, .f32⟩ : BufTy).Contents (Elt F)),
    StableHlo.binary main_v222 main_v185 main_v223 (subf : (⟨S20000x16, .f32⟩ : BufTy).Contents (Elt F) → (⟨S20000x16, .f32⟩ : BufTy).Contents (Elt F) → (⟨S20000x16, .f32⟩ : BufTy).Contents (Elt F)),
    StableHlo.unary main_arg10 main_v224 ((extractStridedSlice S1x16x16 ![2, 0, 0] · slices_S3x16x16_S1x16x16_2_0_0) : (⟨S3x16x16, .f32⟩ : BufTy).Contents (Elt F) → (⟨S1x16x16, .f32⟩ : BufTy).Contents (Elt F)),
    StableHlo.reshape main_v224 main_v225 rfl shapeCasts_S1x16x16_S16x16,
    StableHlo.binary main_v223 main_v225 main_v226 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    StableHlo.binary main_v206 main_v226 main_v227 (addf : (⟨S20000x16, .f32⟩ : BufTy).Contents (Elt F) → (⟨S20000x16, .f32⟩ : BufTy).Contents (Elt F) → (⟨S20000x16, .f32⟩ : BufTy).Contents (Elt F)),
    StableHlo.nullary main_cst_44 (constant S_ .f32 0x00000000#32),
    StableHlo.unary main_cst_44 main_v228 (broadcastInDim S20000x16 ![] bcast_S_S20000x16 : (⟨S_, .f32⟩ : BufTy).Contents (Elt F) → (⟨S20000x16, .f32⟩ : BufTy).Contents (Elt F)),
    StableHlo.binary main_v227 main_v228 main_v229 (maximumf : (⟨S20000x16, .f32⟩ : BufTy).Contents (Elt F) → (⟨S20000x16, .f32⟩ : BufTy).Contents (Elt F) → (⟨S20000x16, .f32⟩ : BufTy).Contents (Elt F)),
    StableHlo.binary main_v185 main_v229 main_v230 ((fun a b => concatenate S20000x32 1 [⟨S20000x16, a⟩, ⟨S20000x16, b⟩] concatenates_S20000x16_S20000x16_S20000x32_d1) : (⟨S20000x16, .f32⟩ : BufTy).Contents (Elt F) → (⟨S20000x16, .f32⟩ : BufTy).Contents (Elt F) → (⟨S20000x32, .f32⟩ : BufTy).Contents (Elt F)) ]
/-- The references chunk 2's operations write, in order. -/
abbrev Lk2 : List (Ref sig .tc) := [main_v186, main_c_37, main_v187, main_v188, main_c_38, main_v189, main_v190, main_v191, main_v192, main_v193, main_v194, main_v195, main_cst_39, main_v196, main_v197, main_v198, main_v199, main_v200, main_v201, main_v202, main_v203, main_v204, main_v205, main_v206, main_v207, main_c_40, main_v208, main_v209, main_c_41, main_v210, main_v211, main_v212, main_v213, main_v214, main_v215, main_v216, main_cst_42, main_v217, main_v218, main_v219, main_v220, main_cst_43, main_v221, main_v222, main_v223, main_v224, main_v225, main_v226, main_v227, main_cst_44, main_v228, main_v229, main_v230]
set_option maxRecDepth 8192 in
theorem kc2_writes : (kc2 : List (HloOp τ sig (Elt F))).Forall fun op => op.writes ⊆ (Lk2.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference chunk 2 does not write keeps its contents through it. -/
theorem kc2_keeps {r : Ref sig .tc} (hr : r ∉ Lk2) (V : Valuation τ sig (Elt F)) :
    StableHlo.after (kc2 : List (HloOp τ sig (Elt F))) V (Proc.devRef .tc r) = V (Proc.devRef .tc r) :=
  StableHlo.after_of_writes_sub kc2 V kc2_writes hr

/-- Operations 144 to 196 of the stretch (53 operations). -/
abbrev kc3 : List (HloOp τ sig (Elt F)) :=
  [ StableHlo.unary main_v125 main_v231 (broadcastInDim S200000x1 ![0] bcast_S200000_S200000x1_0 : (⟨S200000, .f32⟩ : BufTy).Contents (Elt F) → (⟨S200000x1, .f32⟩ : BufTy).Contents (Elt F)),
    StableHlo.nullary main_c_45 (constantI S_ 32 0#32),
    StableHlo.unary main_c_45 main_v232 (broadcastInDim S200000 ![] bcast_S_S200000 : (⟨S_, .i32⟩ : BufTy).Contents (Elt F) → (⟨S200000, .i32⟩ : BufTy).Contents (Elt F)),
    StableHlo.binary main_v1 main_v232 main_v233 (cmpi .slt : (⟨S200000, .i32⟩ : BufTy).Contents (Elt F) → (⟨S200000, .i32⟩ : BufTy).Contents (Elt F) → (⟨S200000, .i1⟩ : BufTy).Contents (Elt F)),
    StableHlo.nullary main_c_46 (constantI S_ 32 20000#32),
    StableHlo.unary main_c_46 main_v234 (broadcastInDim S200000 ![] bcast_S_S200000 : (⟨S_, .i32⟩ : BufTy).Contents (Elt F) → (⟨S200000, .i32⟩ : BufTy).Contents (Elt F)),
    StableHlo.binary main_v1 main_v234 main_v235 (addi : (⟨S200000, .i32⟩ : BufTy).Contents (Elt F) → (⟨S200000, .i32⟩ : BufTy).Contents (Elt F) → (⟨S200000, .i32⟩ : BufTy).Contents (Elt F)),
    StableHlo.ternary main_v233 main_v235 main_v1 main_v236 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v236 main_v237 (broadcastInDim S200000x1 ![0] bcast_S200000_S200000x1_0 : (⟨S200000, .i32⟩ : BufTy).Contents (Elt F) → (⟨S200000x1, .i32⟩ : BufTy).Contents (Elt F)),
    StableHlo.binary main_v229 main_v237 main_v238 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    StableHlo.unary main_v231 main_v239 (broadcastInDim S200000x16 ![0, 1] bcast_S200000x1_S200000x16_0_1 : (⟨S200000x1, .f32⟩ : BufTy).Contents (Elt F) → (⟨S200000x16, .f32⟩ : BufTy).Contents (Elt F)),
    StableHlo.binary main_v239 main_v238 main_v240 (mulf : (⟨S200000x16, .f32⟩ : BufTy).Contents (Elt F) → (⟨S200000x16, .f32⟩ : BufTy).Contents (Elt F) → (⟨S200000x16, .f32⟩ : BufTy).Contents (Elt F)),
    StableHlo.nullary main_cst_47 (constant S_ .f32 0x00000000#32),
    StableHlo.unary main_cst_47 main_v241 (broadcastInDim S20000x16 ![] bcast_S_S20000x16 : (⟨S_, .f32⟩ : BufTy).Contents (Elt F) → (⟨S20000x16, .f32⟩ : BufTy).Contents (Elt F)),
    StableHlo.unary main_v3 main_v242 (broadcastInDim S200000x1 ![0] bcast_S200000_S200000x1_0 : (⟨S200000, .i32⟩ : BufTy).Contents (Elt F) → (⟨S200000x1, .i32⟩ : BufTy).Contents (Elt F)),
    StableHlo.ternary main_v241 main_v242 main_v240 main_v243 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    StableHlo.unary main_v243 main_v244 (Host.negf : (⟨S20000x16, .f32⟩ : BufTy).Contents (Elt F) → (⟨S20000x16, .f32⟩ : BufTy).Contents (Elt F)),
    StableHlo.unary main_arg11 main_v245 ((extractStridedSlice S1x16x16 ![0, 0, 0] · slices_S3x16x16_S1x16x16_0_0_0) : (⟨S3x16x16, .f32⟩ : BufTy).Contents (Elt F) → (⟨S1x16x16, .f32⟩ : BufTy).Contents (Elt F)),
    StableHlo.reshape main_v245 main_v246 rfl shapeCasts_S1x16x16_S16x16,
    StableHlo.binary main_v229 main_v246 main_v247 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    StableHlo.unary main_arg11 main_v248 ((extractStridedSlice S1x16x16 ![1, 0, 0] · slices_S3x16x16_S1x16x16_1_0_0) : (⟨S3x16x16, .f32⟩ : BufTy).Contents (Elt F) → (⟨S1x16x16, .f32⟩ : BufTy).Contents (Elt F)),
    StableHlo.reshape main_v248 main_v249 rfl shapeCasts_S1x16x16_S16x16,
    StableHlo.binary main_v244 main_v249 main_v250 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    StableHlo.binary main_v247 main_v250 main_v251 (addf : (⟨S20000x16, .f32⟩ : BufTy).Contents (Elt F) → (⟨S20000x16, .f32⟩ : BufTy).Contents (Elt F) → (⟨S20000x16, .f32⟩ : BufTy).Contents (Elt F)),
    StableHlo.unary main_v125 main_v252 (broadcastInDim S200000x1 ![0] bcast_S200000_S200000x1_0 : (⟨S200000, .f32⟩ : BufTy).Contents (Elt F) → (⟨S200000x1, .f32⟩ : BufTy).Contents (Elt F)),
    StableHlo.nullary main_c_48 (constantI S_ 32 0#32),
    StableHlo.unary main_c_48 main_v253 (broadcastInDim S200000 ![] bcast_S_S200000 : (⟨S_, .i32⟩ : BufTy).Contents (Elt F) → (⟨S200000, .i32⟩ : BufTy).Contents (Elt F)),
    StableHlo.binary main_v1 main_v253 main_v254 (cmpi .slt : (⟨S200000, .i32⟩ : BufTy).Contents (Elt F) → (⟨S200000, .i32⟩ : BufTy).Contents (Elt F) → (⟨S200000, .i1⟩ : BufTy).Contents (Elt F)),
    StableHlo.nullary main_c_49 (constantI S_ 32 20000#32),
    StableHlo.unary main_c_49 main_v255 (broadcastInDim S200000 ![] bcast_S_S200000 : (⟨S_, .i32⟩ : BufTy).Contents (Elt F) → (⟨S200000, .i32⟩ : BufTy).Contents (Elt F)),
    StableHlo.binary main_v1 main_v255 main_v256 (addi : (⟨S200000, .i32⟩ : BufTy).Contents (Elt F) → (⟨S200000, .i32⟩ : BufTy).Contents (Elt F) → (⟨S200000, .i32⟩ : BufTy).Contents (Elt F)),
    StableHlo.ternary main_v254 main_v256 main_v1 main_v257 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v257 main_v258 (broadcastInDim S200000x1 ![0] bcast_S200000_S200000x1_0 : (⟨S200000, .i32⟩ : BufTy).Contents (Elt F) → (⟨S200000x1, .i32⟩ : BufTy).Contents (Elt F)),
    StableHlo.binary main_v244 main_v258 main_v259 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    StableHlo.unary main_v252 main_v260 (broadcastInDim S200000x16 ![0, 1] bcast_S200000x1_S200000x16_0_1 : (⟨S200000x1, .f32⟩ : BufTy).Contents (Elt F) → (⟨S200000x16, .f32⟩ : BufTy).Contents (Elt F)),
    StableHlo.binary main_v260 main_v259 main_v261 (mulf : (⟨S200000x16, .f32⟩ : BufTy).Contents (Elt F) → (⟨S200000x16, .f32⟩ : BufTy).Contents (Elt F) → (⟨S200000x16, .f32⟩ : BufTy).Contents (Elt F)),
    StableHlo.nullary main_cst_50 (constant S_ .f32 0x00000000#32),
    StableHlo.unary main_cst_50 main_v262 (broadcastInDim S20000x16 ![] bcast_S_S20000x16 : (⟨S_, .f32⟩ : BufTy).Contents (Elt F) → (⟨S20000x16, .f32⟩ : BufTy).Contents (Elt F)),
    StableHlo.unary main_v3 main_v263 (broadcastInDim S200000x1 ![0] bcast_S200000_S200000x1_0 : (⟨S200000, .i32⟩ : BufTy).Contents (Elt F) → (⟨S200000x1, .i32⟩ : BufTy).Contents (Elt F)),
    StableHlo.ternary main_v262 main_v263 main_v261 main_v264 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    StableHlo.unary main_v264 main_v265 (Host.negf : (⟨S20000x16, .f32⟩ : BufTy).Contents (Elt F) → (⟨S20000x16, .f32⟩ : BufTy).Contents (Elt F)),
    StableHlo.nullary main_cst_51 (constant S_ .f32 0x40000000#32),
    StableHlo.unary main_cst_51 main_v266 (broadcastInDim S20000x16 ![] bcast_S_S20000x16 : (⟨S_, .f32⟩ : BufTy).Contents (Elt F) → (⟨S20000x16, .f32⟩ : BufTy).Contents (Elt F)),
    StableHlo.binary main_v266 main_v265 main_v267 (mulf : (⟨S20000x16, .f32⟩ : BufTy).Contents (Elt F) → (⟨S20000x16, .f32⟩ : BufTy).Contents (Elt F) → (⟨S20000x16, .f32⟩ : BufTy).Contents (Elt F)),
    StableHlo.binary main_v267 main_v229 main_v268 (subf : (⟨S20000x16, .f32⟩ : BufTy).Contents (Elt F) → (⟨S20000x16, .f32⟩ : BufTy).Contents (Elt F) → (⟨S20000x16, .f32⟩ : BufTy).Contents (Elt F)),
    StableHlo.unary main_arg11 main_v269 ((extractStridedSlice S1x16x16 ![2, 0, 0] · slices_S3x16x16_S1x16x16_2_0_0) : (⟨S3x16x16, .f32⟩ : BufTy).Contents (Elt F) → (⟨S1x16x16, .f32⟩ : BufTy).Contents (Elt F)),
    StableHlo.reshape main_v269 main_v270 rfl shapeCasts_S1x16x16_S16x16,
    StableHlo.binary main_v268 main_v270 main_v271 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    StableHlo.binary main_v251 main_v271 main_v272 (addf : (⟨S20000x16, .f32⟩ : BufTy).Contents (Elt F) → (⟨S20000x16, .f32⟩ : BufTy).Contents (Elt F) → (⟨S20000x16, .f32⟩ : BufTy).Contents (Elt F)),
    StableHlo.nullary main_cst_52 (constant S_ .f32 0x00000000#32),
    StableHlo.unary main_cst_52 main_v273 (broadcastInDim S20000x16 ![] bcast_S_S20000x16 : (⟨S_, .f32⟩ : BufTy).Contents (Elt F) → (⟨S20000x16, .f32⟩ : BufTy).Contents (Elt F)),
    StableHlo.binary main_v272 main_v273 main_v274 (maximumf : (⟨S20000x16, .f32⟩ : BufTy).Contents (Elt F) → (⟨S20000x16, .f32⟩ : BufTy).Contents (Elt F) → (⟨S20000x16, .f32⟩ : BufTy).Contents (Elt F)),
    StableHlo.binary main_v230 main_v274 main_v275 ((fun a b => concatenate S20000x48 1 [⟨S20000x32, a⟩, ⟨S20000x16, b⟩] concatenates_S20000x32_S20000x16_S20000x48_d1) : (⟨S20000x32, .f32⟩ : BufTy).Contents (Elt F) → (⟨S20000x16, .f32⟩ : BufTy).Contents (Elt F) → (⟨S20000x48, .f32⟩ : BufTy).Contents (Elt F)) ]
/-- The references chunk 3's operations write, in order. -/
abbrev Lk3 : List (Ref sig .tc) := [main_v231, main_c_45, main_v232, main_v233, main_c_46, main_v234, main_v235, main_v236, main_v237, main_v238, main_v239, main_v240, main_cst_47, main_v241, main_v242, main_v243, main_v244, main_v245, main_v246, main_v247, main_v248, main_v249, main_v250, main_v251, main_v252, main_c_48, main_v253, main_v254, main_c_49, main_v255, main_v256, main_v257, main_v258, main_v259, main_v260, main_v261, main_cst_50, main_v262, main_v263, main_v264, main_v265, main_cst_51, main_v266, main_v267, main_v268, main_v269, main_v270, main_v271, main_v272, main_cst_52, main_v273, main_v274, main_v275]
set_option maxRecDepth 8192 in
theorem kc3_writes : (kc3 : List (HloOp τ sig (Elt F))).Forall fun op => op.writes ⊆ (Lk3.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference chunk 3 does not write keeps its contents through it. -/
theorem kc3_keeps {r : Ref sig .tc} (hr : r ∉ Lk3) (V : Valuation τ sig (Elt F)) :
    StableHlo.after (kc3 : List (HloOp τ sig (Elt F))) V (Proc.devRef .tc r) = V (Proc.devRef .tc r) :=
  StableHlo.after_of_writes_sub kc3 V kc3_writes hr

/-- Operations 197 to 249 of the stretch (53 operations). -/
abbrev kc4 : List (HloOp τ sig (Elt F)) :=
  [ StableHlo.unary main_v125 main_v276 (broadcastInDim S200000x1 ![0] bcast_S200000_S200000x1_0 : (⟨S200000, .f32⟩ : BufTy).Contents (Elt F) → (⟨S200000x1, .f32⟩ : BufTy).Contents (Elt F)),
    StableHlo.nullary main_c_53 (constantI S_ 32 0#32),
    StableHlo.unary main_c_53 main_v277 (broadcastInDim S200000 ![] bcast_S_S200000 : (⟨S_, .i32⟩ : BufTy).Contents (Elt F) → (⟨S200000, .i32⟩ : BufTy).Contents (Elt F)),
    StableHlo.binary main_v1 main_v277 main_v278 (cmpi .slt : (⟨S200000, .i32⟩ : BufTy).Contents (Elt F) → (⟨S200000, .i32⟩ : BufTy).Contents (Elt F) → (⟨S200000, .i1⟩ : BufTy).Contents (Elt F)),
    StableHlo.nullary main_c_54 (constantI S_ 32 20000#32),
    StableHlo.unary main_c_54 main_v279 (broadcastInDim S200000 ![] bcast_S_S200000 : (⟨S_, .i32⟩ : BufTy).Contents (Elt F) → (⟨S200000, .i32⟩ : BufTy).Contents (Elt F)),
    StableHlo.binary main_v1 main_v279 main_v280 (addi : (⟨S200000, .i32⟩ : BufTy).Contents (Elt F) → (⟨S200000, .i32⟩ : BufTy).Contents (Elt F) → (⟨S200000, .i32⟩ : BufTy).Contents (Elt F)),
    StableHlo.ternary main_v278 main_v280 main_v1 main_v281 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v281 main_v282 (broadcastInDim S200000x1 ![0] bcast_S200000_S200000x1_0 : (⟨S200000, .i32⟩ : BufTy).Contents (Elt F) → (⟨S200000x1, .i32⟩ : BufTy).Contents (Elt F)),
    StableHlo.binary main_v274 main_v282 main_v283 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    StableHlo.unary main_v276 main_v284 (broadcastInDim S200000x16 ![0, 1] bcast_S200000x1_S200000x16_0_1 : (⟨S200000x1, .f32⟩ : BufTy).Contents (Elt F) → (⟨S200000x16, .f32⟩ : BufTy).Contents (Elt F)),
    StableHlo.binary main_v284 main_v283 main_v285 (mulf : (⟨S200000x16, .f32⟩ : BufTy).Contents (Elt F) → (⟨S200000x16, .f32⟩ : BufTy).Contents (Elt F) → (⟨S200000x16, .f32⟩ : BufTy).Contents (Elt F)),
    StableHlo.nullary main_cst_55 (constant S_ .f32 0x00000000#32),
    StableHlo.unary main_cst_55 main_v286 (broadcastInDim S20000x16 ![] bcast_S_S20000x16 : (⟨S_, .f32⟩ : BufTy).Contents (Elt F) → (⟨S20000x16, .f32⟩ : BufTy).Contents (Elt F)),
    StableHlo.unary main_v3 main_v287 (broadcastInDim S200000x1 ![0] bcast_S200000_S200000x1_0 : (⟨S200000, .i32⟩ : BufTy).Contents (Elt F) → (⟨S200000x1, .i32⟩ : BufTy).Contents (Elt F)),
    StableHlo.ternary main_v286 main_v287 main_v285 main_v288 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    StableHlo.unary main_v288 main_v289 (Host.negf : (⟨S20000x16, .f32⟩ : BufTy).Contents (Elt F) → (⟨S20000x16, .f32⟩ : BufTy).Contents (Elt F)),
    StableHlo.unary main_arg12 main_v290 ((extractStridedSlice S1x16x16 ![0, 0, 0] · slices_S3x16x16_S1x16x16_0_0_0) : (⟨S3x16x16, .f32⟩ : BufTy).Contents (Elt F) → (⟨S1x16x16, .f32⟩ : BufTy).Contents (Elt F)),
    StableHlo.reshape main_v290 main_v291 rfl shapeCasts_S1x16x16_S16x16,
    StableHlo.binary main_v274 main_v291 main_v292 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    StableHlo.unary main_arg12 main_v293 ((extractStridedSlice S1x16x16 ![1, 0, 0] · slices_S3x16x16_S1x16x16_1_0_0) : (⟨S3x16x16, .f32⟩ : BufTy).Contents (Elt F) → (⟨S1x16x16, .f32⟩ : BufTy).Contents (Elt F)),
    StableHlo.reshape main_v293 main_v294 rfl shapeCasts_S1x16x16_S16x16,
    StableHlo.binary main_v289 main_v294 main_v295 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    StableHlo.binary main_v292 main_v295 main_v296 (addf : (⟨S20000x16, .f32⟩ : BufTy).Contents (Elt F) → (⟨S20000x16, .f32⟩ : BufTy).Contents (Elt F) → (⟨S20000x16, .f32⟩ : BufTy).Contents (Elt F)),
    StableHlo.unary main_v125 main_v297 (broadcastInDim S200000x1 ![0] bcast_S200000_S200000x1_0 : (⟨S200000, .f32⟩ : BufTy).Contents (Elt F) → (⟨S200000x1, .f32⟩ : BufTy).Contents (Elt F)),
    StableHlo.nullary main_c_56 (constantI S_ 32 0#32),
    StableHlo.unary main_c_56 main_v298 (broadcastInDim S200000 ![] bcast_S_S200000 : (⟨S_, .i32⟩ : BufTy).Contents (Elt F) → (⟨S200000, .i32⟩ : BufTy).Contents (Elt F)),
    StableHlo.binary main_v1 main_v298 main_v299 (cmpi .slt : (⟨S200000, .i32⟩ : BufTy).Contents (Elt F) → (⟨S200000, .i32⟩ : BufTy).Contents (Elt F) → (⟨S200000, .i1⟩ : BufTy).Contents (Elt F)),
    StableHlo.nullary main_c_57 (constantI S_ 32 20000#32),
    StableHlo.unary main_c_57 main_v300 (broadcastInDim S200000 ![] bcast_S_S200000 : (⟨S_, .i32⟩ : BufTy).Contents (Elt F) → (⟨S200000, .i32⟩ : BufTy).Contents (Elt F)),
    StableHlo.binary main_v1 main_v300 main_v301 (addi : (⟨S200000, .i32⟩ : BufTy).Contents (Elt F) → (⟨S200000, .i32⟩ : BufTy).Contents (Elt F) → (⟨S200000, .i32⟩ : BufTy).Contents (Elt F)),
    StableHlo.ternary main_v299 main_v301 main_v1 main_v302 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    StableHlo.unary main_v302 main_v303 (broadcastInDim S200000x1 ![0] bcast_S200000_S200000x1_0 : (⟨S200000, .i32⟩ : BufTy).Contents (Elt F) → (⟨S200000x1, .i32⟩ : BufTy).Contents (Elt F)),
    StableHlo.binary main_v289 main_v303 main_v304 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    StableHlo.unary main_v297 main_v305 (broadcastInDim S200000x16 ![0, 1] bcast_S200000x1_S200000x16_0_1 : (⟨S200000x1, .f32⟩ : BufTy).Contents (Elt F) → (⟨S200000x16, .f32⟩ : BufTy).Contents (Elt F)),
    StableHlo.binary main_v305 main_v304 main_v306 (mulf : (⟨S200000x16, .f32⟩ : BufTy).Contents (Elt F) → (⟨S200000x16, .f32⟩ : BufTy).Contents (Elt F) → (⟨S200000x16, .f32⟩ : BufTy).Contents (Elt F)),
    StableHlo.nullary main_cst_58 (constant S_ .f32 0x00000000#32),
    StableHlo.unary main_cst_58 main_v307 (broadcastInDim S20000x16 ![] bcast_S_S20000x16 : (⟨S_, .f32⟩ : BufTy).Contents (Elt F) → (⟨S20000x16, .f32⟩ : BufTy).Contents (Elt F)),
    StableHlo.unary main_v3 main_v308 (broadcastInDim S200000x1 ![0] bcast_S200000_S200000x1_0 : (⟨S200000, .i32⟩ : BufTy).Contents (Elt F) → (⟨S200000x1, .i32⟩ : BufTy).Contents (Elt F)),
    StableHlo.ternary main_v307 main_v308 main_v306 main_v309 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    StableHlo.unary main_v309 main_v310 (Host.negf : (⟨S20000x16, .f32⟩ : BufTy).Contents (Elt F) → (⟨S20000x16, .f32⟩ : BufTy).Contents (Elt F)),
    StableHlo.nullary main_cst_59 (constant S_ .f32 0x40000000#32),
    StableHlo.unary main_cst_59 main_v311 (broadcastInDim S20000x16 ![] bcast_S_S20000x16 : (⟨S_, .f32⟩ : BufTy).Contents (Elt F) → (⟨S20000x16, .f32⟩ : BufTy).Contents (Elt F)),
    StableHlo.binary main_v311 main_v310 main_v312 (mulf : (⟨S20000x16, .f32⟩ : BufTy).Contents (Elt F) → (⟨S20000x16, .f32⟩ : BufTy).Contents (Elt F) → (⟨S20000x16, .f32⟩ : BufTy).Contents (Elt F)),
    StableHlo.binary main_v312 main_v274 main_v313 (subf : (⟨S20000x16, .f32⟩ : BufTy).Contents (Elt F) → (⟨S20000x16, .f32⟩ : BufTy).Contents (Elt F) → (⟨S20000x16, .f32⟩ : BufTy).Contents (Elt F)),
    StableHlo.unary main_arg12 main_v314 ((extractStridedSlice S1x16x16 ![2, 0, 0] · slices_S3x16x16_S1x16x16_2_0_0) : (⟨S3x16x16, .f32⟩ : BufTy).Contents (Elt F) → (⟨S1x16x16, .f32⟩ : BufTy).Contents (Elt F)),
    StableHlo.reshape main_v314 main_v315 rfl shapeCasts_S1x16x16_S16x16,
    StableHlo.binary main_v313 main_v315 main_v316 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    StableHlo.binary main_v296 main_v316 main_v317 (addf : (⟨S20000x16, .f32⟩ : BufTy).Contents (Elt F) → (⟨S20000x16, .f32⟩ : BufTy).Contents (Elt F) → (⟨S20000x16, .f32⟩ : BufTy).Contents (Elt F)),
    StableHlo.nullary main_cst_60 (constant S_ .f32 0x00000000#32),
    StableHlo.unary main_cst_60 main_v318 (broadcastInDim S20000x16 ![] bcast_S_S20000x16 : (⟨S_, .f32⟩ : BufTy).Contents (Elt F) → (⟨S20000x16, .f32⟩ : BufTy).Contents (Elt F)),
    StableHlo.binary main_v317 main_v318 main_v319 (maximumf : (⟨S20000x16, .f32⟩ : BufTy).Contents (Elt F) → (⟨S20000x16, .f32⟩ : BufTy).Contents (Elt F) → (⟨S20000x16, .f32⟩ : BufTy).Contents (Elt F)),
    StableHlo.binary main_v275 main_v319 main_v320 ((fun a b => concatenate S20000x64 1 [⟨S20000x48, a⟩, ⟨S20000x16, b⟩] concatenates_S20000x48_S20000x16_S20000x64_d1) : (⟨S20000x48, .f32⟩ : BufTy).Contents (Elt F) → (⟨S20000x16, .f32⟩ : BufTy).Contents (Elt F) → (⟨S20000x64, .f32⟩ : BufTy).Contents (Elt F)) ]
/-- The references chunk 4's operations write, in order. -/
abbrev Lk4 : List (Ref sig .tc) := [main_v276, main_c_53, main_v277, main_v278, main_c_54, main_v279, main_v280, main_v281, main_v282, main_v283, main_v284, main_v285, main_cst_55, main_v286, main_v287, main_v288, main_v289, main_v290, main_v291, main_v292, main_v293, main_v294, main_v295, main_v296, main_v297, main_c_56, main_v298, main_v299, main_c_57, main_v300, main_v301, main_v302, main_v303, main_v304, main_v305, main_v306, main_cst_58, main_v307, main_v308, main_v309, main_v310, main_cst_59, main_v311, main_v312, main_v313, main_v314, main_v315, main_v316, main_v317, main_cst_60, main_v318, main_v319, main_v320]
set_option maxRecDepth 8192 in
theorem kc4_writes : (kc4 : List (HloOp τ sig (Elt F))).Forall fun op => op.writes ⊆ (Lk4.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference chunk 4 does not write keeps its contents through it. -/
theorem kc4_keeps {r : Ref sig .tc} (hr : r ∉ Lk4) (V : Valuation τ sig (Elt F)) :
    StableHlo.after (kc4 : List (HloOp τ sig (Elt F))) V (Proc.devRef .tc r) = V (Proc.devRef .tc r) :=
  StableHlo.after_of_writes_sub kc4 V kc4_writes hr

/-- Operations 250 to 253 of the stretch (4 operations). -/
abbrev kc5 : List (HloOp τ sig (Elt F)) :=
  [ StableHlo.unary main_v320 main_v321 ((truncf .bf16 · bitsLt_bf16_f32) : (⟨S20000x64, .f32⟩ : BufTy).Contents (Elt F) → (⟨S20000x64, .bf16⟩ : BufTy).Contents (Elt F)),
    StableHlo.unary main_arg13 main_v322 ((truncf .bf16 · bitsLt_bf16_f32) : (⟨S256x64, .f32⟩ : BufTy).Contents (Elt F) → (⟨S256x64, .bf16⟩ : BufTy).Contents (Elt F)),
    StableHlo.unary main_v322 main_v323 ((transpose S64x256 [1, 0] · transposes_S256x64_S64x256_1_0) : (⟨S256x64, .bf16⟩ : BufTy).Contents (Elt F) → (⟨S64x256, .bf16⟩ : BufTy).Contents (Elt F)),
    StableHlo.reshape main_arg14 main_v324 rfl shapeCasts_S256_S1x256 ]
/-- The references chunk 5's operations write, in order. -/
abbrev Lk5 : List (Ref sig .tc) := [main_v321, main_v322, main_v323, main_v324]
set_option maxRecDepth 8192 in
theorem kc5_writes : (kc5 : List (HloOp τ sig (Elt F))).Forall fun op => op.writes ⊆ (Lk5.map (Proc.devRef (τ := τ) .tc)).toFinset := by
  simp only [List.Forall]
  refine ⟨?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference chunk 5 does not write keeps its contents through it. -/
theorem kc5_keeps {r : Ref sig .tc} (hr : r ∉ Lk5) (V : Valuation τ sig (Elt F)) :
    StableHlo.after (kc5 : List (HloOp τ sig (Elt F))) V (Proc.devRef .tc r) = V (Proc.devRef .tc r) :=
  StableHlo.after_of_writes_sub kc5 V kc5_writes hr

set_option maxRecDepth 65536 in
set_option maxHeartbeats 4000000 in
/-- The stretch is its six chunks one after the other. -/
theorem hostOps4_2_split : (hostOps4_2 : List (HloOp τ sig (Elt F))) = kc0 ++ kc1 ++ kc2 ++ kc3 ++ kc4 ++ kc5 := rfl

/-- The contents after the stretch: the chunks' results folded in order. -/
theorem after_hostOps4_2 (V : Valuation τ sig (Elt F)) :
    StableHlo.after hostOps4_2 V = StableHlo.after kc5 (StableHlo.after kc4 (StableHlo.after kc3 (StableHlo.after kc2 (StableHlo.after kc1 (StableHlo.after kc0 V))))) := by
  rw [hostOps4_2_split, after_append, after_append, after_append, after_append, after_append]

end Cert.KernelIdeal.Frame

end
-- ==== Proof.KI.Writes.lean ====
/- What each of the fifteen segments of the main function may change. A stretch of host operations writes
   exactly the result references of its operations (the list `Lw` of the boundary it starts from); a dense-layer region
   changes only its output array. A reference outside a stretch's list holds after the stretch what it held before. -/
import proofs.«115122_j13357348290767_2_alg».proof.Proof.Gen.KernelIdeal.Launch
import proofs.«115122_j13357348290767_2_alg».proof.Proof.KI.Chunks
import Idealize.ShloMosaic.Lib.StableHlo.Run

noncomputable section

namespace Cert.KernelIdeal.Frame

open Cert.KernelIdeal Cert.KernelIdeal.Gen Idealize.ShloMosaic Idealize.ShloMosaic.TcCoe Idealize.SL.Sem

variable {F : FTy → Type} [FloatOps F]

/-- The references `hostOps0`'s 10 operations write. -/
abbrev Lw0 : List (Ref sig .tc) := [main_v0, main_v1, main_v2, main_v3, main_v4, main_v5, main_v6, main_v7, main_v8, main_v9]
set_option maxRecDepth 8192 in
theorem hostOps0_writes : (hostOps0 : List (HloOp τ sig (Elt F))).Forall fun op => op.writes ⊆ (Lw0.map (Proc.devRef (τ := τ) .tc)).toFinset := by
  simp only [List.Forall]
  refine ⟨?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference `hostOps0` does not write keeps its contents through it. -/
theorem hostOps0_keeps {r : Ref sig .tc} (hr : r ∉ Lw0) (V : Valuation τ sig (Elt F)) :
    StableHlo.after (hostOps0 : List (HloOp τ sig (Elt F))) V (Proc.devRef .tc r) = V (Proc.devRef .tc r) :=
  StableHlo.after_of_writes_sub hostOps0 V hostOps0_writes hr

/-- Region 0 changes only its output array. -/
abbrev Lw1 : List (Ref sig .tc) := [main_v10]

/-- The references `hostOps1`'s 31 operations write. -/
abbrev Lw2 : List (Ref sig .tc) := [main_v11, main_v12, main_v13, main_v14, main_v15, main_v16, main_v17, main_v18, main_cst, main_v19, main_v20, main_cst_0, main_v21, main_v22, main_v23, main_v24, main_v25, main_v26, main_v27, main_v28, main_v29, main_cst_1, main_v30, main_v31, main_cst_2, main_v32, main_v33, main_v34, main_v35, main_v36, main_v37]
set_option maxRecDepth 8192 in
theorem hostOps1_writes : (hostOps1 : List (HloOp τ sig (Elt F))).Forall fun op => op.writes ⊆ (Lw2.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference `hostOps1` does not write keeps its contents through it. -/
theorem hostOps1_keeps {r : Ref sig .tc} (hr : r ∉ Lw2) (V : Valuation τ sig (Elt F)) :
    StableHlo.after (hostOps1 : List (HloOp τ sig (Elt F))) V (Proc.devRef .tc r) = V (Proc.devRef .tc r) :=
  StableHlo.after_of_writes_sub hostOps1 V hostOps1_writes hr

/-- Region 1 changes only its output array. -/
abbrev Lw3 : List (Ref sig .tc) := [main_v38]

/-- The references `hostOps2`'s 1 operation write. -/
abbrev Lw4 : List (Ref sig .tc) := [main_v39]
set_option maxRecDepth 8192 in
theorem hostOps2_writes : (hostOps2 : List (HloOp τ sig (Elt F))).Forall fun op => op.writes ⊆ (Lw4.map (Proc.devRef (τ := τ) .tc)).toFinset := by
  simp only [List.Forall]
  simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)
/-- A reference `hostOps2` does not write keeps its contents through it. -/
theorem hostOps2_keeps {r : Ref sig .tc} (hr : r ∉ Lw4) (V : Valuation τ sig (Elt F)) :
    StableHlo.after (hostOps2 : List (HloOp τ sig (Elt F))) V (Proc.devRef .tc r) = V (Proc.devRef .tc r) :=
  StableHlo.after_of_writes_sub hostOps2 V hostOps2_writes hr

/-- Region 2 changes only its output array. -/
abbrev Lw5 : List (Ref sig .tc) := [main_v40]

/-- The references `hostOps3`'s 78 operations write. -/
abbrev Lw6 : List (Ref sig .tc) := [main_v41, main_c, main_v42, main_v43, main_c_3, main_v44, main_v45, main_v46, main_v47, main_v48, main_v49, main_c_4, main_v50, main_v51, main_c_5, main_v52, main_v53, main_v54, main_v55, main_v56, main_v57, main_v58, main_cst_6, main_v59, main_v60, main_cst_7, main_v61, main_c_8, main_v62, main_v63, main_c_9, main_v64, main_v65, main_v66, main_v67, main_v68, main_c_10, main_v69, main_v70, main_c_11, main_v71, main_v72, main_v73, main_v74, main_v75, main_v76, main_cst_12, main_v77, main_v78, main_v79, main_cst_13, main_v80, main_v81, main_cst_14, main_v82, main_v83, main_v84, main_cst_15, main_v85, main_v86, main_v87, main_v88, main_cst_16, main_v89, main_v90, main_v91, main_v92, main_cst_17, main_v93, main_v94, main_cst_18, main_v95, main_v96, main_v97, main_v98, main_v99, main_v100, main_v101]
set_option maxRecDepth 8192 in
theorem hostOps3_writes : (hostOps3 : List (HloOp τ sig (Elt F))).Forall fun op => op.writes ⊆ (Lw6.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference `hostOps3` does not write keeps its contents through it. -/
theorem hostOps3_keeps {r : Ref sig .tc} (hr : r ∉ Lw6) (V : Valuation τ sig (Elt F)) :
    StableHlo.after (hostOps3 : List (HloOp τ sig (Elt F))) V (Proc.devRef .tc r) = V (Proc.devRef .tc r) :=
  StableHlo.after_of_writes_sub hostOps3 V hostOps3_writes hr

/-- Region 3 changes only its output array. -/
abbrev Lw7 : List (Ref sig .tc) := [main_v102]

/-- The references `hostOps4`'s 9 operations write. -/
abbrev Lw8 : List (Ref sig .tc) := [main_cst_19, main_v103, main_v104, main_v105, main_cst_20, main_v106, main_v107, main_v108, main_cst_21]
set_option maxRecDepth 8192 in
theorem hostOps4_writes : (hostOps4 : List (HloOp τ sig (Elt F))).Forall fun op => op.writes ⊆ (Lw8.map (Proc.devRef (τ := τ) .tc)).toFinset := by
  simp only [List.Forall]
  refine ⟨?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference `hostOps4` does not write keeps its contents through it. -/
theorem hostOps4_keeps {r : Ref sig .tc} (hr : r ∉ Lw8) (V : Valuation τ sig (Elt F)) :
    StableHlo.after (hostOps4 : List (HloOp τ sig (Elt F))) V (Proc.devRef .tc r) = V (Proc.devRef .tc r) :=
  StableHlo.after_of_writes_sub hostOps4 V hostOps4_writes hr

/-- The references `hostOps4_1`'s 3 operations write. -/
abbrev Lw9 : List (Ref sig .tc) := [main_call0_v0, main_call0_v1, main_v109]
set_option maxRecDepth 8192 in
theorem hostOps4_1_writes : (hostOps4_1 : List (HloOp τ sig (Elt F))).Forall fun op => op.writes ⊆ (Lw9.map (Proc.devRef (τ := τ) .tc)).toFinset := by
  simp only [List.Forall]
  refine ⟨?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference `hostOps4_1` does not write keeps its contents through it. -/
theorem hostOps4_1_keeps {r : Ref sig .tc} (hr : r ∉ Lw9) (V : Valuation τ sig (Elt F)) :
    StableHlo.after (hostOps4_1 : List (HloOp τ sig (Elt F))) V (Proc.devRef .tc r) = V (Proc.devRef .tc r) :=
  StableHlo.after_of_writes_sub hostOps4_1 V hostOps4_1_writes hr

/-- The references the 254-operation stretch writes: its six chunks' lists in order. -/
abbrev Lw10 : List (Ref sig .tc) := Lk0 ++ Lk1 ++ Lk2 ++ Lk3 ++ Lk4 ++ Lk5
/-- A reference the stretch does not write keeps its contents through it. -/
theorem hostOps4_2_keeps {r : Ref sig .tc} (hr : r ∉ Lw10) (V : Valuation τ sig (Elt F)) :
    StableHlo.after (hostOps4_2 : List (HloOp τ sig (Elt F))) V (Proc.devRef .tc r) = V (Proc.devRef .tc r) := by
  have h := hr
  simp only [List.mem_append, not_or] at h
  obtain ⟨⟨⟨⟨⟨h0, h1⟩, h2⟩, h3⟩, h4⟩, h5⟩ := h
  rw [after_hostOps4_2, kc5_keeps h5, kc4_keeps h4, kc3_keeps h3, kc2_keeps h2, kc1_keeps h1, kc0_keeps h0]

/-- Region 4 changes only its output array. -/
abbrev Lw11 : List (Ref sig .tc) := [main_v325]

/-- The references `hostOps5`'s 9 operations write. -/
abbrev Lw12 : List (Ref sig .tc) := [main_v326, main_v327, main_v328, main_v329, main_v330, main_v331, main_v332, main_v333, main_v334]
set_option maxRecDepth 8192 in
theorem hostOps5_writes : (hostOps5 : List (HloOp τ sig (Elt F))).Forall fun op => op.writes ⊆ (Lw12.map (Proc.devRef (τ := τ) .tc)).toFinset := by
  simp only [List.Forall]
  refine ⟨?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference `hostOps5` does not write keeps its contents through it. -/
theorem hostOps5_keeps {r : Ref sig .tc} (hr : r ∉ Lw12) (V : Valuation τ sig (Elt F)) :
    StableHlo.after (hostOps5 : List (HloOp τ sig (Elt F))) V (Proc.devRef .tc r) = V (Proc.devRef .tc r) :=
  StableHlo.after_of_writes_sub hostOps5 V hostOps5_writes hr

/-- Region 5 changes only its output array. -/
abbrev Lw13 : List (Ref sig .tc) := [main_v335]

/-- The references `hostOps6`'s 5 operations write. -/
abbrev Lw14 : List (Ref sig .tc) := [main_v336, main_v337, main_v338, main_v339, main_v340]
set_option maxRecDepth 8192 in
theorem hostOps6_writes : (hostOps6 : List (HloOp τ sig (Elt F))).Forall fun op => op.writes ⊆ (Lw14.map (Proc.devRef (τ := τ) .tc)).toFinset := by
  simp only [List.Forall]
  refine ⟨?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A reference `hostOps6` does not write keeps its contents through it. -/
theorem hostOps6_keeps {r : Ref sig .tc} (hr : r ∉ Lw14) (V : Valuation τ sig (Elt F)) :
    StableHlo.after (hostOps6 : List (HloOp τ sig (Elt F))) V (Proc.devRef .tc r) = V (Proc.devRef .tc r) :=
  StableHlo.after_of_writes_sub hostOps6 V hostOps6_writes hr

end Cert.KernelIdeal.Frame

end
-- ==== Proof.KI.Keep.lean ====
/- Which buffers each segment of the main function leaves alone, stated on the boundary contents: a reference a
   stretch of host operations does not write, and any reference other than a region's output array, holds at the next
   boundary what it held at the one before (a region's three input arrays are read, never written back; every buffer
   that is no window array bypasses the region). And each region's output array at the region's exit is what the
   pipeline's write-backs leave. -/
import proofs.«115122_j13357348290767_2_alg».proof.Proof.KI.W
import proofs.«115122_j13357348290767_2_alg».proof.Proof.KI.Writes

noncomputable section

namespace Cert.KernelIdeal.Frame

open Cert.KernelIdeal Cert.KernelIdeal.Gen Idealize.ShloMosaic Idealize.ShloMosaic.TcCoe Idealize.SL.Sem

variable {F : FTy → Type} [FloatOps F]

open Idealize.ShloMosaic.Pipeline (Dat)

variable (m : (ℓ : Loc nD τ sig) → Buf (Elt F) ℓ) (ρ : Dev nD → PrngReg)

/-- Through `hostOps0`. -/
theorem W1_keep (c : Dev nD) {r : Ref sig .tc} (hr : r ∉ Lw0) :
    W1 m ρ c (Proc.devRef .tc r) = W0 m ρ c (Proc.devRef .tc r) :=
  hostOps0_keeps hr (W0 m ρ c)

/-- Region 0's output array at its exit. -/
theorem W2_out (c : Dev nD) : W2 m ρ c (Proc.devRef .tc main_v10) = (dat0 (V1 m ρ) c).arrAt 3 cfg0.N :=
  W2_arr m ρ c 3
/-- Through region 0: every reference but the output array. -/
theorem W2_keep (c : Dev nD) {r : Ref sig .tc} (hr : r ∉ Lw1) :
    W2 m ρ c (Proc.devRef .tc r) = W1 m ρ c (Proc.devRef .tc r) := by
  by_cases h : ∃ w, Pipeline.arrRef spec0 w = r
  · obtain ⟨w, rfl⟩ := h
    rw [W2_arr]
    match w with
    | ⟨0, _⟩ => exact ((dat0 (V1 m ρ) c).arrAt_in 0 rfl _).trans (A_eq0 (V1 m ρ) c 0)
    | ⟨1, _⟩ => exact ((dat0 (V1 m ρ) c).arrAt_in 1 rfl _).trans (A_eq0 (V1 m ρ) c 1)
    | ⟨2, _⟩ => exact ((dat0 (V1 m ρ) c).arrAt_in 2 rfl _).trans (A_eq0 (V1 m ρ) c 2)
    | ⟨3, _⟩ => exact absurd (List.mem_singleton.mpr rfl) hr
  · exact W2_of_ne m ρ c r fun w e => h ⟨w, e⟩

/-- Through `hostOps1`. -/
theorem W3_keep (c : Dev nD) {r : Ref sig .tc} (hr : r ∉ Lw2) :
    W3 m ρ c (Proc.devRef .tc r) = W2 m ρ c (Proc.devRef .tc r) :=
  hostOps1_keeps hr (W2 m ρ c)

/-- Region 1's output array at its exit. -/
theorem W4_out (c : Dev nD) : W4 m ρ c (Proc.devRef .tc main_v38) = (dat1 (V3 m ρ) c).arrAt 3 cfg1.N :=
  W4_arr m ρ c 3
/-- Through region 1: every reference but the output array. -/
theorem W4_keep (c : Dev nD) {r : Ref sig .tc} (hr : r ∉ Lw3) :
    W4 m ρ c (Proc.devRef .tc r) = W3 m ρ c (Proc.devRef .tc r) := by
  by_cases h : ∃ w, Pipeline.arrRef spec1 w = r
  · obtain ⟨w, rfl⟩ := h
    rw [W4_arr]
    match w with
    | ⟨0, _⟩ => exact ((dat1 (V3 m ρ) c).arrAt_in 0 rfl _).trans (A_eq1 (V3 m ρ) c 0)
    | ⟨1, _⟩ => exact ((dat1 (V3 m ρ) c).arrAt_in 1 rfl _).trans (A_eq1 (V3 m ρ) c 1)
    | ⟨2, _⟩ => exact ((dat1 (V3 m ρ) c).arrAt_in 2 rfl _).trans (A_eq1 (V3 m ρ) c 2)
    | ⟨3, _⟩ => exact absurd (List.mem_singleton.mpr rfl) hr
  · exact W4_of_ne m ρ c r fun w e => h ⟨w, e⟩

/-- Through `hostOps2`. -/
theorem W5_keep (c : Dev nD) {r : Ref sig .tc} (hr : r ∉ Lw4) :
    W5 m ρ c (Proc.devRef .tc r) = W4 m ρ c (Proc.devRef .tc r) :=
  hostOps2_keeps hr (W4 m ρ c)

/-- Region 2's output array at its exit. -/
theorem W6_out (c : Dev nD) : W6 m ρ c (Proc.devRef .tc main_v40) = (dat2 (V5 m ρ) c).arrAt 3 cfg2.N :=
  W6_arr m ρ c 3
/-- Through region 2: every reference but the output array. -/
theorem W6_keep (c : Dev nD) {r : Ref sig .tc} (hr : r ∉ Lw5) :
    W6 m ρ c (Proc.devRef .tc r) = W5 m ρ c (Proc.devRef .tc r) := by
  by_cases h : ∃ w, Pipeline.arrRef spec2 w = r
  · obtain ⟨w, rfl⟩ := h
    rw [W6_arr]
    match w with
    | ⟨0, _⟩ => exact ((dat2 (V5 m ρ) c).arrAt_in 0 rfl _).trans (A_eq2 (V5 m ρ) c 0)
    | ⟨1, _⟩ => exact ((dat2 (V5 m ρ) c).arrAt_in 1 rfl _).trans (A_eq2 (V5 m ρ) c 1)
    | ⟨2, _⟩ => exact ((dat2 (V5 m ρ) c).arrAt_in 2 rfl _).trans (A_eq2 (V5 m ρ) c 2)
    | ⟨3, _⟩ => exact absurd (List.mem_singleton.mpr rfl) hr
  · exact W6_of_ne m ρ c r fun w e => h ⟨w, e⟩

/-- Through `hostOps3`. -/
theorem W7_keep (c : Dev nD) {r : Ref sig .tc} (hr : r ∉ Lw6) :
    W7 m ρ c (Proc.devRef .tc r) = W6 m ρ c (Proc.devRef .tc r) :=
  hostOps3_keeps hr (W6 m ρ c)

/-- Region 3's output array at its exit. -/
theorem W8_out (c : Dev nD) : W8 m ρ c (Proc.devRef .tc main_v102) = (dat3 (V7 m ρ) c).arrAt 3 cfg3.N :=
  W8_arr m ρ c 3
/-- Through region 3: every reference but the output array. -/
theorem W8_keep (c : Dev nD) {r : Ref sig .tc} (hr : r ∉ Lw7) :
    W8 m ρ c (Proc.devRef .tc r) = W7 m ρ c (Proc.devRef .tc r) := by
  by_cases h : ∃ w, Pipeline.arrRef spec3 w = r
  · obtain ⟨w, rfl⟩ := h
    rw [W8_arr]
    match w with
    | ⟨0, _⟩ => exact ((dat3 (V7 m ρ) c).arrAt_in 0 rfl _).trans (A_eq3 (V7 m ρ) c 0)
    | ⟨1, _⟩ => exact ((dat3 (V7 m ρ) c).arrAt_in 1 rfl _).trans (A_eq3 (V7 m ρ) c 1)
    | ⟨2, _⟩ => exact ((dat3 (V7 m ρ) c).arrAt_in 2 rfl _).trans (A_eq3 (V7 m ρ) c 2)
    | ⟨3, _⟩ => exact absurd (List.mem_singleton.mpr rfl) hr
  · exact W8_of_ne m ρ c r fun w e => h ⟨w, e⟩

/-- Through `hostOps4`. -/
theorem W9_keep (c : Dev nD) {r : Ref sig .tc} (hr : r ∉ Lw8) :
    W9 m ρ c (Proc.devRef .tc r) = W8 m ρ c (Proc.devRef .tc r) :=
  hostOps4_keeps hr (W8 m ρ c)

/-- Through `hostOps4_1`. -/
theorem W10_keep (c : Dev nD) {r : Ref sig .tc} (hr : r ∉ Lw9) :
    W10 m ρ c (Proc.devRef .tc r) = W9 m ρ c (Proc.devRef .tc r) :=
  hostOps4_1_keeps hr (W9 m ρ c)

/-- Through `hostOps4_2`. -/
theorem W11_keep (c : Dev nD) {r : Ref sig .tc} (hr : r ∉ Lw10) :
    W11 m ρ c (Proc.devRef .tc r) = W10 m ρ c (Proc.devRef .tc r) :=
  hostOps4_2_keeps hr (W10 m ρ c)

/-- Region 4's output array at its exit. -/
theorem W12_out (c : Dev nD) : W12 m ρ c (Proc.devRef .tc main_v325) = (dat4 (V11 m ρ) c).arrAt 3 cfg4.N :=
  W12_arr m ρ c 3
/-- Through region 4: every reference but the output array. -/
theorem W12_keep (c : Dev nD) {r : Ref sig .tc} (hr : r ∉ Lw11) :
    W12 m ρ c (Proc.devRef .tc r) = W11 m ρ c (Proc.devRef .tc r) := by
  by_cases h : ∃ w, Pipeline.arrRef spec4 w = r
  · obtain ⟨w, rfl⟩ := h
    rw [W12_arr]
    match w with
    | ⟨0, _⟩ => exact ((dat4 (V11 m ρ) c).arrAt_in 0 rfl _).trans (A_eq4 (V11 m ρ) c 0)
    | ⟨1, _⟩ => exact ((dat4 (V11 m ρ) c).arrAt_in 1 rfl _).trans (A_eq4 (V11 m ρ) c 1)
    | ⟨2, _⟩ => exact ((dat4 (V11 m ρ) c).arrAt_in 2 rfl _).trans (A_eq4 (V11 m ρ) c 2)
    | ⟨3, _⟩ => exact absurd (List.mem_singleton.mpr rfl) hr
  · exact W12_of_ne m ρ c r fun w e => h ⟨w, e⟩

/-- Through `hostOps5`. -/
theorem W13_keep (c : Dev nD) {r : Ref sig .tc} (hr : r ∉ Lw12) :
    W13 m ρ c (Proc.devRef .tc r) = W12 m ρ c (Proc.devRef .tc r) :=
  hostOps5_keeps hr (W12 m ρ c)

/-- Region 5's output array at its exit. -/
theorem W14_out (c : Dev nD) : W14 m ρ c (Proc.devRef .tc main_v335) = (dat5 (V13 m ρ) c).arrAt 3 cfg5.N :=
  W14_arr m ρ c 3
/-- Through region 5: every reference but the output array. -/
theorem W14_keep (c : Dev nD) {r : Ref sig .tc} (hr : r ∉ Lw13) :
    W14 m ρ c (Proc.devRef .tc r) = W13 m ρ c (Proc.devRef .tc r) := by
  by_cases h : ∃ w, Pipeline.arrRef spec5 w = r
  · obtain ⟨w, rfl⟩ := h
    rw [W14_arr]
    match w with
    | ⟨0, _⟩ => exact ((dat5 (V13 m ρ) c).arrAt_in 0 rfl _).trans (A_eq5 (V13 m ρ) c 0)
    | ⟨1, _⟩ => exact ((dat5 (V13 m ρ) c).arrAt_in 1 rfl _).trans (A_eq5 (V13 m ρ) c 1)
    | ⟨2, _⟩ => exact ((dat5 (V13 m ρ) c).arrAt_in 2 rfl _).trans (A_eq5 (V13 m ρ) c 2)
    | ⟨3, _⟩ => exact absurd (List.mem_singleton.mpr rfl) hr
  · exact W14_of_ne m ρ c r fun w e => h ⟨w, e⟩

/-- Through `hostOps6`. -/
theorem W15_keep (c : Dev nD) {r : Ref sig .tc} (hr : r ∉ Lw14) :
    W15 m ρ c (Proc.devRef .tc r) = W14 m ρ c (Proc.devRef .tc r) :=
  hostOps6_keeps hr (W14 m ρ c)

end Cert.KernelIdeal.Frame

end
-- ==== Proof.KI.Args.lean ====
/- The main function returns its 25 argument arrays as launched: no host operation writes an argument and no
   dense-layer region has an argument as its output array, so at each of the fifteen boundaries an argument's buffer
   holds what it held at the one before, back to the launch memory. With the run of the segments this is the frame
   claim: every weakly fair execution terminates and every final state has each argument array at its launch contents. -/
import proofs.«115122_j13357348290767_2_alg».proof.Proof.KI.Run
import proofs.«115122_j13357348290767_2_alg».proof.Proof.KI.Keep
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W15_main_arg0 (c : Dev nD) : W15 m ρ c (Proc.devRef .tc main_arg0) = m ((c : Thread nD τ).loc main_arg0) :=
  (W15_keep m ρ c (r := main_arg0) (by decide)).trans <|
  (W14_keep m ρ c (r := main_arg0) (by decide)).trans <|
  (W13_keep m ρ c (r := main_arg0) (by decide)).trans <|
  (W12_keep m ρ c (r := main_arg0) (by decide)).trans <|
  (W11_keep m ρ c (r := main_arg0) (by decide)).trans <|
  (W10_keep m ρ c (r := main_arg0) (by decide)).trans <|
  (W9_keep m ρ c (r := main_arg0) (by decide)).trans <|
  (W8_keep m ρ c (r := main_arg0) (by decide)).trans <|
  (W7_keep m ρ c (r := main_arg0) (by decide)).trans <|
  (W6_keep m ρ c (r := main_arg0) (by decide)).trans <|
  (W5_keep m ρ c (r := main_arg0) (by decide)).trans <|
  (W4_keep m ρ c (r := main_arg0) (by decide)).trans <|
  (W3_keep m ρ c (r := main_arg0) (by decide)).trans <|
  (W2_keep m ρ c (r := main_arg0) (by decide)).trans <|
  (W1_keep m ρ c (r := main_arg0) (by decide)).trans rfl

theorem W15_main_arg1 (c : Dev nD) : W15 m ρ c (Proc.devRef .tc main_arg1) = m ((c : Thread nD τ).loc main_arg1) :=
  (W15_keep m ρ c (r := main_arg1) (by decide)).trans <|
  (W14_keep m ρ c (r := main_arg1) (by decide)).trans <|
  (W13_keep m ρ c (r := main_arg1) (by decide)).trans <|
  (W12_keep m ρ c (r := main_arg1) (by decide)).trans <|
  (W11_keep m ρ c (r := main_arg1) (by decide)).trans <|
  (W10_keep m ρ c (r := main_arg1) (by decide)).trans <|
  (W9_keep m ρ c (r := main_arg1) (by decide)).trans <|
  (W8_keep m ρ c (r := main_arg1) (by decide)).trans <|
  (W7_keep m ρ c (r := main_arg1) (by decide)).trans <|
  (W6_keep m ρ c (r := main_arg1) (by decide)).trans <|
  (W5_keep m ρ c (r := main_arg1) (by decide)).trans <|
  (W4_keep m ρ c (r := main_arg1) (by decide)).trans <|
  (W3_keep m ρ c (r := main_arg1) (by decide)).trans <|
  (W2_keep m ρ c (r := main_arg1) (by decide)).trans <|
  (W1_keep m ρ c (r := main_arg1) (by decide)).trans rfl

theorem W15_main_arg2 (c : Dev nD) : W15 m ρ c (Proc.devRef .tc main_arg2) = m ((c : Thread nD τ).loc main_arg2) :=
  (W15_keep m ρ c (r := main_arg2) (by decide)).trans <|
  (W14_keep m ρ c (r := main_arg2) (by decide)).trans <|
  (W13_keep m ρ c (r := main_arg2) (by decide)).trans <|
  (W12_keep m ρ c (r := main_arg2) (by decide)).trans <|
  (W11_keep m ρ c (r := main_arg2) (by decide)).trans <|
  (W10_keep m ρ c (r := main_arg2) (by decide)).trans <|
  (W9_keep m ρ c (r := main_arg2) (by decide)).trans <|
  (W8_keep m ρ c (r := main_arg2) (by decide)).trans <|
  (W7_keep m ρ c (r := main_arg2) (by decide)).trans <|
  (W6_keep m ρ c (r := main_arg2) (by decide)).trans <|
  (W5_keep m ρ c (r := main_arg2) (by decide)).trans <|
  (W4_keep m ρ c (r := main_arg2) (by decide)).trans <|
  (W3_keep m ρ c (r := main_arg2) (by decide)).trans <|
  (W2_keep m ρ c (r := main_arg2) (by decide)).trans <|
  (W1_keep m ρ c (r := main_arg2) (by decide)).trans rfl

theorem W15_main_arg3 (c : Dev nD) : W15 m ρ c (Proc.devRef .tc main_arg3) = m ((c : Thread nD τ).loc main_arg3) :=
  (W15_keep m ρ c (r := main_arg3) (by decide)).trans <|
  (W14_keep m ρ c (r := main_arg3) (by decide)).trans <|
  (W13_keep m ρ c (r := main_arg3) (by decide)).trans <|
  (W12_keep m ρ c (r := main_arg3) (by decide)).trans <|
  (W11_keep m ρ c (r := main_arg3) (by decide)).trans <|
  (W10_keep m ρ c (r := main_arg3) (by decide)).trans <|
  (W9_keep m ρ c (r := main_arg3) (by decide)).trans <|
  (W8_keep m ρ c (r := main_arg3) (by decide)).trans <|
  (W7_keep m ρ c (r := main_arg3) (by decide)).trans <|
  (W6_keep m ρ c (r := main_arg3) (by decide)).trans <|
  (W5_keep m ρ c (r := main_arg3) (by decide)).trans <|
  (W4_keep m ρ c (r := main_arg3) (by decide)).trans <|
  (W3_keep m ρ c (r := main_arg3) (by decide)).trans <|
  (W2_keep m ρ c (r := main_arg3) (by decide)).trans <|
  (W1_keep m ρ c (r := main_arg3) (by decide)).trans rfl

theorem W15_main_arg4 (c : Dev nD) : W15 m ρ c (Proc.devRef .tc main_arg4) = m ((c : Thread nD τ).loc main_arg4) :=
  (W15_keep m ρ c (r := main_arg4) (by decide)).trans <|
  (W14_keep m ρ c (r := main_arg4) (by decide)).trans <|
  (W13_keep m ρ c (r := main_arg4) (by decide)).trans <|
  (W12_keep m ρ c (r := main_arg4) (by decide)).trans <|
  (W11_keep m ρ c (r := main_arg4) (by decide)).trans <|
  (W10_keep m ρ c (r := main_arg4) (by decide)).trans <|
  (W9_keep m ρ c (r := main_arg4) (by decide)).trans <|
  (W8_keep m ρ c (r := main_arg4) (by decide)).trans <|
  (W7_keep m ρ c (r := main_arg4) (by decide)).trans <|
  (W6_keep m ρ c (r := main_arg4) (by decide)).trans <|
  (W5_keep m ρ c (r := main_arg4) (by decide)).trans <|
  (W4_keep m ρ c (r := main_arg4) (by decide)).trans <|
  (W3_keep m ρ c (r := main_arg4) (by decide)).trans <|
  (W2_keep m ρ c (r := main_arg4) (by decide)).trans <|
  (W1_keep m ρ c (r := main_arg4) (by decide)).trans rfl

theorem W15_main_arg5 (c : Dev nD) : W15 m ρ c (Proc.devRef .tc main_arg5) = m ((c : Thread nD τ).loc main_arg5) :=
  (W15_keep m ρ c (r := main_arg5) (by decide)).trans <|
  (W14_keep m ρ c (r := main_arg5) (by decide)).trans <|
  (W13_keep m ρ c (r := main_arg5) (by decide)).trans <|
  (W12_keep m ρ c (r := main_arg5) (by decide)).trans <|
  (W11_keep m ρ c (r := main_arg5) (by decide)).trans <|
  (W10_keep m ρ c (r := main_arg5) (by decide)).trans <|
  (W9_keep m ρ c (r := main_arg5) (by decide)).trans <|
  (W8_keep m ρ c (r := main_arg5) (by decide)).trans <|
  (W7_keep m ρ c (r := main_arg5) (by decide)).trans <|
  (W6_keep m ρ c (r := main_arg5) (by decide)).trans <|
  (W5_keep m ρ c (r := main_arg5) (by decide)).trans <|
  (W4_keep m ρ c (r := main_arg5) (by decide)).trans <|
  (W3_keep m ρ c (r := main_arg5) (by decide)).trans <|
  (W2_keep m ρ c (r := main_arg5) (by decide)).trans <|
  (W1_keep m ρ c (r := main_arg5) (by decide)).trans rfl

theorem W15_main_arg6 (c : Dev nD) : W15 m ρ c (Proc.devRef .tc main_arg6) = m ((c : Thread nD τ).loc main_arg6) :=
  (W15_keep m ρ c (r := main_arg6) (by decide)).trans <|
  (W14_keep m ρ c (r := main_arg6) (by decide)).trans <|
  (W13_keep m ρ c (r := main_arg6) (by decide)).trans <|
  (W12_keep m ρ c (r := main_arg6) (by decide)).trans <|
  (W11_keep m ρ c (r := main_arg6) (by decide)).trans <|
  (W10_keep m ρ c (r := main_arg6) (by decide)).trans <|
  (W9_keep m ρ c (r := main_arg6) (by decide)).trans <|
  (W8_keep m ρ c (r := main_arg6) (by decide)).trans <|
  (W7_keep m ρ c (r := main_arg6) (by decide)).trans <|
  (W6_keep m ρ c (r := main_arg6) (by decide)).trans <|
  (W5_keep m ρ c (r := main_arg6) (by decide)).trans <|
  (W4_keep m ρ c (r := main_arg6) (by decide)).trans <|
  (W3_keep m ρ c (r := main_arg6) (by decide)).trans <|
  (W2_keep m ρ c (r := main_arg6) (by decide)).trans <|
  (W1_keep m ρ c (r := main_arg6) (by decide)).trans rfl

theorem W15_main_arg7 (c : Dev nD) : W15 m ρ c (Proc.devRef .tc main_arg7) = m ((c : Thread nD τ).loc main_arg7) :=
  (W15_keep m ρ c (r := main_arg7) (by decide)).trans <|
  (W14_keep m ρ c (r := main_arg7) (by decide)).trans <|
  (W13_keep m ρ c (r := main_arg7) (by decide)).trans <|
  (W12_keep m ρ c (r := main_arg7) (by decide)).trans <|
  (W11_keep m ρ c (r := main_arg7) (by decide)).trans <|
  (W10_keep m ρ c (r := main_arg7) (by decide)).trans <|
  (W9_keep m ρ c (r := main_arg7) (by decide)).trans <|
  (W8_keep m ρ c (r := main_arg7) (by decide)).trans <|
  (W7_keep m ρ c (r := main_arg7) (by decide)).trans <|
  (W6_keep m ρ c (r := main_arg7) (by decide)).trans <|
  (W5_keep m ρ c (r := main_arg7) (by decide)).trans <|
  (W4_keep m ρ c (r := main_arg7) (by decide)).trans <|
  (W3_keep m ρ c (r := main_arg7) (by decide)).trans <|
  (W2_keep m ρ c (r := main_arg7) (by decide)).trans <|
  (W1_keep m ρ c (r := main_arg7) (by decide)).trans rfl

theorem W15_main_arg8 (c : Dev nD) : W15 m ρ c (Proc.devRef .tc main_arg8) = m ((c : Thread nD τ).loc main_arg8) :=
  (W15_keep m ρ c (r := main_arg8) (by decide)).trans <|
  (W14_keep m ρ c (r := main_arg8) (by decide)).trans <|
  (W13_keep m ρ c (r := main_arg8) (by decide)).trans <|
  (W12_keep m ρ c (r := main_arg8) (by decide)).trans <|
  (W11_keep m ρ c (r := main_arg8) (by decide)).trans <|
  (W10_keep m ρ c (r := main_arg8) (by decide)).trans <|
  (W9_keep m ρ c (r := main_arg8) (by decide)).trans <|
  (W8_keep m ρ c (r := main_arg8) (by decide)).trans <|
  (W7_keep m ρ c (r := main_arg8) (by decide)).trans <|
  (W6_keep m ρ c (r := main_arg8) (by decide)).trans <|
  (W5_keep m ρ c (r := main_arg8) (by decide)).trans <|
  (W4_keep m ρ c (r := main_arg8) (by decide)).trans <|
  (W3_keep m ρ c (r := main_arg8) (by decide)).trans <|
  (W2_keep m ρ c (r := main_arg8) (by decide)).trans <|
  (W1_keep m ρ c (r := main_arg8) (by decide)).trans rfl

theorem W15_main_arg9 (c : Dev nD) : W15 m ρ c (Proc.devRef .tc main_arg9) = m ((c : Thread nD τ).loc main_arg9) :=
  (W15_keep m ρ c (r := main_arg9) (by decide)).trans <|
  (W14_keep m ρ c (r := main_arg9) (by decide)).trans <|
  (W13_keep m ρ c (r := main_arg9) (by decide)).trans <|
  (W12_keep m ρ c (r := main_arg9) (by decide)).trans <|
  (W11_keep m ρ c (r := main_arg9) (by decide)).trans <|
  (W10_keep m ρ c (r := main_arg9) (by decide)).trans <|
  (W9_keep m ρ c (r := main_arg9) (by decide)).trans <|
  (W8_keep m ρ c (r := main_arg9) (by decide)).trans <|
  (W7_keep m ρ c (r := main_arg9) (by decide)).trans <|
  (W6_keep m ρ c (r := main_arg9) (by decide)).trans <|
  (W5_keep m ρ c (r := main_arg9) (by decide)).trans <|
  (W4_keep m ρ c (r := main_arg9) (by decide)).trans <|
  (W3_keep m ρ c (r := main_arg9) (by decide)).trans <|
  (W2_keep m ρ c (r := main_arg9) (by decide)).trans <|
  (W1_keep m ρ c (r := main_arg9) (by decide)).trans rfl

theorem W15_main_arg10 (c : Dev nD) : W15 m ρ c (Proc.devRef .tc main_arg10) = m ((c : Thread nD τ).loc main_arg10) :=
  (W15_keep m ρ c (r := main_arg10) (by decide)).trans <|
  (W14_keep m ρ c (r := main_arg10) (by decide)).trans <|
  (W13_keep m ρ c (r := main_arg10) (by decide)).trans <|
  (W12_keep m ρ c (r := main_arg10) (by decide)).trans <|
  (W11_keep m ρ c (r := main_arg10) (by decide)).trans <|
  (W10_keep m ρ c (r := main_arg10) (by decide)).trans <|
  (W9_keep m ρ c (r := main_arg10) (by decide)).trans <|
  (W8_keep m ρ c (r := main_arg10) (by decide)).trans <|
  (W7_keep m ρ c (r := main_arg10) (by decide)).trans <|
  (W6_keep m ρ c (r := main_arg10) (by decide)).trans <|
  (W5_keep m ρ c (r := main_arg10) (by decide)).trans <|
  (W4_keep m ρ c (r := main_arg10) (by decide)).trans <|
  (W3_keep m ρ c (r := main_arg10) (by decide)).trans <|
  (W2_keep m ρ c (r := main_arg10) (by decide)).trans <|
  (W1_keep m ρ c (r := main_arg10) (by decide)).trans rfl

theorem W15_main_arg11 (c : Dev nD) : W15 m ρ c (Proc.devRef .tc main_arg11) = m ((c : Thread nD τ).loc main_arg11) :=
  (W15_keep m ρ c (r := main_arg11) (by decide)).trans <|
  (W14_keep m ρ c (r := main_arg11) (by decide)).trans <|
  (W13_keep m ρ c (r := main_arg11) (by decide)).trans <|
  (W12_keep m ρ c (r := main_arg11) (by decide)).trans <|
  (W11_keep m ρ c (r := main_arg11) (by decide)).trans <|
  (W10_keep m ρ c (r := main_arg11) (by decide)).trans <|
  (W9_keep m ρ c (r := main_arg11) (by decide)).trans <|
  (W8_keep m ρ c (r := main_arg11) (by decide)).trans <|
  (W7_keep m ρ c (r := main_arg11) (by decide)).trans <|
  (W6_keep m ρ c (r := main_arg11) (by decide)).trans <|
  (W5_keep m ρ c (r := main_arg11) (by decide)).trans <|
  (W4_keep m ρ c (r := main_arg11) (by decide)).trans <|
  (W3_keep m ρ c (r := main_arg11) (by decide)).trans <|
  (W2_keep m ρ c (r := main_arg11) (by decide)).trans <|
  (W1_keep m ρ c (r := main_arg11) (by decide)).trans rfl

theorem W15_main_arg12 (c : Dev nD) : W15 m ρ c (Proc.devRef .tc main_arg12) = m ((c : Thread nD τ).loc main_arg12) :=
  (W15_keep m ρ c (r := main_arg12) (by decide)).trans <|
  (W14_keep m ρ c (r := main_arg12) (by decide)).trans <|
  (W13_keep m ρ c (r := main_arg12) (by decide)).trans <|
  (W12_keep m ρ c (r := main_arg12) (by decide)).trans <|
  (W11_keep m ρ c (r := main_arg12) (by decide)).trans <|
  (W10_keep m ρ c (r := main_arg12) (by decide)).trans <|
  (W9_keep m ρ c (r := main_arg12) (by decide)).trans <|
  (W8_keep m ρ c (r := main_arg12) (by decide)).trans <|
  (W7_keep m ρ c (r := main_arg12) (by decide)).trans <|
  (W6_keep m ρ c (r := main_arg12) (by decide)).trans <|
  (W5_keep m ρ c (r := main_arg12) (by decide)).trans <|
  (W4_keep m ρ c (r := main_arg12) (by decide)).trans <|
  (W3_keep m ρ c (r := main_arg12) (by decide)).trans <|
  (W2_keep m ρ c (r := main_arg12) (by decide)).trans <|
  (W1_keep m ρ c (r := main_arg12) (by decide)).trans rfl

theorem W15_main_arg13 (c : Dev nD) : W15 m ρ c (Proc.devRef .tc main_arg13) = m ((c : Thread nD τ).loc main_arg13) :=
  (W15_keep m ρ c (r := main_arg13) (by decide)).trans <|
  (W14_keep m ρ c (r := main_arg13) (by decide)).trans <|
  (W13_keep m ρ c (r := main_arg13) (by decide)).trans <|
  (W12_keep m ρ c (r := main_arg13) (by decide)).trans <|
  (W11_keep m ρ c (r := main_arg13) (by decide)).trans <|
  (W10_keep m ρ c (r := main_arg13) (by decide)).trans <|
  (W9_keep m ρ c (r := main_arg13) (by decide)).trans <|
  (W8_keep m ρ c (r := main_arg13) (by decide)).trans <|
  (W7_keep m ρ c (r := main_arg13) (by decide)).trans <|
  (W6_keep m ρ c (r := main_arg13) (by decide)).trans <|
  (W5_keep m ρ c (r := main_arg13) (by decide)).trans <|
  (W4_keep m ρ c (r := main_arg13) (by decide)).trans <|
  (W3_keep m ρ c (r := main_arg13) (by decide)).trans <|
  (W2_keep m ρ c (r := main_arg13) (by decide)).trans <|
  (W1_keep m ρ c (r := main_arg13) (by decide)).trans rfl

theorem W15_main_arg14 (c : Dev nD) : W15 m ρ c (Proc.devRef .tc main_arg14) = m ((c : Thread nD τ).loc main_arg14) :=
  (W15_keep m ρ c (r := main_arg14) (by decide)).trans <|
  (W14_keep m ρ c (r := main_arg14) (by decide)).trans <|
  (W13_keep m ρ c (r := main_arg14) (by decide)).trans <|
  (W12_keep m ρ c (r := main_arg14) (by decide)).trans <|
  (W11_keep m ρ c (r := main_arg14) (by decide)).trans <|
  (W10_keep m ρ c (r := main_arg14) (by decide)).trans <|
  (W9_keep m ρ c (r := main_arg14) (by decide)).trans <|
  (W8_keep m ρ c (r := main_arg14) (by decide)).trans <|
  (W7_keep m ρ c (r := main_arg14) (by decide)).trans <|
  (W6_keep m ρ c (r := main_arg14) (by decide)).trans <|
  (W5_keep m ρ c (r := main_arg14) (by decide)).trans <|
  (W4_keep m ρ c (r := main_arg14) (by decide)).trans <|
  (W3_keep m ρ c (r := main_arg14) (by decide)).trans <|
  (W2_keep m ρ c (r := main_arg14) (by decide)).trans <|
  (W1_keep m ρ c (r := main_arg14) (by decide)).trans rfl

theorem W15_main_arg15 (c : Dev nD) : W15 m ρ c (Proc.devRef .tc main_arg15) = m ((c : Thread nD τ).loc main_arg15) :=
  (W15_keep m ρ c (r := main_arg15) (by decide)).trans <|
  (W14_keep m ρ c (r := main_arg15) (by decide)).trans <|
  (W13_keep m ρ c (r := main_arg15) (by decide)).trans <|
  (W12_keep m ρ c (r := main_arg15) (by decide)).trans <|
  (W11_keep m ρ c (r := main_arg15) (by decide)).trans <|
  (W10_keep m ρ c (r := main_arg15) (by decide)).trans <|
  (W9_keep m ρ c (r := main_arg15) (by decide)).trans <|
  (W8_keep m ρ c (r := main_arg15) (by decide)).trans <|
  (W7_keep m ρ c (r := main_arg15) (by decide)).trans <|
  (W6_keep m ρ c (r := main_arg15) (by decide)).trans <|
  (W5_keep m ρ c (r := main_arg15) (by decide)).trans <|
  (W4_keep m ρ c (r := main_arg15) (by decide)).trans <|
  (W3_keep m ρ c (r := main_arg15) (by decide)).trans <|
  (W2_keep m ρ c (r := main_arg15) (by decide)).trans <|
  (W1_keep m ρ c (r := main_arg15) (by decide)).trans rfl

theorem W15_main_arg16 (c : Dev nD) : W15 m ρ c (Proc.devRef .tc main_arg16) = m ((c : Thread nD τ).loc main_arg16) :=
  (W15_keep m ρ c (r := main_arg16) (by decide)).trans <|
  (W14_keep m ρ c (r := main_arg16) (by decide)).trans <|
  (W13_keep m ρ c (r := main_arg16) (by decide)).trans <|
  (W12_keep m ρ c (r := main_arg16) (by decide)).trans <|
  (W11_keep m ρ c (r := main_arg16) (by decide)).trans <|
  (W10_keep m ρ c (r := main_arg16) (by decide)).trans <|
  (W9_keep m ρ c (r := main_arg16) (by decide)).trans <|
  (W8_keep m ρ c (r := main_arg16) (by decide)).trans <|
  (W7_keep m ρ c (r := main_arg16) (by decide)).trans <|
  (W6_keep m ρ c (r := main_arg16) (by decide)).trans <|
  (W5_keep m ρ c (r := main_arg16) (by decide)).trans <|
  (W4_keep m ρ c (r := main_arg16) (by decide)).trans <|
  (W3_keep m ρ c (r := main_arg16) (by decide)).trans <|
  (W2_keep m ρ c (r := main_arg16) (by decide)).trans <|
  (W1_keep m ρ c (r := main_arg16) (by decide)).trans rfl

theorem W15_main_arg17 (c : Dev nD) : W15 m ρ c (Proc.devRef .tc main_arg17) = m ((c : Thread nD τ).loc main_arg17) :=
  (W15_keep m ρ c (r := main_arg17) (by decide)).trans <|
  (W14_keep m ρ c (r := main_arg17) (by decide)).trans <|
  (W13_keep m ρ c (r := main_arg17) (by decide)).trans <|
  (W12_keep m ρ c (r := main_arg17) (by decide)).trans <|
  (W11_keep m ρ c (r := main_arg17) (by decide)).trans <|
  (W10_keep m ρ c (r := main_arg17) (by decide)).trans <|
  (W9_keep m ρ c (r := main_arg17) (by decide)).trans <|
  (W8_keep m ρ c (r := main_arg17) (by decide)).trans <|
  (W7_keep m ρ c (r := main_arg17) (by decide)).trans <|
  (W6_keep m ρ c (r := main_arg17) (by decide)).trans <|
  (W5_keep m ρ c (r := main_arg17) (by decide)).trans <|
  (W4_keep m ρ c (r := main_arg17) (by decide)).trans <|
  (W3_keep m ρ c (r := main_arg17) (by decide)).trans <|
  (W2_keep m ρ c (r := main_arg17) (by decide)).trans <|
  (W1_keep m ρ c (r := main_arg17) (by decide)).trans rfl

theorem W15_main_arg18 (c : Dev nD) : W15 m ρ c (Proc.devRef .tc main_arg18) = m ((c : Thread nD τ).loc main_arg18) :=
  (W15_keep m ρ c (r := main_arg18) (by decide)).trans <|
  (W14_keep m ρ c (r := main_arg18) (by decide)).trans <|
  (W13_keep m ρ c (r := main_arg18) (by decide)).trans <|
  (W12_keep m ρ c (r := main_arg18) (by decide)).trans <|
  (W11_keep m ρ c (r := main_arg18) (by decide)).trans <|
  (W10_keep m ρ c (r := main_arg18) (by decide)).trans <|
  (W9_keep m ρ c (r := main_arg18) (by decide)).trans <|
  (W8_keep m ρ c (r := main_arg18) (by decide)).trans <|
  (W7_keep m ρ c (r := main_arg18) (by decide)).trans <|
  (W6_keep m ρ c (r := main_arg18) (by decide)).trans <|
  (W5_keep m ρ c (r := main_arg18) (by decide)).trans <|
  (W4_keep m ρ c (r := main_arg18) (by decide)).trans <|
  (W3_keep m ρ c (r := main_arg18) (by decide)).trans <|
  (W2_keep m ρ c (r := main_arg18) (by decide)).trans <|
  (W1_keep m ρ c (r := main_arg18) (by decide)).trans rfl

theorem W15_main_arg19 (c : Dev nD) : W15 m ρ c (Proc.devRef .tc main_arg19) = m ((c : Thread nD τ).loc main_arg19) :=
  (W15_keep m ρ c (r := main_arg19) (by decide)).trans <|
  (W14_keep m ρ c (r := main_arg19) (by decide)).trans <|
  (W13_keep m ρ c (r := main_arg19) (by decide)).trans <|
  (W12_keep m ρ c (r := main_arg19) (by decide)).trans <|
  (W11_keep m ρ c (r := main_arg19) (by decide)).trans <|
  (W10_keep m ρ c (r := main_arg19) (by decide)).trans <|
  (W9_keep m ρ c (r := main_arg19) (by decide)).trans <|
  (W8_keep m ρ c (r := main_arg19) (by decide)).trans <|
  (W7_keep m ρ c (r := main_arg19) (by decide)).trans <|
  (W6_keep m ρ c (r := main_arg19) (by decide)).trans <|
  (W5_keep m ρ c (r := main_arg19) (by decide)).trans <|
  (W4_keep m ρ c (r := main_arg19) (by decide)).trans <|
  (W3_keep m ρ c (r := main_arg19) (by decide)).trans <|
  (W2_keep m ρ c (r := main_arg19) (by decide)).trans <|
  (W1_keep m ρ c (r := main_arg19) (by decide)).trans rfl

theorem W15_main_arg20 (c : Dev nD) : W15 m ρ c (Proc.devRef .tc main_arg20) = m ((c : Thread nD τ).loc main_arg20) :=
  (W15_keep m ρ c (r := main_arg20) (by decide)).trans <|
  (W14_keep m ρ c (r := main_arg20) (by decide)).trans <|
  (W13_keep m ρ c (r := main_arg20) (by decide)).trans <|
  (W12_keep m ρ c (r := main_arg20) (by decide)).trans <|
  (W11_keep m ρ c (r := main_arg20) (by decide)).trans <|
  (W10_keep m ρ c (r := main_arg20) (by decide)).trans <|
  (W9_keep m ρ c (r := main_arg20) (by decide)).trans <|
  (W8_keep m ρ c (r := main_arg20) (by decide)).trans <|
  (W7_keep m ρ c (r := main_arg20) (by decide)).trans <|
  (W6_keep m ρ c (r := main_arg20) (by decide)).trans <|
  (W5_keep m ρ c (r := main_arg20) (by decide)).trans <|
  (W4_keep m ρ c (r := main_arg20) (by decide)).trans <|
  (W3_keep m ρ c (r := main_arg20) (by decide)).trans <|
  (W2_keep m ρ c (r := main_arg20) (by decide)).trans <|
  (W1_keep m ρ c (r := main_arg20) (by decide)).trans rfl

theorem W15_main_arg21 (c : Dev nD) : W15 m ρ c (Proc.devRef .tc main_arg21) = m ((c : Thread nD τ).loc main_arg21) :=
  (W15_keep m ρ c (r := main_arg21) (by decide)).trans <|
  (W14_keep m ρ c (r := main_arg21) (by decide)).trans <|
  (W13_keep m ρ c (r := main_arg21) (by decide)).trans <|
  (W12_keep m ρ c (r := main_arg21) (by decide)).trans <|
  (W11_keep m ρ c (r := main_arg21) (by decide)).trans <|
  (W10_keep m ρ c (r := main_arg21) (by decide)).trans <|
  (W9_keep m ρ c (r := main_arg21) (by decide)).trans <|
  (W8_keep m ρ c (r := main_arg21) (by decide)).trans <|
  (W7_keep m ρ c (r := main_arg21) (by decide)).trans <|
  (W6_keep m ρ c (r := main_arg21) (by decide)).trans <|
  (W5_keep m ρ c (r := main_arg21) (by decide)).trans <|
  (W4_keep m ρ c (r := main_arg21) (by decide)).trans <|
  (W3_keep m ρ c (r := main_arg21) (by decide)).trans <|
  (W2_keep m ρ c (r := main_arg21) (by decide)).trans <|
  (W1_keep m ρ c (r := main_arg21) (by decide)).trans rfl

theorem W15_main_arg22 (c : Dev nD) : W15 m ρ c (Proc.devRef .tc main_arg22) = m ((c : Thread nD τ).loc main_arg22) :=
  (W15_keep m ρ c (r := main_arg22) (by decide)).trans <|
  (W14_keep m ρ c (r := main_arg22) (by decide)).trans <|
  (W13_keep m ρ c (r := main_arg22) (by decide)).trans <|
  (W12_keep m ρ c (r := main_arg22) (by decide)).trans <|
  (W11_keep m ρ c (r := main_arg22) (by decide)).trans <|
  (W10_keep m ρ c (r := main_arg22) (by decide)).trans <|
  (W9_keep m ρ c (r := main_arg22) (by decide)).trans <|
  (W8_keep m ρ c (r := main_arg22) (by decide)).trans <|
  (W7_keep m ρ c (r := main_arg22) (by decide)).trans <|
  (W6_keep m ρ c (r := main_arg22) (by decide)).trans <|
  (W5_keep m ρ c (r := main_arg22) (by decide)).trans <|
  (W4_keep m ρ c (r := main_arg22) (by decide)).trans <|
  (W3_keep m ρ c (r := main_arg22) (by decide)).trans <|
  (W2_keep m ρ c (r := main_arg22) (by decide)).trans <|
  (W1_keep m ρ c (r := main_arg22) (by decide)).trans rfl

theorem W15_main_arg23 (c : Dev nD) : W15 m ρ c (Proc.devRef .tc main_arg23) = m ((c : Thread nD τ).loc main_arg23) :=
  (W15_keep m ρ c (r := main_arg23) (by decide)).trans <|
  (W14_keep m ρ c (r := main_arg23) (by decide)).trans <|
  (W13_keep m ρ c (r := main_arg23) (by decide)).trans <|
  (W12_keep m ρ c (r := main_arg23) (by decide)).trans <|
  (W11_keep m ρ c (r := main_arg23) (by decide)).trans <|
  (W10_keep m ρ c (r := main_arg23) (by decide)).trans <|
  (W9_keep m ρ c (r := main_arg23) (by decide)).trans <|
  (W8_keep m ρ c (r := main_arg23) (by decide)).trans <|
  (W7_keep m ρ c (r := main_arg23) (by decide)).trans <|
  (W6_keep m ρ c (r := main_arg23) (by decide)).trans <|
  (W5_keep m ρ c (r := main_arg23) (by decide)).trans <|
  (W4_keep m ρ c (r := main_arg23) (by decide)).trans <|
  (W3_keep m ρ c (r := main_arg23) (by decide)).trans <|
  (W2_keep m ρ c (r := main_arg23) (by decide)).trans <|
  (W1_keep m ρ c (r := main_arg23) (by decide)).trans rfl

theorem W15_main_arg24 (c : Dev nD) : W15 m ρ c (Proc.devRef .tc main_arg24) = m ((c : Thread nD τ).loc main_arg24) :=
  (W15_keep m ρ c (r := main_arg24) (by decide)).trans <|
  (W14_keep m ρ c (r := main_arg24) (by decide)).trans <|
  (W13_keep m ρ c (r := main_arg24) (by decide)).trans <|
  (W12_keep m ρ c (r := main_arg24) (by decide)).trans <|
  (W11_keep m ρ c (r := main_arg24) (by decide)).trans <|
  (W10_keep m ρ c (r := main_arg24) (by decide)).trans <|
  (W9_keep m ρ c (r := main_arg24) (by decide)).trans <|
  (W8_keep m ρ c (r := main_arg24) (by decide)).trans <|
  (W7_keep m ρ c (r := main_arg24) (by decide)).trans <|
  (W6_keep m ρ c (r := main_arg24) (by decide)).trans <|
  (W5_keep m ρ c (r := main_arg24) (by decide)).trans <|
  (W4_keep m ρ c (r := main_arg24) (by decide)).trans <|
  (W3_keep m ρ c (r := main_arg24) (by decide)).trans <|
  (W2_keep m ρ c (r := main_arg24) (by decide)).trans <|
  (W1_keep m ρ c (r := main_arg24) (by decide)).trans rfl

/-- The frame claim at any float interpretation: from any memory with zero counters, every weakly fair execution of the
    main function on the TensorCores terminates, nothing faulting, and every final state has the argument arrays as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c =>
    ⟨(h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c),
     (h c _ (mem_uc main_arg5 (by decide))).trans (W15_main_arg5 m ρ c),
     (h c _ (mem_uc main_arg6 (by decide))).trans (W15_main_arg6 m ρ c),
     (h c _ (mem_uc main_arg7 (by decide))).trans (W15_main_arg7 m ρ c),
     (h c _ (mem_uc main_arg8 (by decide))).trans (W15_main_arg8 m ρ c),
     (h c _ (mem_uc main_arg9 (by decide))).trans (W15_main_arg9 m ρ c),
     (h c _ (mem_uc main_arg10 (by decide))).trans (W15_main_arg10 m ρ c),
     (h c _ (mem_uc main_arg11 (by decide))).trans (W15_main_arg11 m ρ c),
     (h c _ (mem_uc main_arg12 (by decide))).trans (W15_main_arg12 m ρ c),
     (h c _ (mem_uc main_arg13 (by decide))).trans (W15_main_arg13 m ρ c),
     (h c _ (mem_uc main_arg14 (by decide))).trans (W15_main_arg14 m ρ c),
     (h c _ (mem_uc main_arg15 (by decide))).trans (W15_main_arg15 m ρ c),
     (h c _ (mem_uc main_arg16 (by decide))).trans (W15_main_arg16 m ρ c),
     (h c _ (mem_uc main_arg17 (by decide))).trans (W15_main_arg17 m ρ c),
     (h c _ (mem_uc main_arg18 (by decide))).trans (W15_main_arg18 m ρ c),
     (h c _ (mem_uc main_arg19 (by decide))).trans (W15_main_arg19 m ρ c),
     (h c _ (mem_uc main_arg20 (by decide))).trans (W15_main_arg20 m ρ c),
     (h c _ (mem_uc main_arg21 (by decide))).trans (W15_main_arg21 m ρ c),
     (h c _ (mem_uc main_arg22 (by decide))).trans (W15_main_arg22 m ρ c),
     (h c _ (mem_uc main_arg23 (by decide))).trans (W15_main_arg23 m ρ c),
     (h c _ (mem_uc main_arg24 (by decide))).trans (W15_main_arg24 m ρ c)⟩) (run_all m ρ)

end Cert.KernelIdeal.Frame

end
-- ==== Proof.R.Ops.lean ====
/- The reference program's host operations in program order, cut into nineteen consecutive chunks
   rops0 … rops18 (chunk k holds the operations with 0-based positions [b_k, b_{k+1}) for the boundaries
   0, 4, 14, 26, 31, 41, 53, 58, 68, 93, 99, 131, 183, 236, 289, 342, 353, 358, 369, 374).
   For every chunk: each operation touches TensorCore references only (ropsK_sub), allocates nothing
   (ropsK_fresh), and writes exactly one reference of the literal list LK (ropsK_writes); hence a reference
   outside LK has the same contents after the chunk as before it (ropsK_keeps).
   Also: the contents after a concatenation of two lines of operations are the contents after the second
   line from the contents after the first (after_append). -/
import proofs.«115122_j13357348290767_2_alg».proof.Proof.Gen.ReferenceIdeal
import Idealize.ShloMosaic.Lib.StableHlo.Run

noncomputable section

namespace Cert.ReferenceIdeal.RValue

open Cert.ReferenceIdeal Cert.ReferenceIdeal.Gen Idealize.ShloMosaic Idealize.ShloMosaic.TcCoe Idealize.SL.Sem Idealize.ShloMosaic.StableHlo

variable {F : FTy → Type} [FloatOps F]

/-- The contents after two lines of operations run one after the other: the second line's from the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Operations 0 to 3 of the program (4 operations). -/
abbrev rops0 : List (HloOp τ sig (Elt F)) :=
  [ unary main_arg1 main_v0 ((extractStridedSlice S1x200000 ![0, 0] · slices_S2x200000_S1x200000_0_0) : (⟨S2x200000, .i32⟩ : BufTy).Contents (Elt F) → (⟨S1x200000, .i32⟩ : BufTy).Contents (Elt F)),
    reshape main_v0 main_v1 rfl shapeCasts_S1x200000_S200000,
    unary main_arg1 main_v2 ((extractStridedSlice S1x200000 ![1, 0] · slices_S2x200000_S1x200000_1_0) : (⟨S2x200000, .i32⟩ : BufTy).Contents (Elt F) → (⟨S1x200000, .i32⟩ : BufTy).Contents (Elt F)),
    reshape main_v2 main_v3 rfl shapeCasts_S1x200000_S200000 ]
/-- The references chunk 0's operations write, in order. -/
abbrev L0 : List (Ref sig .tc) := [main_v0, main_v1, main_v2, main_v3]
set_option maxRecDepth 8192 in
theorem rops0_sub : (rops0 : List (HloOp τ sig (Elt F))).Forall fun op => op.bufs ⊆ tcRefs τ sig :=
  ⟨unary_bufs_sub .., reshape_bufs_sub .., unary_bufs_sub .., reshape_bufs_sub ..⟩
set_option maxRecDepth 8192 in
theorem rops0_fresh : (rops0 : List (HloOp τ sig (Elt F))).Forall fun op => op.fresh = ∅ := by
  simp only [List.Forall]; repeat' constructor
set_option maxRecDepth 8192 in
theorem rops0_writes : (rops0 : List (HloOp τ sig (Elt F))).Forall fun op => op.writes ⊆ (L0.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A reference chunk 0 does not write keeps its contents through it. -/
theorem rops0_keeps {r : Ref sig .tc} (hr : r ∉ L0) (V : Valuation τ sig (Elt F)) :
    after (rops0 : List (HloOp τ sig (Elt F))) V (Proc.devRef .tc r) = V (Proc.devRef .tc r) :=
  after_of_writes_sub rops0 V rops0_writes hr

/-- Operations 4 to 13 of the program (10 operations). -/
abbrev rops1 : List (HloOp τ sig (Elt F)) :=
  [ unary main_arg3 main_v4 ((transpose S2000x512 [1, 0] · transposes_S512x2000_S2000x512_1_0) : (⟨S512x2000, .f32⟩ : BufTy).Contents (Elt F) → (⟨S2000x512, .f32⟩ : BufTy).Contents (Elt F)),
    binary main_arg0 main_v4 main_v5 ((fun l r => Host.dotGeneral dot_S20000x2000_S2000x512_S20000x512_1_0_0_1_n_n none l r) : (⟨S20000x2000, .f32⟩ : BufTy).Contents (Elt F) → (⟨S2000x512, .f32⟩ : BufTy).Contents (Elt F) → (⟨S20000x512, .f32⟩ : BufTy).Contents (Elt F)),
    unary main_arg4 main_v6 (broadcastInDim S1x512 ![1] bcast_S512_S1x512_1 : (⟨S512, .f32⟩ : BufTy).Contents (Elt F) → (⟨S1x512, .f32⟩ : BufTy).Contents (Elt F)),
    unary main_v6 main_v7 (broadcastInDim S20000x512 ![0, 1] bcast_S1x512_S20000x512_0_1 : (⟨S1x512, .f32⟩ : BufTy).Contents (Elt F) → (⟨S20000x512, .f32⟩ : BufTy).Contents (Elt F)),
    binary main_v5 main_v7 main_v8 (addf : (⟨S20000x512, .f32⟩ : BufTy).Contents (Elt F) → (⟨S20000x512, .f32⟩ : BufTy).Contents (Elt F) → (⟨S20000x512, .f32⟩ : BufTy).Contents (Elt F)),
    unary main_arg5 main_v9 ((transpose S2000x512 [1, 0] · transposes_S512x2000_S2000x512_1_0) : (⟨S512x2000, .f32⟩ : BufTy).Contents (Elt F) → (⟨S2000x512, .f32⟩ : BufTy).Contents (Elt F)),
    binary main_arg0 main_v9 main_v10 ((fun l r => Host.dotGeneral dot_S20000x2000_S2000x512_S20000x512_1_0_0_1_n_n none l r) : (⟨S20000x2000, .f32⟩ : BufTy).Contents (Elt F) → (⟨S2000x512, .f32⟩ : BufTy).Contents (Elt F) → (⟨S20000x512, .f32⟩ : BufTy).Contents (Elt F)),
    unary main_arg6 main_v11 (broadcastInDim S1x512 ![1] bcast_S512_S1x512_1 : (⟨S512, .f32⟩ : BufTy).Contents (Elt F) → (⟨S1x512, .f32⟩ : BufTy).Contents (Elt F)),
    unary main_v11 main_v12 (broadcastInDim S20000x512 ![0, 1] bcast_S1x512_S20000x512_0_1 : (⟨S1x512, .f32⟩ : BufTy).Contents (Elt F) → (⟨S20000x512, .f32⟩ : BufTy).Contents (Elt F)),
    binary main_v10 main_v12 main_v13 (addf : (⟨S20000x512, .f32⟩ : BufTy).Contents (Elt F) → (⟨S20000x512, .f32⟩ : BufTy).Contents (Elt F) → (⟨S20000x512, .f32⟩ : BufTy).Contents (Elt F)) ]
/-- The references chunk 1's operations write, in order. -/
abbrev L1 : List (Ref sig .tc) := [main_v4, main_v5, main_v6, main_v7, main_v8, main_v9, main_v10, main_v11, main_v12, main_v13]
set_option maxRecDepth 8192 in
theorem rops1_sub : (rops1 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., unary_bufs_sub .., binary_bufs_sub ..⟩
set_option maxRecDepth 8192 in
theorem rops1_fresh : (rops1 : List (HloOp τ sig (Elt F))).Forall fun op => op.fresh = ∅ := by
  simp only [List.Forall]; repeat' constructor
set_option maxRecDepth 8192 in
theorem rops1_writes : (rops1 : List (HloOp τ sig (Elt F))).Forall fun op => op.writes ⊆ (L1.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A reference chunk 1 does not write keeps its contents through it. -/
theorem rops1_keeps {r : Ref sig .tc} (hr : r ∉ L1) (V : Valuation τ sig (Elt F)) :
    after (rops1 : List (HloOp τ sig (Elt F))) V (Proc.devRef .tc r) = V (Proc.devRef .tc r) :=
  after_of_writes_sub rops1 V rops1_writes hr

/-- Operations 14 to 25 of the program (12 operations). -/
abbrev rops2 : List (HloOp τ sig (Elt F)) :=
  [ unary main_arg2 main_v14 ((extractStridedSlice S200000x3 ![0, 0] · slices_S200000x6_S200000x3_0_0) : (⟨S200000x6, .f32⟩ : BufTy).Contents (Elt F) → (⟨S200000x3, .f32⟩ : BufTy).Contents (Elt F)),
    unary main_arg21 main_v15 ((transpose S3x128 [1, 0] · transposes_S128x3_S3x128_1_0) : (⟨S128x3, .f32⟩ : BufTy).Contents (Elt F) → (⟨S3x128, .f32⟩ : BufTy).Contents (Elt F)),
    binary main_v14 main_v15 main_v16 ((fun l r => Host.dotGeneral dot_S200000x3_S3x128_S200000x128_1_0_0_1_n_n none l r) : (⟨S200000x3, .f32⟩ : BufTy).Contents (Elt F) → (⟨S3x128, .f32⟩ : BufTy).Contents (Elt F) → (⟨S200000x128, .f32⟩ : BufTy).Contents (Elt F)),
    unary main_arg22 main_v17 (broadcastInDim S1x128 ![1] bcast_S128_S1x128_1 : (⟨S128, .f32⟩ : BufTy).Contents (Elt F) → (⟨S1x128, .f32⟩ : BufTy).Contents (Elt F)),
    unary main_v17 main_v18 (broadcastInDim S200000x128 ![0, 1] bcast_S1x128_S200000x128_0_1 : (⟨S1x128, .f32⟩ : BufTy).Contents (Elt F) → (⟨S200000x128, .f32⟩ : BufTy).Contents (Elt F)),
    binary main_v16 main_v18 main_v19 (addf : (⟨S200000x128, .f32⟩ : BufTy).Contents (Elt F) → (⟨S200000x128, .f32⟩ : BufTy).Contents (Elt F) → (⟨S200000x128, .f32⟩ : BufTy).Contents (Elt F)),
    nullary main_cst (constant S_ .f32 0x00000000#32),
    unary main_cst main_v20 (broadcastInDim S200000x128 ![] bcast_S_S200000x128 : (⟨S_, .f32⟩ : BufTy).Contents (Elt F) → (⟨S200000x128, .f32⟩ : BufTy).Contents (Elt F)),
    binary main_v19 main_v20 main_v21 (maximumf : (⟨S200000x128, .f32⟩ : BufTy).Contents (Elt F) → (⟨S200000x128, .f32⟩ : BufTy).Contents (Elt F) → (⟨S200000x128, .f32⟩ : BufTy).Contents (Elt F)),
    nullary main_cst_0 (constant S_ .f32 0x3F7FFFAC#32),
    unary main_cst_0 main_v22 (broadcastInDim S200000x128 ![] bcast_S_S200000x128 : (⟨S_, .f32⟩ : BufTy).Contents (Elt F) → (⟨S200000x128, .f32⟩ : BufTy).Contents (Elt F)),
    binary main_v21 main_v22 main_v23 (mulf : (⟨S200000x128, .f32⟩ : BufTy).Contents (Elt F) → (⟨S200000x128, .f32⟩ : BufTy).Contents (Elt F) → (⟨S200000x128, .f32⟩ : BufTy).Contents (Elt F)) ]
/-- The references chunk 2's operations write, in order. -/
abbrev L2 : List (Ref sig .tc) := [main_v14, main_v15, main_v16, main_v17, main_v18, main_v19, main_cst, main_v20, main_v21, main_cst_0, main_v22, main_v23]
set_option maxRecDepth 8192 in
theorem rops2_sub : (rops2 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub ..⟩
set_option maxRecDepth 8192 in
theorem rops2_fresh : (rops2 : List (HloOp τ sig (Elt F))).Forall fun op => op.fresh = ∅ := by
  simp only [List.Forall]; repeat' constructor
set_option maxRecDepth 8192 in
theorem rops2_writes : (rops2 : List (HloOp τ sig (Elt F))).Forall fun op => op.writes ⊆ (L2.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A reference chunk 2 does not write keeps its contents through it. -/
theorem rops2_keeps {r : Ref sig .tc} (hr : r ∉ L2) (V : Valuation τ sig (Elt F)) :
    after (rops2 : List (HloOp τ sig (Elt F))) V (Proc.devRef .tc r) = V (Proc.devRef .tc r) :=
  after_of_writes_sub rops2 V rops2_writes hr

/-- Operations 26 to 30 of the program (5 operations). -/
abbrev rops3 : List (HloOp τ sig (Elt F)) :=
  [ unary main_arg23 main_v24 ((transpose S128x128 [1, 0] · transposes_S128x128_S128x128_1_0) : (⟨S128x128, .f32⟩ : BufTy).Contents (Elt F) → (⟨S128x128, .f32⟩ : BufTy).Contents (Elt F)),
    binary main_v23 main_v24 main_v25 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    unary main_arg24 main_v26 (broadcastInDim S1x128 ![1] bcast_S128_S1x128_1 : (⟨S128, .f32⟩ : BufTy).Contents (Elt F) → (⟨S1x128, .f32⟩ : BufTy).Contents (Elt F)),
    unary main_v26 main_v27 (broadcastInDim S200000x128 ![0, 1] bcast_S1x128_S200000x128_0_1 : (⟨S1x128, .f32⟩ : BufTy).Contents (Elt F) → (⟨S200000x128, .f32⟩ : BufTy).Contents (Elt F)),
    binary main_v25 main_v27 main_v28 (addf : (⟨S200000x128, .f32⟩ : BufTy).Contents (Elt F) → (⟨S200000x128, .f32⟩ : BufTy).Contents (Elt F) → (⟨S200000x128, .f32⟩ : BufTy).Contents (Elt F)) ]
/-- The references chunk 3's operations write, in order. -/
abbrev L3 : List (Ref sig .tc) := [main_v24, main_v25, main_v26, main_v27, main_v28]
set_option maxRecDepth 8192 in
theorem rops3_sub : (rops3 : List (HloOp τ sig (Elt F))).Forall fun op => op.bufs ⊆ tcRefs τ sig :=
  ⟨unary_bufs_sub .., binary_bufs_sub .., unary_bufs_sub .., unary_bufs_sub .., binary_bufs_sub ..⟩
set_option maxRecDepth 8192 in
theorem rops3_fresh : (rops3 : List (HloOp τ sig (Elt F))).Forall fun op => op.fresh = ∅ := by
  simp only [List.Forall]; repeat' constructor
set_option maxRecDepth 8192 in
theorem rops3_writes : (rops3 : List (HloOp τ sig (Elt F))).Forall fun op => op.writes ⊆ (L3.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A reference chunk 3 does not write keeps its contents through it. -/
theorem rops3_keeps {r : Ref sig .tc} (hr : r ∉ L3) (V : Valuation τ sig (Elt F)) :
    after (rops3 : List (HloOp τ sig (Elt F))) V (Proc.devRef .tc r) = V (Proc.devRef .tc r) :=
  after_of_writes_sub rops3 V rops3_writes hr

/-- Operations 31 to 40 of the program (10 operations). -/
abbrev rops4 : List (HloOp τ sig (Elt F)) :=
  [ nullary main_c (constantI S_ 32 0#32),
    unary main_c main_v29 (broadcastInDim S200000 ![] bcast_S_S200000 : (⟨S_, .i32⟩ : BufTy).Contents (Elt F) → (⟨S200000, .i32⟩ : BufTy).Contents (Elt F)),
    binary main_v1 main_v29 main_v30 (cmpi .slt : (⟨S200000, .i32⟩ : BufTy).Contents (Elt F) → (⟨S200000, .i32⟩ : BufTy).Contents (Elt F) → (⟨S200000, .i1⟩ : BufTy).Contents (Elt F)),
    nullary main_c_1 (constantI S_ 32 20000#32),
    unary main_c_1 main_v31 (broadcastInDim S200000 ![] bcast_S_S200000 : (⟨S_, .i32⟩ : BufTy).Contents (Elt F) → (⟨S200000, .i32⟩ : BufTy).Contents (Elt F)),
    binary main_v1 main_v31 main_v32 (addi : (⟨S200000, .i32⟩ : BufTy).Contents (Elt F) → (⟨S200000, .i32⟩ : BufTy).Contents (Elt F) → (⟨S200000, .i32⟩ : BufTy).Contents (Elt F)),
    ternary main_v30 main_v32 main_v1 main_v33 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v33 main_v34 (broadcastInDim S200000x1 ![0] bcast_S200000_S200000x1_0 : (⟨S200000, .i32⟩ : BufTy).Contents (Elt F) → (⟨S200000x1, .i32⟩ : BufTy).Contents (Elt F)),
    binary main_v13 main_v34 main_v35 ((fun x i => Host.gather gather_S20000x512_S200000x1_S200000x512_1_0_n_n_0_1_1512 x i) : (⟨S20000x512, .f32⟩ : BufTy).Contents (Elt F) → (⟨S200000x1, .i32⟩ : BufTy).Contents (Elt F) → (⟨S200000x512, .f32⟩ : BufTy).Contents (Elt F)),
    binary main_v28 main_v35 main_v36 ((fun a b => concatenate S200000x640 1 [⟨S200000x128, a⟩, ⟨S200000x512, b⟩] concatenates_S200000x128_S200000x512_S200000x640_d1) : (⟨S200000x128, .f32⟩ : BufTy).Contents (Elt F) → (⟨S200000x512, .f32⟩ : BufTy).Contents (Elt F) → (⟨S200000x640, .f32⟩ : BufTy).Contents (Elt F)) ]
/-- The references chunk 4's operations write, in order. -/
abbrev L4 : List (Ref sig .tc) := [main_c, main_v29, main_v30, main_c_1, main_v31, main_v32, main_v33, main_v34, main_v35, main_v36]
set_option maxRecDepth 8192 in
theorem rops4_sub : (rops4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub ..⟩
set_option maxRecDepth 8192 in
theorem rops4_fresh : (rops4 : List (HloOp τ sig (Elt F))).Forall fun op => op.fresh = ∅ := by
  simp only [List.Forall]; repeat' constructor
set_option maxRecDepth 8192 in
theorem rops4_writes : (rops4 : List (HloOp τ sig (Elt F))).Forall fun op => op.writes ⊆ (L4.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A reference chunk 4 does not write keeps its contents through it. -/
theorem rops4_keeps {r : Ref sig .tc} (hr : r ∉ L4) (V : Valuation τ sig (Elt F)) :
    after (rops4 : List (HloOp τ sig (Elt F))) V (Proc.devRef .tc r) = V (Proc.devRef .tc r) :=
  after_of_writes_sub rops4 V rops4_writes hr

/-- Operations 41 to 52 of the program (12 operations). -/
abbrev rops5 : List (HloOp τ sig (Elt F)) :=
  [ unary main_arg2 main_v37 ((extractStridedSlice S200000x3 ![0, 3] · slices_S200000x6_S200000x3_0_3) : (⟨S200000x6, .f32⟩ : BufTy).Contents (Elt F) → (⟨S200000x3, .f32⟩ : BufTy).Contents (Elt F)),
    unary main_arg21 main_v38 ((transpose S3x128 [1, 0] · transposes_S128x3_S3x128_1_0) : (⟨S128x3, .f32⟩ : BufTy).Contents (Elt F) → (⟨S3x128, .f32⟩ : BufTy).Contents (Elt F)),
    binary main_v37 main_v38 main_v39 ((fun l r => Host.dotGeneral dot_S200000x3_S3x128_S200000x128_1_0_0_1_n_n none l r) : (⟨S200000x3, .f32⟩ : BufTy).Contents (Elt F) → (⟨S3x128, .f32⟩ : BufTy).Contents (Elt F) → (⟨S200000x128, .f32⟩ : BufTy).Contents (Elt F)),
    unary main_arg22 main_v40 (broadcastInDim S1x128 ![1] bcast_S128_S1x128_1 : (⟨S128, .f32⟩ : BufTy).Contents (Elt F) → (⟨S1x128, .f32⟩ : BufTy).Contents (Elt F)),
    unary main_v40 main_v41 (broadcastInDim S200000x128 ![0, 1] bcast_S1x128_S200000x128_0_1 : (⟨S1x128, .f32⟩ : BufTy).Contents (Elt F) → (⟨S200000x128, .f32⟩ : BufTy).Contents (Elt F)),
    binary main_v39 main_v41 main_v42 (addf : (⟨S200000x128, .f32⟩ : BufTy).Contents (Elt F) → (⟨S200000x128, .f32⟩ : BufTy).Contents (Elt F) → (⟨S200000x128, .f32⟩ : BufTy).Contents (Elt F)),
    nullary main_cst_2 (constant S_ .f32 0x00000000#32),
    unary main_cst_2 main_v43 (broadcastInDim S200000x128 ![] bcast_S_S200000x128 : (⟨S_, .f32⟩ : BufTy).Contents (Elt F) → (⟨S200000x128, .f32⟩ : BufTy).Contents (Elt F)),
    binary main_v42 main_v43 main_v44 (maximumf : (⟨S200000x128, .f32⟩ : BufTy).Contents (Elt F) → (⟨S200000x128, .f32⟩ : BufTy).Contents (Elt F) → (⟨S200000x128, .f32⟩ : BufTy).Contents (Elt F)),
    nullary main_cst_3 (constant S_ .f32 0x3F7FFFAC#32),
    unary main_cst_3 main_v45 (broadcastInDim S200000x128 ![] bcast_S_S200000x128 : (⟨S_, .f32⟩ : BufTy).Contents (Elt F) → (⟨S200000x128, .f32⟩ : BufTy).Contents (Elt F)),
    binary main_v44 main_v45 main_v46 (mulf : (⟨S200000x128, .f32⟩ : BufTy).Contents (Elt F) → (⟨S200000x128, .f32⟩ : BufTy).Contents (Elt F) → (⟨S200000x128, .f32⟩ : BufTy).Contents (Elt F)) ]
/-- The references chunk 5's operations write, in order. -/
abbrev L5 : List (Ref sig .tc) := [main_v37, main_v38, main_v39, main_v40, main_v41, main_v42, main_cst_2, main_v43, main_v44, main_cst_3, main_v45, main_v46]
set_option maxRecDepth 8192 in
theorem rops5_sub : (rops5 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub ..⟩
set_option maxRecDepth 8192 in
theorem rops5_fresh : (rops5 : List (HloOp τ sig (Elt F))).Forall fun op => op.fresh = ∅ := by
  simp only [List.Forall]; repeat' constructor
set_option maxRecDepth 8192 in
theorem rops5_writes : (rops5 : List (HloOp τ sig (Elt F))).Forall fun op => op.writes ⊆ (L5.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A reference chunk 5 does not write keeps its contents through it. -/
theorem rops5_keeps {r : Ref sig .tc} (hr : r ∉ L5) (V : Valuation τ sig (Elt F)) :
    after (rops5 : List (HloOp τ sig (Elt F))) V (Proc.devRef .tc r) = V (Proc.devRef .tc r) :=
  after_of_writes_sub rops5 V rops5_writes hr

/-- Operations 53 to 57 of the program (5 operations). -/
abbrev rops6 : List (HloOp τ sig (Elt F)) :=
  [ unary main_arg23 main_v47 ((transpose S128x128 [1, 0] · transposes_S128x128_S128x128_1_0) : (⟨S128x128, .f32⟩ : BufTy).Contents (Elt F) → (⟨S128x128, .f32⟩ : BufTy).Contents (Elt F)),
    binary main_v46 main_v47 main_v48 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    unary main_arg24 main_v49 (broadcastInDim S1x128 ![1] bcast_S128_S1x128_1 : (⟨S128, .f32⟩ : BufTy).Contents (Elt F) → (⟨S1x128, .f32⟩ : BufTy).Contents (Elt F)),
    unary main_v49 main_v50 (broadcastInDim S200000x128 ![0, 1] bcast_S1x128_S200000x128_0_1 : (⟨S1x128, .f32⟩ : BufTy).Contents (Elt F) → (⟨S200000x128, .f32⟩ : BufTy).Contents (Elt F)),
    binary main_v48 main_v50 main_v51 (addf : (⟨S200000x128, .f32⟩ : BufTy).Contents (Elt F) → (⟨S200000x128, .f32⟩ : BufTy).Contents (Elt F) → (⟨S200000x128, .f32⟩ : BufTy).Contents (Elt F)) ]
/-- The references chunk 6's operations write, in order. -/
abbrev L6 : List (Ref sig .tc) := [main_v47, main_v48, main_v49, main_v50, main_v51]
set_option maxRecDepth 8192 in
theorem rops6_sub : (rops6 : List (HloOp τ sig (Elt F))).Forall fun op => op.bufs ⊆ tcRefs τ sig :=
  ⟨unary_bufs_sub .., binary_bufs_sub .., unary_bufs_sub .., unary_bufs_sub .., binary_bufs_sub ..⟩
set_option maxRecDepth 8192 in
theorem rops6_fresh : (rops6 : List (HloOp τ sig (Elt F))).Forall fun op => op.fresh = ∅ := by
  simp only [List.Forall]; repeat' constructor
set_option maxRecDepth 8192 in
theorem rops6_writes : (rops6 : List (HloOp τ sig (Elt F))).Forall fun op => op.writes ⊆ (L6.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A reference chunk 6 does not write keeps its contents through it. -/
theorem rops6_keeps {r : Ref sig .tc} (hr : r ∉ L6) (V : Valuation τ sig (Elt F)) :
    after (rops6 : List (HloOp τ sig (Elt F))) V (Proc.devRef .tc r) = V (Proc.devRef .tc r) :=
  after_of_writes_sub rops6 V rops6_writes hr

/-- Operations 58 to 67 of the program (10 operations). -/
abbrev rops7 : List (HloOp τ sig (Elt F)) :=
  [ nullary main_c_4 (constantI S_ 32 0#32),
    unary main_c_4 main_v52 (broadcastInDim S200000 ![] bcast_S_S200000 : (⟨S_, .i32⟩ : BufTy).Contents (Elt F) → (⟨S200000, .i32⟩ : BufTy).Contents (Elt F)),
    binary main_v3 main_v52 main_v53 (cmpi .slt : (⟨S200000, .i32⟩ : BufTy).Contents (Elt F) → (⟨S200000, .i32⟩ : BufTy).Contents (Elt F) → (⟨S200000, .i1⟩ : BufTy).Contents (Elt F)),
    nullary main_c_5 (constantI S_ 32 20000#32),
    unary main_c_5 main_v54 (broadcastInDim S200000 ![] bcast_S_S200000 : (⟨S_, .i32⟩ : BufTy).Contents (Elt F) → (⟨S200000, .i32⟩ : BufTy).Contents (Elt F)),
    binary main_v3 main_v54 main_v55 (addi : (⟨S200000, .i32⟩ : BufTy).Contents (Elt F) → (⟨S200000, .i32⟩ : BufTy).Contents (Elt F) → (⟨S200000, .i32⟩ : BufTy).Contents (Elt F)),
    ternary main_v53 main_v55 main_v3 main_v56 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v56 main_v57 (broadcastInDim S200000x1 ![0] bcast_S200000_S200000x1_0 : (⟨S200000, .i32⟩ : BufTy).Contents (Elt F) → (⟨S200000x1, .i32⟩ : BufTy).Contents (Elt F)),
    binary main_v13 main_v57 main_v58 ((fun x i => Host.gather gather_S20000x512_S200000x1_S200000x512_1_0_n_n_0_1_1512 x i) : (⟨S20000x512, .f32⟩ : BufTy).Contents (Elt F) → (⟨S200000x1, .i32⟩ : BufTy).Contents (Elt F) → (⟨S200000x512, .f32⟩ : BufTy).Contents (Elt F)),
    binary main_v51 main_v58 main_v59 ((fun a b => concatenate S200000x640 1 [⟨S200000x128, a⟩, ⟨S200000x512, b⟩] concatenates_S200000x128_S200000x512_S200000x640_d1) : (⟨S200000x128, .f32⟩ : BufTy).Contents (Elt F) → (⟨S200000x512, .f32⟩ : BufTy).Contents (Elt F) → (⟨S200000x640, .f32⟩ : BufTy).Contents (Elt F)) ]
/-- The references chunk 7's operations write, in order. -/
abbrev L7 : List (Ref sig .tc) := [main_c_4, main_v52, main_v53, main_c_5, main_v54, main_v55, main_v56, main_v57, main_v58, main_v59]
set_option maxRecDepth 8192 in
theorem rops7_sub : (rops7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub ..⟩
set_option maxRecDepth 8192 in
theorem rops7_fresh : (rops7 : List (HloOp τ sig (Elt F))).Forall fun op => op.fresh = ∅ := by
  simp only [List.Forall]; repeat' constructor
set_option maxRecDepth 8192 in
theorem rops7_writes : (rops7 : List (HloOp τ sig (Elt F))).Forall fun op => op.writes ⊆ (L7.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A reference chunk 7 does not write keeps its contents through it. -/
theorem rops7_keeps {r : Ref sig .tc} (hr : r ∉ L7) (V : Valuation τ sig (Elt F)) :
    after (rops7 : List (HloOp τ sig (Elt F))) V (Proc.devRef .tc r) = V (Proc.devRef .tc r) :=
  after_of_writes_sub rops7 V rops7_writes hr

/-- Operations 68 to 92 of the program (25 operations). -/
abbrev rops8 : List (HloOp τ sig (Elt F)) :=
  [ TRef.binary (TRef.of (T := ⟨S200000x640, .f32⟩) main_v36) (TRef.of (T := ⟨S200000x640, .f32⟩) main_v36) (TRef.of (T := ⟨S200000x640, .f32⟩) main_call0_v0) mulf,
    TRef.nullary (TRef.of (T := ⟨S_, .f32⟩) main_call0_cst) (constant S_ .f32 0x00000000#32),
    TRef.binary (TRef.of (T := ⟨S200000x640, .f32⟩) main_call0_v0) (TRef.of (T := ⟨S_, .f32⟩) main_call0_cst) (TRef.of (T := ⟨S200000, .f32⟩) main_call0_v1) (fun x v => Host.reduceAdd x v reducesTo_S200000x640_S200000_d1 h_S_),
    TRef.unary (TRef.of (T := ⟨S200000, .f32⟩) main_call0_v1) (TRef.of (T := ⟨S200000, .f32⟩) main_v60) Host.sqrt,
    nullary main_cst_6 (constant S_ .f32 0x322BCC77#32),
    unary main_cst_6 main_v61 (broadcastInDim S200000 ![] bcast_S_S200000 : (⟨S_, .f32⟩ : BufTy).Contents (Elt F) → (⟨S200000, .f32⟩ : BufTy).Contents (Elt F)),
    binary main_v60 main_v61 main_v62 (maximumf : (⟨S200000, .f32⟩ : BufTy).Contents (Elt F) → (⟨S200000, .f32⟩ : BufTy).Contents (Elt F) → (⟨S200000, .f32⟩ : BufTy).Contents (Elt F)),
    TRef.binary (TRef.of (T := ⟨S200000x640, .f32⟩) main_v59) (TRef.of (T := ⟨S200000x640, .f32⟩) main_v59) (TRef.of (T := ⟨S200000x640, .f32⟩) main_call1_v0) mulf,
    TRef.nullary (TRef.of (T := ⟨S_, .f32⟩) main_call1_cst) (constant S_ .f32 0x00000000#32),
    TRef.binary (TRef.of (T := ⟨S200000x640, .f32⟩) main_call1_v0) (TRef.of (T := ⟨S_, .f32⟩) main_call1_cst) (TRef.of (T := ⟨S200000, .f32⟩) main_call1_v1) (fun x v => Host.reduceAdd x v reducesTo_S200000x640_S200000_d1 h_S_),
    TRef.unary (TRef.of (T := ⟨S200000, .f32⟩) main_call1_v1) (TRef.of (T := ⟨S200000, .f32⟩) main_v63) Host.sqrt,
    nullary main_cst_7 (constant S_ .f32 0x322BCC77#32),
    unary main_cst_7 main_v64 (broadcastInDim S200000 ![] bcast_S_S200000 : (⟨S_, .f32⟩ : BufTy).Contents (Elt F) → (⟨S200000, .f32⟩ : BufTy).Contents (Elt F)),
    binary main_v63 main_v64 main_v65 (maximumf : (⟨S200000, .f32⟩ : BufTy).Contents (Elt F) → (⟨S200000, .f32⟩ : BufTy).Contents (Elt F) → (⟨S200000, .f32⟩ : BufTy).Contents (Elt F)),
    binary main_v36 main_v59 main_v66 (mulf : (⟨S200000x640, .f32⟩ : BufTy).Contents (Elt F) → (⟨S200000x640, .f32⟩ : BufTy).Contents (Elt F) → (⟨S200000x640, .f32⟩ : BufTy).Contents (Elt F)),
    nullary main_cst_8 (constant S_ .f32 0x00000000#32),
    binary main_v66 main_cst_8 main_v67 ((fun x v => Host.reduceAdd x v reducesTo_S200000x640_S200000_d1 h_S_) : (⟨S200000x640, .f32⟩ : BufTy).Contents (Elt F) → (⟨S_, .f32⟩ : BufTy).Contents (Elt F) → (⟨S200000, .f32⟩ : BufTy).Contents (Elt F)),
    binary main_v62 main_v65 main_v68 (mulf : (⟨S200000, .f32⟩ : BufTy).Contents (Elt F) → (⟨S200000, .f32⟩ : BufTy).Contents (Elt F) → (⟨S200000, .f32⟩ : BufTy).Contents (Elt F)),
    binary main_v67 main_v68 main_v69 (Host.divf : (⟨S200000, .f32⟩ : BufTy).Contents (Elt F) → (⟨S200000, .f32⟩ : BufTy).Contents (Elt F) → (⟨S200000, .f32⟩ : BufTy).Contents (Elt F)),
    nullary main_cst_9 (constant S_ .f32 0x3F800000#32),
    unary main_cst_9 main_v70 (broadcastInDim S200000 ![] bcast_S_S200000 : (⟨S_, .f32⟩ : BufTy).Contents (Elt F) → (⟨S200000, .f32⟩ : BufTy).Contents (Elt F)),
    binary main_v69 main_v70 main_v71 (addf : (⟨S200000, .f32⟩ : BufTy).Contents (Elt F) → (⟨S200000, .f32⟩ : BufTy).Contents (Elt F) → (⟨S200000, .f32⟩ : BufTy).Contents (Elt F)),
    nullary main_cst_10 (constant S_ .f32 0x3F000000#32),
    unary main_cst_10 main_v72 (broadcastInDim S200000 ![] bcast_S_S200000 : (⟨S_, .f32⟩ : BufTy).Contents (Elt F) → (⟨S200000, .f32⟩ : BufTy).Contents (Elt F)),
    binary main_v71 main_v72 main_v73 (mulf : (⟨S200000, .f32⟩ : BufTy).Contents (Elt F) → (⟨S200000, .f32⟩ : BufTy).Contents (Elt F) → (⟨S200000, .f32⟩ : BufTy).Contents (Elt F)) ]
/-- The references chunk 8's operations write, in order. -/
abbrev L8 : List (Ref sig .tc) := [main_call0_v0, main_call0_cst, main_call0_v1, main_v60, main_cst_6, main_v61, main_v62, main_call1_v0, main_call1_cst, main_call1_v1, main_v63, main_cst_7, main_v64, main_v65, main_v66, main_cst_8, main_v67, main_v68, main_v69, main_cst_9, main_v70, main_v71, main_cst_10, main_v72, main_v73]
set_option maxRecDepth 8192 in
theorem rops8_sub : (rops8 : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., binary_bufs_sub .., nullary_bufs_sub .., binary_bufs_sub .., unary_bufs_sub .., nullary_bufs_sub .., unary_bufs_sub .., binary_bufs_sub .., binary_bufs_sub .., nullary_bufs_sub .., binary_bufs_sub .., binary_bufs_sub .., binary_bufs_sub .., nullary_bufs_sub .., unary_bufs_sub .., binary_bufs_sub .., nullary_bufs_sub .., unary_bufs_sub .., binary_bufs_sub ..⟩
set_option maxRecDepth 8192 in
theorem rops8_fresh : (rops8 : List (HloOp τ sig (Elt F))).Forall fun op => op.fresh = ∅ := by
  simp only [List.Forall]; repeat' constructor
set_option maxRecDepth 8192 in
theorem rops8_writes : (rops8 : List (HloOp τ sig (Elt F))).Forall fun op => op.writes ⊆ (L8.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A reference chunk 8 does not write keeps its contents through it. -/
theorem rops8_keeps {r : Ref sig .tc} (hr : r ∉ L8) (V : Valuation τ sig (Elt F)) :
    after (rops8 : List (HloOp τ sig (Elt F))) V (Proc.devRef .tc r) = V (Proc.devRef .tc r) :=
  after_of_writes_sub rops8 V rops8_writes hr

/-- Operations 93 to 98 of the program (6 operations). -/
abbrev rops9 : List (HloOp τ sig (Elt F)) :=
  [ binary main_v8 main_v13 main_v74 ((fun a b => concatenate S20000x1024 1 [⟨S20000x512, a⟩, ⟨S20000x512, b⟩] concatenates_S20000x512_S20000x512_S20000x1024_d1) : (⟨S20000x512, .f32⟩ : BufTy).Contents (Elt F) → (⟨S20000x512, .f32⟩ : BufTy).Contents (Elt F) → (⟨S20000x1024, .f32⟩ : BufTy).Contents (Elt F)),
    unary main_arg7 main_v75 ((transpose S1024x512 [1, 0] · transposes_S512x1024_S1024x512_1_0) : (⟨S512x1024, .f32⟩ : BufTy).Contents (Elt F) → (⟨S1024x512, .f32⟩ : BufTy).Contents (Elt F)),
    binary main_v74 main_v75 main_v76 ((fun l r => Host.dotGeneral dot_S20000x1024_S1024x512_S20000x512_1_0_0_1_n_n none l r) : (⟨S20000x1024, .f32⟩ : BufTy).Contents (Elt F) → (⟨S1024x512, .f32⟩ : BufTy).Contents (Elt F) → (⟨S20000x512, .f32⟩ : BufTy).Contents (Elt F)),
    unary main_arg8 main_v77 (broadcastInDim S1x512 ![1] bcast_S512_S1x512_1 : (⟨S512, .f32⟩ : BufTy).Contents (Elt F) → (⟨S1x512, .f32⟩ : BufTy).Contents (Elt F)),
    unary main_v77 main_v78 (broadcastInDim S20000x512 ![0, 1] bcast_S1x512_S20000x512_0_1 : (⟨S1x512, .f32⟩ : BufTy).Contents (Elt F) → (⟨S20000x512, .f32⟩ : BufTy).Contents (Elt F)),
    binary main_v76 main_v78 main_v79 (addf : (⟨S20000x512, .f32⟩ : BufTy).Contents (Elt F) → (⟨S20000x512, .f32⟩ : BufTy).Contents (Elt F) → (⟨S20000x512, .f32⟩ : BufTy).Contents (Elt F)) ]
/-- The references chunk 9's operations write, in order. -/
abbrev L9 : List (Ref sig .tc) := [main_v74, main_v75, main_v76, main_v77, main_v78, main_v79]
set_option maxRecDepth 8192 in
theorem rops9_sub : (rops9 : List (HloOp τ sig (Elt F))).Forall fun op => op.bufs ⊆ tcRefs τ sig :=
  ⟨binary_bufs_sub .., unary_bufs_sub .., binary_bufs_sub .., unary_bufs_sub .., unary_bufs_sub .., binary_bufs_sub ..⟩
set_option maxRecDepth 8192 in
theorem rops9_fresh : (rops9 : List (HloOp τ sig (Elt F))).Forall fun op => op.fresh = ∅ := by
  simp only [List.Forall]; repeat' constructor
set_option maxRecDepth 8192 in
theorem rops9_writes : (rops9 : List (HloOp τ sig (Elt F))).Forall fun op => op.writes ⊆ (L9.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A reference chunk 9 does not write keeps its contents through it. -/
theorem rops9_keeps {r : Ref sig .tc} (hr : r ∉ L9) (V : Valuation τ sig (Elt F)) :
    after (rops9 : List (HloOp τ sig (Elt F))) V (Proc.devRef .tc r) = V (Proc.devRef .tc r) :=
  after_of_writes_sub rops9 V rops9_writes hr

/-- Operations 99 to 130 of the program (32 operations). -/
abbrev rops10 : List (HloOp τ sig (Elt F)) :=
  [ nullary main_cst_11 (constant S_ .f32 0x00000000#32),
    unary main_cst_11 main_v80 (broadcastInDim S20000 ![] bcast_S_S20000 : (⟨S_, .f32⟩ : BufTy).Contents (Elt F) → (⟨S20000, .f32⟩ : BufTy).Contents (Elt F)),
    unary main_v1 main_v81 (broadcastInDim S200000x1 ![0] bcast_S200000_S200000x1_0 : (⟨S200000, .i32⟩ : BufTy).Contents (Elt F) → (⟨S200000x1, .i32⟩ : BufTy).Contents (Elt F)),
    ternary main_v80 main_v81 main_v73 main_v82 ((fun x i u => Host.scatterAdd scatter_S20000_S200000x1_S200000_n_0_0_1 x i u) : (⟨S20000, .f32⟩ : BufTy).Contents (Elt F) → (⟨S200000x1, .i32⟩ : BufTy).Contents (Elt F) → (⟨S200000, .f32⟩ : BufTy).Contents (Elt F) → (⟨S20000, .f32⟩ : BufTy).Contents (Elt F)),
    nullary main_cst_12 (constant S_ .f32 0x00000000#32),
    unary main_cst_12 main_v83 (broadcastInDim S20000 ![] bcast_S_S20000 : (⟨S_, .f32⟩ : BufTy).Contents (Elt F) → (⟨S20000, .f32⟩ : BufTy).Contents (Elt F)),
    binary main_v82 main_v83 main_v84 (cmpf .ogt : (⟨S20000, .f32⟩ : BufTy).Contents (Elt F) → (⟨S20000, .f32⟩ : BufTy).Contents (Elt F) → (⟨S20000, .i1⟩ : BufTy).Contents (Elt F)),
    unary main_v82 main_v85 (Host.rsqrt : (⟨S20000, .f32⟩ : BufTy).Contents (Elt F) → (⟨S20000, .f32⟩ : BufTy).Contents (Elt F)),
    nullary main_cst_13 (constant S_ .f32 0x00000000#32),
    TRef.unary (TRef.of (T := ⟨S_, .f32⟩) main_cst_13) (TRef.of (T := ⟨S_, .f32⟩) main_call2_v0) id,
    TRef.unary (TRef.of (T := ⟨S_, .f32⟩) main_call2_v0) (TRef.of (T := ⟨S20000, .f32⟩) main_call2_v1) (broadcastInDim S20000 ![] bcast_S_S20000),
    TRef.ternary (TRef.of (T := ⟨S20000, .i1⟩) main_v84) (TRef.of (T := ⟨S20000, .f32⟩) main_v85) (TRef.of (T := ⟨S20000, .f32⟩) main_call2_v1) (TRef.of (T := ⟨S20000, .f32⟩) main_v86) select,
    nullary main_c_14 (constantI S_ 32 0#32),
    unary main_c_14 main_v87 (broadcastInDim S200000 ![] bcast_S_S200000 : (⟨S_, .i32⟩ : BufTy).Contents (Elt F) → (⟨S200000, .i32⟩ : BufTy).Contents (Elt F)),
    binary main_v1 main_v87 main_v88 (cmpi .slt : (⟨S200000, .i32⟩ : BufTy).Contents (Elt F) → (⟨S200000, .i32⟩ : BufTy).Contents (Elt F) → (⟨S200000, .i1⟩ : BufTy).Contents (Elt F)),
    nullary main_c_15 (constantI S_ 32 20000#32),
    unary main_c_15 main_v89 (broadcastInDim S200000 ![] bcast_S_S200000 : (⟨S_, .i32⟩ : BufTy).Contents (Elt F) → (⟨S200000, .i32⟩ : BufTy).Contents (Elt F)),
    binary main_v1 main_v89 main_v90 (addi : (⟨S200000, .i32⟩ : BufTy).Contents (Elt F) → (⟨S200000, .i32⟩ : BufTy).Contents (Elt F) → (⟨S200000, .i32⟩ : BufTy).Contents (Elt F)),
    ternary main_v88 main_v90 main_v1 main_v91 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v91 main_v92 (broadcastInDim S200000x1 ![0] bcast_S200000_S200000x1_0 : (⟨S200000, .i32⟩ : BufTy).Contents (Elt F) → (⟨S200000x1, .i32⟩ : BufTy).Contents (Elt F)),
    binary main_v86 main_v92 main_v93 ((fun x i => Host.gather gather_S20000_S200000x1_S200000_n_0_n_n_0_1_1 x i) : (⟨S20000, .f32⟩ : BufTy).Contents (Elt F) → (⟨S200000x1, .i32⟩ : BufTy).Contents (Elt F) → (⟨S200000, .f32⟩ : BufTy).Contents (Elt F)),
    binary main_v93 main_v73 main_v94 (mulf : (⟨S200000, .f32⟩ : BufTy).Contents (Elt F) → (⟨S200000, .f32⟩ : BufTy).Contents (Elt F) → (⟨S200000, .f32⟩ : BufTy).Contents (Elt F)),
    nullary main_c_16 (constantI S_ 32 0#32),
    unary main_c_16 main_v95 (broadcastInDim S200000 ![] bcast_S_S200000 : (⟨S_, .i32⟩ : BufTy).Contents (Elt F) → (⟨S200000, .i32⟩ : BufTy).Contents (Elt F)),
    binary main_v3 main_v95 main_v96 (cmpi .slt : (⟨S200000, .i32⟩ : BufTy).Contents (Elt F) → (⟨S200000, .i32⟩ : BufTy).Contents (Elt F) → (⟨S200000, .i1⟩ : BufTy).Contents (Elt F)),
    nullary main_c_17 (constantI S_ 32 20000#32),
    unary main_c_17 main_v97 (broadcastInDim S200000 ![] bcast_S_S200000 : (⟨S_, .i32⟩ : BufTy).Contents (Elt F) → (⟨S200000, .i32⟩ : BufTy).Contents (Elt F)),
    binary main_v3 main_v97 main_v98 (addi : (⟨S200000, .i32⟩ : BufTy).Contents (Elt F) → (⟨S200000, .i32⟩ : BufTy).Contents (Elt F) → (⟨S200000, .i32⟩ : BufTy).Contents (Elt F)),
    ternary main_v96 main_v98 main_v3 main_v99 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v99 main_v100 (broadcastInDim S200000x1 ![0] bcast_S200000_S200000x1_0 : (⟨S200000, .i32⟩ : BufTy).Contents (Elt F) → (⟨S200000x1, .i32⟩ : BufTy).Contents (Elt F)),
    binary main_v86 main_v100 main_v101 ((fun x i => Host.gather gather_S20000_S200000x1_S200000_n_0_n_n_0_1_1 x i) : (⟨S20000, .f32⟩ : BufTy).Contents (Elt F) → (⟨S200000x1, .i32⟩ : BufTy).Contents (Elt F) → (⟨S200000, .f32⟩ : BufTy).Contents (Elt F)),
    binary main_v94 main_v101 main_v102 (mulf : (⟨S200000, .f32⟩ : BufTy).Contents (Elt F) → (⟨S200000, .f32⟩ : BufTy).Contents (Elt F) → (⟨S200000, .f32⟩ : BufTy).Contents (Elt F)) ]
/-- The references chunk 10's operations write, in order. -/
abbrev L10 : List (Ref sig .tc) := [main_cst_11, main_v80, main_v81, main_v82, main_cst_12, main_v83, main_v84, main_v85, main_cst_13, main_call2_v0, main_call2_v1, main_v86, main_c_14, main_v87, main_v88, main_c_15, main_v89, main_v90, main_v91, main_v92, main_v93, main_v94, main_c_16, main_v95, main_v96, main_c_17, main_v97, main_v98, main_v99, main_v100, main_v101, main_v102]
set_option maxRecDepth 8192 in
theorem rops10_sub : (rops10 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
set_option maxRecDepth 8192 in
theorem rops10_fresh : (rops10 : List (HloOp τ sig (Elt F))).Forall fun op => op.fresh = ∅ := by
  simp only [List.Forall]; repeat' constructor
set_option maxRecDepth 8192 in
theorem rops10_writes : (rops10 : List (HloOp τ sig (Elt F))).Forall fun op => op.writes ⊆ (L10.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A reference chunk 10 does not write keeps its contents through it. -/
theorem rops10_keeps {r : Ref sig .tc} (hr : r ∉ L10) (V : Valuation τ sig (Elt F)) :
    after (rops10 : List (HloOp τ sig (Elt F))) V (Proc.devRef .tc r) = V (Proc.devRef .tc r) :=
  after_of_writes_sub rops10 V rops10_writes hr

/-- Operations 131 to 182 of the program (52 operations). -/
abbrev rops11 : List (HloOp τ sig (Elt F)) :=
  [ unary main_v102 main_v103 (broadcastInDim S200000x1 ![0] bcast_S200000_S200000x1_0 : (⟨S200000, .f32⟩ : BufTy).Contents (Elt F) → (⟨S200000x1, .f32⟩ : BufTy).Contents (Elt F)),
    nullary main_c_18 (constantI S_ 32 0#32),
    unary main_c_18 main_v104 (broadcastInDim S200000 ![] bcast_S_S200000 : (⟨S_, .i32⟩ : BufTy).Contents (Elt F) → (⟨S200000, .i32⟩ : BufTy).Contents (Elt F)),
    binary main_v1 main_v104 main_v105 (cmpi .slt : (⟨S200000, .i32⟩ : BufTy).Contents (Elt F) → (⟨S200000, .i32⟩ : BufTy).Contents (Elt F) → (⟨S200000, .i1⟩ : BufTy).Contents (Elt F)),
    nullary main_c_19 (constantI S_ 32 20000#32),
    unary main_c_19 main_v106 (broadcastInDim S200000 ![] bcast_S_S200000 : (⟨S_, .i32⟩ : BufTy).Contents (Elt F) → (⟨S200000, .i32⟩ : BufTy).Contents (Elt F)),
    binary main_v1 main_v106 main_v107 (addi : (⟨S200000, .i32⟩ : BufTy).Contents (Elt F) → (⟨S200000, .i32⟩ : BufTy).Contents (Elt F) → (⟨S200000, .i32⟩ : BufTy).Contents (Elt F)),
    ternary main_v105 main_v107 main_v1 main_v108 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v108 main_v109 (broadcastInDim S200000x1 ![0] bcast_S200000_S200000x1_0 : (⟨S200000, .i32⟩ : BufTy).Contents (Elt F) → (⟨S200000x1, .i32⟩ : BufTy).Contents (Elt F)),
    binary main_v8 main_v109 main_v110 ((fun x i => Host.gather gather_S20000x512_S200000x1_S200000x512_1_0_n_n_0_1_1512 x i) : (⟨S20000x512, .f32⟩ : BufTy).Contents (Elt F) → (⟨S200000x1, .i32⟩ : BufTy).Contents (Elt F) → (⟨S200000x512, .f32⟩ : BufTy).Contents (Elt F)),
    unary main_v103 main_v111 (broadcastInDim S200000x512 ![0, 1] bcast_S200000x1_S200000x512_0_1 : (⟨S200000x1, .f32⟩ : BufTy).Contents (Elt F) → (⟨S200000x512, .f32⟩ : BufTy).Contents (Elt F)),
    binary main_v111 main_v110 main_v112 (mulf : (⟨S200000x512, .f32⟩ : BufTy).Contents (Elt F) → (⟨S200000x512, .f32⟩ : BufTy).Contents (Elt F) → (⟨S200000x512, .f32⟩ : BufTy).Contents (Elt F)),
    nullary main_cst_20 (constant S_ .f32 0x00000000#32),
    unary main_cst_20 main_v113 (broadcastInDim S20000x512 ![] bcast_S_S20000x512 : (⟨S_, .f32⟩ : BufTy).Contents (Elt F) → (⟨S20000x512, .f32⟩ : BufTy).Contents (Elt F)),
    unary main_v3 main_v114 (broadcastInDim S200000x1 ![0] bcast_S200000_S200000x1_0 : (⟨S200000, .i32⟩ : BufTy).Contents (Elt F) → (⟨S200000x1, .i32⟩ : BufTy).Contents (Elt F)),
    ternary main_v113 main_v114 main_v112 main_v115 ((fun x i u => Host.scatterAdd scatter_S20000x512_S200000x1_S200000x512_1_0_0_1 x i u) : (⟨S20000x512, .f32⟩ : BufTy).Contents (Elt F) → (⟨S200000x1, .i32⟩ : BufTy).Contents (Elt F) → (⟨S200000x512, .f32⟩ : BufTy).Contents (Elt F) → (⟨S20000x512, .f32⟩ : BufTy).Contents (Elt F)),
    unary main_v115 main_v116 (Host.negf : (⟨S20000x512, .f32⟩ : BufTy).Contents (Elt F) → (⟨S20000x512, .f32⟩ : BufTy).Contents (Elt F)),
    unary main_arg9 main_v117 ((extractStridedSlice S1x512x16 ![0, 0, 0] · slices_S3x512x16_S1x512x16_0_0_0) : (⟨S3x512x16, .f32⟩ : BufTy).Contents (Elt F) → (⟨S1x512x16, .f32⟩ : BufTy).Contents (Elt F)),
    reshape main_v117 main_v118 rfl shapeCasts_S1x512x16_S512x16,
    binary main_v8 main_v118 main_v119 ((fun l r => Host.dotGeneral dot_S20000x512_S512x16_S20000x16_1_0_0_1_n_n none l r) : (⟨S20000x512, .f32⟩ : BufTy).Contents (Elt F) → (⟨S512x16, .f32⟩ : BufTy).Contents (Elt F) → (⟨S20000x16, .f32⟩ : BufTy).Contents (Elt F)),
    unary main_arg9 main_v120 ((extractStridedSlice S1x512x16 ![1, 0, 0] · slices_S3x512x16_S1x512x16_1_0_0) : (⟨S3x512x16, .f32⟩ : BufTy).Contents (Elt F) → (⟨S1x512x16, .f32⟩ : BufTy).Contents (Elt F)),
    reshape main_v120 main_v121 rfl shapeCasts_S1x512x16_S512x16,
    binary main_v116 main_v121 main_v122 ((fun l r => Host.dotGeneral dot_S20000x512_S512x16_S20000x16_1_0_0_1_n_n none l r) : (⟨S20000x512, .f32⟩ : BufTy).Contents (Elt F) → (⟨S512x16, .f32⟩ : BufTy).Contents (Elt F) → (⟨S20000x16, .f32⟩ : BufTy).Contents (Elt F)),
    binary main_v119 main_v122 main_v123 (addf : (⟨S20000x16, .f32⟩ : BufTy).Contents (Elt F) → (⟨S20000x16, .f32⟩ : BufTy).Contents (Elt F) → (⟨S20000x16, .f32⟩ : BufTy).Contents (Elt F)),
    unary main_v102 main_v124 (broadcastInDim S200000x1 ![0] bcast_S200000_S200000x1_0 : (⟨S200000, .f32⟩ : BufTy).Contents (Elt F) → (⟨S200000x1, .f32⟩ : BufTy).Contents (Elt F)),
    nullary main_c_21 (constantI S_ 32 0#32),
    unary main_c_21 main_v125 (broadcastInDim S200000 ![] bcast_S_S200000 : (⟨S_, .i32⟩ : BufTy).Contents (Elt F) → (⟨S200000, .i32⟩ : BufTy).Contents (Elt F)),
    binary main_v1 main_v125 main_v126 (cmpi .slt : (⟨S200000, .i32⟩ : BufTy).Contents (Elt F) → (⟨S200000, .i32⟩ : BufTy).Contents (Elt F) → (⟨S200000, .i1⟩ : BufTy).Contents (Elt F)),
    nullary main_c_22 (constantI S_ 32 20000#32),
    unary main_c_22 main_v127 (broadcastInDim S200000 ![] bcast_S_S200000 : (⟨S_, .i32⟩ : BufTy).Contents (Elt F) → (⟨S200000, .i32⟩ : BufTy).Contents (Elt F)),
    binary main_v1 main_v127 main_v128 (addi : (⟨S200000, .i32⟩ : BufTy).Contents (Elt F) → (⟨S200000, .i32⟩ : BufTy).Contents (Elt F) → (⟨S200000, .i32⟩ : BufTy).Contents (Elt F)),
    ternary main_v126 main_v128 main_v1 main_v129 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v129 main_v130 (broadcastInDim S200000x1 ![0] bcast_S200000_S200000x1_0 : (⟨S200000, .i32⟩ : BufTy).Contents (Elt F) → (⟨S200000x1, .i32⟩ : BufTy).Contents (Elt F)),
    binary main_v116 main_v130 main_v131 ((fun x i => Host.gather gather_S20000x512_S200000x1_S200000x512_1_0_n_n_0_1_1512 x i) : (⟨S20000x512, .f32⟩ : BufTy).Contents (Elt F) → (⟨S200000x1, .i32⟩ : BufTy).Contents (Elt F) → (⟨S200000x512, .f32⟩ : BufTy).Contents (Elt F)),
    unary main_v124 main_v132 (broadcastInDim S200000x512 ![0, 1] bcast_S200000x1_S200000x512_0_1 : (⟨S200000x1, .f32⟩ : BufTy).Contents (Elt F) → (⟨S200000x512, .f32⟩ : BufTy).Contents (Elt F)),
    binary main_v132 main_v131 main_v133 (mulf : (⟨S200000x512, .f32⟩ : BufTy).Contents (Elt F) → (⟨S200000x512, .f32⟩ : BufTy).Contents (Elt F) → (⟨S200000x512, .f32⟩ : BufTy).Contents (Elt F)),
    nullary main_cst_23 (constant S_ .f32 0x00000000#32),
    unary main_cst_23 main_v134 (broadcastInDim S20000x512 ![] bcast_S_S20000x512 : (⟨S_, .f32⟩ : BufTy).Contents (Elt F) → (⟨S20000x512, .f32⟩ : BufTy).Contents (Elt F)),
    unary main_v3 main_v135 (broadcastInDim S200000x1 ![0] bcast_S200000_S200000x1_0 : (⟨S200000, .i32⟩ : BufTy).Contents (Elt F) → (⟨S200000x1, .i32⟩ : BufTy).Contents (Elt F)),
    ternary main_v134 main_v135 main_v133 main_v136 ((fun x i u => Host.scatterAdd scatter_S20000x512_S200000x1_S200000x512_1_0_0_1 x i u) : (⟨S20000x512, .f32⟩ : BufTy).Contents (Elt F) → (⟨S200000x1, .i32⟩ : BufTy).Contents (Elt F) → (⟨S200000x512, .f32⟩ : BufTy).Contents (Elt F) → (⟨S20000x512, .f32⟩ : BufTy).Contents (Elt F)),
    unary main_v136 main_v137 (Host.negf : (⟨S20000x512, .f32⟩ : BufTy).Contents (Elt F) → (⟨S20000x512, .f32⟩ : BufTy).Contents (Elt F)),
    nullary main_cst_24 (constant S_ .f32 0x40000000#32),
    unary main_cst_24 main_v138 (broadcastInDim S20000x512 ![] bcast_S_S20000x512 : (⟨S_, .f32⟩ : BufTy).Contents (Elt F) → (⟨S20000x512, .f32⟩ : BufTy).Contents (Elt F)),
    binary main_v138 main_v137 main_v139 (mulf : (⟨S20000x512, .f32⟩ : BufTy).Contents (Elt F) → (⟨S20000x512, .f32⟩ : BufTy).Contents (Elt F) → (⟨S20000x512, .f32⟩ : BufTy).Contents (Elt F)),
    binary main_v139 main_v8 main_v140 (subf : (⟨S20000x512, .f32⟩ : BufTy).Contents (Elt F) → (⟨S20000x512, .f32⟩ : BufTy).Contents (Elt F) → (⟨S20000x512, .f32⟩ : BufTy).Contents (Elt F)),
    unary main_arg9 main_v141 ((extractStridedSlice S1x512x16 ![2, 0, 0] · slices_S3x512x16_S1x512x16_2_0_0) : (⟨S3x512x16, .f32⟩ : BufTy).Contents (Elt F) → (⟨S1x512x16, .f32⟩ : BufTy).Contents (Elt F)),
    reshape main_v141 main_v142 rfl shapeCasts_S1x512x16_S512x16,
    binary main_v140 main_v142 main_v143 ((fun l r => Host.dotGeneral dot_S20000x512_S512x16_S20000x16_1_0_0_1_n_n none l r) : (⟨S20000x512, .f32⟩ : BufTy).Contents (Elt F) → (⟨S512x16, .f32⟩ : BufTy).Contents (Elt F) → (⟨S20000x16, .f32⟩ : BufTy).Contents (Elt F)),
    binary main_v123 main_v143 main_v144 (addf : (⟨S20000x16, .f32⟩ : BufTy).Contents (Elt F) → (⟨S20000x16, .f32⟩ : BufTy).Contents (Elt F) → (⟨S20000x16, .f32⟩ : BufTy).Contents (Elt F)),
    nullary main_cst_25 (constant S_ .f32 0x00000000#32),
    unary main_cst_25 main_v145 (broadcastInDim S20000x16 ![] bcast_S_S20000x16 : (⟨S_, .f32⟩ : BufTy).Contents (Elt F) → (⟨S20000x16, .f32⟩ : BufTy).Contents (Elt F)),
    binary main_v144 main_v145 main_v146 (maximumf : (⟨S20000x16, .f32⟩ : BufTy).Contents (Elt F) → (⟨S20000x16, .f32⟩ : BufTy).Contents (Elt F) → (⟨S20000x16, .f32⟩ : BufTy).Contents (Elt F)) ]
/-- The references chunk 11's operations write, in order. -/
abbrev L11 : List (Ref sig .tc) := [main_v103, main_c_18, main_v104, main_v105, main_c_19, main_v106, main_v107, main_v108, main_v109, main_v110, main_v111, main_v112, main_cst_20, main_v113, main_v114, main_v115, main_v116, main_v117, main_v118, main_v119, main_v120, main_v121, main_v122, main_v123, main_v124, main_c_21, main_v125, main_v126, main_c_22, main_v127, main_v128, main_v129, main_v130, main_v131, main_v132, main_v133, main_cst_23, main_v134, main_v135, main_v136, main_v137, main_cst_24, main_v138, main_v139, main_v140, main_v141, main_v142, main_v143, main_v144, main_cst_25, main_v145, main_v146]
set_option maxRecDepth 8192 in
theorem rops11_sub : (rops11 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., reshape_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., binary_bufs_sub .., unary_bufs_sub .., reshape_bufs_sub .., binary_bufs_sub .., binary_bufs_sub .., nullary_bufs_sub .., unary_bufs_sub .., binary_bufs_sub ..⟩
set_option maxRecDepth 8192 in
theorem rops11_fresh : (rops11 : List (HloOp τ sig (Elt F))).Forall fun op => op.fresh = ∅ := by
  simp only [List.Forall]; repeat' constructor
set_option maxRecDepth 8192 in
theorem rops11_writes : (rops11 : List (HloOp τ sig (Elt F))).Forall fun op => op.writes ⊆ (L11.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A reference chunk 11 does not write keeps its contents through it. -/
theorem rops11_keeps {r : Ref sig .tc} (hr : r ∉ L11) (V : Valuation τ sig (Elt F)) :
    after (rops11 : List (HloOp τ sig (Elt F))) V (Proc.devRef .tc r) = V (Proc.devRef .tc r) :=
  after_of_writes_sub rops11 V rops11_writes hr

/-- Operations 183 to 235 of the program (53 operations). -/
abbrev rops12 : List (HloOp τ sig (Elt F)) :=
  [ unary main_v102 main_v147 (broadcastInDim S200000x1 ![0] bcast_S200000_S200000x1_0 : (⟨S200000, .f32⟩ : BufTy).Contents (Elt F) → (⟨S200000x1, .f32⟩ : BufTy).Contents (Elt F)),
    nullary main_c_26 (constantI S_ 32 0#32),
    unary main_c_26 main_v148 (broadcastInDim S200000 ![] bcast_S_S200000 : (⟨S_, .i32⟩ : BufTy).Contents (Elt F) → (⟨S200000, .i32⟩ : BufTy).Contents (Elt F)),
    binary main_v1 main_v148 main_v149 (cmpi .slt : (⟨S200000, .i32⟩ : BufTy).Contents (Elt F) → (⟨S200000, .i32⟩ : BufTy).Contents (Elt F) → (⟨S200000, .i1⟩ : BufTy).Contents (Elt F)),
    nullary main_c_27 (constantI S_ 32 20000#32),
    unary main_c_27 main_v150 (broadcastInDim S200000 ![] bcast_S_S200000 : (⟨S_, .i32⟩ : BufTy).Contents (Elt F) → (⟨S200000, .i32⟩ : BufTy).Contents (Elt F)),
    binary main_v1 main_v150 main_v151 (addi : (⟨S200000, .i32⟩ : BufTy).Contents (Elt F) → (⟨S200000, .i32⟩ : BufTy).Contents (Elt F) → (⟨S200000, .i32⟩ : BufTy).Contents (Elt F)),
    ternary main_v149 main_v151 main_v1 main_v152 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v152 main_v153 (broadcastInDim S200000x1 ![0] bcast_S200000_S200000x1_0 : (⟨S200000, .i32⟩ : BufTy).Contents (Elt F) → (⟨S200000x1, .i32⟩ : BufTy).Contents (Elt F)),
    binary main_v146 main_v153 main_v154 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    unary main_v147 main_v155 (broadcastInDim S200000x16 ![0, 1] bcast_S200000x1_S200000x16_0_1 : (⟨S200000x1, .f32⟩ : BufTy).Contents (Elt F) → (⟨S200000x16, .f32⟩ : BufTy).Contents (Elt F)),
    binary main_v155 main_v154 main_v156 (mulf : (⟨S200000x16, .f32⟩ : BufTy).Contents (Elt F) → (⟨S200000x16, .f32⟩ : BufTy).Contents (Elt F) → (⟨S200000x16, .f32⟩ : BufTy).Contents (Elt F)),
    nullary main_cst_28 (constant S_ .f32 0x00000000#32),
    unary main_cst_28 main_v157 (broadcastInDim S20000x16 ![] bcast_S_S20000x16 : (⟨S_, .f32⟩ : BufTy).Contents (Elt F) → (⟨S20000x16, .f32⟩ : BufTy).Contents (Elt F)),
    unary main_v3 main_v158 (broadcastInDim S200000x1 ![0] bcast_S200000_S200000x1_0 : (⟨S200000, .i32⟩ : BufTy).Contents (Elt F) → (⟨S200000x1, .i32⟩ : BufTy).Contents (Elt F)),
    ternary main_v157 main_v158 main_v156 main_v159 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    unary main_v159 main_v160 (Host.negf : (⟨S20000x16, .f32⟩ : BufTy).Contents (Elt F) → (⟨S20000x16, .f32⟩ : BufTy).Contents (Elt F)),
    unary main_arg10 main_v161 ((extractStridedSlice S1x16x16 ![0, 0, 0] · slices_S3x16x16_S1x16x16_0_0_0) : (⟨S3x16x16, .f32⟩ : BufTy).Contents (Elt F) → (⟨S1x16x16, .f32⟩ : BufTy).Contents (Elt F)),
    reshape main_v161 main_v162 rfl shapeCasts_S1x16x16_S16x16,
    binary main_v146 main_v162 main_v163 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    unary main_arg10 main_v164 ((extractStridedSlice S1x16x16 ![1, 0, 0] · slices_S3x16x16_S1x16x16_1_0_0) : (⟨S3x16x16, .f32⟩ : BufTy).Contents (Elt F) → (⟨S1x16x16, .f32⟩ : BufTy).Contents (Elt F)),
    reshape main_v164 main_v165 rfl shapeCasts_S1x16x16_S16x16,
    binary main_v160 main_v165 main_v166 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    binary main_v163 main_v166 main_v167 (addf : (⟨S20000x16, .f32⟩ : BufTy).Contents (Elt F) → (⟨S20000x16, .f32⟩ : BufTy).Contents (Elt F) → (⟨S20000x16, .f32⟩ : BufTy).Contents (Elt F)),
    unary main_v102 main_v168 (broadcastInDim S200000x1 ![0] bcast_S200000_S200000x1_0 : (⟨S200000, .f32⟩ : BufTy).Contents (Elt F) → (⟨S200000x1, .f32⟩ : BufTy).Contents (Elt F)),
    nullary main_c_29 (constantI S_ 32 0#32),
    unary main_c_29 main_v169 (broadcastInDim S200000 ![] bcast_S_S200000 : (⟨S_, .i32⟩ : BufTy).Contents (Elt F) → (⟨S200000, .i32⟩ : BufTy).Contents (Elt F)),
    binary main_v1 main_v169 main_v170 (cmpi .slt : (⟨S200000, .i32⟩ : BufTy).Contents (Elt F) → (⟨S200000, .i32⟩ : BufTy).Contents (Elt F) → (⟨S200000, .i1⟩ : BufTy).Contents (Elt F)),
    nullary main_c_30 (constantI S_ 32 20000#32),
    unary main_c_30 main_v171 (broadcastInDim S200000 ![] bcast_S_S200000 : (⟨S_, .i32⟩ : BufTy).Contents (Elt F) → (⟨S200000, .i32⟩ : BufTy).Contents (Elt F)),
    binary main_v1 main_v171 main_v172 (addi : (⟨S200000, .i32⟩ : BufTy).Contents (Elt F) → (⟨S200000, .i32⟩ : BufTy).Contents (Elt F) → (⟨S200000, .i32⟩ : BufTy).Contents (Elt F)),
    ternary main_v170 main_v172 main_v1 main_v173 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v173 main_v174 (broadcastInDim S200000x1 ![0] bcast_S200000_S200000x1_0 : (⟨S200000, .i32⟩ : BufTy).Contents (Elt F) → (⟨S200000x1, .i32⟩ : BufTy).Contents (Elt F)),
    binary main_v160 main_v174 main_v175 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    unary main_v168 main_v176 (broadcastInDim S200000x16 ![0, 1] bcast_S200000x1_S200000x16_0_1 : (⟨S200000x1, .f32⟩ : BufTy).Contents (Elt F) → (⟨S200000x16, .f32⟩ : BufTy).Contents (Elt F)),
    binary main_v176 main_v175 main_v177 (mulf : (⟨S200000x16, .f32⟩ : BufTy).Contents (Elt F) → (⟨S200000x16, .f32⟩ : BufTy).Contents (Elt F) → (⟨S200000x16, .f32⟩ : BufTy).Contents (Elt F)),
    nullary main_cst_31 (constant S_ .f32 0x00000000#32),
    unary main_cst_31 main_v178 (broadcastInDim S20000x16 ![] bcast_S_S20000x16 : (⟨S_, .f32⟩ : BufTy).Contents (Elt F) → (⟨S20000x16, .f32⟩ : BufTy).Contents (Elt F)),
    unary main_v3 main_v179 (broadcastInDim S200000x1 ![0] bcast_S200000_S200000x1_0 : (⟨S200000, .i32⟩ : BufTy).Contents (Elt F) → (⟨S200000x1, .i32⟩ : BufTy).Contents (Elt F)),
    ternary main_v178 main_v179 main_v177 main_v180 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    unary main_v180 main_v181 (Host.negf : (⟨S20000x16, .f32⟩ : BufTy).Contents (Elt F) → (⟨S20000x16, .f32⟩ : BufTy).Contents (Elt F)),
    nullary main_cst_32 (constant S_ .f32 0x40000000#32),
    unary main_cst_32 main_v182 (broadcastInDim S20000x16 ![] bcast_S_S20000x16 : (⟨S_, .f32⟩ : BufTy).Contents (Elt F) → (⟨S20000x16, .f32⟩ : BufTy).Contents (Elt F)),
    binary main_v182 main_v181 main_v183 (mulf : (⟨S20000x16, .f32⟩ : BufTy).Contents (Elt F) → (⟨S20000x16, .f32⟩ : BufTy).Contents (Elt F) → (⟨S20000x16, .f32⟩ : BufTy).Contents (Elt F)),
    binary main_v183 main_v146 main_v184 (subf : (⟨S20000x16, .f32⟩ : BufTy).Contents (Elt F) → (⟨S20000x16, .f32⟩ : BufTy).Contents (Elt F) → (⟨S20000x16, .f32⟩ : BufTy).Contents (Elt F)),
    unary main_arg10 main_v185 ((extractStridedSlice S1x16x16 ![2, 0, 0] · slices_S3x16x16_S1x16x16_2_0_0) : (⟨S3x16x16, .f32⟩ : BufTy).Contents (Elt F) → (⟨S1x16x16, .f32⟩ : BufTy).Contents (Elt F)),
    reshape main_v185 main_v186 rfl shapeCasts_S1x16x16_S16x16,
    binary main_v184 main_v186 main_v187 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    binary main_v167 main_v187 main_v188 (addf : (⟨S20000x16, .f32⟩ : BufTy).Contents (Elt F) → (⟨S20000x16, .f32⟩ : BufTy).Contents (Elt F) → (⟨S20000x16, .f32⟩ : BufTy).Contents (Elt F)),
    nullary main_cst_33 (constant S_ .f32 0x00000000#32),
    unary main_cst_33 main_v189 (broadcastInDim S20000x16 ![] bcast_S_S20000x16 : (⟨S_, .f32⟩ : BufTy).Contents (Elt F) → (⟨S20000x16, .f32⟩ : BufTy).Contents (Elt F)),
    binary main_v188 main_v189 main_v190 (maximumf : (⟨S20000x16, .f32⟩ : BufTy).Contents (Elt F) → (⟨S20000x16, .f32⟩ : BufTy).Contents (Elt F) → (⟨S20000x16, .f32⟩ : BufTy).Contents (Elt F)),
    binary main_v146 main_v190 main_v191 ((fun a b => concatenate S20000x32 1 [⟨S20000x16, a⟩, ⟨S20000x16, b⟩] concatenates_S20000x16_S20000x16_S20000x32_d1) : (⟨S20000x16, .f32⟩ : BufTy).Contents (Elt F) → (⟨S20000x16, .f32⟩ : BufTy).Contents (Elt F) → (⟨S20000x32, .f32⟩ : BufTy).Contents (Elt F)) ]
/-- The references chunk 12's operations write, in order. -/
abbrev L12 : List (Ref sig .tc) := [main_v147, main_c_26, main_v148, main_v149, main_c_27, main_v150, main_v151, main_v152, main_v153, main_v154, main_v155, main_v156, main_cst_28, main_v157, main_v158, main_v159, main_v160, main_v161, main_v162, main_v163, main_v164, main_v165, main_v166, main_v167, main_v168, main_c_29, main_v169, main_v170, main_c_30, main_v171, main_v172, main_v173, main_v174, main_v175, main_v176, main_v177, main_cst_31, main_v178, main_v179, main_v180, main_v181, main_cst_32, main_v182, main_v183, main_v184, main_v185, main_v186, main_v187, main_v188, main_cst_33, main_v189, main_v190, main_v191]
set_option maxRecDepth 8192 in
theorem rops12_sub : (rops12 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., reshape_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., binary_bufs_sub .., unary_bufs_sub .., reshape_bufs_sub .., binary_bufs_sub .., binary_bufs_sub .., nullary_bufs_sub .., unary_bufs_sub .., binary_bufs_sub .., binary_bufs_sub ..⟩
set_option maxRecDepth 8192 in
theorem rops12_fresh : (rops12 : List (HloOp τ sig (Elt F))).Forall fun op => op.fresh = ∅ := by
  simp only [List.Forall]; repeat' constructor
set_option maxRecDepth 8192 in
theorem rops12_writes : (rops12 : List (HloOp τ sig (Elt F))).Forall fun op => op.writes ⊆ (L12.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A reference chunk 12 does not write keeps its contents through it. -/
theorem rops12_keeps {r : Ref sig .tc} (hr : r ∉ L12) (V : Valuation τ sig (Elt F)) :
    after (rops12 : List (HloOp τ sig (Elt F))) V (Proc.devRef .tc r) = V (Proc.devRef .tc r) :=
  after_of_writes_sub rops12 V rops12_writes hr

/-- Operations 236 to 288 of the program (53 operations). -/
abbrev rops13 : List (HloOp τ sig (Elt F)) :=
  [ unary main_v102 main_v192 (broadcastInDim S200000x1 ![0] bcast_S200000_S200000x1_0 : (⟨S200000, .f32⟩ : BufTy).Contents (Elt F) → (⟨S200000x1, .f32⟩ : BufTy).Contents (Elt F)),
    nullary main_c_34 (constantI S_ 32 0#32),
    unary main_c_34 main_v193 (broadcastInDim S200000 ![] bcast_S_S200000 : (⟨S_, .i32⟩ : BufTy).Contents (Elt F) → (⟨S200000, .i32⟩ : BufTy).Contents (Elt F)),
    binary main_v1 main_v193 main_v194 (cmpi .slt : (⟨S200000, .i32⟩ : BufTy).Contents (Elt F) → (⟨S200000, .i32⟩ : BufTy).Contents (Elt F) → (⟨S200000, .i1⟩ : BufTy).Contents (Elt F)),
    nullary main_c_35 (constantI S_ 32 20000#32),
    unary main_c_35 main_v195 (broadcastInDim S200000 ![] bcast_S_S200000 : (⟨S_, .i32⟩ : BufTy).Contents (Elt F) → (⟨S200000, .i32⟩ : BufTy).Contents (Elt F)),
    binary main_v1 main_v195 main_v196 (addi : (⟨S200000, .i32⟩ : BufTy).Contents (Elt F) → (⟨S200000, .i32⟩ : BufTy).Contents (Elt F) → (⟨S200000, .i32⟩ : BufTy).Contents (Elt F)),
    ternary main_v194 main_v196 main_v1 main_v197 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v197 main_v198 (broadcastInDim S200000x1 ![0] bcast_S200000_S200000x1_0 : (⟨S200000, .i32⟩ : BufTy).Contents (Elt F) → (⟨S200000x1, .i32⟩ : BufTy).Contents (Elt F)),
    binary main_v190 main_v198 main_v199 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    unary main_v192 main_v200 (broadcastInDim S200000x16 ![0, 1] bcast_S200000x1_S200000x16_0_1 : (⟨S200000x1, .f32⟩ : BufTy).Contents (Elt F) → (⟨S200000x16, .f32⟩ : BufTy).Contents (Elt F)),
    binary main_v200 main_v199 main_v201 (mulf : (⟨S200000x16, .f32⟩ : BufTy).Contents (Elt F) → (⟨S200000x16, .f32⟩ : BufTy).Contents (Elt F) → (⟨S200000x16, .f32⟩ : BufTy).Contents (Elt F)),
    nullary main_cst_36 (constant S_ .f32 0x00000000#32),
    unary main_cst_36 main_v202 (broadcastInDim S20000x16 ![] bcast_S_S20000x16 : (⟨S_, .f32⟩ : BufTy).Contents (Elt F) → (⟨S20000x16, .f32⟩ : BufTy).Contents (Elt F)),
    unary main_v3 main_v203 (broadcastInDim S200000x1 ![0] bcast_S200000_S200000x1_0 : (⟨S200000, .i32⟩ : BufTy).Contents (Elt F) → (⟨S200000x1, .i32⟩ : BufTy).Contents (Elt F)),
    ternary main_v202 main_v203 main_v201 main_v204 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    unary main_v204 main_v205 (Host.negf : (⟨S20000x16, .f32⟩ : BufTy).Contents (Elt F) → (⟨S20000x16, .f32⟩ : BufTy).Contents (Elt F)),
    unary main_arg11 main_v206 ((extractStridedSlice S1x16x16 ![0, 0, 0] · slices_S3x16x16_S1x16x16_0_0_0) : (⟨S3x16x16, .f32⟩ : BufTy).Contents (Elt F) → (⟨S1x16x16, .f32⟩ : BufTy).Contents (Elt F)),
    reshape main_v206 main_v207 rfl shapeCasts_S1x16x16_S16x16,
    binary main_v190 main_v207 main_v208 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    unary main_arg11 main_v209 ((extractStridedSlice S1x16x16 ![1, 0, 0] · slices_S3x16x16_S1x16x16_1_0_0) : (⟨S3x16x16, .f32⟩ : BufTy).Contents (Elt F) → (⟨S1x16x16, .f32⟩ : BufTy).Contents (Elt F)),
    reshape main_v209 main_v210 rfl shapeCasts_S1x16x16_S16x16,
    binary main_v205 main_v210 main_v211 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    binary main_v208 main_v211 main_v212 (addf : (⟨S20000x16, .f32⟩ : BufTy).Contents (Elt F) → (⟨S20000x16, .f32⟩ : BufTy).Contents (Elt F) → (⟨S20000x16, .f32⟩ : BufTy).Contents (Elt F)),
    unary main_v102 main_v213 (broadcastInDim S200000x1 ![0] bcast_S200000_S200000x1_0 : (⟨S200000, .f32⟩ : BufTy).Contents (Elt F) → (⟨S200000x1, .f32⟩ : BufTy).Contents (Elt F)),
    nullary main_c_37 (constantI S_ 32 0#32),
    unary main_c_37 main_v214 (broadcastInDim S200000 ![] bcast_S_S200000 : (⟨S_, .i32⟩ : BufTy).Contents (Elt F) → (⟨S200000, .i32⟩ : BufTy).Contents (Elt F)),
    binary main_v1 main_v214 main_v215 (cmpi .slt : (⟨S200000, .i32⟩ : BufTy).Contents (Elt F) → (⟨S200000, .i32⟩ : BufTy).Contents (Elt F) → (⟨S200000, .i1⟩ : BufTy).Contents (Elt F)),
    nullary main_c_38 (constantI S_ 32 20000#32),
    unary main_c_38 main_v216 (broadcastInDim S200000 ![] bcast_S_S200000 : (⟨S_, .i32⟩ : BufTy).Contents (Elt F) → (⟨S200000, .i32⟩ : BufTy).Contents (Elt F)),
    binary main_v1 main_v216 main_v217 (addi : (⟨S200000, .i32⟩ : BufTy).Contents (Elt F) → (⟨S200000, .i32⟩ : BufTy).Contents (Elt F) → (⟨S200000, .i32⟩ : BufTy).Contents (Elt F)),
    ternary main_v215 main_v217 main_v1 main_v218 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v218 main_v219 (broadcastInDim S200000x1 ![0] bcast_S200000_S200000x1_0 : (⟨S200000, .i32⟩ : BufTy).Contents (Elt F) → (⟨S200000x1, .i32⟩ : BufTy).Contents (Elt F)),
    binary main_v205 main_v219 main_v220 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    unary main_v213 main_v221 (broadcastInDim S200000x16 ![0, 1] bcast_S200000x1_S200000x16_0_1 : (⟨S200000x1, .f32⟩ : BufTy).Contents (Elt F) → (⟨S200000x16, .f32⟩ : BufTy).Contents (Elt F)),
    binary main_v221 main_v220 main_v222 (mulf : (⟨S200000x16, .f32⟩ : BufTy).Contents (Elt F) → (⟨S200000x16, .f32⟩ : BufTy).Contents (Elt F) → (⟨S200000x16, .f32⟩ : BufTy).Contents (Elt F)),
    nullary main_cst_39 (constant S_ .f32 0x00000000#32),
    unary main_cst_39 main_v223 (broadcastInDim S20000x16 ![] bcast_S_S20000x16 : (⟨S_, .f32⟩ : BufTy).Contents (Elt F) → (⟨S20000x16, .f32⟩ : BufTy).Contents (Elt F)),
    unary main_v3 main_v224 (broadcastInDim S200000x1 ![0] bcast_S200000_S200000x1_0 : (⟨S200000, .i32⟩ : BufTy).Contents (Elt F) → (⟨S200000x1, .i32⟩ : BufTy).Contents (Elt F)),
    ternary main_v223 main_v224 main_v222 main_v225 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    unary main_v225 main_v226 (Host.negf : (⟨S20000x16, .f32⟩ : BufTy).Contents (Elt F) → (⟨S20000x16, .f32⟩ : BufTy).Contents (Elt F)),
    nullary main_cst_40 (constant S_ .f32 0x40000000#32),
    unary main_cst_40 main_v227 (broadcastInDim S20000x16 ![] bcast_S_S20000x16 : (⟨S_, .f32⟩ : BufTy).Contents (Elt F) → (⟨S20000x16, .f32⟩ : BufTy).Contents (Elt F)),
    binary main_v227 main_v226 main_v228 (mulf : (⟨S20000x16, .f32⟩ : BufTy).Contents (Elt F) → (⟨S20000x16, .f32⟩ : BufTy).Contents (Elt F) → (⟨S20000x16, .f32⟩ : BufTy).Contents (Elt F)),
    binary main_v228 main_v190 main_v229 (subf : (⟨S20000x16, .f32⟩ : BufTy).Contents (Elt F) → (⟨S20000x16, .f32⟩ : BufTy).Contents (Elt F) → (⟨S20000x16, .f32⟩ : BufTy).Contents (Elt F)),
    unary main_arg11 main_v230 ((extractStridedSlice S1x16x16 ![2, 0, 0] · slices_S3x16x16_S1x16x16_2_0_0) : (⟨S3x16x16, .f32⟩ : BufTy).Contents (Elt F) → (⟨S1x16x16, .f32⟩ : BufTy).Contents (Elt F)),
    reshape main_v230 main_v231 rfl shapeCasts_S1x16x16_S16x16,
    binary main_v229 main_v231 main_v232 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    binary main_v212 main_v232 main_v233 (addf : (⟨S20000x16, .f32⟩ : BufTy).Contents (Elt F) → (⟨S20000x16, .f32⟩ : BufTy).Contents (Elt F) → (⟨S20000x16, .f32⟩ : BufTy).Contents (Elt F)),
    nullary main_cst_41 (constant S_ .f32 0x00000000#32),
    unary main_cst_41 main_v234 (broadcastInDim S20000x16 ![] bcast_S_S20000x16 : (⟨S_, .f32⟩ : BufTy).Contents (Elt F) → (⟨S20000x16, .f32⟩ : BufTy).Contents (Elt F)),
    binary main_v233 main_v234 main_v235 (maximumf : (⟨S20000x16, .f32⟩ : BufTy).Contents (Elt F) → (⟨S20000x16, .f32⟩ : BufTy).Contents (Elt F) → (⟨S20000x16, .f32⟩ : BufTy).Contents (Elt F)),
    binary main_v191 main_v235 main_v236 ((fun a b => concatenate S20000x48 1 [⟨S20000x32, a⟩, ⟨S20000x16, b⟩] concatenates_S20000x32_S20000x16_S20000x48_d1) : (⟨S20000x32, .f32⟩ : BufTy).Contents (Elt F) → (⟨S20000x16, .f32⟩ : BufTy).Contents (Elt F) → (⟨S20000x48, .f32⟩ : BufTy).Contents (Elt F)) ]
/-- The references chunk 13's operations write, in order. -/
abbrev L13 : List (Ref sig .tc) := [main_v192, main_c_34, main_v193, main_v194, main_c_35, main_v195, main_v196, main_v197, main_v198, main_v199, main_v200, main_v201, main_cst_36, main_v202, main_v203, main_v204, main_v205, main_v206, main_v207, main_v208, main_v209, main_v210, main_v211, main_v212, main_v213, main_c_37, main_v214, main_v215, main_c_38, main_v216, main_v217, main_v218, main_v219, main_v220, main_v221, main_v222, main_cst_39, main_v223, main_v224, main_v225, main_v226, main_cst_40, main_v227, main_v228, main_v229, main_v230, main_v231, main_v232, main_v233, main_cst_41, main_v234, main_v235, main_v236]
set_option maxRecDepth 8192 in
theorem rops13_sub : (rops13 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., reshape_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., binary_bufs_sub .., unary_bufs_sub .., reshape_bufs_sub .., binary_bufs_sub .., binary_bufs_sub .., nullary_bufs_sub .., unary_bufs_sub .., binary_bufs_sub .., binary_bufs_sub ..⟩
set_option maxRecDepth 8192 in
theorem rops13_fresh : (rops13 : List (HloOp τ sig (Elt F))).Forall fun op => op.fresh = ∅ := by
  simp only [List.Forall]; repeat' constructor
set_option maxRecDepth 8192 in
theorem rops13_writes : (rops13 : List (HloOp τ sig (Elt F))).Forall fun op => op.writes ⊆ (L13.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A reference chunk 13 does not write keeps its contents through it. -/
theorem rops13_keeps {r : Ref sig .tc} (hr : r ∉ L13) (V : Valuation τ sig (Elt F)) :
    after (rops13 : List (HloOp τ sig (Elt F))) V (Proc.devRef .tc r) = V (Proc.devRef .tc r) :=
  after_of_writes_sub rops13 V rops13_writes hr

/-- Operations 289 to 341 of the program (53 operations). -/
abbrev rops14 : List (HloOp τ sig (Elt F)) :=
  [ unary main_v102 main_v237 (broadcastInDim S200000x1 ![0] bcast_S200000_S200000x1_0 : (⟨S200000, .f32⟩ : BufTy).Contents (Elt F) → (⟨S200000x1, .f32⟩ : BufTy).Contents (Elt F)),
    nullary main_c_42 (constantI S_ 32 0#32),
    unary main_c_42 main_v238 (broadcastInDim S200000 ![] bcast_S_S200000 : (⟨S_, .i32⟩ : BufTy).Contents (Elt F) → (⟨S200000, .i32⟩ : BufTy).Contents (Elt F)),
    binary main_v1 main_v238 main_v239 (cmpi .slt : (⟨S200000, .i32⟩ : BufTy).Contents (Elt F) → (⟨S200000, .i32⟩ : BufTy).Contents (Elt F) → (⟨S200000, .i1⟩ : BufTy).Contents (Elt F)),
    nullary main_c_43 (constantI S_ 32 20000#32),
    unary main_c_43 main_v240 (broadcastInDim S200000 ![] bcast_S_S200000 : (⟨S_, .i32⟩ : BufTy).Contents (Elt F) → (⟨S200000, .i32⟩ : BufTy).Contents (Elt F)),
    binary main_v1 main_v240 main_v241 (addi : (⟨S200000, .i32⟩ : BufTy).Contents (Elt F) → (⟨S200000, .i32⟩ : BufTy).Contents (Elt F) → (⟨S200000, .i32⟩ : BufTy).Contents (Elt F)),
    ternary main_v239 main_v241 main_v1 main_v242 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v242 main_v243 (broadcastInDim S200000x1 ![0] bcast_S200000_S200000x1_0 : (⟨S200000, .i32⟩ : BufTy).Contents (Elt F) → (⟨S200000x1, .i32⟩ : BufTy).Contents (Elt F)),
    binary main_v235 main_v243 main_v244 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    unary main_v237 main_v245 (broadcastInDim S200000x16 ![0, 1] bcast_S200000x1_S200000x16_0_1 : (⟨S200000x1, .f32⟩ : BufTy).Contents (Elt F) → (⟨S200000x16, .f32⟩ : BufTy).Contents (Elt F)),
    binary main_v245 main_v244 main_v246 (mulf : (⟨S200000x16, .f32⟩ : BufTy).Contents (Elt F) → (⟨S200000x16, .f32⟩ : BufTy).Contents (Elt F) → (⟨S200000x16, .f32⟩ : BufTy).Contents (Elt F)),
    nullary main_cst_44 (constant S_ .f32 0x00000000#32),
    unary main_cst_44 main_v247 (broadcastInDim S20000x16 ![] bcast_S_S20000x16 : (⟨S_, .f32⟩ : BufTy).Contents (Elt F) → (⟨S20000x16, .f32⟩ : BufTy).Contents (Elt F)),
    unary main_v3 main_v248 (broadcastInDim S200000x1 ![0] bcast_S200000_S200000x1_0 : (⟨S200000, .i32⟩ : BufTy).Contents (Elt F) → (⟨S200000x1, .i32⟩ : BufTy).Contents (Elt F)),
    ternary main_v247 main_v248 main_v246 main_v249 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    unary main_v249 main_v250 (Host.negf : (⟨S20000x16, .f32⟩ : BufTy).Contents (Elt F) → (⟨S20000x16, .f32⟩ : BufTy).Contents (Elt F)),
    unary main_arg12 main_v251 ((extractStridedSlice S1x16x16 ![0, 0, 0] · slices_S3x16x16_S1x16x16_0_0_0) : (⟨S3x16x16, .f32⟩ : BufTy).Contents (Elt F) → (⟨S1x16x16, .f32⟩ : BufTy).Contents (Elt F)),
    reshape main_v251 main_v252 rfl shapeCasts_S1x16x16_S16x16,
    binary main_v235 main_v252 main_v253 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    unary main_arg12 main_v254 ((extractStridedSlice S1x16x16 ![1, 0, 0] · slices_S3x16x16_S1x16x16_1_0_0) : (⟨S3x16x16, .f32⟩ : BufTy).Contents (Elt F) → (⟨S1x16x16, .f32⟩ : BufTy).Contents (Elt F)),
    reshape main_v254 main_v255 rfl shapeCasts_S1x16x16_S16x16,
    binary main_v250 main_v255 main_v256 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    binary main_v253 main_v256 main_v257 (addf : (⟨S20000x16, .f32⟩ : BufTy).Contents (Elt F) → (⟨S20000x16, .f32⟩ : BufTy).Contents (Elt F) → (⟨S20000x16, .f32⟩ : BufTy).Contents (Elt F)),
    unary main_v102 main_v258 (broadcastInDim S200000x1 ![0] bcast_S200000_S200000x1_0 : (⟨S200000, .f32⟩ : BufTy).Contents (Elt F) → (⟨S200000x1, .f32⟩ : BufTy).Contents (Elt F)),
    nullary main_c_45 (constantI S_ 32 0#32),
    unary main_c_45 main_v259 (broadcastInDim S200000 ![] bcast_S_S200000 : (⟨S_, .i32⟩ : BufTy).Contents (Elt F) → (⟨S200000, .i32⟩ : BufTy).Contents (Elt F)),
    binary main_v1 main_v259 main_v260 (cmpi .slt : (⟨S200000, .i32⟩ : BufTy).Contents (Elt F) → (⟨S200000, .i32⟩ : BufTy).Contents (Elt F) → (⟨S200000, .i1⟩ : BufTy).Contents (Elt F)),
    nullary main_c_46 (constantI S_ 32 20000#32),
    unary main_c_46 main_v261 (broadcastInDim S200000 ![] bcast_S_S200000 : (⟨S_, .i32⟩ : BufTy).Contents (Elt F) → (⟨S200000, .i32⟩ : BufTy).Contents (Elt F)),
    binary main_v1 main_v261 main_v262 (addi : (⟨S200000, .i32⟩ : BufTy).Contents (Elt F) → (⟨S200000, .i32⟩ : BufTy).Contents (Elt F) → (⟨S200000, .i32⟩ : BufTy).Contents (Elt F)),
    ternary main_v260 main_v262 main_v1 main_v263 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v263 main_v264 (broadcastInDim S200000x1 ![0] bcast_S200000_S200000x1_0 : (⟨S200000, .i32⟩ : BufTy).Contents (Elt F) → (⟨S200000x1, .i32⟩ : BufTy).Contents (Elt F)),
    binary main_v250 main_v264 main_v265 ((fun x i => Host.gather gather_S20000x16_S200000x1_S200000x16_1_0_n_n_0_1_116 x i) : (⟨S20000x16, .f32⟩ : BufTy).Contents (Elt F) → (⟨S200000x1, .i32⟩ : BufTy).Contents (Elt F) → (⟨S200000x16, .f32⟩ : BufTy).Contents (Elt F)),
    unary main_v258 main_v266 (broadcastInDim S200000x16 ![0, 1] bcast_S200000x1_S200000x16_0_1 : (⟨S200000x1, .f32⟩ : BufTy).Contents (Elt F) → (⟨S200000x16, .f32⟩ : BufTy).Contents (Elt F)),
    binary main_v266 main_v265 main_v267 (mulf : (⟨S200000x16, .f32⟩ : BufTy).Contents (Elt F) → (⟨S200000x16, .f32⟩ : BufTy).Contents (Elt F) → (⟨S200000x16, .f32⟩ : BufTy).Contents (Elt F)),
    nullary main_cst_47 (constant S_ .f32 0x00000000#32),
    unary main_cst_47 main_v268 (broadcastInDim S20000x16 ![] bcast_S_S20000x16 : (⟨S_, .f32⟩ : BufTy).Contents (Elt F) → (⟨S20000x16, .f32⟩ : BufTy).Contents (Elt F)),
    unary main_v3 main_v269 (broadcastInDim S200000x1 ![0] bcast_S200000_S200000x1_0 : (⟨S200000, .i32⟩ : BufTy).Contents (Elt F) → (⟨S200000x1, .i32⟩ : BufTy).Contents (Elt F)),
    ternary main_v268 main_v269 main_v267 main_v270 ((fun x i u => Host.scatterAdd scatter_S20000x16_S200000x1_S200000x16_1_0_0_1 x i u) : (⟨S20000x16, .f32⟩ : BufTy).Contents (Elt F) → (⟨S200000x1, .i32⟩ : BufTy).Contents (Elt F) → (⟨S200000x16, .f32⟩ : BufTy).Contents (Elt F) → (⟨S20000x16, .f32⟩ : BufTy).Contents (Elt F)),
    unary main_v270 main_v271 (Host.negf : (⟨S20000x16, .f32⟩ : BufTy).Contents (Elt F) → (⟨S20000x16, .f32⟩ : BufTy).Contents (Elt F)),
    nullary main_cst_48 (constant S_ .f32 0x40000000#32),
    unary main_cst_48 main_v272 (broadcastInDim S20000x16 ![] bcast_S_S20000x16 : (⟨S_, .f32⟩ : BufTy).Contents (Elt F) → (⟨S20000x16, .f32⟩ : BufTy).Contents (Elt F)),
    binary main_v272 main_v271 main_v273 (mulf : (⟨S20000x16, .f32⟩ : BufTy).Contents (Elt F) → (⟨S20000x16, .f32⟩ : BufTy).Contents (Elt F) → (⟨S20000x16, .f32⟩ : BufTy).Contents (Elt F)),
    binary main_v273 main_v235 main_v274 (subf : (⟨S20000x16, .f32⟩ : BufTy).Contents (Elt F) → (⟨S20000x16, .f32⟩ : BufTy).Contents (Elt F) → (⟨S20000x16, .f32⟩ : BufTy).Contents (Elt F)),
    unary main_arg12 main_v275 ((extractStridedSlice S1x16x16 ![2, 0, 0] · slices_S3x16x16_S1x16x16_2_0_0) : (⟨S3x16x16, .f32⟩ : BufTy).Contents (Elt F) → (⟨S1x16x16, .f32⟩ : BufTy).Contents (Elt F)),
    reshape main_v275 main_v276 rfl shapeCasts_S1x16x16_S16x16,
    binary main_v274 main_v276 main_v277 ((fun l r => Host.dotGeneral dot_S20000x16_S16x16_S20000x16_1_0_0_1_n_n none l r) : (⟨S20000x16, .f32⟩ : BufTy).Contents (Elt F) → (⟨S16x16, .f32⟩ : BufTy).Contents (Elt F) → (⟨S20000x16, .f32⟩ : BufTy).Contents (Elt F)),
    binary main_v257 main_v277 main_v278 (addf : (⟨S20000x16, .f32⟩ : BufTy).Contents (Elt F) → (⟨S20000x16, .f32⟩ : BufTy).Contents (Elt F) → (⟨S20000x16, .f32⟩ : BufTy).Contents (Elt F)),
    nullary main_cst_49 (constant S_ .f32 0x00000000#32),
    unary main_cst_49 main_v279 (broadcastInDim S20000x16 ![] bcast_S_S20000x16 : (⟨S_, .f32⟩ : BufTy).Contents (Elt F) → (⟨S20000x16, .f32⟩ : BufTy).Contents (Elt F)),
    binary main_v278 main_v279 main_v280 (maximumf : (⟨S20000x16, .f32⟩ : BufTy).Contents (Elt F) → (⟨S20000x16, .f32⟩ : BufTy).Contents (Elt F) → (⟨S20000x16, .f32⟩ : BufTy).Contents (Elt F)),
    binary main_v236 main_v280 main_v281 ((fun a b => concatenate S20000x64 1 [⟨S20000x48, a⟩, ⟨S20000x16, b⟩] concatenates_S20000x48_S20000x16_S20000x64_d1) : (⟨S20000x48, .f32⟩ : BufTy).Contents (Elt F) → (⟨S20000x16, .f32⟩ : BufTy).Contents (Elt F) → (⟨S20000x64, .f32⟩ : BufTy).Contents (Elt F)) ]
/-- The references chunk 14's operations write, in order. -/
abbrev L14 : List (Ref sig .tc) := [main_v237, main_c_42, main_v238, main_v239, main_c_43, main_v240, main_v241, main_v242, main_v243, main_v244, main_v245, main_v246, main_cst_44, main_v247, main_v248, main_v249, main_v250, main_v251, main_v252, main_v253, main_v254, main_v255, main_v256, main_v257, main_v258, main_c_45, main_v259, main_v260, main_c_46, main_v261, main_v262, main_v263, main_v264, main_v265, main_v266, main_v267, main_cst_47, main_v268, main_v269, main_v270, main_v271, main_cst_48, main_v272, main_v273, main_v274, main_v275, main_v276, main_v277, main_v278, main_cst_49, main_v279, main_v280, main_v281]
set_option maxRecDepth 8192 in
theorem rops14_sub : (rops14 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., reshape_bufs_sub .., binary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., binary_bufs_sub .., unary_bufs_sub .., reshape_bufs_sub .., binary_bufs_sub .., binary_bufs_sub .., nullary_bufs_sub .., unary_bufs_sub .., binary_bufs_sub .., binary_bufs_sub ..⟩
set_option maxRecDepth 8192 in
theorem rops14_fresh : (rops14 : List (HloOp τ sig (Elt F))).Forall fun op => op.fresh = ∅ := by
  simp only [List.Forall]; repeat' constructor
set_option maxRecDepth 8192 in
theorem rops14_writes : (rops14 : List (HloOp τ sig (Elt F))).Forall fun op => op.writes ⊆ (L14.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A reference chunk 14 does not write keeps its contents through it. -/
theorem rops14_keeps {r : Ref sig .tc} (hr : r ∉ L14) (V : Valuation τ sig (Elt F)) :
    after (rops14 : List (HloOp τ sig (Elt F))) V (Proc.devRef .tc r) = V (Proc.devRef .tc r) :=
  after_of_writes_sub rops14 V rops14_writes hr

/-- Operations 342 to 352 of the program (11 operations). -/
abbrev rops15 : List (HloOp τ sig (Elt F)) :=
  [ unary main_arg13 main_v282 ((transpose S64x256 [1, 0] · transposes_S256x64_S64x256_1_0) : (⟨S256x64, .f32⟩ : BufTy).Contents (Elt F) → (⟨S64x256, .f32⟩ : BufTy).Contents (Elt F)),
    binary main_v281 main_v282 main_v283 ((fun l r => Host.dotGeneral dot_S20000x64_S64x256_S20000x256_1_0_0_1_n_n none l r) : (⟨S20000x64, .f32⟩ : BufTy).Contents (Elt F) → (⟨S64x256, .f32⟩ : BufTy).Contents (Elt F) → (⟨S20000x256, .f32⟩ : BufTy).Contents (Elt F)),
    unary main_arg14 main_v284 (broadcastInDim S1x256 ![1] bcast_S256_S1x256_1 : (⟨S256, .f32⟩ : BufTy).Contents (Elt F) → (⟨S1x256, .f32⟩ : BufTy).Contents (Elt F)),
    unary main_v284 main_v285 (broadcastInDim S20000x256 ![0, 1] bcast_S1x256_S20000x256_0_1 : (⟨S1x256, .f32⟩ : BufTy).Contents (Elt F) → (⟨S20000x256, .f32⟩ : BufTy).Contents (Elt F)),
    binary main_v283 main_v285 main_v286 (addf : (⟨S20000x256, .f32⟩ : BufTy).Contents (Elt F) → (⟨S20000x256, .f32⟩ : BufTy).Contents (Elt F) → (⟨S20000x256, .f32⟩ : BufTy).Contents (Elt F)),
    nullary main_cst_50 (constant S_ .f32 0x00000000#32),
    unary main_cst_50 main_v287 (broadcastInDim S20000x256 ![] bcast_S_S20000x256 : (⟨S_, .f32⟩ : BufTy).Contents (Elt F) → (⟨S20000x256, .f32⟩ : BufTy).Contents (Elt F)),
    binary main_v286 main_v287 main_v288 (maximumf : (⟨S20000x256, .f32⟩ : BufTy).Contents (Elt F) → (⟨S20000x256, .f32⟩ : BufTy).Contents (Elt F) → (⟨S20000x256, .f32⟩ : BufTy).Contents (Elt F)),
    nullary main_cst_51 (constant S_ .f32 0x3F7FFFAC#32),
    unary main_cst_51 main_v289 (broadcastInDim S20000x256 ![] bcast_S_S20000x256 : (⟨S_, .f32⟩ : BufTy).Contents (Elt F) → (⟨S20000x256, .f32⟩ : BufTy).Contents (Elt F)),
    binary main_v288 main_v289 main_v290 (mulf : (⟨S20000x256, .f32⟩ : BufTy).Contents (Elt F) → (⟨S20000x256, .f32⟩ : BufTy).Contents (Elt F) → (⟨S20000x256, .f32⟩ : BufTy).Contents (Elt F)) ]
/-- The references chunk 15's operations write, in order. -/
abbrev L15 : List (Ref sig .tc) := [main_v282, main_v283, main_v284, main_v285, main_v286, main_cst_50, main_v287, main_v288, main_cst_51, main_v289, main_v290]
set_option maxRecDepth 8192 in
theorem rops15_sub : (rops15 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub ..⟩
set_option maxRecDepth 8192 in
theorem rops15_fresh : (rops15 : List (HloOp τ sig (Elt F))).Forall fun op => op.fresh = ∅ := by
  simp only [List.Forall]; repeat' constructor
set_option maxRecDepth 8192 in
theorem rops15_writes : (rops15 : List (HloOp τ sig (Elt F))).Forall fun op => op.writes ⊆ (L15.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A reference chunk 15 does not write keeps its contents through it. -/
theorem rops15_keeps {r : Ref sig .tc} (hr : r ∉ L15) (V : Valuation τ sig (Elt F)) :
    after (rops15 : List (HloOp τ sig (Elt F))) V (Proc.devRef .tc r) = V (Proc.devRef .tc r) :=
  after_of_writes_sub rops15 V rops15_writes hr

/-- Operations 353 to 357 of the program (5 operations). -/
abbrev rops16 : List (HloOp τ sig (Elt F)) :=
  [ unary main_arg15 main_v291 ((transpose S256x2 [1, 0] · transposes_S2x256_S256x2_1_0) : (⟨S2x256, .f32⟩ : BufTy).Contents (Elt F) → (⟨S256x2, .f32⟩ : BufTy).Contents (Elt F)),
    binary main_v290 main_v291 main_v292 ((fun l r => Host.dotGeneral dot_S20000x256_S256x2_S20000x2_1_0_0_1_n_n none l r) : (⟨S20000x256, .f32⟩ : BufTy).Contents (Elt F) → (⟨S256x2, .f32⟩ : BufTy).Contents (Elt F) → (⟨S20000x2, .f32⟩ : BufTy).Contents (Elt F)),
    unary main_arg16 main_v293 (broadcastInDim S1x2 ![1] bcast_S2_S1x2_1 : (⟨S2, .f32⟩ : BufTy).Contents (Elt F) → (⟨S1x2, .f32⟩ : BufTy).Contents (Elt F)),
    unary main_v293 main_v294 (broadcastInDim S20000x2 ![0, 1] bcast_S1x2_S20000x2_0_1 : (⟨S1x2, .f32⟩ : BufTy).Contents (Elt F) → (⟨S20000x2, .f32⟩ : BufTy).Contents (Elt F)),
    binary main_v292 main_v294 main_v295 (addf : (⟨S20000x2, .f32⟩ : BufTy).Contents (Elt F) → (⟨S20000x2, .f32⟩ : BufTy).Contents (Elt F) → (⟨S20000x2, .f32⟩ : BufTy).Contents (Elt F)) ]
/-- The references chunk 16's operations write, in order. -/
abbrev L16 : List (Ref sig .tc) := [main_v291, main_v292, main_v293, main_v294, main_v295]
set_option maxRecDepth 8192 in
theorem rops16_sub : (rops16 : List (HloOp τ sig (Elt F))).Forall fun op => op.bufs ⊆ tcRefs τ sig :=
  ⟨unary_bufs_sub .., binary_bufs_sub .., unary_bufs_sub .., unary_bufs_sub .., binary_bufs_sub ..⟩
set_option maxRecDepth 8192 in
theorem rops16_fresh : (rops16 : List (HloOp τ sig (Elt F))).Forall fun op => op.fresh = ∅ := by
  simp only [List.Forall]; repeat' constructor
set_option maxRecDepth 8192 in
theorem rops16_writes : (rops16 : List (HloOp τ sig (Elt F))).Forall fun op => op.writes ⊆ (L16.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A reference chunk 16 does not write keeps its contents through it. -/
theorem rops16_keeps {r : Ref sig .tc} (hr : r ∉ L16) (V : Valuation τ sig (Elt F)) :
    after (rops16 : List (HloOp τ sig (Elt F))) V (Proc.devRef .tc r) = V (Proc.devRef .tc r) :=
  after_of_writes_sub rops16 V rops16_writes hr

/-- Operations 358 to 368 of the program (11 operations). -/
abbrev rops17 : List (HloOp τ sig (Elt F)) :=
  [ unary main_arg17 main_v296 ((transpose S512x256 [1, 0] · transposes_S256x512_S512x256_1_0) : (⟨S256x512, .f32⟩ : BufTy).Contents (Elt F) → (⟨S512x256, .f32⟩ : BufTy).Contents (Elt F)),
    binary main_v8 main_v296 main_v297 ((fun l r => Host.dotGeneral dot_S20000x512_S512x256_S20000x256_1_0_0_1_n_n none l r) : (⟨S20000x512, .f32⟩ : BufTy).Contents (Elt F) → (⟨S512x256, .f32⟩ : BufTy).Contents (Elt F) → (⟨S20000x256, .f32⟩ : BufTy).Contents (Elt F)),
    unary main_arg18 main_v298 (broadcastInDim S1x256 ![1] bcast_S256_S1x256_1 : (⟨S256, .f32⟩ : BufTy).Contents (Elt F) → (⟨S1x256, .f32⟩ : BufTy).Contents (Elt F)),
    unary main_v298 main_v299 (broadcastInDim S20000x256 ![0, 1] bcast_S1x256_S20000x256_0_1 : (⟨S1x256, .f32⟩ : BufTy).Contents (Elt F) → (⟨S20000x256, .f32⟩ : BufTy).Contents (Elt F)),
    binary main_v297 main_v299 main_v300 (addf : (⟨S20000x256, .f32⟩ : BufTy).Contents (Elt F) → (⟨S20000x256, .f32⟩ : BufTy).Contents (Elt F) → (⟨S20000x256, .f32⟩ : BufTy).Contents (Elt F)),
    nullary main_cst_52 (constant S_ .f32 0x00000000#32),
    unary main_cst_52 main_v301 (broadcastInDim S20000x256 ![] bcast_S_S20000x256 : (⟨S_, .f32⟩ : BufTy).Contents (Elt F) → (⟨S20000x256, .f32⟩ : BufTy).Contents (Elt F)),
    binary main_v300 main_v301 main_v302 (maximumf : (⟨S20000x256, .f32⟩ : BufTy).Contents (Elt F) → (⟨S20000x256, .f32⟩ : BufTy).Contents (Elt F) → (⟨S20000x256, .f32⟩ : BufTy).Contents (Elt F)),
    nullary main_cst_53 (constant S_ .f32 0x3F7FFFAC#32),
    unary main_cst_53 main_v303 (broadcastInDim S20000x256 ![] bcast_S_S20000x256 : (⟨S_, .f32⟩ : BufTy).Contents (Elt F) → (⟨S20000x256, .f32⟩ : BufTy).Contents (Elt F)),
    binary main_v302 main_v303 main_v304 (mulf : (⟨S20000x256, .f32⟩ : BufTy).Contents (Elt F) → (⟨S20000x256, .f32⟩ : BufTy).Contents (Elt F) → (⟨S20000x256, .f32⟩ : BufTy).Contents (Elt F)) ]
/-- The references chunk 17's operations write, in order. -/
abbrev L17 : List (Ref sig .tc) := [main_v296, main_v297, main_v298, main_v299, main_v300, main_cst_52, main_v301, main_v302, main_cst_53, main_v303, main_v304]
set_option maxRecDepth 8192 in
theorem rops17_sub : (rops17 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub ..⟩
set_option maxRecDepth 8192 in
theorem rops17_fresh : (rops17 : List (HloOp τ sig (Elt F))).Forall fun op => op.fresh = ∅ := by
  simp only [List.Forall]; repeat' constructor
set_option maxRecDepth 8192 in
theorem rops17_writes : (rops17 : List (HloOp τ sig (Elt F))).Forall fun op => op.writes ⊆ (L17.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A reference chunk 17 does not write keeps its contents through it. -/
theorem rops17_keeps {r : Ref sig .tc} (hr : r ∉ L17) (V : Valuation τ sig (Elt F)) :
    after (rops17 : List (HloOp τ sig (Elt F))) V (Proc.devRef .tc r) = V (Proc.devRef .tc r) :=
  after_of_writes_sub rops17 V rops17_writes hr

/-- Operations 369 to 373 of the program (5 operations). -/
abbrev rops18 : List (HloOp τ sig (Elt F)) :=
  [ unary main_arg19 main_v305 ((transpose S256x20 [1, 0] · transposes_S20x256_S256x20_1_0) : (⟨S20x256, .f32⟩ : BufTy).Contents (Elt F) → (⟨S256x20, .f32⟩ : BufTy).Contents (Elt F)),
    binary main_v304 main_v305 main_v306 ((fun l r => Host.dotGeneral dot_S20000x256_S256x20_S20000x20_1_0_0_1_n_n none l r) : (⟨S20000x256, .f32⟩ : BufTy).Contents (Elt F) → (⟨S256x20, .f32⟩ : BufTy).Contents (Elt F) → (⟨S20000x20, .f32⟩ : BufTy).Contents (Elt F)),
    unary main_arg20 main_v307 (broadcastInDim S1x20 ![1] bcast_S20_S1x20_1 : (⟨S20, .f32⟩ : BufTy).Contents (Elt F) → (⟨S1x20, .f32⟩ : BufTy).Contents (Elt F)),
    unary main_v307 main_v308 (broadcastInDim S20000x20 ![0, 1] bcast_S1x20_S20000x20_0_1 : (⟨S1x20, .f32⟩ : BufTy).Contents (Elt F) → (⟨S20000x20, .f32⟩ : BufTy).Contents (Elt F)),
    binary main_v306 main_v308 main_v309 (addf : (⟨S20000x20, .f32⟩ : BufTy).Contents (Elt F) → (⟨S20000x20, .f32⟩ : BufTy).Contents (Elt F) → (⟨S20000x20, .f32⟩ : BufTy).Contents (Elt F)) ]
/-- The references chunk 18's operations write, in order. -/
abbrev L18 : List (Ref sig .tc) := [main_v305, main_v306, main_v307, main_v308, main_v309]
set_option maxRecDepth 8192 in
theorem rops18_sub : (rops18 : List (HloOp τ sig (Elt F))).Forall fun op => op.bufs ⊆ tcRefs τ sig :=
  ⟨unary_bufs_sub .., binary_bufs_sub .., unary_bufs_sub .., unary_bufs_sub .., binary_bufs_sub ..⟩
set_option maxRecDepth 8192 in
theorem rops18_fresh : (rops18 : List (HloOp τ sig (Elt F))).Forall fun op => op.fresh = ∅ := by
  simp only [List.Forall]; repeat' constructor
set_option maxRecDepth 8192 in
theorem rops18_writes : (rops18 : List (HloOp τ sig (Elt F))).Forall fun op => op.writes ⊆ (L18.map (Proc.devRef (τ := τ) .tc)).toFinset := by
  simp only [List.Forall]
  exact ⟨by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide),
    by simp only [nullary_writes, unary_writes, binary_writes, ternary_writes, quaternary_writes, reshape_writes, binaryIndexed_writes, unaryIndexed_writes, nary_writes, Finset.singleton_subset_iff, List.mem_toFinset]; exact List.mem_map_of_mem (by decide)⟩
/-- A reference chunk 18 does not write keeps its contents through it. -/
theorem rops18_keeps {r : Ref sig .tc} (hr : r ∉ L18) (V : Valuation τ sig (Elt F)) :
    after (rops18 : List (HloOp τ sig (Elt F))) V (Proc.devRef .tc r) = V (Proc.devRef .tc r) :=
  after_of_writes_sub rops18 V rops18_writes hr

end Cert.ReferenceIdeal.RValue

end
-- ==== Proof.R.Fold.lean ====
/- The reference program's memory chunk by chunk: RW0 is a device's launch memory, and RW(k+1) is the
   contents after the operations of chunk k (rops k, in program order) from the contents RWk. RW19 is the
   contents after the whole program. -/
import proofs.«115122_j13357348290767_2_alg».proof.Proof.R.Ops

noncomputable section

namespace Cert.ReferenceIdeal.RValue

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ) (d : Dev nD)

/-- The device's contents at launch. -/
abbrev RW0 : Valuation τ sig (Elt F) := launchContents m d
/-- The device's contents after chunks 0 to 0. -/
abbrev RW1 : Valuation τ sig (Elt F) := after rops0 (RW0 m d)
/-- The device's contents after chunks 0 to 1. -/
abbrev RW2 : Valuation τ sig (Elt F) := after rops1 (RW1 m d)
/-- The device's contents after chunks 0 to 2. -/
abbrev RW3 : Valuation τ sig (Elt F) := after rops2 (RW2 m d)
/-- The device's contents after chunks 0 to 3. -/
abbrev RW4 : Valuation τ sig (Elt F) := after rops3 (RW3 m d)
/-- The device's contents after chunks 0 to 4. -/
abbrev RW5 : Valuation τ sig (Elt F) := after rops4 (RW4 m d)
/-- The device's contents after chunks 0 to 5. -/
abbrev RW6 : Valuation τ sig (Elt F) := after rops5 (RW5 m d)
/-- The device's contents after chunks 0 to 6. -/
abbrev RW7 : Valuation τ sig (Elt F) := after rops6 (RW6 m d)
/-- The device's contents after chunks 0 to 7. -/
abbrev RW8 : Valuation τ sig (Elt F) := after rops7 (RW7 m d)
/-- The device's contents after chunks 0 to 8. -/
abbrev RW9 : Valuation τ sig (Elt F) := after rops8 (RW8 m d)
/-- The device's contents after chunks 0 to 9. -/
abbrev RW10 : Valuation τ sig (Elt F) := after rops9 (RW9 m d)
/-- The device's contents after chunks 0 to 10. -/
abbrev RW11 : Valuation τ sig (Elt F) := after rops10 (RW10 m d)
/-- The device's contents after chunks 0 to 11. -/
abbrev RW12 : Valuation τ sig (Elt F) := after rops11 (RW11 m d)
/-- The device's contents after chunks 0 to 12. -/
abbrev RW13 : Valuation τ sig (Elt F) := after rops12 (RW12 m d)
/-- The device's contents after chunks 0 to 13. -/
abbrev RW14 : Valuation τ sig (Elt F) := after rops13 (RW13 m d)
/-- The device's contents after chunks 0 to 14. -/
abbrev RW15 : Valuation τ sig (Elt F) := after rops14 (RW14 m d)
/-- The device's contents after chunks 0 to 15. -/
abbrev RW16 : Valuation τ sig (Elt F) := after rops15 (RW15 m d)
/-- The device's contents after chunks 0 to 16. -/
abbrev RW17 : Valuation τ sig (Elt F) := after rops16 (RW16 m d)
/-- The device's contents after chunks 0 to 17. -/
abbrev RW18 : Valuation τ sig (Elt F) := after rops17 (RW17 m d)
/-- The device's contents after chunks 0 to 18. -/
abbrev RW19 : Valuation τ sig (Elt F) := after rops18 (RW18 m d)

end Cert.ReferenceIdeal.RValue

end
-- ==== Proof.R.Run.lean ====
/- The reference program's run as a fold over its chunks of operations.
   The program is the line `ops = rops0 ++ (rops1 ++ (… ++ rops18))` of its 374 host operations: @main runs seven
   windows one after the other, each window is the line of its own operations (main_partK_eq), and the
   windows' lists concatenated are `ops` (ops_eq_windows: a chunk that a window's edge cuts is its first n
   operations followed by the rest), so @main is the line `ops` (main_eq). The program scopes no reference and
   no semaphore; every operation touches TensorCore references only and allocates nothing.
   RW0 is the launch memory of a device and RW(k+1) the contents after chunk k from RWk, so RW19 is the contents
   after the whole program (after_ops, by after_append). Every weakly fair execution terminates with each
   TensorCore reference at RW19 (run_fold). No operation writes an argument, so RW19 agrees with the launch
   memory at every reference outside the written list (RW19_of_not_written), in particular at each of the 25
   arguments (RW19_main_argK), which gives the frame statement: the program runs and its arguments end
   unchanged (frame_ri). -/
import proofs.«115122_j13357348290767_2_alg».proof.Proof.R.Fold

noncomputable section

namespace Cert.ReferenceIdeal.RValue

open Cert.ReferenceIdeal Cert.ReferenceIdeal.Gen Idealize.ShloMosaic Idealize.ShloMosaic.TcCoe Idealize.SL.Sem Idealize.ShloMosaic.StableHlo

variable {F : FTy → Type} [FloatOps F]

/-- @main's 374 operations, in order: the nineteen chunks one after the other. -/
abbrev ops : List (HloOp τ sig (Elt F)) :=
  rops0 ++ (rops1 ++ (rops2 ++ (rops3 ++ (rops4 ++ (rops5 ++ (rops6 ++ (rops7 ++ (rops8 ++ (rops9 ++ (rops10 ++ (rops11 ++ (rops12 ++ (rops13 ++ (rops14 ++ (rops15 ++ (rops16 ++ (rops17 ++ (rops18))))))))))))))))))

/-! ## @main is the line `ops` -/

/-- The operations of window 0 of @main (positions 0 to 59 of the program). -/
def wops0 : List (HloOp τ sig (Elt F)) := rops0 ++ (rops1 ++ (rops2 ++ (rops3 ++ (rops4 ++ (rops5 ++ (rops6 ++ (rops7.take 2)))))))
set_option maxRecDepth 8192 in
set_option maxHeartbeats 4000000 in
theorem main_part0_eq (c : Dev nD) : main_part0 (F := F) c = seq wops0 := rfl
/-- The operations of window 1 of @main (positions 60 to 127 of the program). -/
def wops1 : List (HloOp τ sig (Elt F)) := rops7.drop 2 ++ (rops8 ++ (rops9 ++ (rops10.take 29)))
set_option maxRecDepth 8192 in
set_option maxHeartbeats 4000000 in
theorem main_part1_eq (c : Dev nD) : main_part1 (F := F) c = seq wops1 := rfl
/-- The operations of window 2 of @main (positions 128 to 187 of the program). -/
def wops2 : List (HloOp τ sig (Elt F)) := rops10.drop 29 ++ (rops11 ++ (rops12.take 5))
set_option maxRecDepth 8192 in
set_option maxHeartbeats 4000000 in
theorem main_part2_eq (c : Dev nD) : main_part2 (F := F) c = seq wops2 := rfl
/-- The operations of window 3 of @main (positions 188 to 247 of the program). -/
def wops3 : List (HloOp τ sig (Elt F)) := rops12.drop 5 ++ (rops13.take 12)
set_option maxRecDepth 8192 in
set_option maxHeartbeats 4000000 in
theorem main_part3_eq (c : Dev nD) : main_part3 (F := F) c = seq wops3 := rfl
/-- The operations of window 4 of @main (positions 248 to 307 of the program). -/
def wops4 : List (HloOp τ sig (Elt F)) := rops13.drop 12 ++ (rops14.take 19)
set_option maxRecDepth 8192 in
set_option maxHeartbeats 4000000 in
theorem main_part4_eq (c : Dev nD) : main_part4 (F := F) c = seq wops4 := rfl
/-- The operations of window 5 of @main (positions 308 to 367 of the program). -/
def wops5 : List (HloOp τ sig (Elt F)) := rops14.drop 19 ++ (rops15 ++ (rops16 ++ (rops17.take 10)))
set_option maxRecDepth 8192 in
set_option maxHeartbeats 4000000 in
theorem main_part5_eq (c : Dev nD) : main_part5 (F := F) c = seq wops5 := rfl
/-- The operations of window 6 of @main (positions 368 to 373 of the program). -/
def wops6 : List (HloOp τ sig (Elt F)) := rops17.drop 10 ++ (rops18)
set_option maxRecDepth 8192 in
set_option maxHeartbeats 4000000 in
theorem main_part6_eq (c : Dev nD) : main_part6 (F := F) c = seq wops6 := rfl

/-- The first n elements of a list, then the rest, then more: the list, then more. -/
theorem take_drop_app {α : Type} (n : Nat) (l X : List α) : l.take n ++ (l.drop n ++ X) = l ++ X := by
  rw [← List.append_assoc, List.take_append_drop]

/-- The windows' lists, concatenated, are the chunks' lists, concatenated. -/
theorem ops_eq_windows : (ops : List (HloOp τ sig (Elt F))) = wops0 ++ (wops1 ++ (wops2 ++ (wops3 ++ (wops4 ++ (wops5 ++ (wops6)))))) := by
  unfold wops0 wops1 wops2 wops3 wops4 wops5 wops6
  simp only [ops, List.append_assoc, take_drop_app]

theorem main_eq (c : Dev nD) : main (F := F) c = seq ops := by
  rw [ops_eq_windows]
  simp only [seq_append, ← main_part0_eq c, ← main_part1_eq c, ← main_part2_eq c, ← main_part3_eq c, ← main_part4_eq c, ← main_part5_eq c, ← main_part6_eq c]
  rfl
theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_app {α : Type} {p : α → Prop} {xs ys : List α} (hx : xs.Forall p) (hy : ys.Forall p) : (xs ++ ys).Forall p :=
  List.forall_append.mpr ⟨hx, hy⟩

theorem ops_sub : (ops : List (HloOp τ sig (Elt F))).Forall fun op => op.bufs ⊆ tcRefs τ sig := by
  have h17 := forall_app (rops17_sub (F := F)) (rops18_sub (F := F))
  have h16 := forall_app (rops16_sub (F := F)) h17
  have h15 := forall_app (rops15_sub (F := F)) h16
  have h14 := forall_app (rops14_sub (F := F)) h15
  have h13 := forall_app (rops13_sub (F := F)) h14
  have h12 := forall_app (rops12_sub (F := F)) h13
  have h11 := forall_app (rops11_sub (F := F)) h12
  have h10 := forall_app (rops10_sub (F := F)) h11
  have h9 := forall_app (rops9_sub (F := F)) h10
  have h8 := forall_app (rops8_sub (F := F)) h9
  have h7 := forall_app (rops7_sub (F := F)) h8
  have h6 := forall_app (rops6_sub (F := F)) h7
  have h5 := forall_app (rops5_sub (F := F)) h6
  have h4 := forall_app (rops4_sub (F := F)) h5
  have h3 := forall_app (rops3_sub (F := F)) h4
  have h2 := forall_app (rops2_sub (F := F)) h3
  have h1 := forall_app (rops1_sub (F := F)) h2
  have h0 := forall_app (rops0_sub (F := F)) h1
  exact h0
theorem ops_fresh : (ops : List (HloOp τ sig (Elt F))).Forall fun op => op.fresh = ∅ := by
  have h17 := forall_app (rops17_fresh (F := F)) (rops18_fresh (F := F))
  have h16 := forall_app (rops16_fresh (F := F)) h17
  have h15 := forall_app (rops15_fresh (F := F)) h16
  have h14 := forall_app (rops14_fresh (F := F)) h15
  have h13 := forall_app (rops13_fresh (F := F)) h14
  have h12 := forall_app (rops12_fresh (F := F)) h13
  have h11 := forall_app (rops11_fresh (F := F)) h12
  have h10 := forall_app (rops10_fresh (F := F)) h11
  have h9 := forall_app (rops9_fresh (F := F)) h10
  have h8 := forall_app (rops8_fresh (F := F)) h9
  have h7 := forall_app (rops7_fresh (F := F)) h8
  have h6 := forall_app (rops6_fresh (F := F)) h7
  have h5 := forall_app (rops5_fresh (F := F)) h6
  have h4 := forall_app (rops4_fresh (F := F)) h5
  have h3 := forall_app (rops3_fresh (F := F)) h4
  have h2 := forall_app (rops2_fresh (F := F)) h3
  have h1 := forall_app (rops1_fresh (F := F)) h2
  have h0 := forall_app (rops0_fresh (F := F)) h1
  exact h0

/-! ## The run -/

variable (m : (ℓ : Loc nD τ sig) → Buf (Elt F) ℓ) (d : Dev nD)

/-- The contents after the whole program are the fold of the chunks over the launch memory. -/
theorem after_ops : after (ops : List (HloOp τ sig (Elt F))) (launchContents m d) = RW19 m d := by
  simp only [ops, after_append]

/-- On every device, for any float values, from any memory with zero counters: every weakly fair execution of
    @main terminates with each TensorCore reference at the fold of the chunks over the launch memory. -/
theorem run_fold (ρ : Dev nD → PrngReg) :
    θ_run defs (onTc (τ := τ) (main (F := F))) ⟨m, fun _ => 0, ρ⟩ fun r =>
      ∀ (d : Dev nD) (b : Ref sig .tc), r.2.mem ((d.tc : Thread nD τ).loc b) = RW19 m d (Proc.devRef .tc b) :=
  by
  have h := run_seq scopedRefs_eq scopedSems_eq (defs (F := F)) (main (F := F)) (fun _ => (ops (F := F))) main_eq
    (fun _ => ops_sub) m ρ (fun _ => List.forall_iff_forall_mem.mp ops_fresh)
  refine (θ_run defs _ _).mono (fun _ hr d b => ?_) h
  exact (hr d b).trans (congrFun (after_ops m d) _)

/-! ## The arguments end unchanged -/

/-- Every reference the program writes, in program order. -/
abbrev Lall : List (Ref sig .tc) :=
  L0 ++ L1 ++ L2 ++ L3 ++ L4 ++ L5 ++ L6 ++ L7 ++ L8 ++ L9 ++ L10 ++ L11 ++ L12 ++ L13 ++ L14 ++ L15 ++ L16 ++ L17 ++ L18

/-- A reference the program never writes ends at its launch contents. -/
theorem RW19_of_not_written {r : Ref sig .tc} (hr : r ∉ Lall) :
    RW19 m d (Proc.devRef .tc r) = m ((d.tc : Thread nD τ).loc r) := by
  simp only [Lall, List.mem_append, not_or] at hr
  exact (rops18_keeps hr.2 _).trans ((rops17_keeps hr.1.2 _).trans ((rops16_keeps hr.1.1.2 _).trans ((rops15_keeps hr.1.1.1.2 _).trans ((rops14_keeps hr.1.1.1.1.2 _).trans ((rops13_keeps hr.1.1.1.1.1.2 _).trans ((rops12_keeps hr.1.1.1.1.1.1.2 _).trans ((rops11_keeps hr.1.1.1.1.1.1.1.2 _).trans ((rops10_keeps hr.1.1.1.1.1.1.1.1.2 _).trans ((rops9_keeps hr.1.1.1.1.1.1.1.1.1.2 _).trans ((rops8_keeps hr.1.1.1.1.1.1.1.1.1.1.2 _).trans ((rops7_keeps hr.1.1.1.1.1.1.1.1.1.1.1.2 _).trans ((rops6_keeps hr.1.1.1.1.1.1.1.1.1.1.1.1.2 _).trans ((rops5_keeps hr.1.1.1.1.1.1.1.1.1.1.1.1.1.2 _).trans ((rops4_keeps hr.1.1.1.1.1.1.1.1.1.1.1.1.1.1.2 _).trans ((rops3_keeps hr.1.1.1.1.1.1.1.1.1.1.1.1.1.1.1.2 _).trans ((rops2_keeps hr.1.1.1.1.1.1.1.1.1.1.1.1.1.1.1.1.2 _).trans ((rops1_keeps hr.1.1.1.1.1.1.1.1.1.1.1.1.1.1.1.1.1.2 _).trans ((rops0_keeps hr.1.1.1.1.1.1.1.1.1.1.1.1.1.1.1.1.1.1 _).trans (rfl)))))))))))))))))))

set_option maxRecDepth 8192 in
theorem RW19_main_arg0 : RW19 m d (Proc.devRef .tc main_arg0) = m ((d.tc : Thread nD τ).loc main_arg0) :=
  RW19_of_not_written m d (by decide)
set_option maxRecDepth 8192 in
theorem RW19_main_arg1 : RW19 m d (Proc.devRef .tc main_arg1) = m ((d.tc : Thread nD τ).loc main_arg1) :=
  RW19_of_not_written m d (by decide)
set_option maxRecDepth 8192 in
theorem RW19_main_arg2 : RW19 m d (Proc.devRef .tc main_arg2) = m ((d.tc : Thread nD τ).loc main_arg2) :=
  RW19_of_not_written m d (by decide)
set_option maxRecDepth 8192 in
theorem RW19_main_arg3 : RW19 m d (Proc.devRef .tc main_arg3) = m ((d.tc : Thread nD τ).loc main_arg3) :=
  RW19_of_not_written m d (by decide)
set_option maxRecDepth 8192 in
theorem RW19_main_arg4 : RW19 m d (Proc.devRef .tc main_arg4) = m ((d.tc : Thread nD τ).loc main_arg4) :=
  RW19_of_not_written m d (by decide)
set_option maxRecDepth 8192 in
theorem RW19_main_arg5 : RW19 m d (Proc.devRef .tc main_arg5) = m ((d.tc : Thread nD τ).loc main_arg5) :=
  RW19_of_not_written m d (by decide)
set_option maxRecDepth 8192 in
theorem RW19_main_arg6 : RW19 m d (Proc.devRef .tc main_arg6) = m ((d.tc : Thread nD τ).loc main_arg6) :=
  RW19_of_not_written m d (by decide)
set_option maxRecDepth 8192 in
theorem RW19_main_arg7 : RW19 m d (Proc.devRef .tc main_arg7) = m ((d.tc : Thread nD τ).loc main_arg7) :=
  RW19_of_not_written m d (by decide)
set_option maxRecDepth 8192 in
theorem RW19_main_arg8 : RW19 m d (Proc.devRef .tc main_arg8) = m ((d.tc : Thread nD τ).loc main_arg8) :=
  RW19_of_not_written m d (by decide)
set_option maxRecDepth 8192 in
theorem RW19_main_arg9 : RW19 m d (Proc.devRef .tc main_arg9) = m ((d.tc : Thread nD τ).loc main_arg9) :=
  RW19_of_not_written m d (by decide)
set_option maxRecDepth 8192 in
theorem RW19_main_arg10 : RW19 m d (Proc.devRef .tc main_arg10) = m ((d.tc : Thread nD τ).loc main_arg10) :=
  RW19_of_not_written m d (by decide)
set_option maxRecDepth 8192 in
theorem RW19_main_arg11 : RW19 m d (Proc.devRef .tc main_arg11) = m ((d.tc : Thread nD τ).loc main_arg11) :=
  RW19_of_not_written m d (by decide)
set_option maxRecDepth 8192 in
theorem RW19_main_arg12 : RW19 m d (Proc.devRef .tc main_arg12) = m ((d.tc : Thread nD τ).loc main_arg12) :=
  RW19_of_not_written m d (by decide)
set_option maxRecDepth 8192 in
theorem RW19_main_arg13 : RW19 m d (Proc.devRef .tc main_arg13) = m ((d.tc : Thread nD τ).loc main_arg13) :=
  RW19_of_not_written m d (by decide)
set_option maxRecDepth 8192 in
theorem RW19_main_arg14 : RW19 m d (Proc.devRef .tc main_arg14) = m ((d.tc : Thread nD τ).loc main_arg14) :=
  RW19_of_not_written m d (by decide)
set_option maxRecDepth 8192 in
theorem RW19_main_arg15 : RW19 m d (Proc.devRef .tc main_arg15) = m ((d.tc : Thread nD τ).loc main_arg15) :=
  RW19_of_not_written m d (by decide)
set_option maxRecDepth 8192 in
theorem RW19_main_arg16 : RW19 m d (Proc.devRef .tc main_arg16) = m ((d.tc : Thread nD τ).loc main_arg16) :=
  RW19_of_not_written m d (by decide)
set_option maxRecDepth 8192 in
theorem RW19_main_arg17 : RW19 m d (Proc.devRef .tc main_arg17) = m ((d.tc : Thread nD τ).loc main_arg17) :=
  RW19_of_not_written m d (by decide)
set_option maxRecDepth 8192 in
theorem RW19_main_arg18 : RW19 m d (Proc.devRef .tc main_arg18) = m ((d.tc : Thread nD τ).loc main_arg18) :=
  RW19_of_not_written m d (by decide)
set_option maxRecDepth 8192 in
theorem RW19_main_arg19 : RW19 m d (Proc.devRef .tc main_arg19) = m ((d.tc : Thread nD τ).loc main_arg19) :=
  RW19_of_not_written m d (by decide)
set_option maxRecDepth 8192 in
theorem RW19_main_arg20 : RW19 m d (Proc.devRef .tc main_arg20) = m ((d.tc : Thread nD τ).loc main_arg20) :=
  RW19_of_not_written m d (by decide)
set_option maxRecDepth 8192 in
theorem RW19_main_arg21 : RW19 m d (Proc.devRef .tc main_arg21) = m ((d.tc : Thread nD τ).loc main_arg21) :=
  RW19_of_not_written m d (by decide)
set_option maxRecDepth 8192 in
theorem RW19_main_arg22 : RW19 m d (Proc.devRef .tc main_arg22) = m ((d.tc : Thread nD τ).loc main_arg22) :=
  RW19_of_not_written m d (by decide)
set_option maxRecDepth 8192 in
theorem RW19_main_arg23 : RW19 m d (Proc.devRef .tc main_arg23) = m ((d.tc : Thread nD τ).loc main_arg23) :=
  RW19_of_not_written m d (by decide)
set_option maxRecDepth 8192 in
theorem RW19_main_arg24 : RW19 m d (Proc.devRef .tc main_arg24) = m ((d.tc : Thread nD τ).loc main_arg24) :=
  RW19_of_not_written m d (by decide)

/-- The program runs (terminates, no fault) and its argument arrays end unchanged. -/
theorem frame_ri (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => ⟨(h c main_arg0).trans (RW19_main_arg0 m c),
      (h c main_arg1).trans (RW19_main_arg1 m c),
      (h c main_arg2).trans (RW19_main_arg2 m c),
      (h c main_arg3).trans (RW19_main_arg3 m c),
      (h c main_arg4).trans (RW19_main_arg4 m c),
      (h c main_arg5).trans (RW19_main_arg5 m c),
      (h c main_arg6).trans (RW19_main_arg6 m c),
      (h c main_arg7).trans (RW19_main_arg7 m c),
      (h c main_arg8).trans (RW19_main_arg8 m c),
      (h c main_arg9).trans (RW19_main_arg9 m c),
      (h c main_arg10).trans (RW19_main_arg10 m c),
      (h c main_arg11).trans (RW19_main_arg11 m c),
      (h c main_arg12).trans (RW19_main_arg12 m c),
      (h c main_arg13).trans (RW19_main_arg13 m c),
      (h c main_arg14).trans (RW19_main_arg14 m c),
      (h c main_arg15).trans (RW19_main_arg15 m c),
      (h c main_arg16).trans (RW19_main_arg16 m c),
      (h c main_arg17).trans (RW19_main_arg17 m c),
      (h c main_arg18).trans (RW19_main_arg18 m c),
      (h c main_arg19).trans (RW19_main_arg19 m c),
      (h c main_arg20).trans (RW19_main_arg20 m c),
      (h c main_arg21).trans (RW19_main_arg21 m c),
      (h c main_arg22).trans (RW19_main_arg22 m c),
      (h c main_arg23).trans (RW19_main_arg23 m c),
      (h c main_arg24).trans (RW19_main_arg24 m c)⟩)
    (run_fold m ρ)

end Cert.ReferenceIdeal.RValue

end
-- ==== Proof.LibAttentionLaws.lean ====
/-
  Laws of dense softmax attention on the extended reals, over abstract finite index types.

  Part T (transfer): at the ideal float values — a float an extended real, every operation the
  exact one — each operation that a softmax-attention layer uses, applied to coercions of real
  numbers, gives the coercion of the real result: finite sums and sums of products, the
  exponential of a difference, the quotient by a nonzero real, the fold of max from -∞ over a
  nonempty finite family, the comparison with zero and the selection it drives, and e^x - 1.

  Part L (real algebra): folding a scale into the query weights and bias (L1), deferring the
  softmax normalisation until after the value product (L2), and the two spellings of ELU (L3).

  Part A (assembly): one output entry of an attention row, written with the extended-real
  operations in the two orders (normalise, then multiply by the values; multiply by the values,
  then normalise), is the coercion of one real number; and the two real numbers are equal.
-/
import Mathlib.Tactic
import Idealize.ShloMosaic.PureOps.Ideal
import Idealize.ShloMosaic.PureOps.Ideal.Laws

namespace AttentionLaws

open Idealize.ShloMosaic
open scoped BigOperators

/-! ## Part T: transfer to the reals -/

section Transfer

variable {ι : Type*}

/-- A finite sum of coerced reals is the coerced real sum:
    Σ_{j ∈ s} ↑(f j) = ↑(Σ_{j ∈ s} f j) in the extended reals. -/
theorem coe_sum (s : Finset ι) (f : ι → ℝ) :
    ∑ j ∈ s, ((f j : ℝ) : EReal) = ((∑ j ∈ s, f j : ℝ) : EReal) := by
  induction s using Finset.cons_induction with
  | empty => simp
  | cons a s ha ih => rw [Finset.sum_cons, Finset.sum_cons, ih, EReal.coe_add]

/-- A finite sum of products of coerced reals is the coerced real sum of products:
    Σ_{j ∈ s} ↑(f j) * ↑(g j) = ↑(Σ_{j ∈ s} f j * g j). -/
theorem coe_sum_mul (s : Finset ι) (f g : ι → ℝ) :
    ∑ j ∈ s, ((f j : ℝ) : EReal) * ((g j : ℝ) : EReal) = ((∑ j ∈ s, f j * g j : ℝ) : EReal) := by
  rw [← coe_sum]
  exact Finset.sum_congr rfl fun j _ => (EReal.coe_mul _ _).symm

/-- An affine form of coerced reals is coerced: (Σ_e ↑(h e) * ↑(w e)) + ↑b = ↑(Σ_e h e * w e + b). -/
theorem coe_sum_mul_add (s : Finset ι) (h w : ι → ℝ) (b : ℝ) :
    (∑ e ∈ s, ((h e : ℝ) : EReal) * ((w e : ℝ) : EReal)) + ((b : ℝ) : EReal)
      = ((∑ e ∈ s, h e * w e + b : ℝ) : EReal) := by
  rw [coe_sum_mul, ← EReal.coe_add]

/-- The maximum of -∞ and a real is that real. -/
theorem max_bot_coe (x : ℝ) : max (⊥ : EReal) ((x : ℝ) : EReal) = ((x : ℝ) : EReal) :=
  max_eq_right bot_le

/-- The coercion of the reals into the extended reals commutes with the binary maximum. -/
theorem coe_max (x y : ℝ) : ((max x y : ℝ) : EReal) = max ((x : ℝ) : EReal) ((y : ℝ) : EReal) :=
  EReal.coe_strictMono.monotone.map_max

/-- The fold of max starting from -∞ over a nonempty finite set of coerced reals is the coerced
    maximum (Finset.sup') of the reals. -/
theorem fold_max_bot_coe_of_nonempty (s : Finset ι) (hs : s.Nonempty) (f : ι → ℝ) :
    s.fold max (⊥ : EReal) (fun j => ((f j : ℝ) : EReal)) = ((s.sup' hs f : ℝ) : EReal) := by
  induction hs using Finset.Nonempty.cons_induction with
  | singleton a => rw [Finset.fold_singleton, Finset.sup'_singleton]; exact max_eq_left bot_le
  | cons a s ha hs ih => rw [Finset.fold_cons, ih, Finset.sup'_cons hs, ← coe_max]

/-- The same fold with the ideal instance's maximumf as the folded operation: it is max. -/
theorem fold_maximumf_eq_fold_max {φ : FTy} (s : Finset ι) (b : EReal) (f : ι → EReal) :
    s.fold (FloatOps.maximumf (F := Ideal) (φ := φ)) b f = s.fold max b f := rfl

variable [Fintype ι] [Nonempty ι]

/-- The maximum of a nonempty finite family of reals. -/
noncomputable def rowMax (S : ι → ℝ) : ℝ := Finset.univ.sup' Finset.univ_nonempty S

/-- Every member of the family is at most the maximum. -/
theorem le_rowMax (S : ι → ℝ) (j : ι) : S j ≤ rowMax S :=
  Finset.le_sup' S (Finset.mem_univ j)

/-- The fold of max from -∞ over a whole nonempty finite index type, of coerced reals, is the coerced
    maximum of the family. -/
theorem fold_max_bot_coe (S : ι → ℝ) :
    (Finset.univ : Finset ι).fold max (⊥ : EReal) (fun j => ((S j : ℝ) : EReal)) = ((rowMax S : ℝ) : EReal) :=
  fold_max_bot_coe_of_nonempty _ Finset.univ_nonempty S

omit [Fintype ι] [Nonempty ι] in
/-- The ideal exponential of a coerced real is the coerced real exponential. -/
theorem exp_coe (x : ℝ) : Ideal.exp ((x : ℝ) : EReal) = ((Real.exp x : ℝ) : EReal) := rfl

omit [Fintype ι] [Nonempty ι] in
/-- The ideal exponential of a difference of coerced reals is the coerced e^(a-b), a positive real. -/
theorem exp_coe_sub_coe (a b : ℝ) :
    Ideal.exp (((a : ℝ) : EReal) - ((b : ℝ) : EReal)) = ((Real.exp (a - b) : ℝ) : EReal) := rfl

omit [Fintype ι] [Nonempty ι] in
/-- The ideal quotient of a coerced real by a coerced nonzero real is the coerced real quotient. -/
theorem div_coe_coe (a : ℝ) {b : ℝ} (hb : b ≠ 0) :
    Ideal.div ((a : ℝ) : EReal) ((b : ℝ) : EReal) = ((a / b : ℝ) : EReal) := by
  rw [Ideal.div, if_neg (EReal.coe_ne_zero.mpr hb), ← EReal.coe_inv, ← EReal.coe_mul, div_eq_mul_inv]

omit [Fintype ι] [Nonempty ι] in
/-- The ordered comparison "greater than" of two coerced reals is decided on the reals. -/
theorem cmp_ogt_coe_coe (x y : ℝ) :
    Ideal.cmp .ogt ((x : ℝ) : EReal) ((y : ℝ) : EReal) = BitVec.ofBool (decide (y < x)) := by
  unfold Ideal.cmp
  simp only [EReal.coe_lt_coe_iff]

omit [Fintype ι] [Nonempty ι] in
/-- A selection driven by the comparison x > 0 of a coerced real is the real if-then-else. -/
theorem select_cmp_ogt_zero {α : Type} (x : ℝ) (A B : α) :
    Scalar.select (Ideal.cmp .ogt ((x : ℝ) : EReal) 0) A B = if 0 < x then A else B := by
  rw [← EReal.coe_zero, cmp_ogt_coe_coe, Scalar.select]
  by_cases h : 0 < x <;> simp [h]

omit [Fintype ι] [Nonempty ι] in
/-- e^x - 1 of a coerced real, computed with the ideal exponential and the extended-real
    subtraction, is the coerced real e^x - 1. -/
theorem expm1_coe (x : ℝ) : Ideal.exp ((x : ℝ) : EReal) - 1 = ((Real.exp x - 1 : ℝ) : EReal) := rfl

omit [Fintype ι] [Nonempty ι] in
/-- The same for the named operation expm1 of the ideal instance. -/
theorem ideal_expm1_coe (x : ℝ) : Ideal.expm1 ((x : ℝ) : EReal) = ((Real.exp x - 1 : ℝ) : EReal) := rfl

end Transfer

/-! ## Part L: the real algebra -/

section RealAlgebra

variable {ι Din D : Type*} [Fintype ι] [Fintype Din] [Fintype D]

/-- L1, scale folding. Scaling the query weights and the query bias by c before the projection scales
    the score by c: Σ_d (Σ_e h e * (Wq e d * c) + bq d * c) * kk d = (Σ_d (Σ_e h e * Wq e d + bq d) * kk d) * c. -/
theorem scale_fold (h : Din → ℝ) (Wq : Din → D → ℝ) (bq kk : D → ℝ) (c : ℝ) :
    ∑ d, (∑ e, h e * (Wq e d * c) + bq d * c) * kk d
      = (∑ d, (∑ e, h e * Wq e d + bq d) * kk d) * c := by
  rw [Finset.sum_mul]
  refine Finset.sum_congr rfl fun d _ => ?_
  have hsum : ∑ e, h e * (Wq e d * c) = (∑ e, h e * Wq e d) * c := by
    rw [Finset.sum_mul]
    exact Finset.sum_congr rfl fun e _ => by ring
  rw [hsum]
  ring

/-- L2, deferred normalisation. Dividing the weighted sum by l is weighting by the quotients:
    (Σ_j p j * vv j) / l = Σ_j (p j / l) * vv j. -/
theorem deferred_norm (p vv : ι → ℝ) (l : ℝ) :
    (∑ j, p j * vv j) / l = ∑ j, (p j / l) * vv j := by
  rw [Finset.sum_div]
  exact Finset.sum_congr rfl fun j _ => by ring

/-- The softmax denominator Σ_j e^(s j - m) over a nonempty finite family is positive. -/
theorem sum_exp_sub_pos [Nonempty ι] (s : ι → ℝ) (m : ℝ) : 0 < ∑ j, Real.exp (s j - m) :=
  Finset.sum_pos (fun j _ => Real.exp_pos _) Finset.univ_nonempty

/-- The exponential linear unit on the reals: x for x > 0, else e^x - 1. -/
noncomputable def elu (x : ℝ) : ℝ := if 0 < x then x else Real.exp x - 1

/-- L3, the two spellings of ELU: (if x > 0 then x else e^x - 1) = (if x > 0 then x else 1 * (e^(if x > 0 then 0 else x) - 1)). -/
theorem elu_spellings (x : ℝ) :
    (if 0 < x then x else Real.exp x - 1)
      = (if 0 < x then x else 1 * (Real.exp (if 0 < x then 0 else x) - 1)) := by
  by_cases h : 0 < x <;> simp [h]

end RealAlgebra

/-! ## ELU on the extended reals -/

section Elu

/-- ELU as select(x > 0, x, e^x - 1), every operation the extended-real one, at a coerced real x
    is the coerced real ELU. -/
theorem elu_direct_coe (x : ℝ) :
    Scalar.select (Ideal.cmp .ogt ((x : ℝ) : EReal) 0) ((x : ℝ) : EReal) (Ideal.exp ((x : ℝ) : EReal) - 1)
      = ((elu x : ℝ) : EReal) := by
  rw [select_cmp_ogt_zero, expm1_coe, elu]
  by_cases h : 0 < x <;> simp only [h, if_true, if_false]

/-- ELU as select(x > 0, x, 1 * expm1(select(x > 0, 0, x))), every operation the extended-real one
    (expm1 y spelled e^y - 1), at a coerced real x is the coerced real ELU. -/
theorem elu_safe_coe (x : ℝ) :
    Scalar.select (Ideal.cmp .ogt ((x : ℝ) : EReal) 0) ((x : ℝ) : EReal)
        (1 * (Ideal.exp (Scalar.select (Ideal.cmp .ogt ((x : ℝ) : EReal) 0) (0 : EReal) ((x : ℝ) : EReal)) - 1))
      = ((elu x : ℝ) : EReal) := by
  rw [select_cmp_ogt_zero, select_cmp_ogt_zero, elu, one_mul]
  by_cases h : 0 < x
  · simp only [h, if_true]
  · simp only [h, if_false]; rfl

end Elu

/-! ## Part A: one entry of an attention row, and a whole layer -/

section Row

variable {ι : Type*} [Fintype ι] [Nonempty ι]

/-- The softmax denominator of a row of scores: Σ_j e^(S j - max S). -/
noncomputable def softmaxDen (S : ι → ℝ) : ℝ := ∑ j, Real.exp (S j - rowMax S)

/-- The softmax denominator is positive. -/
theorem softmaxDen_pos (S : ι → ℝ) : 0 < softmaxDen S := sum_exp_sub_pos S _

/-- One output entry of an attention row with the normalisation deferred: the unnormalised weights
    e^(S j - max S) multiply the values first, the sum is divided by the softmax denominator, and the
    skip term s is added: (Σ_j e^(S j - max S) * v j) / (Σ_j e^(S j - max S)) + s. -/
noncomputable def attnDeferred (S v : ι → ℝ) (s : ℝ) : ℝ :=
  (∑ j, Real.exp (S j - rowMax S) * v j) / softmaxDen S + s

/-- One output entry of an attention row with the weights normalised first:
    (Σ_j (e^(S j - max S) / Σ_j e^(S j - max S)) * v j) + s. -/
noncomputable def attnNormalized (S v : ι → ℝ) (s : ℝ) : ℝ :=
  (∑ j, Real.exp (S j - rowMax S) / softmaxDen S * v j) + s

/-- Deferring the normalisation does not change the entry (L2). -/
theorem attnDeferred_eq_attnNormalized (S v : ι → ℝ) (s : ℝ) : attnDeferred S v s = attnNormalized S v s := by
  unfold attnDeferred attnNormalized
  rw [deferred_norm]

/-- The deferred form on the extended reals. If the scores Se, the values ve and the skip term se are the
    coercions of the real S, v, s; M is the fold of max from -∞ over the scores; num = Σ_j exp(Se j - M) * ve j
    and den = Σ_j exp(Se j - M), every operation the extended-real one; then div num den + se is the coercion
    of the real attnDeferred S v s. -/
theorem deferred_row_coe (S v : ι → ℝ) (s : ℝ) (Se ve : ι → EReal) (se M num den : EReal)
    (hS : ∀ j, Se j = ((S j : ℝ) : EReal)) (hv : ∀ j, ve j = ((v j : ℝ) : EReal)) (hs : se = ((s : ℝ) : EReal))
    (hM : M = (Finset.univ : Finset ι).fold max ⊥ Se)
    (hnum : num = ∑ j, Ideal.exp (Se j - M) * ve j)
    (hden : den = ∑ j, Ideal.exp (Se j - M)) :
    Ideal.div num den + se = ((attnDeferred S v s : ℝ) : EReal) := by
  obtain rfl : Se = fun j => ((S j : ℝ) : EReal) := funext hS
  obtain rfl : ve = fun j => ((v j : ℝ) : EReal) := funext hv
  have hM' : M = ((rowMax S : ℝ) : EReal) := hM.trans (fold_max_bot_coe S)
  have hden' : den = ((softmaxDen S : ℝ) : EReal) := by
    rw [hden, hM']
    exact coe_sum Finset.univ fun j => Real.exp (S j - rowMax S)
  have hnum' : num = ((∑ j, Real.exp (S j - rowMax S) * v j : ℝ) : EReal) := by
    rw [hnum, hM']
    exact coe_sum_mul Finset.univ (fun j => Real.exp (S j - rowMax S)) v
  rw [hden', hnum', hs, div_coe_coe _ (softmaxDen_pos S).ne', ← EReal.coe_add]
  rfl

/-- The normalised form on the extended reals. With Se, ve, se, M as above and den = Σ_j exp(Se j - M),
    (Σ_j div (exp(Se j - M)) den * ve j) + se is the coercion of the real attnNormalized S v s. -/
theorem normalized_row_coe (S v : ι → ℝ) (s : ℝ) (Se ve : ι → EReal) (se M den : EReal)
    (hS : ∀ j, Se j = ((S j : ℝ) : EReal)) (hv : ∀ j, ve j = ((v j : ℝ) : EReal)) (hs : se = ((s : ℝ) : EReal))
    (hM : M = (Finset.univ : Finset ι).fold max ⊥ Se)
    (hden : den = ∑ j, Ideal.exp (Se j - M)) :
    (∑ j, Ideal.div (Ideal.exp (Se j - M)) den * ve j) + se = ((attnNormalized S v s : ℝ) : EReal) := by
  obtain rfl : Se = fun j => ((S j : ℝ) : EReal) := funext hS
  obtain rfl : ve = fun j => ((v j : ℝ) : EReal) := funext hv
  have hM' : M = ((rowMax S : ℝ) : EReal) := hM.trans (fold_max_bot_coe S)
  have hden' : den = ((softmaxDen S : ℝ) : EReal) := by
    rw [hden, hM']
    exact coe_sum Finset.univ fun j => Real.exp (S j - rowMax S)
  have hterm : ∀ j, Ideal.div (Ideal.exp (((S j : ℝ) : EReal) - M)) den * ((v j : ℝ) : EReal)
      = ((Real.exp (S j - rowMax S) / softmaxDen S : ℝ) : EReal) * ((v j : ℝ) : EReal) := by
    intro j
    rw [hM', hden', exp_coe_sub_coe, div_coe_coe _ (softmaxDen_pos S).ne']
  rw [Finset.sum_congr rfl fun j _ => hterm j, hs,
    coe_sum_mul Finset.univ (fun j => Real.exp (S j - rowMax S) / softmaxDen S) v, ← EReal.coe_add]
  rfl

/-- The closed deferred form: for real scores S, values v and skip term s,
    div (Σ_j exp(↑(S j) - M) * ↑(v j)) (0 + Σ_j exp(↑(S j) - M)) + ↑s, with M the fold of max from -∞ over the
    coerced scores, is the coercion of attnDeferred S v s. -/
theorem deferred_row_closed_coe (S v : ι → ℝ) (s : ℝ) :
    Ideal.div
        (∑ j, Ideal.exp (((S j : ℝ) : EReal) - (Finset.univ : Finset ι).fold max ⊥ (fun j => ((S j : ℝ) : EReal)))
          * ((v j : ℝ) : EReal))
        (0 + ∑ j, Ideal.exp (((S j : ℝ) : EReal) - (Finset.univ : Finset ι).fold max ⊥ (fun j => ((S j : ℝ) : EReal))))
      + ((s : ℝ) : EReal)
      = ((attnDeferred S v s : ℝ) : EReal) :=
  deferred_row_coe S v s _ _ _ _ _ _ (fun _ => rfl) (fun _ => rfl) rfl rfl rfl (zero_add _)

/-- The closed normalised form: (Σ_j div (exp(↑(S j) - M)) (0 + Σ_j exp(↑(S j) - M)) * ↑(v j)) + ↑s, with
    M = max(-∞, fold of max from -∞ over the coerced scores), is the coercion of attnNormalized S v s. -/
theorem normalized_row_closed_coe (S v : ι → ℝ) (s : ℝ) :
    (∑ j, Ideal.div
        (Ideal.exp (((S j : ℝ) : EReal) - max ⊥ ((Finset.univ : Finset ι).fold max ⊥ (fun j => ((S j : ℝ) : EReal)))))
        (0 + ∑ j, Ideal.exp (((S j : ℝ) : EReal) - max ⊥ ((Finset.univ : Finset ι).fold max ⊥ (fun j => ((S j : ℝ) : EReal)))))
          * ((v j : ℝ) : EReal))
      + ((s : ℝ) : EReal)
      = ((attnNormalized S v s : ℝ) : EReal) :=
  normalized_row_coe S v s _ _ _ _ _ (fun _ => rfl) (fun _ => rfl) rfl (max_eq_right bot_le) (zero_add _)

end Row

section Layer

variable {ι Din D D' : Type*} [Fintype ι] [Nonempty ι] [Fintype Din] [Fintype D] [Fintype D']

/-- An affine projection of a feature vector: (h W + b) d = Σ_e h e * W e d + b d. -/
noncomputable def proj (h : Din → ℝ) (W : Din → D → ℝ) (b : D → ℝ) (d : D) : ℝ := ∑ e, h e * W e d + b d

omit [Fintype D] in
/-- The projection of coerced reals, with the extended-real operations, is the coerced projection. -/
theorem proj_coe (h : Din → ℝ) (W : Din → D → ℝ) (b : D → ℝ) (d : D) :
    (∑ e, ((h e : ℝ) : EReal) * ((W e d : ℝ) : EReal)) + ((b d : ℝ) : EReal) = ((proj h W b d : ℝ) : EReal) :=
  coe_sum_mul_add Finset.univ h (fun e => W e d) (b d)

omit [Fintype D] in
/-- The projection with weights and bias scaled by c beforehand, with the extended-real operations,
    is the coerced projection through the scaled real weights and bias. -/
theorem proj_scaled_coe (h : Din → ℝ) (W : Din → D → ℝ) (b : D → ℝ) (c : ℝ) (d : D) :
    (∑ e, ((h e : ℝ) : EReal) * (((W e d : ℝ) : EReal) * ((c : ℝ) : EReal))) + ((b d : ℝ) : EReal) * ((c : ℝ) : EReal)
      = ((proj h (fun e d => W e d * c) (fun d => b d * c) d : ℝ) : EReal) := by
  simp only [← EReal.coe_mul]
  exact coe_sum_mul_add Finset.univ h (fun e => W e d * c) (b d * c)

/-- The score of a query q against a key k with the scale applied after the product: (Σ_d q d * k d) * c. -/
noncomputable def scoreScaledAfter (q k : D → ℝ) (c : ℝ) : ℝ := (∑ d, q d * k d) * c

/-- The unscaled score on the extended reals is the coerced real one. -/
theorem score_coe (q k : D → ℝ) :
    ∑ d, ((q d : ℝ) : EReal) * ((k d : ℝ) : EReal) = ((∑ d, q d * k d : ℝ) : EReal) :=
  coe_sum_mul Finset.univ q k

/-- The score scaled after the product, on the extended reals, is the coerced real one. -/
theorem scoreScaledAfter_coe (q k : D → ℝ) (c : ℝ) :
    (∑ d, ((q d : ℝ) : EReal) * ((k d : ℝ) : EReal)) * ((c : ℝ) : EReal) = ((scoreScaledAfter q k c : ℝ) : EReal) := by
  rw [score_coe, ← EReal.coe_mul]
  rfl

/-- L1 for projections: the score of the query projected through weights and bias scaled by c is the
    score of the plainly projected query, scaled by c afterwards. -/
theorem score_scale_fold (h : Din → ℝ) (Wq : Din → D → ℝ) (bq k : D → ℝ) (c : ℝ) :
    ∑ d, proj h (fun e d => Wq e d * c) (fun d => bq d * c) d * k d = scoreScaledAfter (proj h Wq bq) k c :=
  scale_fold h Wq bq k c

/-- One attention layer on real data as the reference computes it: queries, keys, values and skip
    term are affine projections of the rows of h; the score of row i against row j is (q_i · k_j) * c;
    the softmax weights are normalised and then multiply the values; the skip term is added. -/
noncomputable def layerNormalized (c : ℝ) (Wq Wk Wv Ws : Din → D → ℝ) (bq bk bv bs : D → ℝ) (h : ι → Din → ℝ)
    (i : ι) (o : D) : ℝ :=
  attnNormalized (fun j => scoreScaledAfter (proj (h i) Wq bq) (proj (h j) Wk bk) c)
    (fun j => proj (h j) Wv bv o) (proj (h i) Ws bs o)

/-- One attention layer on real data as the kernel computes it: the scale c is folded into the query
    weights and bias, the score is the plain product q'_i · k_j, the unnormalised weights multiply the
    values and the sum is divided by the softmax denominator; the skip term is added. -/
noncomputable def layerDeferred (c : ℝ) (Wq Wk Wv Ws : Din → D → ℝ) (bq bk bv bs : D → ℝ) (h : ι → Din → ℝ)
    (i : ι) (o : D) : ℝ :=
  attnDeferred (fun j => ∑ d, proj (h i) (fun e d => Wq e d * c) (fun d => bq d * c) d * proj (h j) Wk bk d)
    (fun j => proj (h j) Wv bv o) (proj (h i) Ws bs o)

/-- The two layers are the same function of real data (L1 and L2). -/
theorem layerDeferred_eq_layerNormalized (c : ℝ) (Wq Wk Wv Ws : Din → D → ℝ) (bq bk bv bs : D → ℝ)
    (h : ι → Din → ℝ) :
    layerDeferred c Wq Wk Wv Ws bq bk bv bs h = layerNormalized c Wq Wk Wv Ws bq bk bv bs h := by
  funext i o
  unfold layerDeferred layerNormalized
  rw [attnDeferred_eq_attnNormalized]
  congr 1
  funext j
  exact score_scale_fold (h i) Wq bq (proj (h j) Wk bk) c

/-- Two layers with ELU between them: the deferred-normalisation network equals the normalised one. -/
theorem twoLayer_eq (c₁ c₂ : ℝ) (Wq₁ Wk₁ Wv₁ Ws₁ : Din → D → ℝ) (bq₁ bk₁ bv₁ bs₁ : D → ℝ)
    (Wq₂ Wk₂ Wv₂ Ws₂ : D → D' → ℝ) (bq₂ bk₂ bv₂ bs₂ : D' → ℝ) (x : ι → Din → ℝ) :
    layerDeferred c₂ Wq₂ Wk₂ Wv₂ Ws₂ bq₂ bk₂ bv₂ bs₂
        (fun i d => elu (layerDeferred c₁ Wq₁ Wk₁ Wv₁ Ws₁ bq₁ bk₁ bv₁ bs₁ x i d))
      = layerNormalized c₂ Wq₂ Wk₂ Wv₂ Ws₂ bq₂ bk₂ bv₂ bs₂
        (fun i d => elu (layerNormalized c₁ Wq₁ Wk₁ Wv₁ Ws₁ bq₁ bk₁ bv₁ bs₁ x i d)) := by
  rw [layerDeferred_eq_layerNormalized, layerDeferred_eq_layerNormalized]

end Layer

/-! ## Constants and finiteness -/

section Constants

/-- The f32 word 0xFF800000 denotes -∞. -/
theorem ofBits_f32_neg_inf : Ideal.ofBits .f32 0xFF800000#32 = ⊥ := by
  simp [Ideal.ofBits, Ideal.ieee]

/-- The f32 word 0x3F800000 denotes 1. -/
theorem ofBits_f32_one : Ideal.ofBits .f32 0x3F800000#32 = 1 := by
  simp [Ideal.ofBits, Ideal.ieee, -EReal.coe_mul]; norm_num

/-- An f32 word whose exponent field is not all ones denotes a real number. -/
theorem ofBits_f32_real (b : BitVec 32) (h : (b.extractLsb' 23 8).toNat ≠ 255) :
    ∃ r : ℝ, Ideal.ofBits .f32 b = ((r : ℝ) : EReal) := by
  show ∃ r : ℝ, Ideal.ieee 8 23 b = ((r : ℝ) : EReal)
  unfold Ideal.ieee
  simp only []
  rw [if_neg (by simpa using h)]
  split_ifs <;> exact ⟨_, rfl⟩

/-- An extended real whose absolute value max x (-x) is below +∞ is a real number. -/
theorem exists_coe_of_abs_lt_top (x : EReal) (h : max x (-x) < ⊤) : ∃ r : ℝ, x = ((r : ℝ) : EReal) := by
  induction x using EReal.rec with
  | bot => simp at h
  | top => simp at h
  | coe r => exact ⟨r, rfl⟩

/-- The same from the comparison |x| < +∞ as the ideal instance decides it. -/
theorem exists_coe_of_cmp_abs_olt_top (x : EReal) (h : Ideal.cmp .olt (max x (-x)) ⊤ = 1#1) :
    ∃ r : ℝ, x = ((r : ℝ) : EReal) := by
  apply exists_coe_of_abs_lt_top
  unfold Ideal.cmp at h
  by_contra hn
  simp [hn] at h

end Constants

end AttentionLaws
-- ==== Proof.Pre.Finite.lean ====
/-
  From the finiteness precondition to "every float input entry is a real number".

  The precondition evaluates, for each of the 24 float argument arrays x, the conjunction over all
  indices i of the comparison |x i| < +∞ (the absolute value max (x i) (-(x i)) on the extended reals,
  +∞ being the f32 word 0x7F800000), and conjoins the 24 results; it states that the outcome is 1.
  A conjunction that is 1 has every conjunct 1; an all-reduction by "and" that is 1 has every element 1;
  and an extended real x with max x (-x) < ⊤ is neither ⊤ nor ⊥, hence the coercion of a real number.
  The integer argument (argument 1) is not constrained by the precondition and nothing is said of it.
-/
import proofs.«115122_j13357348290767_2_alg».proof.Defs
import proofs.«115122_j13357348290767_2_alg».proof.Proof.LibAttentionLaws
import Idealize.ShloMosaic.Lib.ReduceAll
import Idealize.ShloMosaic.Lib.ValueIdx
import Idealize.ShloMosaic.PureOps.Ideal
import Idealize.ShloMosaic.PureOps.Ideal.Laws

noncomputable section

namespace Cert.PreFinite

open Idealize.ShloMosaic Idealize.SL.Sem Cert.Pre_finite_inputs

/-- The rank-0 shape has exactly one index. -/
instance subsingleton_S_Idx : Subsingleton S_.Idx := ⟨fun a b => funext fun d => d.elim0⟩

/-- The f32 word 0x7F800000 denotes +∞. -/
theorem ofBits_f32_pos_inf : Ideal.ofBits .f32 0x7F800000#32 = ⊤ := by
  simp [Ideal.ofBits, Ideal.ieee]

/-- One argument's check read back: if the all-reduction by "and" of |x i| < +∞ is 1, every x i is real. -/
theorem finite_of_check {s : Shape} {axes : List (Fin s.rank)} (x : FVec Ideal s .f32)
    (hb : S_.BroadcastsInDim s (![] : Fin 0 → Fin s.rank)) (hr : s.ReducesTo axes S_) (hu : 0 < S_.numel)
    (j : S_.Idx)
    (e : Host.reduce IntOp.andi
          (cmpf .olt (Host.absf x) (broadcastInDim s ![] hb (constant S_ .f32 0x7F800000#32)))
          (constantI S_ 1 1#1) hr hu j = 1#1) :
    ∀ i, ∃ r : ℝ, x i = ((r : ℝ) : EReal) := by
  intro i
  have hi := Host.reduce_andi_all _ _ hr hu j e i
  apply AttentionLaws.exists_coe_of_cmp_abs_olt_top
  rw [← ofBits_f32_pos_inf]
  exact hi

variable [Cert.Pre_finite_inputs.Facts]

/-- The precondition's value 1 gives, for each float argument in argument order, that every entry is real. -/
theorem finite_of_pre (a0 : FVec Ideal S20000x2000 .f32) (a1 : IVec S2x200000 32) (a2 : FVec Ideal S200000x6 .f32) (a3 : FVec Ideal S512x2000 .f32) (a4 : FVec Ideal S512 .f32) (a5 : FVec Ideal S512x2000 .f32) (a6 : FVec Ideal S512 .f32) (a7 : FVec Ideal S512x1024 .f32) (a8 : FVec Ideal S512 .f32) (a9 : FVec Ideal S3x512x16 .f32) (a10 : FVec Ideal S3x16x16 .f32) (a11 : FVec Ideal S3x16x16 .f32) (a12 : FVec Ideal S3x16x16 .f32) (a13 : FVec Ideal S256x64 .f32) (a14 : FVec Ideal S256 .f32) (a15 : FVec Ideal S2x256 .f32) (a16 : FVec Ideal S2 .f32) (a17 : FVec Ideal S256x512 .f32) (a18 : FVec Ideal S256 .f32) (a19 : FVec Ideal S20x256 .f32) (a20 : FVec Ideal S20 .f32) (a21 : FVec Ideal S128x3 .f32) (a22 : FVec Ideal S128 .f32) (a23 : FVec Ideal S128x128 .f32) (a24 : FVec Ideal S128 .f32)
    (h : fn (F := Ideal) a0 a1 a2 a3 a4 a5 a6 a7 a8 a9 a10 a11 a12 a13 a14 a15 a16 a17 a18 a19 a20 a21 a22 a23 a24 = fun _ => 1#1) :
    (∀ i, ∃ r : ℝ, a0 i = ((r : ℝ) : EReal))
      ∧ (∀ i, ∃ r : ℝ, a2 i = ((r : ℝ) : EReal))
      ∧ (∀ i, ∃ r : ℝ, a3 i = ((r : ℝ) : EReal))
      ∧ (∀ i, ∃ r : ℝ, a4 i = ((r : ℝ) : EReal))
      ∧ (∀ i, ∃ r : ℝ, a5 i = ((r : ℝ) : EReal))
      ∧ (∀ i, ∃ r : ℝ, a6 i = ((r : ℝ) : EReal))
      ∧ (∀ i, ∃ r : ℝ, a7 i = ((r : ℝ) : EReal))
      ∧ (∀ i, ∃ r : ℝ, a8 i = ((r : ℝ) : EReal))
      ∧ (∀ i, ∃ r : ℝ, a9 i = ((r : ℝ) : EReal))
      ∧ (∀ i, ∃ r : ℝ, a10 i = ((r : ℝ) : EReal))
      ∧ (∀ i, ∃ r : ℝ, a11 i = ((r : ℝ) : EReal))
      ∧ (∀ i, ∃ r : ℝ, a12 i = ((r : ℝ) : EReal))
      ∧ (∀ i, ∃ r : ℝ, a13 i = ((r : ℝ) : EReal))
      ∧ (∀ i, ∃ r : ℝ, a14 i = ((r : ℝ) : EReal))
      ∧ (∀ i, ∃ r : ℝ, a15 i = ((r : ℝ) : EReal))
      ∧ (∀ i, ∃ r : ℝ, a16 i = ((r : ℝ) : EReal))
      ∧ (∀ i, ∃ r : ℝ, a17 i = ((r : ℝ) : EReal))
      ∧ (∀ i, ∃ r : ℝ, a18 i = ((r : ℝ) : EReal))
      ∧ (∀ i, ∃ r : ℝ, a19 i = ((r : ℝ) : EReal))
      ∧ (∀ i, ∃ r : ℝ, a20 i = ((r : ℝ) : EReal))
      ∧ (∀ i, ∃ r : ℝ, a21 i = ((r : ℝ) : EReal))
      ∧ (∀ i, ∃ r : ℝ, a22 i = ((r : ℝ) : EReal))
      ∧ (∀ i, ∃ r : ℝ, a23 i = ((r : ℝ) : EReal))
      ∧ (∀ i, ∃ r : ℝ, a24 i = ((r : ℝ) : EReal)) := by
  have h0 := congrFun h ValueIdx.ix0
  dsimp only [fn, fn_part1, fn_part2, fn_part3, fn_part4, fn_part5, fn_part6, Idealize.ShloMosaic.andi] at h0
  simp only [IntOp.andi_eq_one] at h0
  obtain ⟨⟨⟨⟨⟨⟨⟨⟨⟨⟨⟨⟨⟨⟨⟨⟨⟨⟨⟨⟨⟨⟨⟨h0, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩ := h0
  exact ⟨finite_of_check a0 _ _ _ _ h0,
     finite_of_check a2 _ _ _ _ h2,
     finite_of_check a3 _ _ _ _ h3,
     finite_of_check a4 _ _ _ _ h4,
     finite_of_check a5 _ _ _ _ h5,
     finite_of_check a6 _ _ _ _ h6,
     finite_of_check a7 _ _ _ _ h7,
     finite_of_check a8 _ _ _ _ h8,
     finite_of_check a9 _ _ _ _ h9,
     finite_of_check a10 _ _ _ _ h10,
     finite_of_check a11 _ _ _ _ h11,
     finite_of_check a12 _ _ _ _ h12,
     finite_of_check a13 _ _ _ _ h13,
     finite_of_check a14 _ _ _ _ h14,
     finite_of_check a15 _ _ _ _ h15,
     finite_of_check a16 _ _ _ _ h16,
     finite_of_check a17 _ _ _ _ h17,
     finite_of_check a18 _ _ _ _ h18,
     finite_of_check a19 _ _ _ _ h19,
     finite_of_check a20 _ _ _ _ h20,
     finite_of_check a21 _ _ _ _ h21,
     finite_of_check a22 _ _ _ _ h22,
     finite_of_check a23 _ _ _ _ h23,
     finite_of_check a24 _ _ _ _ h24⟩

/-- Every entry of float argument 0 is a real number. -/
theorem finite_arg0 (a0 : FVec Ideal S20000x2000 .f32) (a1 : IVec S2x200000 32) (a2 : FVec Ideal S200000x6 .f32) (a3 : FVec Ideal S512x2000 .f32) (a4 : FVec Ideal S512 .f32) (a5 : FVec Ideal S512x2000 .f32) (a6 : FVec Ideal S512 .f32) (a7 : FVec Ideal S512x1024 .f32) (a8 : FVec Ideal S512 .f32) (a9 : FVec Ideal S3x512x16 .f32) (a10 : FVec Ideal S3x16x16 .f32) (a11 : FVec Ideal S3x16x16 .f32) (a12 : FVec Ideal S3x16x16 .f32) (a13 : FVec Ideal S256x64 .f32) (a14 : FVec Ideal S256 .f32) (a15 : FVec Ideal S2x256 .f32) (a16 : FVec Ideal S2 .f32) (a17 : FVec Ideal S256x512 .f32) (a18 : FVec Ideal S256 .f32) (a19 : FVec Ideal S20x256 .f32) (a20 : FVec Ideal S20 .f32) (a21 : FVec Ideal S128x3 .f32) (a22 : FVec Ideal S128 .f32) (a23 : FVec Ideal S128x128 .f32) (a24 : FVec Ideal S128 .f32)
    (h : fn (F := Ideal) a0 a1 a2 a3 a4 a5 a6 a7 a8 a9 a10 a11 a12 a13 a14 a15 a16 a17 a18 a19 a20 a21 a22 a23 a24 = fun _ => 1#1) :
    ∀ i, ∃ r : ℝ, a0 i = ((r : ℝ) : EReal) :=
  (finite_of_pre a0 a1 a2 a3 a4 a5 a6 a7 a8 a9 a10 a11 a12 a13 a14 a15 a16 a17 a18 a19 a20 a21 a22 a23 a24 h).1

/-- Every entry of float argument 2 is a real number. -/
theorem finite_arg2 (a0 : FVec Ideal S20000x2000 .f32) (a1 : IVec S2x200000 32) (a2 : FVec Ideal S200000x6 .f32) (a3 : FVec Ideal S512x2000 .f32) (a4 : FVec Ideal S512 .f32) (a5 : FVec Ideal S512x2000 .f32) (a6 : FVec Ideal S512 .f32) (a7 : FVec Ideal S512x1024 .f32) (a8 : FVec Ideal S512 .f32) (a9 : FVec Ideal S3x512x16 .f32) (a10 : FVec Ideal S3x16x16 .f32) (a11 : FVec Ideal S3x16x16 .f32) (a12 : FVec Ideal S3x16x16 .f32) (a13 : FVec Ideal S256x64 .f32) (a14 : FVec Ideal S256 .f32) (a15 : FVec Ideal S2x256 .f32) (a16 : FVec Ideal S2 .f32) (a17 : FVec Ideal S256x512 .f32) (a18 : FVec Ideal S256 .f32) (a19 : FVec Ideal S20x256 .f32) (a20 : FVec Ideal S20 .f32) (a21 : FVec Ideal S128x3 .f32) (a22 : FVec Ideal S128 .f32) (a23 : FVec Ideal S128x128 .f32) (a24 : FVec Ideal S128 .f32)
    (h : fn (F := Ideal) a0 a1 a2 a3 a4 a5 a6 a7 a8 a9 a10 a11 a12 a13 a14 a15 a16 a17 a18 a19 a20 a21 a22 a23 a24 = fun _ => 1#1) :
    ∀ i, ∃ r : ℝ, a2 i = ((r : ℝ) : EReal) :=
  (finite_of_pre a0 a1 a2 a3 a4 a5 a6 a7 a8 a9 a10 a11 a12 a13 a14 a15 a16 a17 a18 a19 a20 a21 a22 a23 a24 h).2.1

/-- Every entry of float argument 3 is a real number. -/
theorem finite_arg3 (a0 : FVec Ideal S20000x2000 .f32) (a1 : IVec S2x200000 32) (a2 : FVec Ideal S200000x6 .f32) (a3 : FVec Ideal S512x2000 .f32) (a4 : FVec Ideal S512 .f32) (a5 : FVec Ideal S512x2000 .f32) (a6 : FVec Ideal S512 .f32) (a7 : FVec Ideal S512x1024 .f32) (a8 : FVec Ideal S512 .f32) (a9 : FVec Ideal S3x512x16 .f32) (a10 : FVec Ideal S3x16x16 .f32) (a11 : FVec Ideal S3x16x16 .f32) (a12 : FVec Ideal S3x16x16 .f32) (a13 : FVec Ideal S256x64 .f32) (a14 : FVec Ideal S256 .f32) (a15 : FVec Ideal S2x256 .f32) (a16 : FVec Ideal S2 .f32) (a17 : FVec Ideal S256x512 .f32) (a18 : FVec Ideal S256 .f32) (a19 : FVec Ideal S20x256 .f32) (a20 : FVec Ideal S20 .f32) (a21 : FVec Ideal S128x3 .f32) (a22 : FVec Ideal S128 .f32) (a23 : FVec Ideal S128x128 .f32) (a24 : FVec Ideal S128 .f32)
    (h : fn (F := Ideal) a0 a1 a2 a3 a4 a5 a6 a7 a8 a9 a10 a11 a12 a13 a14 a15 a16 a17 a18 a19 a20 a21 a22 a23 a24 = fun _ => 1#1) :
    ∀ i, ∃ r : ℝ, a3 i = ((r : ℝ) : EReal) :=
  (finite_of_pre a0 a1 a2 a3 a4 a5 a6 a7 a8 a9 a10 a11 a12 a13 a14 a15 a16 a17 a18 a19 a20 a21 a22 a23 a24 h).2.2.1

/-- Every entry of float argument 4 is a real number. -/
theorem finite_arg4 (a0 : FVec Ideal S20000x2000 .f32) (a1 : IVec S2x200000 32) (a2 : FVec Ideal S200000x6 .f32) (a3 : FVec Ideal S512x2000 .f32) (a4 : FVec Ideal S512 .f32) (a5 : FVec Ideal S512x2000 .f32) (a6 : FVec Ideal S512 .f32) (a7 : FVec Ideal S512x1024 .f32) (a8 : FVec Ideal S512 .f32) (a9 : FVec Ideal S3x512x16 .f32) (a10 : FVec Ideal S3x16x16 .f32) (a11 : FVec Ideal S3x16x16 .f32) (a12 : FVec Ideal S3x16x16 .f32) (a13 : FVec Ideal S256x64 .f32) (a14 : FVec Ideal S256 .f32) (a15 : FVec Ideal S2x256 .f32) (a16 : FVec Ideal S2 .f32) (a17 : FVec Ideal S256x512 .f32) (a18 : FVec Ideal S256 .f32) (a19 : FVec Ideal S20x256 .f32) (a20 : FVec Ideal S20 .f32) (a21 : FVec Ideal S128x3 .f32) (a22 : FVec Ideal S128 .f32) (a23 : FVec Ideal S128x128 .f32) (a24 : FVec Ideal S128 .f32)
    (h : fn (F := Ideal) a0 a1 a2 a3 a4 a5 a6 a7 a8 a9 a10 a11 a12 a13 a14 a15 a16 a17 a18 a19 a20 a21 a22 a23 a24 = fun _ => 1#1) :
    ∀ i, ∃ r : ℝ, a4 i = ((r : ℝ) : EReal) :=
  (finite_of_pre a0 a1 a2 a3 a4 a5 a6 a7 a8 a9 a10 a11 a12 a13 a14 a15 a16 a17 a18 a19 a20 a21 a22 a23 a24 h).2.2.2.1

/-- Every entry of float argument 5 is a real number. -/
theorem finite_arg5 (a0 : FVec Ideal S20000x2000 .f32) (a1 : IVec S2x200000 32) (a2 : FVec Ideal S200000x6 .f32) (a3 : FVec Ideal S512x2000 .f32) (a4 : FVec Ideal S512 .f32) (a5 : FVec Ideal S512x2000 .f32) (a6 : FVec Ideal S512 .f32) (a7 : FVec Ideal S512x1024 .f32) (a8 : FVec Ideal S512 .f32) (a9 : FVec Ideal S3x512x16 .f32) (a10 : FVec Ideal S3x16x16 .f32) (a11 : FVec Ideal S3x16x16 .f32) (a12 : FVec Ideal S3x16x16 .f32) (a13 : FVec Ideal S256x64 .f32) (a14 : FVec Ideal S256 .f32) (a15 : FVec Ideal S2x256 .f32) (a16 : FVec Ideal S2 .f32) (a17 : FVec Ideal S256x512 .f32) (a18 : FVec Ideal S256 .f32) (a19 : FVec Ideal S20x256 .f32) (a20 : FVec Ideal S20 .f32) (a21 : FVec Ideal S128x3 .f32) (a22 : FVec Ideal S128 .f32) (a23 : FVec Ideal S128x128 .f32) (a24 : FVec Ideal S128 .f32)
    (h : fn (F := Ideal) a0 a1 a2 a3 a4 a5 a6 a7 a8 a9 a10 a11 a12 a13 a14 a15 a16 a17 a18 a19 a20 a21 a22 a23 a24 = fun _ => 1#1) :
    ∀ i, ∃ r : ℝ, a5 i = ((r : ℝ) : EReal) :=
  (finite_of_pre a0 a1 a2 a3 a4 a5 a6 a7 a8 a9 a10 a11 a12 a13 a14 a15 a16 a17 a18 a19 a20 a21 a22 a23 a24 h).2.2.2.2.1

/-- Every entry of float argument 6 is a real number. -/
theorem finite_arg6 (a0 : FVec Ideal S20000x2000 .f32) (a1 : IVec S2x200000 32) (a2 : FVec Ideal S200000x6 .f32) (a3 : FVec Ideal S512x2000 .f32) (a4 : FVec Ideal S512 .f32) (a5 : FVec Ideal S512x2000 .f32) (a6 : FVec Ideal S512 .f32) (a7 : FVec Ideal S512x1024 .f32) (a8 : FVec Ideal S512 .f32) (a9 : FVec Ideal S3x512x16 .f32) (a10 : FVec Ideal S3x16x16 .f32) (a11 : FVec Ideal S3x16x16 .f32) (a12 : FVec Ideal S3x16x16 .f32) (a13 : FVec Ideal S256x64 .f32) (a14 : FVec Ideal S256 .f32) (a15 : FVec Ideal S2x256 .f32) (a16 : FVec Ideal S2 .f32) (a17 : FVec Ideal S256x512 .f32) (a18 : FVec Ideal S256 .f32) (a19 : FVec Ideal S20x256 .f32) (a20 : FVec Ideal S20 .f32) (a21 : FVec Ideal S128x3 .f32) (a22 : FVec Ideal S128 .f32) (a23 : FVec Ideal S128x128 .f32) (a24 : FVec Ideal S128 .f32)
    (h : fn (F := Ideal) a0 a1 a2 a3 a4 a5 a6 a7 a8 a9 a10 a11 a12 a13 a14 a15 a16 a17 a18 a19 a20 a21 a22 a23 a24 = fun _ => 1#1) :
    ∀ i, ∃ r : ℝ, a6 i = ((r : ℝ) : EReal) :=
  (finite_of_pre a0 a1 a2 a3 a4 a5 a6 a7 a8 a9 a10 a11 a12 a13 a14 a15 a16 a17 a18 a19 a20 a21 a22 a23 a24 h).2.2.2.2.2.1

/-- Every entry of float argument 7 is a real number. -/
theorem finite_arg7 (a0 : FVec Ideal S20000x2000 .f32) (a1 : IVec S2x200000 32) (a2 : FVec Ideal S200000x6 .f32) (a3 : FVec Ideal S512x2000 .f32) (a4 : FVec Ideal S512 .f32) (a5 : FVec Ideal S512x2000 .f32) (a6 : FVec Ideal S512 .f32) (a7 : FVec Ideal S512x1024 .f32) (a8 : FVec Ideal S512 .f32) (a9 : FVec Ideal S3x512x16 .f32) (a10 : FVec Ideal S3x16x16 .f32) (a11 : FVec Ideal S3x16x16 .f32) (a12 : FVec Ideal S3x16x16 .f32) (a13 : FVec Ideal S256x64 .f32) (a14 : FVec Ideal S256 .f32) (a15 : FVec Ideal S2x256 .f32) (a16 : FVec Ideal S2 .f32) (a17 : FVec Ideal S256x512 .f32) (a18 : FVec Ideal S256 .f32) (a19 : FVec Ideal S20x256 .f32) (a20 : FVec Ideal S20 .f32) (a21 : FVec Ideal S128x3 .f32) (a22 : FVec Ideal S128 .f32) (a23 : FVec Ideal S128x128 .f32) (a24 : FVec Ideal S128 .f32)
    (h : fn (F := Ideal) a0 a1 a2 a3 a4 a5 a6 a7 a8 a9 a10 a11 a12 a13 a14 a15 a16 a17 a18 a19 a20 a21 a22 a23 a24 = fun _ => 1#1) :
    ∀ i, ∃ r : ℝ, a7 i = ((r : ℝ) : EReal) :=
  (finite_of_pre a0 a1 a2 a3 a4 a5 a6 a7 a8 a9 a10 a11 a12 a13 a14 a15 a16 a17 a18 a19 a20 a21 a22 a23 a24 h).2.2.2.2.2.2.1

/-- Every entry of float argument 8 is a real number. -/
theorem finite_arg8 (a0 : FVec Ideal S20000x2000 .f32) (a1 : IVec S2x200000 32) (a2 : FVec Ideal S200000x6 .f32) (a3 : FVec Ideal S512x2000 .f32) (a4 : FVec Ideal S512 .f32) (a5 : FVec Ideal S512x2000 .f32) (a6 : FVec Ideal S512 .f32) (a7 : FVec Ideal S512x1024 .f32) (a8 : FVec Ideal S512 .f32) (a9 : FVec Ideal S3x512x16 .f32) (a10 : FVec Ideal S3x16x16 .f32) (a11 : FVec Ideal S3x16x16 .f32) (a12 : FVec Ideal S3x16x16 .f32) (a13 : FVec Ideal S256x64 .f32) (a14 : FVec Ideal S256 .f32) (a15 : FVec Ideal S2x256 .f32) (a16 : FVec Ideal S2 .f32) (a17 : FVec Ideal S256x512 .f32) (a18 : FVec Ideal S256 .f32) (a19 : FVec Ideal S20x256 .f32) (a20 : FVec Ideal S20 .f32) (a21 : FVec Ideal S128x3 .f32) (a22 : FVec Ideal S128 .f32) (a23 : FVec Ideal S128x128 .f32) (a24 : FVec Ideal S128 .f32)
    (h : fn (F := Ideal) a0 a1 a2 a3 a4 a5 a6 a7 a8 a9 a10 a11 a12 a13 a14 a15 a16 a17 a18 a19 a20 a21 a22 a23 a24 = fun _ => 1#1) :
    ∀ i, ∃ r : ℝ, a8 i = ((r : ℝ) : EReal) :=
  (finite_of_pre a0 a1 a2 a3 a4 a5 a6 a7 a8 a9 a10 a11 a12 a13 a14 a15 a16 a17 a18 a19 a20 a21 a22 a23 a24 h).2.2.2.2.2.2.2.1

/-- Every entry of float argument 9 is a real number. -/
theorem finite_arg9 (a0 : FVec Ideal S20000x2000 .f32) (a1 : IVec S2x200000 32) (a2 : FVec Ideal S200000x6 .f32) (a3 : FVec Ideal S512x2000 .f32) (a4 : FVec Ideal S512 .f32) (a5 : FVec Ideal S512x2000 .f32) (a6 : FVec Ideal S512 .f32) (a7 : FVec Ideal S512x1024 .f32) (a8 : FVec Ideal S512 .f32) (a9 : FVec Ideal S3x512x16 .f32) (a10 : FVec Ideal S3x16x16 .f32) (a11 : FVec Ideal S3x16x16 .f32) (a12 : FVec Ideal S3x16x16 .f32) (a13 : FVec Ideal S256x64 .f32) (a14 : FVec Ideal S256 .f32) (a15 : FVec Ideal S2x256 .f32) (a16 : FVec Ideal S2 .f32) (a17 : FVec Ideal S256x512 .f32) (a18 : FVec Ideal S256 .f32) (a19 : FVec Ideal S20x256 .f32) (a20 : FVec Ideal S20 .f32) (a21 : FVec Ideal S128x3 .f32) (a22 : FVec Ideal S128 .f32) (a23 : FVec Ideal S128x128 .f32) (a24 : FVec Ideal S128 .f32)
    (h : fn (F := Ideal) a0 a1 a2 a3 a4 a5 a6 a7 a8 a9 a10 a11 a12 a13 a14 a15 a16 a17 a18 a19 a20 a21 a22 a23 a24 = fun _ => 1#1) :
    ∀ i, ∃ r : ℝ, a9 i = ((r : ℝ) : EReal) :=
  (finite_of_pre a0 a1 a2 a3 a4 a5 a6 a7 a8 a9 a10 a11 a12 a13 a14 a15 a16 a17 a18 a19 a20 a21 a22 a23 a24 h).2.2.2.2.2.2.2.2.1

/-- Every entry of float argument 10 is a real number. -/
theorem finite_arg10 (a0 : FVec Ideal S20000x2000 .f32) (a1 : IVec S2x200000 32) (a2 : FVec Ideal S200000x6 .f32) (a3 : FVec Ideal S512x2000 .f32) (a4 : FVec Ideal S512 .f32) (a5 : FVec Ideal S512x2000 .f32) (a6 : FVec Ideal S512 .f32) (a7 : FVec Ideal S512x1024 .f32) (a8 : FVec Ideal S512 .f32) (a9 : FVec Ideal S3x512x16 .f32) (a10 : FVec Ideal S3x16x16 .f32) (a11 : FVec Ideal S3x16x16 .f32) (a12 : FVec Ideal S3x16x16 .f32) (a13 : FVec Ideal S256x64 .f32) (a14 : FVec Ideal S256 .f32) (a15 : FVec Ideal S2x256 .f32) (a16 : FVec Ideal S2 .f32) (a17 : FVec Ideal S256x512 .f32) (a18 : FVec Ideal S256 .f32) (a19 : FVec Ideal S20x256 .f32) (a20 : FVec Ideal S20 .f32) (a21 : FVec Ideal S128x3 .f32) (a22 : FVec Ideal S128 .f32) (a23 : FVec Ideal S128x128 .f32) (a24 : FVec Ideal S128 .f32)
    (h : fn (F := Ideal) a0 a1 a2 a3 a4 a5 a6 a7 a8 a9 a10 a11 a12 a13 a14 a15 a16 a17 a18 a19 a20 a21 a22 a23 a24 = fun _ => 1#1) :
    ∀ i, ∃ r : ℝ, a10 i = ((r : ℝ) : EReal) :=
  (finite_of_pre a0 a1 a2 a3 a4 a5 a6 a7 a8 a9 a10 a11 a12 a13 a14 a15 a16 a17 a18 a19 a20 a21 a22 a23 a24 h).2.2.2.2.2.2.2.2.2.1

/-- Every entry of float argument 11 is a real number. -/
theorem finite_arg11 (a0 : FVec Ideal S20000x2000 .f32) (a1 : IVec S2x200000 32) (a2 : FVec Ideal S200000x6 .f32) (a3 : FVec Ideal S512x2000 .f32) (a4 : FVec Ideal S512 .f32) (a5 : FVec Ideal S512x2000 .f32) (a6 : FVec Ideal S512 .f32) (a7 : FVec Ideal S512x1024 .f32) (a8 : FVec Ideal S512 .f32) (a9 : FVec Ideal S3x512x16 .f32) (a10 : FVec Ideal S3x16x16 .f32) (a11 : FVec Ideal S3x16x16 .f32) (a12 : FVec Ideal S3x16x16 .f32) (a13 : FVec Ideal S256x64 .f32) (a14 : FVec Ideal S256 .f32) (a15 : FVec Ideal S2x256 .f32) (a16 : FVec Ideal S2 .f32) (a17 : FVec Ideal S256x512 .f32) (a18 : FVec Ideal S256 .f32) (a19 : FVec Ideal S20x256 .f32) (a20 : FVec Ideal S20 .f32) (a21 : FVec Ideal S128x3 .f32) (a22 : FVec Ideal S128 .f32) (a23 : FVec Ideal S128x128 .f32) (a24 : FVec Ideal S128 .f32)
    (h : fn (F := Ideal) a0 a1 a2 a3 a4 a5 a6 a7 a8 a9 a10 a11 a12 a13 a14 a15 a16 a17 a18 a19 a20 a21 a22 a23 a24 = fun _ => 1#1) :
    ∀ i, ∃ r : ℝ, a11 i = ((r : ℝ) : EReal) :=
  (finite_of_pre a0 a1 a2 a3 a4 a5 a6 a7 a8 a9 a10 a11 a12 a13 a14 a15 a16 a17 a18 a19 a20 a21 a22 a23 a24 h).2.2.2.2.2.2.2.2.2.2.1

/-- Every entry of float argument 12 is a real number. -/
theorem finite_arg12 (a0 : FVec Ideal S20000x2000 .f32) (a1 : IVec S2x200000 32) (a2 : FVec Ideal S200000x6 .f32) (a3 : FVec Ideal S512x2000 .f32) (a4 : FVec Ideal S512 .f32) (a5 : FVec Ideal S512x2000 .f32) (a6 : FVec Ideal S512 .f32) (a7 : FVec Ideal S512x1024 .f32) (a8 : FVec Ideal S512 .f32) (a9 : FVec Ideal S3x512x16 .f32) (a10 : FVec Ideal S3x16x16 .f32) (a11 : FVec Ideal S3x16x16 .f32) (a12 : FVec Ideal S3x16x16 .f32) (a13 : FVec Ideal S256x64 .f32) (a14 : FVec Ideal S256 .f32) (a15 : FVec Ideal S2x256 .f32) (a16 : FVec Ideal S2 .f32) (a17 : FVec Ideal S256x512 .f32) (a18 : FVec Ideal S256 .f32) (a19 : FVec Ideal S20x256 .f32) (a20 : FVec Ideal S20 .f32) (a21 : FVec Ideal S128x3 .f32) (a22 : FVec Ideal S128 .f32) (a23 : FVec Ideal S128x128 .f32) (a24 : FVec Ideal S128 .f32)
    (h : fn (F := Ideal) a0 a1 a2 a3 a4 a5 a6 a7 a8 a9 a10 a11 a12 a13 a14 a15 a16 a17 a18 a19 a20 a21 a22 a23 a24 = fun _ => 1#1) :
    ∀ i, ∃ r : ℝ, a12 i = ((r : ℝ) : EReal) :=
  (finite_of_pre a0 a1 a2 a3 a4 a5 a6 a7 a8 a9 a10 a11 a12 a13 a14 a15 a16 a17 a18 a19 a20 a21 a22 a23 a24 h).2.2.2.2.2.2.2.2.2.2.2.1

/-- Every entry of float argument 13 is a real number. -/
theorem finite_arg13 (a0 : FVec Ideal S20000x2000 .f32) (a1 : IVec S2x200000 32) (a2 : FVec Ideal S200000x6 .f32) (a3 : FVec Ideal S512x2000 .f32) (a4 : FVec Ideal S512 .f32) (a5 : FVec Ideal S512x2000 .f32) (a6 : FVec Ideal S512 .f32) (a7 : FVec Ideal S512x1024 .f32) (a8 : FVec Ideal S512 .f32) (a9 : FVec Ideal S3x512x16 .f32) (a10 : FVec Ideal S3x16x16 .f32) (a11 : FVec Ideal S3x16x16 .f32) (a12 : FVec Ideal S3x16x16 .f32) (a13 : FVec Ideal S256x64 .f32) (a14 : FVec Ideal S256 .f32) (a15 : FVec Ideal S2x256 .f32) (a16 : FVec Ideal S2 .f32) (a17 : FVec Ideal S256x512 .f32) (a18 : FVec Ideal S256 .f32) (a19 : FVec Ideal S20x256 .f32) (a20 : FVec Ideal S20 .f32) (a21 : FVec Ideal S128x3 .f32) (a22 : FVec Ideal S128 .f32) (a23 : FVec Ideal S128x128 .f32) (a24 : FVec Ideal S128 .f32)
    (h : fn (F := Ideal) a0 a1 a2 a3 a4 a5 a6 a7 a8 a9 a10 a11 a12 a13 a14 a15 a16 a17 a18 a19 a20 a21 a22 a23 a24 = fun _ => 1#1) :
    ∀ i, ∃ r : ℝ, a13 i = ((r : ℝ) : EReal) :=
  (finite_of_pre a0 a1 a2 a3 a4 a5 a6 a7 a8 a9 a10 a11 a12 a13 a14 a15 a16 a17 a18 a19 a20 a21 a22 a23 a24 h).2.2.2.2.2.2.2.2.2.2.2.2.1

/-- Every entry of float argument 14 is a real number. -/
theorem finite_arg14 (a0 : FVec Ideal S20000x2000 .f32) (a1 : IVec S2x200000 32) (a2 : FVec Ideal S200000x6 .f32) (a3 : FVec Ideal S512x2000 .f32) (a4 : FVec Ideal S512 .f32) (a5 : FVec Ideal S512x2000 .f32) (a6 : FVec Ideal S512 .f32) (a7 : FVec Ideal S512x1024 .f32) (a8 : FVec Ideal S512 .f32) (a9 : FVec Ideal S3x512x16 .f32) (a10 : FVec Ideal S3x16x16 .f32) (a11 : FVec Ideal S3x16x16 .f32) (a12 : FVec Ideal S3x16x16 .f32) (a13 : FVec Ideal S256x64 .f32) (a14 : FVec Ideal S256 .f32) (a15 : FVec Ideal S2x256 .f32) (a16 : FVec Ideal S2 .f32) (a17 : FVec Ideal S256x512 .f32) (a18 : FVec Ideal S256 .f32) (a19 : FVec Ideal S20x256 .f32) (a20 : FVec Ideal S20 .f32) (a21 : FVec Ideal S128x3 .f32) (a22 : FVec Ideal S128 .f32) (a23 : FVec Ideal S128x128 .f32) (a24 : FVec Ideal S128 .f32)
    (h : fn (F := Ideal) a0 a1 a2 a3 a4 a5 a6 a7 a8 a9 a10 a11 a12 a13 a14 a15 a16 a17 a18 a19 a20 a21 a22 a23 a24 = fun _ => 1#1) :
    ∀ i, ∃ r : ℝ, a14 i = ((r : ℝ) : EReal) :=
  (finite_of_pre a0 a1 a2 a3 a4 a5 a6 a7 a8 a9 a10 a11 a12 a13 a14 a15 a16 a17 a18 a19 a20 a21 a22 a23 a24 h).2.2.2.2.2.2.2.2.2.2.2.2.2.1

/-- Every entry of float argument 15 is a real number. -/
theorem finite_arg15 (a0 : FVec Ideal S20000x2000 .f32) (a1 : IVec S2x200000 32) (a2 : FVec Ideal S200000x6 .f32) (a3 : FVec Ideal S512x2000 .f32) (a4 : FVec Ideal S512 .f32) (a5 : FVec Ideal S512x2000 .f32) (a6 : FVec Ideal S512 .f32) (a7 : FVec Ideal S512x1024 .f32) (a8 : FVec Ideal S512 .f32) (a9 : FVec Ideal S3x512x16 .f32) (a10 : FVec Ideal S3x16x16 .f32) (a11 : FVec Ideal S3x16x16 .f32) (a12 : FVec Ideal S3x16x16 .f32) (a13 : FVec Ideal S256x64 .f32) (a14 : FVec Ideal S256 .f32) (a15 : FVec Ideal S2x256 .f32) (a16 : FVec Ideal S2 .f32) (a17 : FVec Ideal S256x512 .f32) (a18 : FVec Ideal S256 .f32) (a19 : FVec Ideal S20x256 .f32) (a20 : FVec Ideal S20 .f32) (a21 : FVec Ideal S128x3 .f32) (a22 : FVec Ideal S128 .f32) (a23 : FVec Ideal S128x128 .f32) (a24 : FVec Ideal S128 .f32)
    (h : fn (F := Ideal) a0 a1 a2 a3 a4 a5 a6 a7 a8 a9 a10 a11 a12 a13 a14 a15 a16 a17 a18 a19 a20 a21 a22 a23 a24 = fun _ => 1#1) :
    ∀ i, ∃ r : ℝ, a15 i = ((r : ℝ) : EReal) :=
  (finite_of_pre a0 a1 a2 a3 a4 a5 a6 a7 a8 a9 a10 a11 a12 a13 a14 a15 a16 a17 a18 a19 a20 a21 a22 a23 a24 h).2.2.2.2.2.2.2.2.2.2.2.2.2.2.1

/-- Every entry of float argument 16 is a real number. -/
theorem finite_arg16 (a0 : FVec Ideal S20000x2000 .f32) (a1 : IVec S2x200000 32) (a2 : FVec Ideal S200000x6 .f32) (a3 : FVec Ideal S512x2000 .f32) (a4 : FVec Ideal S512 .f32) (a5 : FVec Ideal S512x2000 .f32) (a6 : FVec Ideal S512 .f32) (a7 : FVec Ideal S512x1024 .f32) (a8 : FVec Ideal S512 .f32) (a9 : FVec Ideal S3x512x16 .f32) (a10 : FVec Ideal S3x16x16 .f32) (a11 : FVec Ideal S3x16x16 .f32) (a12 : FVec Ideal S3x16x16 .f32) (a13 : FVec Ideal S256x64 .f32) (a14 : FVec Ideal S256 .f32) (a15 : FVec Ideal S2x256 .f32) (a16 : FVec Ideal S2 .f32) (a17 : FVec Ideal S256x512 .f32) (a18 : FVec Ideal S256 .f32) (a19 : FVec Ideal S20x256 .f32) (a20 : FVec Ideal S20 .f32) (a21 : FVec Ideal S128x3 .f32) (a22 : FVec Ideal S128 .f32) (a23 : FVec Ideal S128x128 .f32) (a24 : FVec Ideal S128 .f32)
    (h : fn (F := Ideal) a0 a1 a2 a3 a4 a5 a6 a7 a8 a9 a10 a11 a12 a13 a14 a15 a16 a17 a18 a19 a20 a21 a22 a23 a24 = fun _ => 1#1) :
    ∀ i, ∃ r : ℝ, a16 i = ((r : ℝ) : EReal) :=
  (finite_of_pre a0 a1 a2 a3 a4 a5 a6 a7 a8 a9 a10 a11 a12 a13 a14 a15 a16 a17 a18 a19 a20 a21 a22 a23 a24 h).2.2.2.2.2.2.2.2.2.2.2.2.2.2.2.1

/-- Every entry of float argument 17 is a real number. -/
theorem finite_arg17 (a0 : FVec Ideal S20000x2000 .f32) (a1 : IVec S2x200000 32) (a2 : FVec Ideal S200000x6 .f32) (a3 : FVec Ideal S512x2000 .f32) (a4 : FVec Ideal S512 .f32) (a5 : FVec Ideal S512x2000 .f32) (a6 : FVec Ideal S512 .f32) (a7 : FVec Ideal S512x1024 .f32) (a8 : FVec Ideal S512 .f32) (a9 : FVec Ideal S3x512x16 .f32) (a10 : FVec Ideal S3x16x16 .f32) (a11 : FVec Ideal S3x16x16 .f32) (a12 : FVec Ideal S3x16x16 .f32) (a13 : FVec Ideal S256x64 .f32) (a14 : FVec Ideal S256 .f32) (a15 : FVec Ideal S2x256 .f32) (a16 : FVec Ideal S2 .f32) (a17 : FVec Ideal S256x512 .f32) (a18 : FVec Ideal S256 .f32) (a19 : FVec Ideal S20x256 .f32) (a20 : FVec Ideal S20 .f32) (a21 : FVec Ideal S128x3 .f32) (a22 : FVec Ideal S128 .f32) (a23 : FVec Ideal S128x128 .f32) (a24 : FVec Ideal S128 .f32)
    (h : fn (F := Ideal) a0 a1 a2 a3 a4 a5 a6 a7 a8 a9 a10 a11 a12 a13 a14 a15 a16 a17 a18 a19 a20 a21 a22 a23 a24 = fun _ => 1#1) :
    ∀ i, ∃ r : ℝ, a17 i = ((r : ℝ) : EReal) :=
  (finite_of_pre a0 a1 a2 a3 a4 a5 a6 a7 a8 a9 a10 a11 a12 a13 a14 a15 a16 a17 a18 a19 a20 a21 a22 a23 a24 h).2.2.2.2.2.2.2.2.2.2.2.2.2.2.2.2.1

/-- Every entry of float argument 18 is a real number. -/
theorem finite_arg18 (a0 : FVec Ideal S20000x2000 .f32) (a1 : IVec S2x200000 32) (a2 : FVec Ideal S200000x6 .f32) (a3 : FVec Ideal S512x2000 .f32) (a4 : FVec Ideal S512 .f32) (a5 : FVec Ideal S512x2000 .f32) (a6 : FVec Ideal S512 .f32) (a7 : FVec Ideal S512x1024 .f32) (a8 : FVec Ideal S512 .f32) (a9 : FVec Ideal S3x512x16 .f32) (a10 : FVec Ideal S3x16x16 .f32) (a11 : FVec Ideal S3x16x16 .f32) (a12 : FVec Ideal S3x16x16 .f32) (a13 : FVec Ideal S256x64 .f32) (a14 : FVec Ideal S256 .f32) (a15 : FVec Ideal S2x256 .f32) (a16 : FVec Ideal S2 .f32) (a17 : FVec Ideal S256x512 .f32) (a18 : FVec Ideal S256 .f32) (a19 : FVec Ideal S20x256 .f32) (a20 : FVec Ideal S20 .f32) (a21 : FVec Ideal S128x3 .f32) (a22 : FVec Ideal S128 .f32) (a23 : FVec Ideal S128x128 .f32) (a24 : FVec Ideal S128 .f32)
    (h : fn (F := Ideal) a0 a1 a2 a3 a4 a5 a6 a7 a8 a9 a10 a11 a12 a13 a14 a15 a16 a17 a18 a19 a20 a21 a22 a23 a24 = fun _ => 1#1) :
    ∀ i, ∃ r : ℝ, a18 i = ((r : ℝ) : EReal) :=
  (finite_of_pre a0 a1 a2 a3 a4 a5 a6 a7 a8 a9 a10 a11 a12 a13 a14 a15 a16 a17 a18 a19 a20 a21 a22 a23 a24 h).2.2.2.2.2.2.2.2.2.2.2.2.2.2.2.2.2.1

/-- Every entry of float argument 19 is a real number. -/
theorem finite_arg19 (a0 : FVec Ideal S20000x2000 .f32) (a1 : IVec S2x200000 32) (a2 : FVec Ideal S200000x6 .f32) (a3 : FVec Ideal S512x2000 .f32) (a4 : FVec Ideal S512 .f32) (a5 : FVec Ideal S512x2000 .f32) (a6 : FVec Ideal S512 .f32) (a7 : FVec Ideal S512x1024 .f32) (a8 : FVec Ideal S512 .f32) (a9 : FVec Ideal S3x512x16 .f32) (a10 : FVec Ideal S3x16x16 .f32) (a11 : FVec Ideal S3x16x16 .f32) (a12 : FVec Ideal S3x16x16 .f32) (a13 : FVec Ideal S256x64 .f32) (a14 : FVec Ideal S256 .f32) (a15 : FVec Ideal S2x256 .f32) (a16 : FVec Ideal S2 .f32) (a17 : FVec Ideal S256x512 .f32) (a18 : FVec Ideal S256 .f32) (a19 : FVec Ideal S20x256 .f32) (a20 : FVec Ideal S20 .f32) (a21 : FVec Ideal S128x3 .f32) (a22 : FVec Ideal S128 .f32) (a23 : FVec Ideal S128x128 .f32) (a24 : FVec Ideal S128 .f32)
    (h : fn (F := Ideal) a0 a1 a2 a3 a4 a5 a6 a7 a8 a9 a10 a11 a12 a13 a14 a15 a16 a17 a18 a19 a20 a21 a22 a23 a24 = fun _ => 1#1) :
    ∀ i, ∃ r : ℝ, a19 i = ((r : ℝ) : EReal) :=
  (finite_of_pre a0 a1 a2 a3 a4 a5 a6 a7 a8 a9 a10 a11 a12 a13 a14 a15 a16 a17 a18 a19 a20 a21 a22 a23 a24 h).2.2.2.2.2.2.2.2.2.2.2.2.2.2.2.2.2.2.1

/-- Every entry of float argument 20 is a real number. -/
theorem finite_arg20 (a0 : FVec Ideal S20000x2000 .f32) (a1 : IVec S2x200000 32) (a2 : FVec Ideal S200000x6 .f32) (a3 : FVec Ideal S512x2000 .f32) (a4 : FVec Ideal S512 .f32) (a5 : FVec Ideal S512x2000 .f32) (a6 : FVec Ideal S512 .f32) (a7 : FVec Ideal S512x1024 .f32) (a8 : FVec Ideal S512 .f32) (a9 : FVec Ideal S3x512x16 .f32) (a10 : FVec Ideal S3x16x16 .f32) (a11 : FVec Ideal S3x16x16 .f32) (a12 : FVec Ideal S3x16x16 .f32) (a13 : FVec Ideal S256x64 .f32) (a14 : FVec Ideal S256 .f32) (a15 : FVec Ideal S2x256 .f32) (a16 : FVec Ideal S2 .f32) (a17 : FVec Ideal S256x512 .f32) (a18 : FVec Ideal S256 .f32) (a19 : FVec Ideal S20x256 .f32) (a20 : FVec Ideal S20 .f32) (a21 : FVec Ideal S128x3 .f32) (a22 : FVec Ideal S128 .f32) (a23 : FVec Ideal S128x128 .f32) (a24 : FVec Ideal S128 .f32)
    (h : fn (F := Ideal) a0 a1 a2 a3 a4 a5 a6 a7 a8 a9 a10 a11 a12 a13 a14 a15 a16 a17 a18 a19 a20 a21 a22 a23 a24 = fun _ => 1#1) :
    ∀ i, ∃ r : ℝ, a20 i = ((r : ℝ) : EReal) :=
  (finite_of_pre a0 a1 a2 a3 a4 a5 a6 a7 a8 a9 a10 a11 a12 a13 a14 a15 a16 a17 a18 a19 a20 a21 a22 a23 a24 h).2.2.2.2.2.2.2.2.2.2.2.2.2.2.2.2.2.2.2.1

/-- Every entry of float argument 21 is a real number. -/
theorem finite_arg21 (a0 : FVec Ideal S20000x2000 .f32) (a1 : IVec S2x200000 32) (a2 : FVec Ideal S200000x6 .f32) (a3 : FVec Ideal S512x2000 .f32) (a4 : FVec Ideal S512 .f32) (a5 : FVec Ideal S512x2000 .f32) (a6 : FVec Ideal S512 .f32) (a7 : FVec Ideal S512x1024 .f32) (a8 : FVec Ideal S512 .f32) (a9 : FVec Ideal S3x512x16 .f32) (a10 : FVec Ideal S3x16x16 .f32) (a11 : FVec Ideal S3x16x16 .f32) (a12 : FVec Ideal S3x16x16 .f32) (a13 : FVec Ideal S256x64 .f32) (a14 : FVec Ideal S256 .f32) (a15 : FVec Ideal S2x256 .f32) (a16 : FVec Ideal S2 .f32) (a17 : FVec Ideal S256x512 .f32) (a18 : FVec Ideal S256 .f32) (a19 : FVec Ideal S20x256 .f32) (a20 : FVec Ideal S20 .f32) (a21 : FVec Ideal S128x3 .f32) (a22 : FVec Ideal S128 .f32) (a23 : FVec Ideal S128x128 .f32) (a24 : FVec Ideal S128 .f32)
    (h : fn (F := Ideal) a0 a1 a2 a3 a4 a5 a6 a7 a8 a9 a10 a11 a12 a13 a14 a15 a16 a17 a18 a19 a20 a21 a22 a23 a24 = fun _ => 1#1) :
    ∀ i, ∃ r : ℝ, a21 i = ((r : ℝ) : EReal) :=
  (finite_of_pre a0 a1 a2 a3 a4 a5 a6 a7 a8 a9 a10 a11 a12 a13 a14 a15 a16 a17 a18 a19 a20 a21 a22 a23 a24 h).2.2.2.2.2.2.2.2.2.2.2.2.2.2.2.2.2.2.2.2.1

/-- Every entry of float argument 22 is a real number. -/
theorem finite_arg22 (a0 : FVec Ideal S20000x2000 .f32) (a1 : IVec S2x200000 32) (a2 : FVec Ideal S200000x6 .f32) (a3 : FVec Ideal S512x2000 .f32) (a4 : FVec Ideal S512 .f32) (a5 : FVec Ideal S512x2000 .f32) (a6 : FVec Ideal S512 .f32) (a7 : FVec Ideal S512x1024 .f32) (a8 : FVec Ideal S512 .f32) (a9 : FVec Ideal S3x512x16 .f32) (a10 : FVec Ideal S3x16x16 .f32) (a11 : FVec Ideal S3x16x16 .f32) (a12 : FVec Ideal S3x16x16 .f32) (a13 : FVec Ideal S256x64 .f32) (a14 : FVec Ideal S256 .f32) (a15 : FVec Ideal S2x256 .f32) (a16 : FVec Ideal S2 .f32) (a17 : FVec Ideal S256x512 .f32) (a18 : FVec Ideal S256 .f32) (a19 : FVec Ideal S20x256 .f32) (a20 : FVec Ideal S20 .f32) (a21 : FVec Ideal S128x3 .f32) (a22 : FVec Ideal S128 .f32) (a23 : FVec Ideal S128x128 .f32) (a24 : FVec Ideal S128 .f32)
    (h : fn (F := Ideal) a0 a1 a2 a3 a4 a5 a6 a7 a8 a9 a10 a11 a12 a13 a14 a15 a16 a17 a18 a19 a20 a21 a22 a23 a24 = fun _ => 1#1) :
    ∀ i, ∃ r : ℝ, a22 i = ((r : ℝ) : EReal) :=
  (finite_of_pre a0 a1 a2 a3 a4 a5 a6 a7 a8 a9 a10 a11 a12 a13 a14 a15 a16 a17 a18 a19 a20 a21 a22 a23 a24 h).2.2.2.2.2.2.2.2.2.2.2.2.2.2.2.2.2.2.2.2.2.1

/-- Every entry of float argument 23 is a real number. -/
theorem finite_arg23 (a0 : FVec Ideal S20000x2000 .f32) (a1 : IVec S2x200000 32) (a2 : FVec Ideal S200000x6 .f32) (a3 : FVec Ideal S512x2000 .f32) (a4 : FVec Ideal S512 .f32) (a5 : FVec Ideal S512x2000 .f32) (a6 : FVec Ideal S512 .f32) (a7 : FVec Ideal S512x1024 .f32) (a8 : FVec Ideal S512 .f32) (a9 : FVec Ideal S3x512x16 .f32) (a10 : FVec Ideal S3x16x16 .f32) (a11 : FVec Ideal S3x16x16 .f32) (a12 : FVec Ideal S3x16x16 .f32) (a13 : FVec Ideal S256x64 .f32) (a14 : FVec Ideal S256 .f32) (a15 : FVec Ideal S2x256 .f32) (a16 : FVec Ideal S2 .f32) (a17 : FVec Ideal S256x512 .f32) (a18 : FVec Ideal S256 .f32) (a19 : FVec Ideal S20x256 .f32) (a20 : FVec Ideal S20 .f32) (a21 : FVec Ideal S128x3 .f32) (a22 : FVec Ideal S128 .f32) (a23 : FVec Ideal S128x128 .f32) (a24 : FVec Ideal S128 .f32)
    (h : fn (F := Ideal) a0 a1 a2 a3 a4 a5 a6 a7 a8 a9 a10 a11 a12 a13 a14 a15 a16 a17 a18 a19 a20 a21 a22 a23 a24 = fun _ => 1#1) :
    ∀ i, ∃ r : ℝ, a23 i = ((r : ℝ) : EReal) :=
  (finite_of_pre a0 a1 a2 a3 a4 a5 a6 a7 a8 a9 a10 a11 a12 a13 a14 a15 a16 a17 a18 a19 a20 a21 a22 a23 a24 h).2.2.2.2.2.2.2.2.2.2.2.2.2.2.2.2.2.2.2.2.2.2.1

/-- Every entry of float argument 24 is a real number. -/
theorem finite_arg24 (a0 : FVec Ideal S20000x2000 .f32) (a1 : IVec S2x200000 32) (a2 : FVec Ideal S200000x6 .f32) (a3 : FVec Ideal S512x2000 .f32) (a4 : FVec Ideal S512 .f32) (a5 : FVec Ideal S512x2000 .f32) (a6 : FVec Ideal S512 .f32) (a7 : FVec Ideal S512x1024 .f32) (a8 : FVec Ideal S512 .f32) (a9 : FVec Ideal S3x512x16 .f32) (a10 : FVec Ideal S3x16x16 .f32) (a11 : FVec Ideal S3x16x16 .f32) (a12 : FVec Ideal S3x16x16 .f32) (a13 : FVec Ideal S256x64 .f32) (a14 : FVec Ideal S256 .f32) (a15 : FVec Ideal S2x256 .f32) (a16 : FVec Ideal S2 .f32) (a17 : FVec Ideal S256x512 .f32) (a18 : FVec Ideal S256 .f32) (a19 : FVec Ideal S20x256 .f32) (a20 : FVec Ideal S20 .f32) (a21 : FVec Ideal S128x3 .f32) (a22 : FVec Ideal S128 .f32) (a23 : FVec Ideal S128x128 .f32) (a24 : FVec Ideal S128 .f32)
    (h : fn (F := Ideal) a0 a1 a2 a3 a4 a5 a6 a7 a8 a9 a10 a11 a12 a13 a14 a15 a16 a17 a18 a19 a20 a21 a22 a23 a24 = fun _ => 1#1) :
    ∀ i, ∃ r : ℝ, a24 i = ((r : ℝ) : EReal) :=
  (finite_of_pre a0 a1 a2 a3 a4 a5 a6 a7 a8 a9 a10 a11 a12 a13 a14 a15 a16 a17 a18 a19 a20 a21 a22 a23 a24 h).2.2.2.2.2.2.2.2.2.2.2.2.2.2.2.2.2.2.2.2.2.2.2

/-! ## At the idealized kernel's initial memory -/

/-- Under the precondition, every entry of argument array 0 in the initial memory is a real number, on every device. -/
theorem real_arg0
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, ((m ((c.tc : Thread Cert.KernelIdeal.nD Cert.KernelIdeal.τ).loc Cert.KernelIdeal.main_arg0)) : S20000x2000.Idx → EReal) i = ((r : ℝ) : EReal) :=
  finite_arg0 _ _ _ _ _ _ _ _ _ _ _ _ _ _ _ _ _ _ _ _ _ _ _ _ _ (hpre c)

/-- Under the precondition, every entry of argument array 2 in the initial memory is a real number, on every device. -/
theorem real_arg2
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, ((m ((c.tc : Thread Cert.KernelIdeal.nD Cert.KernelIdeal.τ).loc Cert.KernelIdeal.main_arg2)) : S200000x6.Idx → EReal) i = ((r : ℝ) : EReal) :=
  finite_arg2 _ _ _ _ _ _ _ _ _ _ _ _ _ _ _ _ _ _ _ _ _ _ _ _ _ (hpre c)

/-- Under the precondition, every entry of argument array 3 in the initial memory is a real number, on every device. -/
theorem real_arg3
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, ((m ((c.tc : Thread Cert.KernelIdeal.nD Cert.KernelIdeal.τ).loc Cert.KernelIdeal.main_arg3)) : S512x2000.Idx → EReal) i = ((r : ℝ) : EReal) :=
  finite_arg3 _ _ _ _ _ _ _ _ _ _ _ _ _ _ _ _ _ _ _ _ _ _ _ _ _ (hpre c)

/-- Under the precondition, every entry of argument array 4 in the initial memory is a real number, on every device. -/
theorem real_arg4
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, ((m ((c.tc : Thread Cert.KernelIdeal.nD Cert.KernelIdeal.τ).loc Cert.KernelIdeal.main_arg4)) : S512.Idx → EReal) i = ((r : ℝ) : EReal) :=
  finite_arg4 _ _ _ _ _ _ _ _ _ _ _ _ _ _ _ _ _ _ _ _ _ _ _ _ _ (hpre c)

/-- Under the precondition, every entry of argument array 5 in the initial memory is a real number, on every device. -/
theorem real_arg5
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, ((m ((c.tc : Thread Cert.KernelIdeal.nD Cert.KernelIdeal.τ).loc Cert.KernelIdeal.main_arg5)) : S512x2000.Idx → EReal) i = ((r : ℝ) : EReal) :=
  finite_arg5 _ _ _ _ _ _ _ _ _ _ _ _ _ _ _ _ _ _ _ _ _ _ _ _ _ (hpre c)

/-- Under the precondition, every entry of argument array 6 in the initial memory is a real number, on every device. -/
theorem real_arg6
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, ((m ((c.tc : Thread Cert.KernelIdeal.nD Cert.KernelIdeal.τ).loc Cert.KernelIdeal.main_arg6)) : S512.Idx → EReal) i = ((r : ℝ) : EReal) :=
  finite_arg6 _ _ _ _ _ _ _ _ _ _ _ _ _ _ _ _ _ _ _ _ _ _ _ _ _ (hpre c)

/-- Under the precondition, every entry of argument array 7 in the initial memory is a real number, on every device. -/
theorem real_arg7
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, ((m ((c.tc : Thread Cert.KernelIdeal.nD Cert.KernelIdeal.τ).loc Cert.KernelIdeal.main_arg7)) : S512x1024.Idx → EReal) i = ((r : ℝ) : EReal) :=
  finite_arg7 _ _ _ _ _ _ _ _ _ _ _ _ _ _ _ _ _ _ _ _ _ _ _ _ _ (hpre c)

/-- Under the precondition, every entry of argument array 8 in the initial memory is a real number, on every device. -/
theorem real_arg8
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, ((m ((c.tc : Thread Cert.KernelIdeal.nD Cert.KernelIdeal.τ).loc Cert.KernelIdeal.main_arg8)) : S512.Idx → EReal) i = ((r : ℝ) : EReal) :=
  finite_arg8 _ _ _ _ _ _ _ _ _ _ _ _ _ _ _ _ _ _ _ _ _ _ _ _ _ (hpre c)

/-- Under the precondition, every entry of argument array 9 in the initial memory is a real number, on every device. -/
theorem real_arg9
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, ((m ((c.tc : Thread Cert.KernelIdeal.nD Cert.KernelIdeal.τ).loc Cert.KernelIdeal.main_arg9)) : S3x512x16.Idx → EReal) i = ((r : ℝ) : EReal) :=
  finite_arg9 _ _ _ _ _ _ _ _ _ _ _ _ _ _ _ _ _ _ _ _ _ _ _ _ _ (hpre c)

/-- Under the precondition, every entry of argument array 10 in the initial memory is a real number, on every device. -/
theorem real_arg10
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, ((m ((c.tc : Thread Cert.KernelIdeal.nD Cert.KernelIdeal.τ).loc Cert.KernelIdeal.main_arg10)) : S3x16x16.Idx → EReal) i = ((r : ℝ) : EReal) :=
  finite_arg10 _ _ _ _ _ _ _ _ _ _ _ _ _ _ _ _ _ _ _ _ _ _ _ _ _ (hpre c)

/-- Under the precondition, every entry of argument array 11 in the initial memory is a real number, on every device. -/
theorem real_arg11
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, ((m ((c.tc : Thread Cert.KernelIdeal.nD Cert.KernelIdeal.τ).loc Cert.KernelIdeal.main_arg11)) : S3x16x16.Idx → EReal) i = ((r : ℝ) : EReal) :=
  finite_arg11 _ _ _ _ _ _ _ _ _ _ _ _ _ _ _ _ _ _ _ _ _ _ _ _ _ (hpre c)

/-- Under the precondition, every entry of argument array 12 in the initial memory is a real number, on every device. -/
theorem real_arg12
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, ((m ((c.tc : Thread Cert.KernelIdeal.nD Cert.KernelIdeal.τ).loc Cert.KernelIdeal.main_arg12)) : S3x16x16.Idx → EReal) i = ((r : ℝ) : EReal) :=
  finite_arg12 _ _ _ _ _ _ _ _ _ _ _ _ _ _ _ _ _ _ _ _ _ _ _ _ _ (hpre c)

/-- Under the precondition, every entry of argument array 13 in the initial memory is a real number, on every device. -/
theorem real_arg13
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, ((m ((c.tc : Thread Cert.KernelIdeal.nD Cert.KernelIdeal.τ).loc Cert.KernelIdeal.main_arg13)) : S256x64.Idx → EReal) i = ((r : ℝ) : EReal) :=
  finite_arg13 _ _ _ _ _ _ _ _ _ _ _ _ _ _ _ _ _ _ _ _ _ _ _ _ _ (hpre c)

/-- Under the precondition, every entry of argument array 14 in the initial memory is a real number, on every device. -/
theorem real_arg14
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, ((m ((c.tc : Thread Cert.KernelIdeal.nD Cert.KernelIdeal.τ).loc Cert.KernelIdeal.main_arg14)) : S256.Idx → EReal) i = ((r : ℝ) : EReal) :=
  finite_arg14 _ _ _ _ _ _ _ _ _ _ _ _ _ _ _ _ _ _ _ _ _ _ _ _ _ (hpre c)

/-- Under the precondition, every entry of argument array 15 in the initial memory is a real number, on every device. -/
theorem real_arg15
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, ((m ((c.tc : Thread Cert.KernelIdeal.nD Cert.KernelIdeal.τ).loc Cert.KernelIdeal.main_arg15)) : S2x256.Idx → EReal) i = ((r : ℝ) : EReal) :=
  finite_arg15 _ _ _ _ _ _ _ _ _ _ _ _ _ _ _ _ _ _ _ _ _ _ _ _ _ (hpre c)

/-- Under the precondition, every entry of argument array 16 in the initial memory is a real number, on every device. -/
theorem real_arg16
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, ((m ((c.tc : Thread Cert.KernelIdeal.nD Cert.KernelIdeal.τ).loc Cert.KernelIdeal.main_arg16)) : S2.Idx → EReal) i = ((r : ℝ) : EReal) :=
  finite_arg16 _ _ _ _ _ _ _ _ _ _ _ _ _ _ _ _ _ _ _ _ _ _ _ _ _ (hpre c)

/-- Under the precondition, every entry of argument array 17 in the initial memory is a real number, on every device. -/
theorem real_arg17
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, ((m ((c.tc : Thread Cert.KernelIdeal.nD Cert.KernelIdeal.τ).loc Cert.KernelIdeal.main_arg17)) : S256x512.Idx → EReal) i = ((r : ℝ) : EReal) :=
  finite_arg17 _ _ _ _ _ _ _ _ _ _ _ _ _ _ _ _ _ _ _ _ _ _ _ _ _ (hpre c)

/-- Under the precondition, every entry of argument array 18 in the initial memory is a real number, on every device. -/
theorem real_arg18
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, ((m ((c.tc : Thread Cert.KernelIdeal.nD Cert.KernelIdeal.τ).loc Cert.KernelIdeal.main_arg18)) : S256.Idx → EReal) i = ((r : ℝ) : EReal) :=
  finite_arg18 _ _ _ _ _ _ _ _ _ _ _ _ _ _ _ _ _ _ _ _ _ _ _ _ _ (hpre c)

/-- Under the precondition, every entry of argument array 19 in the initial memory is a real number, on every device. -/
theorem real_arg19
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, ((m ((c.tc : Thread Cert.KernelIdeal.nD Cert.KernelIdeal.τ).loc Cert.KernelIdeal.main_arg19)) : S20x256.Idx → EReal) i = ((r : ℝ) : EReal) :=
  finite_arg19 _ _ _ _ _ _ _ _ _ _ _ _ _ _ _ _ _ _ _ _ _ _ _ _ _ (hpre c)

/-- Under the precondition, every entry of argument array 20 in the initial memory is a real number, on every device. -/
theorem real_arg20
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, ((m ((c.tc : Thread Cert.KernelIdeal.nD Cert.KernelIdeal.τ).loc Cert.KernelIdeal.main_arg20)) : S20.Idx → EReal) i = ((r : ℝ) : EReal) :=
  finite_arg20 _ _ _ _ _ _ _ _ _ _ _ _ _ _ _ _ _ _ _ _ _ _ _ _ _ (hpre c)

/-- Under the precondition, every entry of argument array 21 in the initial memory is a real number, on every device. -/
theorem real_arg21
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, ((m ((c.tc : Thread Cert.KernelIdeal.nD Cert.KernelIdeal.τ).loc Cert.KernelIdeal.main_arg21)) : S128x3.Idx → EReal) i = ((r : ℝ) : EReal) :=
  finite_arg21 _ _ _ _ _ _ _ _ _ _ _ _ _ _ _ _ _ _ _ _ _ _ _ _ _ (hpre c)

/-- Under the precondition, every entry of argument array 22 in the initial memory is a real number, on every device. -/
theorem real_arg22
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, ((m ((c.tc : Thread Cert.KernelIdeal.nD Cert.KernelIdeal.τ).loc Cert.KernelIdeal.main_arg22)) : S128.Idx → EReal) i = ((r : ℝ) : EReal) :=
  finite_arg22 _ _ _ _ _ _ _ _ _ _ _ _ _ _ _ _ _ _ _ _ _ _ _ _ _ (hpre c)

/-- Under the precondition, every entry of argument array 23 in the initial memory is a real number, on every device. -/
theorem real_arg23
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, ((m ((c.tc : Thread Cert.KernelIdeal.nD Cert.KernelIdeal.τ).loc Cert.KernelIdeal.main_arg23)) : S128x128.Idx → EReal) i = ((r : ℝ) : EReal) :=
  finite_arg23 _ _ _ _ _ _ _ _ _ _ _ _ _ _ _ _ _ _ _ _ _ _ _ _ _ (hpre c)

/-- Under the precondition, every entry of argument array 24 in the initial memory is a real number, on every device. -/
theorem real_arg24
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, ((m ((c.tc : Thread Cert.KernelIdeal.nD Cert.KernelIdeal.τ).loc Cert.KernelIdeal.main_arg24)) : S128.Idx → EReal) i = ((r : ℝ) : EReal) :=
  finite_arg24 _ _ _ _ _ _ _ _ _ _ _ _ _ _ _ _ _ _ _ _ _ _ _ _ _ (hpre c)

end Cert.PreFinite

end
-- ==== Proof.Math.Cheb.lean ====
/-
  The algebra of a Chebyshev graph convolution over the extended reals.

  A graph with edges `E` and nodes `N` carries a weight `w e` on every edge, a source node `s e` and a target `t e` (an edge whose
  target is out of range, `t e = none`, contributes nothing). One application of the normalised Laplacian to a node signal `z` is

      (prop w s t z) n x = −∑_{e : t e = n} w e · z (s e) x ,

  a weighted gather at the sources, summed at the targets, negated. A dense layer is `(mm z W) n j = ∑ k, z n k · W k j`.

  * Over the REALS the Laplacian acts on the node index and the dense layer on the feature index, so they commute
    (`prop_mm`): both sides are the double sum `−∑ e ∑ k, w e · z (s e) k · W k j`. Over the extended reals the distributive law fails at
    infinities (`⊤ + ⊥`), which is why every entry has to be known real (`IsReal`) before the law is used; realness is closed under
    the operations that occur (`isReal_add`, …, `isReal_prop`, `isReal_mm`).
  * The Chebyshev recurrence `T₀ = x`, `T₁ = L x`, `T₂ = 2 L T₁ − T₀`, each term projected by its own matrix and the three summed, is the
    same as projecting `x` by the three matrices first and propagating the projections (`cheb0`): linearity and `prop_mm` twice.
  * A sum over `Fin (a + b)` of a function that is `f` on the first `a` indices and `g` on the rest is `∑ f + ∑ g` (`sum_concat`); no
    realness is needed, addition of extended reals is a commutative monoid.
-/
import Mathlib.Data.EReal.Operations
import Mathlib.Algebra.BigOperators.Fin
import Mathlib.Algebra.BigOperators.Ring.Finset
import Mathlib.Tactic.Ring

noncomputable section

namespace Cert.ChebMath

open scoped BigOperators

/-- An extended real that is (the coercion of) a real number. -/
def IsReal (x : EReal) : Prop := ∃ r : ℝ, x = (r : EReal)

/-- One application of the normalised graph Laplacian: gather at `s`, weigh by `w`, sum at `t`, negate. -/
def prop {E N X : Type} [Fintype E] [DecidableEq N] (w : E → EReal) (s : E → N) (t : E → Option N) (z : N → X → EReal)
    (n : N) (x : X) : EReal :=
  -(∑ e ∈ Finset.univ.filter (fun e => t e = some n), w e * z (s e) x)

/-- A dense layer: the rows of `z` times the matrix `W`. -/
def mm {N Kd Jd : Type} [Fintype Kd] (z : N → Kd → EReal) (W : Kd → Jd → EReal) (n : N) (j : Jd) : EReal := ∑ k, z n k * W k j

/-! ### Realness is closed under the operations that occur -/

theorem isReal_zero : IsReal 0 := ⟨0, EReal.coe_zero.symm⟩

theorem isReal_one : IsReal 1 := ⟨1, EReal.coe_one.symm⟩

theorem isReal_coe (r : ℝ) : IsReal (r : EReal) := ⟨r, rfl⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isReal_sub {x y : EReal} (hx : IsReal x) (hy : IsReal y) : IsReal (x - y) := by
  obtain ⟨a, rfl⟩ := hx
  obtain ⟨b, rfl⟩ := hy
  exact ⟨a - b, (EReal.coe_sub a b).symm⟩

theorem isReal_neg {x : EReal} (hx : IsReal x) : IsReal (-x) := by
  obtain ⟨a, rfl⟩ := hx
  exact ⟨-a, (EReal.coe_neg a).symm⟩

theorem isReal_sum {ι : Type*} (s : Finset ι) (f : ι → EReal) (h : ∀ i ∈ s, IsReal (f i)) : IsReal (∑ i ∈ s, f i) :=
  Finset.sum_induction f IsReal (fun _ _ => isReal_add) isReal_zero h

theorem isReal_max {x y : EReal} (hx : IsReal x) (hy : IsReal y) : IsReal (max x y) := by
  rcases le_total x y with h | h
  · rw [max_eq_right h]; exact hy
  · rw [max_eq_left h]; exact hx

theorem isReal_prop {E N X : Type} [Fintype E] [DecidableEq N] {w : E → EReal} (s : E → N) (t : E → Option N) {z : N → X → EReal}
    (hw : ∀ e, IsReal (w e)) (hz : ∀ n x, IsReal (z n x)) (n : N) (x : X) : IsReal (prop w s t z n x) :=
  isReal_neg (isReal_sum _ _ fun e _ => isReal_mul (hw e) (hz (s e) x))

theorem isReal_mm {N Kd Jd : Type} [Fintype Kd] {z : N → Kd → EReal} {W : Kd → Jd → EReal}
    (hz : ∀ n k, IsReal (z n k)) (hW : ∀ k j, IsReal (W k j)) (n : N) (j : Jd) : IsReal (mm z W n j) :=
  isReal_sum _ _ fun k _ => isReal_mul (hz n k) (hW k j)

/-! ### The same two maps over the reals, and the coercion between them -/

/-- The Laplacian step over the reals. -/
def propR {E N X : Type} [Fintype E] [DecidableEq N] (w : E → ℝ) (s : E → N) (t : E → Option N) (z : N → X → ℝ) (n : N) (x : X) : ℝ :=
  -(∑ e ∈ Finset.univ.filter (fun e => t e = some n), w e * z (s e) x)

/-- The dense layer over the reals. -/
def mmR {N Kd Jd : Type} [Fintype Kd] (z : N → Kd → ℝ) (W : Kd → Jd → ℝ) (n : N) (j : Jd) : ℝ := ∑ k, z n k * W k j

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem prop_coe {E N X : Type} [Fintype E] [DecidableEq N] (w : E → ℝ) (s : E → N) (t : E → Option N) (z : N → X → ℝ) :
    prop (fun e => (w e : EReal)) s t (fun n x => (z n x : EReal)) = fun n x => ((propR w s t z n x : ℝ) : EReal) := by
  funext n x
  simp only [prop, propR, EReal.coe_neg, coe_sum, EReal.coe_mul]

theorem mm_coe {N Kd Jd : Type} [Fintype Kd] (z : N → Kd → ℝ) (W : Kd → Jd → ℝ) :
    mm (fun n k => (z n k : EReal)) (fun k j => (W k j : EReal)) = fun n j => ((mmR z W n j : ℝ) : EReal) := by
  funext n j
  simp only [mm, mmR, coe_sum, EReal.coe_mul]

/-- Over the reals the Laplacian step commutes with a dense layer: both are the double sum over edges and features. -/
theorem propR_mmR {E N Kd Jd : Type} [Fintype E] [DecidableEq N] [Fintype Kd] (w : E → ℝ) (s : E → N) (t : E → Option N)
    (z : N → Kd → ℝ) (W : Kd → Jd → ℝ) : mmR (propR w s t z) W = propR w s t (mmR z W) := by
  funext n j
  simp only [mmR, propR, neg_mul, Finset.sum_neg_distrib, neg_inj, Finset.sum_mul, Finset.mul_sum]
  rw [Finset.sum_comm]
  refine Finset.sum_congr rfl fun e _ => Finset.sum_congr rfl fun k _ => ?_
  ring

/-- A dense layer is linear in its input: the combination `c · a − b`. -/
theorem mmR_smul_sub {N Kd Jd : Type} [Fintype Kd] (c : ℝ) (a b : N → Kd → ℝ) (W : Kd → Jd → ℝ) (n : N) (j : Jd) :
    mmR (fun n k => c * a n k - b n k) W n j = c * mmR a W n j - mmR b W n j := by
  simp only [mmR, sub_mul, Finset.sum_sub_distrib, Finset.mul_sum, mul_assoc]

/-! ### The laws over the extended reals -/

section laws

variable {E N Kd Jd : Type} [Fintype E] [DecidableEq N] [Fintype Kd]

/-- The Laplacian step commutes with a dense layer, all entries being real. -/
theorem prop_mm {w : E → EReal} (s : E → N) (t : E → Option N) {z : N → Kd → EReal} {W : Kd → Jd → EReal}
    (hw : ∀ e, IsReal (w e)) (hz : ∀ n k, IsReal (z n k)) (hW : ∀ k j, IsReal (W k j)) (n : N) (j : Jd) :
    mm (prop w s t z) W n j = prop w s t (mm z W) n j := by
  choose w' hw' using hw
  choose z' hz' using hz
  choose W' hW' using hW
  obtain rfl : w = fun e => (w' e : EReal) := funext hw'
  obtain rfl : z = fun n k => (z' n k : EReal) := funext fun n => funext (hz' n)
  obtain rfl : W = fun k j => (W' k j : EReal) := funext fun k => funext (hW' k)
  rw [prop_coe, mm_coe, mm_coe, prop_coe, propR_mmR]

/-- The Chebyshev recurrence of order two, applied then projected, is the projections propagated. -/
theorem cheb0 {w : E → EReal} (s : E → N) (t : E → Option N) {ei : N → Kd → EReal} {W0 W1 W2 : Kd → Jd → EReal} {two : EReal}
    (h2 : two = ((2 : ℝ) : EReal)) (hw : ∀ e, IsReal (w e)) (hei : ∀ n k, IsReal (ei n k))
    (hW0 : ∀ k j, IsReal (W0 k j)) (hW1 : ∀ k j, IsReal (W1 k j)) (hW2 : ∀ k j, IsReal (W2 k j)) (n : N) (j : Jd) :
    (mm ei W0 n j + mm (prop w s t ei) W1 n j) + mm (fun n k => two * prop w s t (prop w s t ei) n k - ei n k) W2 n j
      = ((mm ei W0 n j - mm ei W2 n j) + prop w s t (mm ei W1) n j) + two * prop w s t (prop w s t (mm ei W2)) n j := by
  choose w' hw' using hw
  choose e' he' using hei
  choose A0 hA0 using hW0
  choose A1 hA1 using hW1
  choose A2 hA2 using hW2
  obtain rfl : w = fun e => (w' e : EReal) := funext hw'
  obtain rfl : ei = fun n k => (e' n k : EReal) := funext fun n => funext (he' n)
  obtain rfl : W0 = fun k j => (A0 k j : EReal) := funext fun k => funext (hA0 k)
  obtain rfl : W1 = fun k j => (A1 k j : EReal) := funext fun k => funext (hA1 k)
  obtain rfl : W2 = fun k j => (A2 k j : EReal) := funext fun k => funext (hA2 k)
  subst h2
  simp only [prop_coe, mm_coe, ← EReal.coe_mul, ← EReal.coe_sub, ← EReal.coe_add]
  rw [mmR_smul_sub, propR_mmR, propR_mmR, propR_mmR]
  congr 1
  ring

end laws

/-! ### A sum over a concatenation -/

/-- A function on `Fin (a + b)` that is `f` on the first `a` indices and `g` on the remaining `b` sums to `∑ f + ∑ g`. -/
theorem sum_concat_add {a b : ℕ} (f : Fin a → EReal) (g : Fin b → EReal) (h : Fin (a + b) → EReal)
    (hh : ∀ k : Fin (a + b), h k = if hk : k.val < a then f ⟨k.val, hk⟩ else g ⟨k.val - a, by omega⟩) :
    ∑ k, h k = ∑ k, f k + ∑ k, g k := by
  rw [Fin.sum_univ_add]
  congr 1
  · refine Finset.sum_congr rfl fun i _ => ?_
    rw [hh, dif_pos (by simp)]
    rfl
  · refine Finset.sum_congr rfl fun i _ => ?_
    rw [hh, dif_neg (by simp)]
    congr 1
    ext
    simp

/-- The instance for 640 = 128 + 512 features. -/
theorem sum_concat (f : Fin 128 → EReal) (g : Fin 512 → EReal) (h : Fin 640 → EReal)
    (hh : ∀ k : Fin 640, h k = if hk : k.val < 128 then f ⟨k.val, hk⟩ else g ⟨k.val - 128, by omega⟩) :
    ∑ k, h k = ∑ k, f k + ∑ k, g k :=
  sum_concat_add (a := 128) (b := 512) f g h hh

end Cert.ChebMath
-- ==== Proof.Glue.KeepK.lean ====
/-
  References that still hold, at a later boundary of the main function, what they held at an earlier one.

  The main function is fifteen segments; the buffer contents at the boundary after segment j are W(j+1), and the long
  stretch of host operations between W10 and W11 is cut into six chunks with the intermediate contents U1 … U5
  (U0 = W10, U6 = W11). A segment changes only the references in its write list (a stretch of host operations: the
  results of its operations; a dense-layer region: its output array). So a reference that lies in none of the write
  lists between two boundaries has equal contents at both: the per-segment equalities are chained by transitivity,
  each non-membership being decided on the finite list.
-/
import proofs.«115122_j13357348290767_2_alg».proof.Proof.KI.W
import proofs.«115122_j13357348290767_2_alg».proof.Proof.KI.Keep
import proofs.«115122_j13357348290767_2_alg».proof.Proof.KI.Chunks
import Idealize.ShloMosaic.PureOps.Ideal

set_option maxRecDepth 16384

noncomputable section

namespace Cert.Glue

open Cert.KernelIdeal Cert.KernelIdeal.Gen Cert.KernelIdeal.Frame
open Idealize.ShloMosaic Idealize.ShloMosaic.TcCoe Idealize.SL.Sem

variable (m : (ℓ : Loc nD τ sig) → Buf (Elt Ideal) ℓ) (ρ : Dev nD → PrngReg) (c : Dev nD)

/-- The contents the long stretch is entered from. -/
abbrev U0 : Valuation τ sig (Elt Ideal) := W10 m ρ c
/-- After chunk 0 of the stretch. -/
abbrev U1 : Valuation τ sig (Elt Ideal) := StableHlo.after (kc0 (F := Ideal)) (U0 m ρ c)
/-- After chunk 1. -/
abbrev U2 : Valuation τ sig (Elt Ideal) := StableHlo.after (kc1 (F := Ideal)) (U1 m ρ c)
/-- After chunk 2. -/
abbrev U3 : Valuation τ sig (Elt Ideal) := StableHlo.after (kc2 (F := Ideal)) (U2 m ρ c)
/-- After chunk 3. -/
abbrev U4 : Valuation τ sig (Elt Ideal) := StableHlo.after (kc3 (F := Ideal)) (U3 m ρ c)
/-- After chunk 4. -/
abbrev U5 : Valuation τ sig (Elt Ideal) := StableHlo.after (kc4 (F := Ideal)) (U4 m ρ c)
/-- After chunk 5: the end of the stretch. -/
abbrev U6 : Valuation τ sig (Elt Ideal) := StableHlo.after (kc5 (F := Ideal)) (U5 m ρ c)

/-- The contents after the whole stretch are the contents after its last chunk. -/
theorem W11_eq_U6 : W11 m ρ c = U6 m ρ c := after_hostOps4_2 (W10 m ρ c)

/-! ## Argument arrays, from the launch contents -/

theorem keepK_arg2_0_2 :
    W2 m ρ c (Proc.devRef .tc main_arg2) = W0 m ρ c (Proc.devRef .tc main_arg2) :=
  (W2_keep m ρ c (r := main_arg2) (by decide)).trans ((W1_keep m ρ c (r := main_arg2) (by decide)))

theorem keepK_arg21_0_2 :
    W2 m ρ c (Proc.devRef .tc main_arg21) = W0 m ρ c (Proc.devRef .tc main_arg21) :=
  (W2_keep m ρ c (r := main_arg21) (by decide)).trans ((W1_keep m ρ c (r := main_arg21) (by decide)))

theorem keepK_arg22_0_2 :
    W2 m ρ c (Proc.devRef .tc main_arg22) = W0 m ρ c (Proc.devRef .tc main_arg22) :=
  (W2_keep m ρ c (r := main_arg22) (by decide)).trans ((W1_keep m ρ c (r := main_arg22) (by decide)))

theorem keepK_arg23_0_2 :
    W2 m ρ c (Proc.devRef .tc main_arg23) = W0 m ρ c (Proc.devRef .tc main_arg23) :=
  (W2_keep m ρ c (r := main_arg23) (by decide)).trans ((W1_keep m ρ c (r := main_arg23) (by decide)))

theorem keepK_arg24_0_2 :
    W2 m ρ c (Proc.devRef .tc main_arg24) = W0 m ρ c (Proc.devRef .tc main_arg24) :=
  (W2_keep m ρ c (r := main_arg24) (by decide)).trans ((W1_keep m ρ c (r := main_arg24) (by decide)))

theorem keepK_arg24_0_4 :
    W4 m ρ c (Proc.devRef .tc main_arg24) = W0 m ρ c (Proc.devRef .tc main_arg24) :=
  (W4_keep m ρ c (r := main_arg24) (by decide)).trans ((W3_keep m ρ c (r := main_arg24) (by decide)).trans (keepK_arg24_0_2 m ρ c))

theorem keepK_arg7_0_6 :
    W6 m ρ c (Proc.devRef .tc main_arg7) = W0 m ρ c (Proc.devRef .tc main_arg7) :=
  (W6_keep m ρ c (r := main_arg7) (by decide)).trans ((W5_keep m ρ c (r := main_arg7) (by decide)).trans ((W4_keep m ρ c (r := main_arg7) (by decide)).trans ((W3_keep m ρ c (r := main_arg7) (by decide)).trans ((W2_keep m ρ c (r := main_arg7) (by decide)).trans ((W1_keep m ρ c (r := main_arg7) (by decide)))))))

theorem keepK_arg8_0_6 :
    W6 m ρ c (Proc.devRef .tc main_arg8) = W0 m ρ c (Proc.devRef .tc main_arg8) :=
  (W6_keep m ρ c (r := main_arg8) (by decide)).trans ((W5_keep m ρ c (r := main_arg8) (by decide)).trans ((W4_keep m ρ c (r := main_arg8) (by decide)).trans ((W3_keep m ρ c (r := main_arg8) (by decide)).trans ((W2_keep m ρ c (r := main_arg8) (by decide)).trans ((W1_keep m ρ c (r := main_arg8) (by decide)))))))

theorem keepK_arg9_0_U1 :
    U1 m ρ c (Proc.devRef .tc main_arg9) = W0 m ρ c (Proc.devRef .tc main_arg9) :=
  (kc0_keeps (F := Ideal) (r := main_arg9) (by decide) (W10 m ρ c)).trans ((W10_keep m ρ c (r := main_arg9) (by decide)).trans ((W9_keep m ρ c (r := main_arg9) (by decide)).trans ((W8_keep m ρ c (r := main_arg9) (by decide)).trans ((W7_keep m ρ c (r := main_arg9) (by decide)).trans ((W6_keep m ρ c (r := main_arg9) (by decide)).trans ((W5_keep m ρ c (r := main_arg9) (by decide)).trans ((W4_keep m ρ c (r := main_arg9) (by decide)).trans ((W3_keep m ρ c (r := main_arg9) (by decide)).trans ((W2_keep m ρ c (r := main_arg9) (by decide)).trans ((W1_keep m ρ c (r := main_arg9) (by decide))))))))))))

theorem keepK_arg10_0_U2 :
    U2 m ρ c (Proc.devRef .tc main_arg10) = W0 m ρ c (Proc.devRef .tc main_arg10) :=
  (kc1_keeps (F := Ideal) (r := main_arg10) (by decide) (U1 m ρ c)).trans ((kc0_keeps (F := Ideal) (r := main_arg10) (by decide) (W10 m ρ c)).trans ((W10_keep m ρ c (r := main_arg10) (by decide)).trans ((W9_keep m ρ c (r := main_arg10) (by decide)).trans ((W8_keep m ρ c (r := main_arg10) (by decide)).trans ((W7_keep m ρ c (r := main_arg10) (by decide)).trans ((W6_keep m ρ c (r := main_arg10) (by decide)).trans ((W5_keep m ρ c (r := main_arg10) (by decide)).trans ((W4_keep m ρ c (r := main_arg10) (by decide)).trans ((W3_keep m ρ c (r := main_arg10) (by decide)).trans ((W2_keep m ρ c (r := main_arg10) (by decide)).trans ((W1_keep m ρ c (r := main_arg10) (by decide)))))))))))))

theorem keepK_arg11_0_U3 :
    U3 m ρ c (Proc.devRef .tc main_arg11) = W0 m ρ c (Proc.devRef .tc main_arg11) :=
  (kc2_keeps (F := Ideal) (r := main_arg11) (by decide) (U2 m ρ c)).trans ((kc1_keeps (F := Ideal) (r := main_arg11) (by decide) (U1 m ρ c)).trans ((kc0_keeps (F := Ideal) (r := main_arg11) (by decide) (W10 m ρ c)).trans ((W10_keep m ρ c (r := main_arg11) (by decide)).trans ((W9_keep m ρ c (r := main_arg11) (by decide)).trans ((W8_keep m ρ c (r := main_arg11) (by decide)).trans ((W7_keep m ρ c (r := main_arg11) (by decide)).trans ((W6_keep m ρ c (r := main_arg11) (by decide)).trans ((W5_keep m ρ c (r := main_arg11) (by decide)).trans ((W4_keep m ρ c (r := main_arg11) (by decide)).trans ((W3_keep m ρ c (r := main_arg11) (by decide)).trans ((W2_keep m ρ c (r := main_arg11) (by decide)).trans ((W1_keep m ρ c (r := main_arg11) (by decide))))))))))))))

theorem keepK_arg12_0_U4 :
    U4 m ρ c (Proc.devRef .tc main_arg12) = W0 m ρ c (Proc.devRef .tc main_arg12) :=
  (kc3_keeps (F := Ideal) (r := main_arg12) (by decide) (U3 m ρ c)).trans ((kc2_keeps (F := Ideal) (r := main_arg12) (by decide) (U2 m ρ c)).trans ((kc1_keeps (F := Ideal) (r := main_arg12) (by decide) (U1 m ρ c)).trans ((kc0_keeps (F := Ideal) (r := main_arg12) (by decide) (W10 m ρ c)).trans ((W10_keep m ρ c (r := main_arg12) (by decide)).trans ((W9_keep m ρ c (r := main_arg12) (by decide)).trans ((W8_keep m ρ c (r := main_arg12) (by decide)).trans ((W7_keep m ρ c (r := main_arg12) (by decide)).trans ((W6_keep m ρ c (r := main_arg12) (by decide)).trans ((W5_keep m ρ c (r := main_arg12) (by decide)).trans ((W4_keep m ρ c (r := main_arg12) (by decide)).trans ((W3_keep m ρ c (r := main_arg12) (by decide)).trans ((W2_keep m ρ c (r := main_arg12) (by decide)).trans ((W1_keep m ρ c (r := main_arg12) (by decide)))))))))))))))

theorem keepK_arg13_0_U5 :
    U5 m ρ c (Proc.devRef .tc main_arg13) = W0 m ρ c (Proc.devRef .tc main_arg13) :=
  (kc4_keeps (F := Ideal) (r := main_arg13) (by decide) (U4 m ρ c)).trans ((kc3_keeps (F := Ideal) (r := main_arg13) (by decide) (U3 m ρ c)).trans ((kc2_keeps (F := Ideal) (r := main_arg13) (by decide) (U2 m ρ c)).trans ((kc1_keeps (F := Ideal) (r := main_arg13) (by decide) (U1 m ρ c)).trans ((kc0_keeps (F := Ideal) (r := main_arg13) (by decide) (W10 m ρ c)).trans ((W10_keep m ρ c (r := main_arg13) (by decide)).trans ((W9_keep m ρ c (r := main_arg13) (by decide)).trans ((W8_keep m ρ c (r := main_arg13) (by decide)).trans ((W7_keep m ρ c (r := main_arg13) (by decide)).trans ((W6_keep m ρ c (r := main_arg13) (by decide)).trans ((W5_keep m ρ c (r := main_arg13) (by decide)).trans ((W4_keep m ρ c (r := main_arg13) (by decide)).trans ((W3_keep m ρ c (r := main_arg13) (by decide)).trans ((W2_keep m ρ c (r := main_arg13) (by decide)).trans ((W1_keep m ρ c (r := main_arg13) (by decide))))))))))))))))

theorem keepK_arg14_0_U5 :
    U5 m ρ c (Proc.devRef .tc main_arg14) = W0 m ρ c (Proc.devRef .tc main_arg14) :=
  (kc4_keeps (F := Ideal) (r := main_arg14) (by decide) (U4 m ρ c)).trans ((kc3_keeps (F := Ideal) (r := main_arg14) (by decide) (U3 m ρ c)).trans ((kc2_keeps (F := Ideal) (r := main_arg14) (by decide) (U2 m ρ c)).trans ((kc1_keeps (F := Ideal) (r := main_arg14) (by decide) (U1 m ρ c)).trans ((kc0_keeps (F := Ideal) (r := main_arg14) (by decide) (W10 m ρ c)).trans ((W10_keep m ρ c (r := main_arg14) (by decide)).trans ((W9_keep m ρ c (r := main_arg14) (by decide)).trans ((W8_keep m ρ c (r := main_arg14) (by decide)).trans ((W7_keep m ρ c (r := main_arg14) (by decide)).trans ((W6_keep m ρ c (r := main_arg14) (by decide)).trans ((W5_keep m ρ c (r := main_arg14) (by decide)).trans ((W4_keep m ρ c (r := main_arg14) (by decide)).trans ((W3_keep m ρ c (r := main_arg14) (by decide)).trans ((W2_keep m ρ c (r := main_arg14) (by decide)).trans ((W1_keep m ρ c (r := main_arg14) (by decide))))))))))))))))

theorem keepK_arg15_0_12 :
    W12 m ρ c (Proc.devRef .tc main_arg15) = W0 m ρ c (Proc.devRef .tc main_arg15) :=
  (W12_keep m ρ c (r := main_arg15) (by decide)).trans ((W11_keep m ρ c (r := main_arg15) (by decide)).trans ((W10_keep m ρ c (r := main_arg15) (by decide)).trans ((W9_keep m ρ c (r := main_arg15) (by decide)).trans ((W8_keep m ρ c (r := main_arg15) (by decide)).trans ((W7_keep m ρ c (r := main_arg15) (by decide)).trans ((W6_keep m ρ c (r := main_arg15) (by decide)).trans ((W5_keep m ρ c (r := main_arg15) (by decide)).trans ((W4_keep m ρ c (r := main_arg15) (by decide)).trans ((W3_keep m ρ c (r := main_arg15) (by decide)).trans ((W2_keep m ρ c (r := main_arg15) (by decide)).trans ((W1_keep m ρ c (r := main_arg15) (by decide)))))))))))))

theorem keepK_arg16_0_12 :
    W12 m ρ c (Proc.devRef .tc main_arg16) = W0 m ρ c (Proc.devRef .tc main_arg16) :=
  (W12_keep m ρ c (r := main_arg16) (by decide)).trans ((W11_keep m ρ c (r := main_arg16) (by decide)).trans ((W10_keep m ρ c (r := main_arg16) (by decide)).trans ((W9_keep m ρ c (r := main_arg16) (by decide)).trans ((W8_keep m ρ c (r := main_arg16) (by decide)).trans ((W7_keep m ρ c (r := main_arg16) (by decide)).trans ((W6_keep m ρ c (r := main_arg16) (by decide)).trans ((W5_keep m ρ c (r := main_arg16) (by decide)).trans ((W4_keep m ρ c (r := main_arg16) (by decide)).trans ((W3_keep m ρ c (r := main_arg16) (by decide)).trans ((W2_keep m ρ c (r := main_arg16) (by decide)).trans ((W1_keep m ρ c (r := main_arg16) (by decide)))))))))))))

theorem keepK_arg17_0_12 :
    W12 m ρ c (Proc.devRef .tc main_arg17) = W0 m ρ c (Proc.devRef .tc main_arg17) :=
  (W12_keep m ρ c (r := main_arg17) (by decide)).trans ((W11_keep m ρ c (r := main_arg17) (by decide)).trans ((W10_keep m ρ c (r := main_arg17) (by decide)).trans ((W9_keep m ρ c (r := main_arg17) (by decide)).trans ((W8_keep m ρ c (r := main_arg17) (by decide)).trans ((W7_keep m ρ c (r := main_arg17) (by decide)).trans ((W6_keep m ρ c (r := main_arg17) (by decide)).trans ((W5_keep m ρ c (r := main_arg17) (by decide)).trans ((W4_keep m ρ c (r := main_arg17) (by decide)).trans ((W3_keep m ρ c (r := main_arg17) (by decide)).trans ((W2_keep m ρ c (r := main_arg17) (by decide)).trans ((W1_keep m ρ c (r := main_arg17) (by decide)))))))))))))

theorem keepK_arg18_0_12 :
    W12 m ρ c (Proc.devRef .tc main_arg18) = W0 m ρ c (Proc.devRef .tc main_arg18) :=
  (W12_keep m ρ c (r := main_arg18) (by decide)).trans ((W11_keep m ρ c (r := main_arg18) (by decide)).trans ((W10_keep m ρ c (r := main_arg18) (by decide)).trans ((W9_keep m ρ c (r := main_arg18) (by decide)).trans ((W8_keep m ρ c (r := main_arg18) (by decide)).trans ((W7_keep m ρ c (r := main_arg18) (by decide)).trans ((W6_keep m ρ c (r := main_arg18) (by decide)).trans ((W5_keep m ρ c (r := main_arg18) (by decide)).trans ((W4_keep m ρ c (r := main_arg18) (by decide)).trans ((W3_keep m ρ c (r := main_arg18) (by decide)).trans ((W2_keep m ρ c (r := main_arg18) (by decide)).trans ((W1_keep m ρ c (r := main_arg18) (by decide)))))))))))))

theorem keepK_arg19_0_14 :
    W14 m ρ c (Proc.devRef .tc main_arg19) = W0 m ρ c (Proc.devRef .tc main_arg19) :=
  (W14_keep m ρ c (r := main_arg19) (by decide)).trans ((W13_keep m ρ c (r := main_arg19) (by decide)).trans ((W12_keep m ρ c (r := main_arg19) (by decide)).trans ((W11_keep m ρ c (r := main_arg19) (by decide)).trans ((W10_keep m ρ c (r := main_arg19) (by decide)).trans ((W9_keep m ρ c (r := main_arg19) (by decide)).trans ((W8_keep m ρ c (r := main_arg19) (by decide)).trans ((W7_keep m ρ c (r := main_arg19) (by decide)).trans ((W6_keep m ρ c (r := main_arg19) (by decide)).trans ((W5_keep m ρ c (r := main_arg19) (by decide)).trans ((W4_keep m ρ c (r := main_arg19) (by decide)).trans ((W3_keep m ρ c (r := main_arg19) (by decide)).trans ((W2_keep m ρ c (r := main_arg19) (by decide)).trans ((W1_keep m ρ c (r := main_arg19) (by decide)))))))))))))))

theorem keepK_arg20_0_14 :
    W14 m ρ c (Proc.devRef .tc main_arg20) = W0 m ρ c (Proc.devRef .tc main_arg20) :=
  (W14_keep m ρ c (r := main_arg20) (by decide)).trans ((W13_keep m ρ c (r := main_arg20) (by decide)).trans ((W12_keep m ρ c (r := main_arg20) (by decide)).trans ((W11_keep m ρ c (r := main_arg20) (by decide)).trans ((W10_keep m ρ c (r := main_arg20) (by decide)).trans ((W9_keep m ρ c (r := main_arg20) (by decide)).trans ((W8_keep m ρ c (r := main_arg20) (by decide)).trans ((W7_keep m ρ c (r := main_arg20) (by decide)).trans ((W6_keep m ρ c (r := main_arg20) (by decide)).trans ((W5_keep m ρ c (r := main_arg20) (by decide)).trans ((W4_keep m ρ c (r := main_arg20) (by decide)).trans ((W3_keep m ρ c (r := main_arg20) (by decide)).trans ((W2_keep m ρ c (r := main_arg20) (by decide)).trans ((W1_keep m ρ c (r := main_arg20) (by decide)))))))))))))))

/-! ## Results of the first stretch of host operations -/

theorem keepK_v1_1_6 :
    W6 m ρ c (Proc.devRef .tc main_v1) = W1 m ρ c (Proc.devRef .tc main_v1) :=
  (W6_keep m ρ c (r := main_v1) (by decide)).trans ((W5_keep m ρ c (r := main_v1) (by decide)).trans ((W4_keep m ρ c (r := main_v1) (by decide)).trans ((W3_keep m ρ c (r := main_v1) (by decide)).trans ((W2_keep m ρ c (r := main_v1) (by decide))))))

theorem keepK_v1_1_8 :
    W8 m ρ c (Proc.devRef .tc main_v1) = W1 m ρ c (Proc.devRef .tc main_v1) :=
  (W8_keep m ρ c (r := main_v1) (by decide)).trans ((W7_keep m ρ c (r := main_v1) (by decide)).trans (keepK_v1_1_6 m ρ c))

theorem keepK_v1_1_U1 :
    U1 m ρ c (Proc.devRef .tc main_v1) = W1 m ρ c (Proc.devRef .tc main_v1) :=
  (kc0_keeps (F := Ideal) (r := main_v1) (by decide) (W10 m ρ c)).trans ((W10_keep m ρ c (r := main_v1) (by decide)).trans ((W9_keep m ρ c (r := main_v1) (by decide)).trans (keepK_v1_1_8 m ρ c)))

theorem keepK_v1_1_U2 :
    U2 m ρ c (Proc.devRef .tc main_v1) = W1 m ρ c (Proc.devRef .tc main_v1) :=
  (kc1_keeps (F := Ideal) (r := main_v1) (by decide) (U1 m ρ c)).trans (keepK_v1_1_U1 m ρ c)

theorem keepK_v1_1_U3 :
    U3 m ρ c (Proc.devRef .tc main_v1) = W1 m ρ c (Proc.devRef .tc main_v1) :=
  (kc2_keeps (F := Ideal) (r := main_v1) (by decide) (U2 m ρ c)).trans (keepK_v1_1_U2 m ρ c)

theorem keepK_v1_1_U4 :
    U4 m ρ c (Proc.devRef .tc main_v1) = W1 m ρ c (Proc.devRef .tc main_v1) :=
  (kc3_keeps (F := Ideal) (r := main_v1) (by decide) (U3 m ρ c)).trans (keepK_v1_1_U3 m ρ c)

theorem keepK_v3_1_6 :
    W6 m ρ c (Proc.devRef .tc main_v3) = W1 m ρ c (Proc.devRef .tc main_v3) :=
  (W6_keep m ρ c (r := main_v3) (by decide)).trans ((W5_keep m ρ c (r := main_v3) (by decide)).trans ((W4_keep m ρ c (r := main_v3) (by decide)).trans ((W3_keep m ρ c (r := main_v3) (by decide)).trans ((W2_keep m ρ c (r := main_v3) (by decide))))))

theorem keepK_v3_1_8 :
    W8 m ρ c (Proc.devRef .tc main_v3) = W1 m ρ c (Proc.devRef .tc main_v3) :=
  (W8_keep m ρ c (r := main_v3) (by decide)).trans ((W7_keep m ρ c (r := main_v3) (by decide)).trans (keepK_v3_1_6 m ρ c))

theorem keepK_v3_1_U1 :
    U1 m ρ c (Proc.devRef .tc main_v3) = W1 m ρ c (Proc.devRef .tc main_v3) :=
  (kc0_keeps (F := Ideal) (r := main_v3) (by decide) (W10 m ρ c)).trans ((W10_keep m ρ c (r := main_v3) (by decide)).trans ((W9_keep m ρ c (r := main_v3) (by decide)).trans (keepK_v3_1_8 m ρ c)))

theorem keepK_v3_1_U2 :
    U2 m ρ c (Proc.devRef .tc main_v3) = W1 m ρ c (Proc.devRef .tc main_v3) :=
  (kc1_keeps (F := Ideal) (r := main_v3) (by decide) (U1 m ρ c)).trans (keepK_v3_1_U1 m ρ c)

theorem keepK_v3_1_U3 :
    U3 m ρ c (Proc.devRef .tc main_v3) = W1 m ρ c (Proc.devRef .tc main_v3) :=
  (kc2_keeps (F := Ideal) (r := main_v3) (by decide) (U2 m ρ c)).trans (keepK_v3_1_U2 m ρ c)

theorem keepK_v3_1_U4 :
    U4 m ρ c (Proc.devRef .tc main_v3) = W1 m ρ c (Proc.devRef .tc main_v3) :=
  (kc3_keeps (F := Ideal) (r := main_v3) (by decide) (U3 m ρ c)).trans (keepK_v3_1_U3 m ρ c)

/-! ## Results of the stretch after region 0 -/

theorem keepK_v11_3_6 :
    W6 m ρ c (Proc.devRef .tc main_v11) = W3 m ρ c (Proc.devRef .tc main_v11) :=
  (W6_keep m ρ c (r := main_v11) (by decide)).trans ((W5_keep m ρ c (r := main_v11) (by decide)).trans ((W4_keep m ρ c (r := main_v11) (by decide))))

theorem keepK_v11_3_U1 :
    U1 m ρ c (Proc.devRef .tc main_v11) = W3 m ρ c (Proc.devRef .tc main_v11) :=
  (kc0_keeps (F := Ideal) (r := main_v11) (by decide) (W10 m ρ c)).trans ((W10_keep m ρ c (r := main_v11) (by decide)).trans ((W9_keep m ρ c (r := main_v11) (by decide)).trans ((W8_keep m ρ c (r := main_v11) (by decide)).trans ((W7_keep m ρ c (r := main_v11) (by decide)).trans (keepK_v11_3_6 m ρ c)))))

theorem keepK_v11_3_12 :
    W12 m ρ c (Proc.devRef .tc main_v11) = W3 m ρ c (Proc.devRef .tc main_v11) :=
  (W12_keep m ρ c (r := main_v11) (by decide)).trans ((W11_keep m ρ c (r := main_v11) (by decide)).trans ((W10_keep m ρ c (r := main_v11) (by decide)).trans ((W9_keep m ρ c (r := main_v11) (by decide)).trans ((W8_keep m ρ c (r := main_v11) (by decide)).trans ((W7_keep m ρ c (r := main_v11) (by decide)).trans (keepK_v11_3_6 m ρ c))))))

theorem keepK_v12_3_6 :
    W6 m ρ c (Proc.devRef .tc main_v12) = W3 m ρ c (Proc.devRef .tc main_v12) :=
  (W6_keep m ρ c (r := main_v12) (by decide)).trans ((W5_keep m ρ c (r := main_v12) (by decide)).trans ((W4_keep m ρ c (r := main_v12) (by decide))))

theorem keepK_v12_3_15 :
    W15 m ρ c (Proc.devRef .tc main_v12) = W3 m ρ c (Proc.devRef .tc main_v12) :=
  (W15_keep m ρ c (r := main_v12) (by decide)).trans ((W14_keep m ρ c (r := main_v12) (by decide)).trans ((W13_keep m ρ c (r := main_v12) (by decide)).trans ((W12_keep m ρ c (r := main_v12) (by decide)).trans ((W11_keep m ρ c (r := main_v12) (by decide)).trans ((W10_keep m ρ c (r := main_v12) (by decide)).trans ((W9_keep m ρ c (r := main_v12) (by decide)).trans ((W8_keep m ρ c (r := main_v12) (by decide)).trans ((W7_keep m ρ c (r := main_v12) (by decide)).trans (keepK_v12_3_6 m ρ c)))))))))

theorem keepK_v34_3_5 :
    W5 m ρ c (Proc.devRef .tc main_v34) = W3 m ρ c (Proc.devRef .tc main_v34) :=
  (W5_keep m ρ c (r := main_v34) (by decide)).trans ((W4_keep m ρ c (r := main_v34) (by decide)))

theorem keepK_v36_3_5 :
    W5 m ρ c (Proc.devRef .tc main_v36) = W3 m ρ c (Proc.devRef .tc main_v36) :=
  (W5_keep m ρ c (r := main_v36) (by decide)).trans ((W4_keep m ρ c (r := main_v36) (by decide)))

/-! ## Region outputs and later results -/

theorem keepK_v38_4_6 :
    W6 m ρ c (Proc.devRef .tc main_v38) = W4 m ρ c (Proc.devRef .tc main_v38) :=
  (W6_keep m ρ c (r := main_v38) (by decide)).trans ((W5_keep m ρ c (r := main_v38) (by decide)))

theorem keepK_v96_7_8 :
    W8 m ρ c (Proc.devRef .tc main_v96) = W7 m ρ c (Proc.devRef .tc main_v96) :=
  (W8_keep m ρ c (r := main_v96) (by decide))

theorem keepK_v102_8_15 :
    W15 m ρ c (Proc.devRef .tc main_v102) = W8 m ρ c (Proc.devRef .tc main_v102) :=
  (W15_keep m ρ c (r := main_v102) (by decide)).trans ((W14_keep m ρ c (r := main_v102) (by decide)).trans ((W13_keep m ρ c (r := main_v102) (by decide)).trans ((W12_keep m ρ c (r := main_v102) (by decide)).trans ((W11_keep m ρ c (r := main_v102) (by decide)).trans ((W10_keep m ρ c (r := main_v102) (by decide)).trans ((W9_keep m ρ c (r := main_v102) (by decide))))))))

theorem keepK_v125_U1_U2 :
    U2 m ρ c (Proc.devRef .tc main_v125) = U1 m ρ c (Proc.devRef .tc main_v125) :=
  (kc1_keeps (F := Ideal) (r := main_v125) (by decide) (U1 m ρ c))

theorem keepK_v125_U1_U3 :
    U3 m ρ c (Proc.devRef .tc main_v125) = U1 m ρ c (Proc.devRef .tc main_v125) :=
  (kc2_keeps (F := Ideal) (r := main_v125) (by decide) (U2 m ρ c)).trans (keepK_v125_U1_U2 m ρ c)

theorem keepK_v125_U1_U4 :
    U4 m ρ c (Proc.devRef .tc main_v125) = U1 m ρ c (Proc.devRef .tc main_v125) :=
  (kc3_keeps (F := Ideal) (r := main_v125) (by decide) (U3 m ρ c)).trans (keepK_v125_U1_U3 m ρ c)

theorem keepK_v330_13_15 :
    W15 m ρ c (Proc.devRef .tc main_v330) = W13 m ρ c (Proc.devRef .tc main_v330) :=
  (W15_keep m ρ c (r := main_v330) (by decide)).trans ((W14_keep m ρ c (r := main_v330) (by decide)))

end Cert.Glue

end
-- ==== Proof.Glue.KeepR.lean ====
/-
  A reference of the reference program still holds, at a later point of the run, what it held at an earlier one.

  The run of the reference program is the fold `RW0, RW1, …, RW19` of its nineteen chunks of operations over the launch memory
  (`RW(k+1) = after ropsk (RWk)`). Chunk `k` writes exactly the references of its list `Lk`; a reference outside `Lk` has the same
  contents after the chunk as before it (`ropsk_keeps`). Hence a reference that none of the chunks `from, …, to − 1` writes has
  at `RW to` the contents it had at `RW from`: the chain of those facts. Each theorem below is one such chain, for an argument of
  the program (never written: from the launch memory `RW0`) or for an intermediate value (from the point just after the chunk
  that computes it) up to the point where a later chunk reads it; non-membership in each list is decided.
-/
import proofs.«115122_j13357348290767_2_alg».proof.Proof.R.Fold
import Idealize.ShloMosaic.PureOps.Ideal

noncomputable section

namespace Cert.Glue

open Cert.ReferenceIdeal Cert.ReferenceIdeal.Gen Cert.ReferenceIdeal.RValue Idealize.ShloMosaic Idealize.ShloMosaic.TcCoe Idealize.SL.Sem
  Idealize.ShloMosaic.StableHlo

set_option maxRecDepth 8192 in
theorem keepR_main_arg0_0_1 (m' : (ℓ : Loc nD τ sig) → Buf (Elt Ideal) ℓ) (c : Dev nD) :
    RW1 m' c (Proc.devRef .tc main_arg0) = RW0 m' c (Proc.devRef .tc main_arg0) :=
  rops0_keeps (r := main_arg0) (by decide) (RW0 m' c)

set_option maxRecDepth 8192 in
theorem keepR_main_arg3_0_1 (m' : (ℓ : Loc nD τ sig) → Buf (Elt Ideal) ℓ) (c : Dev nD) :
    RW1 m' c (Proc.devRef .tc main_arg3) = RW0 m' c (Proc.devRef .tc main_arg3) :=
  rops0_keeps (r := main_arg3) (by decide) (RW0 m' c)

set_option maxRecDepth 8192 in
theorem keepR_main_arg4_0_1 (m' : (ℓ : Loc nD τ sig) → Buf (Elt Ideal) ℓ) (c : Dev nD) :
    RW1 m' c (Proc.devRef .tc main_arg4) = RW0 m' c (Proc.devRef .tc main_arg4) :=
  rops0_keeps (r := main_arg4) (by decide) (RW0 m' c)

set_option maxRecDepth 8192 in
theorem keepR_main_arg5_0_1 (m' : (ℓ : Loc nD τ sig) → Buf (Elt Ideal) ℓ) (c : Dev nD) :
    RW1 m' c (Proc.devRef .tc main_arg5) = RW0 m' c (Proc.devRef .tc main_arg5) :=
  rops0_keeps (r := main_arg5) (by decide) (RW0 m' c)

set_option maxRecDepth 8192 in
theorem keepR_main_arg6_0_1 (m' : (ℓ : Loc nD τ sig) → Buf (Elt Ideal) ℓ) (c : Dev nD) :
    RW1 m' c (Proc.devRef .tc main_arg6) = RW0 m' c (Proc.devRef .tc main_arg6) :=
  rops0_keeps (r := main_arg6) (by decide) (RW0 m' c)

set_option maxRecDepth 8192 in
theorem keepR_main_arg2_0_2 (m' : (ℓ : Loc nD τ sig) → Buf (Elt Ideal) ℓ) (c : Dev nD) :
    RW2 m' c (Proc.devRef .tc main_arg2) = RW0 m' c (Proc.devRef .tc main_arg2) :=
  (rops1_keeps (r := main_arg2) (by decide) (RW1 m' c)).trans (rops0_keeps (r := main_arg2) (by decide) (RW0 m' c))

set_option maxRecDepth 8192 in
theorem keepR_main_arg2_0_5 (m' : (ℓ : Loc nD τ sig) → Buf (Elt Ideal) ℓ) (c : Dev nD) :
    RW5 m' c (Proc.devRef .tc main_arg2) = RW0 m' c (Proc.devRef .tc main_arg2) :=
  (rops4_keeps (r := main_arg2) (by decide) (RW4 m' c)).trans ((rops3_keeps (r := main_arg2) (by decide) (RW3 m' c)).trans ((rops2_keeps (r := main_arg2) (by decide) (RW2 m' c)).trans (keepR_main_arg2_0_2 m' c)))

set_option maxRecDepth 8192 in
theorem keepR_main_arg21_0_2 (m' : (ℓ : Loc nD τ sig) → Buf (Elt Ideal) ℓ) (c : Dev nD) :
    RW2 m' c (Proc.devRef .tc main_arg21) = RW0 m' c (Proc.devRef .tc main_arg21) :=
  (rops1_keeps (r := main_arg21) (by decide) (RW1 m' c)).trans (rops0_keeps (r := main_arg21) (by decide) (RW0 m' c))

set_option maxRecDepth 8192 in
theorem keepR_main_arg21_0_5 (m' : (ℓ : Loc nD τ sig) → Buf (Elt Ideal) ℓ) (c : Dev nD) :
    RW5 m' c (Proc.devRef .tc main_arg21) = RW0 m' c (Proc.devRef .tc main_arg21) :=
  (rops4_keeps (r := main_arg21) (by decide) (RW4 m' c)).trans ((rops3_keeps (r := main_arg21) (by decide) (RW3 m' c)).trans ((rops2_keeps (r := main_arg21) (by decide) (RW2 m' c)).trans (keepR_main_arg21_0_2 m' c)))

set_option maxRecDepth 8192 in
theorem keepR_main_arg22_0_2 (m' : (ℓ : Loc nD τ sig) → Buf (Elt Ideal) ℓ) (c : Dev nD) :
    RW2 m' c (Proc.devRef .tc main_arg22) = RW0 m' c (Proc.devRef .tc main_arg22) :=
  (rops1_keeps (r := main_arg22) (by decide) (RW1 m' c)).trans (rops0_keeps (r := main_arg22) (by decide) (RW0 m' c))

set_option maxRecDepth 8192 in
theorem keepR_main_arg22_0_5 (m' : (ℓ : Loc nD τ sig) → Buf (Elt Ideal) ℓ) (c : Dev nD) :
    RW5 m' c (Proc.devRef .tc main_arg22) = RW0 m' c (Proc.devRef .tc main_arg22) :=
  (rops4_keeps (r := main_arg22) (by decide) (RW4 m' c)).trans ((rops3_keeps (r := main_arg22) (by decide) (RW3 m' c)).trans ((rops2_keeps (r := main_arg22) (by decide) (RW2 m' c)).trans (keepR_main_arg22_0_2 m' c)))

set_option maxRecDepth 8192 in
theorem keepR_main_arg23_0_3 (m' : (ℓ : Loc nD τ sig) → Buf (Elt Ideal) ℓ) (c : Dev nD) :
    RW3 m' c (Proc.devRef .tc main_arg23) = RW0 m' c (Proc.devRef .tc main_arg23) :=
  (rops2_keeps (r := main_arg23) (by decide) (RW2 m' c)).trans ((rops1_keeps (r := main_arg23) (by decide) (RW1 m' c)).trans (rops0_keeps (r := main_arg23) (by decide) (RW0 m' c)))

set_option maxRecDepth 8192 in
theorem keepR_main_arg23_0_6 (m' : (ℓ : Loc nD τ sig) → Buf (Elt Ideal) ℓ) (c : Dev nD) :
    RW6 m' c (Proc.devRef .tc main_arg23) = RW0 m' c (Proc.devRef .tc main_arg23) :=
  (rops5_keeps (r := main_arg23) (by decide) (RW5 m' c)).trans ((rops4_keeps (r := main_arg23) (by decide) (RW4 m' c)).trans ((rops3_keeps (r := main_arg23) (by decide) (RW3 m' c)).trans (keepR_main_arg23_0_3 m' c)))

set_option maxRecDepth 8192 in
theorem keepR_main_arg24_0_3 (m' : (ℓ : Loc nD τ sig) → Buf (Elt Ideal) ℓ) (c : Dev nD) :
    RW3 m' c (Proc.devRef .tc main_arg24) = RW0 m' c (Proc.devRef .tc main_arg24) :=
  (rops2_keeps (r := main_arg24) (by decide) (RW2 m' c)).trans ((rops1_keeps (r := main_arg24) (by decide) (RW1 m' c)).trans (rops0_keeps (r := main_arg24) (by decide) (RW0 m' c)))

set_option maxRecDepth 8192 in
theorem keepR_main_arg24_0_6 (m' : (ℓ : Loc nD τ sig) → Buf (Elt Ideal) ℓ) (c : Dev nD) :
    RW6 m' c (Proc.devRef .tc main_arg24) = RW0 m' c (Proc.devRef .tc main_arg24) :=
  (rops5_keeps (r := main_arg24) (by decide) (RW5 m' c)).trans ((rops4_keeps (r := main_arg24) (by decide) (RW4 m' c)).trans ((rops3_keeps (r := main_arg24) (by decide) (RW3 m' c)).trans (keepR_main_arg24_0_3 m' c)))

set_option maxRecDepth 8192 in
theorem keepR_main_arg7_0_9 (m' : (ℓ : Loc nD τ sig) → Buf (Elt Ideal) ℓ) (c : Dev nD) :
    RW9 m' c (Proc.devRef .tc main_arg7) = RW0 m' c (Proc.devRef .tc main_arg7) :=
  (rops8_keeps (r := main_arg7) (by decide) (RW8 m' c)).trans ((rops7_keeps (r := main_arg7) (by decide) (RW7 m' c)).trans ((rops6_keeps (r := main_arg7) (by decide) (RW6 m' c)).trans ((rops5_keeps (r := main_arg7) (by decide) (RW5 m' c)).trans ((rops4_keeps (r := main_arg7) (by decide) (RW4 m' c)).trans ((rops3_keeps (r := main_arg7) (by decide) (RW3 m' c)).trans ((rops2_keeps (r := main_arg7) (by decide) (RW2 m' c)).trans ((rops1_keeps (r := main_arg7) (by decide) (RW1 m' c)).trans (rops0_keeps (r := main_arg7) (by decide) (RW0 m' c)))))))))

set_option maxRecDepth 8192 in
theorem keepR_main_arg8_0_9 (m' : (ℓ : Loc nD τ sig) → Buf (Elt Ideal) ℓ) (c : Dev nD) :
    RW9 m' c (Proc.devRef .tc main_arg8) = RW0 m' c (Proc.devRef .tc main_arg8) :=
  (rops8_keeps (r := main_arg8) (by decide) (RW8 m' c)).trans ((rops7_keeps (r := main_arg8) (by decide) (RW7 m' c)).trans ((rops6_keeps (r := main_arg8) (by decide) (RW6 m' c)).trans ((rops5_keeps (r := main_arg8) (by decide) (RW5 m' c)).trans ((rops4_keeps (r := main_arg8) (by decide) (RW4 m' c)).trans ((rops3_keeps (r := main_arg8) (by decide) (RW3 m' c)).trans ((rops2_keeps (r := main_arg8) (by decide) (RW2 m' c)).trans ((rops1_keeps (r := main_arg8) (by decide) (RW1 m' c)).trans (rops0_keeps (r := main_arg8) (by decide) (RW0 m' c)))))))))

set_option maxRecDepth 8192 in
theorem keepR_main_arg9_0_11 (m' : (ℓ : Loc nD τ sig) → Buf (Elt Ideal) ℓ) (c : Dev nD) :
    RW11 m' c (Proc.devRef .tc main_arg9) = RW0 m' c (Proc.devRef .tc main_arg9) :=
  (rops10_keeps (r := main_arg9) (by decide) (RW10 m' c)).trans ((rops9_keeps (r := main_arg9) (by decide) (RW9 m' c)).trans ((rops8_keeps (r := main_arg9) (by decide) (RW8 m' c)).trans ((rops7_keeps (r := main_arg9) (by decide) (RW7 m' c)).trans ((rops6_keeps (r := main_arg9) (by decide) (RW6 m' c)).trans ((rops5_keeps (r := main_arg9) (by decide) (RW5 m' c)).trans ((rops4_keeps (r := main_arg9) (by decide) (RW4 m' c)).trans ((rops3_keeps (r := main_arg9) (by decide) (RW3 m' c)).trans ((rops2_keeps (r := main_arg9) (by decide) (RW2 m' c)).trans ((rops1_keeps (r := main_arg9) (by decide) (RW1 m' c)).trans (rops0_keeps (r := main_arg9) (by decide) (RW0 m' c)))))))))))

set_option maxRecDepth 8192 in
theorem keepR_main_arg10_0_12 (m' : (ℓ : Loc nD τ sig) → Buf (Elt Ideal) ℓ) (c : Dev nD) :
    RW12 m' c (Proc.devRef .tc main_arg10) = RW0 m' c (Proc.devRef .tc main_arg10) :=
  (rops11_keeps (r := main_arg10) (by decide) (RW11 m' c)).trans ((rops10_keeps (r := main_arg10) (by decide) (RW10 m' c)).trans ((rops9_keeps (r := main_arg10) (by decide) (RW9 m' c)).trans ((rops8_keeps (r := main_arg10) (by decide) (RW8 m' c)).trans ((rops7_keeps (r := main_arg10) (by decide) (RW7 m' c)).trans ((rops6_keeps (r := main_arg10) (by decide) (RW6 m' c)).trans ((rops5_keeps (r := main_arg10) (by decide) (RW5 m' c)).trans ((rops4_keeps (r := main_arg10) (by decide) (RW4 m' c)).trans ((rops3_keeps (r := main_arg10) (by decide) (RW3 m' c)).trans ((rops2_keeps (r := main_arg10) (by decide) (RW2 m' c)).trans ((rops1_keeps (r := main_arg10) (by decide) (RW1 m' c)).trans (rops0_keeps (r := main_arg10) (by decide) (RW0 m' c))))))))))))

set_option maxRecDepth 8192 in
theorem keepR_main_arg11_0_13 (m' : (ℓ : Loc nD τ sig) → Buf (Elt Ideal) ℓ) (c : Dev nD) :
    RW13 m' c (Proc.devRef .tc main_arg11) = RW0 m' c (Proc.devRef .tc main_arg11) :=
  (rops12_keeps (r := main_arg11) (by decide) (RW12 m' c)).trans ((rops11_keeps (r := main_arg11) (by decide) (RW11 m' c)).trans ((rops10_keeps (r := main_arg11) (by decide) (RW10 m' c)).trans ((rops9_keeps (r := main_arg11) (by decide) (RW9 m' c)).trans ((rops8_keeps (r := main_arg11) (by decide) (RW8 m' c)).trans ((rops7_keeps (r := main_arg11) (by decide) (RW7 m' c)).trans ((rops6_keeps (r := main_arg11) (by decide) (RW6 m' c)).trans ((rops5_keeps (r := main_arg11) (by decide) (RW5 m' c)).trans ((rops4_keeps (r := main_arg11) (by decide) (RW4 m' c)).trans ((rops3_keeps (r := main_arg11) (by decide) (RW3 m' c)).trans ((rops2_keeps (r := main_arg11) (by decide) (RW2 m' c)).trans ((rops1_keeps (r := main_arg11) (by decide) (RW1 m' c)).trans (rops0_keeps (r := main_arg11) (by decide) (RW0 m' c)))))))))))))

set_option maxRecDepth 8192 in
theorem keepR_main_arg12_0_14 (m' : (ℓ : Loc nD τ sig) → Buf (Elt Ideal) ℓ) (c : Dev nD) :
    RW14 m' c (Proc.devRef .tc main_arg12) = RW0 m' c (Proc.devRef .tc main_arg12) :=
  (rops13_keeps (r := main_arg12) (by decide) (RW13 m' c)).trans ((rops12_keeps (r := main_arg12) (by decide) (RW12 m' c)).trans ((rops11_keeps (r := main_arg12) (by decide) (RW11 m' c)).trans ((rops10_keeps (r := main_arg12) (by decide) (RW10 m' c)).trans ((rops9_keeps (r := main_arg12) (by decide) (RW9 m' c)).trans ((rops8_keeps (r := main_arg12) (by decide) (RW8 m' c)).trans ((rops7_keeps (r := main_arg12) (by decide) (RW7 m' c)).trans ((rops6_keeps (r := main_arg12) (by decide) (RW6 m' c)).trans ((rops5_keeps (r := main_arg12) (by decide) (RW5 m' c)).trans ((rops4_keeps (r := main_arg12) (by decide) (RW4 m' c)).trans ((rops3_keeps (r := main_arg12) (by decide) (RW3 m' c)).trans ((rops2_keeps (r := main_arg12) (by decide) (RW2 m' c)).trans ((rops1_keeps (r := main_arg12) (by decide) (RW1 m' c)).trans (rops0_keeps (r := main_arg12) (by decide) (RW0 m' c))))))))))))))

set_option maxRecDepth 8192 in
theorem keepR_main_arg13_0_15 (m' : (ℓ : Loc nD τ sig) → Buf (Elt Ideal) ℓ) (c : Dev nD) :
    RW15 m' c (Proc.devRef .tc main_arg13) = RW0 m' c (Proc.devRef .tc main_arg13) :=
  (rops14_keeps (r := main_arg13) (by decide) (RW14 m' c)).trans ((rops13_keeps (r := main_arg13) (by decide) (RW13 m' c)).trans ((rops12_keeps (r := main_arg13) (by decide) (RW12 m' c)).trans ((rops11_keeps (r := main_arg13) (by decide) (RW11 m' c)).trans ((rops10_keeps (r := main_arg13) (by decide) (RW10 m' c)).trans ((rops9_keeps (r := main_arg13) (by decide) (RW9 m' c)).trans ((rops8_keeps (r := main_arg13) (by decide) (RW8 m' c)).trans ((rops7_keeps (r := main_arg13) (by decide) (RW7 m' c)).trans ((rops6_keeps (r := main_arg13) (by decide) (RW6 m' c)).trans ((rops5_keeps (r := main_arg13) (by decide) (RW5 m' c)).trans ((rops4_keeps (r := main_arg13) (by decide) (RW4 m' c)).trans ((rops3_keeps (r := main_arg13) (by decide) (RW3 m' c)).trans ((rops2_keeps (r := main_arg13) (by decide) (RW2 m' c)).trans ((rops1_keeps (r := main_arg13) (by decide) (RW1 m' c)).trans (rops0_keeps (r := main_arg13) (by decide) (RW0 m' c)))))))))))))))

set_option maxRecDepth 8192 in
theorem keepR_main_arg14_0_15 (m' : (ℓ : Loc nD τ sig) → Buf (Elt Ideal) ℓ) (c : Dev nD) :
    RW15 m' c (Proc.devRef .tc main_arg14) = RW0 m' c (Proc.devRef .tc main_arg14) :=
  (rops14_keeps (r := main_arg14) (by decide) (RW14 m' c)).trans ((rops13_keeps (r := main_arg14) (by decide) (RW13 m' c)).trans ((rops12_keeps (r := main_arg14) (by decide) (RW12 m' c)).trans ((rops11_keeps (r := main_arg14) (by decide) (RW11 m' c)).trans ((rops10_keeps (r := main_arg14) (by decide) (RW10 m' c)).trans ((rops9_keeps (r := main_arg14) (by decide) (RW9 m' c)).trans ((rops8_keeps (r := main_arg14) (by decide) (RW8 m' c)).trans ((rops7_keeps (r := main_arg14) (by decide) (RW7 m' c)).trans ((rops6_keeps (r := main_arg14) (by decide) (RW6 m' c)).trans ((rops5_keeps (r := main_arg14) (by decide) (RW5 m' c)).trans ((rops4_keeps (r := main_arg14) (by decide) (RW4 m' c)).trans ((rops3_keeps (r := main_arg14) (by decide) (RW3 m' c)).trans ((rops2_keeps (r := main_arg14) (by decide) (RW2 m' c)).trans ((rops1_keeps (r := main_arg14) (by decide) (RW1 m' c)).trans (rops0_keeps (r := main_arg14) (by decide) (RW0 m' c)))))))))))))))

set_option maxRecDepth 8192 in
theorem keepR_main_arg15_0_16 (m' : (ℓ : Loc nD τ sig) → Buf (Elt Ideal) ℓ) (c : Dev nD) :
    RW16 m' c (Proc.devRef .tc main_arg15) = RW0 m' c (Proc.devRef .tc main_arg15) :=
  (rops15_keeps (r := main_arg15) (by decide) (RW15 m' c)).trans ((rops14_keeps (r := main_arg15) (by decide) (RW14 m' c)).trans ((rops13_keeps (r := main_arg15) (by decide) (RW13 m' c)).trans ((rops12_keeps (r := main_arg15) (by decide) (RW12 m' c)).trans ((rops11_keeps (r := main_arg15) (by decide) (RW11 m' c)).trans ((rops10_keeps (r := main_arg15) (by decide) (RW10 m' c)).trans ((rops9_keeps (r := main_arg15) (by decide) (RW9 m' c)).trans ((rops8_keeps (r := main_arg15) (by decide) (RW8 m' c)).trans ((rops7_keeps (r := main_arg15) (by decide) (RW7 m' c)).trans ((rops6_keeps (r := main_arg15) (by decide) (RW6 m' c)).trans ((rops5_keeps (r := main_arg15) (by decide) (RW5 m' c)).trans ((rops4_keeps (r := main_arg15) (by decide) (RW4 m' c)).trans ((rops3_keeps (r := main_arg15) (by decide) (RW3 m' c)).trans ((rops2_keeps (r := main_arg15) (by decide) (RW2 m' c)).trans ((rops1_keeps (r := main_arg15) (by decide) (RW1 m' c)).trans (rops0_keeps (r := main_arg15) (by decide) (RW0 m' c))))))))))))))))

set_option maxRecDepth 8192 in
theorem keepR_main_arg16_0_16 (m' : (ℓ : Loc nD τ sig) → Buf (Elt Ideal) ℓ) (c : Dev nD) :
    RW16 m' c (Proc.devRef .tc main_arg16) = RW0 m' c (Proc.devRef .tc main_arg16) :=
  (rops15_keeps (r := main_arg16) (by decide) (RW15 m' c)).trans ((rops14_keeps (r := main_arg16) (by decide) (RW14 m' c)).trans ((rops13_keeps (r := main_arg16) (by decide) (RW13 m' c)).trans ((rops12_keeps (r := main_arg16) (by decide) (RW12 m' c)).trans ((rops11_keeps (r := main_arg16) (by decide) (RW11 m' c)).trans ((rops10_keeps (r := main_arg16) (by decide) (RW10 m' c)).trans ((rops9_keeps (r := main_arg16) (by decide) (RW9 m' c)).trans ((rops8_keeps (r := main_arg16) (by decide) (RW8 m' c)).trans ((rops7_keeps (r := main_arg16) (by decide) (RW7 m' c)).trans ((rops6_keeps (r := main_arg16) (by decide) (RW6 m' c)).trans ((rops5_keeps (r := main_arg16) (by decide) (RW5 m' c)).trans ((rops4_keeps (r := main_arg16) (by decide) (RW4 m' c)).trans ((rops3_keeps (r := main_arg16) (by decide) (RW3 m' c)).trans ((rops2_keeps (r := main_arg16) (by decide) (RW2 m' c)).trans ((rops1_keeps (r := main_arg16) (by decide) (RW1 m' c)).trans (rops0_keeps (r := main_arg16) (by decide) (RW0 m' c))))))))))))))))

set_option maxRecDepth 8192 in
theorem keepR_main_arg17_0_17 (m' : (ℓ : Loc nD τ sig) → Buf (Elt Ideal) ℓ) (c : Dev nD) :
    RW17 m' c (Proc.devRef .tc main_arg17) = RW0 m' c (Proc.devRef .tc main_arg17) :=
  (rops16_keeps (r := main_arg17) (by decide) (RW16 m' c)).trans ((rops15_keeps (r := main_arg17) (by decide) (RW15 m' c)).trans ((rops14_keeps (r := main_arg17) (by decide) (RW14 m' c)).trans ((rops13_keeps (r := main_arg17) (by decide) (RW13 m' c)).trans ((rops12_keeps (r := main_arg17) (by decide) (RW12 m' c)).trans ((rops11_keeps (r := main_arg17) (by decide) (RW11 m' c)).trans ((rops10_keeps (r := main_arg17) (by decide) (RW10 m' c)).trans ((rops9_keeps (r := main_arg17) (by decide) (RW9 m' c)).trans ((rops8_keeps (r := main_arg17) (by decide) (RW8 m' c)).trans ((rops7_keeps (r := main_arg17) (by decide) (RW7 m' c)).trans ((rops6_keeps (r := main_arg17) (by decide) (RW6 m' c)).trans ((rops5_keeps (r := main_arg17) (by decide) (RW5 m' c)).trans ((rops4_keeps (r := main_arg17) (by decide) (RW4 m' c)).trans ((rops3_keeps (r := main_arg17) (by decide) (RW3 m' c)).trans ((rops2_keeps (r := main_arg17) (by decide) (RW2 m' c)).trans ((rops1_keeps (r := main_arg17) (by decide) (RW1 m' c)).trans (rops0_keeps (r := main_arg17) (by decide) (RW0 m' c)))))))))))))))))

set_option maxRecDepth 8192 in
theorem keepR_main_arg18_0_17 (m' : (ℓ : Loc nD τ sig) → Buf (Elt Ideal) ℓ) (c : Dev nD) :
    RW17 m' c (Proc.devRef .tc main_arg18) = RW0 m' c (Proc.devRef .tc main_arg18) :=
  (rops16_keeps (r := main_arg18) (by decide) (RW16 m' c)).trans ((rops15_keeps (r := main_arg18) (by decide) (RW15 m' c)).trans ((rops14_keeps (r := main_arg18) (by decide) (RW14 m' c)).trans ((rops13_keeps (r := main_arg18) (by decide) (RW13 m' c)).trans ((rops12_keeps (r := main_arg18) (by decide) (RW12 m' c)).trans ((rops11_keeps (r := main_arg18) (by decide) (RW11 m' c)).trans ((rops10_keeps (r := main_arg18) (by decide) (RW10 m' c)).trans ((rops9_keeps (r := main_arg18) (by decide) (RW9 m' c)).trans ((rops8_keeps (r := main_arg18) (by decide) (RW8 m' c)).trans ((rops7_keeps (r := main_arg18) (by decide) (RW7 m' c)).trans ((rops6_keeps (r := main_arg18) (by decide) (RW6 m' c)).trans ((rops5_keeps (r := main_arg18) (by decide) (RW5 m' c)).trans ((rops4_keeps (r := main_arg18) (by decide) (RW4 m' c)).trans ((rops3_keeps (r := main_arg18) (by decide) (RW3 m' c)).trans ((rops2_keeps (r := main_arg18) (by decide) (RW2 m' c)).trans ((rops1_keeps (r := main_arg18) (by decide) (RW1 m' c)).trans (rops0_keeps (r := main_arg18) (by decide) (RW0 m' c)))))))))))))))))

set_option maxRecDepth 8192 in
theorem keepR_main_arg19_0_18 (m' : (ℓ : Loc nD τ sig) → Buf (Elt Ideal) ℓ) (c : Dev nD) :
    RW18 m' c (Proc.devRef .tc main_arg19) = RW0 m' c (Proc.devRef .tc main_arg19) :=
  (rops17_keeps (r := main_arg19) (by decide) (RW17 m' c)).trans ((rops16_keeps (r := main_arg19) (by decide) (RW16 m' c)).trans ((rops15_keeps (r := main_arg19) (by decide) (RW15 m' c)).trans ((rops14_keeps (r := main_arg19) (by decide) (RW14 m' c)).trans ((rops13_keeps (r := main_arg19) (by decide) (RW13 m' c)).trans ((rops12_keeps (r := main_arg19) (by decide) (RW12 m' c)).trans ((rops11_keeps (r := main_arg19) (by decide) (RW11 m' c)).trans ((rops10_keeps (r := main_arg19) (by decide) (RW10 m' c)).trans ((rops9_keeps (r := main_arg19) (by decide) (RW9 m' c)).trans ((rops8_keeps (r := main_arg19) (by decide) (RW8 m' c)).trans ((rops7_keeps (r := main_arg19) (by decide) (RW7 m' c)).trans ((rops6_keeps (r := main_arg19) (by decide) (RW6 m' c)).trans ((rops5_keeps (r := main_arg19) (by decide) (RW5 m' c)).trans ((rops4_keeps (r := main_arg19) (by decide) (RW4 m' c)).trans ((rops3_keeps (r := main_arg19) (by decide) (RW3 m' c)).trans ((rops2_keeps (r := main_arg19) (by decide) (RW2 m' c)).trans ((rops1_keeps (r := main_arg19) (by decide) (RW1 m' c)).trans (rops0_keeps (r := main_arg19) (by decide) (RW0 m' c))))))))))))))))))

set_option maxRecDepth 8192 in
theorem keepR_main_arg20_0_18 (m' : (ℓ : Loc nD τ sig) → Buf (Elt Ideal) ℓ) (c : Dev nD) :
    RW18 m' c (Proc.devRef .tc main_arg20) = RW0 m' c (Proc.devRef .tc main_arg20) :=
  (rops17_keeps (r := main_arg20) (by decide) (RW17 m' c)).trans ((rops16_keeps (r := main_arg20) (by decide) (RW16 m' c)).trans ((rops15_keeps (r := main_arg20) (by decide) (RW15 m' c)).trans ((rops14_keeps (r := main_arg20) (by decide) (RW14 m' c)).trans ((rops13_keeps (r := main_arg20) (by decide) (RW13 m' c)).trans ((rops12_keeps (r := main_arg20) (by decide) (RW12 m' c)).trans ((rops11_keeps (r := main_arg20) (by decide) (RW11 m' c)).trans ((rops10_keeps (r := main_arg20) (by decide) (RW10 m' c)).trans ((rops9_keeps (r := main_arg20) (by decide) (RW9 m' c)).trans ((rops8_keeps (r := main_arg20) (by decide) (RW8 m' c)).trans ((rops7_keeps (r := main_arg20) (by decide) (RW7 m' c)).trans ((rops6_keeps (r := main_arg20) (by decide) (RW6 m' c)).trans ((rops5_keeps (r := main_arg20) (by decide) (RW5 m' c)).trans ((rops4_keeps (r := main_arg20) (by decide) (RW4 m' c)).trans ((rops3_keeps (r := main_arg20) (by decide) (RW3 m' c)).trans ((rops2_keeps (r := main_arg20) (by decide) (RW2 m' c)).trans ((rops1_keeps (r := main_arg20) (by decide) (RW1 m' c)).trans (rops0_keeps (r := main_arg20) (by decide) (RW0 m' c))))))))))))))))))

set_option maxRecDepth 8192 in
theorem keepR_main_v1_1_4 (m' : (ℓ : Loc nD τ sig) → Buf (Elt Ideal) ℓ) (c : Dev nD) :
    RW4 m' c (Proc.devRef .tc main_v1) = RW1 m' c (Proc.devRef .tc main_v1) :=
  (rops3_keeps (r := main_v1) (by decide) (RW3 m' c)).trans ((rops2_keeps (r := main_v1) (by decide) (RW2 m' c)).trans (rops1_keeps (r := main_v1) (by decide) (RW1 m' c)))

set_option maxRecDepth 8192 in
theorem keepR_main_v1_1_10 (m' : (ℓ : Loc nD τ sig) → Buf (Elt Ideal) ℓ) (c : Dev nD) :
    RW10 m' c (Proc.devRef .tc main_v1) = RW1 m' c (Proc.devRef .tc main_v1) :=
  (rops9_keeps (r := main_v1) (by decide) (RW9 m' c)).trans ((rops8_keeps (r := main_v1) (by decide) (RW8 m' c)).trans ((rops7_keeps (r := main_v1) (by decide) (RW7 m' c)).trans ((rops6_keeps (r := main_v1) (by decide) (RW6 m' c)).trans ((rops5_keeps (r := main_v1) (by decide) (RW5 m' c)).trans ((rops4_keeps (r := main_v1) (by decide) (RW4 m' c)).trans (keepR_main_v1_1_4 m' c))))))

set_option maxRecDepth 8192 in
theorem keepR_main_v1_1_11 (m' : (ℓ : Loc nD τ sig) → Buf (Elt Ideal) ℓ) (c : Dev nD) :
    RW11 m' c (Proc.devRef .tc main_v1) = RW1 m' c (Proc.devRef .tc main_v1) :=
  (rops10_keeps (r := main_v1) (by decide) (RW10 m' c)).trans (keepR_main_v1_1_10 m' c)

set_option maxRecDepth 8192 in
theorem keepR_main_v1_1_12 (m' : (ℓ : Loc nD τ sig) → Buf (Elt Ideal) ℓ) (c : Dev nD) :
    RW12 m' c (Proc.devRef .tc main_v1) = RW1 m' c (Proc.devRef .tc main_v1) :=
  (rops11_keeps (r := main_v1) (by decide) (RW11 m' c)).trans (keepR_main_v1_1_11 m' c)

set_option maxRecDepth 8192 in
theorem keepR_main_v1_1_13 (m' : (ℓ : Loc nD τ sig) → Buf (Elt Ideal) ℓ) (c : Dev nD) :
    RW13 m' c (Proc.devRef .tc main_v1) = RW1 m' c (Proc.devRef .tc main_v1) :=
  (rops12_keeps (r := main_v1) (by decide) (RW12 m' c)).trans (keepR_main_v1_1_12 m' c)

set_option maxRecDepth 8192 in
theorem keepR_main_v1_1_14 (m' : (ℓ : Loc nD τ sig) → Buf (Elt Ideal) ℓ) (c : Dev nD) :
    RW14 m' c (Proc.devRef .tc main_v1) = RW1 m' c (Proc.devRef .tc main_v1) :=
  (rops13_keeps (r := main_v1) (by decide) (RW13 m' c)).trans (keepR_main_v1_1_13 m' c)

set_option maxRecDepth 8192 in
theorem keepR_main_v3_1_7 (m' : (ℓ : Loc nD τ sig) → Buf (Elt Ideal) ℓ) (c : Dev nD) :
    RW7 m' c (Proc.devRef .tc main_v3) = RW1 m' c (Proc.devRef .tc main_v3) :=
  (rops6_keeps (r := main_v3) (by decide) (RW6 m' c)).trans ((rops5_keeps (r := main_v3) (by decide) (RW5 m' c)).trans ((rops4_keeps (r := main_v3) (by decide) (RW4 m' c)).trans ((rops3_keeps (r := main_v3) (by decide) (RW3 m' c)).trans ((rops2_keeps (r := main_v3) (by decide) (RW2 m' c)).trans (rops1_keeps (r := main_v3) (by decide) (RW1 m' c))))))

set_option maxRecDepth 8192 in
theorem keepR_main_v3_1_10 (m' : (ℓ : Loc nD τ sig) → Buf (Elt Ideal) ℓ) (c : Dev nD) :
    RW10 m' c (Proc.devRef .tc main_v3) = RW1 m' c (Proc.devRef .tc main_v3) :=
  (rops9_keeps (r := main_v3) (by decide) (RW9 m' c)).trans ((rops8_keeps (r := main_v3) (by decide) (RW8 m' c)).trans ((rops7_keeps (r := main_v3) (by decide) (RW7 m' c)).trans (keepR_main_v3_1_7 m' c)))

set_option maxRecDepth 8192 in
theorem keepR_main_v3_1_11 (m' : (ℓ : Loc nD τ sig) → Buf (Elt Ideal) ℓ) (c : Dev nD) :
    RW11 m' c (Proc.devRef .tc main_v3) = RW1 m' c (Proc.devRef .tc main_v3) :=
  (rops10_keeps (r := main_v3) (by decide) (RW10 m' c)).trans (keepR_main_v3_1_10 m' c)

set_option maxRecDepth 8192 in
theorem keepR_main_v3_1_12 (m' : (ℓ : Loc nD τ sig) → Buf (Elt Ideal) ℓ) (c : Dev nD) :
    RW12 m' c (Proc.devRef .tc main_v3) = RW1 m' c (Proc.devRef .tc main_v3) :=
  (rops11_keeps (r := main_v3) (by decide) (RW11 m' c)).trans (keepR_main_v3_1_11 m' c)

set_option maxRecDepth 8192 in
theorem keepR_main_v3_1_13 (m' : (ℓ : Loc nD τ sig) → Buf (Elt Ideal) ℓ) (c : Dev nD) :
    RW13 m' c (Proc.devRef .tc main_v3) = RW1 m' c (Proc.devRef .tc main_v3) :=
  (rops12_keeps (r := main_v3) (by decide) (RW12 m' c)).trans (keepR_main_v3_1_12 m' c)

set_option maxRecDepth 8192 in
theorem keepR_main_v3_1_14 (m' : (ℓ : Loc nD τ sig) → Buf (Elt Ideal) ℓ) (c : Dev nD) :
    RW14 m' c (Proc.devRef .tc main_v3) = RW1 m' c (Proc.devRef .tc main_v3) :=
  (rops13_keeps (r := main_v3) (by decide) (RW13 m' c)).trans (keepR_main_v3_1_13 m' c)

set_option maxRecDepth 8192 in
theorem keepR_main_v8_2_9 (m' : (ℓ : Loc nD τ sig) → Buf (Elt Ideal) ℓ) (c : Dev nD) :
    RW9 m' c (Proc.devRef .tc main_v8) = RW2 m' c (Proc.devRef .tc main_v8) :=
  (rops8_keeps (r := main_v8) (by decide) (RW8 m' c)).trans ((rops7_keeps (r := main_v8) (by decide) (RW7 m' c)).trans ((rops6_keeps (r := main_v8) (by decide) (RW6 m' c)).trans ((rops5_keeps (r := main_v8) (by decide) (RW5 m' c)).trans ((rops4_keeps (r := main_v8) (by decide) (RW4 m' c)).trans ((rops3_keeps (r := main_v8) (by decide) (RW3 m' c)).trans (rops2_keeps (r := main_v8) (by decide) (RW2 m' c)))))))

set_option maxRecDepth 8192 in
theorem keepR_main_v8_2_11 (m' : (ℓ : Loc nD τ sig) → Buf (Elt Ideal) ℓ) (c : Dev nD) :
    RW11 m' c (Proc.devRef .tc main_v8) = RW2 m' c (Proc.devRef .tc main_v8) :=
  (rops10_keeps (r := main_v8) (by decide) (RW10 m' c)).trans ((rops9_keeps (r := main_v8) (by decide) (RW9 m' c)).trans (keepR_main_v8_2_9 m' c))

set_option maxRecDepth 8192 in
theorem keepR_main_v8_2_17 (m' : (ℓ : Loc nD τ sig) → Buf (Elt Ideal) ℓ) (c : Dev nD) :
    RW17 m' c (Proc.devRef .tc main_v8) = RW2 m' c (Proc.devRef .tc main_v8) :=
  (rops16_keeps (r := main_v8) (by decide) (RW16 m' c)).trans ((rops15_keeps (r := main_v8) (by decide) (RW15 m' c)).trans ((rops14_keeps (r := main_v8) (by decide) (RW14 m' c)).trans ((rops13_keeps (r := main_v8) (by decide) (RW13 m' c)).trans ((rops12_keeps (r := main_v8) (by decide) (RW12 m' c)).trans ((rops11_keeps (r := main_v8) (by decide) (RW11 m' c)).trans (keepR_main_v8_2_11 m' c))))))

set_option maxRecDepth 8192 in
theorem keepR_main_v13_2_4 (m' : (ℓ : Loc nD τ sig) → Buf (Elt Ideal) ℓ) (c : Dev nD) :
    RW4 m' c (Proc.devRef .tc main_v13) = RW2 m' c (Proc.devRef .tc main_v13) :=
  (rops3_keeps (r := main_v13) (by decide) (RW3 m' c)).trans (rops2_keeps (r := main_v13) (by decide) (RW2 m' c))

set_option maxRecDepth 8192 in
theorem keepR_main_v13_2_7 (m' : (ℓ : Loc nD τ sig) → Buf (Elt Ideal) ℓ) (c : Dev nD) :
    RW7 m' c (Proc.devRef .tc main_v13) = RW2 m' c (Proc.devRef .tc main_v13) :=
  (rops6_keeps (r := main_v13) (by decide) (RW6 m' c)).trans ((rops5_keeps (r := main_v13) (by decide) (RW5 m' c)).trans ((rops4_keeps (r := main_v13) (by decide) (RW4 m' c)).trans (keepR_main_v13_2_4 m' c)))

set_option maxRecDepth 8192 in
theorem keepR_main_v13_2_9 (m' : (ℓ : Loc nD τ sig) → Buf (Elt Ideal) ℓ) (c : Dev nD) :
    RW9 m' c (Proc.devRef .tc main_v13) = RW2 m' c (Proc.devRef .tc main_v13) :=
  (rops8_keeps (r := main_v13) (by decide) (RW8 m' c)).trans ((rops7_keeps (r := main_v13) (by decide) (RW7 m' c)).trans (keepR_main_v13_2_7 m' c))

set_option maxRecDepth 8192 in
theorem keepR_main_v13_2_19 (m' : (ℓ : Loc nD τ sig) → Buf (Elt Ideal) ℓ) (c : Dev nD) :
    RW19 m' c (Proc.devRef .tc main_v13) = RW2 m' c (Proc.devRef .tc main_v13) :=
  (rops18_keeps (r := main_v13) (by decide) (RW18 m' c)).trans ((rops17_keeps (r := main_v13) (by decide) (RW17 m' c)).trans ((rops16_keeps (r := main_v13) (by decide) (RW16 m' c)).trans ((rops15_keeps (r := main_v13) (by decide) (RW15 m' c)).trans ((rops14_keeps (r := main_v13) (by decide) (RW14 m' c)).trans ((rops13_keeps (r := main_v13) (by decide) (RW13 m' c)).trans ((rops12_keeps (r := main_v13) (by decide) (RW12 m' c)).trans ((rops11_keeps (r := main_v13) (by decide) (RW11 m' c)).trans ((rops10_keeps (r := main_v13) (by decide) (RW10 m' c)).trans ((rops9_keeps (r := main_v13) (by decide) (RW9 m' c)).trans (keepR_main_v13_2_9 m' c))))))))))

set_option maxRecDepth 8192 in
theorem keepR_main_v36_5_8 (m' : (ℓ : Loc nD τ sig) → Buf (Elt Ideal) ℓ) (c : Dev nD) :
    RW8 m' c (Proc.devRef .tc main_v36) = RW5 m' c (Proc.devRef .tc main_v36) :=
  (rops7_keeps (r := main_v36) (by decide) (RW7 m' c)).trans ((rops6_keeps (r := main_v36) (by decide) (RW6 m' c)).trans (rops5_keeps (r := main_v36) (by decide) (RW5 m' c)))

set_option maxRecDepth 8192 in
theorem keepR_main_v73_9_10 (m' : (ℓ : Loc nD τ sig) → Buf (Elt Ideal) ℓ) (c : Dev nD) :
    RW10 m' c (Proc.devRef .tc main_v73) = RW9 m' c (Proc.devRef .tc main_v73) :=
  rops9_keeps (r := main_v73) (by decide) (RW9 m' c)

set_option maxRecDepth 8192 in
theorem keepR_main_v79_10_19 (m' : (ℓ : Loc nD τ sig) → Buf (Elt Ideal) ℓ) (c : Dev nD) :
    RW19 m' c (Proc.devRef .tc main_v79) = RW10 m' c (Proc.devRef .tc main_v79) :=
  (rops18_keeps (r := main_v79) (by decide) (RW18 m' c)).trans ((rops17_keeps (r := main_v79) (by decide) (RW17 m' c)).trans ((rops16_keeps (r := main_v79) (by decide) (RW16 m' c)).trans ((rops15_keeps (r := main_v79) (by decide) (RW15 m' c)).trans ((rops14_keeps (r := main_v79) (by decide) (RW14 m' c)).trans ((rops13_keeps (r := main_v79) (by decide) (RW13 m' c)).trans ((rops12_keeps (r := main_v79) (by decide) (RW12 m' c)).trans ((rops11_keeps (r := main_v79) (by decide) (RW11 m' c)).trans (rops10_keeps (r := main_v79) (by decide) (RW10 m' c)))))))))

set_option maxRecDepth 8192 in
theorem keepR_main_v102_11_12 (m' : (ℓ : Loc nD τ sig) → Buf (Elt Ideal) ℓ) (c : Dev nD) :
    RW12 m' c (Proc.devRef .tc main_v102) = RW11 m' c (Proc.devRef .tc main_v102) :=
  rops11_keeps (r := main_v102) (by decide) (RW11 m' c)

set_option maxRecDepth 8192 in
theorem keepR_main_v102_11_13 (m' : (ℓ : Loc nD τ sig) → Buf (Elt Ideal) ℓ) (c : Dev nD) :
    RW13 m' c (Proc.devRef .tc main_v102) = RW11 m' c (Proc.devRef .tc main_v102) :=
  (rops12_keeps (r := main_v102) (by decide) (RW12 m' c)).trans (keepR_main_v102_11_12 m' c)

set_option maxRecDepth 8192 in
theorem keepR_main_v102_11_14 (m' : (ℓ : Loc nD τ sig) → Buf (Elt Ideal) ℓ) (c : Dev nD) :
    RW14 m' c (Proc.devRef .tc main_v102) = RW11 m' c (Proc.devRef .tc main_v102) :=
  (rops13_keeps (r := main_v102) (by decide) (RW13 m' c)).trans (keepR_main_v102_11_13 m' c)

set_option maxRecDepth 8192 in
theorem keepR_main_v295_17_19 (m' : (ℓ : Loc nD τ sig) → Buf (Elt Ideal) ℓ) (c : Dev nD) :
    RW19 m' c (Proc.devRef .tc main_v295) = RW17 m' c (Proc.devRef .tc main_v295) :=
  (rops18_keeps (r := main_v295) (by decide) (RW18 m' c)).trans (rops17_keeps (r := main_v295) (by decide) (RW17 m' c))

end Cert.Glue
-- ==== Proof.Sim.Base.lean ====
/- Common vocabulary of the simulation lemmas: a valuation of the kernel program's references and one of the
   reference program's, both at the exact (extended real) instance. -/
import proofs.«115122_j13357348290767_2_alg».proof.Proof.Gen.KernelIdeal
import proofs.«115122_j13357348290767_2_alg».proof.Proof.Gen.ReferenceIdeal
import Idealize.ShloMosaic.PureOps.Ideal

noncomputable section
namespace Cert.Sim
open Idealize.ShloMosaic

/-- Contents of every reference of the kernel program, at the exact instance. -/
abbrev VK := Valuation Cert.KernelIdeal.τ Cert.KernelIdeal.sig (Elt Ideal)
/-- Contents of every reference of the reference program, at the exact instance. -/
abbrev VR := Valuation Cert.ReferenceIdeal.τ Cert.ReferenceIdeal.sig (Elt Ideal)

/-- Two concatenations of two pieces along the same axis agree when the pieces agree. -/
theorem concat_congr {α : Type} {t s₁ s₂ : Shape} (a : Fin t.rank) (x₁ x₁' : s₁.Idx → α) (x₂ x₂' : s₂.Idx → α)
    (h h' : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h' := by
  subst e₁ e₂; rfl

end Cert.Sim
end
-- ==== Proof.Sim.Src.lean ====
/- The two programs split the edge list the same way: the source and the target node of every edge are the two rows
   of the edge-index argument, sliced and reshaped by the same operations on both sides. -/
import proofs.«115122_j13357348290767_2_alg».proof.Proof.Gen.KernelIdeal.Launch
import proofs.«115122_j13357348290767_2_alg».proof.Proof.R.Ops
import proofs.«115122_j13357348290767_2_alg».proof.Proof.Sim.Base

noncomputable section
namespace Cert.Sim
open Idealize.ShloMosaic Idealize.ShloMosaic.TcCoe Idealize.ShloMosaic.StableHlo
open Cert.KernelIdeal.Gen Cert.ReferenceIdeal.RValue

set_option maxRecDepth 16384 in
set_option maxHeartbeats 4000000 in
theorem sim_src (W : VK) (X : VR)
    (h1 : W (Proc.devRef .tc Cert.KernelIdeal.main_arg1) = X (Proc.devRef .tc Cert.ReferenceIdeal.main_arg1)) :
    StableHlo.after (hostOps0 (F := Ideal)) W (Proc.devRef .tc Cert.KernelIdeal.main_v1)
        = StableHlo.after (rops0 (F := Ideal)) X (Proc.devRef .tc Cert.ReferenceIdeal.main_v1)
      ∧ StableHlo.after (hostOps0 (F := Ideal)) W (Proc.devRef .tc Cert.KernelIdeal.main_v3)
        = StableHlo.after (rops0 (F := Ideal)) X (Proc.devRef .tc Cert.ReferenceIdeal.main_v3) := by
  refine ⟨?_, ?_⟩
  · after_results_simp
    rw [h1]
    rfl
  · after_results_simp
    rw [h1]
    rfl

end Cert.Sim
end
-- ==== Proof.Sim.Parser1.lean ====
/- The first parser layer (a width-3 linear map, a rectifier, a fixed scale) is the same host operations in both
   programs, applied once to each half of the non-image features: equal inputs give equal hidden activations. -/
import proofs.«115122_j13357348290767_2_alg».proof.Proof.Gen.KernelIdeal.Launch
import proofs.«115122_j13357348290767_2_alg».proof.Proof.R.Ops
import proofs.«115122_j13357348290767_2_alg».proof.Proof.Sim.Base

noncomputable section
namespace Cert.Sim
open Idealize.ShloMosaic Idealize.ShloMosaic.TcCoe Idealize.ShloMosaic.StableHlo
open Cert.KernelIdeal.Gen Cert.ReferenceIdeal.RValue

set_option maxRecDepth 16384 in
set_option maxHeartbeats 4000000 in
theorem sim_hA (W : VK) (X : VR)
    (h2 : W (Proc.devRef .tc Cert.KernelIdeal.main_arg2) = X (Proc.devRef .tc Cert.ReferenceIdeal.main_arg2))
    (h21 : W (Proc.devRef .tc Cert.KernelIdeal.main_arg21) = X (Proc.devRef .tc Cert.ReferenceIdeal.main_arg21))
    (h22 : W (Proc.devRef .tc Cert.KernelIdeal.main_arg22) = X (Proc.devRef .tc Cert.ReferenceIdeal.main_arg22)) :
    StableHlo.after (hostOps1 (F := Ideal)) W (Proc.devRef .tc Cert.KernelIdeal.main_v22)
        = StableHlo.after (rops2 (F := Ideal)) X (Proc.devRef .tc Cert.ReferenceIdeal.main_v23) := by
  after_results_simp
  rw [h2, h21, h22]
  rfl

set_option maxRecDepth 16384 in
set_option maxHeartbeats 4000000 in
theorem sim_hB (W : VK) (X : VR)
    (h2 : W (Proc.devRef .tc Cert.KernelIdeal.main_arg2) = X (Proc.devRef .tc Cert.ReferenceIdeal.main_arg2))
    (h21 : W (Proc.devRef .tc Cert.KernelIdeal.main_arg21) = X (Proc.devRef .tc Cert.ReferenceIdeal.main_arg21))
    (h22 : W (Proc.devRef .tc Cert.KernelIdeal.main_arg22) = X (Proc.devRef .tc Cert.ReferenceIdeal.main_arg22)) :
    StableHlo.after (hostOps1 (F := Ideal)) W (Proc.devRef .tc Cert.KernelIdeal.main_v33)
        = StableHlo.after (rops5 (F := Ideal)) X (Proc.devRef .tc Cert.ReferenceIdeal.main_v46) := by
  after_results_simp
  rw [h2, h21, h22]
  rfl

end Cert.Sim
end
-- ==== Proof.Bridge.StageA.lean ====
/- First steps of the comparison: from launch contents that agree on the arguments, the two programs hold the same
   source and target rows of the edge list, and the same hidden activations of the first parser layer on both halves of
   the non-image features. -/
import proofs.«115122_j13357348290767_2_alg».proof.Proof.KI.W
import proofs.«115122_j13357348290767_2_alg».proof.Proof.R.Fold
import proofs.«115122_j13357348290767_2_alg».proof.Proof.Glue.KeepK
import proofs.«115122_j13357348290767_2_alg».proof.Proof.Glue.KeepR
import proofs.«115122_j13357348290767_2_alg».proof.Proof.Sim.Base
import proofs.«115122_j13357348290767_2_alg».proof.Proof.Sim.Src
import proofs.«115122_j13357348290767_2_alg».proof.Proof.Sim.Parser1

set_option maxHeartbeats 4000000
set_option maxRecDepth 16384
noncomputable section
namespace Cert.Bridge
open Idealize.ShloMosaic Idealize.ShloMosaic.TcCoe Idealize.SL.Sem
open Cert.KernelIdeal.Frame Cert.ReferenceIdeal.RValue Cert.Glue Cert.Sim

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

theorem st_src (a1 : W0 (F := Ideal) m ρ c (Proc.devRef .tc Cert.KernelIdeal.main_arg1) = RW0 (F := Ideal) m' c (Proc.devRef .tc Cert.ReferenceIdeal.main_arg1)) :
    W1 (F := Ideal) m ρ c (Proc.devRef .tc Cert.KernelIdeal.main_v1) = RW1 (F := Ideal) m' c (Proc.devRef .tc Cert.ReferenceIdeal.main_v1)
    ∧ W1 (F := Ideal) m ρ c (Proc.devRef .tc Cert.KernelIdeal.main_v3) = RW1 (F := Ideal) m' c (Proc.devRef .tc Cert.ReferenceIdeal.main_v3) :=
  sim_src (W0 (F := Ideal) m ρ c) (RW0 (F := Ideal) m' c) a1

theorem st_hA (a2 : W0 (F := Ideal) m ρ c (Proc.devRef .tc Cert.KernelIdeal.main_arg2) = RW0 (F := Ideal) m' c (Proc.devRef .tc Cert.ReferenceIdeal.main_arg2)) (a21 : W0 (F := Ideal) m ρ c (Proc.devRef .tc Cert.KernelIdeal.main_arg21) = RW0 (F := Ideal) m' c (Proc.devRef .tc Cert.ReferenceIdeal.main_arg21)) (a22 : W0 (F := Ideal) m ρ c (Proc.devRef .tc Cert.KernelIdeal.main_arg22) = RW0 (F := Ideal) m' c (Proc.devRef .tc Cert.ReferenceIdeal.main_arg22)) :
    W3 (F := Ideal) m ρ c (Proc.devRef .tc Cert.KernelIdeal.main_v22) = RW3 (F := Ideal) m' c (Proc.devRef .tc Cert.ReferenceIdeal.main_v23) :=
  sim_hA (W2 (F := Ideal) m ρ c) (RW2 (F := Ideal) m' c) ((Cert.Glue.keepK_arg2_0_2 m ρ c).trans ((a2).trans (Cert.Glue.keepR_main_arg2_0_2 m' c).symm)) ((Cert.Glue.keepK_arg21_0_2 m ρ c).trans ((a21).trans (Cert.Glue.keepR_main_arg21_0_2 m' c).symm)) ((Cert.Glue.keepK_arg22_0_2 m ρ c).trans ((a22).trans (Cert.Glue.keepR_main_arg22_0_2 m' c).symm))

theorem st_hB (a2 : W0 (F := Ideal) m ρ c (Proc.devRef .tc Cert.KernelIdeal.main_arg2) = RW0 (F := Ideal) m' c (Proc.devRef .tc Cert.ReferenceIdeal.main_arg2)) (a21 : W0 (F := Ideal) m ρ c (Proc.devRef .tc Cert.KernelIdeal.main_arg21) = RW0 (F := Ideal) m' c (Proc.devRef .tc Cert.ReferenceIdeal.main_arg21)) (a22 : W0 (F := Ideal) m ρ c (Proc.devRef .tc Cert.KernelIdeal.main_arg22) = RW0 (F := Ideal) m' c (Proc.devRef .tc Cert.ReferenceIdeal.main_arg22)) :
    W3 (F := Ideal) m ρ c (Proc.devRef .tc Cert.KernelIdeal.main_v33) = RW6 (F := Ideal) m' c (Proc.devRef .tc Cert.ReferenceIdeal.main_v46) :=
  sim_hB (W2 (F := Ideal) m ρ c) (RW5 (F := Ideal) m' c) ((Cert.Glue.keepK_arg2_0_2 m ρ c).trans ((a2).trans (Cert.Glue.keepR_main_arg2_0_5 m' c).symm)) ((Cert.Glue.keepK_arg21_0_2 m ρ c).trans ((a21).trans (Cert.Glue.keepR_main_arg21_0_5 m' c).symm)) ((Cert.Glue.keepK_arg22_0_2 m ρ c).trans ((a22).trans (Cert.Glue.keepR_main_arg22_0_5 m' c).symm))

end Cert.Bridge
end
-- ==== Proof.LibDotRow.lean ====
/-
  A matrix product with ONE contracted axis, read at an index, as a sum over the contracted coordinate.

  For dimension numbers `d` of an [M, K] by [K, N] product into [M, N] — the left operand contracted on its
  second axis, the right one on its first — the sum over the contraction index set of
  `L (d.lhsIdx (p, f) k) * R (d.rhsIdx (p, f) k)` is `∑ k : Fin K, L (p, k) * R (k, f)`: the contraction index
  is its one coordinate, the left operand's row is the output's row and the right operand's column the
  output's column. The matrix unit's product into a zero accumulator and the host's `dot_general`, read at
  the exact values, are both that sum.
-/
import Idealize.ShloMosaic.Lib.ValueIdx
import Idealize.ShloMosaic.PureOps.Ideal.Laws

noncomputable section

namespace Idealize.ShloMosaic.DotRow

open Idealize.ShloMosaic Idealize.ShloMosaic.ValueIdx

variable {M K N : Nat}

/-- The contraction's sum over its index set is the sum over the contracted coordinate. -/
theorem sum_contr (d : DotDims ⟨2, ![M, K]⟩ ⟨2, ![K, N]⟩ ⟨2, ![M, N]⟩)
    (hl : d.lhsContracting = [1]) (hr : d.rhsContracting = [0])
    (hrank : d.contr.rank = 1) (hsize : d.contr.size ⟨0, by omega⟩ = K)
    (h0 : ∀ (j : (⟨2, ![M, N]⟩ : Shape).Idx) (k : d.contr.Idx), (d.lhsIdx j k 0).val = (j 0).val)
    (h1 : ∀ (j : (⟨2, ![M, N]⟩ : Shape).Idx) (k : d.contr.Idx), (d.rhsIdx j k 1).val = (j 1).val)
    (L : (⟨2, ![M, K]⟩ : Shape).Idx → EReal) (R : (⟨2, ![K, N]⟩ : Shape).Idx → EReal) (p : Fin M) (f : Fin N) :
    ∑ k : d.contr.Idx, L (d.lhsIdx (ix2 p f) k) * R (d.rhsIdx (ix2 p f) k) = ∑ k : Fin K, L (ix2 p k) * R (ix2 k f) := by
  rw [← Equiv.sum_comp (contrEquiv1 d K hrank hsize).symm]
  refine Finset.sum_congr rfl fun k _ => ?_
  have el : d.lhsIdx (ix2 p f) ((contrEquiv1 d K hrank hsize).symm k) = ix2 p k := by
    funext a; apply Fin.ext
    match a with
    | ⟨0, _⟩ => exact h0 _ _
    | ⟨1, _⟩ =>
      show (d.lhsIdx (ix2 p f) ((contrEquiv1 d K hrank hsize).symm k) 1).val = k.val
      rw [d.lhsIdx_val_of_single hl]
      exact contrEquiv1_symm_val d K hrank hsize k
  have er : d.rhsIdx (ix2 p f) ((contrEquiv1 d K hrank hsize).symm k) = ix2 k f := by
    funext a; apply Fin.ext
    match a with
    | ⟨0, _⟩ =>
      show (d.rhsIdx (ix2 p f) ((contrEquiv1 d K hrank hsize).symm k) 0).val = k.val
      rw [d.rhsIdx_val_of_single hr]
      exact contrEquiv1_symm_val d K hrank hsize k
    | ⟨1, _⟩ => exact h1 _ _
  rw [el, er]

end Idealize.ShloMosaic.DotRow

end
-- ==== Proof.KI.Pay.lean ====
/-
  The payload of each of the six dense layers, read at one index.

  Each layer's body multiplies its left block [tm, Kd] by the whole right operand [Kd, Nn] on the matrix unit
  into a zero accumulator and adds the bias row [1, Nn] broadcast down the rows; the last two layers then clamp
  below at zero and scale by a constant. At the exact values the entry (p, q) of the stored block is therefore

      (∑ k, x0 (p, k) * x1 (k, q)) + x2 (0, q)

  (for the last two layers: max of that and the zero word, times the constant's word). The product is read by
  the matrix unit's law at a zero accumulator and the one-axis contraction's re-indexing; the identity shape
  casts drop; the row broadcast reads row 0.
-/
import proofs.«115122_j13357348290767_2_alg».proof.Proof.Gen.KernelIdeal.Skeleton
import proofs.«115122_j13357348290767_2_alg».proof.Proof.LibDotRow
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Frame

open Cert.KernelIdeal Cert.KernelIdeal.Gen Idealize.ShloMosaic Idealize.ShloMosaic.ValueIdx

/-- The left operand's row is the output's row … -/
theorem dot0_lhs0 (j : S400x1024.Idx) (k : dot_S400x2000_S2000x1024_S400x1024_1_0_0_1_n_n.contr.Idx) : (dot_S400x2000_S2000x1024_S400x1024_1_0_0_1_n_n.lhsIdx j k 0).val = (j 0).val := by
  unfold DotDims.lhsIdx
  rw [dif_neg (show ¬(0 : Fin S400x2000.rank) ∈ dot_S400x2000_S2000x1024_S400x1024_1_0_0_1_n_n.lhsBatch by decide), dif_pos (show (0 : Fin S400x2000.rank) ∈ dot_S400x2000_S2000x1024_S400x1024_1_0_0_1_n_n.lhsNonContracting by decide)]
  rfl
/-- … and the right operand's column the output's column. -/
theorem dot0_rhs1 (j : S400x1024.Idx) (k : dot_S400x2000_S2000x1024_S400x1024_1_0_0_1_n_n.contr.Idx) : (dot_S400x2000_S2000x1024_S400x1024_1_0_0_1_n_n.rhsIdx j k 1).val = (j 1).val := by
  unfold DotDims.rhsIdx
  rw [dif_neg (show ¬(1 : Fin S2000x1024.rank) ∈ dot_S400x2000_S2000x1024_S400x1024_1_0_0_1_n_n.rhsBatch by decide), dif_pos (show (1 : Fin S2000x1024.rank) ∈ dot_S400x2000_S2000x1024_S400x1024_1_0_0_1_n_n.rhsNonContracting by decide)]
  rfl

/-- The left operand's row is the output's row … -/
theorem dot12_lhs0 (j : S2000x128.Idx) (k : dot_S2000x128_S128x128_S2000x128_1_0_0_1_n_n.contr.Idx) : (dot_S2000x128_S128x128_S2000x128_1_0_0_1_n_n.lhsIdx j k 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … and the right operand's column the output's column. -/
theorem dot12_rhs1 (j : S2000x128.Idx) (k : dot_S2000x128_S128x128_S2000x128_1_0_0_1_n_n.contr.Idx) : (dot_S2000x128_S128x128_S2000x128_1_0_0_1_n_n.rhsIdx j k 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The left operand's row is the output's row … -/
theorem dot3_lhs0 (j : S400x512.Idx) (k : dot_S400x1024_S1024x512_S400x512_1_0_0_1_n_n.contr.Idx) : (dot_S400x1024_S1024x512_S400x512_1_0_0_1_n_n.lhsIdx j k 0).val = (j 0).val := by
  unfold DotDims.lhsIdx
  rw [dif_neg (show ¬(0 : Fin S400x1024.rank) ∈ dot_S400x1024_S1024x512_S400x512_1_0_0_1_n_n.lhsBatch by decide), dif_pos (show (0 : Fin S400x1024.rank) ∈ dot_S400x1024_S1024x512_S400x512_1_0_0_1_n_n.lhsNonContracting by decide)]
  rfl
/-- … and the right operand's column the output's column. -/
theorem dot3_rhs1 (j : S400x512.Idx) (k : dot_S400x1024_S1024x512_S400x512_1_0_0_1_n_n.contr.Idx) : (dot_S400x1024_S1024x512_S400x512_1_0_0_1_n_n.rhsIdx j k 1).val = (j 1).val := by
  unfold DotDims.rhsIdx
  rw [dif_neg (show ¬(1 : Fin S1024x512.rank) ∈ dot_S400x1024_S1024x512_S400x512_1_0_0_1_n_n.rhsBatch by decide), dif_pos (show (1 : Fin S1024x512.rank) ∈ dot_S400x1024_S1024x512_S400x512_1_0_0_1_n_n.rhsNonContracting by decide)]
  rfl

/-- The left operand's row is the output's row … -/
theorem dot4_lhs0 (j : S400x256.Idx) (k : dot_S400x64_S64x256_S400x256_1_0_0_1_n_n.contr.Idx) : (dot_S400x64_S64x256_S400x256_1_0_0_1_n_n.lhsIdx j k 0).val = (j 0).val := by
  unfold DotDims.lhsIdx
  rw [dif_neg (show ¬(0 : Fin S400x64.rank) ∈ dot_S400x64_S64x256_S400x256_1_0_0_1_n_n.lhsBatch by decide), dif_pos (show (0 : Fin S400x64.rank) ∈ dot_S400x64_S64x256_S400x256_1_0_0_1_n_n.lhsNonContracting by decide)]
  rfl
/-- … and the right operand's column the output's column. -/
theorem dot4_rhs1 (j : S400x256.Idx) (k : dot_S400x64_S64x256_S400x256_1_0_0_1_n_n.contr.Idx) : (dot_S400x64_S64x256_S400x256_1_0_0_1_n_n.rhsIdx j k 1).val = (j 1).val := by
  unfold DotDims.rhsIdx
  rw [dif_neg (show ¬(1 : Fin S64x256.rank) ∈ dot_S400x64_S64x256_S400x256_1_0_0_1_n_n.rhsBatch by decide), dif_pos (show (1 : Fin S64x256.rank) ∈ dot_S400x64_S64x256_S400x256_1_0_0_1_n_n.rhsNonContracting by decide)]
  rfl

/-- The left operand's row is the output's row … -/
theorem dot5_lhs0 (j : S400x256.Idx) (k : dot_S400x512_S512x256_S400x256_1_0_0_1_n_n.contr.Idx) : (dot_S400x512_S512x256_S400x256_1_0_0_1_n_n.lhsIdx j k 0).val = (j 0).val := by
  unfold DotDims.lhsIdx
  rw [dif_neg (show ¬(0 : Fin S400x512.rank) ∈ dot_S400x512_S512x256_S400x256_1_0_0_1_n_n.lhsBatch by decide), dif_pos (show (0 : Fin S400x512.rank) ∈ dot_S400x512_S512x256_S400x256_1_0_0_1_n_n.lhsNonContracting by decide)]
  rfl
/-- … and the right operand's column the output's column. -/
theorem dot5_rhs1 (j : S400x256.Idx) (k : dot_S400x512_S512x256_S400x256_1_0_0_1_n_n.contr.Idx) : (dot_S400x512_S512x256_S400x256_1_0_0_1_n_n.rhsIdx j k 1).val = (j 1).val := by
  unfold DotDims.rhsIdx
  rw [dif_neg (show ¬(1 : Fin S512x256.rank) ∈ dot_S400x512_S512x256_S400x256_1_0_0_1_n_n.rhsBatch by decide), dif_pos (show (1 : Fin S512x256.rank) ∈ dot_S400x512_S512x256_S400x256_1_0_0_1_n_n.rhsNonContracting by decide)]
  rfl

/-- Layer 0's stored block at (p, q). -/
theorem pay0_apply (x0 : FVec Ideal S400x2000 .bf16) (x1 : FVec Ideal S2000x1024 .bf16) (x2 : FVec Ideal S1x1024 .f32) (p : Fin 400) (q : Fin 1024) :
    Gen.k0_pay1 (F := Ideal) x0 x1 x2 (ix2 p q) = (∑ k : Fin 2000, x0 (ix2 p k) * x1 (ix2 k q)) + x2 (ix2 0 q) := by
  unfold Gen.k0_pay1
  simp only [shapeCast_self]
  rw [addf_apply]
  refine congrArg₂ (· + ·) ?_ ?_
  · refine (Ideal.matmul_constant_zero_apply dot_S400x2000_S2000x1024_S400x1024_1_0_0_1_n_n none x0 x1 (ix2 p q)).trans ?_
    exact DotRow.sum_contr dot_S400x2000_S2000x1024_S400x1024_1_0_0_1_n_n rfl rfl rfl rfl dot0_lhs0 dot0_rhs1 x0 x1 p q
  · exact broadcastTo_1b_ab_apply x2 _ p q

/-- Layer 1's stored block at (p, q). -/
theorem pay1_apply (x0 : FVec Ideal S2000x128 .bf16) (x1 : FVec Ideal S128x128 .bf16) (x2 : FVec Ideal S1x128 .f32) (p : Fin 2000) (q : Fin 128) :
    Gen.k1_pay1 (F := Ideal) x0 x1 x2 (ix2 p q) = (∑ k : Fin 128, x0 (ix2 p k) * x1 (ix2 k q)) + x2 (ix2 0 q) := by
  unfold Gen.k1_pay1
  simp only [shapeCast_self]
  rw [addf_apply]
  refine congrArg₂ (· + ·) ?_ ?_
  · refine (Ideal.matmul_constant_zero_apply dot_S2000x128_S128x128_S2000x128_1_0_0_1_n_n none x0 x1 (ix2 p q)).trans ?_
    exact DotRow.sum_contr dot_S2000x128_S128x128_S2000x128_1_0_0_1_n_n rfl rfl rfl rfl dot12_lhs0 dot12_rhs1 x0 x1 p q
  · exact broadcastTo_1b_ab_apply x2 _ p q

/-- Layer 2's stored block at (p, q). -/
theorem pay2_apply (x0 : FVec Ideal S2000x128 .bf16) (x1 : FVec Ideal S128x128 .bf16) (x2 : FVec Ideal S1x128 .f32) (p : Fin 2000) (q : Fin 128) :
    Gen.k2_pay1 (F := Ideal) x0 x1 x2 (ix2 p q) = (∑ k : Fin 128, x0 (ix2 p k) * x1 (ix2 k q)) + x2 (ix2 0 q) := by
  unfold Gen.k2_pay1
  simp only [shapeCast_self]
  rw [addf_apply]
  refine congrArg₂ (· + ·) ?_ ?_
  · refine (Ideal.matmul_constant_zero_apply dot_S2000x128_S128x128_S2000x128_1_0_0_1_n_n none x0 x1 (ix2 p q)).trans ?_
    exact DotRow.sum_contr dot_S2000x128_S128x128_S2000x128_1_0_0_1_n_n rfl rfl rfl rfl dot12_lhs0 dot12_rhs1 x0 x1 p q
  · exact broadcastTo_1b_ab_apply x2 _ p q

/-- Layer 3's stored block at (p, q). -/
theorem pay3_apply (x0 : FVec Ideal S400x1024 .bf16) (x1 : FVec Ideal S1024x512 .bf16) (x2 : FVec Ideal S1x512 .f32) (p : Fin 400) (q : Fin 512) :
    Gen.k3_pay1 (F := Ideal) x0 x1 x2 (ix2 p q) = (∑ k : Fin 1024, x0 (ix2 p k) * x1 (ix2 k q)) + x2 (ix2 0 q) := by
  unfold Gen.k3_pay1
  simp only [shapeCast_self]
  rw [addf_apply]
  refine congrArg₂ (· + ·) ?_ ?_
  · refine (Ideal.matmul_constant_zero_apply dot_S400x1024_S1024x512_S400x512_1_0_0_1_n_n none x0 x1 (ix2 p q)).trans ?_
    exact DotRow.sum_contr dot_S400x1024_S1024x512_S400x512_1_0_0_1_n_n rfl rfl rfl rfl dot3_lhs0 dot3_rhs1 x0 x1 p q
  · exact broadcastTo_1b_ab_apply x2 _ p q

/-- Layer 4's stored block at (p, q). -/
theorem pay4_apply (x0 : FVec Ideal S400x64 .bf16) (x1 : FVec Ideal S64x256 .bf16) (x2 : FVec Ideal S1x256 .f32) (p : Fin 400) (q : Fin 256) :
    Gen.k4_pay1 (F := Ideal) x0 x1 x2 (ix2 p q) = max ((∑ k : Fin 64, x0 (ix2 p k) * x1 (ix2 k q)) + x2 (ix2 0 q)) (Ideal.ofBits .f32 0x00000000#32) * Ideal.ofBits .f32 0x3F7FFFAC#32 := by
  unfold Gen.k4_pay1
  simp only [shapeCast_self]
  rw [mulf_apply, maximumf_apply, broadcast_apply, broadcast_apply]
  refine congrArg (fun z => max z (Ideal.ofBits .f32 0x00000000#32) * Ideal.ofBits .f32 0x3F7FFFAC#32) ?_
  rw [addf_apply]
  refine congrArg₂ (· + ·) ?_ ?_
  · refine (Ideal.matmul_constant_zero_apply dot_S400x64_S64x256_S400x256_1_0_0_1_n_n none x0 x1 (ix2 p q)).trans ?_
    exact DotRow.sum_contr dot_S400x64_S64x256_S400x256_1_0_0_1_n_n rfl rfl rfl rfl dot4_lhs0 dot4_rhs1 x0 x1 p q
  · exact broadcastTo_1b_ab_apply x2 _ p q

/-- Layer 5's stored block at (p, q). -/
theorem pay5_apply (x0 : FVec Ideal S400x512 .bf16) (x1 : FVec Ideal S512x256 .bf16) (x2 : FVec Ideal S1x256 .f32) (p : Fin 400) (q : Fin 256) :
    Gen.k5_pay1 (F := Ideal) x0 x1 x2 (ix2 p q) = max ((∑ k : Fin 512, x0 (ix2 p k) * x1 (ix2 k q)) + x2 (ix2 0 q)) (Ideal.ofBits .f32 0x00000000#32) * Ideal.ofBits .f32 0x3F7FFFAC#32 := by
  unfold Gen.k5_pay1
  simp only [shapeCast_self]
  rw [mulf_apply, maximumf_apply, broadcast_apply, broadcast_apply]
  refine congrArg (fun z => max z (Ideal.ofBits .f32 0x00000000#32) * Ideal.ofBits .f32 0x3F7FFFAC#32) ?_
  rw [addf_apply]
  refine congrArg₂ (· + ·) ?_ ?_
  · refine (Ideal.matmul_constant_zero_apply dot_S400x512_S512x256_S400x256_1_0_0_1_n_n none x0 x1 (ix2 p q)).trans ?_
    exact DotRow.sum_contr dot_S400x512_S512x256_S400x256_1_0_0_1_n_n rfl rfl rfl rfl dot5_lhs0 dot5_rhs1 x0 x1 p q
  · exact broadcastTo_1b_ab_apply x2 _ p q

end Cert.KernelIdeal.Frame

end
-- ==== Proof.KI.Val0.lean ====
/-
  Dense layer 0, from its row blocks to its output array.

  The layer runs over 50 grid points; point t reads rows 400·t … 400·t + 399 of the left operand, the whole
  right operand and the bias row, and writes back the same rows of the output. Entry (r, j) of the output
  array after the layer is therefore

      (∑ k, A (r, k) * B (k, j)) + b (0, j)

  of the arrays A, B, b the layer finds: what each point writes back is the block of that one function of the
  whole arrays (the payload at an index, each input block read at block index × block size + the coordinate
  inside the block), and the 50 blocks tile the array (row r is in the block of point r / 400).
-/
import proofs.«115122_j13357348290767_2_alg».proof.Proof.KI.Reg0
import proofs.«115122_j13357348290767_2_alg».proof.Proof.KI.Pay
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.ShloMosaic.Pipeline (Dat Cfg Window)

/-- The layer's output as one function of the arrays it finds. -/
def lin0 (A : FVec Ideal S20000x2000 .bf16) (B : FVec Ideal S2000x1024 .bf16) (b : FVec Ideal S1x1024 .f32) : FVec Ideal S20000x1024 .f32 := fun i =>
  (∑ k : Fin 2000, A (ix2 (i 0) k) * B (ix2 k (i 1))) + b (ix2 (0 : Fin 1) (i 1))

theorem lin0_apply (A : FVec Ideal S20000x2000 .bf16) (B : FVec Ideal S2000x1024 .bf16) (b : FVec Ideal S1x1024 .f32) (r : Fin 20000) (j : Fin 1024) :
    lin0 A B b (ix2 r j) = (∑ k : Fin 2000, A (ix2 r k) * B (ix2 k j)) + b (ix2 (0 : Fin 1) j) := rfl

/-- The body's payload at a point of its block is the layer's function at an index of the array, as soon as the
    three loaded blocks read the arrays where that index says. -/
theorem point0 (A : FVec Ideal S20000x2000 .bf16) (B : FVec Ideal S2000x1024 .bf16) (b : FVec Ideal S1x1024 .f32) (x0 : FVec Ideal S400x2000 .bf16) (x1 : FVec Ideal S2000x1024 .bf16) (x2 : FVec Ideal S1x1024 .f32)
    (y : S400x1024.Idx) (p : Fin 400) (q : Fin 1024) (hy : y = ix2 p q) (i : S20000x1024.Idx) (r : Fin 20000) (s : Fin 1024) (hi : i = ix2 r s)
    (h0 : ∀ k : Fin 2000, x0 (ix2 p k) = A (ix2 r k)) (h1 : ∀ k : Fin 2000, x1 (ix2 k q) = B (ix2 k s))
    (h2 : x2 (ix2 (0 : Fin 1) q) = b (ix2 (0 : Fin 1) s)) :
    Gen.k0_pay1 (F := Ideal) x0 x1 x2 y = lin0 A B b i := by
  subst hy hi
  rw [pay0_apply, lin0_apply, h2]
  refine congrArg₂ (· + ·) (Finset.sum_congr rfl fun k _ => ?_) rfl
  rw [h0, h1]

/-- The printed index maps over the grid: the left operand's and the output's row-block index is the point, every
    other block index is 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem zero_off0 : (![0, 0] : Fin 2 → Nat) = fun _ => 0 := funext fun a => by fin_cases a <;> rfl

variable (V : (c : Dev nD) → (b : Ref sig .tc) → Buf (Elt Ideal) ((c : Thread nD τ).loc b))

/-- What point t writes back is block t of the layer's function of the arrays. -/
theorem flushed0_eq (c : Dev nD) (A : FVec Ideal S20000x2000 .bf16) (B : FVec Ideal S2000x1024 .bf16) (b : FVec Ideal S1x1024 .f32)
    (hA : V c main_v4 = A) (hB : V c main_v8 = B) (hb : V c main_v9 = b) (t : Fin cfg0.N) :
    (dat0 (F := Ideal) V c).flushed 3 t = ((cfg0.win 3).blk t).view.read (Elt Ideal) (lin0 A B b) := by
  subst hA hB hb
  show (cfg0.win 3).cut (grid0.coords t) ((dat0 V c).after 3 t) = _
  rw [after0_3]
  unfold out0_3
  rw [View.canon_unit_zero zero_off0]
  simp only [View.ld_unit_zero (S := S400x2000) zero_off0, View.ld_unit_zero (S := S2000x1024) zero_off0, View.ld_unit_zero (S := S1x1024) zero_off0]
  obtain ⟨e00, e01, e10, e11, e20, e21, e30, e31⟩ := idx_facts0 t
  funext y
  refine point0 _ _ _ _ _ _ y (y 0) (y 1) (eq_ix2 y) (((cfg0.win 3).blk t).view.emb y) (((cfg0.win 3).blk t).view.emb y 0) (((cfg0.win 3).blk t).view.emb y 1) (eq_ix2 _) (fun k => ?_) (fun k => ?_) ?_
  · show V c main_v4 (((cfg0.win 0).blk t).view.emb (ix2 (y 0) k)) = V c main_v4 (ix2 (((cfg0.win 3).blk t).view.emb y 0) k)
    refine congrArg _ (funext fun a => Fin.ext ?_)
    match a with
    | ⟨0, _⟩ => show win0_0.index t (0 : Fin 2) * 400 + 1 * (y 0).val = win0_3.index t (0 : Fin 2) * 400 + 1 * (y 0).val; omega
    | ⟨1, _⟩ => show win0_0.index t (1 : Fin 2) * 2000 + 1 * k.val = k.val; omega
  · show V c main_v8 (((cfg0.win 1).blk t).view.emb (ix2 k (y 1))) = V c main_v8 (ix2 k (((cfg0.win 3).blk t).view.emb y 1))
    refine congrArg _ (funext fun a => Fin.ext ?_)
    match a with
    | ⟨0, _⟩ => show win0_1.index t (0 : Fin 2) * 2000 + 1 * k.val = k.val; omega
    | ⟨1, _⟩ => show win0_1.index t (1 : Fin 2) * 1024 + 1 * (y 1).val = win0_3.index t (1 : Fin 2) * 1024 + 1 * (y 1).val; omega
  · show V c main_v9 (((cfg0.win 2).blk t).view.emb (ix2 (0 : Fin 1) (y 1))) = V c main_v9 (ix2 (0 : Fin 1) (((cfg0.win 3).blk t).view.emb y 1))
    refine congrArg _ (funext fun a => Fin.ext ?_)
    match a with
    | ⟨0, _⟩ => show win0_2.index t (0 : Fin 2) * 1 + 1 * 0 = 0; omega
    | ⟨1, _⟩ => show win0_2.index t (1 : Fin 2) * 1024 + 1 * (y 1).val = win0_3.index t (1 : Fin 2) * 1024 + 1 * (y 1).val; omega

/-- An index of the output array is in point t's block iff each coordinate is in the block's range on its axis. -/
theorem mem_blk0 (t : Fin cfg0.N) (i : S20000x1024.Idx) :
    i ∈ ((cfg0.win 3).blk t).view.set ↔ ∀ a : Fin 2, win0_3.index t a * S400x1024.size a ≤ (i a).val ∧ (i a).val < win0_3.index t a * S400x1024.size a + S400x1024.size a := by
  show i ∈ ((View.whole main_v10).slice (win0_3.rect t)).set ↔ _
  rw [View.set_slice_whole, Rect.mem_set_unit]
  exact Iff.rfl

/-- The 50 row blocks tile the output array: row r is in the block of point r / 400. -/
theorem cover0 (i : S20000x1024.Idx) : ∃ t : Fin cfg0.N, (cfg0.win 3).flush t = true ∧ i ∈ ((cfg0.win 3).blk t).view.set := by
  have hi0 : (i 0).val < 20000 := (i 0).isLt
  have hi1 : (i 1).val < 1024 := (i 1).isLt
  obtain ⟨t, ht⟩ : ∃ t : Fin cfg0.N, t.val = (i 0).val / 400 :=
    ⟨⟨(i 0).val / 400, by show _ < grid0.N; rw [N_0]; omega⟩, rfl⟩
  obtain ⟨-, -, -, -, -, -, e30, e31⟩ := idx_facts0 t
  refine ⟨t, flush0_3 t, ?_⟩
  rw [mem_blk0]
  intro a
  match a with
  | ⟨0, _⟩ => show win0_3.index t (0 : Fin 2) * 400 ≤ (i 0).val ∧ (i 0).val < win0_3.index t (0 : Fin 2) * 400 + 400; omega
  | ⟨1, _⟩ => show win0_3.index t (1 : Fin 2) * 1024 ≤ (i 1).val ∧ (i 1).val < win0_3.index t (1 : Fin 2) * 1024 + 1024; omega

/-- THE OUTPUT ARRAY after the layer, entry by entry, of the arrays the layer finds. -/
theorem final0 (c : Dev nD) (A : FVec Ideal S20000x2000 .bf16) (B : FVec Ideal S2000x1024 .bf16) (b : FVec Ideal S1x1024 .f32)
    (hA : V c main_v4 = A) (hB : V c main_v8 = B) (hb : V c main_v9 = b) (r : Fin 20000) (j : Fin 1024) :
    ((dat0 (F := Ideal) V c).arrAt 3 cfg0.N : FVec Ideal S20000x1024 .f32) (ix2 r j) = (∑ k : Fin 2000, A (ix2 r k) * B (ix2 k j)) + b (ix2 (0 : Fin 1) j) :=
  (congrFun ((dat0 (F := Ideal) V c).arrAt_eq_of_cover 3 (lin0 A B b) (fun t _ => flushed0_eq V c A B b hA hB hb t) cover0) (ix2 r j)).trans
    (lin0_apply A B b r j)

end Cert.KernelIdeal.Frame

end
-- ==== Proof.Sim.DenseEiesK.lean ====
/- The fused encoder's prepared operands, read at an index.

   Before the first dense layer the program casts the node features to the narrow float type, stacks the two
   encoder weight matrices [512, 2000] one above the other into a [1024, 2000] matrix, casts and transposes it
   into [2000, 1024], and stacks the two bias vectors [512] into a row [1, 1024]. At the exact values a cast is
   the identity, so: the left operand at (r, k) is the feature matrix at (r, k); the right operand at (k, j) is
   the first weight matrix at (j, k) for j < 512 and the second at (j - 512, k) for 512 ≤ j; the bias row at
   (0, j) is the first bias at j for j < 512 and the second at j - 512 otherwise. -/
import proofs.«115122_j13357348290767_2_alg».proof.Proof.Gen.KernelIdeal.Launch
import proofs.«115122_j13357348290767_2_alg».proof.Proof.Sim.Base
import Idealize.ShloMosaic.Lib.StableHlo.Run
import Idealize.ShloMosaic.Lib.ValueIdx
import Idealize.ShloMosaic.Lib.Pipeline.Value

noncomputable section

namespace Cert.Sim

open Idealize.ShloMosaic Idealize.ShloMosaic.TcCoe Idealize.ShloMosaic.StableHlo Idealize.ShloMosaic.ValueIdx
open Cert.KernelIdeal Cert.KernelIdeal.Gen

/-- The left operand: the feature matrix. -/
theorem enc_lhs_apply (W : VK) (r : Fin 20000) (k : Fin 2000) :
    after (hostOps0 (F := Ideal)) W (Proc.devRef .tc main_v4) (ix2 r k) = W (Proc.devRef .tc main_arg0) (ix2 r k) := by
  after_results
  rfl

/-- The right operand's first 512 columns: the first weight matrix, transposed. -/
theorem enc_rhs_apply_lo (W : VK) (k : Fin 2000) (j : Fin 512) :
    after (hostOps0 (F := Ideal)) W (Proc.devRef .tc main_v8) (ix2 k (⟨j.val, by omega⟩ : Fin 1024))
      = W (Proc.devRef .tc main_arg3) (ix2 j k) := by
  after_results
  refine (transpose_apply [1, 0] _ transposes_S1024x2000_S2000x1024_1_0 _ (ix2 (⟨j.val, by omega⟩ : Fin 1024) k)
    (fun b => match b with | ⟨0, _⟩ => rfl | ⟨1, _⟩ => rfl)).trans ?_
  rw [truncf_apply]
  exact concatenate_pair_apply_left (t := S1024x2000) (s₁ := S512x2000) (s₂ := S512x2000) (0 : Fin 2) _ _ concatenates_S512x2000_S512x2000_S1024x2000_d0 _ rfl (ix2 j k)
    (fun b => match b with | ⟨0, _⟩ => rfl | ⟨1, _⟩ => rfl)

/-- The right operand's last 512 columns: the second weight matrix, transposed. -/
theorem enc_rhs_apply_hi (W : VK) (k : Fin 2000) (j : Fin 512) :
    after (hostOps0 (F := Ideal)) W (Proc.devRef .tc main_v8) (ix2 k (⟨512 + j.val, by omega⟩ : Fin 1024))
      = W (Proc.devRef .tc main_arg5) (ix2 j k) := by
  after_results
  refine (transpose_apply [1, 0] _ transposes_S1024x2000_S2000x1024_1_0 _ (ix2 (⟨512 + j.val, by omega⟩ : Fin 1024) k)
    (fun b => match b with | ⟨0, _⟩ => rfl | ⟨1, _⟩ => rfl)).trans ?_
  rw [truncf_apply]
  exact concatenate_pair_apply_right (t := S1024x2000) (s₁ := S512x2000) (s₂ := S512x2000) (0 : Fin 2) _ _ concatenates_S512x2000_S512x2000_S1024x2000_d0 _ rfl rfl (ix2 j k)
    (fun b hb => match b, hb with | ⟨0, _⟩, hb => absurd rfl hb | ⟨1, _⟩, _ => rfl)
    (by show j.val + 512 = 512 + j.val; omega)

/-- The bias row's first 512 entries: the first bias vector. -/
theorem enc_bias_apply_lo (W : VK) (j : Fin 512) :
    after (hostOps0 (F := Ideal)) W (Proc.devRef .tc main_v9) (ix2 (0 : Fin 1) (⟨j.val, by omega⟩ : Fin 1024))
      = W (Proc.devRef .tc main_arg4) (ix1 j) := by
  after_results
  refine (shapeCast_apply _ shapeCasts_S1024_S1x1024 _ (ix1 (⟨j.val, by omega⟩ : Fin 1024))
    (by rewrite [Shape.rowMajor_val_two, Shape.rowMajor_val_one]; show j.val = 0 * 1024 + j.val; omega)).trans ?_
  exact concatenate_pair_apply_left (t := S1024) (s₁ := S512) (s₂ := S512) (0 : Fin 1) _ _ concatenates_S512_S512_S1024_d0 _ rfl (ix1 j)
    (fun b => match b with | ⟨0, _⟩ => rfl)

/-- The bias row's last 512 entries: the second bias vector. -/
theorem enc_bias_apply_hi (W : VK) (j : Fin 512) :
    after (hostOps0 (F := Ideal)) W (Proc.devRef .tc main_v9) (ix2 (0 : Fin 1) (⟨512 + j.val, by omega⟩ : Fin 1024))
      = W (Proc.devRef .tc main_arg6) (ix1 j) := by
  after_results
  refine (shapeCast_apply _ shapeCasts_S1024_S1x1024 _ (ix1 (⟨512 + j.val, by omega⟩ : Fin 1024))
    (by rewrite [Shape.rowMajor_val_two, Shape.rowMajor_val_one]; show 512 + j.val = 0 * 1024 + (512 + j.val); omega)).trans ?_
  exact concatenate_pair_apply_right (t := S1024) (s₁ := S512) (s₂ := S512) (0 : Fin 1) _ _ concatenates_S512_S512_S1024_d0 _ rfl rfl (ix1 j)
    (fun b hb => match b, hb with | ⟨0, _⟩, hb => absurd rfl hb)
    (by show j.val + 512 = 512 + j.val; omega)

end Cert.Sim

end
-- ==== Proof.LibBroadcastInDim.lean ====
/-
  `stablehlo.broadcast_in_dim` read at an index, for the five patterns a `jnp` program of matrices and vectors lowers to: a scalar to any
  shape; a vector `[n]` to a row `[1, n]` or to a column `[n, 1]`; a row `[1, n]` to `[m, n]`; a column `[n, 1]` to `[n, m]`.
-/
import Idealize.ShloMosaic.Lib.ValueLayout
import Idealize.ShloMosaic.Lib.Pipeline.Value

namespace Idealize.ShloMosaic.ValueIdx

variable {α : Type}

/-- A scalar broadcast to any shape reads the scalar everywhere. -/
theorem broadcastInDim_scalar_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 (fun a => a.elim0)

/-- A vector `[n]` as a row `[1, n]` (its axis sent to axis 1), at `(0, c)`. -/
theorem broadcastInDim_n_1n_apply {n : ℕ} (x : (⟨1, ![n]⟩ : Shape).Idx → α)
    (h : (⟨1, ![n]⟩ : Shape).BroadcastsInDim ⟨2, ![1, n]⟩ ![1]) (c : Fin n) :
    broadcastInDim ⟨2, ![1, n]⟩ ![1] h x (ix2 (0 : Fin 1) c) = x (ix1 c) := by
  refine broadcastInDim_apply _ h x _ (ix1 c) fun a => ?_
  match a with
  | ⟨0, _⟩ =>
    show c.val = if n = 1 then 0 else c.val
    split
    · have := c.isLt; omega
    · rfl

/-- A vector `[n]` as a column `[n, 1]` (its axis sent to axis 0), at `(e, 0)`. -/
theorem broadcastInDim_n_n1_apply {n : ℕ} (x : (⟨1, ![n]⟩ : Shape).Idx → α)
    (h : (⟨1, ![n]⟩ : Shape).BroadcastsInDim ⟨2, ![n, 1]⟩ ![0]) (e : Fin n) :
    broadcastInDim ⟨2, ![n, 1]⟩ ![0] h x (ix2 e (0 : Fin 1)) = x (ix1 e) := by
  refine broadcastInDim_apply _ h x _ (ix1 e) fun a => ?_
  match a with
  | ⟨0, _⟩ =>
    show e.val = if n = 1 then 0 else e.val
    split
    · have := e.isLt; omega
    · rfl

/-- A row `[1, n]` broadcast to `[m, n]`, at `(p, c)`. -/
theorem broadcastInDim_1n_mn_apply {m n : ℕ} (x : (⟨2, ![1, n]⟩ : Shape).Idx → α)
    (h : (⟨2, ![1, n]⟩ : Shape).BroadcastsInDim ⟨2, ![m, n]⟩ ![0, 1]) (p : Fin m) (c : Fin n) :
    broadcastInDim ⟨2, ![m, n]⟩ ![0, 1] h x (ix2 p c) = x (ix2 (0 : Fin 1) c) := by
  refine broadcastInDim_apply _ h x _ (ix2 (0 : Fin 1) c) fun a => ?_
  match a with
  | ⟨0, _⟩ => rfl
  | ⟨1, _⟩ =>
    show c.val = if n = 1 then 0 else c.val
    split
    · have := c.isLt; omega
    · rfl

/-- A column `[n, 1]` broadcast to `[n, m]`, at `(e, f)`. -/
theorem broadcastInDim_n1_nm_apply {n m : ℕ} (x : (⟨2, ![n, 1]⟩ : Shape).Idx → α)
    (h : (⟨2, ![n, 1]⟩ : Shape).BroadcastsInDim ⟨2, ![n, m]⟩ ![0, 1]) (e : Fin n) (f : Fin m) :
    broadcastInDim ⟨2, ![n, m]⟩ ![0, 1] h x (ix2 e f) = x (ix2 e (0 : Fin 1)) := by
  refine broadcastInDim_apply _ h x _ (ix2 e (0 : Fin 1)) fun a => ?_
  match a with
  | ⟨0, _⟩ =>
    show e.val = if n = 1 then 0 else e.val
    split
    · have := e.isLt; omega
    · rfl
  | ⟨1, _⟩ => rfl

end Idealize.ShloMosaic.ValueIdx
-- ==== Proof.Sim.DenseEiesR.lean ====
/- The reference's two encoder layers, read at an index.

   The reference computes each encoder as a matrix product of the feature matrix [20000, 2000] with the
   transposed weight matrix [512, 2000], plus the bias vector [512] broadcast along the rows. At the exact
   values the product at (r, j) is the sum over k of features (r, k) times weights (j, k), so each layer's
   output at (r, j) is that sum plus the bias at j. -/
import proofs.«115122_j13357348290767_2_alg».proof.Proof.R.Ops
import proofs.«115122_j13357348290767_2_alg».proof.Proof.Sim.Base
import proofs.«115122_j13357348290767_2_alg».proof.Proof.LibDotRow
import proofs.«115122_j13357348290767_2_alg».proof.Proof.LibBroadcastInDim
import Idealize.ShloMosaic.Lib.StableHlo.Run
import Idealize.ShloMosaic.Lib.ValueIdx
import Idealize.ShloMosaic.Lib.Pipeline.Value
import Idealize.ShloMosaic.PureOps.Ideal.Laws

noncomputable section

namespace Cert.Sim

open Idealize.ShloMosaic Idealize.ShloMosaic.TcCoe Idealize.ShloMosaic.StableHlo Idealize.ShloMosaic.ValueIdx
open Cert.ReferenceIdeal Cert.ReferenceIdeal.Gen Cert.ReferenceIdeal.RValue

/-- The product's left index keeps the output's row. -/
theorem enc_dot_lhs0 (i : S20000x512.Idx) (q : dot_S20000x2000_S2000x512_S20000x512_1_0_0_1_n_n.contr.Idx) :
    (dot_S20000x2000_S2000x512_S20000x512_1_0_0_1_n_n.lhsIdx i q 0).val = (i 0).val := by
  unfold DotDims.lhsIdx
  rw [dif_neg (show ¬(0 : Fin S20000x2000.rank) ∈ dot_S20000x2000_S2000x512_S20000x512_1_0_0_1_n_n.lhsBatch by decide),
    dif_pos (show (0 : Fin S20000x2000.rank) ∈ dot_S20000x2000_S2000x512_S20000x512_1_0_0_1_n_n.lhsNonContracting by decide)]
  rfl

/-- The product's right index keeps the output's column. -/
theorem enc_dot_rhs1 (i : S20000x512.Idx) (q : dot_S20000x2000_S2000x512_S20000x512_1_0_0_1_n_n.contr.Idx) :
    (dot_S20000x2000_S2000x512_S20000x512_1_0_0_1_n_n.rhsIdx i q 1).val = (i 1).val := by
  unfold DotDims.rhsIdx
  rw [dif_neg (show ¬(1 : Fin S2000x512.rank) ∈ dot_S20000x2000_S2000x512_S20000x512_1_0_0_1_n_n.rhsBatch by decide),
    dif_pos (show (1 : Fin S2000x512.rank) ∈ dot_S20000x2000_S2000x512_S20000x512_1_0_0_1_n_n.rhsNonContracting by decide)]
  rfl

/-- One encoder layer at an index: features times transposed weights, plus the bias, for any feature matrix
    `x`, weight matrix `w` and bias vector `b`. -/
theorem enc_layer_apply (x : FVec Ideal S20000x2000 .f32) (w : FVec Ideal S512x2000 .f32) (b : FVec Ideal S512 .f32)
    (r : Fin 20000) (j : Fin 512) :
    addf (F := Ideal) (Host.dotGeneral (F := Ideal) dot_S20000x2000_S2000x512_S20000x512_1_0_0_1_n_n none x
        (transpose S2000x512 [1, 0] w transposes_S512x2000_S2000x512_1_0))
      (broadcastInDim S20000x512 ![0, 1] bcast_S1x512_S20000x512_0_1 (broadcastInDim S1x512 ![1] bcast_S512_S1x512_1 b))
      (ix2 r j)
      = (∑ k : Fin 2000, x (ix2 r k) * w (ix2 j k)) + b (ix1 j) := by
  rw [addf_apply]
  simp only [Host.dotGeneral]
  rw [Ideal.dotGeneral_apply,
    DotRow.sum_contr dot_S20000x2000_S2000x512_S20000x512_1_0_0_1_n_n rfl rfl rfl rfl enc_dot_lhs0 enc_dot_rhs1,
    broadcastInDim_1n_mn_apply, broadcastInDim_n_1n_apply]
  congr 1
  refine Finset.sum_congr rfl fun k _ => ?_
  congr 1
  exact transpose_apply [1, 0] w transposes_S512x2000_S2000x512_1_0 (ix2 k j) (ix2 j k)
    (fun b => match b with | ⟨0, _⟩ => rfl | ⟨1, _⟩ => rfl)

/-- The first encoder's output, in terms of the features `x0`, the weights `x3` and the bias `x4` the reference holds. -/
theorem ref_ei_apply (X : VR) (x0 : FVec Ideal S20000x2000 .f32) (x3 : FVec Ideal S512x2000 .f32) (x4 : FVec Ideal S512 .f32)
    (h0 : X (Proc.devRef .tc main_arg0) = x0) (h3 : X (Proc.devRef .tc main_arg3) = x3) (h4 : X (Proc.devRef .tc main_arg4) = x4)
    (r : Fin 20000) (j : Fin 512) :
    after (rops1 (F := Ideal)) X (Proc.devRef .tc main_v8) (ix2 r j)
      = (∑ k : Fin 2000, x0 (ix2 r k) * x3 (ix2 j k)) + x4 (ix1 j) := by
  subst h0 h3 h4
  after_results
  exact enc_layer_apply _ _ _ r j

/-- The second encoder's output, in terms of the features `x0`, the weights `x5` and the bias `x6` the reference holds. -/
theorem ref_es_apply (X : VR) (x0 : FVec Ideal S20000x2000 .f32) (x5 : FVec Ideal S512x2000 .f32) (x6 : FVec Ideal S512 .f32)
    (h0 : X (Proc.devRef .tc main_arg0) = x0) (h5 : X (Proc.devRef .tc main_arg5) = x5) (h6 : X (Proc.devRef .tc main_arg6) = x6)
    (r : Fin 20000) (j : Fin 512) :
    after (rops1 (F := Ideal)) X (Proc.devRef .tc main_v13) (ix2 r j)
      = (∑ k : Fin 2000, x0 (ix2 r k) * x5 (ix2 j k)) + x6 (ix1 j) := by
  subst h0 h5 h6
  after_results
  exact enc_layer_apply _ _ _ r j

end Cert.Sim

end
-- ==== Proof.Sim.DenseEies.lean ====
/- The fused encoder against the reference's two encoder layers.

   The kernel program computes both encoders in one dense layer: its left operand is the feature matrix, its
   right operand the two weight matrices stacked and transposed, its bias the two bias vectors stacked; the
   layer's output [20000, 1024] is then cut into its first and last 512 columns. The reference computes the two
   encoders one by one. If the two programs hold the same features, weights and biases, and the dense layer's
   output at (r, j) is the sum over k of left (r, k) times right (k, j) plus the bias at (0, j), then the first
   512 columns are the reference's first encoder and the last 512 columns its second: at (r, j) both are the
   sum over k of features (r, k) times weights (j, k), plus the bias at j. -/
import proofs.«115122_j13357348290767_2_alg».proof.Proof.Sim.DenseEiesK
import proofs.«115122_j13357348290767_2_alg».proof.Proof.Sim.DenseEiesR

noncomputable section

namespace Cert.Sim

open Idealize.ShloMosaic Idealize.ShloMosaic.TcCoe Idealize.ShloMosaic.StableHlo Idealize.ShloMosaic.ValueIdx
open Cert.KernelIdeal.Gen Cert.ReferenceIdeal.RValue

/-- The first 512 columns of the dense layer's output, cut out by the stretch after it. -/
theorem enc_cut_lo (We : VK) (r : Fin 20000) (j : Fin 512) :
    after (hostOps1 (F := Ideal)) We (Proc.devRef .tc Cert.KernelIdeal.main_v11) (ix2 r j)
      = We (Proc.devRef .tc Cert.KernelIdeal.main_v10) (ix2 r (⟨j.val, by omega⟩ : Fin 1024)) := by
  after_results
  exact extractStridedSlice_apply _ _ _ (ix2 r j) (ix2 r (⟨j.val, by omega⟩ : Fin 1024))
    (fun a => match a with
      | ⟨0, _⟩ => by show r.val = 0 + r.val; omega
      | ⟨1, _⟩ => by show j.val = 0 + j.val; omega)

/-- The last 512 columns of the dense layer's output. -/
theorem enc_cut_hi (We : VK) (r : Fin 20000) (j : Fin 512) :
    after (hostOps1 (F := Ideal)) We (Proc.devRef .tc Cert.KernelIdeal.main_v12) (ix2 r j)
      = We (Proc.devRef .tc Cert.KernelIdeal.main_v10) (ix2 r (⟨512 + j.val, by omega⟩ : Fin 1024)) := by
  after_results
  exact extractStridedSlice_apply _ _ _ (ix2 r j) (ix2 r (⟨512 + j.val, by omega⟩ : Fin 1024))
    (fun a => match a with
      | ⟨0, _⟩ => by show r.val = 0 + r.val; omega
      | ⟨1, _⟩ => by show 512 + j.val = 512 + j.val; rfl)

/-- The fused encoder: its two halves are the reference's two encoder layers. `A`, `B`, `c` are the dense layer's
    left operand, right operand and bias row as the stretch before it prepares them, `O` its output as the stretch
    after it finds it; `hreg` says the output is the product plus the bias row. -/
theorem sim_eies (W0 We : VK) (X : VR)
    (a0 : W0 (Proc.devRef .tc Cert.KernelIdeal.main_arg0) = X (Proc.devRef .tc Cert.ReferenceIdeal.main_arg0))
    (a3 : W0 (Proc.devRef .tc Cert.KernelIdeal.main_arg3) = X (Proc.devRef .tc Cert.ReferenceIdeal.main_arg3))
    (a4 : W0 (Proc.devRef .tc Cert.KernelIdeal.main_arg4) = X (Proc.devRef .tc Cert.ReferenceIdeal.main_arg4))
    (a5 : W0 (Proc.devRef .tc Cert.KernelIdeal.main_arg5) = X (Proc.devRef .tc Cert.ReferenceIdeal.main_arg5))
    (a6 : W0 (Proc.devRef .tc Cert.KernelIdeal.main_arg6) = X (Proc.devRef .tc Cert.ReferenceIdeal.main_arg6))
    (A : FVec Ideal Cert.KernelIdeal.S20000x2000 .bf16) (B : FVec Ideal Cert.KernelIdeal.S2000x1024 .bf16)
    (c : FVec Ideal Cert.KernelIdeal.S1x1024 .f32) (O : FVec Ideal Cert.KernelIdeal.S20000x1024 .f32)
    (hA : after (hostOps0 (F := Ideal)) W0 (Proc.devRef .tc Cert.KernelIdeal.main_v4) = A)
    (hB : after (hostOps0 (F := Ideal)) W0 (Proc.devRef .tc Cert.KernelIdeal.main_v8) = B)
    (hc : after (hostOps0 (F := Ideal)) W0 (Proc.devRef .tc Cert.KernelIdeal.main_v9) = c)
    (hO : We (Proc.devRef .tc Cert.KernelIdeal.main_v10) = O)
    (hreg : ∀ (r : Fin 20000) (j : Fin 1024),
      O (ix2 r j) = (∑ k : Fin 2000, A (ix2 r k) * B (ix2 k j)) + c (ix2 (0 : Fin 1) j)) :
    after (hostOps1 (F := Ideal)) We (Proc.devRef .tc Cert.KernelIdeal.main_v11)
        = after (rops1 (F := Ideal)) X (Proc.devRef .tc Cert.ReferenceIdeal.main_v8)
      ∧ after (hostOps1 (F := Ideal)) We (Proc.devRef .tc Cert.KernelIdeal.main_v12)
        = after (rops1 (F := Ideal)) X (Proc.devRef .tc Cert.ReferenceIdeal.main_v13) := by
  subst hA hB hc hO
  constructor
  · funext i
    obtain ⟨r, j, rfl⟩ : ∃ (r : Fin 20000) (j : Fin 512), i = ix2 r j := ⟨i 0, i 1, eq_ix2 i⟩
    rw [enc_cut_lo, hreg, ref_ei_apply X _ _ _ rfl rfl rfl, enc_bias_apply_lo, a4]
    congr 1
    refine Finset.sum_congr rfl fun k _ => ?_
    rw [enc_lhs_apply, enc_rhs_apply_lo, a0, a3]
  · funext i
    obtain ⟨r, j, rfl⟩ : ∃ (r : Fin 20000) (j : Fin 512), i = ix2 r j := ⟨i 0, i 1, eq_ix2 i⟩
    rw [enc_cut_hi, hreg, ref_es_apply X _ _ _ rfl rfl rfl, enc_bias_apply_hi, a6]
    congr 1
    refine Finset.sum_congr rfl fun k _ => ?_
    rw [enc_lhs_apply, enc_rhs_apply_hi, a0, a5]

end Cert.Sim

end
-- ==== Proof.Bridge.StageB.lean ====
/- The encoder step of the comparison: the kernel's one fused matrix product over the concatenated weights, cut into its
   two halves, holds the reference's two separate products — the image embedding and the site embedding. -/
import proofs.«115122_j13357348290767_2_alg».proof.Proof.KI.W
import proofs.«115122_j13357348290767_2_alg».proof.Proof.R.Fold
import proofs.«115122_j13357348290767_2_alg».proof.Proof.Glue.KeepK
import proofs.«115122_j13357348290767_2_alg».proof.Proof.Glue.KeepR
import proofs.«115122_j13357348290767_2_alg».proof.Proof.Sim.Base
import proofs.«115122_j13357348290767_2_alg».proof.Proof.KI.Keep
import proofs.«115122_j13357348290767_2_alg».proof.Proof.KI.Val0
import proofs.«115122_j13357348290767_2_alg».proof.Proof.Sim.DenseEies

set_option maxHeartbeats 4000000
set_option maxRecDepth 16384
noncomputable section
namespace Cert.Bridge
open Idealize.ShloMosaic Idealize.ShloMosaic.TcCoe Idealize.SL.Sem
open Cert.KernelIdeal.Frame Cert.ReferenceIdeal.RValue Cert.Glue Cert.Sim

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

theorem st_eies (a0 : W0 (F := Ideal) m ρ c (Proc.devRef .tc Cert.KernelIdeal.main_arg0) = RW0 (F := Ideal) m' c (Proc.devRef .tc Cert.ReferenceIdeal.main_arg0)) (a3 : W0 (F := Ideal) m ρ c (Proc.devRef .tc Cert.KernelIdeal.main_arg3) = RW0 (F := Ideal) m' c (Proc.devRef .tc Cert.ReferenceIdeal.main_arg3)) (a4 : W0 (F := Ideal) m ρ c (Proc.devRef .tc Cert.KernelIdeal.main_arg4) = RW0 (F := Ideal) m' c (Proc.devRef .tc Cert.ReferenceIdeal.main_arg4)) (a5 : W0 (F := Ideal) m ρ c (Proc.devRef .tc Cert.KernelIdeal.main_arg5) = RW0 (F := Ideal) m' c (Proc.devRef .tc Cert.ReferenceIdeal.main_arg5)) (a6 : W0 (F := Ideal) m ρ c (Proc.devRef .tc Cert.KernelIdeal.main_arg6) = RW0 (F := Ideal) m' c (Proc.devRef .tc Cert.ReferenceIdeal.main_arg6)) :
    W3 (F := Ideal) m ρ c (Proc.devRef .tc Cert.KernelIdeal.main_v11) = RW2 (F := Ideal) m' c (Proc.devRef .tc Cert.ReferenceIdeal.main_v8)
    ∧ W3 (F := Ideal) m ρ c (Proc.devRef .tc Cert.KernelIdeal.main_v12) = RW2 (F := Ideal) m' c (Proc.devRef .tc Cert.ReferenceIdeal.main_v13) :=
  sim_eies (W0 (F := Ideal) m ρ c) (W2 (F := Ideal) m ρ c) (RW1 (F := Ideal) m' c)
    ((a0).trans (Cert.Glue.keepR_main_arg0_0_1 m' c).symm) ((a3).trans (Cert.Glue.keepR_main_arg3_0_1 m' c).symm) ((a4).trans (Cert.Glue.keepR_main_arg4_0_1 m' c).symm) ((a5).trans (Cert.Glue.keepR_main_arg5_0_1 m' c).symm) ((a6).trans (Cert.Glue.keepR_main_arg6_0_1 m' c).symm)
    (W1 (F := Ideal) m ρ c (Proc.devRef .tc Cert.KernelIdeal.main_v4)) (W1 (F := Ideal) m ρ c (Proc.devRef .tc Cert.KernelIdeal.main_v8))
    (W1 (F := Ideal) m ρ c (Proc.devRef .tc Cert.KernelIdeal.main_v9)) (W2 (F := Ideal) m ρ c (Proc.devRef .tc Cert.KernelIdeal.main_v10))
    rfl rfl rfl rfl
    (fun r j => (congrFun (W2_out (F := Ideal) m ρ c) (ValueIdx.ix2 r j)).trans
      (final0 (V1 (F := Ideal) m ρ) c _ _ _ rfl rfl rfl r j))

end Cert.Bridge
end
-- ==== Proof.KI.Val1.lean ====
/-
  Dense layer 1, from its row blocks to its output array.

  The layer runs over 100 grid points; point t reads rows 2000·t … 2000·t + 1999 of the left operand, the whole
  right operand and the bias row, and writes back the same rows of the output. Entry (r, j) of the output
  array after the layer is therefore

      (∑ k, A (r, k) * B (k, j)) + b (0, j)

  of the arrays A, B, b the layer finds: what each point writes back is the block of that one function of the
  whole arrays (the payload at an index, each input block read at block index × block size + the coordinate
  inside the block), and the 100 blocks tile the array (row r is in the block of point r / 2000).
-/
import proofs.«115122_j13357348290767_2_alg».proof.Proof.KI.Reg1
import proofs.«115122_j13357348290767_2_alg».proof.Proof.KI.Pay
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.ShloMosaic.Pipeline (Dat Cfg Window)

/-- The layer's output as one function of the arrays it finds. -/
def lin1 (A : FVec Ideal S200000x128 .bf16) (B : FVec Ideal S128x128 .bf16) (b : FVec Ideal S1x128 .f32) : FVec Ideal S200000x128 .f32 := fun i =>
  (∑ k : Fin 128, A (ix2 (i 0) k) * B (ix2 k (i 1))) + b (ix2 (0 : Fin 1) (i 1))

theorem lin1_apply (A : FVec Ideal S200000x128 .bf16) (B : FVec Ideal S128x128 .bf16) (b : FVec Ideal S1x128 .f32) (r : Fin 200000) (j : Fin 128) :
    lin1 A B b (ix2 r j) = (∑ k : Fin 128, A (ix2 r k) * B (ix2 k j)) + b (ix2 (0 : Fin 1) j) := rfl

/-- The body's payload at a point of its block is the layer's function at an index of the array, as soon as the
    three loaded blocks read the arrays where that index says. -/
theorem point1 (A : FVec Ideal S200000x128 .bf16) (B : FVec Ideal S128x128 .bf16) (b : FVec Ideal S1x128 .f32) (x0 : FVec Ideal S2000x128 .bf16) (x1 : FVec Ideal S128x128 .bf16) (x2 : FVec Ideal S1x128 .f32)
    (y : S2000x128.Idx) (p : Fin 2000) (q : Fin 128) (hy : y = ix2 p q) (i : S200000x128.Idx) (r : Fin 200000) (s : Fin 128) (hi : i = ix2 r s)
    (h0 : ∀ k : Fin 128, x0 (ix2 p k) = A (ix2 r k)) (h1 : ∀ k : Fin 128, x1 (ix2 k q) = B (ix2 k s))
    (h2 : x2 (ix2 (0 : Fin 1) q) = b (ix2 (0 : Fin 1) s)) :
    Gen.k1_pay1 (F := Ideal) x0 x1 x2 y = lin1 A B b i := by
  subst hy hi
  rw [pay1_apply, lin1_apply, h2]
  refine congrArg₂ (· + ·) (Finset.sum_congr rfl fun k _ => ?_) rfl
  rw [h0, h1]

/-- The printed index maps over the grid: the left operand's and the output's row-block index is the point, every
    other block index is 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem zero_off1 : (![0, 0] : Fin 2 → Nat) = fun _ => 0 := funext fun a => by fin_cases a <;> rfl

variable (V : (c : Dev nD) → (b : Ref sig .tc) → Buf (Elt Ideal) ((c : Thread nD τ).loc b))

/-- What point t writes back is block t of the layer's function of the arrays. -/
theorem flushed1_eq (c : Dev nD) (A : FVec Ideal S200000x128 .bf16) (B : FVec Ideal S128x128 .bf16) (b : FVec Ideal S1x128 .f32)
    (hA : V c main_v23 = A) (hB : V c main_v36 = B) (hb : V c main_v37 = b) (t : Fin cfg1.N) :
    (dat1 (F := Ideal) V c).flushed 3 t = ((cfg1.win 3).blk t).view.read (Elt Ideal) (lin1 A B b) := by
  subst hA hB hb
  show (cfg1.win 3).cut (grid1.coords t) ((dat1 V c).after 3 t) = _
  rw [after1_3]
  unfold out1_3
  rw [View.canon_unit_zero zero_off1]
  simp only [View.ld_unit_zero (S := S2000x128) zero_off1, View.ld_unit_zero (S := S128x128) zero_off1, View.ld_unit_zero (S := S1x128) zero_off1]
  obtain ⟨e00, e01, e10, e11, e20, e21, e30, e31⟩ := idx_facts1 t
  funext y
  refine point1 _ _ _ _ _ _ y (y 0) (y 1) (eq_ix2 y) (((cfg1.win 3).blk t).view.emb y) (((cfg1.win 3).blk t).view.emb y 0) (((cfg1.win 3).blk t).view.emb y 1) (eq_ix2 _) (fun k => ?_) (fun k => ?_) ?_
  · show V c main_v23 (((cfg1.win 0).blk t).view.emb (ix2 (y 0) k)) = V c main_v23 (ix2 (((cfg1.win 3).blk t).view.emb y 0) k)
    refine congrArg _ (funext fun a => Fin.ext ?_)
    match a with
    | ⟨0, _⟩ => show win1_0.index t (0 : Fin 2) * 2000 + 1 * (y 0).val = win1_3.index t (0 : Fin 2) * 2000 + 1 * (y 0).val; omega
    | ⟨1, _⟩ => show win1_0.index t (1 : Fin 2) * 128 + 1 * k.val = k.val; omega
  · show V c main_v36 (((cfg1.win 1).blk t).view.emb (ix2 k (y 1))) = V c main_v36 (ix2 k (((cfg1.win 3).blk t).view.emb y 1))
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * (y 1).val = win1_3.index t (1 : Fin 2) * 128 + 1 * (y 1).val; omega
  · show V c main_v37 (((cfg1.win 2).blk t).view.emb (ix2 (0 : Fin 1) (y 1))) = V c main_v37 (ix2 (0 : Fin 1) (((cfg1.win 3).blk t).view.emb y 1))
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * (y 1).val = win1_3.index t (1 : Fin 2) * 128 + 1 * (y 1).val; omega

/-- An index of the output array is in point t's block iff each coordinate is in the block's range on its axis. -/
theorem mem_blk1 (t : Fin cfg1.N) (i : S200000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v38).slice (win1_3.rect t)).set ↔ _
  rw [View.set_slice_whole, Rect.mem_set_unit]
  exact Iff.rfl

/-- The 100 row blocks tile the output array: row r is in the block of point r / 2000. -/
theorem cover1 (i : S200000x128.Idx) : ∃ t : Fin cfg1.N, (cfg1.win 3).flush t = true ∧ i ∈ ((cfg1.win 3).blk t).view.set := by
  have hi0 : (i 0).val < 200000 := (i 0).isLt
  have hi1 : (i 1).val < 128 := (i 1).isLt
  obtain ⟨t, ht⟩ : ∃ t : Fin cfg1.N, t.val = (i 0).val / 2000 :=
    ⟨⟨(i 0).val / 2000, by show _ < grid1.N; rw [N_1]; omega⟩, rfl⟩
  obtain ⟨-, -, -, -, -, -, e30, e31⟩ := idx_facts1 t
  refine ⟨t, flush1_3 t, ?_⟩
  rw [mem_blk1]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- THE OUTPUT ARRAY after the layer, entry by entry, of the arrays the layer finds. -/
theorem final1 (c : Dev nD) (A : FVec Ideal S200000x128 .bf16) (B : FVec Ideal S128x128 .bf16) (b : FVec Ideal S1x128 .f32)
    (hA : V c main_v23 = A) (hB : V c main_v36 = B) (hb : V c main_v37 = b) (r : Fin 200000) (j : Fin 128) :
    ((dat1 (F := Ideal) V c).arrAt 3 cfg1.N : FVec Ideal S200000x128 .f32) (ix2 r j) = (∑ k : Fin 128, A (ix2 r k) * B (ix2 k j)) + b (ix2 (0 : Fin 1) j) :=
  (congrFun ((dat1 (F := Ideal) V c).arrAt_eq_of_cover 3 (lin1 A B b) (fun t _ => flushed1_eq V c A B b hA hB hb t) cover1) (ix2 r j)).trans
    (lin1_apply A B b r j)

end Cert.KernelIdeal.Frame

end
-- ==== Proof.KI.Val2.lean ====
/-
  Dense layer 2, from its row blocks to its output array.

  The layer runs over 100 grid points; point t reads rows 2000·t … 2000·t + 1999 of the left operand, the whole
  right operand and the bias row, and writes back the same rows of the output. Entry (r, j) of the output
  array after the layer is therefore

      (∑ k, A (r, k) * B (k, j)) + b (0, j)

  of the arrays A, B, b the layer finds: what each point writes back is the block of that one function of the
  whole arrays (the payload at an index, each input block read at block index × block size + the coordinate
  inside the block), and the 100 blocks tile the array (row r is in the block of point r / 2000).
-/
import proofs.«115122_j13357348290767_2_alg».proof.Proof.KI.Reg2
import proofs.«115122_j13357348290767_2_alg».proof.Proof.KI.Pay
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.ShloMosaic.Pipeline (Dat Cfg Window)

/-- The layer's output as one function of the arrays it finds. -/
def lin2 (A : FVec Ideal S200000x128 .bf16) (B : FVec Ideal S128x128 .bf16) (b : FVec Ideal S1x128 .f32) : FVec Ideal S200000x128 .f32 := fun i =>
  (∑ k : Fin 128, A (ix2 (i 0) k) * B (ix2 k (i 1))) + b (ix2 (0 : Fin 1) (i 1))

theorem lin2_apply (A : FVec Ideal S200000x128 .bf16) (B : FVec Ideal S128x128 .bf16) (b : FVec Ideal S1x128 .f32) (r : Fin 200000) (j : Fin 128) :
    lin2 A B b (ix2 r j) = (∑ k : Fin 128, A (ix2 r k) * B (ix2 k j)) + b (ix2 (0 : Fin 1) j) := rfl

/-- The body's payload at a point of its block is the layer's function at an index of the array, as soon as the
    three loaded blocks read the arrays where that index says. -/
theorem point2 (A : FVec Ideal S200000x128 .bf16) (B : FVec Ideal S128x128 .bf16) (b : FVec Ideal S1x128 .f32) (x0 : FVec Ideal S2000x128 .bf16) (x1 : FVec Ideal S128x128 .bf16) (x2 : FVec Ideal S1x128 .f32)
    (y : S2000x128.Idx) (p : Fin 2000) (q : Fin 128) (hy : y = ix2 p q) (i : S200000x128.Idx) (r : Fin 200000) (s : Fin 128) (hi : i = ix2 r s)
    (h0 : ∀ k : Fin 128, x0 (ix2 p k) = A (ix2 r k)) (h1 : ∀ k : Fin 128, x1 (ix2 k q) = B (ix2 k s))
    (h2 : x2 (ix2 (0 : Fin 1) q) = b (ix2 (0 : Fin 1) s)) :
    Gen.k2_pay1 (F := Ideal) x0 x1 x2 y = lin2 A B b i := by
  subst hy hi
  rw [pay2_apply, lin2_apply, h2]
  refine congrArg₂ (· + ·) (Finset.sum_congr rfl fun k _ => ?_) rfl
  rw [h0, h1]

/-- The printed index maps over the grid: the left operand's and the output's row-block index is the point, every
    other block index is 0. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem zero_off2 : (![0, 0] : Fin 2 → Nat) = fun _ => 0 := funext fun a => by fin_cases a <;> rfl

variable (V : (c : Dev nD) → (b : Ref sig .tc) → Buf (Elt Ideal) ((c : Thread nD τ).loc b))

/-- What point t writes back is block t of the layer's function of the arrays. -/
theorem flushed2_eq (c : Dev nD) (A : FVec Ideal S200000x128 .bf16) (B : FVec Ideal S128x128 .bf16) (b : FVec Ideal S1x128 .f32)
    (hA : V c main_v34 = A) (hB : V c main_v36 = B) (hb : V c main_v39 = b) (t : Fin cfg2.N) :
    (dat2 (F := Ideal) V c).flushed 3 t = ((cfg2.win 3).blk t).view.read (Elt Ideal) (lin2 A B b) := by
  subst hA hB hb
  show (cfg2.win 3).cut (grid2.coords t) ((dat2 V c).after 3 t) = _
  rw [after2_3]
  unfold out2_3
  rw [View.canon_unit_zero zero_off2]
  simp only [View.ld_unit_zero (S := S2000x128) zero_off2, View.ld_unit_zero (S := S128x128) zero_off2, View.ld_unit_zero (S := S1x128) zero_off2]
  obtain ⟨e00, e01, e10, e11, e20, e21, e30, e31⟩ := idx_facts2 t
  funext y
  refine point2 _ _ _ _ _ _ y (y 0) (y 1) (eq_ix2 y) (((cfg2.win 3).blk t).view.emb y) (((cfg2.win 3).blk t).view.emb y 0) (((cfg2.win 3).blk t).view.emb y 1) (eq_ix2 _) (fun k => ?_) (fun k => ?_) ?_
  · show V c main_v34 (((cfg2.win 0).blk t).view.emb (ix2 (y 0) k)) = V c main_v34 (ix2 (((cfg2.win 3).blk t).view.emb y 0) k)
    refine congrArg _ (funext fun a => Fin.ext ?_)
    match a with
    | ⟨0, _⟩ => show win2_0.index t (0 : Fin 2) * 2000 + 1 * (y 0).val = win2_3.index t (0 : Fin 2) * 2000 + 1 * (y 0).val; omega
    | ⟨1, _⟩ => show win2_0.index t (1 : Fin 2) * 128 + 1 * k.val = k.val; omega
  · show V c main_v36 (((cfg2.win 1).blk t).view.emb (ix2 k (y 1))) = V c main_v36 (ix2 k (((cfg2.win 3).blk t).view.emb y 1))
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * (y 1).val = win2_3.index t (1 : Fin 2) * 128 + 1 * (y 1).val; omega
  · show V c main_v39 (((cfg2.win 2).blk t).view.emb (ix2 (0 : Fin 1) (y 1))) = V c main_v39 (ix2 (0 : Fin 1) (((cfg2.win 3).blk t).view.emb y 1))
    refine congrArg _ (funext fun a => Fin.ext ?_)
    match a with
    | ⟨0, _⟩ => show win2_2.index t (0 : Fin 2) * 1 + 1 * 0 = 0; omega
    | ⟨1, _⟩ => show win2_2.index t (1 : Fin 2) * 128 + 1 * (y 1).val = win2_3.index t (1 : Fin 2) * 128 + 1 * (y 1).val; omega

/-- An index of the output array is in point t's block iff each coordinate is in the block's range on its axis. -/
theorem mem_blk2 (t : Fin cfg2.N) (i : S200000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v40).slice (win2_3.rect t)).set ↔ _
  rw [View.set_slice_whole, Rect.mem_set_unit]
  exact Iff.rfl

/-- The 100 row blocks tile the output array: row r is in the block of point r / 2000. -/
theorem cover2 (i : S200000x128.Idx) : ∃ t : Fin cfg2.N, (cfg2.win 3).flush t = true ∧ i ∈ ((cfg2.win 3).blk t).view.set := by
  have hi0 : (i 0).val < 200000 := (i 0).isLt
  have hi1 : (i 1).val < 128 := (i 1).isLt
  obtain ⟨t, ht⟩ : ∃ t : Fin cfg2.N, t.val = (i 0).val / 2000 :=
    ⟨⟨(i 0).val / 2000, by show _ < grid2.N; rw [N_2]; omega⟩, rfl⟩
  obtain ⟨-, -, -, -, -, -, e30, e31⟩ := idx_facts2 t
  refine ⟨t, flush2_3 t, ?_⟩
  rw [mem_blk2]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-- THE OUTPUT ARRAY after the layer, entry by entry, of the arrays the layer finds. -/
theorem final2 (c : Dev nD) (A : FVec Ideal S200000x128 .bf16) (B : FVec Ideal S128x128 .bf16) (b : FVec Ideal S1x128 .f32)
    (hA : V c main_v34 = A) (hB : V c main_v36 = B) (hb : V c main_v39 = b) (r : Fin 200000) (j : Fin 128) :
    ((dat2 (F := Ideal) V c).arrAt 3 cfg2.N : FVec Ideal S200000x128 .f32) (ix2 r j) = (∑ k : Fin 128, A (ix2 r k) * B (ix2 k j)) + b (ix2 (0 : Fin 1) j) :=
  (congrFun ((dat2 (F := Ideal) V c).arrAt_eq_of_cover 3 (lin2 A B b) (fun t _ => flushed2_eq V c A B b hA hB hb t) cover2) (ix2 r j)).trans
    (lin2_apply A B b r j)

end Cert.KernelIdeal.Frame

end
-- ==== Proof.Sim.DenseGen.lean ====
/- A dense layer at an index, in the two spellings the two programs use.

   The reference spells a dense layer as a matrix product of x : [M, K] with the transpose of w : [N, K], plus the
   bias b : [N] turned into a row [1, N] and broadcast over the M rows. At the exact values its entry (r, j) is
   the sum over k of x (r, k) * w (j, k), plus b j.

   The kernel program prepares a dense layer's operands as: x cast to the narrow float type (the identity at the
   exact values), w cast and transposed into [K, N], b reshaped into a row [1, N]. The sum over k of the left
   operand at (r, k) times the right operand at (k, j), plus the row at (0, j), is the same number. -/
import proofs.«115122_j13357348290767_2_alg».proof.Proof.LibDotRow
import proofs.«115122_j13357348290767_2_alg».proof.Proof.LibBroadcastInDim
import Idealize.ShloMosaic.Lib.ValueIdx
import Idealize.ShloMosaic.Lib.Pipeline.Value
import Idealize.ShloMosaic.PureOps.Ideal.Laws

noncomputable section

namespace Cert.Sim

open Idealize.ShloMosaic Idealize.ShloMosaic.ValueIdx

variable {M K N : Nat}

/-- The reference's dense layer at (r, j). -/
theorem dense_ref_apply (d : DotDims ⟨2, ![M, K]⟩ ⟨2, ![K, N]⟩ ⟨2, ![M, N]⟩)
    (hl : d.lhsContracting = [1]) (hr : d.rhsContracting = [0])
    (hrank : d.contr.rank = 1) (hsize : d.contr.size ⟨0, by omega⟩ = K)
    (h0 : ∀ (i : (⟨2, ![M, N]⟩ : Shape).Idx) (q : d.contr.Idx), (d.lhsIdx i q 0).val = (i 0).val)
    (h1 : ∀ (i : (⟨2, ![M, N]⟩ : Shape).Idx) (q : d.contr.Idx), (d.rhsIdx i q 1).val = (i 1).val)
    (x : FVec Ideal ⟨2, ![M, K]⟩ .f32) (w : FVec Ideal ⟨2, ![N, K]⟩ .f32) (b : FVec Ideal ⟨1, ![N]⟩ .f32)
    (ht : (⟨2, ![N, K]⟩ : Shape).Transposes [1, 0] ⟨2, ![K, N]⟩)
    (hb1 : (⟨1, ![N]⟩ : Shape).BroadcastsInDim ⟨2, ![1, N]⟩ ![1])
    (hb2 : (⟨2, ![1, N]⟩ : Shape).BroadcastsInDim ⟨2, ![M, N]⟩ ![0, 1])
    (r : Fin M) (j : Fin N) :
    addf (F := Ideal) (Host.dotGeneral (F := Ideal) d none x (transpose ⟨2, ![K, N]⟩ [1, 0] w ht))
        (broadcastInDim ⟨2, ![M, N]⟩ ![0, 1] hb2 (broadcastInDim ⟨2, ![1, N]⟩ ![1] hb1 b)) (ix2 r j)
      = (∑ k : Fin K, x (ix2 r k) * w (ix2 j k)) + b (ix1 j) := by
  rw [addf_apply]
  simp only [Host.dotGeneral]
  rw [Ideal.dotGeneral_apply, DotRow.sum_contr d hl hr hrank hsize h0 h1,
    broadcastInDim_1n_mn_apply, broadcastInDim_n_1n_apply]
  congr 1
  refine Finset.sum_congr rfl fun k _ => ?_
  congr 1
  exact transpose_apply [1, 0] w ht (ix2 k j) (ix2 j k)
    (fun a => match a with | ⟨0, _⟩ => rfl | ⟨1, _⟩ => rfl)

/-- The kernel program's prepared right operand at (k, j): the weights at (j, k). -/
theorem dense_rhs_apply (w : FVec Ideal ⟨2, ![N, K]⟩ .f32) (hlt : FTy.bf16.bits < FTy.f32.bits)
    (ht : (⟨2, ![N, K]⟩ : Shape).Transposes [1, 0] ⟨2, ![K, N]⟩) (k : Fin K) (j : Fin N) :
    transpose ⟨2, ![K, N]⟩ [1, 0] (truncf (F := Ideal) .bf16 w hlt) ht (ix2 k j) = w (ix2 j k) :=
  transpose_apply [1, 0] _ ht (ix2 k j) (ix2 j k) (fun a => match a with | ⟨0, _⟩ => rfl | ⟨1, _⟩ => rfl)

/-- The kernel program's prepared bias row at (0, j): the bias at j. -/
theorem dense_bias_apply (b : FVec Ideal ⟨1, ![N]⟩ .f32) (hs : (⟨1, ![N]⟩ : Shape).ShapeCasts ⟨2, ![1, N]⟩) (j : Fin N) :
    shapeCast ⟨2, ![1, N]⟩ b hs (ix2 (0 : Fin 1) j) = b (ix1 j) :=
  shapeCast_apply b hs (ix2 (0 : Fin 1) j) (ix1 j)
    (by rewrite [Shape.rowMajor_val_two, Shape.rowMajor_val_one]; show j.val = 0 * N + j.val; omega)

end Cert.Sim

end
-- ==== Proof.Sim.DensePar.lean ====
/- The parser's second layer (applied twice) against the reference's.

   Each application is a dense layer of an edge feature matrix [200000, 128] with the weights [128, 128] and the
   bias [128]. The kernel program casts the features to the narrow float type (the identity at the exact
   values), casts and transposes the weights, and turns the bias into a row; the dense layer writes, at (e, j),
   the sum over k of left (e, k) times right (k, j) plus the row at (0, j). The reference computes the product
   with the transposed weights and adds the broadcast bias. If the two programs hold the same features, weights
   and bias, the results agree: at (e, j) both are the sum over k of features (e, k) times weights (j, k), plus
   the bias at j. The second application's operands are prepared before the first application runs, so for it
   the hypotheses speak of the contents found when the first has finished. -/
import proofs.«115122_j13357348290767_2_alg».proof.Proof.Gen.KernelIdeal.Launch
import proofs.«115122_j13357348290767_2_alg».proof.Proof.R.Ops
import proofs.«115122_j13357348290767_2_alg».proof.Proof.Sim.Base
import proofs.«115122_j13357348290767_2_alg».proof.Proof.Sim.DenseGen
import Idealize.ShloMosaic.Lib.StableHlo.Run

set_option maxRecDepth 8192

noncomputable section

namespace Cert.Sim

open Idealize.ShloMosaic Idealize.ShloMosaic.TcCoe Idealize.ShloMosaic.StableHlo Idealize.ShloMosaic.ValueIdx

section KernelSide
open Cert.KernelIdeal Cert.KernelIdeal.Gen

/-- The first application's left operand is the first parser output, cast: the same numbers. -/
theorem par_cast_a (W : VK) :
    after (hostOps1 (F := Ideal)) W (Proc.devRef .tc main_v23) = after (hostOps1 (F := Ideal)) W (Proc.devRef .tc main_v22) := by
  after_results_simp
  rfl

/-- The second application's left operand is the second parser output, cast: the same numbers. -/
theorem par_cast_b (W : VK) :
    after (hostOps1 (F := Ideal)) W (Proc.devRef .tc main_v34) = after (hostOps1 (F := Ideal)) W (Proc.devRef .tc main_v33) := by
  after_results_simp
  rfl

/-- The right operand at (k, j): the weights at (j, k). -/
theorem par_rhs_apply (W : VK) (k j : Fin 128) :
    after (hostOps1 (F := Ideal)) W (Proc.devRef .tc main_v36) (ix2 k j) = W (Proc.devRef .tc main_arg23) (ix2 j k) := by
  after_results_simp
  exact dense_rhs_apply _ _ _ k j

/-- The first application's bias row at (0, j): the bias at j. -/
theorem par_bias_a_apply (W : VK) (j : Fin 128) :
    after (hostOps1 (F := Ideal)) W (Proc.devRef .tc main_v37) (ix2 (0 : Fin 1) j) = W (Proc.devRef .tc main_arg24) (ix1 j) := by
  after_results_simp
  exact dense_bias_apply _ _ j

/-- The second application's bias row at (0, j): the bias at j. -/
theorem par_bias_b_apply (W : VK) (j : Fin 128) :
    after (hostOps2 (F := Ideal)) W (Proc.devRef .tc main_v39) (ix2 (0 : Fin 1) j) = W (Proc.devRef .tc main_arg24) (ix1 j) := by
  after_results
  exact dense_bias_apply _ _ j

/-- The one operation between the two applications leaves the second's left operand alone. -/
theorem par_keep_lhs (W : VK) :
    after (hostOps2 (F := Ideal)) W (Proc.devRef .tc main_v34) = W (Proc.devRef .tc main_v34) := by
  after_results

/-- The one operation between the two applications leaves the right operand alone. -/
theorem par_keep_rhs (W : VK) :
    after (hostOps2 (F := Ideal)) W (Proc.devRef .tc main_v36) = W (Proc.devRef .tc main_v36) := by
  after_results

end KernelSide

section ReferenceSide
open Cert.ReferenceIdeal Cert.ReferenceIdeal.Gen Cert.ReferenceIdeal.RValue

/-- The product's left index keeps the output's row. -/
theorem par_dot_lhs0 (i : S200000x128.Idx) (q : dot_S200000x128_S128x128_S200000x128_1_0_0_1_n_n.contr.Idx) :
    (dot_S200000x128_S128x128_S200000x128_1_0_0_1_n_n.lhsIdx i q 0).val = (i 0).val := by
  unfold DotDims.lhsIdx
  rw [dif_neg (show ¬(0 : Fin S200000x128.rank) ∈ dot_S200000x128_S128x128_S200000x128_1_0_0_1_n_n.lhsBatch by decide),
    dif_pos (show (0 : Fin S200000x128.rank) ∈ dot_S200000x128_S128x128_S200000x128_1_0_0_1_n_n.lhsNonContracting by decide)]
  rfl

/-- The product's right index keeps the output's column. -/
theorem par_dot_rhs1 (i : S200000x128.Idx) (q : dot_S200000x128_S128x128_S200000x128_1_0_0_1_n_n.contr.Idx) :
    (dot_S200000x128_S128x128_S200000x128_1_0_0_1_n_n.rhsIdx i q 1).val = (i 1).val := by
  unfold DotDims.rhsIdx
  rw [dif_neg (show ¬(1 : Fin S128x128.rank) ∈ dot_S200000x128_S128x128_S200000x128_1_0_0_1_n_n.rhsBatch by decide),
    dif_pos (show (1 : Fin S128x128.rank) ∈ dot_S200000x128_S128x128_S200000x128_1_0_0_1_n_n.rhsNonContracting by decide)]
  rfl

/-- The reference's first application at (e, j), in terms of the features `x`, the weights `w` and the bias `b` it holds. -/
theorem ref_par_a_apply (X : VR) (x : FVec Ideal S200000x128 .f32) (w : FVec Ideal S128x128 .f32) (b : FVec Ideal S128 .f32)
    (hx : X (Proc.devRef .tc main_v23) = x) (hw : X (Proc.devRef .tc main_arg23) = w) (hb : X (Proc.devRef .tc main_arg24) = b)
    (e : Fin 200000) (j : Fin 128) :
    after (rops3 (F := Ideal)) X (Proc.devRef .tc main_v28) (ix2 e j) = (∑ k : Fin 128, x (ix2 e k) * w (ix2 j k)) + b (ix1 j) := by
  subst hx hw hb
  after_results
  exact dense_ref_apply dot_S200000x128_S128x128_S200000x128_1_0_0_1_n_n rfl rfl rfl rfl par_dot_lhs0 par_dot_rhs1
    _ _ _ _ _ _ e j

/-- The reference's second application at (e, j). -/
theorem ref_par_b_apply (X : VR) (x : FVec Ideal S200000x128 .f32) (w : FVec Ideal S128x128 .f32) (b : FVec Ideal S128 .f32)
    (hx : X (Proc.devRef .tc main_v46) = x) (hw : X (Proc.devRef .tc main_arg23) = w) (hb : X (Proc.devRef .tc main_arg24) = b)
    (e : Fin 200000) (j : Fin 128) :
    after (rops6 (F := Ideal)) X (Proc.devRef .tc main_v51) (ix2 e j) = (∑ k : Fin 128, x (ix2 e k) * w (ix2 j k)) + b (ix1 j) := by
  subst hx hw hb
  after_results
  exact dense_ref_apply dot_S200000x128_S128x128_S200000x128_1_0_0_1_n_n rfl rfl rfl rfl par_dot_lhs0 par_dot_rhs1
    _ _ _ _ _ _ e j

end ReferenceSide

open Cert.KernelIdeal.Gen Cert.ReferenceIdeal.RValue

/-- The first application. `W2` is the contents found by the stretch that prepares the operands, `We` the contents
    when the dense layer has finished; `A`, `B`, `c`, `O` are the layer's operands and output, `hreg` says the output
    is the product plus the bias row. -/
theorem sim_pA (W2 We : VK) (X : VR)
    (h22 : after (hostOps1 (F := Ideal)) W2 (Proc.devRef .tc Cert.KernelIdeal.main_v22) = X (Proc.devRef .tc Cert.ReferenceIdeal.main_v23))
    (a23 : W2 (Proc.devRef .tc Cert.KernelIdeal.main_arg23) = X (Proc.devRef .tc Cert.ReferenceIdeal.main_arg23))
    (a24 : W2 (Proc.devRef .tc Cert.KernelIdeal.main_arg24) = X (Proc.devRef .tc Cert.ReferenceIdeal.main_arg24))
    (A : FVec Ideal Cert.KernelIdeal.S200000x128 .bf16) (B : FVec Ideal Cert.KernelIdeal.S128x128 .bf16)
    (c : FVec Ideal Cert.KernelIdeal.S1x128 .f32) (O : FVec Ideal Cert.KernelIdeal.S200000x128 .f32)
    (hA : after (hostOps1 (F := Ideal)) W2 (Proc.devRef .tc Cert.KernelIdeal.main_v23) = A)
    (hB : after (hostOps1 (F := Ideal)) W2 (Proc.devRef .tc Cert.KernelIdeal.main_v36) = B)
    (hc : after (hostOps1 (F := Ideal)) W2 (Proc.devRef .tc Cert.KernelIdeal.main_v37) = c)
    (hO : We (Proc.devRef .tc Cert.KernelIdeal.main_v38) = O)
    (hreg : ∀ (e : Fin 200000) (j : Fin 128),
      O (ix2 e j) = (∑ k : Fin 128, A (ix2 e k) * B (ix2 k j)) + c (ix2 (0 : Fin 1) j)) :
    We (Proc.devRef .tc Cert.KernelIdeal.main_v38)
      = after (rops3 (F := Ideal)) X (Proc.devRef .tc Cert.ReferenceIdeal.main_v28) := by
  subst hA hB hc hO
  funext i
  obtain ⟨e, j, rfl⟩ : ∃ (e : Fin 200000) (j : Fin 128), i = ix2 e j := ⟨i 0, i 1, eq_ix2 i⟩
  rw [hreg, ref_par_a_apply X _ _ _ rfl rfl rfl, par_bias_a_apply, a24, par_cast_a, h22]
  refine congrArg (fun t : EReal => t + _) ?_
  refine Finset.sum_congr rfl fun k _ => ?_
  rw [par_rhs_apply, a23]

/-- The second application. `W4` is the contents found when the first application has finished, `We` the contents when
    the second has; `h34` and `h36` say `W4` still holds the second application's left operand (equal to the
    reference's second parser output) and the transposed weights as they were prepared. -/
theorem sim_pB (W4 We : VK) (X : VR)
    (h34 : W4 (Proc.devRef .tc Cert.KernelIdeal.main_v34) = X (Proc.devRef .tc Cert.ReferenceIdeal.main_v46))
    (h36 : ∀ (k j : Fin 128), W4 (Proc.devRef .tc Cert.KernelIdeal.main_v36) (ix2 k j)
      = X (Proc.devRef .tc Cert.ReferenceIdeal.main_arg23) (ix2 j k))
    (a24 : W4 (Proc.devRef .tc Cert.KernelIdeal.main_arg24) = X (Proc.devRef .tc Cert.ReferenceIdeal.main_arg24))
    (A : FVec Ideal Cert.KernelIdeal.S200000x128 .bf16) (B : FVec Ideal Cert.KernelIdeal.S128x128 .bf16)
    (c : FVec Ideal Cert.KernelIdeal.S1x128 .f32) (O : FVec Ideal Cert.KernelIdeal.S200000x128 .f32)
    (hA : after (hostOps2 (F := Ideal)) W4 (Proc.devRef .tc Cert.KernelIdeal.main_v34) = A)
    (hB : after (hostOps2 (F := Ideal)) W4 (Proc.devRef .tc Cert.KernelIdeal.main_v36) = B)
    (hc : after (hostOps2 (F := Ideal)) W4 (Proc.devRef .tc Cert.KernelIdeal.main_v39) = c)
    (hO : We (Proc.devRef .tc Cert.KernelIdeal.main_v40) = O)
    (hreg : ∀ (e : Fin 200000) (j : Fin 128),
      O (ix2 e j) = (∑ k : Fin 128, A (ix2 e k) * B (ix2 k j)) + c (ix2 (0 : Fin 1) j)) :
    We (Proc.devRef .tc Cert.KernelIdeal.main_v40)
      = after (rops6 (F := Ideal)) X (Proc.devRef .tc Cert.ReferenceIdeal.main_v51) := by
  subst hA hB hc hO
  funext i
  obtain ⟨e, j, rfl⟩ : ∃ (e : Fin 200000) (j : Fin 128), i = ix2 e j := ⟨i 0, i 1, eq_ix2 i⟩
  rw [hreg, ref_par_b_apply X _ _ _ rfl rfl rfl, par_bias_b_apply, a24, par_keep_lhs, par_keep_rhs, h34]
  refine congrArg (fun t : EReal => t + _) ?_
  refine Finset.sum_congr rfl fun k _ => ?_
  rw [h36]

end Cert.Sim

end
-- ==== Proof.Bridge.StageP.lean ====
/- The two applications of the parser's second layer in the comparison. Each application's dense layer leaves in its
   output array, entry by entry, the product of its two operands plus the bias row; the reference computes the same
   expression from its own copies. So each output array holds the reference's result as soon as the features going in
   agree and the two programs were launched with the same weight and bias arguments (both by hypothesis; neither program
   ever writes an argument, so the arguments are still as launched when a layer reads them). The second
   application's operands are prepared before the first application runs; the first application writes only its own
   output array, so they are still there, unchanged, when the second starts. -/
import proofs.«115122_j13357348290767_2_alg».proof.Proof.KI.W
import proofs.«115122_j13357348290767_2_alg».proof.Proof.R.Fold
import proofs.«115122_j13357348290767_2_alg».proof.Proof.Sim.Base
import proofs.«115122_j13357348290767_2_alg».proof.Proof.Glue.KeepK
import proofs.«115122_j13357348290767_2_alg».proof.Proof.Glue.KeepR
import proofs.«115122_j13357348290767_2_alg».proof.Proof.KI.Keep
import proofs.«115122_j13357348290767_2_alg».proof.Proof.KI.Val1
import proofs.«115122_j13357348290767_2_alg».proof.Proof.KI.Val2
import proofs.«115122_j13357348290767_2_alg».proof.Proof.Sim.DensePar

set_option maxHeartbeats 4000000
set_option maxRecDepth 16384
noncomputable section
namespace Cert.Bridge
open Idealize.ShloMosaic Idealize.ShloMosaic.TcCoe Idealize.SL.Sem
open Cert.KernelIdeal.Frame Cert.ReferenceIdeal.RValue Cert.Glue Cert.Sim

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The first application, from the first parser output. -/
theorem st_pA
    (a23 : W0 (F := Ideal) m ρ c (Proc.devRef .tc Cert.KernelIdeal.main_arg23) = RW0 (F := Ideal) m' c (Proc.devRef .tc Cert.ReferenceIdeal.main_arg23))
    (a24 : W0 (F := Ideal) m ρ c (Proc.devRef .tc Cert.KernelIdeal.main_arg24) = RW0 (F := Ideal) m' c (Proc.devRef .tc Cert.ReferenceIdeal.main_arg24))
    (hhA : W3 (F := Ideal) m ρ c (Proc.devRef .tc Cert.KernelIdeal.main_v22) = RW3 (F := Ideal) m' c (Proc.devRef .tc Cert.ReferenceIdeal.main_v23)) :
    W4 (F := Ideal) m ρ c (Proc.devRef .tc Cert.KernelIdeal.main_v38) = RW4 (F := Ideal) m' c (Proc.devRef .tc Cert.ReferenceIdeal.main_v28) :=
  sim_pA (W2 (F := Ideal) m ρ c) (W4 (F := Ideal) m ρ c) (RW3 (F := Ideal) m' c)
    hhA
    ((Cert.Glue.keepK_arg23_0_2 m ρ c).trans (a23.trans (Cert.Glue.keepR_main_arg23_0_3 m' c).symm))
    ((Cert.Glue.keepK_arg24_0_2 m ρ c).trans (a24.trans (Cert.Glue.keepR_main_arg24_0_3 m' c).symm))
    (W3 (F := Ideal) m ρ c (Proc.devRef .tc Cert.KernelIdeal.main_v23)) (W3 (F := Ideal) m ρ c (Proc.devRef .tc Cert.KernelIdeal.main_v36))
    (W3 (F := Ideal) m ρ c (Proc.devRef .tc Cert.KernelIdeal.main_v37)) (W4 (F := Ideal) m ρ c (Proc.devRef .tc Cert.KernelIdeal.main_v38))
    rfl rfl rfl rfl
    (fun e j => (congrFun (W4_out (F := Ideal) m ρ c) (ValueIdx.ix2 e j)).trans
      (final1 (V3 (F := Ideal) m ρ) c (W3 (F := Ideal) m ρ c (Proc.devRef .tc Cert.KernelIdeal.main_v23)) (W3 (F := Ideal) m ρ c (Proc.devRef .tc Cert.KernelIdeal.main_v36))
        (W3 (F := Ideal) m ρ c (Proc.devRef .tc Cert.KernelIdeal.main_v37)) rfl rfl rfl e j))

/-- The second application, from the second parser output. -/
theorem st_pB
    (a23 : W0 (F := Ideal) m ρ c (Proc.devRef .tc Cert.KernelIdeal.main_arg23) = RW0 (F := Ideal) m' c (Proc.devRef .tc Cert.ReferenceIdeal.main_arg23))
    (a24 : W0 (F := Ideal) m ρ c (Proc.devRef .tc Cert.KernelIdeal.main_arg24) = RW0 (F := Ideal) m' c (Proc.devRef .tc Cert.ReferenceIdeal.main_arg24))
    (hhB : W3 (F := Ideal) m ρ c (Proc.devRef .tc Cert.KernelIdeal.main_v33) = RW6 (F := Ideal) m' c (Proc.devRef .tc Cert.ReferenceIdeal.main_v46)) :
    W6 (F := Ideal) m ρ c (Proc.devRef .tc Cert.KernelIdeal.main_v40) = RW7 (F := Ideal) m' c (Proc.devRef .tc Cert.ReferenceIdeal.main_v51) :=
  sim_pB (W4 (F := Ideal) m ρ c) (W6 (F := Ideal) m ρ c) (RW6 (F := Ideal) m' c)
    ((W4_keep (F := Ideal) m ρ c (r := Cert.KernelIdeal.main_v34) (by decide)).trans ((par_cast_b (W2 (F := Ideal) m ρ c)).trans hhB))
    (fun k j => (congrFun (W4_keep (F := Ideal) m ρ c (r := Cert.KernelIdeal.main_v36) (by decide)) (ValueIdx.ix2 k j)).trans
      ((par_rhs_apply (W2 (F := Ideal) m ρ c) k j).trans
        (congrFun ((Cert.Glue.keepK_arg23_0_2 m ρ c).trans (a23.trans (Cert.Glue.keepR_main_arg23_0_6 m' c).symm))
          (ValueIdx.ix2 j k))))
    ((Cert.Glue.keepK_arg24_0_4 m ρ c).trans (a24.trans (Cert.Glue.keepR_main_arg24_0_6 m' c).symm))
    (W5 (F := Ideal) m ρ c (Proc.devRef .tc Cert.KernelIdeal.main_v34)) (W5 (F := Ideal) m ρ c (Proc.devRef .tc Cert.KernelIdeal.main_v36))
    (W5 (F := Ideal) m ρ c (Proc.devRef .tc Cert.KernelIdeal.main_v39)) (W6 (F := Ideal) m ρ c (Proc.devRef .tc Cert.KernelIdeal.main_v40))
    rfl rfl rfl rfl
    (fun e j => (congrFun (W6_out (F := Ideal) m ρ c) (ValueIdx.ix2 e j)).trans
      (final2 (V5 (F := Ideal) m ρ) c (W5 (F := Ideal) m ρ c (Proc.devRef .tc Cert.KernelIdeal.main_v34)) (W5 (F := Ideal) m ρ c (Proc.devRef .tc Cert.KernelIdeal.main_v36))
        (W5 (F := Ideal) m ρ c (Proc.devRef .tc Cert.KernelIdeal.main_v39)) rfl rfl rfl e j))

end Cert.Bridge
end
-- ==== Proof.KI.Val3.lean ====
/-
  Dense layer 3, from its row blocks to its output array.

  The layer runs over 50 grid points; point t reads rows 400·t … 400·t + 399 of the left operand, the whole
  right operand and the bias row, and writes back the same rows of the output. Entry (r, j) of the output
  array after the layer is therefore

      (∑ k, A (r, k) * B (k, j)) + b (0, j)

  of the arrays A, B, b the layer finds: what each point writes back is the block of that one function of the
  whole arrays (the payload at an index, each input block read at block index × block size + the coordinate
  inside the block), and the 50 blocks tile the array (row r is in the block of point r / 400).
-/
import proofs.«115122_j13357348290767_2_alg».proof.Proof.KI.Reg3
import proofs.«115122_j13357348290767_2_alg».proof.Proof.KI.Pay
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.ShloMosaic.Pipeline (Dat Cfg Window)

/-- The layer's output as one function of the arrays it finds. -/
def lin3 (A : FVec Ideal S20000x1024 .bf16) (B : FVec Ideal S1024x512 .bf16) (b : FVec Ideal S1x512 .f32) : FVec Ideal S20000x512 .f32 := fun i =>
  (∑ k : Fin 1024, A (ix2 (i 0) k) * B (ix2 k (i 1))) + b (ix2 (0 : Fin 1) (i 1))

theorem lin3_apply (A : FVec Ideal S20000x1024 .bf16) (B : FVec Ideal S1024x512 .bf16) (b : FVec Ideal S1x512 .f32) (r : Fin 20000) (j : Fin 512) :
    lin3 A B b (ix2 r j) = (∑ k : Fin 1024, A (ix2 r k) * B (ix2 k j)) + b (ix2 (0 : Fin 1) j) := rfl

/-- The body's payload at a point of its block is the layer's function at an index of the array, as soon as the
    three loaded blocks read the arrays where that index says. -/
theorem point3 (A : FVec Ideal S20000x1024 .bf16) (B : FVec Ideal S1024x512 .bf16) (b : FVec Ideal S1x512 .f32) (x0 : FVec Ideal S400x1024 .bf16) (x1 : FVec Ideal S1024x512 .bf16) (x2 : FVec Ideal S1x512 .f32)
    (y : S400x512.Idx) (p : Fin 400) (q : Fin 512) (hy : y = ix2 p q) (i : S20000x512.Idx) (r : Fin 20000) (s : Fin 512) (hi : i = ix2 r s)
    (h0 : ∀ k : Fin 1024, x0 (ix2 p k) = A (ix2 r k)) (h1 : ∀ k : Fin 1024, x1 (ix2 k q) = B (ix2 k s))
    (h2 : x2 (ix2 (0 : Fin 1) q) = b (ix2 (0 : Fin 1) s)) :
    Gen.k3_pay1 (F := Ideal) x0 x1 x2 y = lin3 A B b i := by
  subst hy hi
  rw [pay3_apply, lin3_apply, h2]
  refine congrArg₂ (· + ·) (Finset.sum_congr rfl fun k _ => ?_) rfl
  rw [h0, h1]

/-- The printed index maps over the grid: the left operand's and the output's row-block index is the point, every
    other block index is 0. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem zero_off3 : (![0, 0] : Fin 2 → Nat) = fun _ => 0 := funext fun a => by fin_cases a <;> rfl

variable (V : (c : Dev nD) → (b : Ref sig .tc) → Buf (Elt Ideal) ((c : Thread nD τ).loc b))

/-- What point t writes back is block t of the layer's function of the arrays. -/
theorem flushed3_eq (c : Dev nD) (A : FVec Ideal S20000x1024 .bf16) (B : FVec Ideal S1024x512 .bf16) (b : FVec Ideal S1x512 .f32)
    (hA : V c main_v98 = A) (hB : V c main_v100 = B) (hb : V c main_v101 = b) (t : Fin cfg3.N) :
    (dat3 (F := Ideal) V c).flushed 3 t = ((cfg3.win 3).blk t).view.read (Elt Ideal) (lin3 A B b) := by
  subst hA hB hb
  show (cfg3.win 3).cut (grid3.coords t) ((dat3 V c).after 3 t) = _
  rw [after3_3]
  unfold out3_3
  rw [View.canon_unit_zero zero_off3]
  simp only [View.ld_unit_zero (S := S400x1024) zero_off3, View.ld_unit_zero (S := S1024x512) zero_off3, View.ld_unit_zero (S := S1x512) zero_off3]
  obtain ⟨e00, e01, e10, e11, e20, e21, e30, e31⟩ := idx_facts3 t
  funext y
  refine point3 _ _ _ _ _ _ y (y 0) (y 1) (eq_ix2 y) (((cfg3.win 3).blk t).view.emb y) (((cfg3.win 3).blk t).view.emb y 0) (((cfg3.win 3).blk t).view.emb y 1) (eq_ix2 _) (fun k => ?_) (fun k => ?_) ?_
  · show V c main_v98 (((cfg3.win 0).blk t).view.emb (ix2 (y 0) k)) = V c main_v98 (ix2 (((cfg3.win 3).blk t).view.emb y 0) k)
    refine congrArg _ (funext fun a => Fin.ext ?_)
    match a with
    | ⟨0, _⟩ => show win3_0.index t (0 : Fin 2) * 400 + 1 * (y 0).val = win3_3.index t (0 : Fin 2) * 400 + 1 * (y 0).val; omega
    | ⟨1, _⟩ => show win3_0.index t (1 : Fin 2) * 1024 + 1 * k.val = k.val; omega
  · show V c main_v100 (((cfg3.win 1).blk t).view.emb (ix2 k (y 1))) = V c main_v100 (ix2 k (((cfg3.win 3).blk t).view.emb y 1))
    refine congrArg _ (funext fun a => Fin.ext ?_)
    match a with
    | ⟨0, _⟩ => show win3_1.index t (0 : Fin 2) * 1024 + 1 * k.val = k.val; omega
    | ⟨1, _⟩ => show win3_1.index t (1 : Fin 2) * 512 + 1 * (y 1).val = win3_3.index t (1 : Fin 2) * 512 + 1 * (y 1).val; omega
  · show V c main_v101 (((cfg3.win 2).blk t).view.emb (ix2 (0 : Fin 1) (y 1))) = V c main_v101 (ix2 (0 : Fin 1) (((cfg3.win 3).blk t).view.emb y 1))
    refine congrArg _ (funext fun a => Fin.ext ?_)
    match a with
    | ⟨0, _⟩ => show win3_2.index t (0 : Fin 2) * 1 + 1 * 0 = 0; omega
    | ⟨1, _⟩ => show win3_2.index t (1 : Fin 2) * 512 + 1 * (y 1).val = win3_3.index t (1 : Fin 2) * 512 + 1 * (y 1).val; omega

/-- An index of the output array is in point t's block iff each coordinate is in the block's range on its axis. -/
theorem mem_blk3 (t : Fin cfg3.N) (i : S20000x512.Idx) :
    i ∈ ((cfg3.win 3).blk t).view.set ↔ ∀ a : Fin 2, win3_3.index t a * S400x512.size a ≤ (i a).val ∧ (i a).val < win3_3.index t a * S400x512.size a + S400x512.size a := by
  show i ∈ ((View.whole main_v102).slice (win3_3.rect t)).set ↔ _
  rw [View.set_slice_whole, Rect.mem_set_unit]
  exact Iff.rfl

/-- The 50 row blocks tile the output array: row r is in the block of point r / 400. -/
theorem cover3 (i : S20000x512.Idx) : ∃ t : Fin cfg3.N, (cfg3.win 3).flush t = true ∧ i ∈ ((cfg3.win 3).blk t).view.set := by
  have hi0 : (i 0).val < 20000 := (i 0).isLt
  have hi1 : (i 1).val < 512 := (i 1).isLt
  obtain ⟨t, ht⟩ : ∃ t : Fin cfg3.N, t.val = (i 0).val / 400 :=
    ⟨⟨(i 0).val / 400, by show _ < grid3.N; rw [N_3]; omega⟩, rfl⟩
  obtain ⟨-, -, -, -, -, -, e30, e31⟩ := idx_facts3 t
  refine ⟨t, flush3_3 t, ?_⟩
  rw [mem_blk3]
  intro a
  match a with
  | ⟨0, _⟩ => show win3_3.index t (0 : Fin 2) * 400 ≤ (i 0).val ∧ (i 0).val < win3_3.index t (0 : Fin 2) * 400 + 400; omega
  | ⟨1, _⟩ => show win3_3.index t (1 : Fin 2) * 512 ≤ (i 1).val ∧ (i 1).val < win3_3.index t (1 : Fin 2) * 512 + 512; omega

/-- THE OUTPUT ARRAY after the layer, entry by entry, of the arrays the layer finds. -/
theorem final3 (c : Dev nD) (A : FVec Ideal S20000x1024 .bf16) (B : FVec Ideal S1024x512 .bf16) (b : FVec Ideal S1x512 .f32)
    (hA : V c main_v98 = A) (hB : V c main_v100 = B) (hb : V c main_v101 = b) (r : Fin 20000) (j : Fin 512) :
    ((dat3 (F := Ideal) V c).arrAt 3 cfg3.N : FVec Ideal S20000x512 .f32) (ix2 r j) = (∑ k : Fin 1024, A (ix2 r k) * B (ix2 k j)) + b (ix2 (0 : Fin 1) j) :=
  (congrFun ((dat3 (F := Ideal) V c).arrAt_eq_of_cover 3 (lin3 A B b) (fun t _ => flushed3_eq V c A B b hA hB hb t) cover3) (ix2 r j)).trans
    (lin3_apply A B b r j)

end Cert.KernelIdeal.Frame

end
-- ==== Proof.KI.Val4.lean ====
/-
  Dense layer 4, from its row blocks to its output array.

  The layer runs over 50 grid points; point t reads rows 400·t … 400·t + 399 of the left operand, the whole
  right operand and the bias row, and writes back the same rows of the output. Entry (r, j) of the output
  array after the layer is therefore the clamped and scaled

      (∑ k, A (r, k) * B (k, j)) + b (0, j)

  of the arrays A, B, b the layer finds: what each point writes back is the block of that one function of the
  whole arrays (the payload at an index, each input block read at block index × block size + the coordinate
  inside the block), and the 50 blocks tile the array (row r is in the block of point r / 400).
-/
import proofs.«115122_j13357348290767_2_alg».proof.Proof.KI.Reg4
import proofs.«115122_j13357348290767_2_alg».proof.Proof.KI.Pay
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.ShloMosaic.Pipeline (Dat Cfg Window)

/-- The layer's output as one function of the arrays it finds. -/
def lin4 (A : FVec Ideal S20000x64 .bf16) (B : FVec Ideal S64x256 .bf16) (b : FVec Ideal S1x256 .f32) : FVec Ideal S20000x256 .f32 := fun i =>
  max ((∑ k : Fin 64, A (ix2 (i 0) k) * B (ix2 k (i 1))) + b (ix2 (0 : Fin 1) (i 1))) (Ideal.ofBits .f32 0x00000000#32) * Ideal.ofBits .f32 0x3F7FFFAC#32

theorem lin4_apply (A : FVec Ideal S20000x64 .bf16) (B : FVec Ideal S64x256 .bf16) (b : FVec Ideal S1x256 .f32) (r : Fin 20000) (j : Fin 256) :
    lin4 A B b (ix2 r j) = max ((∑ k : Fin 64, A (ix2 r k) * B (ix2 k j)) + b (ix2 (0 : Fin 1) j)) (Ideal.ofBits .f32 0x00000000#32) * Ideal.ofBits .f32 0x3F7FFFAC#32 := rfl

/-- The body's payload at a point of its block is the layer's function at an index of the array, as soon as the
    three loaded blocks read the arrays where that index says. -/
theorem point4 (A : FVec Ideal S20000x64 .bf16) (B : FVec Ideal S64x256 .bf16) (b : FVec Ideal S1x256 .f32) (x0 : FVec Ideal S400x64 .bf16) (x1 : FVec Ideal S64x256 .bf16) (x2 : FVec Ideal S1x256 .f32)
    (y : S400x256.Idx) (p : Fin 400) (q : Fin 256) (hy : y = ix2 p q) (i : S20000x256.Idx) (r : Fin 20000) (s : Fin 256) (hi : i = ix2 r s)
    (h0 : ∀ k : Fin 64, x0 (ix2 p k) = A (ix2 r k)) (h1 : ∀ k : Fin 64, x1 (ix2 k q) = B (ix2 k s))
    (h2 : x2 (ix2 (0 : Fin 1) q) = b (ix2 (0 : Fin 1) s)) :
    Gen.k4_pay1 (F := Ideal) x0 x1 x2 y = lin4 A B b i := by
  subst hy hi
  rw [pay4_apply, lin4_apply, h2]
  refine congrArg (fun z => max z (Ideal.ofBits .f32 0x00000000#32) * Ideal.ofBits .f32 0x3F7FFFAC#32) ?_
  refine congrArg₂ (· + ·) (Finset.sum_congr rfl fun k _ => ?_) rfl
  rw [h0, h1]

/-- The printed index maps over the grid: the left operand's and the output's row-block index is the point, every
    other block index is 0. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem zero_off4 : (![0, 0] : Fin 2 → Nat) = fun _ => 0 := funext fun a => by fin_cases a <;> rfl

variable (V : (c : Dev nD) → (b : Ref sig .tc) → Buf (Elt Ideal) ((c : Thread nD τ).loc b))

/-- What point t writes back is block t of the layer's function of the arrays. -/
theorem flushed4_eq (c : Dev nD) (A : FVec Ideal S20000x64 .bf16) (B : FVec Ideal S64x256 .bf16) (b : FVec Ideal S1x256 .f32)
    (hA : V c main_v321 = A) (hB : V c main_v323 = B) (hb : V c main_v324 = b) (t : Fin cfg4.N) :
    (dat4 (F := Ideal) V c).flushed 3 t = ((cfg4.win 3).blk t).view.read (Elt Ideal) (lin4 A B b) := by
  subst hA hB hb
  show (cfg4.win 3).cut (grid4.coords t) ((dat4 V c).after 3 t) = _
  rw [after4_3]
  unfold out4_3
  rw [View.canon_unit_zero zero_off4]
  simp only [View.ld_unit_zero (S := S400x64) zero_off4, View.ld_unit_zero (S := S64x256) zero_off4, View.ld_unit_zero (S := S1x256) zero_off4]
  obtain ⟨e00, e01, e10, e11, e20, e21, e30, e31⟩ := idx_facts4 t
  funext y
  refine point4 _ _ _ _ _ _ y (y 0) (y 1) (eq_ix2 y) (((cfg4.win 3).blk t).view.emb y) (((cfg4.win 3).blk t).view.emb y 0) (((cfg4.win 3).blk t).view.emb y 1) (eq_ix2 _) (fun k => ?_) (fun k => ?_) ?_
  · show V c main_v321 (((cfg4.win 0).blk t).view.emb (ix2 (y 0) k)) = V c main_v321 (ix2 (((cfg4.win 3).blk t).view.emb y 0) k)
    refine congrArg _ (funext fun a => Fin.ext ?_)
    match a with
    | ⟨0, _⟩ => show win4_0.index t (0 : Fin 2) * 400 + 1 * (y 0).val = win4_3.index t (0 : Fin 2) * 400 + 1 * (y 0).val; omega
    | ⟨1, _⟩ => show win4_0.index t (1 : Fin 2) * 64 + 1 * k.val = k.val; omega
  · show V c main_v323 (((cfg4.win 1).blk t).view.emb (ix2 k (y 1))) = V c main_v323 (ix2 k (((cfg4.win 3).blk t).view.emb y 1))
    refine congrArg _ (funext fun a => Fin.ext ?_)
    match a with
    | ⟨0, _⟩ => show win4_1.index t (0 : Fin 2) * 64 + 1 * k.val = k.val; omega
    | ⟨1, _⟩ => show win4_1.index t (1 : Fin 2) * 256 + 1 * (y 1).val = win4_3.index t (1 : Fin 2) * 256 + 1 * (y 1).val; omega
  · show V c main_v324 (((cfg4.win 2).blk t).view.emb (ix2 (0 : Fin 1) (y 1))) = V c main_v324 (ix2 (0 : Fin 1) (((cfg4.win 3).blk t).view.emb y 1))
    refine congrArg _ (funext fun a => Fin.ext ?_)
    match a with
    | ⟨0, _⟩ => show win4_2.index t (0 : Fin 2) * 1 + 1 * 0 = 0; omega
    | ⟨1, _⟩ => show win4_2.index t (1 : Fin 2) * 256 + 1 * (y 1).val = win4_3.index t (1 : Fin 2) * 256 + 1 * (y 1).val; omega

/-- An index of the output array is in point t's block iff each coordinate is in the block's range on its axis. -/
theorem mem_blk4 (t : Fin cfg4.N) (i : S20000x256.Idx) :
    i ∈ ((cfg4.win 3).blk t).view.set ↔ ∀ a : Fin 2, win4_3.index t a * S400x256.size a ≤ (i a).val ∧ (i a).val < win4_3.index t a * S400x256.size a + S400x256.size a := by
  show i ∈ ((View.whole main_v325).slice (win4_3.rect t)).set ↔ _
  rw [View.set_slice_whole, Rect.mem_set_unit]
  exact Iff.rfl

/-- The 50 row blocks tile the output array: row r is in the block of point r / 400. -/
theorem cover4 (i : S20000x256.Idx) : ∃ t : Fin cfg4.N, (cfg4.win 3).flush t = true ∧ i ∈ ((cfg4.win 3).blk t).view.set := by
  have hi0 : (i 0).val < 20000 := (i 0).isLt
  have hi1 : (i 1).val < 256 := (i 1).isLt
  obtain ⟨t, ht⟩ : ∃ t : Fin cfg4.N, t.val = (i 0).val / 400 :=
    ⟨⟨(i 0).val / 400, by show _ < grid4.N; rw [N_4]; omega⟩, rfl⟩
  obtain ⟨-, -, -, -, -, -, e30, e31⟩ := idx_facts4 t
  refine ⟨t, flush4_3 t, ?_⟩
  rw [mem_blk4]
  intro a
  match a with
  | ⟨0, _⟩ => show win4_3.index t (0 : Fin 2) * 400 ≤ (i 0).val ∧ (i 0).val < win4_3.index t (0 : Fin 2) * 400 + 400; omega
  | ⟨1, _⟩ => show win4_3.index t (1 : Fin 2) * 256 ≤ (i 1).val ∧ (i 1).val < win4_3.index t (1 : Fin 2) * 256 + 256; omega

/-- THE OUTPUT ARRAY after the layer, entry by entry, of the arrays the layer finds. -/
theorem final4 (c : Dev nD) (A : FVec Ideal S20000x64 .bf16) (B : FVec Ideal S64x256 .bf16) (b : FVec Ideal S1x256 .f32)
    (hA : V c main_v321 = A) (hB : V c main_v323 = B) (hb : V c main_v324 = b) (r : Fin 20000) (j : Fin 256) :
    ((dat4 (F := Ideal) V c).arrAt 3 cfg4.N : FVec Ideal S20000x256 .f32) (ix2 r j) = max ((∑ k : Fin 64, A (ix2 r k) * B (ix2 k j)) + b (ix2 (0 : Fin 1) j)) (Ideal.ofBits .f32 0x00000000#32) * Ideal.ofBits .f32 0x3F7FFFAC#32 :=
  (congrFun ((dat4 (F := Ideal) V c).arrAt_eq_of_cover 3 (lin4 A B b) (fun t _ => flushed4_eq V c A B b hA hB hb t) cover4) (ix2 r j)).trans
    (lin4_apply A B b r j)

end Cert.KernelIdeal.Frame

end
-- ==== Proof.KI.Val5.lean ====
/-
  Dense layer 5, from its row blocks to its output array.

  The layer runs over 50 grid points; point t reads rows 400·t … 400·t + 399 of the left operand, the whole
  right operand and the bias row, and writes back the same rows of the output. Entry (r, j) of the output
  array after the layer is therefore the clamped and scaled

      (∑ k, A (r, k) * B (k, j)) + b (0, j)

  of the arrays A, B, b the layer finds: what each point writes back is the block of that one function of the
  whole arrays (the payload at an index, each input block read at block index × block size + the coordinate
  inside the block), and the 50 blocks tile the array (row r is in the block of point r / 400).
-/
import proofs.«115122_j13357348290767_2_alg».proof.Proof.KI.Reg5
import proofs.«115122_j13357348290767_2_alg».proof.Proof.KI.Pay
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.ShloMosaic.Pipeline (Dat Cfg Window)

/-- The layer's output as one function of the arrays it finds. -/
def lin5 (A : FVec Ideal S20000x512 .bf16) (B : FVec Ideal S512x256 .bf16) (b : FVec Ideal S1x256 .f32) : FVec Ideal S20000x256 .f32 := fun i =>
  max ((∑ k : Fin 512, A (ix2 (i 0) k) * B (ix2 k (i 1))) + b (ix2 (0 : Fin 1) (i 1))) (Ideal.ofBits .f32 0x00000000#32) * Ideal.ofBits .f32 0x3F7FFFAC#32

theorem lin5_apply (A : FVec Ideal S20000x512 .bf16) (B : FVec Ideal S512x256 .bf16) (b : FVec Ideal S1x256 .f32) (r : Fin 20000) (j : Fin 256) :
    lin5 A B b (ix2 r j) = max ((∑ k : Fin 512, A (ix2 r k) * B (ix2 k j)) + b (ix2 (0 : Fin 1) j)) (Ideal.ofBits .f32 0x00000000#32) * Ideal.ofBits .f32 0x3F7FFFAC#32 := rfl

/-- The body's payload at a point of its block is the layer's function at an index of the array, as soon as the
    three loaded blocks read the arrays where that index says. -/
theorem point5 (A : FVec Ideal S20000x512 .bf16) (B : FVec Ideal S512x256 .bf16) (b : FVec Ideal S1x256 .f32) (x0 : FVec Ideal S400x512 .bf16) (x1 : FVec Ideal S512x256 .bf16) (x2 : FVec Ideal S1x256 .f32)
    (y : S400x256.Idx) (p : Fin 400) (q : Fin 256) (hy : y = ix2 p q) (i : S20000x256.Idx) (r : Fin 20000) (s : Fin 256) (hi : i = ix2 r s)
    (h0 : ∀ k : Fin 512, x0 (ix2 p k) = A (ix2 r k)) (h1 : ∀ k : Fin 512, x1 (ix2 k q) = B (ix2 k s))
    (h2 : x2 (ix2 (0 : Fin 1) q) = b (ix2 (0 : Fin 1) s)) :
    Gen.k5_pay1 (F := Ideal) x0 x1 x2 y = lin5 A B b i := by
  subst hy hi
  rw [pay5_apply, lin5_apply, h2]
  refine congrArg (fun z => max z (Ideal.ofBits .f32 0x00000000#32) * Ideal.ofBits .f32 0x3F7FFFAC#32) ?_
  refine congrArg₂ (· + ·) (Finset.sum_congr rfl fun k _ => ?_) rfl
  rw [h0, h1]

/-- The printed index maps over the grid: the left operand's and the output's row-block index is the point, every
    other block index is 0. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

theorem zero_off5 : (![0, 0] : Fin 2 → Nat) = fun _ => 0 := funext fun a => by fin_cases a <;> rfl

variable (V : (c : Dev nD) → (b : Ref sig .tc) → Buf (Elt Ideal) ((c : Thread nD τ).loc b))

/-- What point t writes back is block t of the layer's function of the arrays. -/
theorem flushed5_eq (c : Dev nD) (A : FVec Ideal S20000x512 .bf16) (B : FVec Ideal S512x256 .bf16) (b : FVec Ideal S1x256 .f32)
    (hA : V c main_v331 = A) (hB : V c main_v333 = B) (hb : V c main_v334 = b) (t : Fin cfg5.N) :
    (dat5 (F := Ideal) V c).flushed 3 t = ((cfg5.win 3).blk t).view.read (Elt Ideal) (lin5 A B b) := by
  subst hA hB hb
  show (cfg5.win 3).cut (grid5.coords t) ((dat5 V c).after 3 t) = _
  rw [after5_3]
  unfold out5_3
  rw [View.canon_unit_zero zero_off5]
  simp only [View.ld_unit_zero (S := S400x512) zero_off5, View.ld_unit_zero (S := S512x256) zero_off5, View.ld_unit_zero (S := S1x256) zero_off5]
  obtain ⟨e00, e01, e10, e11, e20, e21, e30, e31⟩ := idx_facts5 t
  funext y
  refine point5 _ _ _ _ _ _ y (y 0) (y 1) (eq_ix2 y) (((cfg5.win 3).blk t).view.emb y) (((cfg5.win 3).blk t).view.emb y 0) (((cfg5.win 3).blk t).view.emb y 1) (eq_ix2 _) (fun k => ?_) (fun k => ?_) ?_
  · show V c main_v331 (((cfg5.win 0).blk t).view.emb (ix2 (y 0) k)) = V c main_v331 (ix2 (((cfg5.win 3).blk t).view.emb y 0) k)
    refine congrArg _ (funext fun a => Fin.ext ?_)
    match a with
    | ⟨0, _⟩ => show win5_0.index t (0 : Fin 2) * 400 + 1 * (y 0).val = win5_3.index t (0 : Fin 2) * 400 + 1 * (y 0).val; omega
    | ⟨1, _⟩ => show win5_0.index t (1 : Fin 2) * 512 + 1 * k.val = k.val; omega
  · show V c main_v333 (((cfg5.win 1).blk t).view.emb (ix2 k (y 1))) = V c main_v333 (ix2 k (((cfg5.win 3).blk t).view.emb y 1))
    refine congrArg _ (funext fun a => Fin.ext ?_)
    match a with
    | ⟨0, _⟩ => show win5_1.index t (0 : Fin 2) * 512 + 1 * k.val = k.val; omega
    | ⟨1, _⟩ => show win5_1.index t (1 : Fin 2) * 256 + 1 * (y 1).val = win5_3.index t (1 : Fin 2) * 256 + 1 * (y 1).val; omega
  · show V c main_v334 (((cfg5.win 2).blk t).view.emb (ix2 (0 : Fin 1) (y 1))) = V c main_v334 (ix2 (0 : Fin 1) (((cfg5.win 3).blk t).view.emb y 1))
    refine congrArg _ (funext fun a => Fin.ext ?_)
    match a with
    | ⟨0, _⟩ => show win5_2.index t (0 : Fin 2) * 1 + 1 * 0 = 0; omega
    | ⟨1, _⟩ => show win5_2.index t (1 : Fin 2) * 256 + 1 * (y 1).val = win5_3.index t (1 : Fin 2) * 256 + 1 * (y 1).val; omega

/-- An index of the output array is in point t's block iff each coordinate is in the block's range on its axis. -/
theorem mem_blk5 (t : Fin cfg5.N) (i : S20000x256.Idx) :
    i ∈ ((cfg5.win 3).blk t).view.set ↔ ∀ a : Fin 2, win5_3.index t a * S400x256.size a ≤ (i a).val ∧ (i a).val < win5_3.index t a * S400x256.size a + S400x256.size a := by
  show i ∈ ((View.whole main_v335).slice (win5_3.rect t)).set ↔ _
  rw [View.set_slice_whole, Rect.mem_set_unit]
  exact Iff.rfl

/-- The 50 row blocks tile the output array: row r is in the block of point r / 400. -/
theorem cover5 (i : S20000x256.Idx) : ∃ t : Fin cfg5.N, (cfg5.win 3).flush t = true ∧ i ∈ ((cfg5.win 3).blk t).view.set := by
  have hi0 : (i 0).val < 20000 := (i 0).isLt
  have hi1 : (i 1).val < 256 := (i 1).isLt
  obtain ⟨t, ht⟩ : ∃ t : Fin cfg5.N, t.val = (i 0).val / 400 :=
    ⟨⟨(i 0).val / 400, by show _ < grid5.N; rw [N_5]; omega⟩, rfl⟩
  obtain ⟨-, -, -, -, -, -, e30, e31⟩ := idx_facts5 t
  refine ⟨t, flush5_3 t, ?_⟩
  rw [mem_blk5]
  intro a
  match a with
  | ⟨0, _⟩ => show win5_3.index t (0 : Fin 2) * 400 ≤ (i 0).val ∧ (i 0).val < win5_3.index t (0 : Fin 2) * 400 + 400; omega
  | ⟨1, _⟩ => show win5_3.index t (1 : Fin 2) * 256 ≤ (i 1).val ∧ (i 1).val < win5_3.index t (1 : Fin 2) * 256 + 256; omega

/-- THE OUTPUT ARRAY after the layer, entry by entry, of the arrays the layer finds. -/
theorem final5 (c : Dev nD) (A : FVec Ideal S20000x512 .bf16) (B : FVec Ideal S512x256 .bf16) (b : FVec Ideal S1x256 .f32)
    (hA : V c main_v331 = A) (hB : V c main_v333 = B) (hb : V c main_v334 = b) (r : Fin 20000) (j : Fin 256) :
    ((dat5 (F := Ideal) V c).arrAt 3 cfg5.N : FVec Ideal S20000x256 .f32) (ix2 r j) = max ((∑ k : Fin 512, A (ix2 r k) * B (ix2 k j)) + b (ix2 (0 : Fin 1) j)) (Ideal.ofBits .f32 0x00000000#32) * Ideal.ofBits .f32 0x3F7FFFAC#32 :=
  (congrFun ((dat5 (F := Ideal) V c).arrAt_eq_of_cover 3 (lin5 A B b) (fun t _ => flushed5_eq V c A B b hA hB hb t) cover5) (ix2 r j)).trans
    (lin5_apply A B b r j)

end Cert.KernelIdeal.Frame

end
-- ==== Proof.Sim.DenseRec.lean ====
/- The reconstruction layer against the reference's.

   Both programs join the two encoder outputs [20000, 512] side by side into [20000, 1024] and apply a dense
   layer with the weights [512, 1024] and the bias [512]. The kernel program prepares the operands (the joined
   matrix cast to the narrow float type, the weights cast and transposed, the bias as a row) and the dense layer
   writes, at (r, j), the sum over k of left (r, k) times right (k, j) plus the row at (0, j); the reference
   computes the product with the transposed weights and adds the broadcast bias. If the two programs hold the
   same encoder outputs, weights and bias, the results agree: at (r, j) both are the sum over k of the joined
   matrix at (r, k) times the weights at (j, k), plus the bias at j. -/
import proofs.«115122_j13357348290767_2_alg».proof.Proof.Gen.KernelIdeal.Launch
import proofs.«115122_j13357348290767_2_alg».proof.Proof.R.Ops
import proofs.«115122_j13357348290767_2_alg».proof.Proof.Sim.Base
import proofs.«115122_j13357348290767_2_alg».proof.Proof.Sim.DenseGen
import Idealize.ShloMosaic.Lib.StableHlo.Run

set_option maxRecDepth 8192

noncomputable section

namespace Cert.Sim

open Idealize.ShloMosaic Idealize.ShloMosaic.TcCoe Idealize.ShloMosaic.StableHlo Idealize.ShloMosaic.ValueIdx

section KernelSide
open Cert.KernelIdeal Cert.KernelIdeal.Gen

/-- The left operand at (r, k): the two encoder outputs `e1`, `e2` joined side by side. -/
theorem rec_lhs_apply (W : VK) (e1 e2 : FVec Ideal S20000x512 .f32)
    (h1 : W (Proc.devRef .tc main_v11) = e1) (h2 : W (Proc.devRef .tc main_v12) = e2) (r : Fin 20000) (k : Fin 1024) :
    after (hostOps3 (F := Ideal)) W (Proc.devRef .tc main_v98) (ix2 r k)
      = concatenate S20000x1024 1 [⟨S20000x512, e1⟩, ⟨S20000x512, e2⟩] concatenates_S20000x512_S20000x512_S20000x1024_d1 (ix2 r k) := by
  subst h1 h2
  after_results_simp
  rfl

/-- The right operand at (k, j): the weights at (j, k). -/
theorem rec_rhs_apply (W : VK) (k : Fin 1024) (j : Fin 512) :
    after (hostOps3 (F := Ideal)) W (Proc.devRef .tc main_v100) (ix2 k j) = W (Proc.devRef .tc main_arg7) (ix2 j k) := by
  after_results_simp
  exact dense_rhs_apply _ _ _ k j

/-- The bias row at (0, j): the bias at j. -/
theorem rec_bias_apply (W : VK) (j : Fin 512) :
    after (hostOps3 (F := Ideal)) W (Proc.devRef .tc main_v101) (ix2 (0 : Fin 1) j) = W (Proc.devRef .tc main_arg8) (ix1 j) := by
  after_results_simp
  exact dense_bias_apply _ _ j

end KernelSide

section ReferenceSide
open Cert.ReferenceIdeal Cert.ReferenceIdeal.Gen Cert.ReferenceIdeal.RValue

/-- The product's left index keeps the output's row. -/
theorem rec_dot_lhs0 (i : S20000x512.Idx) (q : dot_S20000x1024_S1024x512_S20000x512_1_0_0_1_n_n.contr.Idx) :
    (dot_S20000x1024_S1024x512_S20000x512_1_0_0_1_n_n.lhsIdx i q 0).val = (i 0).val := by
  unfold DotDims.lhsIdx
  rw [dif_neg (show ¬(0 : Fin S20000x1024.rank) ∈ dot_S20000x1024_S1024x512_S20000x512_1_0_0_1_n_n.lhsBatch by decide),
    dif_pos (show (0 : Fin S20000x1024.rank) ∈ dot_S20000x1024_S1024x512_S20000x512_1_0_0_1_n_n.lhsNonContracting by decide)]
  rfl

/-- The product's right index keeps the output's column. -/
theorem rec_dot_rhs1 (i : S20000x512.Idx) (q : dot_S20000x1024_S1024x512_S20000x512_1_0_0_1_n_n.contr.Idx) :
    (dot_S20000x1024_S1024x512_S20000x512_1_0_0_1_n_n.rhsIdx i q 1).val = (i 1).val := by
  unfold DotDims.rhsIdx
  rw [dif_neg (show ¬(1 : Fin S1024x512.rank) ∈ dot_S20000x1024_S1024x512_S20000x512_1_0_0_1_n_n.rhsBatch by decide),
    dif_pos (show (1 : Fin S1024x512.rank) ∈ dot_S20000x1024_S1024x512_S20000x512_1_0_0_1_n_n.rhsNonContracting by decide)]
  rfl

/-- The reference's reconstruction at (r, j), in terms of the encoder outputs `e1`, `e2`, the weights `x7` and the
    bias `x8` it holds. -/
theorem ref_rec_apply (X : VR) (e1 e2 : FVec Ideal S20000x512 .f32) (x7 : FVec Ideal S512x1024 .f32) (x8 : FVec Ideal S512 .f32)
    (h1 : X (Proc.devRef .tc main_v8) = e1) (h2 : X (Proc.devRef .tc main_v13) = e2)
    (h7 : X (Proc.devRef .tc main_arg7) = x7) (h8 : X (Proc.devRef .tc main_arg8) = x8) (r : Fin 20000) (j : Fin 512) :
    after (rops9 (F := Ideal)) X (Proc.devRef .tc main_v79) (ix2 r j)
      = (∑ k : Fin 1024, concatenate S20000x1024 1 [⟨S20000x512, e1⟩, ⟨S20000x512, e2⟩]
            concatenates_S20000x512_S20000x512_S20000x1024_d1 (ix2 r k) * x7 (ix2 j k)) + x8 (ix1 j) := by
  subst h1 h2 h7 h8
  after_results
  exact dense_ref_apply dot_S20000x1024_S1024x512_S20000x512_1_0_0_1_n_n rfl rfl rfl rfl rec_dot_lhs0 rec_dot_rhs1
    _ _ _ _ _ _ r j

end ReferenceSide

open Cert.KernelIdeal.Gen Cert.ReferenceIdeal.RValue

/-- The reconstruction layer: the dense layer's output is the reference's. `A`, `B`, `c` are the layer's left
    operand, right operand and bias row as the stretch before it prepares them, `O` its output; `hreg` says the
    output is the product plus the bias row. -/
theorem sim_rec (W3 We : VK) (X : VR)
    (h11 : W3 (Proc.devRef .tc Cert.KernelIdeal.main_v11) = X (Proc.devRef .tc Cert.ReferenceIdeal.main_v8))
    (h12 : W3 (Proc.devRef .tc Cert.KernelIdeal.main_v12) = X (Proc.devRef .tc Cert.ReferenceIdeal.main_v13))
    (a7 : W3 (Proc.devRef .tc Cert.KernelIdeal.main_arg7) = X (Proc.devRef .tc Cert.ReferenceIdeal.main_arg7))
    (a8 : W3 (Proc.devRef .tc Cert.KernelIdeal.main_arg8) = X (Proc.devRef .tc Cert.ReferenceIdeal.main_arg8))
    (A : FVec Ideal Cert.KernelIdeal.S20000x1024 .bf16) (B : FVec Ideal Cert.KernelIdeal.S1024x512 .bf16)
    (c : FVec Ideal Cert.KernelIdeal.S1x512 .f32) (O : FVec Ideal Cert.KernelIdeal.S20000x512 .f32)
    (hA : after (hostOps3 (F := Ideal)) W3 (Proc.devRef .tc Cert.KernelIdeal.main_v98) = A)
    (hB : after (hostOps3 (F := Ideal)) W3 (Proc.devRef .tc Cert.KernelIdeal.main_v100) = B)
    (hc : after (hostOps3 (F := Ideal)) W3 (Proc.devRef .tc Cert.KernelIdeal.main_v101) = c)
    (hO : We (Proc.devRef .tc Cert.KernelIdeal.main_v102) = O)
    (hreg : ∀ (r : Fin 20000) (j : Fin 512),
      O (ix2 r j) = (∑ k : Fin 1024, A (ix2 r k) * B (ix2 k j)) + c (ix2 (0 : Fin 1) j)) :
    We (Proc.devRef .tc Cert.KernelIdeal.main_v102)
      = after (rops9 (F := Ideal)) X (Proc.devRef .tc Cert.ReferenceIdeal.main_v79) := by
  subst hA hB hc hO
  funext i
  obtain ⟨r, j, rfl⟩ : ∃ (r : Fin 20000) (j : Fin 512), i = ix2 r j := ⟨i 0, i 1, eq_ix2 i⟩
  rw [hreg, ref_rec_apply X _ _ _ _ rfl rfl rfl rfl, rec_bias_apply, a8]
  refine congrArg (fun t : EReal => t + _) ?_
  refine Finset.sum_congr rfl fun k _ => ?_
  rw [rec_lhs_apply W3 _ _ rfl rfl, rec_rhs_apply, h11, h12, a7]
  all_goals rfl

end Cert.Sim

end
-- ==== Proof.Sim.DenseHeads.lean ====
/- The two rectified head layers against the reference's.

   Each is a dense layer followed by a rectifier and a scaling: with an input matrix x : [20000, K], weights
   w : [256, K] and a bias b : [256], the output at (r, j) is
     max ((sum over k of x (r, k) * w (j, k)) + b j, value of the zero word) * value of one fixed scaling word.
   The kernel program prepares the operands (x cast to the narrow float type, w cast and transposed into [K, 256],
   b reshaped into a row [1, 256]) and the dense layer writes, at (r, j), the maximum of (the sum over k of
   left (r, k) times right (k, j), plus the row at (0, j)) with the zero word's value, times the scaling word's
   value; the reference computes the product with the transposed weights, adds the broadcast bias, takes the
   maximum with the splat zero word and multiplies by the splat scaling word. At the exact values a cast is the
   identity, so if the two programs hold the same input, weights and bias, the two results are the same number
   at every (r, j). The first layer has K = 64 (its input is the last graph layer's output), the second K = 512
   (its input is the first encoder's output). -/
import proofs.«115122_j13357348290767_2_alg».proof.Proof.Gen.KernelIdeal.Launch
import proofs.«115122_j13357348290767_2_alg».proof.Proof.KI.Chunks
import proofs.«115122_j13357348290767_2_alg».proof.Proof.R.Ops
import proofs.«115122_j13357348290767_2_alg».proof.Proof.Sim.Base
import proofs.«115122_j13357348290767_2_alg».proof.Proof.Sim.DenseGen
import Idealize.ShloMosaic.Lib.StableHlo.Run

set_option maxRecDepth 8192

noncomputable section

namespace Cert.Sim

open Idealize.ShloMosaic Idealize.ShloMosaic.TcCoe Idealize.ShloMosaic.StableHlo Idealize.ShloMosaic.ValueIdx

/-! ## A rectified, scaled dense layer at an index, in the reference's spelling -/

section Generic

variable {M K N : Nat}

/-- The reference's rectified, scaled dense layer at (r, j): the maximum of the dense layer's entry with the value of
    the word `z`, times the value of the word `s`. -/
theorem dense_relu_ref_apply (d : DotDims ⟨2, ![M, K]⟩ ⟨2, ![K, N]⟩ ⟨2, ![M, N]⟩)
    (hl : d.lhsContracting = [1]) (hr : d.rhsContracting = [0])
    (hrank : d.contr.rank = 1) (hsize : d.contr.size ⟨0, by omega⟩ = K)
    (h0 : ∀ (i : (⟨2, ![M, N]⟩ : Shape).Idx) (q : d.contr.Idx), (d.lhsIdx i q 0).val = (i 0).val)
    (h1 : ∀ (i : (⟨2, ![M, N]⟩ : Shape).Idx) (q : d.contr.Idx), (d.rhsIdx i q 1).val = (i 1).val)
    (x : FVec Ideal ⟨2, ![M, K]⟩ .f32) (w : FVec Ideal ⟨2, ![N, K]⟩ .f32) (b : FVec Ideal ⟨1, ![N]⟩ .f32)
    (ht : (⟨2, ![N, K]⟩ : Shape).Transposes [1, 0] ⟨2, ![K, N]⟩)
    (hb1 : (⟨1, ![N]⟩ : Shape).BroadcastsInDim ⟨2, ![1, N]⟩ ![1])
    (hb2 : (⟨2, ![1, N]⟩ : Shape).BroadcastsInDim ⟨2, ![M, N]⟩ ![0, 1])
    (hb0 : (⟨0, ![]⟩ : Shape).BroadcastsInDim ⟨2, ![M, N]⟩ ![])
    (z s : BitVec FTy.f32.bits) (r : Fin M) (j : Fin N) :
    mulf (F := Ideal)
        (maximumf (F := Ideal)
          (addf (F := Ideal) (Host.dotGeneral (F := Ideal) d none x (transpose ⟨2, ![K, N]⟩ [1, 0] w ht))
            (broadcastInDim ⟨2, ![M, N]⟩ ![0, 1] hb2 (broadcastInDim ⟨2, ![1, N]⟩ ![1] hb1 b)))
          (broadcastInDim ⟨2, ![M, N]⟩ ![] hb0 (constant (F := Ideal) ⟨0, ![]⟩ .f32 z)))
        (broadcastInDim ⟨2, ![M, N]⟩ ![] hb0 (constant (F := Ideal) ⟨0, ![]⟩ .f32 s)) (ix2 r j)
      = max ((∑ k : Fin K, x (ix2 r k) * w (ix2 j k)) + b (ix1 j)) (Ideal.ofBits .f32 z) * Ideal.ofBits .f32 s := by
  rw [mulf_apply, maximumf_apply, broadcastInDim_scalar_apply, broadcastInDim_scalar_apply, constant_apply, constant_apply,
    dense_ref_apply d hl hr hrank hsize h0 h1 x w b ht hb1 hb2 r j]

end Generic

/-! ## The first head layer (region 4) -/

section KernelSidez1
open Cert.KernelIdeal Cert.KernelIdeal.Gen Cert.KernelIdeal.Frame

/-- The left operand at (r, k): the input matrix (the cast is the identity at the exact values). -/
theorem z1_lhs_apply (W : VK) (r : Fin 20000) (k : Fin 64) :
    after (kc5 (F := Ideal)) W (Proc.devRef .tc main_v321) (ix2 r k) = W (Proc.devRef .tc main_v320) (ix2 r k) := by
  after_results
  rfl

/-- The right operand at (k, j): the weights at (j, k). -/
theorem z1_rhs_apply (W : VK) (k : Fin 64) (j : Fin 256) :
    after (kc5 (F := Ideal)) W (Proc.devRef .tc main_v323) (ix2 k j) = W (Proc.devRef .tc main_arg13) (ix2 j k) := by
  after_results_simp
  exact dense_rhs_apply _ _ _ k j

/-- The bias row at (0, j): the bias at j. -/
theorem z1_bias_apply (W : VK) (j : Fin 256) :
    after (kc5 (F := Ideal)) W (Proc.devRef .tc main_v324) (ix2 (0 : Fin 1) j) = W (Proc.devRef .tc main_arg14) (ix1 j) := by
  after_results_simp
  exact dense_bias_apply _ _ j

end KernelSidez1

section ReferenceSidez1
open Cert.ReferenceIdeal Cert.ReferenceIdeal.Gen Cert.ReferenceIdeal.RValue

/-- The product's left index keeps the output's row. -/
theorem z1_dot_lhs0 (i : S20000x256.Idx) (q : dot_S20000x64_S64x256_S20000x256_1_0_0_1_n_n.contr.Idx) :
    (dot_S20000x64_S64x256_S20000x256_1_0_0_1_n_n.lhsIdx i q 0).val = (i 0).val := by
  unfold DotDims.lhsIdx
  rw [dif_neg (show ¬(0 : Fin S20000x64.rank) ∈ dot_S20000x64_S64x256_S20000x256_1_0_0_1_n_n.lhsBatch by decide),
    dif_pos (show (0 : Fin S20000x64.rank) ∈ dot_S20000x64_S64x256_S20000x256_1_0_0_1_n_n.lhsNonContracting by decide)]
  rfl

/-- The product's right index keeps the output's column. -/
theorem z1_dot_rhs1 (i : S20000x256.Idx) (q : dot_S20000x64_S64x256_S20000x256_1_0_0_1_n_n.contr.Idx) :
    (dot_S20000x64_S64x256_S20000x256_1_0_0_1_n_n.rhsIdx i q 1).val = (i 1).val := by
  unfold DotDims.rhsIdx
  rw [dif_neg (show ¬(1 : Fin S64x256.rank) ∈ dot_S20000x64_S64x256_S20000x256_1_0_0_1_n_n.rhsBatch by decide),
    dif_pos (show (1 : Fin S64x256.rank) ∈ dot_S20000x64_S64x256_S20000x256_1_0_0_1_n_n.rhsNonContracting by decide)]
  rfl

/-- The reference's layer at (r, j), in terms of the input `x`, the weights `w` and the bias `b` it holds. -/
theorem ref_z1_apply (X : VR) (x : FVec Ideal S20000x64 .f32) (w : FVec Ideal S256x64 .f32) (b : FVec Ideal S256 .f32)
    (hx : X (Proc.devRef .tc main_v281) = x) (hw : X (Proc.devRef .tc main_arg13) = w) (hb : X (Proc.devRef .tc main_arg14) = b)
    (r : Fin 20000) (j : Fin 256) :
    after (rops15 (F := Ideal)) X (Proc.devRef .tc main_v290) (ix2 r j)
      = max ((∑ k : Fin 64, x (ix2 r k) * w (ix2 j k)) + b (ix1 j)) (Ideal.ofBits .f32 0x00000000#32)
          * Ideal.ofBits .f32 0x3F7FFFAC#32 := by
  subst hx hw hb
  after_results
  exact dense_relu_ref_apply dot_S20000x64_S64x256_S20000x256_1_0_0_1_n_n rfl rfl rfl rfl z1_dot_lhs0 z1_dot_rhs1
    _ _ _ _ _ _ _ _ _ r j

end ReferenceSidez1

/-- The first head layer: the rectified, scaled dense layer's output is the reference's. `A`, `B`, `b` are the layer's left operand, right operand and bias row as the chunk before it prepares them, `O` its output; `hreg` says the output is the maximum of the product plus the bias row with the zero word's value, times the scaling word's value. -/
theorem sim_z1 (Wb We : VK) (X : VR)
    (hjk : Wb (Proc.devRef .tc Cert.KernelIdeal.main_v320) = X (Proc.devRef .tc Cert.ReferenceIdeal.main_v281))
    (a13 : Wb (Proc.devRef .tc Cert.KernelIdeal.main_arg13) = X (Proc.devRef .tc Cert.ReferenceIdeal.main_arg13))
    (a14 : Wb (Proc.devRef .tc Cert.KernelIdeal.main_arg14) = X (Proc.devRef .tc Cert.ReferenceIdeal.main_arg14))
    (A : FVec Ideal Cert.KernelIdeal.S20000x64 .bf16) (B : FVec Ideal Cert.KernelIdeal.S64x256 .bf16)
    (b : FVec Ideal Cert.KernelIdeal.S1x256 .f32) (O : FVec Ideal Cert.KernelIdeal.S20000x256 .f32)
    (hA : after (Cert.KernelIdeal.Frame.kc5 (F := Ideal)) Wb (Proc.devRef .tc Cert.KernelIdeal.main_v321) = A)
    (hB : after (Cert.KernelIdeal.Frame.kc5 (F := Ideal)) Wb (Proc.devRef .tc Cert.KernelIdeal.main_v323) = B)
    (hb : after (Cert.KernelIdeal.Frame.kc5 (F := Ideal)) Wb (Proc.devRef .tc Cert.KernelIdeal.main_v324) = b)
    (hO : We (Proc.devRef .tc Cert.KernelIdeal.main_v325) = O)
    (hreg : ∀ (r : Fin 20000) (j : Fin 256),
      O (ix2 r j) = max ((∑ k : Fin 64, A (ix2 r k) * B (ix2 k j)) + b (ix2 (0 : Fin 1) j)) (Ideal.ofBits .f32 0x00000000#32)
          * Ideal.ofBits .f32 0x3F7FFFAC#32) :
    We (Proc.devRef .tc Cert.KernelIdeal.main_v325)
      = after (Cert.ReferenceIdeal.RValue.rops15 (F := Ideal)) X (Proc.devRef .tc Cert.ReferenceIdeal.main_v290) := by
  subst hA hB hb hO
  funext i
  obtain ⟨r, j, rfl⟩ : ∃ (r : Fin 20000) (j : Fin 256), i = ix2 r j := ⟨i 0, i 1, eq_ix2 i⟩
  rw [hreg, ref_z1_apply X _ _ _ rfl rfl rfl, z1_bias_apply, a14]
  refine congrArg (fun t : EReal => max (t + _) _ * _) ?_
  refine Finset.sum_congr rfl fun k _ => ?_
  rw [z1_lhs_apply, z1_rhs_apply, hjk, a13]

/-! ## The second head layer (region 5) -/

section KernelSidezs
open Cert.KernelIdeal Cert.KernelIdeal.Gen Cert.KernelIdeal.Frame

/-- The left operand at (r, k): the input matrix (the cast is the identity at the exact values). -/
theorem zs_lhs_apply (W : VK) (r : Fin 20000) (k : Fin 512) :
    after (hostOps5 (F := Ideal)) W (Proc.devRef .tc main_v331) (ix2 r k) = W (Proc.devRef .tc main_v11) (ix2 r k) := by
  after_results
  rfl

/-- The right operand at (k, j): the weights at (j, k). -/
theorem zs_rhs_apply (W : VK) (k : Fin 512) (j : Fin 256) :
    after (hostOps5 (F := Ideal)) W (Proc.devRef .tc main_v333) (ix2 k j) = W (Proc.devRef .tc main_arg17) (ix2 j k) := by
  after_results_simp
  exact dense_rhs_apply _ _ _ k j

/-- The bias row at (0, j): the bias at j. -/
theorem zs_bias_apply (W : VK) (j : Fin 256) :
    after (hostOps5 (F := Ideal)) W (Proc.devRef .tc main_v334) (ix2 (0 : Fin 1) j) = W (Proc.devRef .tc main_arg18) (ix1 j) := by
  after_results_simp
  exact dense_bias_apply _ _ j

end KernelSidezs

section ReferenceSidezs
open Cert.ReferenceIdeal Cert.ReferenceIdeal.Gen Cert.ReferenceIdeal.RValue

/-- The product's left index keeps the output's row. -/
theorem zs_dot_lhs0 (i : S20000x256.Idx) (q : dot_S20000x512_S512x256_S20000x256_1_0_0_1_n_n.contr.Idx) :
    (dot_S20000x512_S512x256_S20000x256_1_0_0_1_n_n.lhsIdx i q 0).val = (i 0).val := by
  unfold DotDims.lhsIdx
  rw [dif_neg (show ¬(0 : Fin S20000x512.rank) ∈ dot_S20000x512_S512x256_S20000x256_1_0_0_1_n_n.lhsBatch by decide),
    dif_pos (show (0 : Fin S20000x512.rank) ∈ dot_S20000x512_S512x256_S20000x256_1_0_0_1_n_n.lhsNonContracting by decide)]
  rfl

/-- The product's right index keeps the output's column. -/
theorem zs_dot_rhs1 (i : S20000x256.Idx) (q : dot_S20000x512_S512x256_S20000x256_1_0_0_1_n_n.contr.Idx) :
    (dot_S20000x512_S512x256_S20000x256_1_0_0_1_n_n.rhsIdx i q 1).val = (i 1).val := by
  unfold DotDims.rhsIdx
  rw [dif_neg (show ¬(1 : Fin S512x256.rank) ∈ dot_S20000x512_S512x256_S20000x256_1_0_0_1_n_n.rhsBatch by decide),
    dif_pos (show (1 : Fin S512x256.rank) ∈ dot_S20000x512_S512x256_S20000x256_1_0_0_1_n_n.rhsNonContracting by decide)]
  rfl

/-- The reference's layer at (r, j), in terms of the input `x`, the weights `w` and the bias `b` it holds. -/
theorem ref_zs_apply (X : VR) (x : FVec Ideal S20000x512 .f32) (w : FVec Ideal S256x512 .f32) (b : FVec Ideal S256 .f32)
    (hx : X (Proc.devRef .tc main_v8) = x) (hw : X (Proc.devRef .tc main_arg17) = w) (hb : X (Proc.devRef .tc main_arg18) = b)
    (r : Fin 20000) (j : Fin 256) :
    after (rops17 (F := Ideal)) X (Proc.devRef .tc main_v304) (ix2 r j)
      = max ((∑ k : Fin 512, x (ix2 r k) * w (ix2 j k)) + b (ix1 j)) (Ideal.ofBits .f32 0x00000000#32)
          * Ideal.ofBits .f32 0x3F7FFFAC#32 := by
  subst hx hw hb
  after_results
  exact dense_relu_ref_apply dot_S20000x512_S512x256_S20000x256_1_0_0_1_n_n rfl rfl rfl rfl zs_dot_lhs0 zs_dot_rhs1
    _ _ _ _ _ _ _ _ _ r j

end ReferenceSidezs

/-- The second head layer: the rectified, scaled dense layer's output is the reference's. `A`, `B`, `b` are the layer's left operand, right operand and bias row as the stretch before it prepares them, `O` its output; `hreg` as for the first head layer. -/
theorem sim_zs (Wb We : VK) (X : VR)
    (hei : Wb (Proc.devRef .tc Cert.KernelIdeal.main_v11) = X (Proc.devRef .tc Cert.ReferenceIdeal.main_v8))
    (a17 : Wb (Proc.devRef .tc Cert.KernelIdeal.main_arg17) = X (Proc.devRef .tc Cert.ReferenceIdeal.main_arg17))
    (a18 : Wb (Proc.devRef .tc Cert.KernelIdeal.main_arg18) = X (Proc.devRef .tc Cert.ReferenceIdeal.main_arg18))
    (A : FVec Ideal Cert.KernelIdeal.S20000x512 .bf16) (B : FVec Ideal Cert.KernelIdeal.S512x256 .bf16)
    (b : FVec Ideal Cert.KernelIdeal.S1x256 .f32) (O : FVec Ideal Cert.KernelIdeal.S20000x256 .f32)
    (hA : after (Cert.KernelIdeal.Gen.hostOps5 (F := Ideal)) Wb (Proc.devRef .tc Cert.KernelIdeal.main_v331) = A)
    (hB : after (Cert.KernelIdeal.Gen.hostOps5 (F := Ideal)) Wb (Proc.devRef .tc Cert.KernelIdeal.main_v333) = B)
    (hb : after (Cert.KernelIdeal.Gen.hostOps5 (F := Ideal)) Wb (Proc.devRef .tc Cert.KernelIdeal.main_v334) = b)
    (hO : We (Proc.devRef .tc Cert.KernelIdeal.main_v335) = O)
    (hreg : ∀ (r : Fin 20000) (j : Fin 256),
      O (ix2 r j) = max ((∑ k : Fin 512, A (ix2 r k) * B (ix2 k j)) + b (ix2 (0 : Fin 1) j)) (Ideal.ofBits .f32 0x00000000#32)
          * Ideal.ofBits .f32 0x3F7FFFAC#32) :
    We (Proc.devRef .tc Cert.KernelIdeal.main_v335)
      = after (Cert.ReferenceIdeal.RValue.rops17 (F := Ideal)) X (Proc.devRef .tc Cert.ReferenceIdeal.main_v304) := by
  subst hA hB hb hO
  funext i
  obtain ⟨r, j, rfl⟩ : ∃ (r : Fin 20000) (j : Fin 256), i = ix2 r j := ⟨i 0, i 1, eq_ix2 i⟩
  rw [hreg, ref_zs_apply X _ _ _ rfl rfl rfl, zs_bias_apply, a18]
  refine congrArg (fun t : EReal => max (t + _) _ * _) ?_
  refine Finset.sum_congr rfl fun k _ => ?_
  rw [zs_lhs_apply, zs_rhs_apply, hei, a17]

end Cert.Sim

end
-- ==== Proof.Bridge.StageD.lean ====
/- Three dense steps of the comparison: the reconstruction layer and the two rectified head layers. Each dense layer
   leaves in its output array, entry by entry, the product of its two operands plus the bias row (for the two head
   layers: the maximum of that with the zero word's value, times the scaling word's value); the reference computes the
   same expression from its own copies of the operands' sources. So each output array holds the reference's result as
   soon as the values going in and the weight and bias arguments agree: both by hypothesis, the arguments at the two
   launch contents, which reach the layer unchanged because neither program ever writes an argument. -/
import proofs.«115122_j13357348290767_2_alg».proof.Proof.KI.W
import proofs.«115122_j13357348290767_2_alg».proof.Proof.R.Fold
import proofs.«115122_j13357348290767_2_alg».proof.Proof.Sim.Base
import proofs.«115122_j13357348290767_2_alg».proof.Proof.Glue.KeepK
import proofs.«115122_j13357348290767_2_alg».proof.Proof.Glue.KeepR
import proofs.«115122_j13357348290767_2_alg».proof.Proof.KI.Keep
import proofs.«115122_j13357348290767_2_alg».proof.Proof.KI.Val3
import proofs.«115122_j13357348290767_2_alg».proof.Proof.KI.Val4
import proofs.«115122_j13357348290767_2_alg».proof.Proof.KI.Val5
import proofs.«115122_j13357348290767_2_alg».proof.Proof.Sim.DenseRec
import proofs.«115122_j13357348290767_2_alg».proof.Proof.Sim.DenseHeads

set_option maxHeartbeats 4000000
set_option maxRecDepth 16384
noncomputable section
namespace Cert.Bridge
open Idealize.ShloMosaic Idealize.ShloMosaic.TcCoe Idealize.SL.Sem
open Cert.KernelIdeal.Frame Cert.ReferenceIdeal.RValue Cert.Glue Cert.Sim

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The reconstruction layer, from the two encoder outputs. -/
theorem st_recon
    (a7 : W0 (F := Ideal) m ρ c (Proc.devRef .tc Cert.KernelIdeal.main_arg7) = RW0 (F := Ideal) m' c (Proc.devRef .tc Cert.ReferenceIdeal.main_arg7))
    (a8 : W0 (F := Ideal) m ρ c (Proc.devRef .tc Cert.KernelIdeal.main_arg8) = RW0 (F := Ideal) m' c (Proc.devRef .tc Cert.ReferenceIdeal.main_arg8))
    (hei : W3 (F := Ideal) m ρ c (Proc.devRef .tc Cert.KernelIdeal.main_v11) = RW2 (F := Ideal) m' c (Proc.devRef .tc Cert.ReferenceIdeal.main_v8))
    (hes : W3 (F := Ideal) m ρ c (Proc.devRef .tc Cert.KernelIdeal.main_v12) = RW2 (F := Ideal) m' c (Proc.devRef .tc Cert.ReferenceIdeal.main_v13)) :
    W8 (F := Ideal) m ρ c (Proc.devRef .tc Cert.KernelIdeal.main_v102) = RW10 (F := Ideal) m' c (Proc.devRef .tc Cert.ReferenceIdeal.main_v79) :=
  sim_rec (W6 (F := Ideal) m ρ c) (W8 (F := Ideal) m ρ c) (RW9 (F := Ideal) m' c)
    ((Cert.Glue.keepK_v11_3_6 m ρ c).trans (hei.trans (Cert.Glue.keepR_main_v8_2_9 m' c).symm))
    ((Cert.Glue.keepK_v12_3_6 m ρ c).trans (hes.trans (Cert.Glue.keepR_main_v13_2_9 m' c).symm))
    ((Cert.Glue.keepK_arg7_0_6 m ρ c).trans (a7.trans (Cert.Glue.keepR_main_arg7_0_9 m' c).symm))
    ((Cert.Glue.keepK_arg8_0_6 m ρ c).trans (a8.trans (Cert.Glue.keepR_main_arg8_0_9 m' c).symm))
    (W7 (F := Ideal) m ρ c (Proc.devRef .tc Cert.KernelIdeal.main_v98)) (W7 (F := Ideal) m ρ c (Proc.devRef .tc Cert.KernelIdeal.main_v100))
    (W7 (F := Ideal) m ρ c (Proc.devRef .tc Cert.KernelIdeal.main_v101)) (W8 (F := Ideal) m ρ c (Proc.devRef .tc Cert.KernelIdeal.main_v102))
    rfl rfl rfl rfl
    (fun r j => (congrFun (W8_out (F := Ideal) m ρ c) (ValueIdx.ix2 r j)).trans
      (final3 (V7 (F := Ideal) m ρ) c (W7 (F := Ideal) m ρ c (Proc.devRef .tc Cert.KernelIdeal.main_v98)) (W7 (F := Ideal) m ρ c (Proc.devRef .tc Cert.KernelIdeal.main_v100))
        (W7 (F := Ideal) m ρ c (Proc.devRef .tc Cert.KernelIdeal.main_v101)) rfl rfl rfl r j))

/-- The first head layer: the layer is entered from the contents after the last chunk of the stretch before it. -/
theorem st_z1
    (a13 : W0 (F := Ideal) m ρ c (Proc.devRef .tc Cert.KernelIdeal.main_arg13) = RW0 (F := Ideal) m' c (Proc.devRef .tc Cert.ReferenceIdeal.main_arg13))
    (a14 : W0 (F := Ideal) m ρ c (Proc.devRef .tc Cert.KernelIdeal.main_arg14) = RW0 (F := Ideal) m' c (Proc.devRef .tc Cert.ReferenceIdeal.main_arg14))
    (hjk : U5 m ρ c (Proc.devRef .tc Cert.KernelIdeal.main_v320) = RW15 (F := Ideal) m' c (Proc.devRef .tc Cert.ReferenceIdeal.main_v281)) :
    W12 (F := Ideal) m ρ c (Proc.devRef .tc Cert.KernelIdeal.main_v325) = RW16 (F := Ideal) m' c (Proc.devRef .tc Cert.ReferenceIdeal.main_v290) :=
  sim_z1 (U5 m ρ c) (W12 (F := Ideal) m ρ c) (RW15 (F := Ideal) m' c) hjk
    ((Cert.Glue.keepK_arg13_0_U5 m ρ c).trans (a13.trans (Cert.Glue.keepR_main_arg13_0_15 m' c).symm))
    ((Cert.Glue.keepK_arg14_0_U5 m ρ c).trans (a14.trans (Cert.Glue.keepR_main_arg14_0_15 m' c).symm))
    (U6 m ρ c (Proc.devRef .tc Cert.KernelIdeal.main_v321)) (U6 m ρ c (Proc.devRef .tc Cert.KernelIdeal.main_v323))
    (U6 m ρ c (Proc.devRef .tc Cert.KernelIdeal.main_v324)) (W12 (F := Ideal) m ρ c (Proc.devRef .tc Cert.KernelIdeal.main_v325))
    rfl rfl rfl rfl
    (fun r j => (congrFun (W12_out (F := Ideal) m ρ c) (ValueIdx.ix2 r j)).trans
      (final4 (V11 (F := Ideal) m ρ) c (U6 m ρ c (Proc.devRef .tc Cert.KernelIdeal.main_v321)) (U6 m ρ c (Proc.devRef .tc Cert.KernelIdeal.main_v323)) (U6 m ρ c (Proc.devRef .tc Cert.KernelIdeal.main_v324))
        (congrFun (W11_eq_U6 m ρ c) (Proc.devRef .tc Cert.KernelIdeal.main_v321))
        (congrFun (W11_eq_U6 m ρ c) (Proc.devRef .tc Cert.KernelIdeal.main_v323))
        (congrFun (W11_eq_U6 m ρ c) (Proc.devRef .tc Cert.KernelIdeal.main_v324)) r j))

/-- The second head layer, from the first encoder output. -/
theorem st_zs
    (a17 : W0 (F := Ideal) m ρ c (Proc.devRef .tc Cert.KernelIdeal.main_arg17) = RW0 (F := Ideal) m' c (Proc.devRef .tc Cert.ReferenceIdeal.main_arg17))
    (a18 : W0 (F := Ideal) m ρ c (Proc.devRef .tc Cert.KernelIdeal.main_arg18) = RW0 (F := Ideal) m' c (Proc.devRef .tc Cert.ReferenceIdeal.main_arg18))
    (hei : W3 (F := Ideal) m ρ c (Proc.devRef .tc Cert.KernelIdeal.main_v11) = RW2 (F := Ideal) m' c (Proc.devRef .tc Cert.ReferenceIdeal.main_v8)) :
    W14 (F := Ideal) m ρ c (Proc.devRef .tc Cert.KernelIdeal.main_v335) = RW18 (F := Ideal) m' c (Proc.devRef .tc Cert.ReferenceIdeal.main_v304) :=
  sim_zs (W12 (F := Ideal) m ρ c) (W14 (F := Ideal) m ρ c) (RW17 (F := Ideal) m' c)
    ((Cert.Glue.keepK_v11_3_12 m ρ c).trans (hei.trans (Cert.Glue.keepR_main_v8_2_17 m' c).symm))
    ((Cert.Glue.keepK_arg17_0_12 m ρ c).trans (a17.trans (Cert.Glue.keepR_main_arg17_0_17 m' c).symm))
    ((Cert.Glue.keepK_arg18_0_12 m ρ c).trans (a18.trans (Cert.Glue.keepR_main_arg18_0_17 m' c).symm))
    (W13 (F := Ideal) m ρ c (Proc.devRef .tc Cert.KernelIdeal.main_v331)) (W13 (F := Ideal) m ρ c (Proc.devRef .tc Cert.KernelIdeal.main_v333))
    (W13 (F := Ideal) m ρ c (Proc.devRef .tc Cert.KernelIdeal.main_v334)) (W14 (F := Ideal) m ρ c (Proc.devRef .tc Cert.KernelIdeal.main_v335))
    rfl rfl rfl rfl
    (fun r j => (congrFun (W14_out (F := Ideal) m ρ c) (ValueIdx.ix2 r j)).trans
      (final5 (V13 (F := Ideal) m ρ) c (W13 (F := Ideal) m ρ c (Proc.devRef .tc Cert.KernelIdeal.main_v331)) (W13 (F := Ideal) m ρ c (Proc.devRef .tc Cert.KernelIdeal.main_v333))
        (W13 (F := Ideal) m ρ c (Proc.devRef .tc Cert.KernelIdeal.main_v334)) rfl rfl rfl r j))

end Cert.Bridge
end
-- ==== Proof.LibGatherRow.lean ====
/-
  A gather of ROWS, read at an index.

  What `x[idx]` of a matrix `x : [N, D]` at an integer vector `idx : [E]` lowers to is a gather with start
  indices `[E, 1]`, offset axis 1, collapsed axis 0, start index map [0], index vector axis 1 and slices
  `[1, D]`. Its entry (e, k) is the operand's entry (r, k), where the row r is the start index `idx[e, 0]` read as
  a signed integer and clamped into [0, N − 1]: on the collapsed axis the operand index is the clamped start,
  on the offset axis it is the result's own coordinate.
-/
import Idealize.ShloMosaic.Lib.ValueIdx

noncomputable section

namespace Idealize.ShloMosaic.GatherRow

open Idealize.ShloMosaic Idealize.ShloMosaic.ValueIdx

variable {α : Type}

/-- The dimension numbers of a row gather from `[N, D]` at `[E, 1]` into `[E, D]`. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at (e, k): row `min idx[e,0] (N − 1)` of the operand, column k. -/
theorem gather_row_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowDims N D E wf) x idx (ix2 e k)
      = x (ix2 (⟨min (idx (ix2 e (0 : Fin 1))).toInt.toNat (N - 1), by omega⟩ : Fin N) k) := by
  unfold Host.gather
  refine congrArg x (funext fun a => Fin.ext ?_)
  show (rowDims N D E wf).start (ix2 e k) idx a + (rowDims N D E wf).batchCoord (ix2 e k) a
      + (rowDims N D E wf).offCoord (ix2 e k) a = _
  rw [GatherDims.batchCoord_eq_zero _ _ _ List.not_mem_nil, Nat.add_zero]
  have ha : a = 0 ∨ a = 1 := by
    have h2 : a.val < 2 := a.isLt
    rcases Nat.lt_succ_iff_lt_or_eq.mp h2 with h | h
    · exact Or.inl (Fin.ext (show a.val = 0 from Nat.lt_one_iff.mp h))
    · exact Or.inr (Fin.ext (show a.val = 1 from h))
  obtain rfl | rfl := ha
  · -- the collapsed axis: no offset coordinate, the start is the clamped start index
    rw [GatherDims.offCoord_eq_zero _ _ _
      (fun h => ((GatherDims.mem_sKept _ _).mp h).1 (List.mem_singleton.mpr rfl)), Nat.add_zero]
    unfold GatherDims.start
    rw [dif_pos (show (0 : Fin 2) ∈ (rowDims N D E wf).startIndexMap from List.mem_singleton.mpr rfl)]
    have hsi : (rowDims N D E wf).siIdx (ix2 e k) ⟨List.idxOf (0 : Fin 2) (rowDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · -- the offset axis: the start index map does not name it, so the start is 0 and the coordinate is the result's
    unfold GatherDims.start
    rw [dif_neg (show (1 : Fin 2) ∉ (rowDims N D E wf).startIndexMap from
      fun h => absurd (congrArg Fin.val (List.mem_singleton.mp h)) Nat.one_ne_zero), Nat.zero_add]
    rfl

/-! ## The same gather at a MATRIX of start indices

What `x[idx]` of `x : [N, D]` at `idx : [Q, E]` lowers to: start indices `[Q, E, 1]`, offset axis 2, collapsed axis 0,
start index map [0], index vector axis 2, slices `[1, D]`. Entry (q, e, k) is the operand's entry (r, k) with r the start
index `idx[q, e, 0]`, read signed and clamped into [0, N − 1]. -/

/-- The dimension numbers of a row gather from `[N, D]` at `[Q, E, 1]` into `[Q, E, D]`. -/
abbrev rowDims3 (N D Q E : Nat)
    (wf : GatherDims.WF ⟨2, ![N, D]⟩ ⟨3, ![Q, E, 1]⟩ ⟨3, ![Q, E, D]⟩ [2] [0] [] [0] [] 2 ![1, D]) :
    GatherDims ⟨2, ![N, D]⟩ ⟨3, ![Q, E, 1]⟩ ⟨3, ![Q, E, D]⟩ where
  offsetDims := [2]
  collapsedSliceDims := [0]
  operandBatchingDims := []
  startIndicesBatchingDims := []
  startIndexMap := [0]
  indexVectorDim := 2
  sliceSizes := ![1, D]
  wf := wf

/-- The row gather at (q, e, k): row `min idx[q,e,0] (N − 1)` of the operand, column k. -/
theorem gather_row3_apply {N D Q E w : Nat} (hN : 0 < N)
    (wf : GatherDims.WF ⟨2, ![N, D]⟩ ⟨3, ![Q, E, 1]⟩ ⟨3, ![Q, E, D]⟩ [2] [0] [] [0] [] 2 ![1, D])
    (x : (⟨2, ![N, D]⟩ : Shape).Idx → α) (idx : IVec ⟨3, ![Q, E, 1]⟩ w) (q : Fin Q) (e : Fin E) (k : Fin D) :
    Host.gather (rowDims3 N D Q E wf) x idx (ix3 q e k)
      = x (ix2 (⟨min (idx (ix3 q e (0 : Fin 1))).toInt.toNat (N - 1), by omega⟩ : Fin N) k) := by
  unfold Host.gather
  refine congrArg x (funext fun a => Fin.ext ?_)
  show (rowDims3 N D Q E wf).start (ix3 q e k) idx a + (rowDims3 N D Q E wf).batchCoord (ix3 q e k) a
      + (rowDims3 N D Q E wf).offCoord (ix3 q e k) a = _
  rw [GatherDims.batchCoord_eq_zero _ _ _ List.not_mem_nil, Nat.add_zero]
  have ha : a = 0 ∨ a = 1 := by
    have h2 : a.val < 2 := a.isLt
    rcases Nat.lt_succ_iff_lt_or_eq.mp h2 with h | h
    · exact Or.inl (Fin.ext (show a.val = 0 from Nat.lt_one_iff.mp h))
    · exact Or.inr (Fin.ext (show a.val = 1 from h))
  obtain rfl | rfl := ha
  · rw [GatherDims.offCoord_eq_zero _ _ _
      (fun h => ((GatherDims.mem_sKept _ _).mp h).1 (List.mem_singleton.mpr rfl)), Nat.add_zero]
    unfold GatherDims.start
    rw [dif_pos (show (0 : Fin 2) ∈ (rowDims3 N D Q E wf).startIndexMap from List.mem_singleton.mpr rfl)]
    have hsi : (rowDims3 N D Q E wf).siIdx (ix3 q e k) ⟨List.idxOf (0 : Fin 2) (rowDims3 N D Q E wf).startIndexMap,
        List.idxOf_lt_length_iff.2 (List.mem_singleton.mpr rfl)⟩ = ix3 q e (0 : Fin 1) := by
      funext b; refine Fin.ext ?_
      match b with
      | ⟨0, _⟩ => rfl
      | ⟨1, _⟩ => rfl
      | ⟨2, _⟩ => rfl
    rw [hsi]
    rfl
  · unfold GatherDims.start
    rw [dif_neg (show (1 : Fin 2) ∉ (rowDims3 N D Q E wf).startIndexMap from
      fun h => absurd (congrArg Fin.val (List.mem_singleton.mp h)) Nat.one_ne_zero), Nat.zero_add]
    rfl

end Idealize.ShloMosaic.GatherRow

end
-- ==== Proof.Sim.EdgeWeightRow.lean ====
/-
  The row an edge reads, and the layout operations around it, read at an index.

  An edge e of the graph names a node by a 32-bit signed integer v. The program wraps a negative index to the end of the 20000 rows
  (v < 0 ? v + 20000 : v), makes the column [E, 1] of the wrapped indices, and gathers; the gather clamps the start index it reads into
  [0, 19999]. So the row read for edge e is

      row idx e = min (wrap (idx e)) 19999   (the wrapped index read signed, negative values as 0).

  * the wrapped column at (e, 0) is wrap (idx e) (wrapped_at);
  * the gather of rows of a [20000, 512] matrix at that column, at (e, k), is the matrix at (row idx e, k) (gather_rows);
  * the gather of entries of a [20000] vector at that column, at e, is the vector at row idx e (gather_entries);
  * the concatenation of a [200000, 128] and a [200000, 512] matrix along the columns, at (e, k), is the first at (e, k) for
    k < 128 and the second at (e, k - 128) otherwise (concat_at).
-/
import Idealize.ShloMosaic.Lib.ValueIdx
import Idealize.ShloMosaic.Lib.Pipeline.Value
import proofs.«115122_j13357348290767_2_alg».proof.Proof.LibGatherRow
import proofs.«115122_j13357348290767_2_alg».proof.Proof.LibBroadcastInDim

noncomputable section

namespace Cert.Sim

open Idealize.ShloMosaic Idealize.ShloMosaic.ValueIdx

variable {α : Type}

/-- A node index as the program wraps it: a negative index counts from the end of the 20000 rows. -/
def wrap (v : BitVec 32) : BitVec 32 :=
  Scalar.select (IntOp.cmpi .slt v 0#32) (IntOp.addi v 20000#32) v

/-- The row edge `e` reads: its wrapped index, read signed and clamped into [0, 19999]. -/
def row (idx : (⟨1, ![200000]⟩ : Shape).Idx → BitVec 32) (e : Fin 200000) : Fin 20000 :=
  ⟨min (wrap (idx (ix1 e))).toInt.toNat (20000 - 1), by omega⟩

/-- The column of wrapped indices at (e, 0). -/
theorem wrapped_at (hb0 : (⟨0, ![]⟩ : Shape).BroadcastsInDim ⟨1, ![200000]⟩ (![] : Fin 0 → Fin 1))
    (hb1 : (⟨1, ![200000]⟩ : Shape).BroadcastsInDim ⟨2, ![200000, 1]⟩ ![0])
    (idx : (⟨1, ![200000]⟩ : Shape).Idx → BitVec 32) (e : Fin 200000) :
    broadcastInDim ⟨2, ![200000, 1]⟩ ![0] hb1
        (select (cmpi .slt idx (broadcastInDim ⟨1, ![200000]⟩ ![] hb0 (constantI ⟨0, ![]⟩ 32 0#32)))
          (addi idx (broadcastInDim ⟨1, ![200000]⟩ ![] hb0 (constantI ⟨0, ![]⟩ 32 20000#32))) idx) (ix2 e (0 : Fin 1))
      = wrap (idx (ix1 e)) := by
  rw [broadcastInDim_n_n1_apply]
  show Scalar.select (IntOp.cmpi .slt (idx (ix1 e)) (broadcastInDim ⟨1, ![200000]⟩ ![] hb0 (constantI ⟨0, ![]⟩ 32 0#32) (ix1 e)))
      (IntOp.addi (idx (ix1 e)) (broadcastInDim ⟨1, ![200000]⟩ ![] hb0 (constantI ⟨0, ![]⟩ 32 20000#32) (ix1 e))) (idx (ix1 e)) = _
  rw [broadcastInDim_scalar_apply, broadcastInDim_scalar_apply]
  rfl

/-- The gather of rows at the wrapped column, at (e, k): the operand at (row idx e, k). -/
theorem gather_rows (wf : GatherDims.WF ⟨2, ![20000, 512]⟩ ⟨2, ![200000, 1]⟩ ⟨2, ![200000, 512]⟩ [1] [0] [] [0] [] 1 ![1, 512])
    (hb0 : (⟨0, ![]⟩ : Shape).BroadcastsInDim ⟨1, ![200000]⟩ (![] : Fin 0 → Fin 1))
    (hb1 : (⟨1, ![200000]⟩ : Shape).BroadcastsInDim ⟨2, ![200000, 1]⟩ ![0])
    (x : (⟨2, ![20000, 512]⟩ : Shape).Idx → α) (idx : (⟨1, ![200000]⟩ : Shape).Idx → BitVec 32) (e : Fin 200000) (k : Fin 512) :
    Host.gather (GatherRow.rowDims 20000 512 200000 wf) x
        (broadcastInDim ⟨2, ![200000, 1]⟩ ![0] hb1
          (select (cmpi .slt idx (broadcastInDim ⟨1, ![200000]⟩ ![] hb0 (constantI ⟨0, ![]⟩ 32 0#32)))
            (addi idx (broadcastInDim ⟨1, ![200000]⟩ ![] hb0 (constantI ⟨0, ![]⟩ 32 20000#32))) idx)) (ix2 e k)
      = x (ix2 (row idx e) k) := by
  rw [GatherRow.gather_row_apply (by decide)]
  refine congrArg (fun r => x (ix2 r k)) (Fin.ext ?_)
  show min _ _ = min _ _
  rw [wrapped_at]

/-- The dimension numbers of a gather of entries from `[N]` at `[E, 1]` into `[E]`. -/
abbrev entryDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather of entries at e: the operand at the start index `idx[e, 0]`, read signed and clamped into [0, N − 1]. -/
theorem gather_entry_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entryDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (entryDims N E wf).start (ix1 e) idx 0 + (entryDims N E wf).batchCoord (ix1 e) 0
      + (entryDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryDims N E wf).startIndexMap from List.mem_singleton.mpr rfl)]
  have hsi : (entryDims N E wf).siIdx (ix1 e) ⟨List.idxOf (0 : Fin 1) (entryDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The gather of entries at the wrapped column, at e: the operand at row idx e. -/
theorem gather_entries (wf : GatherDims.WF ⟨1, ![20000]⟩ ⟨2, ![200000, 1]⟩ ⟨1, ![200000]⟩ [] [0] [] [0] [] 1 ![1])
    (hb0 : (⟨0, ![]⟩ : Shape).BroadcastsInDim ⟨1, ![200000]⟩ (![] : Fin 0 → Fin 1))
    (hb1 : (⟨1, ![200000]⟩ : Shape).BroadcastsInDim ⟨2, ![200000, 1]⟩ ![0])
    (x : (⟨1, ![20000]⟩ : Shape).Idx → α) (idx : (⟨1, ![200000]⟩ : Shape).Idx → BitVec 32) (e : Fin 200000) :
    Host.gather (entryDims 20000 200000 wf) x
        (broadcastInDim ⟨2, ![200000, 1]⟩ ![0] hb1
          (select (cmpi .slt idx (broadcastInDim ⟨1, ![200000]⟩ ![] hb0 (constantI ⟨0, ![]⟩ 32 0#32)))
            (addi idx (broadcastInDim ⟨1, ![200000]⟩ ![] hb0 (constantI ⟨0, ![]⟩ 32 20000#32))) idx)) (ix1 e)
      = x (ix1 (row idx e)) := by
  rw [gather_entry_apply (by decide)]
  refine congrArg (fun r => x (ix1 r)) (Fin.ext ?_)
  show min _ _ = min _ _
  rw [wrapped_at]

/-- The concatenation of 128 and 512 columns at (e, k): the first piece below column 128, the second from there on. -/
theorem concat_at (h : Shape.Concatenates [(⟨2, ![200000, 128]⟩ : Shape), ⟨2, ![200000, 512]⟩] ⟨2, ![200000, 640]⟩ 1)
    (a : (⟨2, ![200000, 128]⟩ : Shape).Idx → α) (b : (⟨2, ![200000, 512]⟩ : Shape).Idx → α) (e : Fin 200000) (k : Fin 640) :
    concatenate ⟨2, ![200000, 640]⟩ 1 [⟨⟨2, ![200000, 128]⟩, a⟩, ⟨⟨2, ![200000, 512]⟩, b⟩] h (ix2 e k)
      = if hk : k.val < 128 then a (ix2 e ⟨k.val, hk⟩) else b (ix2 e ⟨k.val - 128, by omega⟩) := by
  split
  · next hk =>
    exact concatenate_pair_apply_left 1 a b h (ix2 e k) rfl (ix2 e ⟨k.val, hk⟩) (fun c => match c with
      | ⟨0, _⟩ => rfl
      | ⟨1, _⟩ => rfl)
  · next hk =>
    refine concatenate_pair_apply_right 1 a b h (ix2 e k) rfl rfl (ix2 e ⟨k.val - 128, by omega⟩) (fun c => match c with
      | ⟨0, _⟩ => fun _ => rfl
      | ⟨1, _⟩ => fun hc => absurd rfl hc) ?_
    show k.val - 128 + 128 = k.val
    omega

end Cert.Sim

end
-- ==== Proof.Sim.EdgeWeightSum.lean ====
/-
  A sum over the columns of a matrix, read at a row.

  The host's reduction of an [E, D] matrix along its second axis, with an add body and an initial value, is at row e the initial value
  plus the sum over the D columns of the matrix at (e, k).
-/
import Idealize.ShloMosaic.Lib.ValueIdx
import Idealize.ShloMosaic.PureOps.Ideal.Laws

noncomputable section

namespace Cert.Sim

open Idealize.ShloMosaic Idealize.ShloMosaic.ValueIdx
open scoped BigOperators

/-- The sum along the columns at row e: the initial value plus the sum of the row's entries. -/
theorem reduce_rows_apply {E D : Nat} (h' : (⟨2, ![E, D]⟩ : Shape).ReducesTo [1] ⟨1, ![E]⟩)
    (h : (⟨2, ![E, D]⟩ : Shape).Reduces [1] ⟨1, ![E]⟩) (h0 : 0 < (⟨0, ![]⟩ : Shape).numel)
    (x : FVec Ideal ⟨2, ![E, D]⟩ .f32) (c : FVec Ideal ⟨0, ![]⟩ .f32) (e : Fin E) :
    Host.reduceAdd x c h' h0 (ix1 e) = c (Shape.Idx.first h0) + ∑ k : Fin D, x (ix2 e k) := by
  simp only [Host.reduceAdd, Ideal.hostReduceAdd_def]
  rw [Ideal.hostReduceAdd_single h' h]
  refine congrArg (_ + ·) (Finset.sum_congr rfl fun k _ => ?_)
  exact congrArg x (funext fun a => Fin.ext (by match a with | ⟨0, _⟩ => rfl | ⟨1, _⟩ => rfl))

end Cert.Sim

end
-- ==== Proof.Math.RealOps.lean ====
/-
  Realness of the pieces of a degree-normalised edge weight.

  An edge weight of the normalised Laplacian is built from a quotient, a square root and a reciprocal square root of node degrees. On
  the extended reals these three operations have corners (division by zero, the root of a negative number, the reciprocal root of
  zero); away from the corners they send reals to reals:

  * `x / y` is real for real `x` and a nonzero real `y` — it is the real quotient;
  * `√x` is real for a real `x ≥ 0` — it is the real root (a negative real has no root: the junk value `⊥`);
  * `1/√x` is real for a real `x > 0`;
  * `max (√x) ε` is positive for a positive real `ε`, whatever `x`, hence a valid nonzero divisor when `√x` is real.
-/
import Idealize.ShloMosaic.PureOps.Ideal
import proofs.«115122_j13357348290767_2_alg».proof.Proof.Math.Cheb

noncomputable section

namespace Cert.ChebMath

open Idealize.ShloMosaic

/-- The quotient of coerced reals by a nonzero divisor is the coerced real quotient. -/
theorem div_coe_coe (a : ℝ) {b : ℝ} (hb : b ≠ 0) : Ideal.div (a : EReal) (b : EReal) = ((a / b : ℝ) : EReal) := by
  rw [Ideal.div, if_neg (EReal.coe_ne_zero.mpr hb), ← EReal.coe_inv, ← EReal.coe_mul, div_eq_mul_inv]

/-- A real divided by a nonzero real is real. -/
theorem isReal_div {x y : EReal} (hx : IsReal x) {r : ℝ} (hy : y = (r : EReal)) (hr : r ≠ 0) : IsReal (Ideal.div x y) := by
  obtain ⟨a, rfl⟩ := hx
  subst hy
  exact ⟨a / r, div_coe_coe a hr⟩

/-- The root of a coerced non-negative real is the coerced real root. -/
theorem sqrt_coe_of_nonneg {r : ℝ} (hr : 0 ≤ r) : Ideal.sqrt (r : EReal) = ((Real.sqrt r : ℝ) : EReal) := by
  rw [Ideal.sqrt_coe, if_neg (not_lt.mpr hr)]

/-- The root of a non-negative real is real. -/
theorem isReal_sqrt {x : EReal} (hx : IsReal x) (h0 : 0 ≤ x) : IsReal (Ideal.sqrt x) := by
  obtain ⟨a, rfl⟩ := hx
  exact ⟨Real.sqrt a, sqrt_coe_of_nonneg (EReal.coe_nonneg.mp h0)⟩

/-- The reciprocal root of a coerced positive real is the coerced real reciprocal root. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- The reciprocal root of a positive real is real. -/
theorem isReal_rsqrt {x : EReal} {r : ℝ} (hx : x = (r : EReal)) (hr : 0 < r) : IsReal (Ideal.rsqrt x) := by
  subst hx
  exact ⟨(Real.sqrt r)⁻¹, rsqrt_coe_of_pos hr⟩

/-- The root is non-negative wherever it is not the junk value: for every real `x ≥ 0`. -/
theorem sqrt_nonneg {x : EReal} (hx : IsReal x) (h0 : 0 ≤ x) : 0 ≤ Ideal.sqrt x := by
  obtain ⟨a, rfl⟩ := hx
  rw [sqrt_coe_of_nonneg (EReal.coe_nonneg.mp h0)]
  exact EReal.coe_nonneg.mpr (Real.sqrt_nonneg a)

/-- A root clipped below at a positive real is positive, whatever the argument. -/
theorem max_sqrt_pos (x : EReal) {ε : ℝ} (hε : 0 < ε) : 0 < max (Ideal.sqrt x) (ε : EReal) :=
  lt_max_of_lt_right (EReal.coe_pos.mpr hε)

/-- A real root clipped below at a positive real is a positive real: the witness and its sign. -/
theorem max_sqrt_coe {a : ℝ} (ha : 0 ≤ a) {ε : ℝ} (hε : 0 < ε) :
    max (Ideal.sqrt (a : EReal)) (ε : EReal) = ((max (Real.sqrt a) ε : ℝ) : EReal) ∧ max (Real.sqrt a) ε ≠ 0 := by
  refine ⟨?_, (lt_max_of_lt_right hε).ne'⟩
  rw [sqrt_coe_of_nonneg ha]
  rcases le_total (Real.sqrt a) ε with h | h
  · rw [max_eq_right h, max_eq_right (EReal.coe_le_coe_iff.mpr h)]
  · rw [max_eq_left h, max_eq_left (EReal.coe_le_coe_iff.mpr h)]

end Cert.ChebMath
-- ==== Proof.Sim.EdgeWeightMath.lean ====
/-
  The edge weight as a function of two feature rows, and its two ways of being computed.

  For two rows a, b of D features the weight is the cosine similarity moved into [0, 1]:

      cosw a b = ( (0 + ∑ a·b) / ( max (√(0 + ∑ a·a)) ε · max (√(0 + ∑ b·b)) ε ) + 1 ) · ½ ,

  with the four constants as the 32-bit patterns the programs print (0, ε = 11258999 · 2⁻⁵⁰ ≈ 10⁻⁸, 1, ½). When the rows are a join of
  128 and 512 features, each of the three sums is the sum over the first part plus the sum over the second (addition of extended reals
  is a commutative monoid, no finiteness is needed), which is the form `cosw2` that sums the parts separately (cosw_concat).

  Over real rows the weight is real (isReal_cosw): the sums of squares are non-negative reals, their roots real, each root clipped below
  at ε > 0 a positive real, so the divisor is a nonzero real.
-/
import Idealize.ShloMosaic.PureOps.Ideal
import proofs.«115122_j13357348290767_2_alg».proof.Proof.Math.Cheb
import proofs.«115122_j13357348290767_2_alg».proof.Proof.Math.RealOps

noncomputable section

namespace Cert.Sim

open Idealize.ShloMosaic Cert.ChebMath
open scoped BigOperators

/-- The pattern of zero is zero. -/
theorem ofBits_zero : Ideal.ofBits .f32 0x00000000#32 = 0 := by simp [Ideal.ofBits, Ideal.ieee]

/-- The pattern of one is one. -/
theorem ofBits_one : Ideal.ofBits .f32 0x3F800000#32 = ((8388608 * (2 ^ 23)⁻¹ : ℝ) : EReal) := by
  simp [Ideal.ofBits, Ideal.ieee, -EReal.coe_mul]

/-- The pattern of one half is a real. -/
theorem ofBits_half : Ideal.ofBits .f32 0x3F000000#32 = ((8388608 * (2 ^ 24)⁻¹ : ℝ) : EReal) := by
  simp [Ideal.ofBits, Ideal.ieee, -EReal.coe_mul]

/-- The clip ε is the real 11258999 · 2⁻⁵⁰. -/
theorem ofBits_eps : Ideal.ofBits .f32 0x322BCC77#32 = ((11258999 * (2 ^ 50)⁻¹ : ℝ) : EReal) := by
  simp [Ideal.ofBits, Ideal.ieee, -EReal.coe_mul]

/-- ε is positive. -/
theorem eps_pos : (0 : ℝ) < 11258999 * (2 ^ 50)⁻¹ := by positivity

/-- The weight of two feature rows: their cosine similarity, the norms clipped below at ε, moved into [0, 1]. -/
def cosw {D : Nat} (a b : Fin D → EReal) : EReal :=
  (Ideal.div (Ideal.ofBits .f32 0x00000000#32 + ∑ k, a k * b k)
      (max (Ideal.sqrt (Ideal.ofBits .f32 0x00000000#32 + ∑ k, a k * a k)) (Ideal.ofBits .f32 0x322BCC77#32)
        * max (Ideal.sqrt (Ideal.ofBits .f32 0x00000000#32 + ∑ k, b k * b k)) (Ideal.ofBits .f32 0x322BCC77#32))
    + Ideal.ofBits .f32 0x3F800000#32) * Ideal.ofBits .f32 0x3F000000#32

/-- The same weight with every sum taken over the two parts of the rows separately, `s1` and `s2` the second parts' sums of squares. -/
def cosw2 (a1 b1 : Fin 128 → EReal) (a2 b2 : Fin 512 → EReal) (s1 s2 : EReal) : EReal :=
  (Ideal.div ((Ideal.ofBits .f32 0x00000000#32 + ∑ k, a1 k * b1 k) + (Ideal.ofBits .f32 0x00000000#32 + ∑ k, a2 k * b2 k))
      (max (Ideal.sqrt ((Ideal.ofBits .f32 0x00000000#32 + ∑ k, a1 k * a1 k) + s1)) (Ideal.ofBits .f32 0x322BCC77#32)
        * max (Ideal.sqrt ((Ideal.ofBits .f32 0x00000000#32 + ∑ k, b1 k * b1 k) + s2)) (Ideal.ofBits .f32 0x322BCC77#32))
    + Ideal.ofBits .f32 0x3F800000#32) * Ideal.ofBits .f32 0x3F000000#32

/-- The product of two joined rows is the join of the products. -/
theorem mul_concat {a1 b1 : Fin 128 → EReal} {a2 b2 : Fin 512 → EReal} {a b : Fin 640 → EReal}
    (ha : ∀ k : Fin 640, a k = if hk : k.val < 128 then a1 ⟨k.val, hk⟩ else a2 ⟨k.val - 128, by omega⟩)
    (hb : ∀ k : Fin 640, b k = if hk : k.val < 128 then b1 ⟨k.val, hk⟩ else b2 ⟨k.val - 128, by omega⟩) (k : Fin 640) :
    a k * b k = if hk : k.val < 128 then a1 ⟨k.val, hk⟩ * b1 ⟨k.val, hk⟩ else a2 ⟨k.val - 128, by omega⟩ * b2 ⟨k.val - 128, by omega⟩ := by
  rw [ha, hb]
  split <;> rfl

/-- The weight of two joined rows is the weight computed part by part. -/
theorem cosw_concat {a1 b1 : Fin 128 → EReal} {a2 b2 : Fin 512 → EReal} {a b : Fin 640 → EReal}
    (ha : ∀ k : Fin 640, a k = if hk : k.val < 128 then a1 ⟨k.val, hk⟩ else a2 ⟨k.val - 128, by omega⟩)
    (hb : ∀ k : Fin 640, b k = if hk : k.val < 128 then b1 ⟨k.val, hk⟩ else b2 ⟨k.val - 128, by omega⟩) :
    cosw2 a1 b1 a2 b2 (Ideal.ofBits .f32 0x00000000#32 + ∑ k, a2 k * a2 k) (Ideal.ofBits .f32 0x00000000#32 + ∑ k, b2 k * b2 k)
      = cosw a b := by
  have sab : ∑ k, a k * b k = ∑ k, a1 k * b1 k + ∑ k, a2 k * b2 k :=
    sum_concat (fun k => a1 k * b1 k) (fun k => a2 k * b2 k) (fun k => a k * b k) (mul_concat ha hb)
  have saa : ∑ k, a k * a k = ∑ k, a1 k * a1 k + ∑ k, a2 k * a2 k :=
    sum_concat (fun k => a1 k * a1 k) (fun k => a2 k * a2 k) (fun k => a k * a k) (mul_concat ha ha)
  have sbb : ∑ k, b k * b k = ∑ k, b1 k * b1 k + ∑ k, b2 k * b2 k :=
    sum_concat (fun k => b1 k * b1 k) (fun k => b2 k * b2 k) (fun k => b k * b k) (mul_concat hb hb)
  unfold cosw cosw2
  rw [sab, saa, sbb, ofBits_zero]
  simp only [zero_add]

/-- Over real rows the weight is real. -/
theorem isReal_cosw {D : Nat} {a b : Fin D → EReal} (ha : ∀ k, IsReal (a k)) (hb : ∀ k, IsReal (b k)) : IsReal (cosw a b) := by
  choose ra hra using ha
  choose rb hrb using hb
  have hab : Ideal.ofBits .f32 0x00000000#32 + ∑ k, a k * b k = ((∑ k, ra k * rb k : ℝ) : EReal) := by
    rw [ofBits_zero, zero_add, coe_sum]
    exact Finset.sum_congr rfl fun k _ => by rw [hra k, hrb k, EReal.coe_mul]
  have haa : Ideal.ofBits .f32 0x00000000#32 + ∑ k, a k * a k = ((∑ k, ra k * ra k : ℝ) : EReal) := by
    rw [ofBits_zero, zero_add, coe_sum]
    exact Finset.sum_congr rfl fun k _ => by rw [hra k, EReal.coe_mul]
  have hbb : Ideal.ofBits .f32 0x00000000#32 + ∑ k, b k * b k = ((∑ k, rb k * rb k : ℝ) : EReal) := by
    rw [ofBits_zero, zero_add, coe_sum]
    exact Finset.sum_congr rfl fun k _ => by rw [hrb k, EReal.coe_mul]
  have na := max_sqrt_coe (a := ∑ k, ra k * ra k) (Finset.sum_nonneg fun k _ => mul_self_nonneg (ra k)) eps_pos
  have nb := max_sqrt_coe (a := ∑ k, rb k * rb k) (Finset.sum_nonneg fun k _ => mul_self_nonneg (rb k)) eps_pos
  unfold cosw
  rw [hab, haa, hbb, ofBits_eps, na.1, nb.1, ← EReal.coe_mul, ofBits_one, ofBits_half]
  exact isReal_mul (isReal_add (isReal_div (isReal_coe _) rfl (mul_ne_zero na.2 nb.2)) (isReal_coe _)) (isReal_coe _)

end Cert.Sim

end
-- ==== Proof.Sim.EdgeWeightRead.lean ====
/-
  The edge weight's two programs, read at an edge.

  Both programs end in the same five element-wise steps ((num / (n1 · n2) + 1) · ½ with n = max (√ssq) ε) over sums along the feature
  axis. At an edge e:

  * the reference's chain over two [200000, 640] matrices A, B is the weight `cosw` of row e of A and row e of B (cos_read);
  * the kernel's chain over the parser outputs pA, pB : [200000, 128], the node embedding es : [20000, 512] and the two index vectors
    is the part-by-part weight `cosw2` of row e of pA, pB and rows (row src e), (row tgt e) of es, the two sums of squares of es read
    from the vector of all rows' sums of squares at those rows (ker_read). The casts to and from the 16-bit format are the identity
    on extended reals.
-/
import proofs.«115122_j13357348290767_2_alg».proof.Proof.Sim.EdgeWeightRow
import proofs.«115122_j13357348290767_2_alg».proof.Proof.Sim.EdgeWeightSum
import proofs.«115122_j13357348290767_2_alg».proof.Proof.Sim.EdgeWeightMath

noncomputable section

namespace Cert.Sim

open Idealize.ShloMosaic Idealize.ShloMosaic.ValueIdx
open scoped BigOperators

/-- The column [E, 1] of wrapped indices, as the programs build it. -/
abbrev wrapCol (hb0 : (⟨0, ![]⟩ : Shape).BroadcastsInDim ⟨1, ![200000]⟩ (![] : Fin 0 → Fin 1))
    (hb1 : (⟨1, ![200000]⟩ : Shape).BroadcastsInDim ⟨2, ![200000, 1]⟩ ![0])
    (idx : (⟨1, ![200000]⟩ : Shape).Idx → BitVec 32) : (⟨2, ![200000, 1]⟩ : Shape).Idx → BitVec 32 :=
  broadcastInDim ⟨2, ![200000, 1]⟩ ![0] hb1
    (select (cmpi .slt idx (broadcastInDim ⟨1, ![200000]⟩ ![] hb0 (constantI ⟨0, ![]⟩ 32 0#32)))
      (addi idx (broadcastInDim ⟨1, ![200000]⟩ ![] hb0 (constantI ⟨0, ![]⟩ 32 20000#32))) idx)

/-- The host's quotient at an index. -/
theorem host_divf_apply {s : Shape} {φ : FTy} (a b : FVec Ideal s φ) (i : s.Idx) : Host.divf a b i = Ideal.div (a i) (b i) := rfl

/-- The host's square root at an index. -/
theorem host_sqrt_apply {s : Shape} {φ : FTy} (a : FVec Ideal s φ) (i : s.Idx) : Host.sqrt a i = Ideal.sqrt (a i) := rfl

set_option maxRecDepth 8192 in
/-- The reference's chain at edge e: the weight of the two rows. -/
theorem cos_read (hr' : (⟨2, ![200000, 640]⟩ : Shape).ReducesTo [1] ⟨1, ![200000]⟩) (h0 : 0 < (⟨0, ![]⟩ : Shape).numel)
    (hb0 : (⟨0, ![]⟩ : Shape).BroadcastsInDim ⟨1, ![200000]⟩ (![] : Fin 0 → Fin 1))
    (A B : FVec Ideal ⟨2, ![200000, 640]⟩ .f32) (e : Fin 200000) :
    mulf
      (addf
        (Host.divf
          (Host.reduceAdd (mulf A B) (constant ⟨0, ![]⟩ .f32 0x00000000#32) hr' h0)
          (mulf
            (maximumf (Host.sqrt (Host.reduceAdd (mulf A A) (constant ⟨0, ![]⟩ .f32 0x00000000#32) hr' h0))
              (broadcastInDim ⟨1, ![200000]⟩ ![] hb0 (constant ⟨0, ![]⟩ .f32 0x322BCC77#32)))
            (maximumf (Host.sqrt (Host.reduceAdd (mulf B B) (constant ⟨0, ![]⟩ .f32 0x00000000#32) hr' h0))
              (broadcastInDim ⟨1, ![200000]⟩ ![] hb0 (constant ⟨0, ![]⟩ .f32 0x322BCC77#32)))))
        (broadcastInDim ⟨1, ![200000]⟩ ![] hb0 (constant ⟨0, ![]⟩ .f32 0x3F800000#32)))
      (broadcastInDim ⟨1, ![200000]⟩ ![] hb0 (constant ⟨0, ![]⟩ .f32 0x3F000000#32)) (ix1 e)
      = cosw (fun k : Fin 640 => A (ix2 e k)) (fun k : Fin 640 => B (ix2 e k)) := by
  simp only [mulf_apply, addf_apply, maximumf_apply, host_divf_apply, host_sqrt_apply, broadcastInDim_scalar_apply,
    reduce_rows_apply hr' (by decide), constant_apply]
  rfl

set_option maxRecDepth 8192 in
/-- The kernel's chain at edge e: the part-by-part weight of the edge's parser rows and its end nodes' embedding rows. -/
theorem ker_read (hp' : (⟨2, ![200000, 128]⟩ : Shape).ReducesTo [1] ⟨1, ![200000]⟩)
    (hg' : (⟨2, ![200000, 512]⟩ : Shape).ReducesTo [1] ⟨1, ![200000]⟩)
    (hn' : (⟨2, ![20000, 512]⟩ : Shape).ReducesTo [1] ⟨1, ![20000]⟩) (h0 : 0 < (⟨0, ![]⟩ : Shape).numel)
    (hb0 : (⟨0, ![]⟩ : Shape).BroadcastsInDim ⟨1, ![200000]⟩ (![] : Fin 0 → Fin 1))
    (hb1 : (⟨1, ![200000]⟩ : Shape).BroadcastsInDim ⟨2, ![200000, 1]⟩ ![0])
    (hlt : FTy.bf16.bits < FTy.f32.bits)
    (wf2 : GatherDims.WF ⟨2, ![20000, 512]⟩ ⟨2, ![200000, 1]⟩ ⟨2, ![200000, 512]⟩ [1] [0] [] [0] [] 1 ![1, 512])
    (wf1 : GatherDims.WF ⟨1, ![20000]⟩ ⟨2, ![200000, 1]⟩ ⟨1, ![200000]⟩ [] [0] [] [0] [] 1 ![1])
    (pA pB : FVec Ideal ⟨2, ![200000, 128]⟩ .f32) (es : FVec Ideal ⟨2, ![20000, 512]⟩ .f32)
    (src tgt : (⟨1, ![200000]⟩ : Shape).Idx → BitVec 32) (e : Fin 200000) :
    mulf
      (addf
        (Host.divf
          (addf
            (Host.reduceAdd (mulf pA pB) (constant ⟨0, ![]⟩ .f32 0x00000000#32) hp' h0)
            (Host.reduceAdd
              (mulf
                (extf .f32 (Host.gather (GatherRow.rowDims 20000 512 200000 wf2) (truncf .bf16 es hlt) (wrapCol hb0 hb1 src)) hlt)
                (extf .f32 (Host.gather (GatherRow.rowDims 20000 512 200000 wf2) (truncf .bf16 es hlt) (wrapCol hb0 hb1 tgt)) hlt))
              (constant ⟨0, ![]⟩ .f32 0x00000000#32) hg' h0))
          (mulf
            (maximumf
              (Host.sqrt
                (addf (Host.reduceAdd (mulf pA pA) (constant ⟨0, ![]⟩ .f32 0x00000000#32) hp' h0)
                  (Host.gather (entryDims 20000 200000 wf1)
                    (Host.reduceAdd (mulf es es) (constant ⟨0, ![]⟩ .f32 0x00000000#32) hn' h0) (wrapCol hb0 hb1 src))))
              (broadcastInDim ⟨1, ![200000]⟩ ![] hb0 (constant ⟨0, ![]⟩ .f32 0x322BCC77#32)))
            (maximumf
              (Host.sqrt
                (addf (Host.reduceAdd (mulf pB pB) (constant ⟨0, ![]⟩ .f32 0x00000000#32) hp' h0)
                  (Host.gather (entryDims 20000 200000 wf1)
                    (Host.reduceAdd (mulf es es) (constant ⟨0, ![]⟩ .f32 0x00000000#32) hn' h0) (wrapCol hb0 hb1 tgt))))
              (broadcastInDim ⟨1, ![200000]⟩ ![] hb0 (constant ⟨0, ![]⟩ .f32 0x322BCC77#32)))))
        (broadcastInDim ⟨1, ![200000]⟩ ![] hb0 (constant ⟨0, ![]⟩ .f32 0x3F800000#32)))
      (broadcastInDim ⟨1, ![200000]⟩ ![] hb0 (constant ⟨0, ![]⟩ .f32 0x3F000000#32)) (ix1 e)
      = cosw2 (fun k : Fin 128 => pA (ix2 e k)) (fun k : Fin 128 => pB (ix2 e k))
          (fun k : Fin 512 => es (ix2 (row src e) k)) (fun k : Fin 512 => es (ix2 (row tgt e) k))
          (Ideal.ofBits .f32 0x00000000#32 + ∑ k : Fin 512, es (ix2 (row src e) k) * es (ix2 (row src e) k))
          (Ideal.ofBits .f32 0x00000000#32 + ∑ k : Fin 512, es (ix2 (row tgt e) k) * es (ix2 (row tgt e) k)) := by
  have hs : ∀ k : Fin 512, (extf .f32 (Host.gather (GatherRow.rowDims 20000 512 200000 wf2) (truncf .bf16 es hlt)
      (wrapCol hb0 hb1 src)) hlt : FVec Ideal ⟨2, ![200000, 512]⟩ .f32) (ix2 e k) = es (ix2 (row src e) k) := fun k =>
    gather_rows wf2 hb0 hb1 (truncf .bf16 es hlt : FVec Ideal ⟨2, ![20000, 512]⟩ .bf16) src e k
  have ht : ∀ k : Fin 512, (extf .f32 (Host.gather (GatherRow.rowDims 20000 512 200000 wf2) (truncf .bf16 es hlt)
      (wrapCol hb0 hb1 tgt)) hlt : FVec Ideal ⟨2, ![200000, 512]⟩ .f32) (ix2 e k) = es (ix2 (row tgt e) k) := fun k =>
    gather_rows wf2 hb0 hb1 (truncf .bf16 es hlt : FVec Ideal ⟨2, ![20000, 512]⟩ .bf16) tgt e k
  simp only [mulf_apply, addf_apply, maximumf_apply, host_divf_apply, host_sqrt_apply, broadcastInDim_scalar_apply,
    gather_entries wf1 hb0 hb1, reduce_rows_apply hn' (by decide), reduce_rows_apply hp' (by decide),
    reduce_rows_apply hg' (by decide), constant_apply, hs, ht]
  rfl

end Cert.Sim

end
-- ==== Proof.Sim.EdgeWeightKer.lean ====
/-
  The kernel's edge weight, read at an edge.

  The kernel never joins the 128 parser features of an edge with the 512 embedding features of its end nodes: per edge e it sums the
  products of the two parser rows and of the two embedding rows separately and adds the sums; for the norms it adds the parser rows' sums
  of squares to the end nodes' entries of ONE vector holding every node's sum of squares. At edge e this is the part-by-part weight
  `cosw2` of the parser rows (e) and the embedding rows (row src e), (row tgt e) (K_ew_read). The casts of the embedding through the
  16-bit format are the identity on extended reals.
-/
import proofs.«115122_j13357348290767_2_alg».proof.Proof.Gen.KernelIdeal.Launch
import proofs.«115122_j13357348290767_2_alg».proof.Proof.Sim.Base
import proofs.«115122_j13357348290767_2_alg».proof.Proof.Sim.EdgeWeightRead

noncomputable section

namespace Cert.Sim

open Idealize.ShloMosaic Idealize.ShloMosaic.TcCoe Idealize.ShloMosaic.StableHlo Idealize.ShloMosaic.ValueIdx
open Cert.ChebMath
open scoped BigOperators

/-- The embedding row the kernel reads for edge e at the index vector `idx`, as a row of 512 extended reals. -/
abbrev esRow (W : VK) (idx : (⟨1, ![200000]⟩ : Shape).Idx → BitVec 32) (e : Fin 200000) : Fin 512 → EReal :=
  fun k => W (Proc.devRef .tc Cert.KernelIdeal.main_v12) (ix2 (row idx e) k)

set_option maxHeartbeats 16000000 in
set_option maxRecDepth 8192 in
/-- The kernel's edge weight at edge e: the part-by-part weight of the edge's parser rows and its end nodes' embedding rows. -/
theorem K_ew_read (W : VK) (e : Fin 200000) :
    StableHlo.after (Cert.KernelIdeal.Gen.hostOps3 (F := Ideal)) W (Proc.devRef .tc Cert.KernelIdeal.main_v96) (ix1 e)
      = cosw2 (fun k : Fin 128 => W (Proc.devRef .tc Cert.KernelIdeal.main_v38) (ix2 e k))
          (fun k : Fin 128 => W (Proc.devRef .tc Cert.KernelIdeal.main_v40) (ix2 e k))
          (esRow W (W (Proc.devRef .tc Cert.KernelIdeal.main_v1)) e) (esRow W (W (Proc.devRef .tc Cert.KernelIdeal.main_v3)) e)
          (Ideal.ofBits .f32 0x00000000#32 + ∑ k : Fin 512,
            esRow W (W (Proc.devRef .tc Cert.KernelIdeal.main_v1)) e k * esRow W (W (Proc.devRef .tc Cert.KernelIdeal.main_v1)) e k)
          (Ideal.ofBits .f32 0x00000000#32 + ∑ k : Fin 512,
            esRow W (W (Proc.devRef .tc Cert.KernelIdeal.main_v3)) e k * esRow W (W (Proc.devRef .tc Cert.KernelIdeal.main_v3)) e k) := by
  after_results_simp
  exact ker_read _ _ _ _ _ _ _ _ _ (W (Proc.devRef .tc Cert.KernelIdeal.main_v38)) (W (Proc.devRef .tc Cert.KernelIdeal.main_v40))
    (W (Proc.devRef .tc Cert.KernelIdeal.main_v12)) (W (Proc.devRef .tc Cert.KernelIdeal.main_v1))
    (W (Proc.devRef .tc Cert.KernelIdeal.main_v3)) e

end Cert.Sim

end
-- ==== Proof.Sim.EdgeWeightRefRead.lean ====
/-
  The reference's edge weight, read at an edge.

  The reference takes, per edge e, the cosine weight of row e of its two joined feature matrices h1, h2 : [200000, 640]: the three sums
  along the 640 features, two roots clipped below at ε, a quotient, and the move into [0, 1] (R_ew_read). Over real feature matrices
  every entry of the weight is real (ew_isReal): the divisor is a product of two positive reals.
-/
import proofs.«115122_j13357348290767_2_alg».proof.Proof.R.Ops
import proofs.«115122_j13357348290767_2_alg».proof.Proof.Sim.Base
import proofs.«115122_j13357348290767_2_alg».proof.Proof.Sim.EdgeWeightRead

noncomputable section

namespace Cert.Sim

open Idealize.ShloMosaic Idealize.ShloMosaic.TcCoe Idealize.ShloMosaic.StableHlo Idealize.ShloMosaic.ValueIdx
open Cert.ChebMath
open scoped BigOperators
open Cert.ReferenceIdeal.RValue

set_option maxHeartbeats 4000000 in
/-- The reference's edge weight at edge e: the cosine weight of row e of the two joined feature matrices. -/
theorem R_ew_read (X : VR) (e : Fin 200000) :
    StableHlo.after (rops8 (F := Ideal)) X (Proc.devRef .tc Cert.ReferenceIdeal.main_v73) (ix1 e)
      = cosw (fun k : Fin 640 => X (Proc.devRef .tc Cert.ReferenceIdeal.main_v36) (ix2 e k))
          (fun k : Fin 640 => X (Proc.devRef .tc Cert.ReferenceIdeal.main_v59) (ix2 e k)) := by
  after_results_simp
  exact cos_read _ _ _ (X (Proc.devRef .tc Cert.ReferenceIdeal.main_v36)) (X (Proc.devRef .tc Cert.ReferenceIdeal.main_v59)) e

set_option maxHeartbeats 4000000 in
/-- Over real joined feature matrices every entry of the reference's edge weight is real. -/
theorem ew_isReal (X : VR)
    (h36 : ∀ i, IsReal (X (Proc.devRef .tc Cert.ReferenceIdeal.main_v36) i))
    (h59 : ∀ i, IsReal (X (Proc.devRef .tc Cert.ReferenceIdeal.main_v59) i)) (i : (⟨1, ![200000]⟩ : Shape).Idx) :
    IsReal (StableHlo.after (rops8 (F := Ideal)) X (Proc.devRef .tc Cert.ReferenceIdeal.main_v73) i) := by
  obtain ⟨e, rfl⟩ : ∃ e : Fin 200000, i = ix1 e := ⟨i 0, eq_ix1 i⟩
  rw [R_ew_read X e]
  exact isReal_cosw (fun k => h36 _) (fun k => h59 _)

end Cert.Sim

end
-- ==== Proof.Sim.EdgeWeight.lean ====
/-
  The edge weight: the kernel program and the reference program compute the same vector.

  The reference joins, per edge, 128 parser features with the 512 embedding features of an end node into a row of 640 features, once for
  the source (h1) and once for the target (h2), and takes the cosine weight of the two rows. The kernel never builds the joined rows: it
  sums the parser part and the embedding part separately, and reads the embedding rows' sums of squares from one vector of all nodes'
  sums of squares. A sum over 640 joined features is the sum over the first 128 plus the sum over the last 512, so the two weights agree
  entry by entry (sim_ew) — in the extended reals, with no finiteness assumed.
-/
import proofs.«115122_j13357348290767_2_alg».proof.Proof.Sim.EdgeWeightKer
import proofs.«115122_j13357348290767_2_alg».proof.Proof.Sim.EdgeWeightRefRead

noncomputable section

namespace Cert.Sim

open Idealize.ShloMosaic Idealize.ShloMosaic.TcCoe Idealize.ShloMosaic.StableHlo Idealize.ShloMosaic.ValueIdx
open Cert.ChebMath
open scoped BigOperators
open Cert.ReferenceIdeal.RValue

set_option maxHeartbeats 8000000 in
/-- THE EDGE WEIGHT'S SIMULATION STEP: where the reference's two joined feature matrices hold the kernel's parser outputs followed by
    the embedding rows of the edges' end nodes, the kernel's edge weight is the reference's. -/
theorem sim_ew (W : VK) (X : VR)
    (hs : W (Proc.devRef .tc Cert.KernelIdeal.main_v1) = X (Proc.devRef .tc Cert.ReferenceIdeal.main_v1))
    (ht : W (Proc.devRef .tc Cert.KernelIdeal.main_v3) = X (Proc.devRef .tc Cert.ReferenceIdeal.main_v3))
    (h36 : ∀ (e : Fin 200000) (k : Fin 640), X (Proc.devRef .tc Cert.ReferenceIdeal.main_v36) (ix2 e k)
      = if hk : k.val < 128 then W (Proc.devRef .tc Cert.KernelIdeal.main_v38) (ix2 e ⟨k.val, hk⟩)
        else W (Proc.devRef .tc Cert.KernelIdeal.main_v12)
          (ix2 (row (W (Proc.devRef .tc Cert.KernelIdeal.main_v1)) e) ⟨k.val - 128, by omega⟩))
    (h59 : ∀ (e : Fin 200000) (k : Fin 640), X (Proc.devRef .tc Cert.ReferenceIdeal.main_v59) (ix2 e k)
      = if hk : k.val < 128 then W (Proc.devRef .tc Cert.KernelIdeal.main_v40) (ix2 e ⟨k.val, hk⟩)
        else W (Proc.devRef .tc Cert.KernelIdeal.main_v12)
          (ix2 (row (W (Proc.devRef .tc Cert.KernelIdeal.main_v3)) e) ⟨k.val - 128, by omega⟩)) :
    StableHlo.after (Cert.KernelIdeal.Gen.hostOps3 (F := Ideal)) W (Proc.devRef .tc Cert.KernelIdeal.main_v96)
      = StableHlo.after (rops8 (F := Ideal)) X (Proc.devRef .tc Cert.ReferenceIdeal.main_v73) := by
  refine funext fun (i : (⟨1, ![200000]⟩ : Shape).Idx) => ?_
  obtain ⟨e, rfl⟩ : ∃ e : Fin 200000, i = ix1 e := ⟨i 0, eq_ix1 i⟩
  exact (K_ew_read W e).trans ((cosw_concat (fun k => h36 e k) (fun k => h59 e k)).trans (R_ew_read X e).symm)

end Cert.Sim

end
-- ==== Proof.Sim.EdgeWeightRef.lean ====
/-
  The two feature matrices of the reference's edge weight, read at an index.

  For every edge e the reference joins the 128 parser features of the edge with the 512 embedding features of one of its end nodes:

      h1 (e, k) = pA (e, k)                 for k < 128,      h1 (e, k) = es (row src e, k − 128)   for k ≥ 128,
      h2 (e, k) = pB (e, k)                 for k < 128,      h2 (e, k) = es (row tgt e, k − 128)   for k ≥ 128,

  where row idx e is the node row the gather reads (the wrapped index, clamped). Both are one concatenation of a leaf with a gather of
  rows at the wrapped column of indices.
-/
import proofs.«115122_j13357348290767_2_alg».proof.Proof.R.Ops
import proofs.«115122_j13357348290767_2_alg».proof.Proof.Sim.EdgeWeightRow
import proofs.«115122_j13357348290767_2_alg».proof.Proof.Sim.Base

noncomputable section

namespace Cert.Sim

open Idealize.ShloMosaic Idealize.ShloMosaic.TcCoe Idealize.ShloMosaic.StableHlo Idealize.ShloMosaic.ValueIdx
open Cert.ReferenceIdeal.RValue

/-- The first feature matrix at (e, k): the first parser output below column 128, the source node's embedding from there on. -/
theorem R_h1 (X : VR) (e : Fin 200000) (k : Fin 640) :
    StableHlo.after (rops4 (F := Ideal)) X (Proc.devRef .tc Cert.ReferenceIdeal.main_v36) (ix2 e k)
      = if hk : k.val < 128 then X (Proc.devRef .tc Cert.ReferenceIdeal.main_v28) (ix2 e ⟨k.val, hk⟩)
        else X (Proc.devRef .tc Cert.ReferenceIdeal.main_v13)
          (ix2 (row (X (Proc.devRef .tc Cert.ReferenceIdeal.main_v1)) e) ⟨k.val - 128, by omega⟩) := by
  after_results
  rw [concat_at]
  split
  · rfl
  · exact gather_rows _ _ _ _ _ e _

/-- The second feature matrix at (e, k): the second parser output below column 128, the target node's embedding from there on. -/
theorem R_h2 (X : VR) (e : Fin 200000) (k : Fin 640) :
    StableHlo.after (rops7 (F := Ideal)) X (Proc.devRef .tc Cert.ReferenceIdeal.main_v59) (ix2 e k)
      = if hk : k.val < 128 then X (Proc.devRef .tc Cert.ReferenceIdeal.main_v51) (ix2 e ⟨k.val, hk⟩)
        else X (Proc.devRef .tc Cert.ReferenceIdeal.main_v13)
          (ix2 (row (X (Proc.devRef .tc Cert.ReferenceIdeal.main_v3)) e) ⟨k.val - 128, by omega⟩) := by
  after_results
  rw [concat_at]
  split
  · rfl
  · exact gather_rows _ _ _ _ _ e _

end Cert.Sim

end
-- ==== Proof.Bridge.StageE.lean ====
/- The edge-weight step of the comparison: the reference takes the cosine of two concatenated feature rows (parser
   output next to the gathered site embedding); the kernel adds the two parts' sums. With equal parser outputs, site
   embeddings and edge lists, the two edge weights agree. -/
import proofs.«115122_j13357348290767_2_alg».proof.Proof.KI.W
import proofs.«115122_j13357348290767_2_alg».proof.Proof.R.Fold
import proofs.«115122_j13357348290767_2_alg».proof.Proof.Sim.Base
import proofs.«115122_j13357348290767_2_alg».proof.Proof.Glue.KeepK
import proofs.«115122_j13357348290767_2_alg».proof.Proof.Glue.KeepR
import proofs.«115122_j13357348290767_2_alg».proof.Proof.Sim.EdgeWeight
import proofs.«115122_j13357348290767_2_alg».proof.Proof.Sim.EdgeWeightRef

set_option maxHeartbeats 4000000
set_option maxRecDepth 16384
noncomputable section
namespace Cert.Bridge
open Idealize.ShloMosaic Idealize.ShloMosaic.TcCoe Idealize.SL.Sem
open Cert.KernelIdeal.Frame Cert.ReferenceIdeal.RValue Cert.Glue Cert.Sim

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

open Idealize.ShloMosaic.ValueIdx in
theorem st_ew (hsrc : W1 (F := Ideal) m ρ c (Proc.devRef .tc Cert.KernelIdeal.main_v1) = RW1 (F := Ideal) m' c (Proc.devRef .tc Cert.ReferenceIdeal.main_v1))
    (htgt : W1 (F := Ideal) m ρ c (Proc.devRef .tc Cert.KernelIdeal.main_v3) = RW1 (F := Ideal) m' c (Proc.devRef .tc Cert.ReferenceIdeal.main_v3))
    (hes : W3 (F := Ideal) m ρ c (Proc.devRef .tc Cert.KernelIdeal.main_v12) = RW2 (F := Ideal) m' c (Proc.devRef .tc Cert.ReferenceIdeal.main_v13))
    (hpA : W4 (F := Ideal) m ρ c (Proc.devRef .tc Cert.KernelIdeal.main_v38) = RW4 (F := Ideal) m' c (Proc.devRef .tc Cert.ReferenceIdeal.main_v28))
    (hpB : W6 (F := Ideal) m ρ c (Proc.devRef .tc Cert.KernelIdeal.main_v40) = RW7 (F := Ideal) m' c (Proc.devRef .tc Cert.ReferenceIdeal.main_v51)) :
    W7 (F := Ideal) m ρ c (Proc.devRef .tc Cert.KernelIdeal.main_v96) = RW9 (F := Ideal) m' c (Proc.devRef .tc Cert.ReferenceIdeal.main_v73) := by
  have k1 : RW8 (F := Ideal) m' c (Proc.devRef .tc Cert.ReferenceIdeal.main_v1) = RW4 (F := Ideal) m' c (Proc.devRef .tc Cert.ReferenceIdeal.main_v1) :=
    (rops7_keeps (F := Ideal) (r := Cert.ReferenceIdeal.main_v1) (by decide) (RW7 (F := Ideal) m' c)).trans ((rops6_keeps (F := Ideal) (r := Cert.ReferenceIdeal.main_v1) (by decide) (RW6 (F := Ideal) m' c)).trans ((rops5_keeps (F := Ideal) (r := Cert.ReferenceIdeal.main_v1) (by decide) (RW5 (F := Ideal) m' c)).trans (rops4_keeps (F := Ideal) (r := Cert.ReferenceIdeal.main_v1) (by decide) (RW4 (F := Ideal) m' c))))
  have k3 : RW8 (F := Ideal) m' c (Proc.devRef .tc Cert.ReferenceIdeal.main_v3) = RW7 (F := Ideal) m' c (Proc.devRef .tc Cert.ReferenceIdeal.main_v3) := (rops7_keeps (F := Ideal) (r := Cert.ReferenceIdeal.main_v3) (by decide) (RW7 (F := Ideal) m' c))
  have e1 : RW4 (F := Ideal) m' c (Proc.devRef .tc Cert.ReferenceIdeal.main_v1) = W6 (F := Ideal) m ρ c (Proc.devRef .tc Cert.KernelIdeal.main_v1) :=
    (Cert.Glue.keepR_main_v1_1_4 m' c).trans (hsrc.symm.trans (Cert.Glue.keepK_v1_1_6 m ρ c).symm)
  have e3 : RW7 (F := Ideal) m' c (Proc.devRef .tc Cert.ReferenceIdeal.main_v3) = W6 (F := Ideal) m ρ c (Proc.devRef .tc Cert.KernelIdeal.main_v3) :=
    (Cert.Glue.keepR_main_v3_1_7 m' c).trans (htgt.symm.trans (Cert.Glue.keepK_v3_1_6 m ρ c).symm)
  have e28 : RW4 (F := Ideal) m' c (Proc.devRef .tc Cert.ReferenceIdeal.main_v28) = W6 (F := Ideal) m ρ c (Proc.devRef .tc Cert.KernelIdeal.main_v38) :=
    hpA.symm.trans (Cert.Glue.keepK_v38_4_6 m ρ c).symm
  have e51 : RW7 (F := Ideal) m' c (Proc.devRef .tc Cert.ReferenceIdeal.main_v51) = W6 (F := Ideal) m ρ c (Proc.devRef .tc Cert.KernelIdeal.main_v40) := hpB.symm
  have e13 : RW4 (F := Ideal) m' c (Proc.devRef .tc Cert.ReferenceIdeal.main_v13) = W6 (F := Ideal) m ρ c (Proc.devRef .tc Cert.KernelIdeal.main_v12) :=
    (Cert.Glue.keepR_main_v13_2_4 m' c).trans (hes.symm.trans (Cert.Glue.keepK_v12_3_6 m ρ c).symm)
  have e13' : RW7 (F := Ideal) m' c (Proc.devRef .tc Cert.ReferenceIdeal.main_v13) = W6 (F := Ideal) m ρ c (Proc.devRef .tc Cert.KernelIdeal.main_v12) :=
    (Cert.Glue.keepR_main_v13_2_7 m' c).trans (hes.symm.trans (Cert.Glue.keepK_v12_3_6 m ρ c).symm)
  have h8 : RW8 (F := Ideal) m' c (Proc.devRef .tc Cert.ReferenceIdeal.main_v36) = RW5 (F := Ideal) m' c (Proc.devRef .tc Cert.ReferenceIdeal.main_v36) := Cert.Glue.keepR_main_v36_5_8 m' c
  refine sim_ew (W6 (F := Ideal) m ρ c) (RW8 (F := Ideal) m' c) (e1.symm.trans k1.symm) (e3.symm.trans k3.symm) ?_ ?_
  · intro e k
    have hk := R_h1 (RW4 (F := Ideal) m' c) e k
    rw [e28, e13, e1] at hk
    rw [h8]
    exact hk
  · intro e k
    have hk := R_h2 (RW7 (F := Ideal) m' c) e k
    rw [e51, e13', e3] at hk
    exact hk

end Cert.Bridge
end
-- ==== Proof.LibScatterRow.lean ====
/-
  A scatter-add of ROWS, read at an index.

  What `z.at[idx].add(u)` of a matrix `z : [N, D]` at an integer vector `idx : [E]` with updates `u : [E, D]` lowers to is a
  scatter with scatter indices `[E, 1]`, update window axis 1, inserted window axis 0, scatter axis 0 sent to operand axis 0 and
  index vector axis 1. Update (e, c) lands on the operand's entry (r, c), where the row r is the scatter index `idx[e, 0]`
  read as a signed integer, when 0 ≤ r < N; otherwise the update is dropped. So the result's entry (n, c) is the operand's
  entry plus the sum, over the edges e whose row is n, of `u (e, c)`.
-/
import Idealize.ShloMosaic.Lib.ValueIdx
import Idealize.ShloMosaic.PureOps.Ideal

noncomputable section

namespace Idealize.ShloMosaic.ScatterRow

open Idealize.ShloMosaic Idealize.ShloMosaic.ValueIdx

/-- The dimension numbers of a row scatter into `[N, D]` at `[E, 1]` of updates `[E, D]`. -/
abbrev rowDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The row a scatter index names: the index read signed, when it is a row of the operand. -/
def row (N : Nat) {w : Nat} (b : BitVec w) : Option (Fin N) :=
  if h : 0 ≤ b.toInt ∧ b.toInt < N then some ⟨b.toInt.toNat, by omega⟩ else none

variable {N D E w : Nat} (wf : ScatterDims.WF ⟨2, ![N, D]⟩ ⟨2, ![E, 1]⟩ ⟨2, ![E, D]⟩ [1] [0] [0] 1)

theorem start_zero (j : (⟨2, ![E, D]⟩ : Shape).Idx) (idx : IVec ⟨2, ![E, 1]⟩ w) :
    (rowDims N D E wf).start j idx 0 = (idx (ix2 (j 0) (0 : Fin 1))).toInt := by
  unfold ScatterDims.start
  rw [dif_pos (show (0 : Fin 2) ∈ (rowDims N D E wf).scatterDimsToOperandDims from List.mem_singleton.mpr rfl)]
  have hsi : (rowDims N D E wf).siIdx j ⟨List.idxOf (0 : Fin 2) (rowDims N D E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  exact congrArg (fun i => (idx i).toInt) hsi

theorem start_one (j : (⟨2, ![E, D]⟩ : Shape).Idx) (idx : IVec ⟨2, ![E, 1]⟩ w) :
    (rowDims N D E wf).start j idx 1 = 0 := by
  unfold ScatterDims.start
  rw [dif_neg (show (1 : Fin 2) ∉ (rowDims N D E wf).scatterDimsToOperandDims from
    fun h => absurd (congrArg Fin.val (List.mem_singleton.mp h)) Nat.one_ne_zero)]

theorem window_zero (j : (⟨2, ![E, D]⟩ : Shape).Idx) : (rowDims N D E wf).window j 0 = 0 := by
  unfold ScatterDims.window
  have hk : (rowDims N D E wf).sKept = [1] := rfl
  rw [dif_neg (show (0 : Fin 2) ∉ (rowDims N D E wf).sKept from
    fun h => absurd (congrArg Fin.val (List.mem_singleton.mp (hk ▸ h))) Nat.zero_ne_one)]

theorem window_one (j : (⟨2, ![E, D]⟩ : Shape).Idx) : (rowDims N D E wf).window j 1 = (j 1).val := by
  unfold ScatterDims.window
  have hk : (rowDims N D E wf).sKept = [1] := rfl
  rw [dif_pos (show (1 : Fin 2) ∈ (rowDims N D E wf).sKept from hk ▸ List.mem_singleton.mpr rfl)]
  rfl

/-- Where update `j` lands: on the row its scatter index names, at its own column. -/
theorem resultIdx?_eq (j : (⟨2, ![E, D]⟩ : Shape).Idx) (idx : IVec ⟨2, ![E, 1]⟩ w) :
    (rowDims N D E wf).resultIdx? j idx = (row N (idx (ix2 (j 0) (0 : Fin 1)))).map fun n => ix2 n (j 1) := by
  unfold ScatterDims.resultIdx? row
  by_cases h : 0 ≤ (idx (ix2 (j 0) (0 : Fin 1))).toInt ∧ (idx (ix2 (j 0) (0 : Fin 1))).toInt < N
  · have hall : ∀ a, 0 ≤ (rowDims N D E wf).start j idx a + (rowDims N D E wf).window j a ∧
        (rowDims N D E wf).start j idx a + (rowDims N D E wf).window j a < (⟨2, ![N, D]⟩ : Shape).size a := by
      intro a
      match a with
      | ⟨0, _⟩ =>
        show 0 ≤ (rowDims N D E wf).start j idx 0 + (rowDims N D E wf).window j 0 ∧
          (rowDims N D E wf).start j idx 0 + (rowDims N D E wf).window j 0 < (N : Int)
        rw [start_zero, window_zero]; simpa using h
      | ⟨1, _⟩ =>
        show 0 ≤ (rowDims N D E wf).start j idx 1 + (rowDims N D E wf).window j 1 ∧
          (rowDims N D E wf).start j idx 1 + (rowDims N D E wf).window j 1 < (D : Int)
        rw [start_one, window_one]
        have : (j 1).val < D := idx2_lt1 j
        constructor <;> omega
    rw [dif_pos hall, dif_pos h, Option.map_some]
    refine congrArg some (funext fun a => Fin.ext ?_)
    match a with
    | ⟨0, _⟩ =>
      show ((rowDims N D E wf).start j idx 0 + (rowDims N D E wf).window j 0).toNat = _
      rw [start_zero, window_zero]; simp
    | ⟨1, _⟩ =>
      show ((rowDims N D E wf).start j idx 1 + (rowDims N D E wf).window j 1).toNat = (j 1).val
      rw [start_one, window_one]; simp
  · have hall : ¬ ∀ a, 0 ≤ (rowDims N D E wf).start j idx a + (rowDims N D E wf).window j a ∧
        (rowDims N D E wf).start j idx a + (rowDims N D E wf).window j a < (⟨2, ![N, D]⟩ : Shape).size a := by
      intro hh
      have h0 := hh 0
      rw [start_zero, window_zero] at h0
      exact h (by simpa using h0)
    rw [dif_neg hall, dif_neg h, Option.map_none]
    rfl

/-- Update `j` lands on `(n, c)` exactly when its scatter index names row `n` and its column is `c`. -/
theorem resultIdx?_eq_some_iff (idx : IVec ⟨2, ![E, 1]⟩ w) (j : (⟨2, ![E, D]⟩ : Shape).Idx) (n : Fin N) (c : Fin D) :
    (rowDims N D E wf).resultIdx? j idx = some (ix2 n c) ↔ row N (idx (ix2 (j 0) (0 : Fin 1))) = some n ∧ j 1 = c := by
  rw [resultIdx?_eq]
  constructor
  · intro h
    obtain ⟨m, hm, he⟩ := Option.map_eq_some_iff.mp h
    have h0 : m = n := congrFun he 0
    have h1 : j 1 = c := congrFun he 1
    exact ⟨hm.trans (congrArg some h0), h1⟩
  · rintro ⟨hm, rfl⟩
    rw [hm, Option.map_some]
    rfl

/-- The row scatter-add at (n, c): the operand's entry plus the updates of the edges whose scatter index names row n. -/
theorem hostScatterAdd_row (x : (⟨2, ![N, D]⟩ : Shape).Idx → EReal) (idx : IVec ⟨2, ![E, 1]⟩ w)
    (upd : (⟨2, ![E, D]⟩ : Shape).Idx → EReal) (n : Fin N) (c : Fin D) :
    Ideal.hostScatterAdd (rowDims N D E wf) x idx upd (ix2 n c)
      = x (ix2 n c) + ∑ e ∈ Finset.univ.filter (fun e : Fin E => row N (idx (ix2 e (0 : Fin 1))) = some n), upd (ix2 e c) := by
  unfold Ideal.hostScatterAdd
  congr 1
  have key : ∀ j : (⟨2, ![E, D]⟩ : Shape).Idx,
      j ∈ Finset.univ.filter (fun j => (rowDims N D E wf).resultIdx? j idx = some (ix2 n c)) →
        row N (idx (ix2 (j 0) (0 : Fin 1))) = some n ∧ j = ix2 (j 0) c := by
    intro j hj
    have hj' := (resultIdx?_eq_some_iff wf idx j n c).mp (Finset.mem_filter.mp hj).2
    refine ⟨hj'.1, ?_⟩
    funext a
    match a with
    | ⟨0, _⟩ => rfl
    | ⟨1, _⟩ => exact hj'.2
  refine Finset.sum_nbij' (fun j => j 0) (fun e => ix2 e c) ?_ ?_ ?_ ?_ ?_
  · intro j hj
    exact Finset.mem_filter.mpr ⟨Finset.mem_univ _, (key j hj).1⟩
  · intro e he
    have he' := (Finset.mem_filter.mp he).2
    exact Finset.mem_filter.mpr ⟨Finset.mem_univ _, (resultIdx?_eq_some_iff wf idx (ix2 e c) n c).mpr ⟨he', rfl⟩⟩
  · intro j hj
    exact (key j hj).2.symm
  · intro e _
    rfl
  · intro j hj
    exact congrArg upd (key j hj).2

end Idealize.ShloMosaic.ScatterRow

end
-- ==== Proof.Sim.Cheb0Prop.lean ====
/-
  One propagation along the edges of the graph, as the two programs write it, read at an index.

  Both programs compute `P(z) = −scatter_add_tgt(norm[:, None] · z[src])` for a node signal `z : [20000, D]` (D = 16 in one,
  D = 512 in the other) by the same seven operations: the source indices are wrapped (`src < 0 ? src + 20000 : src`) and
  gathered (a gather clamps the row into range), the per-edge coefficient is broadcast along the features and multiplied in, the
  products are scatter-added from zero at the target rows (an update whose target row is out of range is dropped), and the sum is
  negated. With `w e` the coefficient of edge `e`, `s e` its (wrapped, clamped) source row (`row src e`) and `t e` its target row when in
  range, the entry (n, x) of the result is `−∑_{e : t e = n} w e · z (s e, x)`: the Laplacian step of the Chebyshev algebra.
-/
import proofs.«115122_j13357348290767_2_alg».proof.Proof.Sim.EdgeWeightRow
import proofs.«115122_j13357348290767_2_alg».proof.Proof.LibScatterRow
import proofs.«115122_j13357348290767_2_alg».proof.Proof.Math.Cheb
import Idealize.ShloMosaic.PureOps.Ideal.Laws

noncomputable section

namespace Cert.Sim

open Idealize.ShloMosaic Idealize.ShloMosaic.ValueIdx

/-- The coefficient of edge `e`. -/
def edgeW (norm : (⟨1, ![200000]⟩ : Shape).Idx → EReal) (e : Fin 200000) : EReal := norm (ix1 e)

/-- The target row of edge `e`, when it is a node (a scatter drops the others). -/
def edgeT (tgt : (⟨1, ![200000]⟩ : Shape).Idx → BitVec 32) (e : Fin 200000) : Option (Fin 20000) :=
  ScatterRow.row 20000 (tgt (ix1 e))

/-- The programs' constant `2.0` is the real number two. -/
theorem cheb0_two : Ideal.ofBits .f32 0x40000000#32 = ((2 : ℝ) : EReal) := by
  simp [Ideal.ofBits, Ideal.ieee, -EReal.coe_mul]; norm_num

/-- The propagation's seven operations at (n, x): the Laplacian step over the edges. -/
theorem prop_apply {D : Nat}
    (sd : ScatterDims ⟨2, ![20000, D]⟩ ⟨2, ![200000, 1]⟩ ⟨2, ![200000, D]⟩)
    (gd : GatherDims ⟨2, ![20000, D]⟩ ⟨2, ![200000, 1]⟩ ⟨2, ![200000, D]⟩)
    (wfs : ScatterDims.WF ⟨2, ![20000, D]⟩ ⟨2, ![200000, 1]⟩ ⟨2, ![200000, D]⟩ [1] [0] [0] 1)
    (hsd : sd = ScatterRow.rowDims 20000 D 200000 wfs)
    (wfg : GatherDims.WF ⟨2, ![20000, D]⟩ ⟨2, ![200000, 1]⟩ ⟨2, ![200000, D]⟩ [1] [0] [] [0] [] 1 ![1, D])
    (hgd : gd = GatherRow.rowDims 20000 D 200000 wfg)
    (hb0 : (⟨0, ![]⟩ : Shape).BroadcastsInDim ⟨2, ![20000, D]⟩ ![])
    (hb1 : (⟨1, ![200000]⟩ : Shape).BroadcastsInDim ⟨2, ![200000, 1]⟩ ![0])
    (hb2 : (⟨2, ![200000, 1]⟩ : Shape).BroadcastsInDim ⟨2, ![200000, D]⟩ ![0, 1])
    (hb3 : (⟨0, ![]⟩ : Shape).BroadcastsInDim ⟨1, ![200000]⟩ ![])
    (norm : FVec Ideal ⟨1, ![200000]⟩ .f32) (src tgt : IVec ⟨1, ![200000]⟩ 32) (z : FVec Ideal ⟨2, ![20000, D]⟩ .f32)
    (n : Fin 20000) (x : Fin D) :
    Host.negf (Host.scatterAdd sd
        (broadcastInDim ⟨2, ![20000, D]⟩ ![] hb0 (constant (F := Ideal) ⟨0, ![]⟩ .f32 0x00000000#32))
        (broadcastInDim ⟨2, ![200000, 1]⟩ ![0] hb1 tgt)
        (mulf (broadcastInDim ⟨2, ![200000, D]⟩ ![0, 1] hb2 (broadcastInDim ⟨2, ![200000, 1]⟩ ![0] hb1 norm))
          (Host.gather gd z (broadcastInDim ⟨2, ![200000, 1]⟩ ![0] hb1
            (select (cmpi .slt src (broadcastInDim ⟨1, ![200000]⟩ ![] hb3 (constantI ⟨0, ![]⟩ 32 0#32)))
              (addi src (broadcastInDim ⟨1, ![200000]⟩ ![] hb3 (constantI ⟨0, ![]⟩ 32 20000#32))) src))))) (ix2 n x)
      = Cert.ChebMath.prop (edgeW norm) (row src) (edgeT tgt) (fun n x => z (ix2 n x)) n x := by
  subst hsd hgd
  show -(Ideal.hostScatterAdd (ScatterRow.rowDims 20000 D 200000 wfs) _ _ _ (ix2 n x)) = _
  rw [ScatterRow.hostScatterAdd_row, broadcastInDim_scalar_apply]
  show -(Ideal.ofBits .f32 0x00000000#32 + _) = _
  rw [Ideal.ofBits_zero_f32, zero_add]
  unfold Cert.ChebMath.prop
  refine congrArg Neg.neg ?_
  have hT : ∀ e : Fin 200000,
      ScatterRow.row 20000 (broadcastInDim ⟨2, ![200000, 1]⟩ ![0] hb1 tgt (ix2 e (0 : Fin 1))) = edgeT tgt e := by
    intro e
    rw [broadcastInDim_n_n1_apply]
    rfl
  simp only [hT]
  refine Finset.sum_congr rfl fun e _ => ?_
  rw [mulf_apply, broadcastInDim_n1_nm_apply, broadcastInDim_n_n1_apply,
    GatherRow.gather_row_apply (by decide : 0 < 20000)]
  refine congrArg (fun r => norm (ix1 e) * z (ix2 r x)) (Fin.ext ?_)
  show min _ (20000 - 1) = min (wrap (src (ix1 e))).toInt.toNat (20000 - 1)
  rw [wrapped_at]

end Cert.Sim

end
-- ==== Proof.Sim.Cheb0Dot.lean ====
/-
  A plain matrix product, read at an index, as the dense layer of the Chebyshev algebra.

  Also: weight matrix `c` of a stack `A : [3, 512, 16]`, cut out as a `[1, 512, 16]` slice and reshaped to `[512, 16]`, at (k, j)
  is `A (c, k, j)`.

  The host's product of `L : [M, K]` by `R : [K, N]` (the left operand contracted on its second axis, the right one on its
  first, no batch axis) at (p, f) is `∑ k, L (p, k) · R (k, f)`: the dense layer `mm` of the rows of `L` by the matrix `R`.
-/
import proofs.«115122_j13357348290767_2_alg».proof.Proof.LibDotRow
import proofs.«115122_j13357348290767_2_alg».proof.Proof.Math.Cheb
import Idealize.ShloMosaic.Lib.Pipeline.Value

noncomputable section

namespace Cert.Sim

open Idealize.ShloMosaic Idealize.ShloMosaic.ValueIdx

/-- The dimension numbers of a plain matrix product `[M, K] · [K, N]`. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- The plain product at (p, f) is the dense layer of the left operand's rows by the right operand. -/
theorem dot_apply {M K N : Nat} (wf : DotDims.WF ⟨2, ![M, K]⟩ ⟨2, ![K, N]⟩ ⟨2, ![M, N]⟩ [1] [0] [0] [1] [] [])
    (prec : Option ContractPrecision) (L : FVec Ideal ⟨2, ![M, K]⟩ .f32) (R : FVec Ideal ⟨2, ![K, N]⟩ .f32)
    (p : Fin M) (f : Fin N) :
    Host.dotGeneral (plainDot M K N wf) prec L R (ix2 p f)
      = Cert.ChebMath.mm (fun n k => L (ix2 n k)) (fun k j => R (ix2 k j)) p f := by
  show FloatOps.dotGeneral (plainDot M K N wf) prec .single L R (ix2 p f) = _
  rw [Ideal.dotGeneral_apply]
  exact DotRow.sum_contr (plainDot M K N wf) rfl rfl rfl rfl (fun _ _ => rfl) (fun _ _ => rfl) L R p f

/-- Matrix `c` of the stack, sliced out and reshaped, at (k, j). -/
theorem wslice_apply (A : (⟨3, ![3, 512, 16]⟩ : Shape).Idx → EReal) (c : Nat) (hc : c < 3)
    (sl : (⟨3, ![3, 512, 16]⟩ : Shape).Slices ![c, 0, 0] ⟨3, ![1, 512, 16]⟩)
    (sc : (⟨3, ![1, 512, 16]⟩ : Shape).ShapeCasts ⟨2, ![512, 16]⟩) (k : Fin 512) (j : Fin 16) :
    shapeCast ⟨2, ![512, 16]⟩ (extractStridedSlice ⟨3, ![1, 512, 16]⟩ ![c, 0, 0] A sl) sc (ix2 k j)
      = A (ix3 (⟨c, hc⟩ : Fin 3) k j) := by
  rw [shapeCast_apply _ sc (ix2 k j) (ix3 (0 : Fin 1) k j) (by
    rw [Shape.rowMajor_val_three, Shape.rowMajor_val_two]
    show (0 * 512 + k.val) * 16 + j.val = k.val * 16 + j.val
    omega)]
  exact extractStridedSlice_apply ![c, 0, 0] A sl (ix3 (0 : Fin 1) k j) (ix3 (⟨c, hc⟩ : Fin 3) k j) (fun a => match a with
    | ⟨0, _⟩ => by show c = c + 0; omega
    | ⟨1, _⟩ => by show k.val = 0 + k.val; omega
    | ⟨2, _⟩ => by show j.val = 0 + j.val; omega)

end Cert.Sim

end
-- ==== Proof.LibNaryThree.lean ====
/-
  The result of a host operation over a literal family of THREE references, with each operand's contents at its own
  reference.

  An operation built over a family `![x, a, b]` of operand references (a concatenate of three operands) reads, in its
  result lemma, the contents `fun k => F (![x, a, b] k)` — under the binder the reference is no literal, so no result
  lemma of the operations that wrote the operands applies to it. Stated with `Fin.cons (F x) (Fin.cons (F a) (Fin.cons (F b) …))`
  in its place the fold can be read on, operand by operand. The primed form has the result reference un-indexed, for
  use in a `simp only` set beside the library's `nullary_result'` … `nary4_result'`.
-/
import Idealize.ShloMosaic.Lib.StableHlo.Run

noncomputable section

namespace Idealize.ShloMosaic.StableHlo

variable {τ : Topo} {sig : RefSig} {Val : EltTy → Type} {x a b y : Ref sig .tc}

/-- An operation over a literal family of three references: its result with each operand's contents at its own
    reference (the four-reference form is the library's `nary4_result`). -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.Sim.Cheb0K.lean ====
/-
  The first Chebyshev layer as the kernel program computes it, read at an index.

  The program projects first and propagates after: with `Wcat = [W₀ | W₁ | W₂]` (the three 512×16 weight matrices side by side)
  it forms `ei · Wcat : [20000, 48]`, cuts it into its three 16-column blocks a, b, c (so a = ei·W₀, b = ei·W₁, c = ei·W₂), and
  returns `max(((a − c) + P b) + 2 · P (P c), 0)`, P the propagation along the edges at width 16. Read at (n, j), in the
  vocabulary of the Chebyshev algebra (`mm` the dense layer, `prop` the Laplacian step), that is

      max(((mm ei W₀ − mm ei W₂) + prop (mm ei W₁)) + 2 · prop (prop (mm ei W₂)), 0) at (n, j).
-/
import proofs.«115122_j13357348290767_2_alg».proof.Proof.KI.Chunks
import proofs.«115122_j13357348290767_2_alg».proof.Proof.Sim.Base
import proofs.«115122_j13357348290767_2_alg».proof.Proof.Sim.Cheb0Prop
import proofs.«115122_j13357348290767_2_alg».proof.Proof.Sim.Cheb0Dot
import proofs.«115122_j13357348290767_2_alg».proof.Proof.LibNaryThree
import Idealize.ShloMosaic.Lib.Pipeline.Value

noncomputable section

namespace Cert.Sim

open Idealize.ShloMosaic Idealize.ShloMosaic.ValueIdx Idealize.ShloMosaic.StableHlo Idealize.ShloMosaic.TcCoe
open Cert.KernelIdeal Cert.KernelIdeal.Gen Cert.KernelIdeal.Frame

/-- The 16 columns of a 512×48 matrix starting at column `off`. -/
def colBlock (Wcat : (⟨2, ![512, 48]⟩ : Shape).Idx → EReal) (off : Nat) (hoff : off + 16 ≤ 48) :
    Fin 512 → Fin 16 → EReal := fun k j => Wcat (ix2 k ⟨off + j.val, by omega⟩)

/-- One propagation as the kernel program writes it (width 16). -/
abbrev propK (norm : FVec Ideal S200000 .f32) (src tgt : IVec S200000 32) (z : FVec Ideal S20000x16 .f32) :
    FVec Ideal S20000x16 .f32 :=
  Host.negf (Host.scatterAdd scatter_S20000x16_S200000x1_S200000x16_1_0_0_1
    (broadcastInDim S20000x16 ![] bcast_S_S20000x16 (constant (F := Ideal) S_ .f32 0x00000000#32))
    (broadcastInDim S200000x1 ![0] bcast_S200000_S200000x1_0 tgt)
    (mulf (broadcastInDim S200000x16 ![0, 1] bcast_S200000x1_S200000x16_0_1
        (broadcastInDim S200000x1 ![0] bcast_S200000_S200000x1_0 norm))
      (Host.gather gather_S20000x16_S200000x1_S200000x16_1_0_n_n_0_1_116 z
        (broadcastInDim S200000x1 ![0] bcast_S200000_S200000x1_0
          (select (cmpi .slt src (broadcastInDim S200000 ![] bcast_S_S200000 (constantI S_ 32 0#32)))
            (addi src (broadcastInDim S200000 ![] bcast_S_S200000 (constantI S_ 32 20000#32))) src)))))

theorem propK_apply (norm : FVec Ideal S200000 .f32) (src tgt : IVec S200000 32) (z : FVec Ideal S20000x16 .f32)
    (n : Fin 20000) (x : Fin 16) :
    propK norm src tgt z (ix2 n x)
      = Cert.ChebMath.prop (edgeW norm) (row src) (edgeT tgt) (fun n x => z (ix2 n x)) n x :=
  prop_apply _ _ scatter_S20000x16_S200000x1_S200000x16_1_0_0_1_wf rfl
    gather_S20000x16_S200000x1_S200000x16_1_0_n_n_0_1_116_wf rfl _ _ _ _ norm src tgt z n x

/-- The kernel program's chain of operations from the projected features on, at (n, j). -/
theorem kside (EI : FVec Ideal S20000x512 .f32) (Wcat : FVec Ideal S512x48 .f32) (norm : FVec Ideal S200000 .f32)
    (src tgt : IVec S200000 32) (n : Fin 20000) (j : Fin 16) :
    maximumf
      (addf
        (addf
          (subf
            (extractStridedSlice S20000x16 ![0, 0]
              (Host.dotGeneral dot_S20000x512_S512x48_S20000x48_1_0_0_1_n_n none EI Wcat) slices_S20000x48_S20000x16_0_0)
            (extractStridedSlice S20000x16 ![0, 32]
              (Host.dotGeneral dot_S20000x512_S512x48_S20000x48_1_0_0_1_n_n none EI Wcat) slices_S20000x48_S20000x16_0_32))
          (propK norm src tgt
            (extractStridedSlice S20000x16 ![0, 16]
              (Host.dotGeneral dot_S20000x512_S512x48_S20000x48_1_0_0_1_n_n none EI Wcat) slices_S20000x48_S20000x16_0_16)))
        (mulf (broadcastInDim S20000x16 ![] bcast_S_S20000x16 (constant (F := Ideal) S_ .f32 0x40000000#32))
          (propK norm src tgt (propK norm src tgt
            (extractStridedSlice S20000x16 ![0, 32]
              (Host.dotGeneral dot_S20000x512_S512x48_S20000x48_1_0_0_1_n_n none EI Wcat) slices_S20000x48_S20000x16_0_32)))))
      (broadcastInDim S20000x16 ![] bcast_S_S20000x16 (constant (F := Ideal) S_ .f32 0x00000000#32)) (ix2 n j)
    = max
        (((Cert.ChebMath.mm (fun n k => EI (ix2 n k)) (colBlock Wcat 0 (by omega)) n j
              - Cert.ChebMath.mm (fun n k => EI (ix2 n k)) (colBlock Wcat 32 (by omega)) n j)
            + Cert.ChebMath.prop (edgeW norm) (row src) (edgeT tgt)
                (Cert.ChebMath.mm (fun n k => EI (ix2 n k)) (colBlock Wcat 16 (by omega))) n j)
          + ((2 : ℝ) : EReal) * Cert.ChebMath.prop (edgeW norm) (row src) (edgeT tgt)
              (Cert.ChebMath.prop (edgeW norm) (row src) (edgeT tgt)
                (Cert.ChebMath.mm (fun n k => EI (ix2 n k)) (colBlock Wcat 32 (by omega)))) n j) 0 := by
  have hA : ∀ (off : Nat) (hoff : off + 16 ≤ 48) (sl : S20000x48.Slices ![0, off] S20000x16),
      (fun (n : Fin 20000) (x : Fin 16) => extractStridedSlice S20000x16 ![0, off]
          (Host.dotGeneral dot_S20000x512_S512x48_S20000x48_1_0_0_1_n_n none EI Wcat) sl (ix2 n x))
        = Cert.ChebMath.mm (fun n k => EI (ix2 n k)) (colBlock Wcat off hoff) := by
    intro off hoff sl
    funext n x
    rw [extractStridedSlice_apply ![0, off] _ sl (ix2 n x) (ix2 n (⟨off + x.val, by omega⟩ : Fin 48)) (fun a => match a with
      | ⟨0, _⟩ => by show n.val = 0 + n.val; omega
      | ⟨1, _⟩ => rfl)]
    exact dot_apply dot_S20000x512_S512x48_S20000x48_1_0_0_1_n_n_wf none EI Wcat n ⟨off + x.val, by omega⟩
  have hP : ∀ z : FVec Ideal S20000x16 .f32, (fun (n : Fin 20000) (x : Fin 16) => propK norm src tgt z (ix2 n x))
      = Cert.ChebMath.prop (edgeW norm) (row src) (edgeT tgt) (fun n x => z (ix2 n x)) := by
    intro z; funext n x; exact propK_apply norm src tgt z n x
  rw [maximumf_apply, addf_apply, addf_apply, subf_apply, mulf_apply, broadcastInDim_scalar_apply,
    broadcastInDim_scalar_apply, constant_apply, constant_apply, Ideal.ofBits_zero_f32, cheb0_two,
    propK_apply, propK_apply, hP, hA 16 (by omega), hA 32 (by omega)]
  rw [congrFun (congrFun (hA 0 (by omega) slices_S20000x48_S20000x16_0_0) n) j,
    congrFun (congrFun (hA 32 (by omega) slices_S20000x48_S20000x16_0_32) n) j]

/-! ### The three weight matrices side by side -/

/-- Columns 0–15 of `[p₀ | p₁ | p₂]` are `p₀`. -/
theorem colBlock_concat0 (p0 p1 p2 : FVec Ideal S512x16 .f32) (h : 0 + 16 ≤ 48) :
    colBlock (concatenate S512x48 1 [⟨S512x16, p0⟩, ⟨S512x16, p1⟩, ⟨S512x16, p2⟩]
      concatenates_S512x16_S512x16_S512x16_S512x48_d1) 0 h = fun k j => p0 (ix2 k j) := by
  funext k j
  exact concatenate_apply_piece (t := S512x48) (1 : Fin 2) [⟨S512x16, p0⟩, ⟨S512x16, p1⟩, ⟨S512x16, p2⟩]
    concatenates_S512x16_S512x16_S512x16_S512x48_d1
    (ix2 k (⟨0 + j.val, by omega⟩ : Fin 48)) 0 (by show 0 < 3; omega) S512x16 p0 rfl rfl 0 rfl (ix2 k j)
    (fun b hb => match b with
      | ⟨0, _⟩ => rfl
      | ⟨1, _⟩ => absurd rfl hb)
    rfl

/-- Columns 16–31 of `[p₀ | p₁ | p₂]` are `p₁`. -/
theorem colBlock_concat1 (p0 p1 p2 : FVec Ideal S512x16 .f32) (h : 16 + 16 ≤ 48) :
    colBlock (concatenate S512x48 1 [⟨S512x16, p0⟩, ⟨S512x16, p1⟩, ⟨S512x16, p2⟩]
      concatenates_S512x16_S512x16_S512x16_S512x48_d1) 16 h = fun k j => p1 (ix2 k j) := by
  funext k j
  exact concatenate_apply_piece (t := S512x48) (1 : Fin 2) [⟨S512x16, p0⟩, ⟨S512x16, p1⟩, ⟨S512x16, p2⟩]
    concatenates_S512x16_S512x16_S512x16_S512x48_d1
    (ix2 k (⟨16 + j.val, by omega⟩ : Fin 48)) 1 (by show 1 < 3; omega) S512x16 p1 rfl rfl 16 rfl (ix2 k j)
    (fun b hb => match b with
      | ⟨0, _⟩ => rfl
      | ⟨1, _⟩ => absurd rfl hb)
    rfl

/-- Columns 32–47 of `[p₀ | p₁ | p₂]` are `p₂`. -/
theorem colBlock_concat2 (p0 p1 p2 : FVec Ideal S512x16 .f32) (h : 32 + 16 ≤ 48) :
    colBlock (concatenate S512x48 1 [⟨S512x16, p0⟩, ⟨S512x16, p1⟩, ⟨S512x16, p2⟩]
      concatenates_S512x16_S512x16_S512x16_S512x48_d1) 32 h = fun k j => p2 (ix2 k j) := by
  funext k j
  exact concatenate_apply_piece (t := S512x48) (1 : Fin 2) [⟨S512x16, p0⟩, ⟨S512x16, p1⟩, ⟨S512x16, p2⟩]
    concatenates_S512x16_S512x16_S512x16_S512x48_d1
    (ix2 k (⟨32 + j.val, by omega⟩ : Fin 48)) 2 (by show 2 < 3; omega) S512x16 p2 rfl rfl 32 rfl (ix2 k j)
    (fun b hb => match b with
      | ⟨0, _⟩ => rfl
      | ⟨1, _⟩ => absurd rfl hb)
    rfl

/-- Weight matrix `c` of the stack as the program cuts it out. -/
abbrev wPiece (A : FVec Ideal S3x512x16 .f32) (c : Nat) (sl : S3x512x16.Slices ![c, 0, 0] S1x512x16) :
    FVec Ideal S512x16 .f32 :=
  shapeCast S512x16 (extractStridedSlice S1x512x16 ![c, 0, 0] A sl) shapeCasts_S1x512x16_S512x16

/-- The kernel program's whole chain from the node features, the weight stack, the edge coefficients and the edge list,
    at (n, j). -/
theorem kside' (EI : FVec Ideal S20000x512 .f32) (A : FVec Ideal S3x512x16 .f32) (norm : FVec Ideal S200000 .f32)
    (src tgt : IVec S200000 32) (n : Fin 20000) (j : Fin 16) :
    maximumf
      (addf
        (addf
          (subf
            (extractStridedSlice S20000x16 ![0, 0]
              (Host.dotGeneral dot_S20000x512_S512x48_S20000x48_1_0_0_1_n_n none EI
                (concatenate S512x48 1 [⟨S512x16, wPiece A 0 slices_S3x512x16_S1x512x16_0_0_0⟩,
                  ⟨S512x16, wPiece A 1 slices_S3x512x16_S1x512x16_1_0_0⟩, ⟨S512x16, wPiece A 2 slices_S3x512x16_S1x512x16_2_0_0⟩]
                  concatenates_S512x16_S512x16_S512x16_S512x48_d1)) slices_S20000x48_S20000x16_0_0)
            (extractStridedSlice S20000x16 ![0, 32]
              (Host.dotGeneral dot_S20000x512_S512x48_S20000x48_1_0_0_1_n_n none EI
                (concatenate S512x48 1 [⟨S512x16, wPiece A 0 slices_S3x512x16_S1x512x16_0_0_0⟩,
                  ⟨S512x16, wPiece A 1 slices_S3x512x16_S1x512x16_1_0_0⟩, ⟨S512x16, wPiece A 2 slices_S3x512x16_S1x512x16_2_0_0⟩]
                  concatenates_S512x16_S512x16_S512x16_S512x48_d1)) slices_S20000x48_S20000x16_0_32))
          (propK norm src tgt
            (extractStridedSlice S20000x16 ![0, 16]
              (Host.dotGeneral dot_S20000x512_S512x48_S20000x48_1_0_0_1_n_n none EI
                (concatenate S512x48 1 [⟨S512x16, wPiece A 0 slices_S3x512x16_S1x512x16_0_0_0⟩,
                  ⟨S512x16, wPiece A 1 slices_S3x512x16_S1x512x16_1_0_0⟩, ⟨S512x16, wPiece A 2 slices_S3x512x16_S1x512x16_2_0_0⟩]
                  concatenates_S512x16_S512x16_S512x16_S512x48_d1)) slices_S20000x48_S20000x16_0_16)))
        (mulf (broadcastInDim S20000x16 ![] bcast_S_S20000x16 (constant (F := Ideal) S_ .f32 0x40000000#32))
          (propK norm src tgt (propK norm src tgt
            (extractStridedSlice S20000x16 ![0, 32]
              (Host.dotGeneral dot_S20000x512_S512x48_S20000x48_1_0_0_1_n_n none EI
                (concatenate S512x48 1 [⟨S512x16, wPiece A 0 slices_S3x512x16_S1x512x16_0_0_0⟩,
                  ⟨S512x16, wPiece A 1 slices_S3x512x16_S1x512x16_1_0_0⟩, ⟨S512x16, wPiece A 2 slices_S3x512x16_S1x512x16_2_0_0⟩]
                  concatenates_S512x16_S512x16_S512x16_S512x48_d1)) slices_S20000x48_S20000x16_0_32)))))
      (broadcastInDim S20000x16 ![] bcast_S_S20000x16 (constant (F := Ideal) S_ .f32 0x00000000#32)) (ix2 n j)
    = max
        (((Cert.ChebMath.mm (fun n k => EI (ix2 n k)) (fun k j => A (ix3 (0 : Fin 3) k j)) n j
              - Cert.ChebMath.mm (fun n k => EI (ix2 n k)) (fun k j => A (ix3 (2 : Fin 3) k j)) n j)
            + Cert.ChebMath.prop (edgeW norm) (row src) (edgeT tgt)
                (Cert.ChebMath.mm (fun n k => EI (ix2 n k)) (fun k j => A (ix3 (1 : Fin 3) k j))) n j)
          + ((2 : ℝ) : EReal) * Cert.ChebMath.prop (edgeW norm) (row src) (edgeT tgt)
              (Cert.ChebMath.prop (edgeW norm) (row src) (edgeT tgt)
                (Cert.ChebMath.mm (fun n k => EI (ix2 n k)) (fun k j => A (ix3 (2 : Fin 3) k j)))) n j) 0 := by
  have hw : ∀ (c : Nat) (hc : c < 3) (sl : S3x512x16.Slices ![c, 0, 0] S1x512x16),
      (fun (k : Fin 512) (j : Fin 16) => wPiece A c sl (ix2 k j)) = fun k j => A (ix3 (⟨c, hc⟩ : Fin 3) k j) := by
    intro c hc sl; funext k j
    exact wslice_apply A c hc sl shapeCasts_S1x512x16_S512x16 k j
  rw [kside, colBlock_concat0, colBlock_concat1, colBlock_concat2, hw 0 (by omega), hw 1 (by omega), hw 2 (by omega)]
  rfl

set_option maxRecDepth 16384 in
set_option maxHeartbeats 4000000 in
/-- **The kernel program's first Chebyshev layer at (n, j).** -/
theorem kc1_read (U : VK) (n : Fin 20000) (j : Fin 16) :
    (StableHlo.after (kc1 (F := Ideal)) U (Proc.devRef .tc main_v185) : S20000x16.Idx → EReal) (ix2 n j)
    = max
        (((Cert.ChebMath.mm (fun n k => (U (Proc.devRef .tc main_v11) : S20000x512.Idx → EReal) (ix2 n k))
                (fun k j => (U (Proc.devRef .tc main_arg9) : S3x512x16.Idx → EReal) (ix3 (0 : Fin 3) k j)) n j
              - Cert.ChebMath.mm (fun n k => (U (Proc.devRef .tc main_v11) : S20000x512.Idx → EReal) (ix2 n k))
                (fun k j => (U (Proc.devRef .tc main_arg9) : S3x512x16.Idx → EReal) (ix3 (2 : Fin 3) k j)) n j)
            + Cert.ChebMath.prop (edgeW (U (Proc.devRef .tc main_v125))) (row (U (Proc.devRef .tc main_v1)))
                (edgeT (U (Proc.devRef .tc main_v3)))
                (Cert.ChebMath.mm (fun n k => (U (Proc.devRef .tc main_v11) : S20000x512.Idx → EReal) (ix2 n k))
                  (fun k j => (U (Proc.devRef .tc main_arg9) : S3x512x16.Idx → EReal) (ix3 (1 : Fin 3) k j))) n j)
          + ((2 : ℝ) : EReal) * Cert.ChebMath.prop (edgeW (U (Proc.devRef .tc main_v125))) (row (U (Proc.devRef .tc main_v1)))
              (edgeT (U (Proc.devRef .tc main_v3)))
              (Cert.ChebMath.prop (edgeW (U (Proc.devRef .tc main_v125))) (row (U (Proc.devRef .tc main_v1)))
                (edgeT (U (Proc.devRef .tc main_v3)))
                (Cert.ChebMath.mm (fun n k => (U (Proc.devRef .tc main_v11) : S20000x512.Idx → EReal) (ix2 n k))
                  (fun k j => (U (Proc.devRef .tc main_arg9) : S3x512x16.Idx → EReal) (ix3 (2 : Fin 3) k j)))) n j) 0 := by
  simp (disch := decide) only [after_cons, after_nil,
    nullary_result', unary_result', binary_result', ternary_result', reshape_result', nary3_result',
    nullary_result_ne', unary_result_ne', binary_result_ne', ternary_result_ne', reshape_result_ne', nary_result_ne']
  repeat (first
    | rw [unary_result] | rw [reshape_result]
    | (rw [unary_result_ne]; rotate_left; decide)
    | (rw [reshape_result_ne]; rotate_left; decide))
  exact kside' (U (Proc.devRef .tc main_v11)) (U (Proc.devRef .tc main_arg9)) (U (Proc.devRef .tc main_v125))
    (U (Proc.devRef .tc main_v1)) (U (Proc.devRef .tc main_v3)) n j

end Cert.Sim

end
-- ==== Proof.Sim.Cheb0R.lean ====
/-
  The first Chebyshev layer as the reference program computes it, read at an index.

  The reference propagates first and projects after: with P the propagation along the edges at width 512 it forms
  `T₁ = P ei`, `T₂ = 2 · P T₁ − ei`, and returns `max((ei · W₀ + T₁ · W₁) + T₂ · W₂, 0)`. Read at (n, j), in the vocabulary of the
  Chebyshev algebra (`mm` the dense layer, `prop` the Laplacian step), that is

      max((mm ei W₀ + mm (prop ei) W₁) + mm (2 · prop (prop ei) − ei) W₂, 0) at (n, j).
-/
import proofs.«115122_j13357348290767_2_alg».proof.Proof.R.Ops
import proofs.«115122_j13357348290767_2_alg».proof.Proof.Sim.Base
import proofs.«115122_j13357348290767_2_alg».proof.Proof.Sim.Cheb0Prop
import proofs.«115122_j13357348290767_2_alg».proof.Proof.Sim.Cheb0Dot
import Idealize.ShloMosaic.Lib.Pipeline.Value

noncomputable section

namespace Cert.Sim

open Idealize.ShloMosaic Idealize.ShloMosaic.ValueIdx Idealize.ShloMosaic.StableHlo Idealize.ShloMosaic.TcCoe
open Cert.ReferenceIdeal Cert.ReferenceIdeal.Gen Cert.ReferenceIdeal.RValue

/-- One propagation as the reference program writes it (width 512). -/
abbrev propR (norm : FVec Ideal S200000 .f32) (src tgt : IVec S200000 32) (z : FVec Ideal S20000x512 .f32) :
    FVec Ideal S20000x512 .f32 :=
  Host.negf (Host.scatterAdd scatter_S20000x512_S200000x1_S200000x512_1_0_0_1
    (broadcastInDim S20000x512 ![] bcast_S_S20000x512 (constant (F := Ideal) S_ .f32 0x00000000#32))
    (broadcastInDim S200000x1 ![0] bcast_S200000_S200000x1_0 tgt)
    (mulf (broadcastInDim S200000x512 ![0, 1] bcast_S200000x1_S200000x512_0_1
        (broadcastInDim S200000x1 ![0] bcast_S200000_S200000x1_0 norm))
      (Host.gather gather_S20000x512_S200000x1_S200000x512_1_0_n_n_0_1_1512 z
        (broadcastInDim S200000x1 ![0] bcast_S200000_S200000x1_0
          (select (cmpi .slt src (broadcastInDim S200000 ![] bcast_S_S200000 (constantI S_ 32 0#32)))
            (addi src (broadcastInDim S200000 ![] bcast_S_S200000 (constantI S_ 32 20000#32))) src)))))

theorem propR_apply (norm : FVec Ideal S200000 .f32) (src tgt : IVec S200000 32) (z : FVec Ideal S20000x512 .f32)
    (n : Fin 20000) (x : Fin 512) :
    propR norm src tgt z (ix2 n x)
      = Cert.ChebMath.prop (edgeW norm) (row src) (edgeT tgt) (fun n x => z (ix2 n x)) n x :=
  prop_apply _ _ scatter_S20000x512_S200000x1_S200000x512_1_0_0_1_wf rfl
    gather_S20000x512_S200000x1_S200000x512_1_0_n_n_0_1_1512_wf rfl _ _ _ _ norm src tgt z n x

/-- The reference program's chain of operations from the node features and the three weight matrices, at (n, j). -/
theorem rside (EI : FVec Ideal S20000x512 .f32) (W0 W1 W2 : FVec Ideal S512x16 .f32) (norm : FVec Ideal S200000 .f32)
    (src tgt : IVec S200000 32) (n : Fin 20000) (j : Fin 16) :
    maximumf
      (addf
        (addf (Host.dotGeneral dot_S20000x512_S512x16_S20000x16_1_0_0_1_n_n none EI W0)
          (Host.dotGeneral dot_S20000x512_S512x16_S20000x16_1_0_0_1_n_n none (propR norm src tgt EI) W1))
        (Host.dotGeneral dot_S20000x512_S512x16_S20000x16_1_0_0_1_n_n none
          (subf
            (mulf (broadcastInDim S20000x512 ![] bcast_S_S20000x512 (constant (F := Ideal) S_ .f32 0x40000000#32))
              (propR norm src tgt (propR norm src tgt EI)))
            EI) W2))
      (broadcastInDim S20000x16 ![] bcast_S_S20000x16 (constant (F := Ideal) S_ .f32 0x00000000#32)) (ix2 n j)
    = max
        ((Cert.ChebMath.mm (fun n k => EI (ix2 n k)) (fun k j => W0 (ix2 k j)) n j
            + Cert.ChebMath.mm (Cert.ChebMath.prop (edgeW norm) (row src) (edgeT tgt) (fun n k => EI (ix2 n k)))
                (fun k j => W1 (ix2 k j)) n j)
          + Cert.ChebMath.mm
              (fun n k => ((2 : ℝ) : EReal) * Cert.ChebMath.prop (edgeW norm) (row src) (edgeT tgt)
                  (Cert.ChebMath.prop (edgeW norm) (row src) (edgeT tgt) (fun n k => EI (ix2 n k))) n k - EI (ix2 n k))
              (fun k j => W2 (ix2 k j)) n j) 0 := by
  have hP : ∀ z : FVec Ideal S20000x512 .f32, (fun (n : Fin 20000) (x : Fin 512) => propR norm src tgt z (ix2 n x))
      = Cert.ChebMath.prop (edgeW norm) (row src) (edgeT tgt) (fun n x => z (ix2 n x)) := by
    intro z; funext n x; exact propR_apply norm src tgt z n x
  have hT2 : (fun (n : Fin 20000) (k : Fin 512) =>
        (subf (mulf (broadcastInDim S20000x512 ![] bcast_S_S20000x512 (constant (F := Ideal) S_ .f32 0x40000000#32))
          (propR norm src tgt (propR norm src tgt EI))) EI) (ix2 n k))
      = fun n k => ((2 : ℝ) : EReal) * Cert.ChebMath.prop (edgeW norm) (row src) (edgeT tgt)
          (Cert.ChebMath.prop (edgeW norm) (row src) (edgeT tgt) (fun n k => EI (ix2 n k))) n k - EI (ix2 n k) := by
    funext n k
    rw [subf_apply, mulf_apply, broadcastInDim_scalar_apply, constant_apply, cheb0_two, propR_apply, hP]
  have hD : ∀ (L : FVec Ideal S20000x512 .f32) (R : FVec Ideal S512x16 .f32),
      Host.dotGeneral dot_S20000x512_S512x16_S20000x16_1_0_0_1_n_n none L R (ix2 n j)
        = Cert.ChebMath.mm (fun n k => L (ix2 n k)) (fun k j => R (ix2 k j)) n j :=
    fun L R => dot_apply dot_S20000x512_S512x16_S20000x16_1_0_0_1_n_n_wf none L R n j
  rw [maximumf_apply, addf_apply, addf_apply, broadcastInDim_scalar_apply, constant_apply, Ideal.ofBits_zero_f32,
    hD, hD, hD, hP, hT2]

/-- Weight matrix `c` of the stack as the program cuts it out. -/
abbrev wPieceR (A : FVec Ideal S3x512x16 .f32) (c : Nat) (sl : S3x512x16.Slices ![c, 0, 0] S1x512x16) :
    FVec Ideal S512x16 .f32 :=
  shapeCast S512x16 (extractStridedSlice S1x512x16 ![c, 0, 0] A sl) shapeCasts_S1x512x16_S512x16

/-- The reference program's whole chain from the node features, the weight stack, the edge coefficients and the edge list,
    at (n, j). -/
theorem rside' (EI : FVec Ideal S20000x512 .f32) (A : FVec Ideal S3x512x16 .f32) (norm : FVec Ideal S200000 .f32)
    (src tgt : IVec S200000 32) (n : Fin 20000) (j : Fin 16) :
    maximumf
      (addf
        (addf (Host.dotGeneral dot_S20000x512_S512x16_S20000x16_1_0_0_1_n_n none EI (wPieceR A 0 slices_S3x512x16_S1x512x16_0_0_0))
          (Host.dotGeneral dot_S20000x512_S512x16_S20000x16_1_0_0_1_n_n none (propR norm src tgt EI)
            (wPieceR A 1 slices_S3x512x16_S1x512x16_1_0_0)))
        (Host.dotGeneral dot_S20000x512_S512x16_S20000x16_1_0_0_1_n_n none
          (subf
            (mulf (broadcastInDim S20000x512 ![] bcast_S_S20000x512 (constant (F := Ideal) S_ .f32 0x40000000#32))
              (propR norm src tgt (propR norm src tgt EI)))
            EI) (wPieceR A 2 slices_S3x512x16_S1x512x16_2_0_0)))
      (broadcastInDim S20000x16 ![] bcast_S_S20000x16 (constant (F := Ideal) S_ .f32 0x00000000#32)) (ix2 n j)
    = max
        ((Cert.ChebMath.mm (fun n k => EI (ix2 n k)) (fun k j => A (ix3 (0 : Fin 3) k j)) n j
            + Cert.ChebMath.mm (Cert.ChebMath.prop (edgeW norm) (row src) (edgeT tgt) (fun n k => EI (ix2 n k)))
                (fun k j => A (ix3 (1 : Fin 3) k j)) n j)
          + Cert.ChebMath.mm
              (fun n k => ((2 : ℝ) : EReal) * Cert.ChebMath.prop (edgeW norm) (row src) (edgeT tgt)
                  (Cert.ChebMath.prop (edgeW norm) (row src) (edgeT tgt) (fun n k => EI (ix2 n k))) n k - EI (ix2 n k))
              (fun k j => A (ix3 (2 : Fin 3) k j)) n j) 0 := by
  have hw : ∀ (c : Nat) (hc : c < 3) (sl : S3x512x16.Slices ![c, 0, 0] S1x512x16),
      (fun (k : Fin 512) (j : Fin 16) => wPieceR A c sl (ix2 k j)) = fun k j => A (ix3 (⟨c, hc⟩ : Fin 3) k j) := by
    intro c hc sl; funext k j
    exact wslice_apply A c hc sl shapeCasts_S1x512x16_S512x16 k j
  rw [rside, hw 0 (by omega), hw 1 (by omega), hw 2 (by omega)]
  rfl

set_option maxRecDepth 16384 in
set_option maxHeartbeats 4000000 in
/-- **The reference program's first Chebyshev layer at (n, j).** -/
theorem rops11_read (X : VR) (n : Fin 20000) (j : Fin 16) :
    (StableHlo.after (rops11 (F := Ideal)) X (Proc.devRef .tc main_v146) : S20000x16.Idx → EReal) (ix2 n j)
    = max
        ((Cert.ChebMath.mm (fun n k => (X (Proc.devRef .tc main_v8) : S20000x512.Idx → EReal) (ix2 n k))
              (fun k j => (X (Proc.devRef .tc main_arg9) : S3x512x16.Idx → EReal) (ix3 (0 : Fin 3) k j)) n j
            + Cert.ChebMath.mm (Cert.ChebMath.prop (edgeW (X (Proc.devRef .tc main_v102))) (row (X (Proc.devRef .tc main_v1)))
                (edgeT (X (Proc.devRef .tc main_v3))) (fun n k => (X (Proc.devRef .tc main_v8) : S20000x512.Idx → EReal) (ix2 n k)))
                (fun k j => (X (Proc.devRef .tc main_arg9) : S3x512x16.Idx → EReal) (ix3 (1 : Fin 3) k j)) n j)
          + Cert.ChebMath.mm
              (fun n k => ((2 : ℝ) : EReal) * Cert.ChebMath.prop (edgeW (X (Proc.devRef .tc main_v102))) (row (X (Proc.devRef .tc main_v1)))
                  (edgeT (X (Proc.devRef .tc main_v3)))
                  (Cert.ChebMath.prop (edgeW (X (Proc.devRef .tc main_v102))) (row (X (Proc.devRef .tc main_v1)))
                    (edgeT (X (Proc.devRef .tc main_v3))) (fun n k => (X (Proc.devRef .tc main_v8) : S20000x512.Idx → EReal) (ix2 n k))) n k
                - (X (Proc.devRef .tc main_v8) : S20000x512.Idx → EReal) (ix2 n k))
              (fun k j => (X (Proc.devRef .tc main_arg9) : S3x512x16.Idx → EReal) (ix3 (2 : Fin 3) k j)) n j) 0 := by
  after_results_simp
  exact rside' (X (Proc.devRef .tc main_v8)) (X (Proc.devRef .tc main_arg9)) (X (Proc.devRef .tc main_v102))
    (X (Proc.devRef .tc main_v1)) (X (Proc.devRef .tc main_v3)) n j

end Cert.Sim

end
-- ==== Proof.Sim.Cheb0.lean ====
/-
  The first Chebyshev layer: the two programs agree, entry by entry.

  The reference forms the recurrence `T₀ = ei`, `T₁ = P ei`, `T₂ = 2 · P T₁ − ei` on the 512 features and projects each term by its own
  16-column weight matrix; the kernel program projects `ei` by the three matrices at once and runs the recurrence on the 16-column
  projections. The propagation `P` acts on the node index and a projection on the feature index, so over the reals they commute, and the
  two results are the same double sum (the law `cheb0` of the Chebyshev algebra). Over the extended reals the law needs every entry
  real: the node features, the edge coefficients and the weights are assumed real. Both programs then take the maximum with zero.
  The same closure properties show that every entry of the result is real.
-/
import proofs.«115122_j13357348290767_2_alg».proof.Proof.Sim.Cheb0K
import proofs.«115122_j13357348290767_2_alg».proof.Proof.Sim.Cheb0R

noncomputable section

namespace Cert.Sim

open Idealize.ShloMosaic Idealize.ShloMosaic.ValueIdx Idealize.ShloMosaic.StableHlo Idealize.ShloMosaic.TcCoe
open Cert.KernelIdeal.Frame Cert.ReferenceIdeal.RValue Cert.ChebMath

/-- Every entry of the kernel program's first Chebyshev layer is real, the inputs being real. -/
theorem h0_isReal (U : VK)
    (rei : ∀ i, IsReal ((U (Proc.devRef .tc Cert.KernelIdeal.main_v11) : Cert.KernelIdeal.S20000x512.Idx → EReal) i))
    (rn : ∀ i, IsReal ((U (Proc.devRef .tc Cert.KernelIdeal.main_v125) : Cert.KernelIdeal.S200000.Idx → EReal) i))
    (rW : ∀ i, IsReal ((U (Proc.devRef .tc Cert.KernelIdeal.main_arg9) : Cert.KernelIdeal.S3x512x16.Idx → EReal) i))
    (i : Cert.KernelIdeal.S20000x16.Idx) :
    IsReal ((StableHlo.after (kc1 (F := Ideal)) U (Proc.devRef .tc Cert.KernelIdeal.main_v185)
      : Cert.KernelIdeal.S20000x16.Idx → EReal) i) := by
  have key : ∀ (n : Fin 20000) (j : Fin 16),
      IsReal ((StableHlo.after (kc1 (F := Ideal)) U (Proc.devRef .tc Cert.KernelIdeal.main_v185)
        : Cert.KernelIdeal.S20000x16.Idx → EReal) (ix2 n j)) := by
    intro n j
    rw [kc1_read]
    have hw : ∀ e, IsReal (edgeW (U (Proc.devRef .tc Cert.KernelIdeal.main_v125)) e) := fun e => rn (ix1 e)
    have he : ∀ (n : Fin 20000) (k : Fin 512),
        IsReal ((U (Proc.devRef .tc Cert.KernelIdeal.main_v11) : Cert.KernelIdeal.S20000x512.Idx → EReal) (ix2 n k)) :=
      fun n k => rei _
    have hW : ∀ (c : Fin 3) (k : Fin 512) (j : Fin 16),
        IsReal ((U (Proc.devRef .tc Cert.KernelIdeal.main_arg9) : Cert.KernelIdeal.S3x512x16.Idx → EReal) (ix3 c k j)) :=
      fun c k j => rW _
    exact isReal_max
      (isReal_add
        (isReal_add (isReal_sub (isReal_mm he (hW 0) n j) (isReal_mm he (hW 2) n j))
          (isReal_prop _ _ hw (isReal_mm he (hW 1)) n j))
        (isReal_mul (isReal_coe 2) (isReal_prop _ _ hw (isReal_prop _ _ hw (isReal_mm he (hW 2))) n j)))
      isReal_zero
  rw [show i = ix2 (i 0) (i 1) from eq_ix2 (n0 := 20000) (n1 := 16) i]
  exact key (i 0) (i 1)

/-- **The first Chebyshev layer agrees**: from equal node features, edge coefficients, edge lists and weights, all real, the
    kernel program's layer output equals the reference's. -/
theorem sim_h0 (U : VK) (X : VR)
    (hei : U (Proc.devRef .tc Cert.KernelIdeal.main_v11) = X (Proc.devRef .tc Cert.ReferenceIdeal.main_v8))
    (hnorm : U (Proc.devRef .tc Cert.KernelIdeal.main_v125) = X (Proc.devRef .tc Cert.ReferenceIdeal.main_v102))
    (hs : U (Proc.devRef .tc Cert.KernelIdeal.main_v1) = X (Proc.devRef .tc Cert.ReferenceIdeal.main_v1))
    (ht : U (Proc.devRef .tc Cert.KernelIdeal.main_v3) = X (Proc.devRef .tc Cert.ReferenceIdeal.main_v3))
    (ha : U (Proc.devRef .tc Cert.KernelIdeal.main_arg9) = X (Proc.devRef .tc Cert.ReferenceIdeal.main_arg9))
    (rei : ∀ i, IsReal ((U (Proc.devRef .tc Cert.KernelIdeal.main_v11) : Cert.KernelIdeal.S20000x512.Idx → EReal) i))
    (rn : ∀ i, IsReal ((U (Proc.devRef .tc Cert.KernelIdeal.main_v125) : Cert.KernelIdeal.S200000.Idx → EReal) i))
    (rW : ∀ i, IsReal ((U (Proc.devRef .tc Cert.KernelIdeal.main_arg9) : Cert.KernelIdeal.S3x512x16.Idx → EReal) i)) :
    StableHlo.after (kc1 (F := Ideal)) U (Proc.devRef .tc Cert.KernelIdeal.main_v185)
      = StableHlo.after (rops11 (F := Ideal)) X (Proc.devRef .tc Cert.ReferenceIdeal.main_v146) := by
  have key : ∀ (n : Fin 20000) (j : Fin 16),
      (StableHlo.after (kc1 (F := Ideal)) U (Proc.devRef .tc Cert.KernelIdeal.main_v185)
          : Cert.KernelIdeal.S20000x16.Idx → EReal) (ix2 n j)
        = (StableHlo.after (rops11 (F := Ideal)) X (Proc.devRef .tc Cert.ReferenceIdeal.main_v146)
          : Cert.ReferenceIdeal.S20000x16.Idx → EReal) (ix2 n j) := by
    intro n j
    rw [kc1_read, rops11_read, ← hei, ← hnorm, ← hs, ← ht, ← ha]
    have hw : ∀ e, IsReal (edgeW (U (Proc.devRef .tc Cert.KernelIdeal.main_v125)) e) := fun e => rn (ix1 e)
    have he : ∀ (n : Fin 20000) (k : Fin 512),
        IsReal ((U (Proc.devRef .tc Cert.KernelIdeal.main_v11) : Cert.KernelIdeal.S20000x512.Idx → EReal) (ix2 n k)) :=
      fun n k => rei _
    have hW : ∀ (c : Fin 3) (k : Fin 512) (j : Fin 16),
        IsReal ((U (Proc.devRef .tc Cert.KernelIdeal.main_arg9) : Cert.KernelIdeal.S3x512x16.Idx → EReal) (ix3 c k j)) :=
      fun c k j => rW _
    exact congrArg (fun v : EReal => max v 0) (cheb0 _ _ rfl hw he (hW 0) (hW 1) (hW 2) n j).symm
  funext i
  rw [show i = ix2 (i 0) (i 1) from eq_ix2 (n0 := 20000) (n1 := 16) i]
  exact key (i 0) (i 1)

/-- Hence every entry of the reference's first Chebyshev layer is real as well. -/
theorem h0_isReal_ref (U : VK) (X : VR)
    (hei : U (Proc.devRef .tc Cert.KernelIdeal.main_v11) = X (Proc.devRef .tc Cert.ReferenceIdeal.main_v8))
    (hnorm : U (Proc.devRef .tc Cert.KernelIdeal.main_v125) = X (Proc.devRef .tc Cert.ReferenceIdeal.main_v102))
    (hs : U (Proc.devRef .tc Cert.KernelIdeal.main_v1) = X (Proc.devRef .tc Cert.ReferenceIdeal.main_v1))
    (ht : U (Proc.devRef .tc Cert.KernelIdeal.main_v3) = X (Proc.devRef .tc Cert.ReferenceIdeal.main_v3))
    (ha : U (Proc.devRef .tc Cert.KernelIdeal.main_arg9) = X (Proc.devRef .tc Cert.ReferenceIdeal.main_arg9))
    (rei : ∀ i, IsReal ((U (Proc.devRef .tc Cert.KernelIdeal.main_v11) : Cert.KernelIdeal.S20000x512.Idx → EReal) i))
    (rn : ∀ i, IsReal ((U (Proc.devRef .tc Cert.KernelIdeal.main_v125) : Cert.KernelIdeal.S200000.Idx → EReal) i))
    (rW : ∀ i, IsReal ((U (Proc.devRef .tc Cert.KernelIdeal.main_arg9) : Cert.KernelIdeal.S3x512x16.Idx → EReal) i))
    (i : Cert.ReferenceIdeal.S20000x16.Idx) :
    IsReal ((StableHlo.after (rops11 (F := Ideal)) X (Proc.devRef .tc Cert.ReferenceIdeal.main_v146)
      : Cert.ReferenceIdeal.S20000x16.Idx → EReal) i) := by
  rw [← sim_h0 U X hei hnorm hs ht ha rei rn rW]
  exact h0_isReal U rei rn rW i

end Cert.Sim

end
-- ==== Proof.Bridge.StageH.lean ====
/- The first Chebyshev layer of the comparison: with equal edge lists, equal node features, equal edge coefficients and
   equal layer weights at the boundaries where they are produced, the two programs hold the same output of the first
   graph-convolution layer. The node features, the edge coefficients and the weights are real, which is what lets the
   propagation be exchanged with the projections. -/
import proofs.«115122_j13357348290767_2_alg».proof.Proof.KI.W
import proofs.«115122_j13357348290767_2_alg».proof.Proof.R.Fold
import proofs.«115122_j13357348290767_2_alg».proof.Proof.Glue.KeepK
import proofs.«115122_j13357348290767_2_alg».proof.Proof.Glue.KeepR
import proofs.«115122_j13357348290767_2_alg».proof.Proof.Sim.Base
import proofs.«115122_j13357348290767_2_alg».proof.Proof.Sim.Cheb0

set_option maxHeartbeats 4000000
set_option maxRecDepth 16384
noncomputable section
namespace Cert.Bridge
open Idealize.ShloMosaic Idealize.ShloMosaic.TcCoe Idealize.SL.Sem
open Cert.KernelIdeal.Frame Cert.ReferenceIdeal.RValue Cert.Glue Cert.Sim Cert.ChebMath

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

theorem st_h0
    (a9 : W0 (F := Ideal) m ρ c (Proc.devRef .tc Cert.KernelIdeal.main_arg9) = RW0 (F := Ideal) m' c (Proc.devRef .tc Cert.ReferenceIdeal.main_arg9))
    (hsrc : W1 (F := Ideal) m ρ c (Proc.devRef .tc Cert.KernelIdeal.main_v1) = RW1 (F := Ideal) m' c (Proc.devRef .tc Cert.ReferenceIdeal.main_v1))
    (htgt : W1 (F := Ideal) m ρ c (Proc.devRef .tc Cert.KernelIdeal.main_v3) = RW1 (F := Ideal) m' c (Proc.devRef .tc Cert.ReferenceIdeal.main_v3))
    (hei : W3 (F := Ideal) m ρ c (Proc.devRef .tc Cert.KernelIdeal.main_v11) = RW2 (F := Ideal) m' c (Proc.devRef .tc Cert.ReferenceIdeal.main_v8))
    (hn : U1 m ρ c (Proc.devRef .tc Cert.KernelIdeal.main_v125) = RW11 (F := Ideal) m' c (Proc.devRef .tc Cert.ReferenceIdeal.main_v102))
    (r_ei : ∀ i, IsReal (RW2 (F := Ideal) m' c (Proc.devRef .tc Cert.ReferenceIdeal.main_v8) i))
    (r_norm : ∀ i, IsReal (RW11 (F := Ideal) m' c (Proc.devRef .tc Cert.ReferenceIdeal.main_v102) i))
    (r_arg9 : ∀ i, IsReal (RW0 (F := Ideal) m' c (Proc.devRef .tc Cert.ReferenceIdeal.main_arg9) i)) :
    U2 m ρ c (Proc.devRef .tc Cert.KernelIdeal.main_v185) = RW12 (F := Ideal) m' c (Proc.devRef .tc Cert.ReferenceIdeal.main_v146) := by
  have e_ei : U1 m ρ c (Proc.devRef .tc Cert.KernelIdeal.main_v11) = RW11 (F := Ideal) m' c (Proc.devRef .tc Cert.ReferenceIdeal.main_v8) :=
    (Cert.Glue.keepK_v11_3_U1 m ρ c).trans (hei.trans (Cert.Glue.keepR_main_v8_2_11 m' c).symm)
  have e_s : U1 m ρ c (Proc.devRef .tc Cert.KernelIdeal.main_v1) = RW11 (F := Ideal) m' c (Proc.devRef .tc Cert.ReferenceIdeal.main_v1) :=
    (Cert.Glue.keepK_v1_1_U1 m ρ c).trans (hsrc.trans (Cert.Glue.keepR_main_v1_1_11 m' c).symm)
  have e_t : U1 m ρ c (Proc.devRef .tc Cert.KernelIdeal.main_v3) = RW11 (F := Ideal) m' c (Proc.devRef .tc Cert.ReferenceIdeal.main_v3) :=
    (Cert.Glue.keepK_v3_1_U1 m ρ c).trans (htgt.trans (Cert.Glue.keepR_main_v3_1_11 m' c).symm)
  have e_a : U1 m ρ c (Proc.devRef .tc Cert.KernelIdeal.main_arg9) = RW11 (F := Ideal) m' c (Proc.devRef .tc Cert.ReferenceIdeal.main_arg9) :=
    (Cert.Glue.keepK_arg9_0_U1 m ρ c).trans (a9.trans (Cert.Glue.keepR_main_arg9_0_11 m' c).symm)
  refine sim_h0 (U1 m ρ c) (RW11 (F := Ideal) m' c) e_ei hn e_s e_t e_a ?_ ?_ ?_
  · intro i
    rw [e_ei, Cert.Glue.keepR_main_v8_2_11 m' c]
    exact r_ei i
  · intro i
    rw [hn]
    exact r_norm i
  · intro i
    rw [e_a, Cert.Glue.keepR_main_arg9_0_11 m' c]
    exact r_arg9 i

end Cert.Bridge
end
-- ==== Proof.Sim.SameNorm.lean ====
/- The symmetric normalisation of the edge weights is the same computation in both programs.

   From an edge weight w : E → F, sources s and targets t (E = 200000 edges, N = 20000 nodes), both programs compute
     deg n  = 0 + ∑_{e : s e = n} w e                      (a scatter-add of w at the sources into zeros),
     dis n  = if deg n > 0 then 1/√(deg n) else 0           (compare, reciprocal root, select),
     norm e = dis (s' e) · w e · dis (t' e)                 (two row gathers and two products),
   where an index x is first wrapped, x' = if x < 0 then x + N else x. The two programs print the same thirty-two
   operations in the same order (the first program in three stretches, the second in one), over buffers that differ
   only in their names; so from equal leaves (w, s, t) the two results are the same composed term. -/
import proofs.«115122_j13357348290767_2_alg».proof.Proof.KI.Chunks
import proofs.«115122_j13357348290767_2_alg».proof.Proof.R.Ops
import Idealize.ShloMosaic.Lib.StableHlo.Run
import Idealize.ShloMosaic.PureOps.Ideal

noncomputable section

namespace Cert.Sim

open Idealize.ShloMosaic Idealize.ShloMosaic.TcCoe Idealize.ShloMosaic.StableHlo Idealize.SL.Sem

/-- The per-edge normalised weight after the first program's three stretches equals the one after the second
    program's chunk, from equal edge weights, sources and targets. -/
theorem sim_norm
    (W : Valuation Cert.KernelIdeal.τ Cert.KernelIdeal.sig (Elt Ideal))
    (X : Valuation Cert.ReferenceIdeal.τ Cert.ReferenceIdeal.sig (Elt Ideal))
    (hew : W (Proc.devRef .tc Cert.KernelIdeal.main_v96) = X (Proc.devRef .tc Cert.ReferenceIdeal.main_v73))
    (hs : W (Proc.devRef .tc Cert.KernelIdeal.main_v1) = X (Proc.devRef .tc Cert.ReferenceIdeal.main_v1))
    (ht : W (Proc.devRef .tc Cert.KernelIdeal.main_v3) = X (Proc.devRef .tc Cert.ReferenceIdeal.main_v3)) :
    StableHlo.after (Cert.KernelIdeal.Frame.kc0 (F := Ideal))
        (StableHlo.after (Cert.KernelIdeal.Gen.hostOps4_1 (F := Ideal))
          (StableHlo.after (Cert.KernelIdeal.Gen.hostOps4 (F := Ideal)) W))
        (Proc.devRef .tc Cert.KernelIdeal.main_v125)
      = StableHlo.after (Cert.ReferenceIdeal.RValue.rops10 (F := Ideal)) X (Proc.devRef .tc Cert.ReferenceIdeal.main_v102) := by
  -- both folds opened to the composed terms of their operations over the leaves
  after_results_simp
  -- the leaves are equal; what remains is one term against the same term printed under the other program's names
  rw [hew, hs, ht]
  rfl

end Cert.Sim
end
-- ==== Proof.Sim.Layer1.lean ====
/- Chebyshev layer 1 of width 16 is the same sequence of operations in both programs: two propagations along the
   edges (gather at the source, scale by the edge coefficient, scatter-add at the target, negate), the three-term
   recurrence, three small matrix products, a rectifier, and the concatenation onto the running feature block.
   From equal inputs it therefore yields equal outputs. -/
import proofs.«115122_j13357348290767_2_alg».proof.Proof.KI.Chunks
import proofs.«115122_j13357348290767_2_alg».proof.Proof.R.Ops
import proofs.«115122_j13357348290767_2_alg».proof.Proof.Sim.Base

noncomputable section
namespace Cert.Sim
open Idealize.ShloMosaic Idealize.ShloMosaic.TcCoe Idealize.ShloMosaic.StableHlo
open Cert.KernelIdeal.Gen Cert.KernelIdeal.Frame Cert.ReferenceIdeal.RValue

set_option maxRecDepth 16384 in
set_option maxHeartbeats 4000000 in
theorem sim_layer1 (W : VK) (X : VR)
    (hh : W (Proc.devRef .tc Cert.KernelIdeal.main_v185) = X (Proc.devRef .tc Cert.ReferenceIdeal.main_v146))
    (hn : W (Proc.devRef .tc Cert.KernelIdeal.main_v125) = X (Proc.devRef .tc Cert.ReferenceIdeal.main_v102))
    (hs : W (Proc.devRef .tc Cert.KernelIdeal.main_v1) = X (Proc.devRef .tc Cert.ReferenceIdeal.main_v1))
    (ht : W (Proc.devRef .tc Cert.KernelIdeal.main_v3) = X (Proc.devRef .tc Cert.ReferenceIdeal.main_v3))
    (ha : W (Proc.devRef .tc Cert.KernelIdeal.main_arg10) = X (Proc.devRef .tc Cert.ReferenceIdeal.main_arg10)) :
    StableHlo.after (kc2 (F := Ideal)) W (Proc.devRef .tc Cert.KernelIdeal.main_v229)
        = StableHlo.after (rops12 (F := Ideal)) X (Proc.devRef .tc Cert.ReferenceIdeal.main_v190)
      ∧ StableHlo.after (kc2 (F := Ideal)) W (Proc.devRef .tc Cert.KernelIdeal.main_v230)
        = StableHlo.after (rops12 (F := Ideal)) X (Proc.devRef .tc Cert.ReferenceIdeal.main_v191) := by
  refine ⟨?_, ?_⟩
  · after_results_simp
    rw [hh, hn, hs, ht, ha]
    rfl
  · after_results_simp
    refine concat_congr _ _ _ _ _ _ _ ?_ ?_
    · after_results_simp
      exact hh
    · after_results_simp
      rw [hh, hn, hs, ht, ha]
      rfl

end Cert.Sim
end
-- ==== Proof.Sim.Layer2.lean ====
/- Chebyshev layer 2 of width 16 is the same sequence of operations in both programs: two propagations along the
   edges (gather at the source, scale by the edge coefficient, scatter-add at the target, negate), the three-term
   recurrence, three small matrix products, a rectifier, and the concatenation onto the running feature block.
   From equal inputs it therefore yields equal outputs. -/
import proofs.«115122_j13357348290767_2_alg».proof.Proof.KI.Chunks
import proofs.«115122_j13357348290767_2_alg».proof.Proof.R.Ops
import proofs.«115122_j13357348290767_2_alg».proof.Proof.Sim.Base

noncomputable section
namespace Cert.Sim
open Idealize.ShloMosaic Idealize.ShloMosaic.TcCoe Idealize.ShloMosaic.StableHlo
open Cert.KernelIdeal.Gen Cert.KernelIdeal.Frame Cert.ReferenceIdeal.RValue

set_option maxRecDepth 16384 in
set_option maxHeartbeats 4000000 in
theorem sim_layer2 (W : VK) (X : VR)
    (hh : W (Proc.devRef .tc Cert.KernelIdeal.main_v229) = X (Proc.devRef .tc Cert.ReferenceIdeal.main_v190))
    (hj : W (Proc.devRef .tc Cert.KernelIdeal.main_v230) = X (Proc.devRef .tc Cert.ReferenceIdeal.main_v191))
    (hn : W (Proc.devRef .tc Cert.KernelIdeal.main_v125) = X (Proc.devRef .tc Cert.ReferenceIdeal.main_v102))
    (hs : W (Proc.devRef .tc Cert.KernelIdeal.main_v1) = X (Proc.devRef .tc Cert.ReferenceIdeal.main_v1))
    (ht : W (Proc.devRef .tc Cert.KernelIdeal.main_v3) = X (Proc.devRef .tc Cert.ReferenceIdeal.main_v3))
    (ha : W (Proc.devRef .tc Cert.KernelIdeal.main_arg11) = X (Proc.devRef .tc Cert.ReferenceIdeal.main_arg11)) :
    StableHlo.after (kc3 (F := Ideal)) W (Proc.devRef .tc Cert.KernelIdeal.main_v274)
        = StableHlo.after (rops13 (F := Ideal)) X (Proc.devRef .tc Cert.ReferenceIdeal.main_v235)
      ∧ StableHlo.after (kc3 (F := Ideal)) W (Proc.devRef .tc Cert.KernelIdeal.main_v275)
        = StableHlo.after (rops13 (F := Ideal)) X (Proc.devRef .tc Cert.ReferenceIdeal.main_v236) := by
  refine ⟨?_, ?_⟩
  · after_results_simp
    rw [hh, hn, hs, ht, ha]
    rfl
  · after_results_simp
    refine concat_congr _ _ _ _ _ _ _ ?_ ?_
    · after_results_simp
      exact hj
    · after_results_simp
      rw [hh, hn, hs, ht, ha]
      rfl

end Cert.Sim
end
-- ==== Proof.Sim.Layer3.lean ====
/- Chebyshev layer 3 of width 16 is the same sequence of operations in both programs: two propagations along the
   edges (gather at the source, scale by the edge coefficient, scatter-add at the target, negate), the three-term
   recurrence, three small matrix products, a rectifier, and the concatenation onto the running feature block.
   From equal inputs it therefore yields equal outputs. -/
import proofs.«115122_j13357348290767_2_alg».proof.Proof.KI.Chunks
import proofs.«115122_j13357348290767_2_alg».proof.Proof.R.Ops
import proofs.«115122_j13357348290767_2_alg».proof.Proof.Sim.Base

noncomputable section
namespace Cert.Sim
open Idealize.ShloMosaic Idealize.ShloMosaic.TcCoe Idealize.ShloMosaic.StableHlo
open Cert.KernelIdeal.Gen Cert.KernelIdeal.Frame Cert.ReferenceIdeal.RValue

set_option maxRecDepth 16384 in
set_option maxHeartbeats 4000000 in
theorem sim_layer3 (W : VK) (X : VR)
    (hh : W (Proc.devRef .tc Cert.KernelIdeal.main_v274) = X (Proc.devRef .tc Cert.ReferenceIdeal.main_v235))
    (hj : W (Proc.devRef .tc Cert.KernelIdeal.main_v275) = X (Proc.devRef .tc Cert.ReferenceIdeal.main_v236))
    (hn : W (Proc.devRef .tc Cert.KernelIdeal.main_v125) = X (Proc.devRef .tc Cert.ReferenceIdeal.main_v102))
    (hs : W (Proc.devRef .tc Cert.KernelIdeal.main_v1) = X (Proc.devRef .tc Cert.ReferenceIdeal.main_v1))
    (ht : W (Proc.devRef .tc Cert.KernelIdeal.main_v3) = X (Proc.devRef .tc Cert.ReferenceIdeal.main_v3))
    (ha : W (Proc.devRef .tc Cert.KernelIdeal.main_arg12) = X (Proc.devRef .tc Cert.ReferenceIdeal.main_arg12)) :
    StableHlo.after (kc4 (F := Ideal)) W (Proc.devRef .tc Cert.KernelIdeal.main_v319)
        = StableHlo.after (rops14 (F := Ideal)) X (Proc.devRef .tc Cert.ReferenceIdeal.main_v280)
      ∧ StableHlo.after (kc4 (F := Ideal)) W (Proc.devRef .tc Cert.KernelIdeal.main_v320)
        = StableHlo.after (rops14 (F := Ideal)) X (Proc.devRef .tc Cert.ReferenceIdeal.main_v281) := by
  refine ⟨?_, ?_⟩
  · after_results_simp
    rw [hh, hn, hs, ht, ha]
    rfl
  · after_results_simp
    refine concat_congr _ _ _ _ _ _ _ ?_ ?_
    · after_results_simp
      exact hj
    · after_results_simp
      rw [hh, hn, hs, ht, ha]
      rfl

end Cert.Sim
end
-- ==== Proof.Bridge.StageL.lean ====
/- The middle of the comparison: from equal edge weights the two programs hold the same per-edge coefficient of the
   normalised Laplacian, and from equal first-layer activations the three later Chebyshev layers and the running
   concatenation of their outputs agree. -/
import proofs.«115122_j13357348290767_2_alg».proof.Proof.KI.W
import proofs.«115122_j13357348290767_2_alg».proof.Proof.R.Fold
import proofs.«115122_j13357348290767_2_alg».proof.Proof.Glue.KeepK
import proofs.«115122_j13357348290767_2_alg».proof.Proof.Glue.KeepR
import proofs.«115122_j13357348290767_2_alg».proof.Proof.Sim.Base
import proofs.«115122_j13357348290767_2_alg».proof.Proof.Sim.SameNorm
import proofs.«115122_j13357348290767_2_alg».proof.Proof.Sim.Layer1
import proofs.«115122_j13357348290767_2_alg».proof.Proof.Sim.Layer2
import proofs.«115122_j13357348290767_2_alg».proof.Proof.Sim.Layer3

set_option maxHeartbeats 4000000
set_option maxRecDepth 16384
noncomputable section
namespace Cert.Bridge
open Idealize.ShloMosaic Idealize.ShloMosaic.TcCoe Idealize.SL.Sem
open Cert.KernelIdeal.Frame Cert.ReferenceIdeal.RValue Cert.Glue Cert.Sim

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

theorem st_norm (hsrc : W1 (F := Ideal) m ρ c (Proc.devRef .tc Cert.KernelIdeal.main_v1) = RW1 (F := Ideal) m' c (Proc.devRef .tc Cert.ReferenceIdeal.main_v1))
    (htgt : W1 (F := Ideal) m ρ c (Proc.devRef .tc Cert.KernelIdeal.main_v3) = RW1 (F := Ideal) m' c (Proc.devRef .tc Cert.ReferenceIdeal.main_v3))
    (hew : W7 (F := Ideal) m ρ c (Proc.devRef .tc Cert.KernelIdeal.main_v96) = RW9 (F := Ideal) m' c (Proc.devRef .tc Cert.ReferenceIdeal.main_v73)) :
    U1 m ρ c (Proc.devRef .tc Cert.KernelIdeal.main_v125) = RW11 (F := Ideal) m' c (Proc.devRef .tc Cert.ReferenceIdeal.main_v102) :=
  sim_norm (W8 (F := Ideal) m ρ c) (RW10 (F := Ideal) m' c)
    ((Cert.Glue.keepK_v96_7_8 m ρ c).trans ((hew).trans (Cert.Glue.keepR_main_v73_9_10 m' c).symm))
    ((Cert.Glue.keepK_v1_1_8 m ρ c).trans ((hsrc).trans (Cert.Glue.keepR_main_v1_1_10 m' c).symm))
    ((Cert.Glue.keepK_v3_1_8 m ρ c).trans ((htgt).trans (Cert.Glue.keepR_main_v3_1_10 m' c).symm))

theorem st_l1 (a10 : W0 (F := Ideal) m ρ c (Proc.devRef .tc Cert.KernelIdeal.main_arg10) = RW0 (F := Ideal) m' c (Proc.devRef .tc Cert.ReferenceIdeal.main_arg10)) (hsrc : W1 (F := Ideal) m ρ c (Proc.devRef .tc Cert.KernelIdeal.main_v1) = RW1 (F := Ideal) m' c (Proc.devRef .tc Cert.ReferenceIdeal.main_v1))
    (htgt : W1 (F := Ideal) m ρ c (Proc.devRef .tc Cert.KernelIdeal.main_v3) = RW1 (F := Ideal) m' c (Proc.devRef .tc Cert.ReferenceIdeal.main_v3))
    (hn : U1 m ρ c (Proc.devRef .tc Cert.KernelIdeal.main_v125) = RW11 (F := Ideal) m' c (Proc.devRef .tc Cert.ReferenceIdeal.main_v102))
    (hh : U2 m ρ c (Proc.devRef .tc Cert.KernelIdeal.main_v185) = RW12 (F := Ideal) m' c (Proc.devRef .tc Cert.ReferenceIdeal.main_v146)) :
    U3 m ρ c (Proc.devRef .tc Cert.KernelIdeal.main_v229) = RW13 (F := Ideal) m' c (Proc.devRef .tc Cert.ReferenceIdeal.main_v190)
    ∧ U3 m ρ c (Proc.devRef .tc Cert.KernelIdeal.main_v230) = RW13 (F := Ideal) m' c (Proc.devRef .tc Cert.ReferenceIdeal.main_v191) :=
  sim_layer1 (U2 m ρ c) (RW12 (F := Ideal) m' c) hh
    ((Cert.Glue.keepK_v125_U1_U2 m ρ c).trans ((hn).trans (Cert.Glue.keepR_main_v102_11_12 m' c).symm))
    ((Cert.Glue.keepK_v1_1_U2 m ρ c).trans ((hsrc).trans (Cert.Glue.keepR_main_v1_1_12 m' c).symm))
    ((Cert.Glue.keepK_v3_1_U2 m ρ c).trans ((htgt).trans (Cert.Glue.keepR_main_v3_1_12 m' c).symm))
    ((Cert.Glue.keepK_arg10_0_U2 m ρ c).trans ((a10).trans (Cert.Glue.keepR_main_arg10_0_12 m' c).symm))

theorem st_l2 (a11 : W0 (F := Ideal) m ρ c (Proc.devRef .tc Cert.KernelIdeal.main_arg11) = RW0 (F := Ideal) m' c (Proc.devRef .tc Cert.ReferenceIdeal.main_arg11)) (hsrc : W1 (F := Ideal) m ρ c (Proc.devRef .tc Cert.KernelIdeal.main_v1) = RW1 (F := Ideal) m' c (Proc.devRef .tc Cert.ReferenceIdeal.main_v1))
    (htgt : W1 (F := Ideal) m ρ c (Proc.devRef .tc Cert.KernelIdeal.main_v3) = RW1 (F := Ideal) m' c (Proc.devRef .tc Cert.ReferenceIdeal.main_v3))
    (hn : U1 m ρ c (Proc.devRef .tc Cert.KernelIdeal.main_v125) = RW11 (F := Ideal) m' c (Proc.devRef .tc Cert.ReferenceIdeal.main_v102))
    (hh : U3 m ρ c (Proc.devRef .tc Cert.KernelIdeal.main_v229) = RW13 (F := Ideal) m' c (Proc.devRef .tc Cert.ReferenceIdeal.main_v190))
    (hj : U3 m ρ c (Proc.devRef .tc Cert.KernelIdeal.main_v230) = RW13 (F := Ideal) m' c (Proc.devRef .tc Cert.ReferenceIdeal.main_v191)) :
    U4 m ρ c (Proc.devRef .tc Cert.KernelIdeal.main_v274) = RW14 (F := Ideal) m' c (Proc.devRef .tc Cert.ReferenceIdeal.main_v235)
    ∧ U4 m ρ c (Proc.devRef .tc Cert.KernelIdeal.main_v275) = RW14 (F := Ideal) m' c (Proc.devRef .tc Cert.ReferenceIdeal.main_v236) :=
  sim_layer2 (U3 m ρ c) (RW13 (F := Ideal) m' c) hh hj
    ((Cert.Glue.keepK_v125_U1_U3 m ρ c).trans ((hn).trans (Cert.Glue.keepR_main_v102_11_13 m' c).symm))
    ((Cert.Glue.keepK_v1_1_U3 m ρ c).trans ((hsrc).trans (Cert.Glue.keepR_main_v1_1_13 m' c).symm))
    ((Cert.Glue.keepK_v3_1_U3 m ρ c).trans ((htgt).trans (Cert.Glue.keepR_main_v3_1_13 m' c).symm))
    ((Cert.Glue.keepK_arg11_0_U3 m ρ c).trans ((a11).trans (Cert.Glue.keepR_main_arg11_0_13 m' c).symm))

theorem st_l3 (a12 : W0 (F := Ideal) m ρ c (Proc.devRef .tc Cert.KernelIdeal.main_arg12) = RW0 (F := Ideal) m' c (Proc.devRef .tc Cert.ReferenceIdeal.main_arg12)) (hsrc : W1 (F := Ideal) m ρ c (Proc.devRef .tc Cert.KernelIdeal.main_v1) = RW1 (F := Ideal) m' c (Proc.devRef .tc Cert.ReferenceIdeal.main_v1))
    (htgt : W1 (F := Ideal) m ρ c (Proc.devRef .tc Cert.KernelIdeal.main_v3) = RW1 (F := Ideal) m' c (Proc.devRef .tc Cert.ReferenceIdeal.main_v3))
    (hn : U1 m ρ c (Proc.devRef .tc Cert.KernelIdeal.main_v125) = RW11 (F := Ideal) m' c (Proc.devRef .tc Cert.ReferenceIdeal.main_v102))
    (hh : U4 m ρ c (Proc.devRef .tc Cert.KernelIdeal.main_v274) = RW14 (F := Ideal) m' c (Proc.devRef .tc Cert.ReferenceIdeal.main_v235))
    (hj : U4 m ρ c (Proc.devRef .tc Cert.KernelIdeal.main_v275) = RW14 (F := Ideal) m' c (Proc.devRef .tc Cert.ReferenceIdeal.main_v236)) :
    U5 m ρ c (Proc.devRef .tc Cert.KernelIdeal.main_v319) = RW15 (F := Ideal) m' c (Proc.devRef .tc Cert.ReferenceIdeal.main_v280)
    ∧ U5 m ρ c (Proc.devRef .tc Cert.KernelIdeal.main_v320) = RW15 (F := Ideal) m' c (Proc.devRef .tc Cert.ReferenceIdeal.main_v281) :=
  sim_layer3 (U4 m ρ c) (RW14 (F := Ideal) m' c) hh hj
    ((Cert.Glue.keepK_v125_U1_U4 m ρ c).trans ((hn).trans (Cert.Glue.keepR_main_v102_11_14 m' c).symm))
    ((Cert.Glue.keepK_v1_1_U4 m ρ c).trans ((hsrc).trans (Cert.Glue.keepR_main_v1_1_14 m' c).symm))
    ((Cert.Glue.keepK_v3_1_U4 m ρ c).trans ((htgt).trans (Cert.Glue.keepR_main_v3_1_14 m' c).symm))
    ((Cert.Glue.keepK_arg12_0_U4 m ρ c).trans ((a12).trans (Cert.Glue.keepR_main_arg12_0_14 m' c).symm))

end Cert.Bridge
end
-- ==== Proof.Sim.Tails.lean ====
/- The second, narrow linear layer of each classification head is a host matrix product with a bias in both programs:
   from equal hidden activations and equal weights it yields equal logits. -/
import proofs.«115122_j13357348290767_2_alg».proof.Proof.Gen.KernelIdeal.Launch
import proofs.«115122_j13357348290767_2_alg».proof.Proof.R.Ops
import proofs.«115122_j13357348290767_2_alg».proof.Proof.Sim.Base

noncomputable section
namespace Cert.Sim
open Idealize.ShloMosaic Idealize.ShloMosaic.TcCoe Idealize.ShloMosaic.StableHlo
open Cert.KernelIdeal.Gen Cert.ReferenceIdeal.RValue

set_option maxRecDepth 16384 in
set_option maxHeartbeats 4000000 in
theorem sim_out0 (W : VK) (X : VR)
    (hz : W (Proc.devRef .tc Cert.KernelIdeal.main_v325) = X (Proc.devRef .tc Cert.ReferenceIdeal.main_v290))
    (ha : W (Proc.devRef .tc Cert.KernelIdeal.main_arg15) = X (Proc.devRef .tc Cert.ReferenceIdeal.main_arg15))
    (hb : W (Proc.devRef .tc Cert.KernelIdeal.main_arg16) = X (Proc.devRef .tc Cert.ReferenceIdeal.main_arg16)) :
    StableHlo.after (hostOps5 (F := Ideal)) W (Proc.devRef .tc Cert.KernelIdeal.main_v330)
        = StableHlo.after (rops16 (F := Ideal)) X (Proc.devRef .tc Cert.ReferenceIdeal.main_v295) := by
  after_results_simp
  rw [hz, ha, hb]
  rfl

set_option maxRecDepth 16384 in
set_option maxHeartbeats 4000000 in
theorem sim_out1 (W : VK) (X : VR)
    (hz : W (Proc.devRef .tc Cert.KernelIdeal.main_v335) = X (Proc.devRef .tc Cert.ReferenceIdeal.main_v304))
    (ha : W (Proc.devRef .tc Cert.KernelIdeal.main_arg19) = X (Proc.devRef .tc Cert.ReferenceIdeal.main_arg19))
    (hb : W (Proc.devRef .tc Cert.KernelIdeal.main_arg20) = X (Proc.devRef .tc Cert.ReferenceIdeal.main_arg20)) :
    StableHlo.after (hostOps6 (F := Ideal)) W (Proc.devRef .tc Cert.KernelIdeal.main_v340)
        = StableHlo.after (rops18 (F := Ideal)) X (Proc.devRef .tc Cert.ReferenceIdeal.main_v309) := by
  after_results_simp
  rw [hz, ha, hb]
  rfl

end Cert.Sim
end
-- ==== Proof.Bridge.StageT.lean ====
/- The last steps of the comparison: from equal hidden activations of the two classification heads the two programs
   produce the same logits. -/
import proofs.«115122_j13357348290767_2_alg».proof.Proof.KI.W
import proofs.«115122_j13357348290767_2_alg».proof.Proof.R.Fold
import proofs.«115122_j13357348290767_2_alg».proof.Proof.Glue.KeepK
import proofs.«115122_j13357348290767_2_alg».proof.Proof.Glue.KeepR
import proofs.«115122_j13357348290767_2_alg».proof.Proof.Sim.Base
import proofs.«115122_j13357348290767_2_alg».proof.Proof.Sim.Tails

set_option maxHeartbeats 4000000
set_option maxRecDepth 16384
noncomputable section
namespace Cert.Bridge
open Idealize.ShloMosaic Idealize.ShloMosaic.TcCoe Idealize.SL.Sem
open Cert.KernelIdeal.Frame Cert.ReferenceIdeal.RValue Cert.Glue Cert.Sim

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

theorem st_out0 (a15 : W0 (F := Ideal) m ρ c (Proc.devRef .tc Cert.KernelIdeal.main_arg15) = RW0 (F := Ideal) m' c (Proc.devRef .tc Cert.ReferenceIdeal.main_arg15)) (a16 : W0 (F := Ideal) m ρ c (Proc.devRef .tc Cert.KernelIdeal.main_arg16) = RW0 (F := Ideal) m' c (Proc.devRef .tc Cert.ReferenceIdeal.main_arg16)) (hz : W12 (F := Ideal) m ρ c (Proc.devRef .tc Cert.KernelIdeal.main_v325) = RW16 (F := Ideal) m' c (Proc.devRef .tc Cert.ReferenceIdeal.main_v290)) :
    W13 (F := Ideal) m ρ c (Proc.devRef .tc Cert.KernelIdeal.main_v330) = RW17 (F := Ideal) m' c (Proc.devRef .tc Cert.ReferenceIdeal.main_v295) :=
  sim_out0 (W12 (F := Ideal) m ρ c) (RW16 (F := Ideal) m' c) hz ((Cert.Glue.keepK_arg15_0_12 m ρ c).trans ((a15).trans (Cert.Glue.keepR_main_arg15_0_16 m' c).symm)) ((Cert.Glue.keepK_arg16_0_12 m ρ c).trans ((a16).trans (Cert.Glue.keepR_main_arg16_0_16 m' c).symm))

theorem st_out1 (a19 : W0 (F := Ideal) m ρ c (Proc.devRef .tc Cert.KernelIdeal.main_arg19) = RW0 (F := Ideal) m' c (Proc.devRef .tc Cert.ReferenceIdeal.main_arg19)) (a20 : W0 (F := Ideal) m ρ c (Proc.devRef .tc Cert.KernelIdeal.main_arg20) = RW0 (F := Ideal) m' c (Proc.devRef .tc Cert.ReferenceIdeal.main_arg20)) (hz : W14 (F := Ideal) m ρ c (Proc.devRef .tc Cert.KernelIdeal.main_v335) = RW18 (F := Ideal) m' c (Proc.devRef .tc Cert.ReferenceIdeal.main_v304)) :
    W15 (F := Ideal) m ρ c (Proc.devRef .tc Cert.KernelIdeal.main_v340) = RW19 (F := Ideal) m' c (Proc.devRef .tc Cert.ReferenceIdeal.main_v309) :=
  sim_out1 (W14 (F := Ideal) m ρ c) (RW18 (F := Ideal) m' c) hz ((Cert.Glue.keepK_arg19_0_14 m ρ c).trans ((a19).trans (Cert.Glue.keepR_main_arg19_0_18 m' c).symm)) ((Cert.Glue.keepK_arg20_0_14 m ρ c).trans ((a20).trans (Cert.Glue.keepR_main_arg20_0_18 m' c).symm))

end Cert.Bridge
end
-- ==== Proof.Sim.DenseReal.lean ====
/- The reference program's dense layers are real-valued on real inputs.

   A dense layer is a matrix product of the input with a transposed weight matrix plus a bias broadcast over the rows; the hidden
   layers of the edge-feature parser follow it by max(·, 0) and a multiplication by a constant. Every operation involved keeps
   real numbers real:
     * a transpose, a slice and a broadcast read their operand at some index, so they are real everywhere the operand is;
     * an entry of a matrix product is a finite sum of products of an entry of each operand;
     * a sum, a maximum and a product of two reals are reals;
     * the two constants that occur, the single-precision words 0x00000000 and 0x3F7FFFAC, denote reals (their exponent field is
       not all ones).
   Hence, from real arguments, the two node embeddings (ei, es), the two hidden activations of the parser and its two outputs
   are real at every index. No bound on the inputs is needed: over the extended reals only an infinity can break these laws. -/
import proofs.«115122_j13357348290767_2_alg».proof.Proof.R.Ops
import proofs.«115122_j13357348290767_2_alg».proof.Proof.Math.Cheb
import proofs.«115122_j13357348290767_2_alg».proof.Proof.LibAttentionLaws
import Idealize.ShloMosaic.Lib.StableHlo.Run
import Idealize.ShloMosaic.PureOps.Ideal
import Idealize.ShloMosaic.PureOps.Ideal.Laws

noncomputable section

namespace Cert.Sim

open Idealize.ShloMosaic Idealize.ShloMosaic.TcCoe Idealize.ShloMosaic.StableHlo Idealize.SL.Sem
open Cert.ChebMath
open scoped BigOperators

namespace DenseReal

/-! ### Realness through each kind of operation -/

variable {s t : Shape}

/-- A transpose is real everywhere its operand is. -/
theorem isReal_transpose {perm : List (Fin s.rank)} {x : s.Idx → EReal} {hT : s.Transposes perm t}
    (h : ∀ i, IsReal (x i)) : ∀ j, IsReal (transpose t perm x hT j) := fun j => by
  unfold transpose
  exact h _

/-- A slice is real everywhere its operand is. -/
theorem isReal_slice {off : Fin s.rank → Nat} {x : s.Idx → EReal} {hS : s.Slices off t}
    (h : ∀ i, IsReal (x i)) : ∀ j, IsReal (extractStridedSlice t off x hS j) := fun j => by
  unfold extractStridedSlice
  exact h _

/-- A broadcast is real everywhere its operand is. -/
theorem isReal_broadcast {dims : Fin s.rank → Fin t.rank} {x : s.Idx → EReal} {hB : s.BroadcastsInDim t dims}
    (h : ∀ i, IsReal (x i)) : ∀ j, IsReal (broadcastInDim t dims hB x j) := fun j => by
  unfold broadcastInDim
  exact h _

/-- A constant whose single-precision word has an exponent field that is not all ones is real. -/
theorem isReal_constant (b : BitVec 32) (hb : (b.extractLsb' 23 8).toNat ≠ 255) :
    ∀ i, IsReal (constant (F := Ideal) s .f32 b i) := fun _ => AttentionLaws.ofBits_f32_real b hb

/-- A sum of two vectors is real where both are. -/
theorem isReal_addf {a b : FVec Ideal s .f32} (ha : ∀ i, IsReal (a i)) (hb : ∀ i, IsReal (b i)) :
    ∀ i, IsReal (addf a b i) := fun i => by
  show IsReal (a i + b i)
  exact isReal_add (ha i) (hb i)

/-- A maximum of two vectors is real where both are. -/
theorem isReal_maximumf {a b : FVec Ideal s .f32} (ha : ∀ i, IsReal (a i)) (hb : ∀ i, IsReal (b i)) :
    ∀ i, IsReal (maximumf a b i) := fun i => by
  show IsReal (max (a i) (b i))
  exact isReal_max (ha i) (hb i)

/-- A product of two vectors is real where both are. -/
theorem isReal_mulf {a b : FVec Ideal s .f32} (ha : ∀ i, IsReal (a i)) (hb : ∀ i, IsReal (b i)) :
    ∀ i, IsReal (mulf a b i) := fun i => by
  show IsReal (a i * b i)
  exact isReal_mul (ha i) (hb i)

/-- A contraction is real when both operands are real everywhere: each entry is a finite sum of products. -/
theorem isReal_dotGeneral {sl sr so : Shape} {d : DotDims sl sr so} {prec : Option ContractPrecision}
    {l : FVec Ideal sl .f32} {r : FVec Ideal sr .f32} (hl : ∀ i, IsReal (l i)) (hr : ∀ i, IsReal (r i)) :
    ∀ j, IsReal (Host.dotGeneral (F := Ideal) d prec l r j) := fun j => by
  show IsReal (FloatOps.dotGeneral d prec .single l r j)
  rw [Ideal.dotGeneral_apply]
  exact isReal_sum _ _ fun k _ => isReal_mul (hl _) (hr _)

end DenseReal

/-! ### The dense layers of the reference program -/

section Chunks
open Cert.ReferenceIdeal Cert.ReferenceIdeal.RValue DenseReal

variable (X : Valuation Cert.ReferenceIdeal.τ Cert.ReferenceIdeal.sig (Elt Ideal))

/-- The first node embedding (features times the first weight matrix, plus its bias) is real on real arguments. -/
theorem ei_isReal (h0 : ∀ i, IsReal (X (Proc.devRef .tc main_arg0) i)) (h3 : ∀ i, IsReal (X (Proc.devRef .tc main_arg3) i))
    (h4 : ∀ i, IsReal (X (Proc.devRef .tc main_arg4) i)) :
    ∀ i, IsReal (StableHlo.after (rops1 (F := Ideal)) X (Proc.devRef .tc main_v8) i) := by
  intro i
  after_results_simp
  exact isReal_addf (isReal_dotGeneral h0 (isReal_transpose h3)) (isReal_broadcast (isReal_broadcast h4)) i

/-- The second node embedding is real on real arguments. -/
theorem es_isReal (h0 : ∀ i, IsReal (X (Proc.devRef .tc main_arg0) i)) (h5 : ∀ i, IsReal (X (Proc.devRef .tc main_arg5) i))
    (h6 : ∀ i, IsReal (X (Proc.devRef .tc main_arg6) i)) :
    ∀ i, IsReal (StableHlo.after (rops1 (F := Ideal)) X (Proc.devRef .tc main_v13) i) := by
  intro i
  after_results_simp
  exact isReal_addf (isReal_dotGeneral h0 (isReal_transpose h5)) (isReal_broadcast (isReal_broadcast h6)) i

/-- The parser's hidden activation on the first half of the edge features is real on real arguments. -/
theorem hA_isReal (h2 : ∀ i, IsReal (X (Proc.devRef .tc main_arg2) i)) (h21 : ∀ i, IsReal (X (Proc.devRef .tc main_arg21) i))
    (h22 : ∀ i, IsReal (X (Proc.devRef .tc main_arg22) i)) :
    ∀ i, IsReal (StableHlo.after (rops2 (F := Ideal)) X (Proc.devRef .tc main_v23) i) := by
  intro i
  after_results_simp
  exact isReal_mulf
    (isReal_maximumf
      (isReal_addf (isReal_dotGeneral (isReal_slice h2) (isReal_transpose h21)) (isReal_broadcast (isReal_broadcast h22)))
      (isReal_broadcast (isReal_constant _ (by decide))))
    (isReal_broadcast (isReal_constant _ (by decide))) i

/-- The parser's output on the first half is real when its hidden activation and the arguments are. -/
theorem pA_isReal (hh : ∀ i, IsReal (X (Proc.devRef .tc main_v23) i)) (h23 : ∀ i, IsReal (X (Proc.devRef .tc main_arg23) i))
    (h24 : ∀ i, IsReal (X (Proc.devRef .tc main_arg24) i)) :
    ∀ i, IsReal (StableHlo.after (rops3 (F := Ideal)) X (Proc.devRef .tc main_v28) i) := by
  intro i
  after_results_simp
  exact isReal_addf (isReal_dotGeneral hh (isReal_transpose h23)) (isReal_broadcast (isReal_broadcast h24)) i

/-- The parser's hidden activation on the second half of the edge features is real on real arguments. -/
theorem hB_isReal (h2 : ∀ i, IsReal (X (Proc.devRef .tc main_arg2) i)) (h21 : ∀ i, IsReal (X (Proc.devRef .tc main_arg21) i))
    (h22 : ∀ i, IsReal (X (Proc.devRef .tc main_arg22) i)) :
    ∀ i, IsReal (StableHlo.after (rops5 (F := Ideal)) X (Proc.devRef .tc main_v46) i) := by
  intro i
  after_results_simp
  exact isReal_mulf
    (isReal_maximumf
      (isReal_addf (isReal_dotGeneral (isReal_slice h2) (isReal_transpose h21)) (isReal_broadcast (isReal_broadcast h22)))
      (isReal_broadcast (isReal_constant _ (by decide))))
    (isReal_broadcast (isReal_constant _ (by decide))) i

/-- The parser's output on the second half is real when its hidden activation and the arguments are. -/
theorem pB_isReal (hh : ∀ i, IsReal (X (Proc.devRef .tc main_v46) i)) (h23 : ∀ i, IsReal (X (Proc.devRef .tc main_arg23) i))
    (h24 : ∀ i, IsReal (X (Proc.devRef .tc main_arg24) i)) :
    ∀ i, IsReal (StableHlo.after (rops6 (F := Ideal)) X (Proc.devRef .tc main_v51) i) := by
  intro i
  after_results_simp
  exact isReal_addf (isReal_dotGeneral hh (isReal_transpose h23)) (isReal_broadcast (isReal_broadcast h24)) i

end Chunks

end Cert.Sim
end
-- ==== Proof.Sim.NormReal.lean ====
/- The symmetrically normalised edge weight is real-valued.

   From a weight w : E → F on the edges, sources s and targets t (E = 200000 edges, N = 20000 nodes) the program computes
     deg n  = 0 + ∑_{e : s e = n} w e                   (a scatter-add of w at the sources into zeros),
     dis n  = if deg n > 0 then 1/√(deg n) else 0        (compare, reciprocal root, select),
     norm e = dis (s' e) · w e · dis (t' e)              (two gathers and two products; an index x is first wrapped,
                                                          x' = if x < 0 then x + N else x, and the gather clamps it).
   If every w e is a real number then every norm e is:
     * deg n is 0 plus a finite sum of reals, a real (no positivity of w is needed);
     * dis n is the reciprocal root of a POSITIVE real where the comparison holds, a real, and 0 elsewhere: the corner of
       the reciprocal root (1/√0 = +∞) and its junk value at a negative argument are never selected;
     * a gather reads its operand at some index, whichever it is, so it is real where the operand is real everywhere;
     * a product of reals is a real.
   The proof first states the thirty-two operations' result as one closed term over the three leaves (norm_closed), then
   reads realness off that term. -/
import proofs.«115122_j13357348290767_2_alg».proof.Proof.R.Ops
import proofs.«115122_j13357348290767_2_alg».proof.Proof.Math.RealOps
import proofs.«115122_j13357348290767_2_alg».proof.Proof.LibAttentionLaws
import Idealize.ShloMosaic.Lib.StableHlo.Run
import Idealize.ShloMosaic.PureOps.Ideal

noncomputable section

namespace Cert.Sim

open Idealize.ShloMosaic Idealize.ShloMosaic.TcCoe Idealize.ShloMosaic.StableHlo Idealize.SL.Sem
open Cert.ChebMath
open scoped BigOperators

namespace NormReal

/-! ### Realness through each kind of operation -/

/-- The single-precision pattern of all zero bits denotes the real number 0. -/
theorem ofBits_f32_zero : Ideal.ofBits .f32 0x00000000#32 = 0 := by simp [Ideal.ofBits, Ideal.ieee]

/-- A product of two vectors is real at an index where both factors are. -/
theorem isReal_mulf {s : Shape} (a b : FVec Ideal s .f32) (i : s.Idx) (ha : IsReal (a i)) (hb : IsReal (b i)) :
    IsReal (mulf a b i) := by
  show IsReal (a i * b i)
  exact isReal_mul ha hb

/-- A gather reads its operand at some index: it is real wherever the operand is real everywhere. -/
theorem isReal_gather {s si t : Shape} {w : Nat} (d : GatherDims s si t) (x : s.Idx → EReal) (idx : IVec si w)
    (h : ∀ n, IsReal (x n)) (j : t.Idx) : IsReal (Host.gather d x idx j) := by
  unfold Host.gather
  exact h _

/-- A scatter-add is real at an entry where the operand is real, when every update is real: the operand's entry plus a
    finite sum of updates. -/
theorem isReal_scatterAdd {s si su : Shape} {w : Nat} (d : ScatterDims s si su) (z : FVec Ideal s .f32) (idx : IVec si w)
    (u : FVec Ideal su .f32) (n : s.Idx) (hz : IsReal (z n)) (hu : ∀ v, IsReal (u v)) :
    IsReal (Host.scatterAdd d z idx u n) := by
  show IsReal (Ideal.hostScatterAdd d z idx u n)
  unfold Ideal.hostScatterAdd
  exact isReal_add hz (isReal_sum _ _ fun v _ => hu v)

/-- "x > 0 ? 1/√x : z" is real at an entry where x is real, the compared vector is 0 and z is real. -/
theorem isReal_where_rsqrt {s : Shape} (x c z : FVec Ideal s .f32) (n : s.Idx) (hx : IsReal (x n)) (hc : c n = 0)
    (hz : IsReal (z n)) : IsReal (select (cmpf .ogt x c) (Host.rsqrt x) z n) := by
  obtain ⟨r, hr⟩ := hx
  show IsReal (Scalar.select (Ideal.cmp .ogt (x n) (c n)) (Ideal.rsqrt (x n)) (z n))
  rw [hc, hr, AttentionLaws.select_cmp_ogt_zero]
  split_ifs with h
  · exact isReal_rsqrt rfl h
  · exact hz

/-! ### The chunk's result as one term over its leaves -/

section Closed
open Cert.ReferenceIdeal Cert.ReferenceIdeal.Gen

variable {F : FTy → Type} [FloatOps F]

/-- The vector of N zeros. -/
abbrev zerosN : (⟨S20000, .f32⟩ : BufTy).Contents (Elt F) :=
  broadcastInDim S20000 ![] bcast_S_S20000 (constant (F := F) S_ .f32 0x00000000#32)

/-- The weighted out-degree: the edge weights added up at their sources, from zeros. -/
abbrev deg (src : (⟨S200000, .i32⟩ : BufTy).Contents (Elt F)) (ew : (⟨S200000, .f32⟩ : BufTy).Contents (Elt F)) :
    (⟨S20000, .f32⟩ : BufTy).Contents (Elt F) :=
  Host.scatterAdd (F := F) (φ := .f32) scatter_S20000_S200000x1_S200000_n_0_0_1 (zerosN (F := F))
    (broadcastInDim S200000x1 ![0] bcast_S200000_S200000x1_0 src) ew

/-- The reciprocal root of the degree where the degree is positive, 0 elsewhere. -/
abbrev dis (src : (⟨S200000, .i32⟩ : BufTy).Contents (Elt F)) (ew : (⟨S200000, .f32⟩ : BufTy).Contents (Elt F)) :
    (⟨S20000, .f32⟩ : BufTy).Contents (Elt F) :=
  select (cmpf (F := F) (φ := .f32) .ogt (deg src ew) (zerosN (F := F))) (Host.rsqrt (F := F) (φ := .f32) (deg src ew))
    (zerosN (F := F))

/-- An index vector wrapped (x < 0 ? x + N : x) and made a column of start indices. -/
abbrev wrapCol (x : (⟨S200000, .i32⟩ : BufTy).Contents (Elt F)) : (⟨S200000x1, .i32⟩ : BufTy).Contents (Elt F) :=
  broadcastInDim S200000x1 ![0] bcast_S200000_S200000x1_0
    (select (cmpi .slt x (broadcastInDim S200000 ![] bcast_S_S200000 (constantI S_ 32 0#32)))
      (addi x (broadcastInDim S200000 ![] bcast_S_S200000 (constantI S_ 32 20000#32))) x)

/-- The normalised weight: dis at the source, times the weight, times dis at the target. -/
abbrev norm (src tgt : (⟨S200000, .i32⟩ : BufTy).Contents (Elt F)) (ew : (⟨S200000, .f32⟩ : BufTy).Contents (Elt F)) :
    (⟨S200000, .f32⟩ : BufTy).Contents (Elt F) :=
  mulf (F := F) (φ := .f32)
    (mulf (F := F) (φ := .f32) (Host.gather gather_S20000_S200000x1_S200000_n_0_n_n_0_1_1 (dis src ew) (wrapCol (F := F) src)) ew)
    (Host.gather gather_S20000_S200000x1_S200000_n_0_n_n_0_1_1 (dis src ew) (wrapCol (F := F) tgt))

set_option maxRecDepth 8192 in
/-- What the chunk leaves in its last buffer: the normalised weight of the three leaves. Stated for any float values: the
    operations are then opaque, and the two sides differ only by the identity transports around the inlined selection. -/
theorem norm_closed (X : Valuation Cert.ReferenceIdeal.τ Cert.ReferenceIdeal.sig (Elt F)) :
    StableHlo.after (Cert.ReferenceIdeal.RValue.rops10 (F := F)) X (Proc.devRef .tc main_v102)
      = norm (F := F) (X (Proc.devRef .tc main_v1)) (X (Proc.devRef .tc main_v3)) (X (Proc.devRef .tc main_v73)) := by
  after_results_simp
  rfl

/-- Every entry of the zero vector is 0. -/
theorem zerosN_apply (n : S20000.Idx) : zerosN (F := Ideal) n = 0 := ofBits_f32_zero

/-- The degree is real when the weights are. -/
theorem deg_isReal (src : (⟨S200000, .i32⟩ : BufTy).Contents (Elt Ideal)) (ew : (⟨S200000, .f32⟩ : BufTy).Contents (Elt Ideal))
    (hew : ∀ i, IsReal (ew i)) (n : S20000.Idx) : IsReal (deg (F := Ideal) src ew n) :=
  isReal_scatterAdd _ _ _ _ n (by rw [zerosN_apply]; exact isReal_zero) hew

/-- The reciprocal root of the degree, guarded, is real when the weights are. -/
theorem dis_isReal (src : (⟨S200000, .i32⟩ : BufTy).Contents (Elt Ideal)) (ew : (⟨S200000, .f32⟩ : BufTy).Contents (Elt Ideal))
    (hew : ∀ i, IsReal (ew i)) (n : S20000.Idx) : IsReal (dis (F := Ideal) src ew n) :=
  isReal_where_rsqrt _ _ _ n (deg_isReal src ew hew n) (zerosN_apply n) (by rw [zerosN_apply]; exact isReal_zero)

/-- The normalised weight is real when the weights are. -/
theorem norm_term_isReal (src tgt : (⟨S200000, .i32⟩ : BufTy).Contents (Elt Ideal))
    (ew : (⟨S200000, .f32⟩ : BufTy).Contents (Elt Ideal)) (hew : ∀ i, IsReal (ew i)) (i : S200000.Idx) :
    IsReal (norm (F := Ideal) src tgt ew i) :=
  isReal_mulf _ _ i (isReal_mulf _ _ i (isReal_gather _ _ _ (dis_isReal src ew hew) i) (hew i))
    (isReal_gather _ _ _ (dis_isReal src ew hew) i)

end Closed

end NormReal

/-- After the chunk that normalises the edge weights, every normalised weight is a real number, provided every edge weight
    before it is. -/
theorem norm_isReal (X : Valuation Cert.ReferenceIdeal.τ Cert.ReferenceIdeal.sig (Elt Ideal))
    (hew : ∀ i, IsReal (X (Proc.devRef .tc Cert.ReferenceIdeal.main_v73) i)) :
    ∀ i, IsReal (StableHlo.after (Cert.ReferenceIdeal.RValue.rops10 (F := Ideal)) X
      (Proc.devRef .tc Cert.ReferenceIdeal.main_v102) i) := by
  intro i
  rw [NormReal.norm_closed (F := Ideal)]
  exact NormReal.norm_term_isReal _ _ _ hew i

end Cert.Sim
end
-- ==== Proof.Sim.FeatReal.lean ====
/- The two feature matrices of the edge weight are real where their pieces are.

   For every edge e the second program joins the 128 parser features of the edge with the 512 embedding features of one of its
   end nodes: h (e, k) is the parser output at (e, k) for k < 128 and the embedding at (row e, k − 128) for k ≥ 128, where row e
   is the node the gather reads. Each entry of h is therefore an entry of one of the two pieces, whichever the edge and the
   node are; so h is real at every index as soon as the parser output and the embedding are. -/
import proofs.«115122_j13357348290767_2_alg».proof.Proof.Sim.EdgeWeightRef
import proofs.«115122_j13357348290767_2_alg».proof.Proof.Math.Cheb

noncomputable section

namespace Cert.Sim

open Idealize.ShloMosaic Idealize.ShloMosaic.TcCoe Idealize.ShloMosaic.StableHlo Idealize.ShloMosaic.ValueIdx
open Cert.ReferenceIdeal.RValue Cert.ChebMath

/-- The first feature matrix is real when the first parser output and the second embedding are. -/
theorem h1_isReal (X : VR) (hp : ∀ i, IsReal (X (Proc.devRef .tc Cert.ReferenceIdeal.main_v28) i))
    (hes : ∀ i, IsReal (X (Proc.devRef .tc Cert.ReferenceIdeal.main_v13) i)) :
    ∀ i, IsReal (StableHlo.after (rops4 (F := Ideal)) X (Proc.devRef .tc Cert.ReferenceIdeal.main_v36) i) := by
  intro (i : (⟨2, ![200000, 640]⟩ : Shape).Idx)
  obtain ⟨e, k, rfl⟩ : ∃ (e : Fin 200000) (k : Fin 640), i = ix2 e k := ⟨i 0, i 1, eq_ix2 i⟩
  rw [R_h1 X e k]
  split
  · exact hp _
  · exact hes _

/-- The second feature matrix is real when the second parser output and the second embedding are. -/
theorem h2_isReal (X : VR) (hp : ∀ i, IsReal (X (Proc.devRef .tc Cert.ReferenceIdeal.main_v51) i))
    (hes : ∀ i, IsReal (X (Proc.devRef .tc Cert.ReferenceIdeal.main_v13) i)) :
    ∀ i, IsReal (StableHlo.after (rops7 (F := Ideal)) X (Proc.devRef .tc Cert.ReferenceIdeal.main_v59) i) := by
  intro (i : (⟨2, ![200000, 640]⟩ : Shape).Idx)
  obtain ⟨e, k, rfl⟩ : ∃ (e : Fin 200000) (k : Fin 640), i = ix2 e k := ⟨i 0, i 1, eq_ix2 i⟩
  rw [R_h2 X e k]
  split
  · exact hp _
  · exact hes _

end Cert.Sim
end
-- ==== Proof.Bridge.StageReal.lean ====
/- Every float value on the way to the normalised edge weights is a real number.

   Suppose every entry of the float arguments the second program reads up to that point is a real number at its launch
   contents (the precondition gives this for the first program's arguments, which are the same arrays). Realness is then
   carried forward along the second program's run, one group of operations at a time:
     * the arguments are never written, so they are real at every later point of the run;
     * the two node embeddings ei, es and the two outputs pA, pB of the edge-feature parser: dense layers of reals;
     * the two feature matrices h1, h2: each entry is an entry of pA (resp. pB) or of es;
     * the edge weight: a cosine-like quotient of sums of products of entries of h1 and h2, real because its divisor is
       clipped below at a positive constant;
     * the symmetrically normalised weight: the weight times reciprocal roots of positive degrees (or zeros).
   Realness is what licenses, further on, the ring laws (distributivity, exchange of finite sums) that fail at the infinities
   of the extended reals. Each statement lists exactly the arguments it depends on. -/
import proofs.«115122_j13357348290767_2_alg».proof.Proof.R.Fold
import proofs.«115122_j13357348290767_2_alg».proof.Proof.Glue.KeepR
import proofs.«115122_j13357348290767_2_alg».proof.Proof.Sim.DenseReal
import proofs.«115122_j13357348290767_2_alg».proof.Proof.Sim.NormReal
import proofs.«115122_j13357348290767_2_alg».proof.Proof.Sim.FeatReal
import proofs.«115122_j13357348290767_2_alg».proof.Proof.Sim.EdgeWeightRefRead

noncomputable section
namespace Cert.Bridge
open Idealize.ShloMosaic Idealize.ShloMosaic.TcCoe Idealize.SL.Sem
open Cert.ReferenceIdeal.RValue Cert.Glue Cert.Sim Cert.ChebMath

variable (m' : (ℓ : Loc Cert.ReferenceIdeal.nD Cert.ReferenceIdeal.τ Cert.ReferenceIdeal.sig) → Buf (Elt Ideal) ℓ)
  (c : Dev Cert.ReferenceIdeal.nD)

/-! ### The node embeddings -/

/-- The first node embedding is real. -/
theorem real_ei
    (r0 : ∀ i, IsReal (RW0 (F := Ideal) m' c (Proc.devRef .tc Cert.ReferenceIdeal.main_arg0) i))
    (r3 : ∀ i, IsReal (RW0 (F := Ideal) m' c (Proc.devRef .tc Cert.ReferenceIdeal.main_arg3) i))
    (r4 : ∀ i, IsReal (RW0 (F := Ideal) m' c (Proc.devRef .tc Cert.ReferenceIdeal.main_arg4) i)) :
    ∀ i, IsReal (RW2 (F := Ideal) m' c (Proc.devRef .tc Cert.ReferenceIdeal.main_v8) i) :=
  ei_isReal (RW1 (F := Ideal) m' c) (fun i => by rw [keepR_main_arg0_0_1 m' c]; exact r0 i) (fun i => by rw [keepR_main_arg3_0_1 m' c]; exact r3 i) (fun i => by rw [keepR_main_arg4_0_1 m' c]; exact r4 i)

/-- The second node embedding is real. -/
theorem real_es
    (r0 : ∀ i, IsReal (RW0 (F := Ideal) m' c (Proc.devRef .tc Cert.ReferenceIdeal.main_arg0) i))
    (r5 : ∀ i, IsReal (RW0 (F := Ideal) m' c (Proc.devRef .tc Cert.ReferenceIdeal.main_arg5) i))
    (r6 : ∀ i, IsReal (RW0 (F := Ideal) m' c (Proc.devRef .tc Cert.ReferenceIdeal.main_arg6) i)) :
    ∀ i, IsReal (RW2 (F := Ideal) m' c (Proc.devRef .tc Cert.ReferenceIdeal.main_v13) i) :=
  es_isReal (RW1 (F := Ideal) m' c) (fun i => by rw [keepR_main_arg0_0_1 m' c]; exact r0 i) (fun i => by rw [keepR_main_arg5_0_1 m' c]; exact r5 i) (fun i => by rw [keepR_main_arg6_0_1 m' c]; exact r6 i)

/-! ### The edge-feature parser, on each half of the edge features -/

/-- The hidden activation on the first half is real. -/
theorem real_hA
    (r2 : ∀ i, IsReal (RW0 (F := Ideal) m' c (Proc.devRef .tc Cert.ReferenceIdeal.main_arg2) i))
    (r21 : ∀ i, IsReal (RW0 (F := Ideal) m' c (Proc.devRef .tc Cert.ReferenceIdeal.main_arg21) i))
    (r22 : ∀ i, IsReal (RW0 (F := Ideal) m' c (Proc.devRef .tc Cert.ReferenceIdeal.main_arg22) i)) :
    ∀ i, IsReal (RW3 (F := Ideal) m' c (Proc.devRef .tc Cert.ReferenceIdeal.main_v23) i) :=
  hA_isReal (RW2 (F := Ideal) m' c) (fun i => by rw [keepR_main_arg2_0_2 m' c]; exact r2 i) (fun i => by rw [keepR_main_arg21_0_2 m' c]; exact r21 i) (fun i => by rw [keepR_main_arg22_0_2 m' c]; exact r22 i)

/-- The parser's output on the first half is real. -/
theorem real_pA
    (r2 : ∀ i, IsReal (RW0 (F := Ideal) m' c (Proc.devRef .tc Cert.ReferenceIdeal.main_arg2) i))
    (r21 : ∀ i, IsReal (RW0 (F := Ideal) m' c (Proc.devRef .tc Cert.ReferenceIdeal.main_arg21) i))
    (r22 : ∀ i, IsReal (RW0 (F := Ideal) m' c (Proc.devRef .tc Cert.ReferenceIdeal.main_arg22) i))
    (r23 : ∀ i, IsReal (RW0 (F := Ideal) m' c (Proc.devRef .tc Cert.ReferenceIdeal.main_arg23) i))
    (r24 : ∀ i, IsReal (RW0 (F := Ideal) m' c (Proc.devRef .tc Cert.ReferenceIdeal.main_arg24) i)) :
    ∀ i, IsReal (RW4 (F := Ideal) m' c (Proc.devRef .tc Cert.ReferenceIdeal.main_v28) i) :=
  pA_isReal (RW3 (F := Ideal) m' c) (real_hA m' c r2 r21 r22) (fun i => by rw [keepR_main_arg23_0_3 m' c]; exact r23 i) (fun i => by rw [keepR_main_arg24_0_3 m' c]; exact r24 i)

/-- The hidden activation on the second half is real. -/
theorem real_hB
    (r2 : ∀ i, IsReal (RW0 (F := Ideal) m' c (Proc.devRef .tc Cert.ReferenceIdeal.main_arg2) i))
    (r21 : ∀ i, IsReal (RW0 (F := Ideal) m' c (Proc.devRef .tc Cert.ReferenceIdeal.main_arg21) i))
    (r22 : ∀ i, IsReal (RW0 (F := Ideal) m' c (Proc.devRef .tc Cert.ReferenceIdeal.main_arg22) i)) :
    ∀ i, IsReal (RW6 (F := Ideal) m' c (Proc.devRef .tc Cert.ReferenceIdeal.main_v46) i) :=
  hB_isReal (RW5 (F := Ideal) m' c) (fun i => by rw [keepR_main_arg2_0_5 m' c]; exact r2 i) (fun i => by rw [keepR_main_arg21_0_5 m' c]; exact r21 i) (fun i => by rw [keepR_main_arg22_0_5 m' c]; exact r22 i)

/-- The parser's output on the second half is real. -/
theorem real_pB
    (r2 : ∀ i, IsReal (RW0 (F := Ideal) m' c (Proc.devRef .tc Cert.ReferenceIdeal.main_arg2) i))
    (r21 : ∀ i, IsReal (RW0 (F := Ideal) m' c (Proc.devRef .tc Cert.ReferenceIdeal.main_arg21) i))
    (r22 : ∀ i, IsReal (RW0 (F := Ideal) m' c (Proc.devRef .tc Cert.ReferenceIdeal.main_arg22) i))
    (r23 : ∀ i, IsReal (RW0 (F := Ideal) m' c (Proc.devRef .tc Cert.ReferenceIdeal.main_arg23) i))
    (r24 : ∀ i, IsReal (RW0 (F := Ideal) m' c (Proc.devRef .tc Cert.ReferenceIdeal.main_arg24) i)) :
    ∀ i, IsReal (RW7 (F := Ideal) m' c (Proc.devRef .tc Cert.ReferenceIdeal.main_v51) i) :=
  pB_isReal (RW6 (F := Ideal) m' c) (real_hB m' c r2 r21 r22) (fun i => by rw [keepR_main_arg23_0_6 m' c]; exact r23 i) (fun i => by rw [keepR_main_arg24_0_6 m' c]; exact r24 i)

/-! ### The two feature matrices: parser output beside a gathered node embedding -/

/-- The first feature matrix is real: each entry is an entry of the first parser output or of the second embedding. -/
theorem real_h1
    (r0 : ∀ i, IsReal (RW0 (F := Ideal) m' c (Proc.devRef .tc Cert.ReferenceIdeal.main_arg0) i))
    (r2 : ∀ i, IsReal (RW0 (F := Ideal) m' c (Proc.devRef .tc Cert.ReferenceIdeal.main_arg2) i))
    (r5 : ∀ i, IsReal (RW0 (F := Ideal) m' c (Proc.devRef .tc Cert.ReferenceIdeal.main_arg5) i))
    (r6 : ∀ i, IsReal (RW0 (F := Ideal) m' c (Proc.devRef .tc Cert.ReferenceIdeal.main_arg6) i))
    (r21 : ∀ i, IsReal (RW0 (F := Ideal) m' c (Proc.devRef .tc Cert.ReferenceIdeal.main_arg21) i))
    (r22 : ∀ i, IsReal (RW0 (F := Ideal) m' c (Proc.devRef .tc Cert.ReferenceIdeal.main_arg22) i))
    (r23 : ∀ i, IsReal (RW0 (F := Ideal) m' c (Proc.devRef .tc Cert.ReferenceIdeal.main_arg23) i))
    (r24 : ∀ i, IsReal (RW0 (F := Ideal) m' c (Proc.devRef .tc Cert.ReferenceIdeal.main_arg24) i)) :
    ∀ i, IsReal (RW8 (F := Ideal) m' c (Proc.devRef .tc Cert.ReferenceIdeal.main_v36) i) := by
  intro i
  rw [keepR_main_v36_5_8 m' c]
  exact h1_isReal (RW4 (F := Ideal) m' c) (real_pA m' c r2 r21 r22 r23 r24)
    (fun j => by rw [keepR_main_v13_2_4 m' c]; exact real_es m' c r0 r5 r6 j) i

/-- The second feature matrix is real: each entry is an entry of the second parser output or of the second embedding. -/
theorem real_h2
    (r0 : ∀ i, IsReal (RW0 (F := Ideal) m' c (Proc.devRef .tc Cert.ReferenceIdeal.main_arg0) i))
    (r2 : ∀ i, IsReal (RW0 (F := Ideal) m' c (Proc.devRef .tc Cert.ReferenceIdeal.main_arg2) i))
    (r5 : ∀ i, IsReal (RW0 (F := Ideal) m' c (Proc.devRef .tc Cert.ReferenceIdeal.main_arg5) i))
    (r6 : ∀ i, IsReal (RW0 (F := Ideal) m' c (Proc.devRef .tc Cert.ReferenceIdeal.main_arg6) i))
    (r21 : ∀ i, IsReal (RW0 (F := Ideal) m' c (Proc.devRef .tc Cert.ReferenceIdeal.main_arg21) i))
    (r22 : ∀ i, IsReal (RW0 (F := Ideal) m' c (Proc.devRef .tc Cert.ReferenceIdeal.main_arg22) i))
    (r23 : ∀ i, IsReal (RW0 (F := Ideal) m' c (Proc.devRef .tc Cert.ReferenceIdeal.main_arg23) i))
    (r24 : ∀ i, IsReal (RW0 (F := Ideal) m' c (Proc.devRef .tc Cert.ReferenceIdeal.main_arg24) i)) :
    ∀ i, IsReal (RW8 (F := Ideal) m' c (Proc.devRef .tc Cert.ReferenceIdeal.main_v59) i) :=
  h2_isReal (RW7 (F := Ideal) m' c) (real_pB m' c r2 r21 r22 r23 r24)
    (fun j => by rw [keepR_main_v13_2_7 m' c]; exact real_es m' c r0 r5 r6 j)

/-! ### The edge weight and its normalisation -/

/-- The edge weight is real. -/
theorem real_ew
    (r0 : ∀ i, IsReal (RW0 (F := Ideal) m' c (Proc.devRef .tc Cert.ReferenceIdeal.main_arg0) i))
    (r2 : ∀ i, IsReal (RW0 (F := Ideal) m' c (Proc.devRef .tc Cert.ReferenceIdeal.main_arg2) i))
    (r5 : ∀ i, IsReal (RW0 (F := Ideal) m' c (Proc.devRef .tc Cert.ReferenceIdeal.main_arg5) i))
    (r6 : ∀ i, IsReal (RW0 (F := Ideal) m' c (Proc.devRef .tc Cert.ReferenceIdeal.main_arg6) i))
    (r21 : ∀ i, IsReal (RW0 (F := Ideal) m' c (Proc.devRef .tc Cert.ReferenceIdeal.main_arg21) i))
    (r22 : ∀ i, IsReal (RW0 (F := Ideal) m' c (Proc.devRef .tc Cert.ReferenceIdeal.main_arg22) i))
    (r23 : ∀ i, IsReal (RW0 (F := Ideal) m' c (Proc.devRef .tc Cert.ReferenceIdeal.main_arg23) i))
    (r24 : ∀ i, IsReal (RW0 (F := Ideal) m' c (Proc.devRef .tc Cert.ReferenceIdeal.main_arg24) i)) :
    ∀ i, IsReal (RW9 (F := Ideal) m' c (Proc.devRef .tc Cert.ReferenceIdeal.main_v73) i) :=
  fun i => ew_isReal (RW8 (F := Ideal) m' c) (real_h1 m' c r0 r2 r5 r6 r21 r22 r23 r24) (real_h2 m' c r0 r2 r5 r6 r21 r22 r23 r24) i

/-- The symmetrically normalised edge weight is real. -/
theorem real_norm
    (r0 : ∀ i, IsReal (RW0 (F := Ideal) m' c (Proc.devRef .tc Cert.ReferenceIdeal.main_arg0) i))
    (r2 : ∀ i, IsReal (RW0 (F := Ideal) m' c (Proc.devRef .tc Cert.ReferenceIdeal.main_arg2) i))
    (r5 : ∀ i, IsReal (RW0 (F := Ideal) m' c (Proc.devRef .tc Cert.ReferenceIdeal.main_arg5) i))
    (r6 : ∀ i, IsReal (RW0 (F := Ideal) m' c (Proc.devRef .tc Cert.ReferenceIdeal.main_arg6) i))
    (r21 : ∀ i, IsReal (RW0 (F := Ideal) m' c (Proc.devRef .tc Cert.ReferenceIdeal.main_arg21) i))
    (r22 : ∀ i, IsReal (RW0 (F := Ideal) m' c (Proc.devRef .tc Cert.ReferenceIdeal.main_arg22) i))
    (r23 : ∀ i, IsReal (RW0 (F := Ideal) m' c (Proc.devRef .tc Cert.ReferenceIdeal.main_arg23) i))
    (r24 : ∀ i, IsReal (RW0 (F := Ideal) m' c (Proc.devRef .tc Cert.ReferenceIdeal.main_arg24) i)) :
    ∀ i, IsReal (RW11 (F := Ideal) m' c (Proc.devRef .tc Cert.ReferenceIdeal.main_v102) i) :=
  norm_isReal (RW10 (F := Ideal) m' c)
    (fun i => by rw [keepR_main_v73_9_10 m' c]; exact real_ew m' c r0 r2 r5 r6 r21 r22 r23 r24 i)

end Cert.Bridge
end
-- ==== Proof.Bridge.Values.lean ====
/- The whole comparison, chained: from launch contents that agree on the arguments and real-valued float inputs, the
   kernel's four results at its return are the reference's four results at its return. Order of the chain: edge lists;
   encoder halves; first parser layer; second parser layer; edge weights; reconstruction; Laplacian coefficients; first
   Chebyshev layer (the one step that uses realness); the three later layers; the two classification heads. -/
import proofs.«115122_j13357348290767_2_alg».proof.Proof.KI.W
import proofs.«115122_j13357348290767_2_alg».proof.Proof.R.Fold
import proofs.«115122_j13357348290767_2_alg».proof.Proof.Glue.KeepK
import proofs.«115122_j13357348290767_2_alg».proof.Proof.Glue.KeepR
import proofs.«115122_j13357348290767_2_alg».proof.Proof.Sim.Base
import proofs.«115122_j13357348290767_2_alg».proof.Proof.Math.Cheb
import proofs.«115122_j13357348290767_2_alg».proof.Proof.Bridge.StageA
import proofs.«115122_j13357348290767_2_alg».proof.Proof.Bridge.StageB
import proofs.«115122_j13357348290767_2_alg».proof.Proof.Bridge.StageP
import proofs.«115122_j13357348290767_2_alg».proof.Proof.Bridge.StageD
import proofs.«115122_j13357348290767_2_alg».proof.Proof.Bridge.StageE
import proofs.«115122_j13357348290767_2_alg».proof.Proof.Bridge.StageH
import proofs.«115122_j13357348290767_2_alg».proof.Proof.Bridge.StageL
import proofs.«115122_j13357348290767_2_alg».proof.Proof.Bridge.StageT
import proofs.«115122_j13357348290767_2_alg».proof.Proof.Bridge.StageReal

set_option maxHeartbeats 4000000
set_option maxRecDepth 16384
noncomputable section
namespace Cert.Bridge
open Idealize.ShloMosaic Idealize.ShloMosaic.TcCoe Idealize.SL.Sem
open Cert.KernelIdeal.Frame Cert.ReferenceIdeal.RValue Cert.Glue Cert.Sim

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

theorem value_eqs
    (a0 : W0 (F := Ideal) m ρ c (Proc.devRef .tc Cert.KernelIdeal.main_arg0) = RW0 (F := Ideal) m' c (Proc.devRef .tc Cert.ReferenceIdeal.main_arg0))
    (a1 : W0 (F := Ideal) m ρ c (Proc.devRef .tc Cert.KernelIdeal.main_arg1) = RW0 (F := Ideal) m' c (Proc.devRef .tc Cert.ReferenceIdeal.main_arg1))
    (a2 : W0 (F := Ideal) m ρ c (Proc.devRef .tc Cert.KernelIdeal.main_arg2) = RW0 (F := Ideal) m' c (Proc.devRef .tc Cert.ReferenceIdeal.main_arg2))
    (a3 : W0 (F := Ideal) m ρ c (Proc.devRef .tc Cert.KernelIdeal.main_arg3) = RW0 (F := Ideal) m' c (Proc.devRef .tc Cert.ReferenceIdeal.main_arg3))
    (a4 : W0 (F := Ideal) m ρ c (Proc.devRef .tc Cert.KernelIdeal.main_arg4) = RW0 (F := Ideal) m' c (Proc.devRef .tc Cert.ReferenceIdeal.main_arg4))
    (a5 : W0 (F := Ideal) m ρ c (Proc.devRef .tc Cert.KernelIdeal.main_arg5) = RW0 (F := Ideal) m' c (Proc.devRef .tc Cert.ReferenceIdeal.main_arg5))
    (a6 : W0 (F := Ideal) m ρ c (Proc.devRef .tc Cert.KernelIdeal.main_arg6) = RW0 (F := Ideal) m' c (Proc.devRef .tc Cert.ReferenceIdeal.main_arg6))
    (a7 : W0 (F := Ideal) m ρ c (Proc.devRef .tc Cert.KernelIdeal.main_arg7) = RW0 (F := Ideal) m' c (Proc.devRef .tc Cert.ReferenceIdeal.main_arg7))
    (a8 : W0 (F := Ideal) m ρ c (Proc.devRef .tc Cert.KernelIdeal.main_arg8) = RW0 (F := Ideal) m' c (Proc.devRef .tc Cert.ReferenceIdeal.main_arg8))
    (a9 : W0 (F := Ideal) m ρ c (Proc.devRef .tc Cert.KernelIdeal.main_arg9) = RW0 (F := Ideal) m' c (Proc.devRef .tc Cert.ReferenceIdeal.main_arg9))
    (a10 : W0 (F := Ideal) m ρ c (Proc.devRef .tc Cert.KernelIdeal.main_arg10) = RW0 (F := Ideal) m' c (Proc.devRef .tc Cert.ReferenceIdeal.main_arg10))
    (a11 : W0 (F := Ideal) m ρ c (Proc.devRef .tc Cert.KernelIdeal.main_arg11) = RW0 (F := Ideal) m' c (Proc.devRef .tc Cert.ReferenceIdeal.main_arg11))
    (a12 : W0 (F := Ideal) m ρ c (Proc.devRef .tc Cert.KernelIdeal.main_arg12) = RW0 (F := Ideal) m' c (Proc.devRef .tc Cert.ReferenceIdeal.main_arg12))
    (a13 : W0 (F := Ideal) m ρ c (Proc.devRef .tc Cert.KernelIdeal.main_arg13) = RW0 (F := Ideal) m' c (Proc.devRef .tc Cert.ReferenceIdeal.main_arg13))
    (a14 : W0 (F := Ideal) m ρ c (Proc.devRef .tc Cert.KernelIdeal.main_arg14) = RW0 (F := Ideal) m' c (Proc.devRef .tc Cert.ReferenceIdeal.main_arg14))
    (a15 : W0 (F := Ideal) m ρ c (Proc.devRef .tc Cert.KernelIdeal.main_arg15) = RW0 (F := Ideal) m' c (Proc.devRef .tc Cert.ReferenceIdeal.main_arg15))
    (a16 : W0 (F := Ideal) m ρ c (Proc.devRef .tc Cert.KernelIdeal.main_arg16) = RW0 (F := Ideal) m' c (Proc.devRef .tc Cert.ReferenceIdeal.main_arg16))
    (a17 : W0 (F := Ideal) m ρ c (Proc.devRef .tc Cert.KernelIdeal.main_arg17) = RW0 (F := Ideal) m' c (Proc.devRef .tc Cert.ReferenceIdeal.main_arg17))
    (a18 : W0 (F := Ideal) m ρ c (Proc.devRef .tc Cert.KernelIdeal.main_arg18) = RW0 (F := Ideal) m' c (Proc.devRef .tc Cert.ReferenceIdeal.main_arg18))
    (a19 : W0 (F := Ideal) m ρ c (Proc.devRef .tc Cert.KernelIdeal.main_arg19) = RW0 (F := Ideal) m' c (Proc.devRef .tc Cert.ReferenceIdeal.main_arg19))
    (a20 : W0 (F := Ideal) m ρ c (Proc.devRef .tc Cert.KernelIdeal.main_arg20) = RW0 (F := Ideal) m' c (Proc.devRef .tc Cert.ReferenceIdeal.main_arg20))
    (a21 : W0 (F := Ideal) m ρ c (Proc.devRef .tc Cert.KernelIdeal.main_arg21) = RW0 (F := Ideal) m' c (Proc.devRef .tc Cert.ReferenceIdeal.main_arg21))
    (a22 : W0 (F := Ideal) m ρ c (Proc.devRef .tc Cert.KernelIdeal.main_arg22) = RW0 (F := Ideal) m' c (Proc.devRef .tc Cert.ReferenceIdeal.main_arg22))
    (a23 : W0 (F := Ideal) m ρ c (Proc.devRef .tc Cert.KernelIdeal.main_arg23) = RW0 (F := Ideal) m' c (Proc.devRef .tc Cert.ReferenceIdeal.main_arg23))
    (a24 : W0 (F := Ideal) m ρ c (Proc.devRef .tc Cert.KernelIdeal.main_arg24) = RW0 (F := Ideal) m' c (Proc.devRef .tc Cert.ReferenceIdeal.main_arg24))
    (r0 : ∀ i, Cert.ChebMath.IsReal (RW0 (F := Ideal) m' c (Proc.devRef .tc Cert.ReferenceIdeal.main_arg0) i))
    (r2 : ∀ i, Cert.ChebMath.IsReal (RW0 (F := Ideal) m' c (Proc.devRef .tc Cert.ReferenceIdeal.main_arg2) i))
    (r3 : ∀ i, Cert.ChebMath.IsReal (RW0 (F := Ideal) m' c (Proc.devRef .tc Cert.ReferenceIdeal.main_arg3) i))
    (r4 : ∀ i, Cert.ChebMath.IsReal (RW0 (F := Ideal) m' c (Proc.devRef .tc Cert.ReferenceIdeal.main_arg4) i))
    (r5 : ∀ i, Cert.ChebMath.IsReal (RW0 (F := Ideal) m' c (Proc.devRef .tc Cert.ReferenceIdeal.main_arg5) i))
    (r6 : ∀ i, Cert.ChebMath.IsReal (RW0 (F := Ideal) m' c (Proc.devRef .tc Cert.ReferenceIdeal.main_arg6) i))
    (r9 : ∀ i, Cert.ChebMath.IsReal (RW0 (F := Ideal) m' c (Proc.devRef .tc Cert.ReferenceIdeal.main_arg9) i))
    (r21 : ∀ i, Cert.ChebMath.IsReal (RW0 (F := Ideal) m' c (Proc.devRef .tc Cert.ReferenceIdeal.main_arg21) i))
    (r22 : ∀ i, Cert.ChebMath.IsReal (RW0 (F := Ideal) m' c (Proc.devRef .tc Cert.ReferenceIdeal.main_arg22) i))
    (r23 : ∀ i, Cert.ChebMath.IsReal (RW0 (F := Ideal) m' c (Proc.devRef .tc Cert.ReferenceIdeal.main_arg23) i))
    (r24 : ∀ i, Cert.ChebMath.IsReal (RW0 (F := Ideal) m' c (Proc.devRef .tc Cert.ReferenceIdeal.main_arg24) i)) :
    W15 (F := Ideal) m ρ c (Proc.devRef .tc Cert.KernelIdeal.main_v330) = RW19 (F := Ideal) m' c (Proc.devRef .tc Cert.ReferenceIdeal.main_v295)
    ∧ W15 (F := Ideal) m ρ c (Proc.devRef .tc Cert.KernelIdeal.main_v340) = RW19 (F := Ideal) m' c (Proc.devRef .tc Cert.ReferenceIdeal.main_v309)
    ∧ W15 (F := Ideal) m ρ c (Proc.devRef .tc Cert.KernelIdeal.main_v12) = RW19 (F := Ideal) m' c (Proc.devRef .tc Cert.ReferenceIdeal.main_v13)
    ∧ W15 (F := Ideal) m ρ c (Proc.devRef .tc Cert.KernelIdeal.main_v102) = RW19 (F := Ideal) m' c (Proc.devRef .tc Cert.ReferenceIdeal.main_v79) := by
  obtain ⟨hsrc, htgt⟩ := st_src m ρ m' c a1
  obtain ⟨hei, hes⟩ := st_eies m ρ m' c a0 a3 a4 a5 a6
  have hhA := st_hA m ρ m' c a2 a21 a22
  have hhB := st_hB m ρ m' c a2 a21 a22
  have hpA := st_pA m ρ m' c a23 a24 hhA
  have hpB := st_pB m ρ m' c a23 a24 hhB
  have hew := st_ew m ρ m' c hsrc htgt hes hpA hpB
  have hrec := st_recon m ρ m' c a7 a8 hei hes
  have hn := st_norm m ρ m' c hsrc htgt hew
  have hh0 := st_h0 m ρ m' c a9 hsrc htgt hei hn (real_ei m' c r0 r3 r4)
    (real_norm m' c r0 r2 r5 r6 r21 r22 r23 r24) r9
  obtain ⟨h1, j1⟩ := st_l1 m ρ m' c a10 hsrc htgt hn hh0
  obtain ⟨h2, j2⟩ := st_l2 m ρ m' c a11 hsrc htgt hn h1 j1
  obtain ⟨_, j3⟩ := st_l3 m ρ m' c a12 hsrc htgt hn h2 j2
  have hz1 := st_z1 m ρ m' c a13 a14 j3
  have ho0 := st_out0 m ρ m' c a15 a16 hz1
  have hzs := st_zs m ρ m' c a17 a18 hei
  have ho1 := st_out1 m ρ m' c a19 a20 hzs
  exact ⟨(Cert.Glue.keepK_v330_13_15 m ρ c).trans (ho0.trans (Cert.Glue.keepR_main_v295_17_19 m' c).symm), ho1,
    (Cert.Glue.keepK_v12_3_15 m ρ c).trans (hes.trans (Cert.Glue.keepR_main_v13_2_19 m' c).symm),
    (Cert.Glue.keepK_v102_8_15 m ρ c).trans (hrec.trans (Cert.Glue.keepR_main_v79_10_19 m' c).symm)⟩

end Cert.Bridge
end
-- ==== Proof.Bridge.lean ====
/- The algebraic claim: launched on memories that agree on the 25 arguments (the kernel's satisfying the input
   precondition), the kernel's program and the reference program both terminate on every weakly fair execution, each
   leaves its own arguments as launched, and the four result arrays of the one equal those of the other. The common
   values are what the kernel's run leaves in its four result buffers: the kernel's run ends with every unscoped
   buffer at the last boundary's contents, the reference's with every buffer at the fold of its operations, and the two
   agree at the four results because the launch contents agree argument by argument and, under the precondition, the
   float arguments the comparison sums over hold real numbers. -/
import proofs.«115122_j13357348290767_2_alg».proof.Defs
import proofs.«115122_j13357348290767_2_alg».proof.Proof.Gen.KernelIdeal
import proofs.«115122_j13357348290767_2_alg».proof.Proof.Gen.ReferenceIdeal
import proofs.«115122_j13357348290767_2_alg».proof.Proof.Gen.Pre_finite_inputs
import proofs.«115122_j13357348290767_2_alg».proof.Proof.KI.Args
import proofs.«115122_j13357348290767_2_alg».proof.Proof.Pre.Finite
import proofs.«115122_j13357348290767_2_alg».proof.Proof.Math.Cheb
import proofs.«115122_j13357348290767_2_alg».proof.Proof.R.Run
import proofs.«115122_j13357348290767_2_alg».proof.Proof.Bridge.Values

noncomputable section

namespace Cert.Bridge

open Idealize.ShloMosaic Idealize.ShloMosaic.TcCoe Idealize.SL.Sem
open Cert.KernelIdeal.Frame Cert.ReferenceIdeal.RValue

/-- On every device the four results of the two programs agree: the agreement of the launch memories is taken apart
    once, each conjunct read at the two launch contents, and the precondition's realness carried over to the
    reference's arguments. -/
theorem vals (m : (ℓ : Loc Cert.KernelIdeal.nD Cert.KernelIdeal.τ Cert.KernelIdeal.sig) → Buf (Elt Ideal) ℓ) (ρ : Dev Cert.KernelIdeal.nD → PrngReg) (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (c : Dev Cert.KernelIdeal.nD) :
    W15 (F := Ideal) m ρ c (Proc.devRef .tc Cert.KernelIdeal.main_v330) = RW19 (F := Ideal) m' c (Proc.devRef .tc Cert.ReferenceIdeal.main_v295)
    ∧ W15 (F := Ideal) m ρ c (Proc.devRef .tc Cert.KernelIdeal.main_v340) = RW19 (F := Ideal) m' c (Proc.devRef .tc Cert.ReferenceIdeal.main_v309)
    ∧ W15 (F := Ideal) m ρ c (Proc.devRef .tc Cert.KernelIdeal.main_v12) = RW19 (F := Ideal) m' c (Proc.devRef .tc Cert.ReferenceIdeal.main_v13)
    ∧ W15 (F := Ideal) m ρ c (Proc.devRef .tc Cert.KernelIdeal.main_v102) = RW19 (F := Ideal) m' c (Proc.devRef .tc Cert.ReferenceIdeal.main_v79) := by
  obtain ⟨e0, e1, e2, e3, e4, e5, e6, e7, e8, e9, e10, e11, e12, e13, e14, e15, e16, e17, e18, e19, e20, e21, e22, e23, e24⟩ := hagree c
  exact value_eqs m ρ m' c e0.symm e1.symm e2.symm e3.symm e4.symm e5.symm e6.symm e7.symm e8.symm e9.symm e10.symm e11.symm e12.symm e13.symm e14.symm e15.symm e16.symm e17.symm e18.symm e19.symm e20.symm e21.symm e22.symm e23.symm e24.symm
    (fun i => let ⟨r, hr⟩ := Cert.PreFinite.real_arg0 m hpre c i; ⟨r, (congrFun e0 i).trans hr⟩)
    (fun i => let ⟨r, hr⟩ := Cert.PreFinite.real_arg2 m hpre c i; ⟨r, (congrFun e2 i).trans hr⟩)
    (fun i => let ⟨r, hr⟩ := Cert.PreFinite.real_arg3 m hpre c i; ⟨r, (congrFun e3 i).trans hr⟩)
    (fun i => let ⟨r, hr⟩ := Cert.PreFinite.real_arg4 m hpre c i; ⟨r, (congrFun e4 i).trans hr⟩)
    (fun i => let ⟨r, hr⟩ := Cert.PreFinite.real_arg5 m hpre c i; ⟨r, (congrFun e5 i).trans hr⟩)
    (fun i => let ⟨r, hr⟩ := Cert.PreFinite.real_arg6 m hpre c i; ⟨r, (congrFun e6 i).trans hr⟩)
    (fun i => let ⟨r, hr⟩ := Cert.PreFinite.real_arg9 m hpre c i; ⟨r, (congrFun e9 i).trans hr⟩)
    (fun i => let ⟨r, hr⟩ := Cert.PreFinite.real_arg21 m hpre c i; ⟨r, (congrFun e21 i).trans hr⟩)
    (fun i => let ⟨r, hr⟩ := Cert.PreFinite.real_arg22 m hpre c i; ⟨r, (congrFun e22 i).trans hr⟩)
    (fun i => let ⟨r, hr⟩ := Cert.PreFinite.real_arg23 m hpre c i; ⟨r, (congrFun e23 i).trans hr⟩)
    (fun i => let ⟨r, hr⟩ := Cert.PreFinite.real_arg24 m hpre c i; ⟨r, (congrFun e24 i).trans hr⟩)

theorem algebraic : Cert.algebraic_KernelIdeal_ReferenceIdeal := by
  intro m ρ m' ρ' hpre hagree
  refine ⟨fun c => W15 (F := Ideal) m ρ c (Proc.devRef .tc Cert.KernelIdeal.main_v330),
    fun c => W15 (F := Ideal) m ρ c (Proc.devRef .tc Cert.KernelIdeal.main_v340),
    fun c => W15 (F := Ideal) m ρ c (Proc.devRef .tc Cert.KernelIdeal.main_v12),
    fun c => W15 (F := Ideal) m ρ c (Proc.devRef .tc Cert.KernelIdeal.main_v102), ?_, ?_⟩
  · exact (θ_run _ _ _).mono (fun r h c =>
      ⟨h c _ (mem_uc Cert.KernelIdeal.main_v330 (by decide)),
       h c _ (mem_uc Cert.KernelIdeal.main_v340 (by decide)),
       h c _ (mem_uc Cert.KernelIdeal.main_v12 (by decide)),
       h c _ (mem_uc Cert.KernelIdeal.main_v102 (by decide)),
       (h c _ (mem_uc Cert.KernelIdeal.main_arg0 (by decide))).trans (W15_main_arg0 m ρ c),
       (h c _ (mem_uc Cert.KernelIdeal.main_arg1 (by decide))).trans (W15_main_arg1 m ρ c),
       (h c _ (mem_uc Cert.KernelIdeal.main_arg2 (by decide))).trans (W15_main_arg2 m ρ c),
       (h c _ (mem_uc Cert.KernelIdeal.main_arg3 (by decide))).trans (W15_main_arg3 m ρ c),
       (h c _ (mem_uc Cert.KernelIdeal.main_arg4 (by decide))).trans (W15_main_arg4 m ρ c),
       (h c _ (mem_uc Cert.KernelIdeal.main_arg5 (by decide))).trans (W15_main_arg5 m ρ c),
       (h c _ (mem_uc Cert.KernelIdeal.main_arg6 (by decide))).trans (W15_main_arg6 m ρ c),
       (h c _ (mem_uc Cert.KernelIdeal.main_arg7 (by decide))).trans (W15_main_arg7 m ρ c),
       (h c _ (mem_uc Cert.KernelIdeal.main_arg8 (by decide))).trans (W15_main_arg8 m ρ c),
       (h c _ (mem_uc Cert.KernelIdeal.main_arg9 (by decide))).trans (W15_main_arg9 m ρ c),
       (h c _ (mem_uc Cert.KernelIdeal.main_arg10 (by decide))).trans (W15_main_arg10 m ρ c),
       (h c _ (mem_uc Cert.KernelIdeal.main_arg11 (by decide))).trans (W15_main_arg11 m ρ c),
       (h c _ (mem_uc Cert.KernelIdeal.main_arg12 (by decide))).trans (W15_main_arg12 m ρ c),
       (h c _ (mem_uc Cert.KernelIdeal.main_arg13 (by decide))).trans (W15_main_arg13 m ρ c),
       (h c _ (mem_uc Cert.KernelIdeal.main_arg14 (by decide))).trans (W15_main_arg14 m ρ c),
       (h c _ (mem_uc Cert.KernelIdeal.main_arg15 (by decide))).trans (W15_main_arg15 m ρ c),
       (h c _ (mem_uc Cert.KernelIdeal.main_arg16 (by decide))).trans (W15_main_arg16 m ρ c),
       (h c _ (mem_uc Cert.KernelIdeal.main_arg17 (by decide))).trans (W15_main_arg17 m ρ c),
       (h c _ (mem_uc Cert.KernelIdeal.main_arg18 (by decide))).trans (W15_main_arg18 m ρ c),
       (h c _ (mem_uc Cert.KernelIdeal.main_arg19 (by decide))).trans (W15_main_arg19 m ρ c),
       (h c _ (mem_uc Cert.KernelIdeal.main_arg20 (by decide))).trans (W15_main_arg20 m ρ c),
       (h c _ (mem_uc Cert.KernelIdeal.main_arg21 (by decide))).trans (W15_main_arg21 m ρ c),
       (h c _ (mem_uc Cert.KernelIdeal.main_arg22 (by decide))).trans (W15_main_arg22 m ρ c),
       (h c _ (mem_uc Cert.KernelIdeal.main_arg23 (by decide))).trans (W15_main_arg23 m ρ c),
       (h c _ (mem_uc Cert.KernelIdeal.main_arg24 (by decide))).trans (W15_main_arg24 m ρ c)⟩) (run_all m ρ)
  · exact (θ_run _ _ _).mono (fun r h c =>
      have hv := vals m ρ m' hpre hagree c
      ⟨(h c Cert.ReferenceIdeal.main_v295).trans hv.1.symm,
       (h c Cert.ReferenceIdeal.main_v309).trans hv.2.1.symm,
       (h c Cert.ReferenceIdeal.main_v13).trans hv.2.2.1.symm,
       (h c Cert.ReferenceIdeal.main_v79).trans hv.2.2.2.symm,
       (h c Cert.ReferenceIdeal.main_arg0).trans (RW19_main_arg0 m' c),
       (h c Cert.ReferenceIdeal.main_arg1).trans (RW19_main_arg1 m' c),
       (h c Cert.ReferenceIdeal.main_arg2).trans (RW19_main_arg2 m' c),
       (h c Cert.ReferenceIdeal.main_arg3).trans (RW19_main_arg3 m' c),
       (h c Cert.ReferenceIdeal.main_arg4).trans (RW19_main_arg4 m' c),
       (h c Cert.ReferenceIdeal.main_arg5).trans (RW19_main_arg5 m' c),
       (h c Cert.ReferenceIdeal.main_arg6).trans (RW19_main_arg6 m' c),
       (h c Cert.ReferenceIdeal.main_arg7).trans (RW19_main_arg7 m' c),
       (h c Cert.ReferenceIdeal.main_arg8).trans (RW19_main_arg8 m' c),
       (h c Cert.ReferenceIdeal.main_arg9).trans (RW19_main_arg9 m' c),
       (h c Cert.ReferenceIdeal.main_arg10).trans (RW19_main_arg10 m' c),
       (h c Cert.ReferenceIdeal.main_arg11).trans (RW19_main_arg11 m' c),
       (h c Cert.ReferenceIdeal.main_arg12).trans (RW19_main_arg12 m' c),
       (h c Cert.ReferenceIdeal.main_arg13).trans (RW19_main_arg13 m' c),
       (h c Cert.ReferenceIdeal.main_arg14).trans (RW19_main_arg14 m' c),
       (h c Cert.ReferenceIdeal.main_arg15).trans (RW19_main_arg15 m' c),
       (h c Cert.ReferenceIdeal.main_arg16).trans (RW19_main_arg16 m' c),
       (h c Cert.ReferenceIdeal.main_arg17).trans (RW19_main_arg17 m' c),
       (h c Cert.ReferenceIdeal.main_arg18).trans (RW19_main_arg18 m' c),
       (h c Cert.ReferenceIdeal.main_arg19).trans (RW19_main_arg19 m' c),
       (h c Cert.ReferenceIdeal.main_arg20).trans (RW19_main_arg20 m' c),
       (h c Cert.ReferenceIdeal.main_arg21).trans (RW19_main_arg21 m' c),
       (h c Cert.ReferenceIdeal.main_arg22).trans (RW19_main_arg22 m' c),
       (h c Cert.ReferenceIdeal.main_arg23).trans (RW19_main_arg23 m' c),
       (h c Cert.ReferenceIdeal.main_arg24).trans (RW19_main_arg24 m' c)⟩) (run_fold m' ρ')

end Cert.Bridge

end
-- ==== Proof.lean ====
/- The certificate's claim, assembled from its five parts.

   The kernel is a graph network over node features, an edge list and edge attributes: six fused dense layers — a row
   block of the activations times a weight matrix plus a bias row, the last two followed by `max(·, 0)` scaled by a
   constant — among host graph operations (gathers along the edges, scatter-adds onto the nodes, Chebyshev layers of
   the graph propagation). The reference computes the same four results with plain array operations only.

   * The kernel runs — every weakly fair execution terminates, nothing faulting — and leaves its argument arrays
     unchanged, at the bit-exact instance of the float operations.
   * The same at the exact instance (floats as extended reals, every operation exact).
   * The reference runs and leaves its argument arrays unchanged, at the exact instance.
   * Reading the kernel at the exact instance rewrote no operation: there is nothing to preserve.
   * At the exact instance, from memories that agree on the arguments, the kernel and the reference end with equal
     results, all four, element by element. The two programs arrange the arithmetic differently in three places:
     the first Chebyshev layer (equal by linearity of the graph propagation), the edge weight (a cosine whose sums
     are split differently), and the dense layers (a fused matrix product with its bias against a separate product
     and sum).

   Each part is proved in a module imported below; here they are put side by side, the programs' stated side
   conditions witnessed by the instances proved beside the programs. -/
import proofs.«115122_j13357348290767_2_alg».proof.Defs
import proofs.«115122_j13357348290767_2_alg».proof.Proof.Gen.Kernel
import proofs.«115122_j13357348290767_2_alg».proof.Proof.Gen.KernelIdeal
import proofs.«115122_j13357348290767_2_alg».proof.Proof.Gen.ReferenceIdeal
import proofs.«115122_j13357348290767_2_alg».proof.Proof.Gen.Pre_finite_inputs
import proofs.«115122_j13357348290767_2_alg».proof.Proof.K.Args
import proofs.«115122_j13357348290767_2_alg».proof.Proof.KI.Args
import proofs.«115122_j13357348290767_2_alg».proof.Proof.R.Run
import proofs.«115122_j13357348290767_2_alg».proof.Proof.Bridge

noncomputable section

namespace Cert.Proof

open Idealize.ShloMosaic Idealize.SL.Sem

/-- The kernel at the bit-exact instance runs and leaves its arguments unchanged. -/
theorem frame_Kernel : Cert.frame_Kernel := fun m ρ _ => Cert.Kernel.Frame.frame m ρ

/-- The kernel at the exact instance runs and leaves its arguments unchanged. -/
theorem frame_KernelIdeal : Cert.frame_KernelIdeal := fun m ρ _ => Cert.KernelIdeal.Frame.frame m ρ

/-- The reference at the exact instance runs and leaves its arguments unchanged. -/
theorem frame_ReferenceIdeal : Cert.frame_ReferenceIdeal := fun m ρ _ => Cert.ReferenceIdeal.RValue.frame_ri m ρ

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, Cert.Bridge.algebraic⟩

end Cert.Proof

end
